-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x200x1 : Shape := ⟨3, ![16384, 200, 1]⟩
abbrev S_ : Shape := ⟨0, ![]⟩

class Facts : Prop where
  bcast_S_S16384x200x1 : S_.BroadcastsInDim S16384x200x1 (![] : Fin 0 → Fin S16384x200x1.rank)
  reducesTo_S16384x200x1_S_d0_1_2 : S16384x200x1.ReducesTo [0, 1, 2] S_
  h_S_ : 0 < S_.numel

variable [Facts]

def fn {F : FTy → Type} [FloatOps F] (main_arg0 : FVec F S16384x200x1 .f32) : IVec S_ 1 :=
  let main_v0 : FVec F S16384x200x1 .f32 := Host.absf main_arg0
  let main_cst : FVec F S_ .f32 := constant S_ .f32 0x7F800000#32
  let main_v1 : FVec F S16384x200x1 .f32 := broadcastInDim S16384x200x1 ![] bcast_S_S16384x200x1 main_cst
  let main_v2 : IVec S16384x200x1 1 := cmpf .olt main_v0 main_v1
  let main_c : IVec S_ 1 := constantI S_ 1 1#1
  let main_v3 : IVec S_ 1 := (fun x v => Host.reduce IntOp.andi x v reducesTo_S16384x200x1_S_d0_1_2 h_S_) main_v2 main_c
  let main_cst_0 : FVec F S_ .f32 := constant S_ .f32 0x00000000#32
  let main_v4 : FVec F S16384x200x1 .f32 := broadcastInDim S16384x200x1 ![] bcast_S_S16384x200x1 main_cst_0
  let main_v5 : IVec S16384x200x1 1 := cmpf .oge main_arg0 main_v4
  let main_c_1 : IVec S_ 1 := constantI S_ 1 1#1
  let main_v6 : IVec S_ 1 := (fun x v => Host.reduce IntOp.andi x v reducesTo_S16384x200x1_S_d0_1_2 h_S_) main_v5 main_c_1
  let main_v7 : IVec S_ 1 := andi main_v3 main_v6
  let main_cst_2 : FVec F S_ .f32 := constant S_ .f32 0x3F800000#32
  let main_v8 : FVec F S16384x200x1 .f32 := broadcastInDim S16384x200x1 ![] bcast_S_S16384x200x1 main_cst_2
  let main_v9 : IVec S16384x200x1 1 := cmpf .ole main_arg0 main_v8
  let main_c_3 : IVec S_ 1 := constantI S_ 1 1#1
  let main_v10 : IVec S_ 1 := (fun x v => Host.reduce IntOp.andi x v reducesTo_S16384x200x1_S_d0_1_2 h_S_) main_v9 main_c_3
  let main_v11 : IVec S_ 1 := andi main_v7 main_v10
  main_v11
-- ==== Kernel.lean ====
abbrev S16384x200x1 : Shape := ⟨3, ![16384, 200, 1]⟩
abbrev S128x128x200 : Shape := ⟨3, ![128, 128, 200]⟩
abbrev S200x128x128 : Shape := ⟨3, ![200, 128, 128]⟩
abbrev S409600x128 : Shape := ⟨2, ![409600, 128]⟩
abbrev S2x4x4x128 : Shape := ⟨4, ![2, 4, 4, 128]⟩
abbrev S4x64x128 : Shape := ⟨3, ![4, 64, 128]⟩
abbrev S_ : Shape := ⟨0, ![]⟩
abbrev S1x4x4x128 : Shape := ⟨4, ![1, 4, 4, 128]⟩
abbrev S4x4x128 : Shape := ⟨3, ![4, 4, 128]⟩
abbrev S1x32x128 : Shape := ⟨3, ![1, 32, 128]⟩
abbrev S32x128 : Shape := ⟨2, ![32, 128]⟩
abbrev S16 : Shape := ⟨1, ![16]⟩
abbrev S1x1x1x16 : Shape := ⟨4, ![1, 1, 1, 16]⟩
abbrev S1x1x16 : Shape := ⟨3, ![1, 1, 16]⟩
abbrev S200x2x128x8x128 : Shape := ⟨5, ![200, 2, 128, 8, 128]⟩
abbrev S128x128x200x2x8 : Shape := ⟨5, ![128, 128, 200, 2, 8]⟩
abbrev S16384x200x16 : Shape := ⟨3, ![16384, 200, 16]⟩

abbrev nBuf : Table → Nat
  | .hbm => 7
  | .local .scVector .vmem => 2
  | _ => 0

abbrev bufTy : (tb : Table) → Fin (nBuf tb) → BufTy
  | .hbm, ⟨0, _⟩ => ⟨S16384x200x1, .f32⟩
  | .hbm, ⟨1, _⟩ => ⟨S128x128x200, .f32⟩
  | .hbm, ⟨2, _⟩ => ⟨S200x128x128, .f32⟩
  | .hbm, ⟨3, _⟩ => ⟨S409600x128, .f32⟩
  | .hbm, ⟨4, _⟩ => ⟨S200x2x128x8x128, .f32⟩
  | .hbm, ⟨5, _⟩ => ⟨S128x128x200x2x8, .f32⟩
  | .hbm, ⟨6, _⟩ => ⟨S16384x200x16, .f32⟩
  | .local .scVector .vmem, ⟨0, _⟩ => ⟨S2x4x4x128, .f32⟩
  | .local .scVector .vmem, ⟨1, _⟩ => ⟨S4x64x128, .f32⟩
  | _, _ => ⟨S16384x200x1, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v1_scv : Ref sig .scVector := ⟨.hbm, 2, rfl⟩
abbrev main_v2_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let c0_i32_3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let c0_i32_4 : BitVec 32 := 0#32
  ![0, v2.toNat, 0]
def k0_off2 (i : grid0.Coords) : Fin 3 → Nat :=
  let c4_i32_14 : BitVec 32 := 4#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_10 : BitVec 32 := 4#32
  let v9 : BitVec 32 := Scalar.muli v1 c4_i32_10
  let c0_i32_15 : BitVec 32 := 0#32
  ![4, v9.toNat, 0]
@[reducible] def k0_t1_loop : Scf.Loop 32 :=
  let c0_i32_22 : BitVec 32 := 0#32
  let c25_i32 : BitVec 32 := 25#32
  let v16 : BitVec 32 := Scalar.addi c0_i32_22 c25_i32
  let c1_i32_23 : BitVec 32 := 1#32
  ⟨c0_i32_22, v16, c1_i32_23⟩
def k0_off3 (i : grid0.Coords) (k0_t1 : Fin k0_t1_loop.trips) : Fin 3 → Nat :=
  let c0_i32_22 : BitVec 32 := 0#32
  let c1_i32_23 : BitVec 32 := 1#32
  let arg16 : BitVec 32 := Scf.iv c0_i32_22 c1_i32_23 k0_t1
  let c2_i32_86 : BitVec 32 := 2#32
  let v77 : BitVec 32 := Scalar.muli arg16 c2_i32_86
  let c4_i32_87 : BitVec 32 := 4#32
  let v78 : BitVec 32 := Scalar.muli v77 c4_i32_87
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_88 : BitVec 32 := 4#32
  let v79 : BitVec 32 := Scalar.muli v1 c4_i32_88
  let c0_i32_93 : BitVec 32 := 0#32
  ![v78.toNat, v79.toNat, 0]
def k0_cond1 (k0_t1 : Fin k0_t1_loop.trips) : BitVec 1 :=
  let c0_i32_22 : BitVec 32 := 0#32
  let c1_i32_23 : BitVec 32 := 1#32
  let arg16 : BitVec 32 := Scf.iv c0_i32_22 c1_i32_23 k0_t1
  let c2_i32_86 : BitVec 32 := 2#32
  let v77 : BitVec 32 := Scalar.muli arg16 c2_i32_86
  let c1_i32_101 : BitVec 32 := 1#32
  let v91 : BitVec 1 := Scalar.cmpi .sge v77 c1_i32_101
  let v92 : BitVec 32 := Scalar.extui v91
  let c0_i32_102 : BitVec 32 := 0#32
  let v93 : BitVec 1 := Scalar.cmpi .ne v92 c0_i32_102
  v93

def k0_off4 (i : grid0.Coords) (k0_t1 : Fin k0_t1_loop.trips) : Fin 2 → Nat :=
  let c0_i32_22 : BitVec 32 := 0#32
  let c1_i32_23 : BitVec 32 := 1#32
  let arg16 : BitVec 32 := Scf.iv c0_i32_22 c1_i32_23 k0_t1
  let c2_i32_86 : BitVec 32 := 2#32
  let v77 : BitVec 32 := Scalar.muli arg16 c2_i32_86
  let c4_i32_98 : BitVec 32 := 4#32
  let v86 : BitVec 32 := Scalar.muli v77 c4_i32_98
  let c0_i32_99 : BitVec 32 := 0#32
  let v87 : BitVec 32 := Scalar.addi v86 c0_i32_99
  let c4_i32_323 : BitVec 32 := 4#32
  let v280 : BitVec 32 := Scalar.subi v87 c4_i32_323
  let c2048_i32_324 : BitVec 32 := 2048#32
  let v281 : BitVec 32 := Scalar.muli v280 c2048_i32_324
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_325 : BitVec 32 := 32#32
  let v282 : BitVec 32 := Scalar.muli v1 c32_i32_325
  let v283 : BitVec 32 := Scalar.addi v281 v282
  let c0_i32_329 : BitVec 32 := 0#32
  ![v283.toNat, 0]
def k0_off5 (i : grid0.Coords) (k0_t1 : Fin k0_t1_loop.trips) : Fin 2 → Nat :=
  let c0_i32_22 : BitVec 32 := 0#32
  let c1_i32_23 : BitVec 32 := 1#32
  let arg16 : BitVec 32 := Scf.iv c0_i32_22 c1_i32_23 k0_t1
  let c2_i32_86 : BitVec 32 := 2#32
  let v77 : BitVec 32 := Scalar.muli arg16 c2_i32_86
  let c4_i32_98 : BitVec 32 := 4#32
  let v86 : BitVec 32 := Scalar.muli v77 c4_i32_98
  let c0_i32_99 : BitVec 32 := 0#32
  let v87 : BitVec 32 := Scalar.addi v86 c0_i32_99
  let c4_i32_323 : BitVec 32 := 4#32
  let v280 : BitVec 32 := Scalar.subi v87 c4_i32_323
  let c2048_i32_324 : BitVec 32 := 2048#32
  let v281 : BitVec 32 := Scalar.muli v280 c2048_i32_324
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_325 : BitVec 32 := 32#32
  let v282 : BitVec 32 := Scalar.muli v1 c32_i32_325
  let v283 : BitVec 32 := Scalar.addi v281 v282
  let c1024_i32_333 : BitVec 32 := 1024#32
  let v290 : BitVec 32 := Scalar.addi v283 c1024_i32_333
  let c0_i32_337 : BitVec 32 := 0#32
  ![v290.toNat, 0]
@[reducible] def k0_t2_loop : Scf.Loop 32 :=
  let c0_i32_104 : BitVec 32 := 0#32
  let c32_i32_105 : BitVec 32 := 32#32
  let v94 : BitVec 32 := Scalar.addi c0_i32_104 c32_i32_105
  let c1_i32_106 : BitVec 32 := 1#32
  ⟨c0_i32_104, v94, c1_i32_106⟩
def k0_off6 (k0_t2 : Fin k0_t2_loop.trips) : Fin 4 → Nat :=
  let c0_i32_335 : BitVec 32 := 0#32
  let v308 : Index := Scalar.indexCast c0_i32_335
  let c0_i32_336 : BitVec 32 := 0#32
  let v309 : Index := Scalar.indexCast c0_i32_336
  let c0_i32_104 : BitVec 32 := 0#32
  let c1_i32_106 : BitVec 32 := 1#32
  let arg17 : BitVec 32 := Scf.iv c0_i32_104 c1_i32_106 k0_t2
  let c0_i32_323 : BitVec 32 := 0#32
  let v281 : BitVec 1 := Scalar.cmpi .sgt arg17 c0_i32_323
  let v282 : BitVec 32 := Scalar.extui v281
  let c0_i32_324 : BitVec 32 := 0#32
  let v283 : BitVec 1 := Scalar.cmpi .slt arg17 c0_i32_324
  let v284 : BitVec 32 := Scalar.extui v283
  let v285 : BitVec 32 := Scalar.subi v282 v284
  let c8_i32 : BitVec 32 := 8#32
  let c0_i32_325 : BitVec 32 := 0#32
  let v286 : BitVec 1 := Scalar.cmpi .sgt c8_i32 c0_i32_325
  let v287 : BitVec 32 := Scalar.extui v286
  let c0_i32_326 : BitVec 32 := 0#32
  let v288 : BitVec 1 := Scalar.cmpi .slt c8_i32 c0_i32_326
  let v289 : BitVec 32 := Scalar.extui v288
  let v290 : BitVec 32 := Scalar.subi v287 v289
  let v291 : BitVec 1 := Scalar.cmpi .ne v285 v290
  let v292 : BitVec 32 := Scalar.remsi arg17 c8_i32
  let c0_i32_327 : BitVec 32 := 0#32
  let v293 : BitVec 1 := Scalar.cmpi .ne v292 c0_i32_327
  let v294 : BitVec 1 := Scalar.andi v291 v293
  let v280 : BitVec 32 := Scalar.divsi arg17 c8_i32
  let c1_i32_328 : BitVec 32 := 1#32
  let v295 : BitVec 32 := Scalar.subi v280 c1_i32_328
  let v296 : BitVec 32 := Scalar.select v294 v295 v280
  let v310 : Index := Scalar.indexCast v296
  let c8_i32_329 : BitVec 32 := 8#32
  let c0_i32_330 : BitVec 32 := 0#32
  let v297 : BitVec 1 := Scalar.cmpi .eq c8_i32_329 c0_i32_330
  let c1_i32_331 : BitVec 32 := 1#32
  let v298 : BitVec 32 := Scalar.select v297 c1_i32_331 c8_i32_329
  let v299 : BitVec 32 := Scalar.remsi arg17 v298
  let c0_i32_333 : BitVec 32 := 0#32
  let v301 : BitVec 1 := Scalar.cmpi .slt v299 c0_i32_333
  let c0_i32_334 : BitVec 32 := 0#32
  let v302 : BitVec 1 := Scalar.cmpi .slt v298 c0_i32_334
  let v303 : BitVec 1 := Scalar.xori v301 v302
  let c0_i32_332 : BitVec 32 := 0#32
  let v300 : BitVec 1 := Scalar.cmpi .ne v299 c0_i32_332
  let v304 : BitVec 1 := Scalar.andi v303 v300
  let v305 : BitVec 32 := Scalar.addi v299 v298
  let v306 : BitVec 32 := Scalar.select v304 v305 v299
  let c16_i32 : BitVec 32 := 16#32
  let v307 : BitVec 32 := Scalar.muli v306 c16_i32
  let v311 : Index := Scalar.indexCast v307
  ![0, 0, v310.toNat, v311.toNat]
def k0_off7 (k0_t2 : Fin k0_t2_loop.trips) (c0_i32_351 : BitVec 32) (c0_i32_352 : BitVec 32) : Fin 3 → Nat :=
  let c0_i32_360 : BitVec 32 := 0#32
  let v360 : Index := Scalar.indexCast c0_i32_360
  let c0_i32_104 : BitVec 32 := 0#32
  let c1_i32_106 : BitVec 32 := 1#32
  let arg17 : BitVec 32 := Scf.iv c0_i32_104 c1_i32_106 k0_t2
  let c0_i32_344 : BitVec 32 := 0#32
  let v330 : BitVec 1 := Scalar.cmpi .sgt arg17 c0_i32_344
  let v331 : BitVec 32 := Scalar.extui v330
  let c0_i32_345 : BitVec 32 := 0#32
  let v332 : BitVec 1 := Scalar.cmpi .slt arg17 c0_i32_345
  let v333 : BitVec 32 := Scalar.extui v332
  let v334 : BitVec 32 := Scalar.subi v331 v333
  let c8_i32_343 : BitVec 32 := 8#32
  let c0_i32_346 : BitVec 32 := 0#32
  let v335 : BitVec 1 := Scalar.cmpi .sgt c8_i32_343 c0_i32_346
  let v336 : BitVec 32 := Scalar.extui v335
  let c0_i32_347 : BitVec 32 := 0#32
  let v337 : BitVec 1 := Scalar.cmpi .slt c8_i32_343 c0_i32_347
  let v338 : BitVec 32 := Scalar.extui v337
  let v339 : BitVec 32 := Scalar.subi v336 v338
  let v340 : BitVec 1 := Scalar.cmpi .ne v334 v339
  let v341 : BitVec 32 := Scalar.remsi arg17 c8_i32_343
  let c0_i32_348 : BitVec 32 := 0#32
  let v342 : BitVec 1 := Scalar.cmpi .ne v341 c0_i32_348
  let v343 : BitVec 1 := Scalar.andi v340 v342
  let v329 : BitVec 32 := Scalar.divsi arg17 c8_i32_343
  let c1_i32_349 : BitVec 32 := 1#32
  let v344 : BitVec 32 := Scalar.subi v329 c1_i32_349
  let v345 : BitVec 32 := Scalar.select v343 v344 v329
  let c8_i32_350 : BitVec 32 := 8#32
  let v346 : BitVec 32 := Scalar.muli v345 c8_i32_350
  let v347 : BitVec 32 := Scalar.addi c0_i32_351 v346
  let v348 : BitVec 32 := Scalar.addi v347 c0_i32_352
  let v361 : Index := Scalar.indexCast v348
  let c8_i32_353 : BitVec 32 := 8#32
  let c0_i32_354 : BitVec 32 := 0#32
  let v349 : BitVec 1 := Scalar.cmpi .eq c8_i32_353 c0_i32_354
  let c1_i32_355 : BitVec 32 := 1#32
  let v350 : BitVec 32 := Scalar.select v349 c1_i32_355 c8_i32_353
  let v351 : BitVec 32 := Scalar.remsi arg17 v350
  let c0_i32_357 : BitVec 32 := 0#32
  let v353 : BitVec 1 := Scalar.cmpi .slt v351 c0_i32_357
  let c0_i32_358 : BitVec 32 := 0#32
  let v354 : BitVec 1 := Scalar.cmpi .slt v350 c0_i32_358
  let v355 : BitVec 1 := Scalar.xori v353 v354
  let c0_i32_356 : BitVec 32 := 0#32
  let v352 : BitVec 1 := Scalar.cmpi .ne v351 c0_i32_356
  let v356 : BitVec 1 := Scalar.andi v355 v352
  let v357 : BitVec 32 := Scalar.addi v351 v350
  let v358 : BitVec 32 := Scalar.select v356 v357 v351
  let c16_i32_359 : BitVec 32 := 16#32
  let v359 : BitVec 32 := Scalar.muli v358 c16_i32_359
  let v362 : Index := Scalar.indexCast v359
  ![0, v361.toNat, v362.toNat]
def k0_off8 (i : grid0.Coords) (k0_t1 : Fin k0_t1_loop.trips) (c0_i32_99 : BitVec 32) : Fin 2 → Nat :=
  let c0_i32_22 : BitVec 32 := 0#32
  let c1_i32_23 : BitVec 32 := 1#32
  let arg16 : BitVec 32 := Scf.iv c0_i32_22 c1_i32_23 k0_t1
  let c2_i32_86 : BitVec 32 := 2#32
  let v77 : BitVec 32 := Scalar.muli arg16 c2_i32_86
  let c4_i32_98 : BitVec 32 := 4#32
  let v86 : BitVec 32 := Scalar.muli v77 c4_i32_98
  let v87 : BitVec 32 := Scalar.addi v86 c0_i32_99
  let c2048_i32 : BitVec 32 := 2048#32
  let v88 : BitVec 32 := Scalar.muli v87 c2048_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_100 : BitVec 32 := 32#32
  let v89 : BitVec 32 := Scalar.muli v1 c32_i32_100
  let v90 : BitVec 32 := Scalar.addi v88 v89
  let c0_i32_111 : BitVec 32 := 0#32
  ![v90.toNat, 0]
def k0_off9 (i : grid0.Coords) (k0_t1 : Fin k0_t1_loop.trips) (c0_i32_99 : BitVec 32) : Fin 2 → Nat :=
  let c0_i32_22 : BitVec 32 := 0#32
  let c1_i32_23 : BitVec 32 := 1#32
  let arg16 : BitVec 32 := Scf.iv c0_i32_22 c1_i32_23 k0_t1
  let c2_i32_86 : BitVec 32 := 2#32
  let v77 : BitVec 32 := Scalar.muli arg16 c2_i32_86
  let c4_i32_98 : BitVec 32 := 4#32
  let v86 : BitVec 32 := Scalar.muli v77 c4_i32_98
  let v87 : BitVec 32 := Scalar.addi v86 c0_i32_99
  let c2048_i32 : BitVec 32 := 2048#32
  let v88 : BitVec 32 := Scalar.muli v87 c2048_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_100 : BitVec 32 := 32#32
  let v89 : BitVec 32 := Scalar.muli v1 c32_i32_100
  let v90 : BitVec 32 := Scalar.addi v88 v89
  let c1024_i32_115 : BitVec 32 := 1024#32
  let v101 : BitVec 32 := Scalar.addi v90 c1024_i32_115
  let c0_i32_119 : BitVec 32 := 0#32
  ![v101.toNat, 0]
def k0_cond2 (k0_t1 : Fin k0_t1_loop.trips) : BitVec 1 :=
  let c0_i32_22 : BitVec 32 := 0#32
  let c1_i32_23 : BitVec 32 := 1#32
  let arg16 : BitVec 32 := Scf.iv c0_i32_22 c1_i32_23 k0_t1
  let c2_i32_86 : BitVec 32 := 2#32
  let v77 : BitVec 32 := Scalar.muli arg16 c2_i32_86
  let c1_i32_127 : BitVec 32 := 1#32
  let v113 : BitVec 1 := Scalar.cmpi .sge v77 c1_i32_127
  let v114 : BitVec 32 := Scalar.extui v113
  let c0_i32_128 : BitVec 32 := 0#32
  let v115 : BitVec 1 := Scalar.cmpi .ne v114 c0_i32_128
  v115

def k0_off10 (i : grid0.Coords) (k0_t1 : Fin k0_t1_loop.trips) : Fin 2 → Nat :=
  let c0_i32_22 : BitVec 32 := 0#32
  let c1_i32_23 : BitVec 32 := 1#32
  let arg16 : BitVec 32 := Scf.iv c0_i32_22 c1_i32_23 k0_t1
  let c2_i32_86 : BitVec 32 := 2#32
  let v77 : BitVec 32 := Scalar.muli arg16 c2_i32_86
  let c4_i32_123 : BitVec 32 := 4#32
  let v108 : BitVec 32 := Scalar.muli v77 c4_i32_123
  let c1_i32_124 : BitVec 32 := 1#32
  let v109 : BitVec 32 := Scalar.addi v108 c1_i32_124
  let c4_i32_323 : BitVec 32 := 4#32
  let v280 : BitVec 32 := Scalar.subi v109 c4_i32_323
  let c2048_i32_324 : BitVec 32 := 2048#32
  let v281 : BitVec 32 := Scalar.muli v280 c2048_i32_324
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_325 : BitVec 32 := 32#32
  let v282 : BitVec 32 := Scalar.muli v1 c32_i32_325
  let v283 : BitVec 32 := Scalar.addi v281 v282
  let c0_i32_329 : BitVec 32 := 0#32
  ![v283.toNat, 0]
def k0_off11 (i : grid0.Coords) (k0_t1 : Fin k0_t1_loop.trips) : Fin 2 → Nat :=
  let c0_i32_22 : BitVec 32 := 0#32
  let c1_i32_23 : BitVec 32 := 1#32
  let arg16 : BitVec 32 := Scf.iv c0_i32_22 c1_i32_23 k0_t1
  let c2_i32_86 : BitVec 32 := 2#32
  let v77 : BitVec 32 := Scalar.muli arg16 c2_i32_86
  let c4_i32_123 : BitVec 32 := 4#32
  let v108 : BitVec 32 := Scalar.muli v77 c4_i32_123
  let c1_i32_124 : BitVec 32 := 1#32
  let v109 : BitVec 32 := Scalar.addi v108 c1_i32_124
  let c4_i32_323 : BitVec 32 := 4#32
  let v280 : BitVec 32 := Scalar.subi v109 c4_i32_323
  let c2048_i32_324 : BitVec 32 := 2048#32
  let v281 : BitVec 32 := Scalar.muli v280 c2048_i32_324
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_325 : BitVec 32 := 32#32
  let v282 : BitVec 32 := Scalar.muli v1 c32_i32_325
  let v283 : BitVec 32 := Scalar.addi v281 v282
  let c1024_i32_333 : BitVec 32 := 1024#32
  let v290 : BitVec 32 := Scalar.addi v283 c1024_i32_333
  let c0_i32_337 : BitVec 32 := 0#32
  ![v290.toNat, 0]
@[reducible] def k0_t3_loop : Scf.Loop 32 :=
  let c0_i32_130 : BitVec 32 := 0#32
  let c32_i32_131 : BitVec 32 := 32#32
  let v116 : BitVec 32 := Scalar.addi c0_i32_130 c32_i32_131
  let c1_i32_132 : BitVec 32 := 1#32
  ⟨c0_i32_130, v116, c1_i32_132⟩
def k0_off12 (k0_t3 : Fin k0_t3_loop.trips) : Fin 4 → Nat :=
  let c0_i32_335 : BitVec 32 := 0#32
  let v308 : Index := Scalar.indexCast c0_i32_335
  let c1_i32_336 : BitVec 32 := 1#32
  let v309 : Index := Scalar.indexCast c1_i32_336
  let c0_i32_130 : BitVec 32 := 0#32
  let c1_i32_132 : BitVec 32 := 1#32
  let arg17 : BitVec 32 := Scf.iv c0_i32_130 c1_i32_132 k0_t3
  let c0_i32_323 : BitVec 32 := 0#32
  let v281 : BitVec 1 := Scalar.cmpi .sgt arg17 c0_i32_323
  let v282 : BitVec 32 := Scalar.extui v281
  let c0_i32_324 : BitVec 32 := 0#32
  let v283 : BitVec 1 := Scalar.cmpi .slt arg17 c0_i32_324
  let v284 : BitVec 32 := Scalar.extui v283
  let v285 : BitVec 32 := Scalar.subi v282 v284
  let c8_i32 : BitVec 32 := 8#32
  let c0_i32_325 : BitVec 32 := 0#32
  let v286 : BitVec 1 := Scalar.cmpi .sgt c8_i32 c0_i32_325
  let v287 : BitVec 32 := Scalar.extui v286
  let c0_i32_326 : BitVec 32 := 0#32
  let v288 : BitVec 1 := Scalar.cmpi .slt c8_i32 c0_i32_326
  let v289 : BitVec 32 := Scalar.extui v288
  let v290 : BitVec 32 := Scalar.subi v287 v289
  let v291 : BitVec 1 := Scalar.cmpi .ne v285 v290
  let v292 : BitVec 32 := Scalar.remsi arg17 c8_i32
  let c0_i32_327 : BitVec 32 := 0#32
  let v293 : BitVec 1 := Scalar.cmpi .ne v292 c0_i32_327
  let v294 : BitVec 1 := Scalar.andi v291 v293
  let v280 : BitVec 32 := Scalar.divsi arg17 c8_i32
  let c1_i32_328 : BitVec 32 := 1#32
  let v295 : BitVec 32 := Scalar.subi v280 c1_i32_328
  let v296 : BitVec 32 := Scalar.select v294 v295 v280
  let v310 : Index := Scalar.indexCast v296
  let c8_i32_329 : BitVec 32 := 8#32
  let c0_i32_330 : BitVec 32 := 0#32
  let v297 : BitVec 1 := Scalar.cmpi .eq c8_i32_329 c0_i32_330
  let c1_i32_331 : BitVec 32 := 1#32
  let v298 : BitVec 32 := Scalar.select v297 c1_i32_331 c8_i32_329
  let v299 : BitVec 32 := Scalar.remsi arg17 v298
  let c0_i32_333 : BitVec 32 := 0#32
  let v301 : BitVec 1 := Scalar.cmpi .slt v299 c0_i32_333
  let c0_i32_334 : BitVec 32 := 0#32
  let v302 : BitVec 1 := Scalar.cmpi .slt v298 c0_i32_334
  let v303 : BitVec 1 := Scalar.xori v301 v302
  let c0_i32_332 : BitVec 32 := 0#32
  let v300 : BitVec 1 := Scalar.cmpi .ne v299 c0_i32_332
  let v304 : BitVec 1 := Scalar.andi v303 v300
  let v305 : BitVec 32 := Scalar.addi v299 v298
  let v306 : BitVec 32 := Scalar.select v304 v305 v299
  let c16_i32 : BitVec 32 := 16#32
  let v307 : BitVec 32 := Scalar.muli v306 c16_i32
  let v311 : Index := Scalar.indexCast v307
  ![0, 1, v310.toNat, v311.toNat]
def k0_off13 (k0_t3 : Fin k0_t3_loop.trips) (c0_i32_351 : BitVec 32) (c0_i32_352 : BitVec 32) : Fin 3 → Nat :=
  let c1_i32_360 : BitVec 32 := 1#32
  let v360 : Index := Scalar.indexCast c1_i32_360
  let c0_i32_130 : BitVec 32 := 0#32
  let c1_i32_132 : BitVec 32 := 1#32
  let arg17 : BitVec 32 := Scf.iv c0_i32_130 c1_i32_132 k0_t3
  let c0_i32_344 : BitVec 32 := 0#32
  let v330 : BitVec 1 := Scalar.cmpi .sgt arg17 c0_i32_344
  let v331 : BitVec 32 := Scalar.extui v330
  let c0_i32_345 : BitVec 32 := 0#32
  let v332 : BitVec 1 := Scalar.cmpi .slt arg17 c0_i32_345
  let v333 : BitVec 32 := Scalar.extui v332
  let v334 : BitVec 32 := Scalar.subi v331 v333
  let c8_i32_343 : BitVec 32 := 8#32
  let c0_i32_346 : BitVec 32 := 0#32
  let v335 : BitVec 1 := Scalar.cmpi .sgt c8_i32_343 c0_i32_346
  let v336 : BitVec 32 := Scalar.extui v335
  let c0_i32_347 : BitVec 32 := 0#32
  let v337 : BitVec 1 := Scalar.cmpi .slt c8_i32_343 c0_i32_347
  let v338 : BitVec 32 := Scalar.extui v337
  let v339 : BitVec 32 := Scalar.subi v336 v338
  let v340 : BitVec 1 := Scalar.cmpi .ne v334 v339
  let v341 : BitVec 32 := Scalar.remsi arg17 c8_i32_343
  let c0_i32_348 : BitVec 32 := 0#32
  let v342 : BitVec 1 := Scalar.cmpi .ne v341 c0_i32_348
  let v343 : BitVec 1 := Scalar.andi v340 v342
  let v329 : BitVec 32 := Scalar.divsi arg17 c8_i32_343
  let c1_i32_349 : BitVec 32 := 1#32
  let v344 : BitVec 32 := Scalar.subi v329 c1_i32_349
  let v345 : BitVec 32 := Scalar.select v343 v344 v329
  let c8_i32_350 : BitVec 32 := 8#32
  let v346 : BitVec 32 := Scalar.muli v345 c8_i32_350
  let v347 : BitVec 32 := Scalar.addi c0_i32_351 v346
  let v348 : BitVec 32 := Scalar.addi v347 c0_i32_352
  let v361 : Index := Scalar.indexCast v348
  let c8_i32_353 : BitVec 32 := 8#32
  let c0_i32_354 : BitVec 32 := 0#32
  let v349 : BitVec 1 := Scalar.cmpi .eq c8_i32_353 c0_i32_354
  let c1_i32_355 : BitVec 32 := 1#32
  let v350 : BitVec 32 := Scalar.select v349 c1_i32_355 c8_i32_353
  let v351 : BitVec 32 := Scalar.remsi arg17 v350
  let c0_i32_357 : BitVec 32 := 0#32
  let v353 : BitVec 1 := Scalar.cmpi .slt v351 c0_i32_357
  let c0_i32_358 : BitVec 32 := 0#32
  let v354 : BitVec 1 := Scalar.cmpi .slt v350 c0_i32_358
  let v355 : BitVec 1 := Scalar.xori v353 v354
  let c0_i32_356 : BitVec 32 := 0#32
  let v352 : BitVec 1 := Scalar.cmpi .ne v351 c0_i32_356
  let v356 : BitVec 1 := Scalar.andi v355 v352
  let v357 : BitVec 32 := Scalar.addi v351 v350
  let v358 : BitVec 32 := Scalar.select v356 v357 v351
  let c16_i32_359 : BitVec 32 := 16#32
  let v359 : BitVec 32 := Scalar.muli v358 c16_i32_359
  let v362 : Index := Scalar.indexCast v359
  ![1, v361.toNat, v362.toNat]
def k0_cond3 (k0_t1 : Fin k0_t1_loop.trips) : BitVec 1 :=
  let c0_i32_22 : BitVec 32 := 0#32
  let c1_i32_23 : BitVec 32 := 1#32
  let arg16 : BitVec 32 := Scf.iv c0_i32_22 c1_i32_23 k0_t1
  let c2_i32_86 : BitVec 32 := 2#32
  let v77 : BitVec 32 := Scalar.muli arg16 c2_i32_86
  let c1_i32_153 : BitVec 32 := 1#32
  let v135 : BitVec 1 := Scalar.cmpi .sge v77 c1_i32_153
  let v136 : BitVec 32 := Scalar.extui v135
  let c0_i32_154 : BitVec 32 := 0#32
  let v137 : BitVec 1 := Scalar.cmpi .ne v136 c0_i32_154
  v137

def k0_off14 (i : grid0.Coords) (k0_t1 : Fin k0_t1_loop.trips) : Fin 2 → Nat :=
  let c0_i32_22 : BitVec 32 := 0#32
  let c1_i32_23 : BitVec 32 := 1#32
  let arg16 : BitVec 32 := Scf.iv c0_i32_22 c1_i32_23 k0_t1
  let c2_i32_86 : BitVec 32 := 2#32
  let v77 : BitVec 32 := Scalar.muli arg16 c2_i32_86
  let c4_i32_149 : BitVec 32 := 4#32
  let v130 : BitVec 32 := Scalar.muli v77 c4_i32_149
  let c2_i32_150 : BitVec 32 := 2#32
  let v131 : BitVec 32 := Scalar.addi v130 c2_i32_150
  let c4_i32_323 : BitVec 32 := 4#32
  let v280 : BitVec 32 := Scalar.subi v131 c4_i32_323
  let c2048_i32_324 : BitVec 32 := 2048#32
  let v281 : BitVec 32 := Scalar.muli v280 c2048_i32_324
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_325 : BitVec 32 := 32#32
  let v282 : BitVec 32 := Scalar.muli v1 c32_i32_325
  let v283 : BitVec 32 := Scalar.addi v281 v282
  let c0_i32_329 : BitVec 32 := 0#32
  ![v283.toNat, 0]
def k0_off15 (i : grid0.Coords) (k0_t1 : Fin k0_t1_loop.trips) : Fin 2 → Nat :=
  let c0_i32_22 : BitVec 32 := 0#32
  let c1_i32_23 : BitVec 32 := 1#32
  let arg16 : BitVec 32 := Scf.iv c0_i32_22 c1_i32_23 k0_t1
  let c2_i32_86 : BitVec 32 := 2#32
  let v77 : BitVec 32 := Scalar.muli arg16 c2_i32_86
  let c4_i32_149 : BitVec 32 := 4#32
  let v130 : BitVec 32 := Scalar.muli v77 c4_i32_149
  let c2_i32_150 : BitVec 32 := 2#32
  let v131 : BitVec 32 := Scalar.addi v130 c2_i32_150
  let c4_i32_323 : BitVec 32 := 4#32
  let v280 : BitVec 32 := Scalar.subi v131 c4_i32_323
  let c2048_i32_324 : BitVec 32 := 2048#32
  let v281 : BitVec 32 := Scalar.muli v280 c2048_i32_324
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_325 : BitVec 32 := 32#32
  let v282 : BitVec 32 := Scalar.muli v1 c32_i32_325
  let v283 : BitVec 32 := Scalar.addi v281 v282
  let c1024_i32_333 : BitVec 32 := 1024#32
  let v290 : BitVec 32 := Scalar.addi v283 c1024_i32_333
  let c0_i32_337 : BitVec 32 := 0#32
  ![v290.toNat, 0]
@[reducible] def k0_t4_loop : Scf.Loop 32 :=
  let c0_i32_156 : BitVec 32 := 0#32
  let c32_i32_157 : BitVec 32 := 32#32
  let v138 : BitVec 32 := Scalar.addi c0_i32_156 c32_i32_157
  let c1_i32_158 : BitVec 32 := 1#32
  ⟨c0_i32_156, v138, c1_i32_158⟩
def k0_off16 (k0_t4 : Fin k0_t4_loop.trips) : Fin 4 → Nat :=
  let c0_i32_335 : BitVec 32 := 0#32
  let v308 : Index := Scalar.indexCast c0_i32_335
  let c2_i32_336 : BitVec 32 := 2#32
  let v309 : Index := Scalar.indexCast c2_i32_336
  let c0_i32_156 : BitVec 32 := 0#32
  let c1_i32_158 : BitVec 32 := 1#32
  let arg17 : BitVec 32 := Scf.iv c0_i32_156 c1_i32_158 k0_t4
  let c0_i32_323 : BitVec 32 := 0#32
  let v281 : BitVec 1 := Scalar.cmpi .sgt arg17 c0_i32_323
  let v282 : BitVec 32 := Scalar.extui v281
  let c0_i32_324 : BitVec 32 := 0#32
  let v283 : BitVec 1 := Scalar.cmpi .slt arg17 c0_i32_324
  let v284 : BitVec 32 := Scalar.extui v283
  let v285 : BitVec 32 := Scalar.subi v282 v284
  let c8_i32 : BitVec 32 := 8#32
  let c0_i32_325 : BitVec 32 := 0#32
  let v286 : BitVec 1 := Scalar.cmpi .sgt c8_i32 c0_i32_325
  let v287 : BitVec 32 := Scalar.extui v286
  let c0_i32_326 : BitVec 32 := 0#32
  let v288 : BitVec 1 := Scalar.cmpi .slt c8_i32 c0_i32_326
  let v289 : BitVec 32 := Scalar.extui v288
  let v290 : BitVec 32 := Scalar.subi v287 v289
  let v291 : BitVec 1 := Scalar.cmpi .ne v285 v290
  let v292 : BitVec 32 := Scalar.remsi arg17 c8_i32
  let c0_i32_327 : BitVec 32 := 0#32
  let v293 : BitVec 1 := Scalar.cmpi .ne v292 c0_i32_327
  let v294 : BitVec 1 := Scalar.andi v291 v293
  let v280 : BitVec 32 := Scalar.divsi arg17 c8_i32
  let c1_i32_328 : BitVec 32 := 1#32
  let v295 : BitVec 32 := Scalar.subi v280 c1_i32_328
  let v296 : BitVec 32 := Scalar.select v294 v295 v280
  let v310 : Index := Scalar.indexCast v296
  let c8_i32_329 : BitVec 32 := 8#32
  let c0_i32_330 : BitVec 32 := 0#32
  let v297 : BitVec 1 := Scalar.cmpi .eq c8_i32_329 c0_i32_330
  let c1_i32_331 : BitVec 32 := 1#32
  let v298 : BitVec 32 := Scalar.select v297 c1_i32_331 c8_i32_329
  let v299 : BitVec 32 := Scalar.remsi arg17 v298
  let c0_i32_333 : BitVec 32 := 0#32
  let v301 : BitVec 1 := Scalar.cmpi .slt v299 c0_i32_333
  let c0_i32_334 : BitVec 32 := 0#32
  let v302 : BitVec 1 := Scalar.cmpi .slt v298 c0_i32_334
  let v303 : BitVec 1 := Scalar.xori v301 v302
  let c0_i32_332 : BitVec 32 := 0#32
  let v300 : BitVec 1 := Scalar.cmpi .ne v299 c0_i32_332
  let v304 : BitVec 1 := Scalar.andi v303 v300
  let v305 : BitVec 32 := Scalar.addi v299 v298
  let v306 : BitVec 32 := Scalar.select v304 v305 v299
  let c16_i32 : BitVec 32 := 16#32
  let v307 : BitVec 32 := Scalar.muli v306 c16_i32
  let v311 : Index := Scalar.indexCast v307
  ![0, 2, v310.toNat, v311.toNat]
def k0_off17 (k0_t4 : Fin k0_t4_loop.trips) (c0_i32_351 : BitVec 32) (c0_i32_352 : BitVec 32) : Fin 3 → Nat :=
  let c2_i32_360 : BitVec 32 := 2#32
  let v360 : Index := Scalar.indexCast c2_i32_360
  let c0_i32_156 : BitVec 32 := 0#32
  let c1_i32_158 : BitVec 32 := 1#32
  let arg17 : BitVec 32 := Scf.iv c0_i32_156 c1_i32_158 k0_t4
  let c0_i32_344 : BitVec 32 := 0#32
  let v330 : BitVec 1 := Scalar.cmpi .sgt arg17 c0_i32_344
  let v331 : BitVec 32 := Scalar.extui v330
  let c0_i32_345 : BitVec 32 := 0#32
  let v332 : BitVec 1 := Scalar.cmpi .slt arg17 c0_i32_345
  let v333 : BitVec 32 := Scalar.extui v332
  let v334 : BitVec 32 := Scalar.subi v331 v333
  let c8_i32_343 : BitVec 32 := 8#32
  let c0_i32_346 : BitVec 32 := 0#32
  let v335 : BitVec 1 := Scalar.cmpi .sgt c8_i32_343 c0_i32_346
  let v336 : BitVec 32 := Scalar.extui v335
  let c0_i32_347 : BitVec 32 := 0#32
  let v337 : BitVec 1 := Scalar.cmpi .slt c8_i32_343 c0_i32_347
  let v338 : BitVec 32 := Scalar.extui v337
  let v339 : BitVec 32 := Scalar.subi v336 v338
  let v340 : BitVec 1 := Scalar.cmpi .ne v334 v339
  let v341 : BitVec 32 := Scalar.remsi arg17 c8_i32_343
  let c0_i32_348 : BitVec 32 := 0#32
  let v342 : BitVec 1 := Scalar.cmpi .ne v341 c0_i32_348
  let v343 : BitVec 1 := Scalar.andi v340 v342
  let v329 : BitVec 32 := Scalar.divsi arg17 c8_i32_343
  let c1_i32_349 : BitVec 32 := 1#32
  let v344 : BitVec 32 := Scalar.subi v329 c1_i32_349
  let v345 : BitVec 32 := Scalar.select v343 v344 v329
  let c8_i32_350 : BitVec 32 := 8#32
  let v346 : BitVec 32 := Scalar.muli v345 c8_i32_350
  let v347 : BitVec 32 := Scalar.addi c0_i32_351 v346
  let v348 : BitVec 32 := Scalar.addi v347 c0_i32_352
  let v361 : Index := Scalar.indexCast v348
  let c8_i32_353 : BitVec 32 := 8#32
  let c0_i32_354 : BitVec 32 := 0#32
  let v349 : BitVec 1 := Scalar.cmpi .eq c8_i32_353 c0_i32_354
  let c1_i32_355 : BitVec 32 := 1#32
  let v350 : BitVec 32 := Scalar.select v349 c1_i32_355 c8_i32_353
  let v351 : BitVec 32 := Scalar.remsi arg17 v350
  let c0_i32_357 : BitVec 32 := 0#32
  let v353 : BitVec 1 := Scalar.cmpi .slt v351 c0_i32_357
  let c0_i32_358 : BitVec 32 := 0#32
  let v354 : BitVec 1 := Scalar.cmpi .slt v350 c0_i32_358
  let v355 : BitVec 1 := Scalar.xori v353 v354
  let c0_i32_356 : BitVec 32 := 0#32
  let v352 : BitVec 1 := Scalar.cmpi .ne v351 c0_i32_356
  let v356 : BitVec 1 := Scalar.andi v355 v352
  let v357 : BitVec 32 := Scalar.addi v351 v350
  let v358 : BitVec 32 := Scalar.select v356 v357 v351
  let c16_i32_359 : BitVec 32 := 16#32
  let v359 : BitVec 32 := Scalar.muli v358 c16_i32_359
  let v362 : Index := Scalar.indexCast v359
  ![2, v361.toNat, v362.toNat]
def k0_cond4 (k0_t1 : Fin k0_t1_loop.trips) : BitVec 1 :=
  let c0_i32_22 : BitVec 32 := 0#32
  let c1_i32_23 : BitVec 32 := 1#32
  let arg16 : BitVec 32 := Scf.iv c0_i32_22 c1_i32_23 k0_t1
  let c2_i32_86 : BitVec 32 := 2#32
  let v77 : BitVec 32 := Scalar.muli arg16 c2_i32_86
  let c1_i32_179 : BitVec 32 := 1#32
  let v157 : BitVec 1 := Scalar.cmpi .sge v77 c1_i32_179
  let v158 : BitVec 32 := Scalar.extui v157
  let c0_i32_180 : BitVec 32 := 0#32
  let v159 : BitVec 1 := Scalar.cmpi .ne v158 c0_i32_180
  v159

def k0_off18 (i : grid0.Coords) (k0_t1 : Fin k0_t1_loop.trips) : Fin 2 → Nat :=
  let c0_i32_22 : BitVec 32 := 0#32
  let c1_i32_23 : BitVec 32 := 1#32
  let arg16 : BitVec 32 := Scf.iv c0_i32_22 c1_i32_23 k0_t1
  let c2_i32_86 : BitVec 32 := 2#32
  let v77 : BitVec 32 := Scalar.muli arg16 c2_i32_86
  let c4_i32_175 : BitVec 32 := 4#32
  let v152 : BitVec 32 := Scalar.muli v77 c4_i32_175
  let c3_i32_176 : BitVec 32 := 3#32
  let v153 : BitVec 32 := Scalar.addi v152 c3_i32_176
  let c4_i32_323 : BitVec 32 := 4#32
  let v280 : BitVec 32 := Scalar.subi v153 c4_i32_323
  let c2048_i32_324 : BitVec 32 := 2048#32
  let v281 : BitVec 32 := Scalar.muli v280 c2048_i32_324
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_325 : BitVec 32 := 32#32
  let v282 : BitVec 32 := Scalar.muli v1 c32_i32_325
  let v283 : BitVec 32 := Scalar.addi v281 v282
  let c0_i32_329 : BitVec 32 := 0#32
  ![v283.toNat, 0]
def k0_off19 (i : grid0.Coords) (k0_t1 : Fin k0_t1_loop.trips) : Fin 2 → Nat :=
  let c0_i32_22 : BitVec 32 := 0#32
  let c1_i32_23 : BitVec 32 := 1#32
  let arg16 : BitVec 32 := Scf.iv c0_i32_22 c1_i32_23 k0_t1
  let c2_i32_86 : BitVec 32 := 2#32
  let v77 : BitVec 32 := Scalar.muli arg16 c2_i32_86
  let c4_i32_175 : BitVec 32 := 4#32
  let v152 : BitVec 32 := Scalar.muli v77 c4_i32_175
  let c3_i32_176 : BitVec 32 := 3#32
  let v153 : BitVec 32 := Scalar.addi v152 c3_i32_176
  let c4_i32_323 : BitVec 32 := 4#32
  let v280 : BitVec 32 := Scalar.subi v153 c4_i32_323
  let c2048_i32_324 : BitVec 32 := 2048#32
  let v281 : BitVec 32 := Scalar.muli v280 c2048_i32_324
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_325 : BitVec 32 := 32#32
  let v282 : BitVec 32 := Scalar.muli v1 c32_i32_325
  let v283 : BitVec 32 := Scalar.addi v281 v282
  let c1024_i32_333 : BitVec 32 := 1024#32
  let v290 : BitVec 32 := Scalar.addi v283 c1024_i32_333
  let c0_i32_337 : BitVec 32 := 0#32
  ![v290.toNat, 0]
@[reducible] def k0_t5_loop : Scf.Loop 32 :=
  let c0_i32_182 : BitVec 32 := 0#32
  let c32_i32_183 : BitVec 32 := 32#32
  let v160 : BitVec 32 := Scalar.addi c0_i32_182 c32_i32_183
  let c1_i32_184 : BitVec 32 := 1#32
  ⟨c0_i32_182, v160, c1_i32_184⟩
def k0_off20 (k0_t5 : Fin k0_t5_loop.trips) : Fin 4 → Nat :=
  let c0_i32_335 : BitVec 32 := 0#32
  let v308 : Index := Scalar.indexCast c0_i32_335
  let c3_i32_336 : BitVec 32 := 3#32
  let v309 : Index := Scalar.indexCast c3_i32_336
  let c0_i32_182 : BitVec 32 := 0#32
  let c1_i32_184 : BitVec 32 := 1#32
  let arg17 : BitVec 32 := Scf.iv c0_i32_182 c1_i32_184 k0_t5
  let c0_i32_323 : BitVec 32 := 0#32
  let v281 : BitVec 1 := Scalar.cmpi .sgt arg17 c0_i32_323
  let v282 : BitVec 32 := Scalar.extui v281
  let c0_i32_324 : BitVec 32 := 0#32
  let v283 : BitVec 1 := Scalar.cmpi .slt arg17 c0_i32_324
  let v284 : BitVec 32 := Scalar.extui v283
  let v285 : BitVec 32 := Scalar.subi v282 v284
  let c8_i32 : BitVec 32 := 8#32
  let c0_i32_325 : BitVec 32 := 0#32
  let v286 : BitVec 1 := Scalar.cmpi .sgt c8_i32 c0_i32_325
  let v287 : BitVec 32 := Scalar.extui v286
  let c0_i32_326 : BitVec 32 := 0#32
  let v288 : BitVec 1 := Scalar.cmpi .slt c8_i32 c0_i32_326
  let v289 : BitVec 32 := Scalar.extui v288
  let v290 : BitVec 32 := Scalar.subi v287 v289
  let v291 : BitVec 1 := Scalar.cmpi .ne v285 v290
  let v292 : BitVec 32 := Scalar.remsi arg17 c8_i32
  let c0_i32_327 : BitVec 32 := 0#32
  let v293 : BitVec 1 := Scalar.cmpi .ne v292 c0_i32_327
  let v294 : BitVec 1 := Scalar.andi v291 v293
  let v280 : BitVec 32 := Scalar.divsi arg17 c8_i32
  let c1_i32_328 : BitVec 32 := 1#32
  let v295 : BitVec 32 := Scalar.subi v280 c1_i32_328
  let v296 : BitVec 32 := Scalar.select v294 v295 v280
  let v310 : Index := Scalar.indexCast v296
  let c8_i32_329 : BitVec 32 := 8#32
  let c0_i32_330 : BitVec 32 := 0#32
  let v297 : BitVec 1 := Scalar.cmpi .eq c8_i32_329 c0_i32_330
  let c1_i32_331 : BitVec 32 := 1#32
  let v298 : BitVec 32 := Scalar.select v297 c1_i32_331 c8_i32_329
  let v299 : BitVec 32 := Scalar.remsi arg17 v298
  let c0_i32_333 : BitVec 32 := 0#32
  let v301 : BitVec 1 := Scalar.cmpi .slt v299 c0_i32_333
  let c0_i32_334 : BitVec 32 := 0#32
  let v302 : BitVec 1 := Scalar.cmpi .slt v298 c0_i32_334
  let v303 : BitVec 1 := Scalar.xori v301 v302
  let c0_i32_332 : BitVec 32 := 0#32
  let v300 : BitVec 1 := Scalar.cmpi .ne v299 c0_i32_332
  let v304 : BitVec 1 := Scalar.andi v303 v300
  let v305 : BitVec 32 := Scalar.addi v299 v298
  let v306 : BitVec 32 := Scalar.select v304 v305 v299
  let c16_i32 : BitVec 32 := 16#32
  let v307 : BitVec 32 := Scalar.muli v306 c16_i32
  let v311 : Index := Scalar.indexCast v307
  ![0, 3, v310.toNat, v311.toNat]
def k0_off21 (k0_t5 : Fin k0_t5_loop.trips) (c0_i32_351 : BitVec 32) (c0_i32_352 : BitVec 32) : Fin 3 → Nat :=
  let c3_i32_360 : BitVec 32 := 3#32
  let v360 : Index := Scalar.indexCast c3_i32_360
  let c0_i32_182 : BitVec 32 := 0#32
  let c1_i32_184 : BitVec 32 := 1#32
  let arg17 : BitVec 32 := Scf.iv c0_i32_182 c1_i32_184 k0_t5
  let c0_i32_344 : BitVec 32 := 0#32
  let v330 : BitVec 1 := Scalar.cmpi .sgt arg17 c0_i32_344
  let v331 : BitVec 32 := Scalar.extui v330
  let c0_i32_345 : BitVec 32 := 0#32
  let v332 : BitVec 1 := Scalar.cmpi .slt arg17 c0_i32_345
  let v333 : BitVec 32 := Scalar.extui v332
  let v334 : BitVec 32 := Scalar.subi v331 v333
  let c8_i32_343 : BitVec 32 := 8#32
  let c0_i32_346 : BitVec 32 := 0#32
  let v335 : BitVec 1 := Scalar.cmpi .sgt c8_i32_343 c0_i32_346
  let v336 : BitVec 32 := Scalar.extui v335
  let c0_i32_347 : BitVec 32 := 0#32
  let v337 : BitVec 1 := Scalar.cmpi .slt c8_i32_343 c0_i32_347
  let v338 : BitVec 32 := Scalar.extui v337
  let v339 : BitVec 32 := Scalar.subi v336 v338
  let v340 : BitVec 1 := Scalar.cmpi .ne v334 v339
  let v341 : BitVec 32 := Scalar.remsi arg17 c8_i32_343
  let c0_i32_348 : BitVec 32 := 0#32
  let v342 : BitVec 1 := Scalar.cmpi .ne v341 c0_i32_348
  let v343 : BitVec 1 := Scalar.andi v340 v342
  let v329 : BitVec 32 := Scalar.divsi arg17 c8_i32_343
  let c1_i32_349 : BitVec 32 := 1#32
  let v344 : BitVec 32 := Scalar.subi v329 c1_i32_349
  let v345 : BitVec 32 := Scalar.select v343 v344 v329
  let c8_i32_350 : BitVec 32 := 8#32
  let v346 : BitVec 32 := Scalar.muli v345 c8_i32_350
  let v347 : BitVec 32 := Scalar.addi c0_i32_351 v346
  let v348 : BitVec 32 := Scalar.addi v347 c0_i32_352
  let v361 : Index := Scalar.indexCast v348
  let c8_i32_353 : BitVec 32 := 8#32
  let c0_i32_354 : BitVec 32 := 0#32
  let v349 : BitVec 1 := Scalar.cmpi .eq c8_i32_353 c0_i32_354
  let c1_i32_355 : BitVec 32 := 1#32
  let v350 : BitVec 32 := Scalar.select v349 c1_i32_355 c8_i32_353
  let v351 : BitVec 32 := Scalar.remsi arg17 v350
  let c0_i32_357 : BitVec 32 := 0#32
  let v353 : BitVec 1 := Scalar.cmpi .slt v351 c0_i32_357
  let c0_i32_358 : BitVec 32 := 0#32
  let v354 : BitVec 1 := Scalar.cmpi .slt v350 c0_i32_358
  let v355 : BitVec 1 := Scalar.xori v353 v354
  let c0_i32_356 : BitVec 32 := 0#32
  let v352 : BitVec 1 := Scalar.cmpi .ne v351 c0_i32_356
  let v356 : BitVec 1 := Scalar.andi v355 v352
  let v357 : BitVec 32 := Scalar.addi v351 v350
  let v358 : BitVec 32 := Scalar.select v356 v357 v351
  let c16_i32_359 : BitVec 32 := 16#32
  let v359 : BitVec 32 := Scalar.muli v358 c16_i32_359
  let v362 : Index := Scalar.indexCast v359
  ![3, v361.toNat, v362.toNat]
def k0_cond5 (k0_t1 : Fin k0_t1_loop.trips) : BitVec 1 :=
  let c0_i32_22 : BitVec 32 := 0#32
  let c1_i32_23 : BitVec 32 := 1#32
  let arg16 : BitVec 32 := Scf.iv c0_i32_22 c1_i32_23 k0_t1
  let c2_i32_86 : BitVec 32 := 2#32
  let v77 : BitVec 32 := Scalar.muli arg16 c2_i32_86
  let c2_i32_201 : BitVec 32 := 2#32
  let v174 : BitVec 32 := Scalar.addi v77 c2_i32_201
  let c50_i32 : BitVec 32 := 50#32
  let v175 : BitVec 1 := Scalar.cmpi .slt v174 c50_i32
  let v176 : BitVec 32 := Scalar.extui v175
  let c0_i32_202 : BitVec 32 := 0#32
  let v177 : BitVec 1 := Scalar.cmpi .ne v176 c0_i32_202
  v177

def k0_off22 (i : grid0.Coords) (k0_t1 : Fin k0_t1_loop.trips) : Fin 3 → Nat :=
  let c0_i32_22 : BitVec 32 := 0#32
  let c1_i32_23 : BitVec 32 := 1#32
  let arg16 : BitVec 32 := Scf.iv c0_i32_22 c1_i32_23 k0_t1
  let c2_i32_86 : BitVec 32 := 2#32
  let v77 : BitVec 32 := Scalar.muli arg16 c2_i32_86
  let c2_i32_323 : BitVec 32 := 2#32
  let v280 : BitVec 32 := Scalar.addi v77 c2_i32_323
  let c4_i32_324 : BitVec 32 := 4#32
  let v281 : BitVec 32 := Scalar.muli v280 c4_i32_324
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_325 : BitVec 32 := 4#32
  let v282 : BitVec 32 := Scalar.muli v1 c4_i32_325
  let c0_i32_330 : BitVec 32 := 0#32
  ![v281.toNat, v282.toNat, 0]
def k0_off23 (i : grid0.Coords) (k0_t1 : Fin k0_t1_loop.trips) : Fin 3 → Nat :=
  let c0_i32_22 : BitVec 32 := 0#32
  let c1_i32_23 : BitVec 32 := 1#32
  let arg16 : BitVec 32 := Scf.iv c0_i32_22 c1_i32_23 k0_t1
  let c2_i32_203 : BitVec 32 := 2#32
  let v178 : BitVec 32 := Scalar.muli arg16 c2_i32_203
  let c1_i32_204 : BitVec 32 := 1#32
  let v179 : BitVec 32 := Scalar.addi v178 c1_i32_204
  let c4_i32_205 : BitVec 32 := 4#32
  let v180 : BitVec 32 := Scalar.muli v179 c4_i32_205
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_206 : BitVec 32 := 4#32
  let v181 : BitVec 32 := Scalar.muli v1 c4_i32_206
  let c0_i32_211 : BitVec 32 := 0#32
  ![v180.toNat, v181.toNat, 0]
def k0_cond6 (k0_t1 : Fin k0_t1_loop.trips) : BitVec 1 :=
  let c0_i32_22 : BitVec 32 := 0#32
  let c1_i32_23 : BitVec 32 := 1#32
  let arg16 : BitVec 32 := Scf.iv c0_i32_22 c1_i32_23 k0_t1
  let c2_i32_203 : BitVec 32 := 2#32
  let v178 : BitVec 32 := Scalar.muli arg16 c2_i32_203
  let c1_i32_204 : BitVec 32 := 1#32
  let v179 : BitVec 32 := Scalar.addi v178 c1_i32_204
  let c1_i32_220 : BitVec 32 := 1#32
  let v193 : BitVec 1 := Scalar.cmpi .sge v179 c1_i32_220
  let v194 : BitVec 32 := Scalar.extui v193
  let c0_i32_221 : BitVec 32 := 0#32
  let v195 : BitVec 1 := Scalar.cmpi .ne v194 c0_i32_221
  v195

def k0_off24 (i : grid0.Coords) (k0_t1 : Fin k0_t1_loop.trips) : Fin 2 → Nat :=
  let c0_i32_22 : BitVec 32 := 0#32
  let c1_i32_23 : BitVec 32 := 1#32
  let arg16 : BitVec 32 := Scf.iv c0_i32_22 c1_i32_23 k0_t1
  let c2_i32_203 : BitVec 32 := 2#32
  let v178 : BitVec 32 := Scalar.muli arg16 c2_i32_203
  let c1_i32_204 : BitVec 32 := 1#32
  let v179 : BitVec 32 := Scalar.addi v178 c1_i32_204
  let c4_i32_216 : BitVec 32 := 4#32
  let v188 : BitVec 32 := Scalar.muli v179 c4_i32_216
  let c0_i32_217 : BitVec 32 := 0#32
  let v189 : BitVec 32 := Scalar.addi v188 c0_i32_217
  let c4_i32_323 : BitVec 32 := 4#32
  let v280 : BitVec 32 := Scalar.subi v189 c4_i32_323
  let c2048_i32_324 : BitVec 32 := 2048#32
  let v281 : BitVec 32 := Scalar.muli v280 c2048_i32_324
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_325 : BitVec 32 := 32#32
  let v282 : BitVec 32 := Scalar.muli v1 c32_i32_325
  let v283 : BitVec 32 := Scalar.addi v281 v282
  let c0_i32_329 : BitVec 32 := 0#32
  ![v283.toNat, 0]
def k0_off25 (i : grid0.Coords) (k0_t1 : Fin k0_t1_loop.trips) : Fin 2 → Nat :=
  let c0_i32_22 : BitVec 32 := 0#32
  let c1_i32_23 : BitVec 32 := 1#32
  let arg16 : BitVec 32 := Scf.iv c0_i32_22 c1_i32_23 k0_t1
  let c2_i32_203 : BitVec 32 := 2#32
  let v178 : BitVec 32 := Scalar.muli arg16 c2_i32_203
  let c1_i32_204 : BitVec 32 := 1#32
  let v179 : BitVec 32 := Scalar.addi v178 c1_i32_204
  let c4_i32_216 : BitVec 32 := 4#32
  let v188 : BitVec 32 := Scalar.muli v179 c4_i32_216
  let c0_i32_217 : BitVec 32 := 0#32
  let v189 : BitVec 32 := Scalar.addi v188 c0_i32_217
  let c4_i32_323 : BitVec 32 := 4#32
  let v280 : BitVec 32 := Scalar.subi v189 c4_i32_323
  let c2048_i32_324 : BitVec 32 := 2048#32
  let v281 : BitVec 32 := Scalar.muli v280 c2048_i32_324
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_325 : BitVec 32 := 32#32
  let v282 : BitVec 32 := Scalar.muli v1 c32_i32_325
  let v283 : BitVec 32 := Scalar.addi v281 v282
  let c1024_i32_333 : BitVec 32 := 1024#32
  let v290 : BitVec 32 := Scalar.addi v283 c1024_i32_333
  let c0_i32_337 : BitVec 32 := 0#32
  ![v290.toNat, 0]
@[reducible] def k0_t6_loop : Scf.Loop 32 :=
  let c0_i32_223 : BitVec 32 := 0#32
  let c32_i32_224 : BitVec 32 := 32#32
  let v196 : BitVec 32 := Scalar.addi c0_i32_223 c32_i32_224
  let c1_i32_225 : BitVec 32 := 1#32
  ⟨c0_i32_223, v196, c1_i32_225⟩
def k0_off26 (k0_t6 : Fin k0_t6_loop.trips) : Fin 4 → Nat :=
  let c1_i32_335 : BitVec 32 := 1#32
  let v308 : Index := Scalar.indexCast c1_i32_335
  let c0_i32_336 : BitVec 32 := 0#32
  let v309 : Index := Scalar.indexCast c0_i32_336
  let c0_i32_223 : BitVec 32 := 0#32
  let c1_i32_225 : BitVec 32 := 1#32
  let arg17 : BitVec 32 := Scf.iv c0_i32_223 c1_i32_225 k0_t6
  let c0_i32_323 : BitVec 32 := 0#32
  let v281 : BitVec 1 := Scalar.cmpi .sgt arg17 c0_i32_323
  let v282 : BitVec 32 := Scalar.extui v281
  let c0_i32_324 : BitVec 32 := 0#32
  let v283 : BitVec 1 := Scalar.cmpi .slt arg17 c0_i32_324
  let v284 : BitVec 32 := Scalar.extui v283
  let v285 : BitVec 32 := Scalar.subi v282 v284
  let c8_i32 : BitVec 32 := 8#32
  let c0_i32_325 : BitVec 32 := 0#32
  let v286 : BitVec 1 := Scalar.cmpi .sgt c8_i32 c0_i32_325
  let v287 : BitVec 32 := Scalar.extui v286
  let c0_i32_326 : BitVec 32 := 0#32
  let v288 : BitVec 1 := Scalar.cmpi .slt c8_i32 c0_i32_326
  let v289 : BitVec 32 := Scalar.extui v288
  let v290 : BitVec 32 := Scalar.subi v287 v289
  let v291 : BitVec 1 := Scalar.cmpi .ne v285 v290
  let v292 : BitVec 32 := Scalar.remsi arg17 c8_i32
  let c0_i32_327 : BitVec 32 := 0#32
  let v293 : BitVec 1 := Scalar.cmpi .ne v292 c0_i32_327
  let v294 : BitVec 1 := Scalar.andi v291 v293
  let v280 : BitVec 32 := Scalar.divsi arg17 c8_i32
  let c1_i32_328 : BitVec 32 := 1#32
  let v295 : BitVec 32 := Scalar.subi v280 c1_i32_328
  let v296 : BitVec 32 := Scalar.select v294 v295 v280
  let v310 : Index := Scalar.indexCast v296
  let c8_i32_329 : BitVec 32 := 8#32
  let c0_i32_330 : BitVec 32 := 0#32
  let v297 : BitVec 1 := Scalar.cmpi .eq c8_i32_329 c0_i32_330
  let c1_i32_331 : BitVec 32 := 1#32
  let v298 : BitVec 32 := Scalar.select v297 c1_i32_331 c8_i32_329
  let v299 : BitVec 32 := Scalar.remsi arg17 v298
  let c0_i32_333 : BitVec 32 := 0#32
  let v301 : BitVec 1 := Scalar.cmpi .slt v299 c0_i32_333
  let c0_i32_334 : BitVec 32 := 0#32
  let v302 : BitVec 1 := Scalar.cmpi .slt v298 c0_i32_334
  let v303 : BitVec 1 := Scalar.xori v301 v302
  let c0_i32_332 : BitVec 32 := 0#32
  let v300 : BitVec 1 := Scalar.cmpi .ne v299 c0_i32_332
  let v304 : BitVec 1 := Scalar.andi v303 v300
  let v305 : BitVec 32 := Scalar.addi v299 v298
  let v306 : BitVec 32 := Scalar.select v304 v305 v299
  let c16_i32 : BitVec 32 := 16#32
  let v307 : BitVec 32 := Scalar.muli v306 c16_i32
  let v311 : Index := Scalar.indexCast v307
  ![1, 0, v310.toNat, v311.toNat]
def k0_off27 (k0_t6 : Fin k0_t6_loop.trips) (c0_i32_351 : BitVec 32) (c0_i32_352 : BitVec 32) : Fin 3 → Nat :=
  let c0_i32_360 : BitVec 32 := 0#32
  let v360 : Index := Scalar.indexCast c0_i32_360
  let c0_i32_223 : BitVec 32 := 0#32
  let c1_i32_225 : BitVec 32 := 1#32
  let arg17 : BitVec 32 := Scf.iv c0_i32_223 c1_i32_225 k0_t6
  let c0_i32_344 : BitVec 32 := 0#32
  let v330 : BitVec 1 := Scalar.cmpi .sgt arg17 c0_i32_344
  let v331 : BitVec 32 := Scalar.extui v330
  let c0_i32_345 : BitVec 32 := 0#32
  let v332 : BitVec 1 := Scalar.cmpi .slt arg17 c0_i32_345
  let v333 : BitVec 32 := Scalar.extui v332
  let v334 : BitVec 32 := Scalar.subi v331 v333
  let c8_i32_343 : BitVec 32 := 8#32
  let c0_i32_346 : BitVec 32 := 0#32
  let v335 : BitVec 1 := Scalar.cmpi .sgt c8_i32_343 c0_i32_346
  let v336 : BitVec 32 := Scalar.extui v335
  let c0_i32_347 : BitVec 32 := 0#32
  let v337 : BitVec 1 := Scalar.cmpi .slt c8_i32_343 c0_i32_347
  let v338 : BitVec 32 := Scalar.extui v337
  let v339 : BitVec 32 := Scalar.subi v336 v338
  let v340 : BitVec 1 := Scalar.cmpi .ne v334 v339
  let v341 : BitVec 32 := Scalar.remsi arg17 c8_i32_343
  let c0_i32_348 : BitVec 32 := 0#32
  let v342 : BitVec 1 := Scalar.cmpi .ne v341 c0_i32_348
  let v343 : BitVec 1 := Scalar.andi v340 v342
  let v329 : BitVec 32 := Scalar.divsi arg17 c8_i32_343
  let c1_i32_349 : BitVec 32 := 1#32
  let v344 : BitVec 32 := Scalar.subi v329 c1_i32_349
  let v345 : BitVec 32 := Scalar.select v343 v344 v329
  let c8_i32_350 : BitVec 32 := 8#32
  let v346 : BitVec 32 := Scalar.muli v345 c8_i32_350
  let v347 : BitVec 32 := Scalar.addi c0_i32_351 v346
  let v348 : BitVec 32 := Scalar.addi v347 c0_i32_352
  let v361 : Index := Scalar.indexCast v348
  let c8_i32_353 : BitVec 32 := 8#32
  let c0_i32_354 : BitVec 32 := 0#32
  let v349 : BitVec 1 := Scalar.cmpi .eq c8_i32_353 c0_i32_354
  let c1_i32_355 : BitVec 32 := 1#32
  let v350 : BitVec 32 := Scalar.select v349 c1_i32_355 c8_i32_353
  let v351 : BitVec 32 := Scalar.remsi arg17 v350
  let c0_i32_357 : BitVec 32 := 0#32
  let v353 : BitVec 1 := Scalar.cmpi .slt v351 c0_i32_357
  let c0_i32_358 : BitVec 32 := 0#32
  let v354 : BitVec 1 := Scalar.cmpi .slt v350 c0_i32_358
  let v355 : BitVec 1 := Scalar.xori v353 v354
  let c0_i32_356 : BitVec 32 := 0#32
  let v352 : BitVec 1 := Scalar.cmpi .ne v351 c0_i32_356
  let v356 : BitVec 1 := Scalar.andi v355 v352
  let v357 : BitVec 32 := Scalar.addi v351 v350
  let v358 : BitVec 32 := Scalar.select v356 v357 v351
  let c16_i32_359 : BitVec 32 := 16#32
  let v359 : BitVec 32 := Scalar.muli v358 c16_i32_359
  let v362 : Index := Scalar.indexCast v359
  ![0, v361.toNat, v362.toNat]
def k0_off28 (i : grid0.Coords) (k0_t1 : Fin k0_t1_loop.trips) (c0_i32_217 : BitVec 32) : Fin 2 → Nat :=
  let c0_i32_22 : BitVec 32 := 0#32
  let c1_i32_23 : BitVec 32 := 1#32
  let arg16 : BitVec 32 := Scf.iv c0_i32_22 c1_i32_23 k0_t1
  let c2_i32_203 : BitVec 32 := 2#32
  let v178 : BitVec 32 := Scalar.muli arg16 c2_i32_203
  let c1_i32_204 : BitVec 32 := 1#32
  let v179 : BitVec 32 := Scalar.addi v178 c1_i32_204
  let c4_i32_216 : BitVec 32 := 4#32
  let v188 : BitVec 32 := Scalar.muli v179 c4_i32_216
  let v189 : BitVec 32 := Scalar.addi v188 c0_i32_217
  let c2048_i32_218 : BitVec 32 := 2048#32
  let v190 : BitVec 32 := Scalar.muli v189 c2048_i32_218
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_219 : BitVec 32 := 32#32
  let v191 : BitVec 32 := Scalar.muli v1 c32_i32_219
  let v192 : BitVec 32 := Scalar.addi v190 v191
  let c0_i32_230 : BitVec 32 := 0#32
  ![v192.toNat, 0]
def k0_off29 (i : grid0.Coords) (k0_t1 : Fin k0_t1_loop.trips) (c0_i32_217 : BitVec 32) : Fin 2 → Nat :=
  let c0_i32_22 : BitVec 32 := 0#32
  let c1_i32_23 : BitVec 32 := 1#32
  let arg16 : BitVec 32 := Scf.iv c0_i32_22 c1_i32_23 k0_t1
  let c2_i32_203 : BitVec 32 := 2#32
  let v178 : BitVec 32 := Scalar.muli arg16 c2_i32_203
  let c1_i32_204 : BitVec 32 := 1#32
  let v179 : BitVec 32 := Scalar.addi v178 c1_i32_204
  let c4_i32_216 : BitVec 32 := 4#32
  let v188 : BitVec 32 := Scalar.muli v179 c4_i32_216
  let v189 : BitVec 32 := Scalar.addi v188 c0_i32_217
  let c2048_i32_218 : BitVec 32 := 2048#32
  let v190 : BitVec 32 := Scalar.muli v189 c2048_i32_218
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_219 : BitVec 32 := 32#32
  let v191 : BitVec 32 := Scalar.muli v1 c32_i32_219
  let v192 : BitVec 32 := Scalar.addi v190 v191
  let c1024_i32_234 : BitVec 32 := 1024#32
  let v203 : BitVec 32 := Scalar.addi v192 c1024_i32_234
  let c0_i32_238 : BitVec 32 := 0#32
  ![v203.toNat, 0]
def k0_cond7 (k0_t1 : Fin k0_t1_loop.trips) : BitVec 1 :=
  let c0_i32_22 : BitVec 32 := 0#32
  let c1_i32_23 : BitVec 32 := 1#32
  let arg16 : BitVec 32 := Scf.iv c0_i32_22 c1_i32_23 k0_t1
  let c2_i32_203 : BitVec 32 := 2#32
  let v178 : BitVec 32 := Scalar.muli arg16 c2_i32_203
  let c1_i32_204 : BitVec 32 := 1#32
  let v179 : BitVec 32 := Scalar.addi v178 c1_i32_204
  let c1_i32_246 : BitVec 32 := 1#32
  let v215 : BitVec 1 := Scalar.cmpi .sge v179 c1_i32_246
  let v216 : BitVec 32 := Scalar.extui v215
  let c0_i32_247 : BitVec 32 := 0#32
  let v217 : BitVec 1 := Scalar.cmpi .ne v216 c0_i32_247
  v217

def k0_off30 (i : grid0.Coords) (k0_t1 : Fin k0_t1_loop.trips) : Fin 2 → Nat :=
  let c0_i32_22 : BitVec 32 := 0#32
  let c1_i32_23 : BitVec 32 := 1#32
  let arg16 : BitVec 32 := Scf.iv c0_i32_22 c1_i32_23 k0_t1
  let c2_i32_203 : BitVec 32 := 2#32
  let v178 : BitVec 32 := Scalar.muli arg16 c2_i32_203
  let c1_i32_204 : BitVec 32 := 1#32
  let v179 : BitVec 32 := Scalar.addi v178 c1_i32_204
  let c4_i32_242 : BitVec 32 := 4#32
  let v210 : BitVec 32 := Scalar.muli v179 c4_i32_242
  let c1_i32_243 : BitVec 32 := 1#32
  let v211 : BitVec 32 := Scalar.addi v210 c1_i32_243
  let c4_i32_323 : BitVec 32 := 4#32
  let v280 : BitVec 32 := Scalar.subi v211 c4_i32_323
  let c2048_i32_324 : BitVec 32 := 2048#32
  let v281 : BitVec 32 := Scalar.muli v280 c2048_i32_324
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_325 : BitVec 32 := 32#32
  let v282 : BitVec 32 := Scalar.muli v1 c32_i32_325
  let v283 : BitVec 32 := Scalar.addi v281 v282
  let c0_i32_329 : BitVec 32 := 0#32
  ![v283.toNat, 0]
def k0_off31 (i : grid0.Coords) (k0_t1 : Fin k0_t1_loop.trips) : Fin 2 → Nat :=
  let c0_i32_22 : BitVec 32 := 0#32
  let c1_i32_23 : BitVec 32 := 1#32
  let arg16 : BitVec 32 := Scf.iv c0_i32_22 c1_i32_23 k0_t1
  let c2_i32_203 : BitVec 32 := 2#32
  let v178 : BitVec 32 := Scalar.muli arg16 c2_i32_203
  let c1_i32_204 : BitVec 32 := 1#32
  let v179 : BitVec 32 := Scalar.addi v178 c1_i32_204
  let c4_i32_242 : BitVec 32 := 4#32
  let v210 : BitVec 32 := Scalar.muli v179 c4_i32_242
  let c1_i32_243 : BitVec 32 := 1#32
  let v211 : BitVec 32 := Scalar.addi v210 c1_i32_243
  let c4_i32_323 : BitVec 32 := 4#32
  let v280 : BitVec 32 := Scalar.subi v211 c4_i32_323
  let c2048_i32_324 : BitVec 32 := 2048#32
  let v281 : BitVec 32 := Scalar.muli v280 c2048_i32_324
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_325 : BitVec 32 := 32#32
  let v282 : BitVec 32 := Scalar.muli v1 c32_i32_325
  let v283 : BitVec 32 := Scalar.addi v281 v282
  let c1024_i32_333 : BitVec 32 := 1024#32
  let v290 : BitVec 32 := Scalar.addi v283 c1024_i32_333
  let c0_i32_337 : BitVec 32 := 0#32
  ![v290.toNat, 0]
@[reducible] def k0_t7_loop : Scf.Loop 32 :=
  let c0_i32_249 : BitVec 32 := 0#32
  let c32_i32_250 : BitVec 32 := 32#32
  let v218 : BitVec 32 := Scalar.addi c0_i32_249 c32_i32_250
  let c1_i32_251 : BitVec 32 := 1#32
  ⟨c0_i32_249, v218, c1_i32_251⟩
def k0_off32 (k0_t7 : Fin k0_t7_loop.trips) : Fin 4 → Nat :=
  let c1_i32_335 : BitVec 32 := 1#32
  let v308 : Index := Scalar.indexCast c1_i32_335
  let c1_i32_336 : BitVec 32 := 1#32
  let v309 : Index := Scalar.indexCast c1_i32_336
  let c0_i32_249 : BitVec 32 := 0#32
  let c1_i32_251 : BitVec 32 := 1#32
  let arg17 : BitVec 32 := Scf.iv c0_i32_249 c1_i32_251 k0_t7
  let c0_i32_323 : BitVec 32 := 0#32
  let v281 : BitVec 1 := Scalar.cmpi .sgt arg17 c0_i32_323
  let v282 : BitVec 32 := Scalar.extui v281
  let c0_i32_324 : BitVec 32 := 0#32
  let v283 : BitVec 1 := Scalar.cmpi .slt arg17 c0_i32_324
  let v284 : BitVec 32 := Scalar.extui v283
  let v285 : BitVec 32 := Scalar.subi v282 v284
  let c8_i32 : BitVec 32 := 8#32
  let c0_i32_325 : BitVec 32 := 0#32
  let v286 : BitVec 1 := Scalar.cmpi .sgt c8_i32 c0_i32_325
  let v287 : BitVec 32 := Scalar.extui v286
  let c0_i32_326 : BitVec 32 := 0#32
  let v288 : BitVec 1 := Scalar.cmpi .slt c8_i32 c0_i32_326
  let v289 : BitVec 32 := Scalar.extui v288
  let v290 : BitVec 32 := Scalar.subi v287 v289
  let v291 : BitVec 1 := Scalar.cmpi .ne v285 v290
  let v292 : BitVec 32 := Scalar.remsi arg17 c8_i32
  let c0_i32_327 : BitVec 32 := 0#32
  let v293 : BitVec 1 := Scalar.cmpi .ne v292 c0_i32_327
  let v294 : BitVec 1 := Scalar.andi v291 v293
  let v280 : BitVec 32 := Scalar.divsi arg17 c8_i32
  let c1_i32_328 : BitVec 32 := 1#32
  let v295 : BitVec 32 := Scalar.subi v280 c1_i32_328
  let v296 : BitVec 32 := Scalar.select v294 v295 v280
  let v310 : Index := Scalar.indexCast v296
  let c8_i32_329 : BitVec 32 := 8#32
  let c0_i32_330 : BitVec 32 := 0#32
  let v297 : BitVec 1 := Scalar.cmpi .eq c8_i32_329 c0_i32_330
  let c1_i32_331 : BitVec 32 := 1#32
  let v298 : BitVec 32 := Scalar.select v297 c1_i32_331 c8_i32_329
  let v299 : BitVec 32 := Scalar.remsi arg17 v298
  let c0_i32_333 : BitVec 32 := 0#32
  let v301 : BitVec 1 := Scalar.cmpi .slt v299 c0_i32_333
  let c0_i32_334 : BitVec 32 := 0#32
  let v302 : BitVec 1 := Scalar.cmpi .slt v298 c0_i32_334
  let v303 : BitVec 1 := Scalar.xori v301 v302
  let c0_i32_332 : BitVec 32 := 0#32
  let v300 : BitVec 1 := Scalar.cmpi .ne v299 c0_i32_332
  let v304 : BitVec 1 := Scalar.andi v303 v300
  let v305 : BitVec 32 := Scalar.addi v299 v298
  let v306 : BitVec 32 := Scalar.select v304 v305 v299
  let c16_i32 : BitVec 32 := 16#32
  let v307 : BitVec 32 := Scalar.muli v306 c16_i32
  let v311 : Index := Scalar.indexCast v307
  ![1, 1, v310.toNat, v311.toNat]
def k0_off33 (k0_t7 : Fin k0_t7_loop.trips) (c0_i32_351 : BitVec 32) (c0_i32_352 : BitVec 32) : Fin 3 → Nat :=
  let c1_i32_360 : BitVec 32 := 1#32
  let v360 : Index := Scalar.indexCast c1_i32_360
  let c0_i32_249 : BitVec 32 := 0#32
  let c1_i32_251 : BitVec 32 := 1#32
  let arg17 : BitVec 32 := Scf.iv c0_i32_249 c1_i32_251 k0_t7
  let c0_i32_344 : BitVec 32 := 0#32
  let v330 : BitVec 1 := Scalar.cmpi .sgt arg17 c0_i32_344
  let v331 : BitVec 32 := Scalar.extui v330
  let c0_i32_345 : BitVec 32 := 0#32
  let v332 : BitVec 1 := Scalar.cmpi .slt arg17 c0_i32_345
  let v333 : BitVec 32 := Scalar.extui v332
  let v334 : BitVec 32 := Scalar.subi v331 v333
  let c8_i32_343 : BitVec 32 := 8#32
  let c0_i32_346 : BitVec 32 := 0#32
  let v335 : BitVec 1 := Scalar.cmpi .sgt c8_i32_343 c0_i32_346
  let v336 : BitVec 32 := Scalar.extui v335
  let c0_i32_347 : BitVec 32 := 0#32
  let v337 : BitVec 1 := Scalar.cmpi .slt c8_i32_343 c0_i32_347
  let v338 : BitVec 32 := Scalar.extui v337
  let v339 : BitVec 32 := Scalar.subi v336 v338
  let v340 : BitVec 1 := Scalar.cmpi .ne v334 v339
  let v341 : BitVec 32 := Scalar.remsi arg17 c8_i32_343
  let c0_i32_348 : BitVec 32 := 0#32
  let v342 : BitVec 1 := Scalar.cmpi .ne v341 c0_i32_348
  let v343 : BitVec 1 := Scalar.andi v340 v342
  let v329 : BitVec 32 := Scalar.divsi arg17 c8_i32_343
  let c1_i32_349 : BitVec 32 := 1#32
  let v344 : BitVec 32 := Scalar.subi v329 c1_i32_349
  let v345 : BitVec 32 := Scalar.select v343 v344 v329
  let c8_i32_350 : BitVec 32 := 8#32
  let v346 : BitVec 32 := Scalar.muli v345 c8_i32_350
  let v347 : BitVec 32 := Scalar.addi c0_i32_351 v346
  let v348 : BitVec 32 := Scalar.addi v347 c0_i32_352
  let v361 : Index := Scalar.indexCast v348
  let c8_i32_353 : BitVec 32 := 8#32
  let c0_i32_354 : BitVec 32 := 0#32
  let v349 : BitVec 1 := Scalar.cmpi .eq c8_i32_353 c0_i32_354
  let c1_i32_355 : BitVec 32 := 1#32
  let v350 : BitVec 32 := Scalar.select v349 c1_i32_355 c8_i32_353
  let v351 : BitVec 32 := Scalar.remsi arg17 v350
  let c0_i32_357 : BitVec 32 := 0#32
  let v353 : BitVec 1 := Scalar.cmpi .slt v351 c0_i32_357
  let c0_i32_358 : BitVec 32 := 0#32
  let v354 : BitVec 1 := Scalar.cmpi .slt v350 c0_i32_358
  let v355 : BitVec 1 := Scalar.xori v353 v354
  let c0_i32_356 : BitVec 32 := 0#32
  let v352 : BitVec 1 := Scalar.cmpi .ne v351 c0_i32_356
  let v356 : BitVec 1 := Scalar.andi v355 v352
  let v357 : BitVec 32 := Scalar.addi v351 v350
  let v358 : BitVec 32 := Scalar.select v356 v357 v351
  let c16_i32_359 : BitVec 32 := 16#32
  let v359 : BitVec 32 := Scalar.muli v358 c16_i32_359
  let v362 : Index := Scalar.indexCast v359
  ![1, v361.toNat, v362.toNat]
def k0_cond8 (k0_t1 : Fin k0_t1_loop.trips) : BitVec 1 :=
  let c0_i32_22 : BitVec 32 := 0#32
  let c1_i32_23 : BitVec 32 := 1#32
  let arg16 : BitVec 32 := Scf.iv c0_i32_22 c1_i32_23 k0_t1
  let c2_i32_203 : BitVec 32 := 2#32
  let v178 : BitVec 32 := Scalar.muli arg16 c2_i32_203
  let c1_i32_204 : BitVec 32 := 1#32
  let v179 : BitVec 32 := Scalar.addi v178 c1_i32_204
  let c1_i32_272 : BitVec 32 := 1#32
  let v237 : BitVec 1 := Scalar.cmpi .sge v179 c1_i32_272
  let v238 : BitVec 32 := Scalar.extui v237
  let c0_i32_273 : BitVec 32 := 0#32
  let v239 : BitVec 1 := Scalar.cmpi .ne v238 c0_i32_273
  v239

def k0_off34 (i : grid0.Coords) (k0_t1 : Fin k0_t1_loop.trips) : Fin 2 → Nat :=
  let c0_i32_22 : BitVec 32 := 0#32
  let c1_i32_23 : BitVec 32 := 1#32
  let arg16 : BitVec 32 := Scf.iv c0_i32_22 c1_i32_23 k0_t1
  let c2_i32_203 : BitVec 32 := 2#32
  let v178 : BitVec 32 := Scalar.muli arg16 c2_i32_203
  let c1_i32_204 : BitVec 32 := 1#32
  let v179 : BitVec 32 := Scalar.addi v178 c1_i32_204
  let c4_i32_268 : BitVec 32 := 4#32
  let v232 : BitVec 32 := Scalar.muli v179 c4_i32_268
  let c2_i32_269 : BitVec 32 := 2#32
  let v233 : BitVec 32 := Scalar.addi v232 c2_i32_269
  let c4_i32_323 : BitVec 32 := 4#32
  let v280 : BitVec 32 := Scalar.subi v233 c4_i32_323
  let c2048_i32_324 : BitVec 32 := 2048#32
  let v281 : BitVec 32 := Scalar.muli v280 c2048_i32_324
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_325 : BitVec 32 := 32#32
  let v282 : BitVec 32 := Scalar.muli v1 c32_i32_325
  let v283 : BitVec 32 := Scalar.addi v281 v282
  let c0_i32_329 : BitVec 32 := 0#32
  ![v283.toNat, 0]
def k0_off35 (i : grid0.Coords) (k0_t1 : Fin k0_t1_loop.trips) : Fin 2 → Nat :=
  let c0_i32_22 : BitVec 32 := 0#32
  let c1_i32_23 : BitVec 32 := 1#32
  let arg16 : BitVec 32 := Scf.iv c0_i32_22 c1_i32_23 k0_t1
  let c2_i32_203 : BitVec 32 := 2#32
  let v178 : BitVec 32 := Scalar.muli arg16 c2_i32_203
  let c1_i32_204 : BitVec 32 := 1#32
  let v179 : BitVec 32 := Scalar.addi v178 c1_i32_204
  let c4_i32_268 : BitVec 32 := 4#32
  let v232 : BitVec 32 := Scalar.muli v179 c4_i32_268
  let c2_i32_269 : BitVec 32 := 2#32
  let v233 : BitVec 32 := Scalar.addi v232 c2_i32_269
  let c4_i32_323 : BitVec 32 := 4#32
  let v280 : BitVec 32 := Scalar.subi v233 c4_i32_323
  let c2048_i32_324 : BitVec 32 := 2048#32
  let v281 : BitVec 32 := Scalar.muli v280 c2048_i32_324
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_325 : BitVec 32 := 32#32
  let v282 : BitVec 32 := Scalar.muli v1 c32_i32_325
  let v283 : BitVec 32 := Scalar.addi v281 v282
  let c1024_i32_333 : BitVec 32 := 1024#32
  let v290 : BitVec 32 := Scalar.addi v283 c1024_i32_333
  let c0_i32_337 : BitVec 32 := 0#32
  ![v290.toNat, 0]
@[reducible] def k0_t8_loop : Scf.Loop 32 :=
  let c0_i32_275 : BitVec 32 := 0#32
  let c32_i32_276 : BitVec 32 := 32#32
  let v240 : BitVec 32 := Scalar.addi c0_i32_275 c32_i32_276
  let c1_i32_277 : BitVec 32 := 1#32
  ⟨c0_i32_275, v240, c1_i32_277⟩
def k0_off36 (k0_t8 : Fin k0_t8_loop.trips) : Fin 4 → Nat :=
  let c1_i32_335 : BitVec 32 := 1#32
  let v308 : Index := Scalar.indexCast c1_i32_335
  let c2_i32_336 : BitVec 32 := 2#32
  let v309 : Index := Scalar.indexCast c2_i32_336
  let c0_i32_275 : BitVec 32 := 0#32
  let c1_i32_277 : BitVec 32 := 1#32
  let arg17 : BitVec 32 := Scf.iv c0_i32_275 c1_i32_277 k0_t8
  let c0_i32_323 : BitVec 32 := 0#32
  let v281 : BitVec 1 := Scalar.cmpi .sgt arg17 c0_i32_323
  let v282 : BitVec 32 := Scalar.extui v281
  let c0_i32_324 : BitVec 32 := 0#32
  let v283 : BitVec 1 := Scalar.cmpi .slt arg17 c0_i32_324
  let v284 : BitVec 32 := Scalar.extui v283
  let v285 : BitVec 32 := Scalar.subi v282 v284
  let c8_i32 : BitVec 32 := 8#32
  let c0_i32_325 : BitVec 32 := 0#32
  let v286 : BitVec 1 := Scalar.cmpi .sgt c8_i32 c0_i32_325
  let v287 : BitVec 32 := Scalar.extui v286
  let c0_i32_326 : BitVec 32 := 0#32
  let v288 : BitVec 1 := Scalar.cmpi .slt c8_i32 c0_i32_326
  let v289 : BitVec 32 := Scalar.extui v288
  let v290 : BitVec 32 := Scalar.subi v287 v289
  let v291 : BitVec 1 := Scalar.cmpi .ne v285 v290
  let v292 : BitVec 32 := Scalar.remsi arg17 c8_i32
  let c0_i32_327 : BitVec 32 := 0#32
  let v293 : BitVec 1 := Scalar.cmpi .ne v292 c0_i32_327
  let v294 : BitVec 1 := Scalar.andi v291 v293
  let v280 : BitVec 32 := Scalar.divsi arg17 c8_i32
  let c1_i32_328 : BitVec 32 := 1#32
  let v295 : BitVec 32 := Scalar.subi v280 c1_i32_328
  let v296 : BitVec 32 := Scalar.select v294 v295 v280
  let v310 : Index := Scalar.indexCast v296
  let c8_i32_329 : BitVec 32 := 8#32
  let c0_i32_330 : BitVec 32 := 0#32
  let v297 : BitVec 1 := Scalar.cmpi .eq c8_i32_329 c0_i32_330
  let c1_i32_331 : BitVec 32 := 1#32
  let v298 : BitVec 32 := Scalar.select v297 c1_i32_331 c8_i32_329
  let v299 : BitVec 32 := Scalar.remsi arg17 v298
  let c0_i32_333 : BitVec 32 := 0#32
  let v301 : BitVec 1 := Scalar.cmpi .slt v299 c0_i32_333
  let c0_i32_334 : BitVec 32 := 0#32
  let v302 : BitVec 1 := Scalar.cmpi .slt v298 c0_i32_334
  let v303 : BitVec 1 := Scalar.xori v301 v302
  let c0_i32_332 : BitVec 32 := 0#32
  let v300 : BitVec 1 := Scalar.cmpi .ne v299 c0_i32_332
  let v304 : BitVec 1 := Scalar.andi v303 v300
  let v305 : BitVec 32 := Scalar.addi v299 v298
  let v306 : BitVec 32 := Scalar.select v304 v305 v299
  let c16_i32 : BitVec 32 := 16#32
  let v307 : BitVec 32 := Scalar.muli v306 c16_i32
  let v311 : Index := Scalar.indexCast v307
  ![1, 2, v310.toNat, v311.toNat]
def k0_off37 (k0_t8 : Fin k0_t8_loop.trips) (c0_i32_351 : BitVec 32) (c0_i32_352 : BitVec 32) : Fin 3 → Nat :=
  let c2_i32_360 : BitVec 32 := 2#32
  let v360 : Index := Scalar.indexCast c2_i32_360
  let c0_i32_275 : BitVec 32 := 0#32
  let c1_i32_277 : BitVec 32 := 1#32
  let arg17 : BitVec 32 := Scf.iv c0_i32_275 c1_i32_277 k0_t8
  let c0_i32_344 : BitVec 32 := 0#32
  let v330 : BitVec 1 := Scalar.cmpi .sgt arg17 c0_i32_344
  let v331 : BitVec 32 := Scalar.extui v330
  let c0_i32_345 : BitVec 32 := 0#32
  let v332 : BitVec 1 := Scalar.cmpi .slt arg17 c0_i32_345
  let v333 : BitVec 32 := Scalar.extui v332
  let v334 : BitVec 32 := Scalar.subi v331 v333
  let c8_i32_343 : BitVec 32 := 8#32
  let c0_i32_346 : BitVec 32 := 0#32
  let v335 : BitVec 1 := Scalar.cmpi .sgt c8_i32_343 c0_i32_346
  let v336 : BitVec 32 := Scalar.extui v335
  let c0_i32_347 : BitVec 32 := 0#32
  let v337 : BitVec 1 := Scalar.cmpi .slt c8_i32_343 c0_i32_347
  let v338 : BitVec 32 := Scalar.extui v337
  let v339 : BitVec 32 := Scalar.subi v336 v338
  let v340 : BitVec 1 := Scalar.cmpi .ne v334 v339
  let v341 : BitVec 32 := Scalar.remsi arg17 c8_i32_343
  let c0_i32_348 : BitVec 32 := 0#32
  let v342 : BitVec 1 := Scalar.cmpi .ne v341 c0_i32_348
  let v343 : BitVec 1 := Scalar.andi v340 v342
  let v329 : BitVec 32 := Scalar.divsi arg17 c8_i32_343
  let c1_i32_349 : BitVec 32 := 1#32
  let v344 : BitVec 32 := Scalar.subi v329 c1_i32_349
  let v345 : BitVec 32 := Scalar.select v343 v344 v329
  let c8_i32_350 : BitVec 32 := 8#32
  let v346 : BitVec 32 := Scalar.muli v345 c8_i32_350
  let v347 : BitVec 32 := Scalar.addi c0_i32_351 v346
  let v348 : BitVec 32 := Scalar.addi v347 c0_i32_352
  let v361 : Index := Scalar.indexCast v348
  let c8_i32_353 : BitVec 32 := 8#32
  let c0_i32_354 : BitVec 32 := 0#32
  let v349 : BitVec 1 := Scalar.cmpi .eq c8_i32_353 c0_i32_354
  let c1_i32_355 : BitVec 32 := 1#32
  let v350 : BitVec 32 := Scalar.select v349 c1_i32_355 c8_i32_353
  let v351 : BitVec 32 := Scalar.remsi arg17 v350
  let c0_i32_357 : BitVec 32 := 0#32
  let v353 : BitVec 1 := Scalar.cmpi .slt v351 c0_i32_357
  let c0_i32_358 : BitVec 32 := 0#32
  let v354 : BitVec 1 := Scalar.cmpi .slt v350 c0_i32_358
  let v355 : BitVec 1 := Scalar.xori v353 v354
  let c0_i32_356 : BitVec 32 := 0#32
  let v352 : BitVec 1 := Scalar.cmpi .ne v351 c0_i32_356
  let v356 : BitVec 1 := Scalar.andi v355 v352
  let v357 : BitVec 32 := Scalar.addi v351 v350
  let v358 : BitVec 32 := Scalar.select v356 v357 v351
  let c16_i32_359 : BitVec 32 := 16#32
  let v359 : BitVec 32 := Scalar.muli v358 c16_i32_359
  let v362 : Index := Scalar.indexCast v359
  ![2, v361.toNat, v362.toNat]
def k0_cond9 (k0_t1 : Fin k0_t1_loop.trips) : BitVec 1 :=
  let c0_i32_22 : BitVec 32 := 0#32
  let c1_i32_23 : BitVec 32 := 1#32
  let arg16 : BitVec 32 := Scf.iv c0_i32_22 c1_i32_23 k0_t1
  let c2_i32_203 : BitVec 32 := 2#32
  let v178 : BitVec 32 := Scalar.muli arg16 c2_i32_203
  let c1_i32_204 : BitVec 32 := 1#32
  let v179 : BitVec 32 := Scalar.addi v178 c1_i32_204
  let c1_i32_298 : BitVec 32 := 1#32
  let v259 : BitVec 1 := Scalar.cmpi .sge v179 c1_i32_298
  let v260 : BitVec 32 := Scalar.extui v259
  let c0_i32_299 : BitVec 32 := 0#32
  let v261 : BitVec 1 := Scalar.cmpi .ne v260 c0_i32_299
  v261

def k0_off38 (i : grid0.Coords) (k0_t1 : Fin k0_t1_loop.trips) : Fin 2 → Nat :=
  let c0_i32_22 : BitVec 32 := 0#32
  let c1_i32_23 : BitVec 32 := 1#32
  let arg16 : BitVec 32 := Scf.iv c0_i32_22 c1_i32_23 k0_t1
  let c2_i32_203 : BitVec 32 := 2#32
  let v178 : BitVec 32 := Scalar.muli arg16 c2_i32_203
  let c1_i32_204 : BitVec 32 := 1#32
  let v179 : BitVec 32 := Scalar.addi v178 c1_i32_204
  let c4_i32_294 : BitVec 32 := 4#32
  let v254 : BitVec 32 := Scalar.muli v179 c4_i32_294
  let c3_i32_295 : BitVec 32 := 3#32
  let v255 : BitVec 32 := Scalar.addi v254 c3_i32_295
  let c4_i32_323 : BitVec 32 := 4#32
  let v280 : BitVec 32 := Scalar.subi v255 c4_i32_323
  let c2048_i32_324 : BitVec 32 := 2048#32
  let v281 : BitVec 32 := Scalar.muli v280 c2048_i32_324
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_325 : BitVec 32 := 32#32
  let v282 : BitVec 32 := Scalar.muli v1 c32_i32_325
  let v283 : BitVec 32 := Scalar.addi v281 v282
  let c0_i32_329 : BitVec 32 := 0#32
  ![v283.toNat, 0]
def k0_off39 (i : grid0.Coords) (k0_t1 : Fin k0_t1_loop.trips) : Fin 2 → Nat :=
  let c0_i32_22 : BitVec 32 := 0#32
  let c1_i32_23 : BitVec 32 := 1#32
  let arg16 : BitVec 32 := Scf.iv c0_i32_22 c1_i32_23 k0_t1
  let c2_i32_203 : BitVec 32 := 2#32
  let v178 : BitVec 32 := Scalar.muli arg16 c2_i32_203
  let c1_i32_204 : BitVec 32 := 1#32
  let v179 : BitVec 32 := Scalar.addi v178 c1_i32_204
  let c4_i32_294 : BitVec 32 := 4#32
  let v254 : BitVec 32 := Scalar.muli v179 c4_i32_294
  let c3_i32_295 : BitVec 32 := 3#32
  let v255 : BitVec 32 := Scalar.addi v254 c3_i32_295
  let c4_i32_323 : BitVec 32 := 4#32
  let v280 : BitVec 32 := Scalar.subi v255 c4_i32_323
  let c2048_i32_324 : BitVec 32 := 2048#32
  let v281 : BitVec 32 := Scalar.muli v280 c2048_i32_324
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_325 : BitVec 32 := 32#32
  let v282 : BitVec 32 := Scalar.muli v1 c32_i32_325
  let v283 : BitVec 32 := Scalar.addi v281 v282
  let c1024_i32_333 : BitVec 32 := 1024#32
  let v290 : BitVec 32 := Scalar.addi v283 c1024_i32_333
  let c0_i32_337 : BitVec 32 := 0#32
  ![v290.toNat, 0]
@[reducible] def k0_t9_loop : Scf.Loop 32 :=
  let c0_i32_301 : BitVec 32 := 0#32
  let c32_i32_302 : BitVec 32 := 32#32
  let v262 : BitVec 32 := Scalar.addi c0_i32_301 c32_i32_302
  let c1_i32_303 : BitVec 32 := 1#32
  ⟨c0_i32_301, v262, c1_i32_303⟩
def k0_off40 (k0_t9 : Fin k0_t9_loop.trips) : Fin 4 → Nat :=
  let c1_i32_335 : BitVec 32 := 1#32
  let v308 : Index := Scalar.indexCast c1_i32_335
  let c3_i32_336 : BitVec 32 := 3#32
  let v309 : Index := Scalar.indexCast c3_i32_336
  let c0_i32_301 : BitVec 32 := 0#32
  let c1_i32_303 : BitVec 32 := 1#32
  let arg17 : BitVec 32 := Scf.iv c0_i32_301 c1_i32_303 k0_t9
  let c0_i32_323 : BitVec 32 := 0#32
  let v281 : BitVec 1 := Scalar.cmpi .sgt arg17 c0_i32_323
  let v282 : BitVec 32 := Scalar.extui v281
  let c0_i32_324 : BitVec 32 := 0#32
  let v283 : BitVec 1 := Scalar.cmpi .slt arg17 c0_i32_324
  let v284 : BitVec 32 := Scalar.extui v283
  let v285 : BitVec 32 := Scalar.subi v282 v284
  let c8_i32 : BitVec 32 := 8#32
  let c0_i32_325 : BitVec 32 := 0#32
  let v286 : BitVec 1 := Scalar.cmpi .sgt c8_i32 c0_i32_325
  let v287 : BitVec 32 := Scalar.extui v286
  let c0_i32_326 : BitVec 32 := 0#32
  let v288 : BitVec 1 := Scalar.cmpi .slt c8_i32 c0_i32_326
  let v289 : BitVec 32 := Scalar.extui v288
  let v290 : BitVec 32 := Scalar.subi v287 v289
  let v291 : BitVec 1 := Scalar.cmpi .ne v285 v290
  let v292 : BitVec 32 := Scalar.remsi arg17 c8_i32
  let c0_i32_327 : BitVec 32 := 0#32
  let v293 : BitVec 1 := Scalar.cmpi .ne v292 c0_i32_327
  let v294 : BitVec 1 := Scalar.andi v291 v293
  let v280 : BitVec 32 := Scalar.divsi arg17 c8_i32
  let c1_i32_328 : BitVec 32 := 1#32
  let v295 : BitVec 32 := Scalar.subi v280 c1_i32_328
  let v296 : BitVec 32 := Scalar.select v294 v295 v280
  let v310 : Index := Scalar.indexCast v296
  let c8_i32_329 : BitVec 32 := 8#32
  let c0_i32_330 : BitVec 32 := 0#32
  let v297 : BitVec 1 := Scalar.cmpi .eq c8_i32_329 c0_i32_330
  let c1_i32_331 : BitVec 32 := 1#32
  let v298 : BitVec 32 := Scalar.select v297 c1_i32_331 c8_i32_329
  let v299 : BitVec 32 := Scalar.remsi arg17 v298
  let c0_i32_333 : BitVec 32 := 0#32
  let v301 : BitVec 1 := Scalar.cmpi .slt v299 c0_i32_333
  let c0_i32_334 : BitVec 32 := 0#32
  let v302 : BitVec 1 := Scalar.cmpi .slt v298 c0_i32_334
  let v303 : BitVec 1 := Scalar.xori v301 v302
  let c0_i32_332 : BitVec 32 := 0#32
  let v300 : BitVec 1 := Scalar.cmpi .ne v299 c0_i32_332
  let v304 : BitVec 1 := Scalar.andi v303 v300
  let v305 : BitVec 32 := Scalar.addi v299 v298
  let v306 : BitVec 32 := Scalar.select v304 v305 v299
  let c16_i32 : BitVec 32 := 16#32
  let v307 : BitVec 32 := Scalar.muli v306 c16_i32
  let v311 : Index := Scalar.indexCast v307
  ![1, 3, v310.toNat, v311.toNat]
def k0_off41 (k0_t9 : Fin k0_t9_loop.trips) (c0_i32_351 : BitVec 32) (c0_i32_352 : BitVec 32) : Fin 3 → Nat :=
  let c3_i32_360 : BitVec 32 := 3#32
  let v360 : Index := Scalar.indexCast c3_i32_360
  let c0_i32_301 : BitVec 32 := 0#32
  let c1_i32_303 : BitVec 32 := 1#32
  let arg17 : BitVec 32 := Scf.iv c0_i32_301 c1_i32_303 k0_t9
  let c0_i32_344 : BitVec 32 := 0#32
  let v330 : BitVec 1 := Scalar.cmpi .sgt arg17 c0_i32_344
  let v331 : BitVec 32 := Scalar.extui v330
  let c0_i32_345 : BitVec 32 := 0#32
  let v332 : BitVec 1 := Scalar.cmpi .slt arg17 c0_i32_345
  let v333 : BitVec 32 := Scalar.extui v332
  let v334 : BitVec 32 := Scalar.subi v331 v333
  let c8_i32_343 : BitVec 32 := 8#32
  let c0_i32_346 : BitVec 32 := 0#32
  let v335 : BitVec 1 := Scalar.cmpi .sgt c8_i32_343 c0_i32_346
  let v336 : BitVec 32 := Scalar.extui v335
  let c0_i32_347 : BitVec 32 := 0#32
  let v337 : BitVec 1 := Scalar.cmpi .slt c8_i32_343 c0_i32_347
  let v338 : BitVec 32 := Scalar.extui v337
  let v339 : BitVec 32 := Scalar.subi v336 v338
  let v340 : BitVec 1 := Scalar.cmpi .ne v334 v339
  let v341 : BitVec 32 := Scalar.remsi arg17 c8_i32_343
  let c0_i32_348 : BitVec 32 := 0#32
  let v342 : BitVec 1 := Scalar.cmpi .ne v341 c0_i32_348
  let v343 : BitVec 1 := Scalar.andi v340 v342
  let v329 : BitVec 32 := Scalar.divsi arg17 c8_i32_343
  let c1_i32_349 : BitVec 32 := 1#32
  let v344 : BitVec 32 := Scalar.subi v329 c1_i32_349
  let v345 : BitVec 32 := Scalar.select v343 v344 v329
  let c8_i32_350 : BitVec 32 := 8#32
  let v346 : BitVec 32 := Scalar.muli v345 c8_i32_350
  let v347 : BitVec 32 := Scalar.addi c0_i32_351 v346
  let v348 : BitVec 32 := Scalar.addi v347 c0_i32_352
  let v361 : Index := Scalar.indexCast v348
  let c8_i32_353 : BitVec 32 := 8#32
  let c0_i32_354 : BitVec 32 := 0#32
  let v349 : BitVec 1 := Scalar.cmpi .eq c8_i32_353 c0_i32_354
  let c1_i32_355 : BitVec 32 := 1#32
  let v350 : BitVec 32 := Scalar.select v349 c1_i32_355 c8_i32_353
  let v351 : BitVec 32 := Scalar.remsi arg17 v350
  let c0_i32_357 : BitVec 32 := 0#32
  let v353 : BitVec 1 := Scalar.cmpi .slt v351 c0_i32_357
  let c0_i32_358 : BitVec 32 := 0#32
  let v354 : BitVec 1 := Scalar.cmpi .slt v350 c0_i32_358
  let v355 : BitVec 1 := Scalar.xori v353 v354
  let c0_i32_356 : BitVec 32 := 0#32
  let v352 : BitVec 1 := Scalar.cmpi .ne v351 c0_i32_356
  let v356 : BitVec 1 := Scalar.andi v355 v352
  let v357 : BitVec 32 := Scalar.addi v351 v350
  let v358 : BitVec 32 := Scalar.select v356 v357 v351
  let c16_i32_359 : BitVec 32 := 16#32
  let v359 : BitVec 32 := Scalar.muli v358 c16_i32_359
  let v362 : Index := Scalar.indexCast v359
  ![3, v361.toNat, v362.toNat]
def k0_cond10 (k0_t1 : Fin k0_t1_loop.trips) : BitVec 1 :=
  let c0_i32_22 : BitVec 32 := 0#32
  let c1_i32_23 : BitVec 32 := 1#32
  let arg16 : BitVec 32 := Scf.iv c0_i32_22 c1_i32_23 k0_t1
  let c2_i32_203 : BitVec 32 := 2#32
  let v178 : BitVec 32 := Scalar.muli arg16 c2_i32_203
  let c1_i32_204 : BitVec 32 := 1#32
  let v179 : BitVec 32 := Scalar.addi v178 c1_i32_204
  let c2_i32_320 : BitVec 32 := 2#32
  let v276 : BitVec 32 := Scalar.addi v179 c2_i32_320
  let c50_i32_321 : BitVec 32 := 50#32
  let v277 : BitVec 1 := Scalar.cmpi .slt v276 c50_i32_321
  let v278 : BitVec 32 := Scalar.extui v277
  let c0_i32_322 : BitVec 32 := 0#32
  let v279 : BitVec 1 := Scalar.cmpi .ne v278 c0_i32_322
  v279

def k0_off42 (i : grid0.Coords) (k0_t1 : Fin k0_t1_loop.trips) : Fin 3 → Nat :=
  let c0_i32_22 : BitVec 32 := 0#32
  let c1_i32_23 : BitVec 32 := 1#32
  let arg16 : BitVec 32 := Scf.iv c0_i32_22 c1_i32_23 k0_t1
  let c2_i32_203 : BitVec 32 := 2#32
  let v178 : BitVec 32 := Scalar.muli arg16 c2_i32_203
  let c1_i32_204 : BitVec 32 := 1#32
  let v179 : BitVec 32 := Scalar.addi v178 c1_i32_204
  let c2_i32_323 : BitVec 32 := 2#32
  let v280 : BitVec 32 := Scalar.addi v179 c2_i32_323
  let c4_i32_324 : BitVec 32 := 4#32
  let v281 : BitVec 32 := Scalar.muli v280 c4_i32_324
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_325 : BitVec 32 := 4#32
  let v282 : BitVec 32 := Scalar.muli v1 c4_i32_325
  let c0_i32_330 : BitVec 32 := 0#32
  ![v281.toNat, v282.toNat, 0]
def k0_off43 (i : grid0.Coords) (c401408_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v17 : BitVec 32 := Scalar.muli v1 c32_i32
  let v18 : BitVec 32 := Scalar.addi c401408_i32 v17
  let c0_i32_28 : BitVec 32 := 0#32
  ![v18.toNat, 0]
def k0_off44 (i : grid0.Coords) (c401408_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v17 : BitVec 32 := Scalar.muli v1 c32_i32
  let v18 : BitVec 32 := Scalar.addi c401408_i32 v17
  let c1024_i32 : BitVec 32 := 1024#32
  let v25 : BitVec 32 := Scalar.addi v18 c1024_i32
  let c0_i32_35 : BitVec 32 := 0#32
  ![v25.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384x200x1_S128x128x200 : S16384x200x1.ShapeCasts S128x128x200
  transposes_S128x128x200_S200x128x128_2_0_1 : S128x128x200.Transposes [2, 0, 1] S200x128x128
  inb_S2x4x4x128_S1x4x4x128_0_0_0_0 : ∀ a, (![0, 0, 0, 0] : Fin 4 → Nat) a + S1x4x4x128.size a ≤ S2x4x4x128.size a
  squeezes_S1x4x4x128_S4x4x128 : S1x4x4x128.Squeezes S4x4x128
  inb_S2x4x4x128_S1x4x4x128_1_0_0_0 : ∀ a, (![1, 0, 0, 0] : Fin 4 → Nat) a + S1x4x4x128.size a ≤ S2x4x4x128.size a
  inb_S4x64x128_S1x32x128_0_0_0 : ∀ a, (![0, 0, 0] : Fin 3 → Nat) a + S1x32x128.size a ≤ S4x64x128.size a
  squeezes_S1x32x128_S32x128 : S1x32x128.Squeezes S32x128
  inb_S4x64x128_S1x32x128_0_32_0 : ∀ a, (![0, 32, 0] : Fin 3 → Nat) a + S1x32x128.size a ≤ S4x64x128.size a
  h_S1x1x1x16 : 0 < S1x1x1x16.numel
  shapeCasts_S1x1x1x16_S16 : S1x1x1x16.ShapeCasts S16
  h_S1x1x16 : 0 < S1x1x16.numel
  shapeCasts_S1x1x16_S16 : S1x1x16.ShapeCasts S16
  shapeCasts_S16_S1x1x16 : S16.ShapeCasts S1x1x16
  inb_S4x64x128_S1x32x128_1_0_0 : ∀ a, (![1, 0, 0] : Fin 3 → Nat) a + S1x32x128.size a ≤ S4x64x128.size a
  inb_S4x64x128_S1x32x128_1_32_0 : ∀ a, (![1, 32, 0] : Fin 3 → Nat) a + S1x32x128.size a ≤ S4x64x128.size a
  inb_S4x64x128_S1x32x128_2_0_0 : ∀ a, (![2, 0, 0] : Fin 3 → Nat) a + S1x32x128.size a ≤ S4x64x128.size a
  inb_S4x64x128_S1x32x128_2_32_0 : ∀ a, (![2, 32, 0] : Fin 3 → Nat) a + S1x32x128.size a ≤ S4x64x128.size a
  inb_S4x64x128_S1x32x128_3_0_0 : ∀ a, (![3, 0, 0] : Fin 3 → Nat) a + S1x32x128.size a ≤ S4x64x128.size a
  inb_S4x64x128_S1x32x128_3_32_0 : ∀ a, (![3, 32, 0] : Fin 3 → Nat) a + S1x32x128.size a ≤ S4x64x128.size a
  shapeCasts_S409600x128_S200x2x128x8x128 : S409600x128.ShapeCasts S200x2x128x8x128
  transposes_S200x2x128x8x128_S128x128x200x2x8_2_4_0_1_3 : S200x2x128x8x128.Transposes [2, 4, 0, 1, 3] S128x128x200x2x8
  shapeCasts_S128x128x200x2x8_S16384x200x16 : S128x128x200x2x8.ShapeCasts S16384x200x16
  hcc0_scratch2 : 0 + S_.numel ≤ 10
  hcc0_scratch3 : 1 + S_.numel ≤ 10
  hcc0_scratch4 : 2 + S_.numel ≤ 10
  hcc0_scratch5 : 3 + S_.numel ≤ 10
  hcc0_scratch6 : 4 + S_.numel ≤ 10
  hcc0_scratch7 : 5 + S_.numel ≤ 10
  hcc0_scratch8 : 6 + S_.numel ≤ 10
  hcc0_scratch9 : 7 + S_.numel ≤ 10
  hcc0_scratch10 : 8 + S_.numel ≤ 10
  hcc0_scratch11 : 9 + S_.numel ≤ 10
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S4x4x128.size a ≤ S200x128x128.size a
  k0_off2_inb : ∀ i : grid0.Coords, ∀ a, (k0_off2 i) a + S4x4x128.size a ≤ S200x128x128.size a
  k0_t1_ok : k0_t1_loop.OK
  k0_off3_inb : ∀ (i : grid0.Coords) (k0_t1 : Fin k0_t1_loop.trips), ∀ a, (k0_off3 i k0_t1) a + S4x4x128.size a ≤ S200x128x128.size a
  k0_off4_inb : ∀ (i : grid0.Coords) (k0_t1 : Fin k0_t1_loop.trips), ∀ (k0_h1 : k0_cond1 k0_t1 = 1#1), ∀ a, (k0_off4 i k0_t1) a + S32x128.size a ≤ S409600x128.size a
  k0_off5_inb : ∀ (i : grid0.Coords) (k0_t1 : Fin k0_t1_loop.trips), ∀ (k0_h1 : k0_cond1 k0_t1 = 1#1), ∀ a, (k0_off5 i k0_t1) a + S32x128.size a ≤ S409600x128.size a
  k0_t2_ok : k0_t2_loop.OK
  k0_off6_inb : ∀ k0_t2 : Fin k0_t2_loop.trips, ∀ a, (k0_off6 k0_t2) a + S1x1x1x16.size a ≤ S2x4x4x128.size a
  k0_off7_inb : ∀ k0_t2 : Fin k0_t2_loop.trips, ∀ (r₁ : Fin 2) (r₂ : Fin 8), ∀ a, (k0_off7 k0_t2 (BitVec.ofNat 32 (32 * r₁.val)) (BitVec.ofNat 32 r₂.val)) a + S1x1x16.size a ≤ S4x64x128.size a
  k0_off8_inb : ∀ (i : grid0.Coords) (k0_t1 : Fin k0_t1_loop.trips), ∀ (r : Fin 4), ∀ a, (k0_off8 i k0_t1 (BitVec.ofNat 32 r.val)) a + S32x128.size a ≤ S409600x128.size a
  k0_off9_inb : ∀ (i : grid0.Coords) (k0_t1 : Fin k0_t1_loop.trips), ∀ (r : Fin 4), ∀ a, (k0_off9 i k0_t1 (BitVec.ofNat 32 r.val)) a + S32x128.size a ≤ S409600x128.size a
  k0_off10_inb : ∀ (i : grid0.Coords) (k0_t1 : Fin k0_t1_loop.trips), ∀ (k0_h2 : k0_cond2 k0_t1 = 1#1), ∀ a, (k0_off10 i k0_t1) a + S32x128.size a ≤ S409600x128.size a
  k0_off11_inb : ∀ (i : grid0.Coords) (k0_t1 : Fin k0_t1_loop.trips), ∀ (k0_h2 : k0_cond2 k0_t1 = 1#1), ∀ a, (k0_off11 i k0_t1) a + S32x128.size a ≤ S409600x128.size a
  k0_t3_ok : k0_t3_loop.OK
  k0_off12_inb : ∀ k0_t3 : Fin k0_t3_loop.trips, ∀ a, (k0_off12 k0_t3) a + S1x1x1x16.size a ≤ S2x4x4x128.size a
  k0_off13_inb : ∀ k0_t3 : Fin k0_t3_loop.trips, ∀ (r₁ : Fin 2) (r₂ : Fin 8), ∀ a, (k0_off13 k0_t3 (BitVec.ofNat 32 (32 * r₁.val)) (BitVec.ofNat 32 r₂.val)) a + S1x1x16.size a ≤ S4x64x128.size a
  k0_off14_inb : ∀ (i : grid0.Coords) (k0_t1 : Fin k0_t1_loop.trips), ∀ (k0_h3 : k0_cond3 k0_t1 = 1#1), ∀ a, (k0_off14 i k0_t1) a + S32x128.size a ≤ S409600x128.size a
  k0_off15_inb : ∀ (i : grid0.Coords) (k0_t1 : Fin k0_t1_loop.trips), ∀ (k0_h3 : k0_cond3 k0_t1 = 1#1), ∀ a, (k0_off15 i k0_t1) a + S32x128.size a ≤ S409600x128.size a
  k0_t4_ok : k0_t4_loop.OK
  k0_off16_inb : ∀ k0_t4 : Fin k0_t4_loop.trips, ∀ a, (k0_off16 k0_t4) a + S1x1x1x16.size a ≤ S2x4x4x128.size a
  k0_off17_inb : ∀ k0_t4 : Fin k0_t4_loop.trips, ∀ (r₁ : Fin 2) (r₂ : Fin 8), ∀ a, (k0_off17 k0_t4 (BitVec.ofNat 32 (32 * r₁.val)) (BitVec.ofNat 32 r₂.val)) a + S1x1x16.size a ≤ S4x64x128.size a
  k0_off18_inb : ∀ (i : grid0.Coords) (k0_t1 : Fin k0_t1_loop.trips), ∀ (k0_h4 : k0_cond4 k0_t1 = 1#1), ∀ a, (k0_off18 i k0_t1) a + S32x128.size a ≤ S409600x128.size a
  k0_off19_inb : ∀ (i : grid0.Coords) (k0_t1 : Fin k0_t1_loop.trips), ∀ (k0_h4 : k0_cond4 k0_t1 = 1#1), ∀ a, (k0_off19 i k0_t1) a + S32x128.size a ≤ S409600x128.size a
  k0_t5_ok : k0_t5_loop.OK
  k0_off20_inb : ∀ k0_t5 : Fin k0_t5_loop.trips, ∀ a, (k0_off20 k0_t5) a + S1x1x1x16.size a ≤ S2x4x4x128.size a
  k0_off21_inb : ∀ k0_t5 : Fin k0_t5_loop.trips, ∀ (r₁ : Fin 2) (r₂ : Fin 8), ∀ a, (k0_off21 k0_t5 (BitVec.ofNat 32 (32 * r₁.val)) (BitVec.ofNat 32 r₂.val)) a + S1x1x16.size a ≤ S4x64x128.size a
  k0_off22_inb : ∀ (i : grid0.Coords) (k0_t1 : Fin k0_t1_loop.trips), ∀ (k0_h5 : k0_cond5 k0_t1 = 1#1), ∀ a, (k0_off22 i k0_t1) a + S4x4x128.size a ≤ S200x128x128.size a
  k0_off23_inb : ∀ (i : grid0.Coords) (k0_t1 : Fin k0_t1_loop.trips), ∀ a, (k0_off23 i k0_t1) a + S4x4x128.size a ≤ S200x128x128.size a
  k0_off24_inb : ∀ (i : grid0.Coords) (k0_t1 : Fin k0_t1_loop.trips), ∀ (k0_h6 : k0_cond6 k0_t1 = 1#1), ∀ a, (k0_off24 i k0_t1) a + S32x128.size a ≤ S409600x128.size a
  k0_off25_inb : ∀ (i : grid0.Coords) (k0_t1 : Fin k0_t1_loop.trips), ∀ (k0_h6 : k0_cond6 k0_t1 = 1#1), ∀ a, (k0_off25 i k0_t1) a + S32x128.size a ≤ S409600x128.size a
  k0_t6_ok : k0_t6_loop.OK
  k0_off26_inb : ∀ k0_t6 : Fin k0_t6_loop.trips, ∀ a, (k0_off26 k0_t6) a + S1x1x1x16.size a ≤ S2x4x4x128.size a
  k0_off27_inb : ∀ k0_t6 : Fin k0_t6_loop.trips, ∀ (r₁ : Fin 2) (r₂ : Fin 8), ∀ a, (k0_off27 k0_t6 (BitVec.ofNat 32 (32 * r₁.val)) (BitVec.ofNat 32 r₂.val)) a + S1x1x16.size a ≤ S4x64x128.size a
  k0_off28_inb : ∀ (i : grid0.Coords) (k0_t1 : Fin k0_t1_loop.trips), ∀ (r : Fin 4), ∀ a, (k0_off28 i k0_t1 (BitVec.ofNat 32 r.val)) a + S32x128.size a ≤ S409600x128.size a
  k0_off29_inb : ∀ (i : grid0.Coords) (k0_t1 : Fin k0_t1_loop.trips), ∀ (r : Fin 4), ∀ a, (k0_off29 i k0_t1 (BitVec.ofNat 32 r.val)) a + S32x128.size a ≤ S409600x128.size a
  k0_off30_inb : ∀ (i : grid0.Coords) (k0_t1 : Fin k0_t1_loop.trips), ∀ (k0_h7 : k0_cond7 k0_t1 = 1#1), ∀ a, (k0_off30 i k0_t1) a + S32x128.size a ≤ S409600x128.size a
  k0_off31_inb : ∀ (i : grid0.Coords) (k0_t1 : Fin k0_t1_loop.trips), ∀ (k0_h7 : k0_cond7 k0_t1 = 1#1), ∀ a, (k0_off31 i k0_t1) a + S32x128.size a ≤ S409600x128.size a
  k0_t7_ok : k0_t7_loop.OK
  k0_off32_inb : ∀ k0_t7 : Fin k0_t7_loop.trips, ∀ a, (k0_off32 k0_t7) a + S1x1x1x16.size a ≤ S2x4x4x128.size a
  k0_off33_inb : ∀ k0_t7 : Fin k0_t7_loop.trips, ∀ (r₁ : Fin 2) (r₂ : Fin 8), ∀ a, (k0_off33 k0_t7 (BitVec.ofNat 32 (32 * r₁.val)) (BitVec.ofNat 32 r₂.val)) a + S1x1x16.size a ≤ S4x64x128.size a
  k0_off34_inb : ∀ (i : grid0.Coords) (k0_t1 : Fin k0_t1_loop.trips), ∀ (k0_h8 : k0_cond8 k0_t1 = 1#1), ∀ a, (k0_off34 i k0_t1) a + S32x128.size a ≤ S409600x128.size a
  k0_off35_inb : ∀ (i : grid0.Coords) (k0_t1 : Fin k0_t1_loop.trips), ∀ (k0_h8 : k0_cond8 k0_t1 = 1#1), ∀ a, (k0_off35 i k0_t1) a + S32x128.size a ≤ S409600x128.size a
  k0_t8_ok : k0_t8_loop.OK
  k0_off36_inb : ∀ k0_t8 : Fin k0_t8_loop.trips, ∀ a, (k0_off36 k0_t8) a + S1x1x1x16.size a ≤ S2x4x4x128.size a
  k0_off37_inb : ∀ k0_t8 : Fin k0_t8_loop.trips, ∀ (r₁ : Fin 2) (r₂ : Fin 8), ∀ a, (k0_off37 k0_t8 (BitVec.ofNat 32 (32 * r₁.val)) (BitVec.ofNat 32 r₂.val)) a + S1x1x16.size a ≤ S4x64x128.size a
  k0_off38_inb : ∀ (i : grid0.Coords) (k0_t1 : Fin k0_t1_loop.trips), ∀ (k0_h9 : k0_cond9 k0_t1 = 1#1), ∀ a, (k0_off38 i k0_t1) a + S32x128.size a ≤ S409600x128.size a
  k0_off39_inb : ∀ (i : grid0.Coords) (k0_t1 : Fin k0_t1_loop.trips), ∀ (k0_h9 : k0_cond9 k0_t1 = 1#1), ∀ a, (k0_off39 i k0_t1) a + S32x128.size a ≤ S409600x128.size a
  k0_t9_ok : k0_t9_loop.OK
  k0_off40_inb : ∀ k0_t9 : Fin k0_t9_loop.trips, ∀ a, (k0_off40 k0_t9) a + S1x1x1x16.size a ≤ S2x4x4x128.size a
  k0_off41_inb : ∀ k0_t9 : Fin k0_t9_loop.trips, ∀ (r₁ : Fin 2) (r₂ : Fin 8), ∀ a, (k0_off41 k0_t9 (BitVec.ofNat 32 (32 * r₁.val)) (BitVec.ofNat 32 r₂.val)) a + S1x1x16.size a ≤ S4x64x128.size a
  k0_off42_inb : ∀ (i : grid0.Coords) (k0_t1 : Fin k0_t1_loop.trips), ∀ (k0_h10 : k0_cond10 k0_t1 = 1#1), ∀ a, (k0_off42 i k0_t1) a + S4x4x128.size a ≤ S200x128x128.size a
  k0_off43_inb : ∀ i : grid0.Coords, ∀ (r : Fin 4), ∀ a, (k0_off43 i (BitVec.ofNat 32 (401408 + 2048 * r.val))) a + S32x128.size a ≤ S409600x128.size a
  k0_off44_inb : ∀ i : grid0.Coords, ∀ (r : Fin 4), ∀ a, (k0_off44 i (BitVec.ofNat 32 (401408 + 2048 * r.val))) a + S32x128.size a ≤ S409600x128.size a

variable [Facts₀]

abbrev cc0_scratch2 : DmaSems sig S_ := SemArray.consecutive 0 S_ hcc0_scratch2
abbrev cc0_scratch3 : DmaSems sig S_ := SemArray.consecutive 1 S_ hcc0_scratch3
abbrev cc0_scratch4 : DmaSems sig S_ := SemArray.consecutive 2 S_ hcc0_scratch4
abbrev cc0_scratch5 : DmaSems sig S_ := SemArray.consecutive 3 S_ hcc0_scratch5
abbrev cc0_scratch6 : DmaSems sig S_ := SemArray.consecutive 4 S_ hcc0_scratch6
abbrev cc0_scratch7 : DmaSems sig S_ := SemArray.consecutive 5 S_ hcc0_scratch7
abbrev cc0_scratch8 : DmaSems sig S_ := SemArray.consecutive 6 S_ hcc0_scratch8
abbrev cc0_scratch9 : DmaSems sig S_ := SemArray.consecutive 7 S_ hcc0_scratch9
abbrev cc0_scratch10 : DmaSems sig S_ := SemArray.consecutive 8 S_ hcc0_scratch10
abbrev cc0_scratch11 : DmaSems sig S_ := SemArray.consecutive 9 S_ hcc0_scratch11

class Facts : Prop extends Facts₀ where

variable [Facts]
-- ==== ReferenceIdeal.lean ====
abbrev S16384x200x1 : Shape := ⟨3, ![16384, 200, 1]⟩
abbrev S3276800x1 : Shape := ⟨2, ![3276800, 1]⟩
abbrev S3276800 : Shape := ⟨1, ![3276800]⟩
abbrev S_ : Shape := ⟨0, ![]⟩
abbrev S16 : Shape := ⟨1, ![16]⟩
abbrev S1x16 : Shape := ⟨2, ![1, 16]⟩
abbrev S3276800x16 : Shape := ⟨2, ![3276800, 16]⟩
abbrev S3276800x1x16 : Shape := ⟨3, ![3276800, 1, 16]⟩
abbrev S16384x200x16 : Shape := ⟨3, ![16384, 200, 16]⟩

abbrev nBuf : Space → Nat
  | .hbm => 40
  | .vmem => 0
  | .smem => 0
  | _ => 0

abbrev bufTy : (tb : Table) → Fin (tcTables nBuf tb) → BufTy
  | .hbm, ⟨0, _⟩ => ⟨S16384x200x1, .f32⟩
  | .hbm, ⟨1, _⟩ => ⟨S3276800x1, .f32⟩
  | .hbm, ⟨2, _⟩ => ⟨S3276800, .f32⟩
  | .hbm, ⟨3, _⟩ => ⟨S_, .f32⟩
  | .hbm, ⟨4, _⟩ => ⟨S3276800, .f32⟩
  | .hbm, ⟨5, _⟩ => ⟨S3276800, .f32⟩
  | .hbm, ⟨6, _⟩ => ⟨S3276800, .f32⟩
  | .hbm, ⟨7, _⟩ => ⟨S_, .i32⟩
  | .hbm, ⟨8, _⟩ => ⟨S_, .i32⟩
  | .hbm, ⟨9, _⟩ => ⟨S_, .f32⟩
  | .hbm, ⟨10, _⟩ => ⟨S3276800, .f32⟩
  | .hbm, ⟨11, _⟩ => ⟨S3276800, .f32⟩
  | .hbm, ⟨12, _⟩ => ⟨S_, .f32⟩
  | .hbm, ⟨13, _⟩ => ⟨S3276800, .f32⟩
  | .hbm, ⟨14, _⟩ => ⟨S3276800, .f32⟩
  | .hbm, ⟨15, _⟩ => ⟨S3276800, .i32⟩
  | .hbm, ⟨16, _⟩ => ⟨S_, .i32⟩
  | .hbm, ⟨17, _⟩ => ⟨S3276800, .i32⟩
  | .hbm, ⟨18, _⟩ => ⟨S3276800, .i32⟩
  | .hbm, ⟨19, _⟩ => ⟨S3276800, .i32⟩
  | .hbm, ⟨20, _⟩ => ⟨S16, .i32⟩
  | .hbm, ⟨21, _⟩ => ⟨S3276800x1, .i32⟩
  | .hbm, ⟨22, _⟩ => ⟨S1x16, .i32⟩
  | .hbm, ⟨23, _⟩ => ⟨S3276800x16, .i32⟩
  | .hbm, ⟨24, _⟩ => ⟨S3276800x16, .i32⟩
  | .hbm, ⟨25, _⟩ => ⟨S3276800x16, .i32⟩
  | .hbm, ⟨26, _⟩ => ⟨S_, .i32⟩
  | .hbm, ⟨27, _⟩ => ⟨S3276800x16, .i32⟩
  | .hbm, ⟨28, _⟩ => ⟨S3276800x16, .i32⟩
  | .hbm, ⟨29, _⟩ => ⟨S3276800x16, .f32⟩
  | .hbm, ⟨30, _⟩ => ⟨S3276800x1x16, .f32⟩
  | .hbm, ⟨31, _⟩ => ⟨S3276800x16, .f32⟩
  | .hbm, ⟨32, _⟩ => ⟨S_, .f32⟩
  | .hbm, ⟨33, _⟩ => ⟨S3276800x16, .f32⟩
  | .hbm, ⟨34, _⟩ => ⟨S3276800x16, .f32⟩
  | .hbm, ⟨35, _⟩ => ⟨S_, .f32⟩
  | .hbm, ⟨36, _⟩ => ⟨S3276800x16, .f32⟩
  | .hbm, ⟨37, _⟩ => ⟨S3276800x16, .f32⟩
  | .hbm, ⟨38, _⟩ => ⟨S3276800x16, .f32⟩
  | .hbm, ⟨39, _⟩ => ⟨S16384x200x16, .f32⟩
  | _, _ => ⟨S16384x200x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  shapeCasts_S16384x200x1_S3276800x1 : S16384x200x1.ShapeCasts S3276800x1
  shapeCasts_S3276800x1_S3276800 : S3276800x1.ShapeCasts S3276800
  bcast_S_S3276800 : S_.BroadcastsInDim S3276800 (![] : Fin 0 → Fin S3276800.rank)
  bcast_S3276800_S3276800x1_0 : S3276800.BroadcastsInDim S3276800x1 (![0] : Fin 1 → Fin S3276800x1.rank)
  bcast_S16_S1x16_1 : S16.BroadcastsInDim S1x16 (![1] : Fin 1 → Fin S1x16.rank)
  bcast_S3276800x1_S3276800x16_0_1 : S3276800x1.BroadcastsInDim S3276800x16 (![0, 1] : Fin 2 → Fin S3276800x16.rank)
  bcast_S1x16_S3276800x16_0_1 : S1x16.BroadcastsInDim S3276800x16 (![0, 1] : Fin 2 → Fin S3276800x16.rank)
  bcast_S_S3276800x16 : S_.BroadcastsInDim S3276800x16 (![] : Fin 0 → Fin S3276800x16.rank)
  bcast_S3276800x1_S3276800x1x16_0_1 : S3276800x1.BroadcastsInDim S3276800x1x16 (![0, 1] : Fin 2 → Fin S3276800x1x16.rank)
  shapeCasts_S3276800x1x16_S3276800x16 : S3276800x1x16.ShapeCasts S3276800x16
  shapeCasts_S3276800x16_S16384x200x16 : S3276800x16.ShapeCasts S16384x200x16

variable [Facts₀]

class Facts : Prop extends Facts₀ where

variable [Facts]
-- ==== Proof.Common.lean ====
/-
  What the tile kernel's proof and the launch's proof share: the program as the launch theorem sees it, the resource
  algebra, the arrays' locations, the slices of the result array a tile writes, the value a tile computes, and what the
  launch's handshakes carry to and from a tile.

  The kernel reads x3 : f32[200,128,128] and writes o : f32[409600,128]. Tile number w (of 32) reads rows
  [4 w, 4 w + 4) of every plane x3[d1] and writes, for each plane d1 and each half h, the 32 rows
  [2048 d1 + 1024 h + 32 w, + 32) of o: the 400 slices of one tile are pairwise disjoint and the 12,800 slices of all
  tiles are the 12,800 parts of o cut along its rows.
  The value: the word q = fptosi (65535 x) is Gray-coded, g = q xor (q >> 1); bit i of g selects between 0.1 x + 1 and 0.
  Row 2048 d1 + 1024 h + 8 A + r of o holds, at column 16 k + l, bit 8 h + r of the Gray code of x3[d1, A, 16 k + l].
-/
import proofs.«209186_g8847632630064_cont_9to1c4b_396_28_alg».proof.Defs
import proofs.«209186_g8847632630064_cont_9to1c4b_396_28_alg».proof.Proof.Gen.KernelIdeal
import proofs.«209186_g8847632630064_cont_9to1c4b_396_28_alg».proof.Proof.Gen.KernelIdeal.Skeleton
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.Batch
import Idealize.ShloMosaic.Lib.ValueIdx

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop shareTokN)
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- x3 (the kernel's operand) and o (its result), as locations of device `d`. -/
abbrev x3Loc (d : Dev nD) : Loc nD τ sig := (SparseCore.T d).loc main_v1
abbrev oLoc (d : Dev nD) : Loc nD τ sig := (SparseCore.T d).loc main_v2

abbrev xV : Memref sig .scVector .hbm S200x128x128 .f32 := Memref.whole main_v1_scv
abbrev oV : Memref sig .scVector .hbm S409600x128 .f32 := Memref.whole main_v2_scv
/-- A tile's scratch: the two fetched groups of planes, the four computed planes. -/
abbrev sX : Memref sig .scVector .vmem S2x4x4x128 .f32 := Memref.whole cc0_scratch0
abbrev sO : Memref sig .scVector .vmem S4x64x128 .f32 := Memref.whole cc0_scratch1

/-! ## Tiles and the slices of o -/

/-- The number of the tile on SparseCore `c`, vector subcore `s`: `2 s + c` (below 32 for the 2 × 16 tiles). -/
def widN (c s : ℕ) : Fin 32 := ⟨(2 * s + c) % 32, Nat.mod_lt _ (by decide)⟩

omit F in
theorem widN_val {c s : ℕ} (hc : c < 2) (hs : s < 16) : (widN c s).val = 2 * s + c := by
  show (2 * s + c) % 32 = _; omega

omit F in
theorem bound_zero : grid0.bound 0 = 2 := rfl
omit F in
theorem bound_one : grid0.bound 1 = 16 := rfl
/-- The same at a grid point. -/
abbrev widL (L : grid0.Coords) : Fin 32 := widN (L 0).val (L 1).val
omit F in
theorem widL_val (L : grid0.Coords) : (widL L).val = 2 * (L 1).val + (L 0).val :=
  widN_val (L 0).isLt (L 1).isLt

abbrev cV (L : grid0.Coords) : Fin τ.nSC := (L 0).castLE hcore0
abbrev jV (L : grid0.Coords) : Fin τ.nSub := (L 1).castLE hsub0

omit F in
theorem hdivO : 12800 ∣ S409600x128.size 0 := ⟨32, rfl⟩

/-- Which of the 12,800 parts of o (32 rows each) tile `w` writes for plane `d1`, half `h`. -/
def oIdx (w : Fin 32) (d1 : Fin 200) (h : Fin 2) : Fin 12800 := ⟨d1.val * 64 + h.val * 32 + w.val, by omega⟩

abbrev oRect (w : Fin 32) (d1 : Fin 200) (h : Fin 2) : Rect S409600x128 := Rect.part (s := S409600x128) (a₀ := 0) hdivO (oIdx w d1 h)
/-- Rows [2048 d1 + 1024 h + 32 w, + 32) of o, all columns, as the set of a slice of the kernel's memref. -/
abbrev oSet (w : Fin 32) (d1 : Fin 200) (h : Fin 2) : Finset S409600x128.Idx := ((oV : Memref sig .scVector .hbm S409600x128 .f32).view.slice (oRect w d1 h)).set

omit F in
/-- A printed slice of o at row offset 2048 d1 + 1024 h + 32 w is that part. -/
theorem oRect_eq {off : Fin 2 → Nat} (inb : ∀ a, off a + S32x128.size a ≤ S409600x128.size a) (w : Fin 32) (d1 : Fin 200) (h : Fin 2)
    (hoff : off = ![d1.val * 2048 + h.val * 1024 + w.val * 32, 0]) :
    Rect.unit (s := S409600x128) off S32x128.size inb = oRect w d1 h := by
  subst hoff
  unfold oRect Rect.part Rect.block
  congr 1 <;> funext a
  · match a with
    | 0 => simp [Shape.partIx, Shape.partSize, oIdx]; omega
    | 1 => simp [Shape.partIx, Shape.partSize]
  · match a with
    | 0 => simp [Shape.partSize]
    | 1 => simp [Shape.partSize]

omit F in
theorem set_oSlice {off : Fin 2 → Nat} (inb : ∀ a, off a + S32x128.size a ≤ S409600x128.size a) (w : Fin 32) (d1 : Fin 200) (h : Fin 2)
    (hoff : off = ![d1.val * 2048 + h.val * 1024 + w.val * 32, 0]) :
    ((oV : Memref sig .scVector .hbm S409600x128 .f32).slice (Rect.unit (s := S409600x128) off S32x128.size inb) (fun _ => rfl)).view.set = oSet w d1 h := by
  show ((oV : Memref sig .scVector .hbm S409600x128 .f32).view.slice (Rect.unit (s := S409600x128) off S32x128.size inb)).set = _
  rw [oRect_eq inb w d1 h hoff]

omit F in
theorem oSet_eq (w : Fin 32) (d1 : Fin 200) (h : Fin 2) : oSet w d1 h = (oRect w d1 h).set := by
  show ((View.whole (main_v2_scv : Ref sig .scVector)).slice (oRect w d1 h)).set = _
  rw [View.set_slice]; exact Finset.map_refl

/-! ## The value -/

variable [FloatOps F]

/-- Bit `i` of the Gray code of `fptosi (65535 x)` selects, lane by lane, between `0.1 x + 1` and `0`. -/
def gcVec (i : Fin 16) (xv : Vec F S16 .f32) : FVec F S16 .f32 :=
  have q : IVec S16 32 := fptosi 32 (mulf xv (broadcast S16 (Scalar.ofBits .f32 0x477FFF00#32 : F .f32)))
  have g : IVec S16 32 := xori q (shrsi q (broadcast S16 1#32))
  select (cmpi .ne (andi g (broadcast S16 (BitVec.ofNat 32 (2 ^ i.val)))) (broadcast S16 0#32))
    (addf (mulf xv (broadcast S16 (Scalar.ofBits .f32 0x3DCCCCCD#32 : F .f32))) (broadcast S16 (Scalar.ofBits .f32 0x3F800000#32 : F .f32)))
    (broadcast S16 (Scalar.ofBits .f32 0x00000000#32 : F .f32))

/-- What the kernel leaves in o, from the contents of x3: row `2048 d1 + 1024 h + 8 A + r`, column `16 k + l` is lane `l`
    of `gcVec (8 h + r)` of the sixteen words `x3[d1, A, 16 k ..]`. -/
def outLinF (X : (⟨S200x128x128, .f32⟩ : BufTy).Contents (Elt F)) : (⟨S409600x128, .f32⟩ : BufTy).Contents (Elt F) := fun j =>
  have hr : (j 0).val < 409600 := (j 0).isLt
  have hc : (j 1).val < 128 := (j 1).isLt
  gcVec (⟨(j 0).val % 2048 / 1024 * 8 + (j 0).val % 8, by omega⟩ : Fin 16)
    (fun l => X (ix3 (⟨(j 0).val / 2048, by omega⟩ : Fin 200) (⟨(j 0).val % 1024 / 8, by omega⟩ : Fin 128)
      (⟨(j 1).val / 16 * 16 + (l 0).val, by have hl : (l 0).val < 16 := (l 0).isLt; omega⟩ : Fin 128)))
    (ix1 (⟨(j 1).val % 16, by omega⟩ : Fin 16))

/-! ## What the handshakes carry -/

-- the contents of x3 on each device when the kernel is called
variable (X : (d : Dev nD) → Buf (Elt F) (x3Loc d))

/-- What tile `w` is handed: a read share of x3 (one of 32) and its 400 slices of o, at any contents. -/
def tileGo (d : Dev nD) (w : Fin 32) : sProp 𝕄 :=
  iprop((x3Loc d ↦{shareTok fullShare 32 w} X d)
    ∗ bigSep (Finset.univ : Finset (Fin 200 × Fin 2)) fun p => iprop(∃ f, oLoc d ↦[oSet w p.1 p.2]{fullShare} f))
/-- What it hands back: the share, and its slices at the kernel's value. -/
def tileTd (d : Dev nD) (w : Fin 32) : sProp 𝕄 :=
  iprop((x3Loc d ↦{shareTok fullShare 32 w} X d)
    ∗ bigSep (Finset.univ : Finset (Fin 200 × Fin 2)) fun p => oLoc d ↦[oSet w p.1 p.2]{fullShare} (outLinF (X d)))

instance tileGo_storable (d : Dev nD) (w : Fin 32) : BI.Storable (upEmb : UEmb _ 𝕄) (tileGo X d w) := by
  unfold tileGo; infer_instance
instance tileTd_storable (d : Dev nD) (w : Fin 32) : BI.Storable (upEmb : UEmb _ 𝕄) (tileTd X d w) := by
  unfold tileTd; infer_instance

/-- The one call hands each SparseCore its sixteen tiles' shares, each tile its own, and takes them back. -/
def P : (K (F := F)).Pay (nD := nD) (Val := Elt F) (Name := ℕ) (U := UU) where
  st := fun _ d c => bigSep Finset.univ fun i : Fin 16 => tileGo X d (widN c.val i.val)
  dn := fun _ d c => bigSep Finset.univ fun i : Fin 16 => tileTd X d (widN c.val i.val)
  go := fun _ d c i => tileGo X d (widN c.val i.val)
  td := fun _ d c i => tileTd X d (widN c.val i.val)
  x := fun _ _ => iprop(emp)

theorem P_st (q : Fin 1) (d : Dev nD) (c : Fin ((K (F := F)).nCore q)) :
    (P X).st q d c = bigSep Finset.univ fun i : Fin 16 => tileGo X d (widN c.val i.val) := rfl
theorem P_dn (q : Fin 1) (d : Dev nD) (c : Fin ((K (F := F)).nCore q)) :
    (P X).dn q d c = bigSep Finset.univ fun i : Fin 16 => tileTd X d (widN c.val i.val) := rfl
theorem P_go (q : Fin 1) (d : Dev nD) (c : Fin ((K (F := F)).nCore q)) (i : Fin ((K (F := F)).nSub q)) :
    (P X).go q d c i = tileGo X d (widN c.val i.val) := rfl
theorem P_td (q : Fin 1) (d : Dev nD) (c : Fin ((K (F := F)).nCore q)) (i : Fin ((K (F := F)).nSub q)) :
    (P X).td q d c i = tileTd X d (widN c.val i.val) := rfl
theorem P_x (q : Fin 1) (thr : Thread nD τ) : (P X).x q thr = iprop(emp) := rfl

instance P_storable : (P (F := F) X).IsStorable where
  st q d c := by rw [P_st]; infer_instance
  dn q d c := by rw [P_dn]; infer_instance
  go q d c i := by rw [P_go]; infer_instance
  td q d c i := by rw [P_td]; infer_instance

/-! ## The tile's task, as the launch takes it -/

/-- The task of the tile at grid point `L` on device `d`: from its read share of x3 and its slices of o at any contents,
    to the share and the slices at the kernel's value; its scratch and semaphores as it found them. -/
def TileBody : Prop :=
  ∀ (d : Dev nD) (L : grid0.Coords) (O : CellTallies nD τ sig (HIx 1)) (W : Waits sig (HIx 1)), (∀ g, O g none = 0) →
    iprop(levAts (K (F := F)).L (K (F := F)).lev ∗ emp ∗ tileGo X d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gc_kernel L xV (Memref.isWhole_whole _) oV (Memref.isWhole_whole _) sX (Memref.isWhole_whole _) sO (Memref.isWhole_whole _)
            cc0_scratch2 cc0_scratch3 cc0_scratch4 cc0_scratch5 cc0_scratch6 cc0_scratch7 cc0_scratch8 cc0_scratch9 cc0_scratch10 cc0_scratch11)
          fun _ => iprop(tileTd X d (widL L) ∗ scopedBufs (V d (cV L) (jV L)) ∗ scopedSems0 (V d (cV L) (jV L))
            ∗ ∃ W', ⌜∀ p ∈ W', p ∈ W ∨ p.2 = none⌝ ∗ owes (V d (cV L) (jV L)) O W')

end Cert.KernelIdeal.Hand

end
-- ==== Proof.TileBufs.lean ====
/-
  The tile's scratch buffers and semaphores as the kernel's copies address them: the input scratch cut into its two
  slots and the output scratch into its eight half planes (each a copy's source or destination, held by its own
  elements), the six semaphores the kernel uses taken out of the tile's own, and what a copy out to o delivers.
-/
import proofs.«209186_g8847632630064_cont_9to1c4b_396_28_alg».proof.Proof.Common

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop shareTokN)
open Idealize.ShloMosaic.Tactic

variable {F : FTy → Type}

local notation "𝕄" => MT nD τ sig (HIx 1) (Elt F) ℕ UU ℕ

variable [FloatOps F]
variable (X : (d : Dev nD) → Buf (Elt F) (x3Loc d))
variable (d : Dev nD) (L : grid0.Coords)

/-! ## The scratch buffers cut as the copies' descriptors cut them -/

abbrev xsR0 : Rect S2x4x4x128 := Rect.unit (s := S2x4x4x128) ![0, 0, 0, 0] S1x4x4x128.size inb_S2x4x4x128_S1x4x4x128_0_0_0_0
abbrev xsR1 : Rect S2x4x4x128 := Rect.unit (s := S2x4x4x128) ![1, 0, 0, 0] S1x4x4x128.size inb_S2x4x4x128_S1x4x4x128_1_0_0_0
/-- Slot 0 / slot 1 of the input scratch, as the copies' descriptors spell them. -/
abbrev xs0 : Memref sig .scVector .vmem S4x4x128 .f32 := ((sX).slice xsR0 (fun _ => rfl)).squeeze S4x4x128 squeezes_S1x4x4x128_S4x4x128
abbrev xs1 : Memref sig .scVector .vmem S4x4x128 .f32 := ((sX).slice xsR1 (fun _ => rfl)).squeeze S4x4x128 squeezes_S1x4x4x128_S4x4x128
abbrev ohR00 : Rect S4x64x128 := Rect.unit (s := S4x64x128) ![0, 0, 0] S1x32x128.size inb_S4x64x128_S1x32x128_0_0_0
abbrev oh00 : Memref sig .scVector .vmem S32x128 .f32 := ((sO).slice ohR00 (fun _ => rfl)).squeeze S32x128 squeezes_S1x32x128_S32x128
abbrev ohR01 : Rect S4x64x128 := Rect.unit (s := S4x64x128) ![0, 32, 0] S1x32x128.size inb_S4x64x128_S1x32x128_0_32_0
abbrev oh01 : Memref sig .scVector .vmem S32x128 .f32 := ((sO).slice ohR01 (fun _ => rfl)).squeeze S32x128 squeezes_S1x32x128_S32x128
abbrev ohR10 : Rect S4x64x128 := Rect.unit (s := S4x64x128) ![1, 0, 0] S1x32x128.size inb_S4x64x128_S1x32x128_1_0_0
abbrev oh10 : Memref sig .scVector .vmem S32x128 .f32 := ((sO).slice ohR10 (fun _ => rfl)).squeeze S32x128 squeezes_S1x32x128_S32x128
abbrev ohR11 : Rect S4x64x128 := Rect.unit (s := S4x64x128) ![1, 32, 0] S1x32x128.size inb_S4x64x128_S1x32x128_1_32_0
abbrev oh11 : Memref sig .scVector .vmem S32x128 .f32 := ((sO).slice ohR11 (fun _ => rfl)).squeeze S32x128 squeezes_S1x32x128_S32x128
abbrev ohR20 : Rect S4x64x128 := Rect.unit (s := S4x64x128) ![2, 0, 0] S1x32x128.size inb_S4x64x128_S1x32x128_2_0_0
abbrev oh20 : Memref sig .scVector .vmem S32x128 .f32 := ((sO).slice ohR20 (fun _ => rfl)).squeeze S32x128 squeezes_S1x32x128_S32x128
abbrev ohR21 : Rect S4x64x128 := Rect.unit (s := S4x64x128) ![2, 32, 0] S1x32x128.size inb_S4x64x128_S1x32x128_2_32_0
abbrev oh21 : Memref sig .scVector .vmem S32x128 .f32 := ((sO).slice ohR21 (fun _ => rfl)).squeeze S32x128 squeezes_S1x32x128_S32x128
abbrev ohR30 : Rect S4x64x128 := Rect.unit (s := S4x64x128) ![3, 0, 0] S1x32x128.size inb_S4x64x128_S1x32x128_3_0_0
abbrev oh30 : Memref sig .scVector .vmem S32x128 .f32 := ((sO).slice ohR30 (fun _ => rfl)).squeeze S32x128 squeezes_S1x32x128_S32x128
abbrev ohR31 : Rect S4x64x128 := Rect.unit (s := S4x64x128) ![3, 32, 0] S1x32x128.size inb_S4x64x128_S1x32x128_3_32_0
abbrev oh31 : Memref sig .scVector .vmem S32x128 .f32 := ((sO).slice ohR31 (fun _ => rfl)).squeeze S32x128 squeezes_S1x32x128_S32x128

theorem set_xs0 : (xs0).view.set = xsR0.set := by
  show (((View.whole (cc0_scratch0 : Ref sig .scVector)).slice xsR0).reshape S4x4x128 squeezes_S1x4x4x128_S4x4x128.numel_eq).set = _
  rw [View.set_reshape, View.set_slice]; exact Finset.map_refl
theorem set_xs1 : (xs1).view.set = xsR1.set := by
  show (((View.whole (cc0_scratch0 : Ref sig .scVector)).slice xsR1).reshape S4x4x128 squeezes_S1x4x4x128_S4x4x128.numel_eq).set = _
  rw [View.set_reshape, View.set_slice]; exact Finset.map_refl
theorem set_oh00 : (oh00).view.set = ohR00.set := by
  show (((View.whole (cc0_scratch1 : Ref sig .scVector)).slice ohR00).reshape S32x128 squeezes_S1x32x128_S32x128.numel_eq).set = _
  rw [View.set_reshape, View.set_slice]; exact Finset.map_refl
theorem set_oh01 : (oh01).view.set = ohR01.set := by
  show (((View.whole (cc0_scratch1 : Ref sig .scVector)).slice ohR01).reshape S32x128 squeezes_S1x32x128_S32x128.numel_eq).set = _
  rw [View.set_reshape, View.set_slice]; exact Finset.map_refl
theorem set_oh10 : (oh10).view.set = ohR10.set := by
  show (((View.whole (cc0_scratch1 : Ref sig .scVector)).slice ohR10).reshape S32x128 squeezes_S1x32x128_S32x128.numel_eq).set = _
  rw [View.set_reshape, View.set_slice]; exact Finset.map_refl
theorem set_oh11 : (oh11).view.set = ohR11.set := by
  show (((View.whole (cc0_scratch1 : Ref sig .scVector)).slice ohR11).reshape S32x128 squeezes_S1x32x128_S32x128.numel_eq).set = _
  rw [View.set_reshape, View.set_slice]; exact Finset.map_refl
theorem set_oh20 : (oh20).view.set = ohR20.set := by
  show (((View.whole (cc0_scratch1 : Ref sig .scVector)).slice ohR20).reshape S32x128 squeezes_S1x32x128_S32x128.numel_eq).set = _
  rw [View.set_reshape, View.set_slice]; exact Finset.map_refl
theorem set_oh21 : (oh21).view.set = ohR21.set := by
  show (((View.whole (cc0_scratch1 : Ref sig .scVector)).slice ohR21).reshape S32x128 squeezes_S1x32x128_S32x128.numel_eq).set = _
  rw [View.set_reshape, View.set_slice]; exact Finset.map_refl
theorem set_oh30 : (oh30).view.set = ohR30.set := by
  show (((View.whole (cc0_scratch1 : Ref sig .scVector)).slice ohR30).reshape S32x128 squeezes_S1x32x128_S32x128.numel_eq).set = _
  rw [View.set_reshape, View.set_slice]; exact Finset.map_refl
theorem set_oh31 : (oh31).view.set = ohR31.set := by
  show (((View.whole (cc0_scratch1 : Ref sig .scVector)).slice ohR31).reshape S32x128 squeezes_S1x32x128_S32x128.numel_eq).set = _
  rw [View.set_reshape, View.set_slice]; exact Finset.map_refl

theorem xs_disjoint : Disjoint xsR0.set xsR1.set := Rect.unit_disjoint 0 (.inl (by decide))

theorem xs_cover : xsR0.set ∪ xsR1.set = Finset.univ := by
  ext i
  simp only [Finset.mem_union, Rect.mem_set_unit, Finset.mem_univ, iff_true]
  have h0 : (i 0).val < 2 := (i 0).isLt
  have h1 : (i 1).val < 4 := (i 1).isLt
  have h2 : (i 2).val < 4 := (i 2).isLt
  have h3 : (i 3).val < 128 := (i 3).isLt
  rcases Nat.lt_or_ge (i 0).val 1 with h | h
  · left; intro a; fin_cases a <;> simp <;> omega
  · right; intro a; fin_cases a <;> simp <;> omega

theorem oh_cover : ohR00.set ∪ ohR01.set ∪ ohR10.set ∪ ohR11.set ∪ ohR20.set ∪ ohR21.set ∪ ohR30.set ∪ ohR31.set = Finset.univ := by
  ext i
  simp only [Finset.mem_union, Rect.mem_set_unit, Finset.mem_univ, iff_true]
  have h0 : (i 0).val < 4 := (i 0).isLt
  have h1 : (i 1).val < 64 := (i 1).isLt
  have h2 : (i 2).val < 128 := (i 2).isLt
  rcases (show (i 0).val = 0 ∨ (i 0).val = 1 ∨ (i 0).val = 2 ∨ (i 0).val = 3 by omega) with e | e | e | e <;>
    rcases Nat.lt_or_ge (i 1).val 32 with h | h
  · left; left; left; left; left; left; left; intro a; fin_cases a <;> simp <;> omega
  · left; left; left; left; left; left; right; intro a; fin_cases a <;> simp <;> omega
  · left; left; left; left; left; right; intro a; fin_cases a <;> simp <;> omega
  · left; left; left; left; right; intro a; fin_cases a <;> simp <;> omega
  · left; left; left; right; intro a; fin_cases a <;> simp <;> omega
  · left; left; right; intro a; fin_cases a <;> simp <;> omega
  · left; right; intro a; fin_cases a <;> simp <;> omega
  · right; intro a; fin_cases a <;> simp <;> omega
theorem oh_dj_00_01 : Disjoint ohR00.set ohR01.set := Rect.unit_disjoint 1 (.inl (by decide))
theorem oh_dj_00_10 : Disjoint ohR00.set ohR10.set := Rect.unit_disjoint 0 (.inl (by decide))
theorem oh_dj_00_11 : Disjoint ohR00.set ohR11.set := Rect.unit_disjoint 0 (.inl (by decide))
theorem oh_dj_00_20 : Disjoint ohR00.set ohR20.set := Rect.unit_disjoint 0 (.inl (by decide))
theorem oh_dj_00_21 : Disjoint ohR00.set ohR21.set := Rect.unit_disjoint 0 (.inl (by decide))
theorem oh_dj_00_30 : Disjoint ohR00.set ohR30.set := Rect.unit_disjoint 0 (.inl (by decide))
theorem oh_dj_00_31 : Disjoint ohR00.set ohR31.set := Rect.unit_disjoint 0 (.inl (by decide))
theorem oh_dj_01_10 : Disjoint ohR01.set ohR10.set := Rect.unit_disjoint 0 (.inl (by decide))
theorem oh_dj_01_11 : Disjoint ohR01.set ohR11.set := Rect.unit_disjoint 0 (.inl (by decide))
theorem oh_dj_01_20 : Disjoint ohR01.set ohR20.set := Rect.unit_disjoint 0 (.inl (by decide))
theorem oh_dj_01_21 : Disjoint ohR01.set ohR21.set := Rect.unit_disjoint 0 (.inl (by decide))
theorem oh_dj_01_30 : Disjoint ohR01.set ohR30.set := Rect.unit_disjoint 0 (.inl (by decide))
theorem oh_dj_01_31 : Disjoint ohR01.set ohR31.set := Rect.unit_disjoint 0 (.inl (by decide))
theorem oh_dj_10_11 : Disjoint ohR10.set ohR11.set := Rect.unit_disjoint 1 (.inl (by decide))
theorem oh_dj_10_20 : Disjoint ohR10.set ohR20.set := Rect.unit_disjoint 0 (.inl (by decide))
theorem oh_dj_10_21 : Disjoint ohR10.set ohR21.set := Rect.unit_disjoint 0 (.inl (by decide))
theorem oh_dj_10_30 : Disjoint ohR10.set ohR30.set := Rect.unit_disjoint 0 (.inl (by decide))
theorem oh_dj_10_31 : Disjoint ohR10.set ohR31.set := Rect.unit_disjoint 0 (.inl (by decide))
theorem oh_dj_11_20 : Disjoint ohR11.set ohR20.set := Rect.unit_disjoint 0 (.inl (by decide))
theorem oh_dj_11_21 : Disjoint ohR11.set ohR21.set := Rect.unit_disjoint 0 (.inl (by decide))
theorem oh_dj_11_30 : Disjoint ohR11.set ohR30.set := Rect.unit_disjoint 0 (.inl (by decide))
theorem oh_dj_11_31 : Disjoint ohR11.set ohR31.set := Rect.unit_disjoint 0 (.inl (by decide))
theorem oh_dj_20_21 : Disjoint ohR20.set ohR21.set := Rect.unit_disjoint 1 (.inl (by decide))
theorem oh_dj_20_30 : Disjoint ohR20.set ohR30.set := Rect.unit_disjoint 0 (.inl (by decide))
theorem oh_dj_20_31 : Disjoint ohR20.set ohR31.set := Rect.unit_disjoint 0 (.inl (by decide))
theorem oh_dj_21_30 : Disjoint ohR21.set ohR30.set := Rect.unit_disjoint 0 (.inl (by decide))
theorem oh_dj_21_31 : Disjoint ohR21.set ohR31.set := Rect.unit_disjoint 0 (.inl (by decide))
theorem oh_dj_30_31 : Disjoint ohR30.set ohR31.set := Rect.unit_disjoint 1 (.inl (by decide))
theorem oh_djU_1 : Disjoint (ohR00.set) ohR01.set := oh_dj_00_01
theorem oh_djU_2 : Disjoint (ohR00.set ∪ ohR01.set) ohR10.set := (Finset.disjoint_union_left.mpr ⟨oh_dj_00_10, oh_dj_01_10⟩)
theorem oh_djU_3 : Disjoint (ohR00.set ∪ ohR01.set ∪ ohR10.set) ohR11.set := (Finset.disjoint_union_left.mpr ⟨(Finset.disjoint_union_left.mpr ⟨oh_dj_00_11, oh_dj_01_11⟩), oh_dj_10_11⟩)
theorem oh_djU_4 : Disjoint (ohR00.set ∪ ohR01.set ∪ ohR10.set ∪ ohR11.set) ohR20.set := (Finset.disjoint_union_left.mpr ⟨(Finset.disjoint_union_left.mpr ⟨(Finset.disjoint_union_left.mpr ⟨oh_dj_00_20, oh_dj_01_20⟩), oh_dj_10_20⟩), oh_dj_11_20⟩)
theorem oh_djU_5 : Disjoint (ohR00.set ∪ ohR01.set ∪ ohR10.set ∪ ohR11.set ∪ ohR20.set) ohR21.set := (Finset.disjoint_union_left.mpr ⟨(Finset.disjoint_union_left.mpr ⟨(Finset.disjoint_union_left.mpr ⟨(Finset.disjoint_union_left.mpr ⟨oh_dj_00_21, oh_dj_01_21⟩), oh_dj_10_21⟩), oh_dj_11_21⟩), oh_dj_20_21⟩)
theorem oh_djU_6 : Disjoint (ohR00.set ∪ ohR01.set ∪ ohR10.set ∪ ohR11.set ∪ ohR20.set ∪ ohR21.set) ohR30.set := (Finset.disjoint_union_left.mpr ⟨(Finset.disjoint_union_left.mpr ⟨(Finset.disjoint_union_left.mpr ⟨(Finset.disjoint_union_left.mpr ⟨(Finset.disjoint_union_left.mpr ⟨oh_dj_00_30, oh_dj_01_30⟩), oh_dj_10_30⟩), oh_dj_11_30⟩), oh_dj_20_30⟩), oh_dj_21_30⟩)
theorem oh_djU_7 : Disjoint (ohR00.set ∪ ohR01.set ∪ ohR10.set ∪ ohR11.set ∪ ohR20.set ∪ ohR21.set ∪ ohR30.set) ohR31.set := (Finset.disjoint_union_left.mpr ⟨(Finset.disjoint_union_left.mpr ⟨(Finset.disjoint_union_left.mpr ⟨(Finset.disjoint_union_left.mpr ⟨(Finset.disjoint_union_left.mpr ⟨(Finset.disjoint_union_left.mpr ⟨oh_dj_00_31, oh_dj_01_31⟩), oh_dj_10_31⟩), oh_dj_11_31⟩), oh_dj_20_31⟩), oh_dj_21_31⟩), oh_dj_30_31⟩)

omit [FloatOps F] in
/-- The input scratch whole is its two slots, each held by its own elements. -/
theorem xv_split (f : Buf (Elt F) ((V d (cV L) (jV L)).loc cc0_scratch0)) :
    ((V d (cV L) (jV L)).loc cc0_scratch0 ↦{fullShare} f : sProp 𝕄)
      ⊣⊢ iprop(((xs0).view.loc (V d (cV L) (jV L)) ↦[(xs0).view.set]{fullShare} f) ∗ ((xs1).view.loc (V d (cV L) (jV L)) ↦[(xs1).view.set]{fullShare} f)) := by
  rw [set_xs0, set_xs1]
  show ((V d (cV L) (jV L)).loc cc0_scratch0 ↦[Finset.univ]{fullShare} f : sProp 𝕄) ⊣⊢ _
  rw [← xs_cover]
  exact pointsTo_union xs_disjoint

omit [FloatOps F] in
/-- The output scratch whole is its eight half planes, each held by its own elements. -/
theorem ov_split (f : Buf (Elt F) ((V d (cV L) (jV L)).loc cc0_scratch1)) :
    ((V d (cV L) (jV L)).loc cc0_scratch1 ↦{fullShare} f : sProp 𝕄)
      ⊢ iprop(((((((((oh00).view.loc (V d (cV L) (jV L)) ↦[(oh00).view.set]{fullShare} f) ∗ ((oh01).view.loc (V d (cV L) (jV L)) ↦[(oh01).view.set]{fullShare} f)) ∗ ((oh10).view.loc (V d (cV L) (jV L)) ↦[(oh10).view.set]{fullShare} f)) ∗ ((oh11).view.loc (V d (cV L) (jV L)) ↦[(oh11).view.set]{fullShare} f)) ∗ ((oh20).view.loc (V d (cV L) (jV L)) ↦[(oh20).view.set]{fullShare} f)) ∗ ((oh21).view.loc (V d (cV L) (jV L)) ↦[(oh21).view.set]{fullShare} f)) ∗ ((oh30).view.loc (V d (cV L) (jV L)) ↦[(oh30).view.set]{fullShare} f)) ∗ ((oh31).view.loc (V d (cV L) (jV L)) ↦[(oh31).view.set]{fullShare} f)) := by
  rw [set_oh00, set_oh01, set_oh10, set_oh11, set_oh20, set_oh21, set_oh30, set_oh31]
  show ((V d (cV L) (jV L)).loc cc0_scratch1 ↦[Finset.univ]{fullShare} f : sProp 𝕄) ⊢ _
  rw [← oh_cover]
  exact ((pointsTo_union oh_djU_7).1.trans (sep_mono_left ((pointsTo_union oh_djU_6).1.trans (sep_mono_left ((pointsTo_union oh_djU_5).1.trans (sep_mono_left ((pointsTo_union oh_djU_4).1.trans (sep_mono_left ((pointsTo_union oh_djU_3).1.trans (sep_mono_left ((pointsTo_union oh_djU_2).1.trans (sep_mono_left ((pointsTo_union oh_djU_1).1.trans (sep_mono_left Entails.rfl))))))))))))))

omit [FloatOps F] in
theorem ov_join (f : Buf (Elt F) ((V d (cV L) (jV L)).loc cc0_scratch1)) :
    iprop(((((((((oh00).view.loc (V d (cV L) (jV L)) ↦[(oh00).view.set]{fullShare} f) ∗ ((oh01).view.loc (V d (cV L) (jV L)) ↦[(oh01).view.set]{fullShare} f)) ∗ ((oh10).view.loc (V d (cV L) (jV L)) ↦[(oh10).view.set]{fullShare} f)) ∗ ((oh11).view.loc (V d (cV L) (jV L)) ↦[(oh11).view.set]{fullShare} f)) ∗ ((oh20).view.loc (V d (cV L) (jV L)) ↦[(oh20).view.set]{fullShare} f)) ∗ ((oh21).view.loc (V d (cV L) (jV L)) ↦[(oh21).view.set]{fullShare} f)) ∗ ((oh30).view.loc (V d (cV L) (jV L)) ↦[(oh30).view.set]{fullShare} f)) ∗ ((oh31).view.loc (V d (cV L) (jV L)) ↦[(oh31).view.set]{fullShare} f))
      ⊢ ((V d (cV L) (jV L)).loc cc0_scratch1 ↦{fullShare} f : sProp 𝕄) := by
  rw [set_oh00, set_oh01, set_oh10, set_oh11, set_oh20, set_oh21, set_oh30, set_oh31]
  show _ ⊢ ((V d (cV L) (jV L)).loc cc0_scratch1 ↦[Finset.univ]{fullShare} f : sProp 𝕄)
  rw [← oh_cover]
  exact ((sep_mono_left ((sep_mono_left ((sep_mono_left ((sep_mono_left ((sep_mono_left ((sep_mono_left ((sep_mono_left Entails.rfl).trans (pointsTo_union oh_djU_1).2)).trans (pointsTo_union oh_djU_2).2)).trans (pointsTo_union oh_djU_3).2)).trans (pointsTo_union oh_djU_4).2)).trans (pointsTo_union oh_djU_5).2)).trans (pointsTo_union oh_djU_6).2)).trans (pointsTo_union oh_djU_7).2)

/-- The tile's DMA semaphore cell number `n` of the printed pool. -/
abbrev sCell (sm : DmaSem sig) : GSem nD τ sig := (V d (cV L) (jV L), SemLoc.dma sm)

theorem sCell_ne {a b : DmaSem sig} (h : a ≠ b) : sCell d L a ≠ sCell d L b :=
  fun e => h (by have := (Prod.mk.inj e).2; exact SemLoc.dma.inj this)

theorem sCell_mem (sm : DmaSem sig) (h : (SemLoc.dma sm : SemLoc sig).isScoped .scVector = true) :
    sCell d L sm ∈ ownCells (V d (cV L) (jV L)) := (mem_ownCells (g := sCell d L sm)).mpr ⟨rfl, h⟩

omit [FloatOps F] in
/-- The six DMA semaphores the kernel uses are among the tile's own: they are them at zero, and the rest. -/
theorem ownSems0_V :
    (ownSems0 (V d (cV L) (jV L)) : sProp 𝕄)
      = iprop(semVal (sCell d L cc0_scratch2.sem) 0 ∗ semVal (sCell d L cc0_scratch3.sem) 0 ∗ semVal (sCell d L cc0_scratch4.sem) 0 ∗ semVal (sCell d L cc0_scratch5.sem) 0 ∗ semVal (sCell d L cc0_scratch6.sem) 0 ∗ semVal (sCell d L cc0_scratch7.sem) 0
          ∗ bigSep (((((((ownCells (V d (cV L) (jV L))).erase (sCell d L cc0_scratch2.sem)).erase (sCell d L cc0_scratch3.sem)).erase (sCell d L cc0_scratch4.sem)).erase (sCell d L cc0_scratch5.sem)).erase (sCell d L cc0_scratch6.sem)).erase (sCell d L cc0_scratch7.sem)) fun g => semVal g 0) := by
  unfold SparseCore.Cfg.ownSems0
  rw [SparseCore.bigSep_erase' (sCell_mem d L cc0_scratch2.sem (by decide)),
    SparseCore.bigSep_erase' (Finset.mem_erase.mpr ⟨sCell_ne d L (by decide), (sCell_mem d L cc0_scratch3.sem (by decide))⟩),
    SparseCore.bigSep_erase' (Finset.mem_erase.mpr ⟨sCell_ne d L (by decide), (Finset.mem_erase.mpr ⟨sCell_ne d L (by decide), (sCell_mem d L cc0_scratch4.sem (by decide))⟩)⟩),
    SparseCore.bigSep_erase' (Finset.mem_erase.mpr ⟨sCell_ne d L (by decide), (Finset.mem_erase.mpr ⟨sCell_ne d L (by decide), (Finset.mem_erase.mpr ⟨sCell_ne d L (by decide), (sCell_mem d L cc0_scratch5.sem (by decide))⟩)⟩)⟩),
    SparseCore.bigSep_erase' (Finset.mem_erase.mpr ⟨sCell_ne d L (by decide), (Finset.mem_erase.mpr ⟨sCell_ne d L (by decide), (Finset.mem_erase.mpr ⟨sCell_ne d L (by decide), (Finset.mem_erase.mpr ⟨sCell_ne d L (by decide), (sCell_mem d L cc0_scratch6.sem (by decide))⟩)⟩)⟩)⟩),
    SparseCore.bigSep_erase' (Finset.mem_erase.mpr ⟨sCell_ne d L (by decide), (Finset.mem_erase.mpr ⟨sCell_ne d L (by decide), (Finset.mem_erase.mpr ⟨sCell_ne d L (by decide), (Finset.mem_erase.mpr ⟨sCell_ne d L (by decide), (Finset.mem_erase.mpr ⟨sCell_ne d L (by decide), (sCell_mem d L cc0_scratch7.sem (by decide))⟩)⟩)⟩)⟩)⟩)]

omit [FloatOps F] in
/-- The two scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- The array `x3` as a tile's whole memref addresses it is the TensorCore's array. -/
theorem pts_x3 (q : PosShare TreeShare) (f : Buf (Elt F) (x3Loc d)) :
    ((xV).view.loc (V d (cV L) (jV L)) ↦{q} f : sProp 𝕄) = x3Loc d ↦{q} f := by
  simp only [Memref.view_whole, View.set_whole]

/-- A slice of o landed from a half plane of the output scratch: the half plane's contents as one listed write over the
    slice's prior contents. -/
abbrev landO (m : Memref sig .scVector .hbm S32x128 .f32) (src : Memref sig .scVector .vmem S32x128 .f32)
    (fd : Buf (Elt F) (m.view.loc (V d (cV L) (jV L)))) (g : Buf (Elt F) (src.view.loc (V d (cV L) (jV L)))) : Buf (Elt F) (m.view.loc (V d (cV L) (jV L))) :=
  m.view.writes (Elt F) fd [⟨Rect.whole S32x128, ReadAs.same.apply (src.view.read (Elt F) g)⟩]

/-- What a copy of a half plane out to a slice of o delivers: the slice landed, the half plane back. -/
abbrev delivO (m : Memref sig .scVector .hbm S32x128 .f32) (src : Memref sig .scVector .vmem S32x128 .f32)
    (fd : Buf (Elt F) (m.view.loc (V d (cV L) (jV L)))) (g : Buf (Elt F) (src.view.loc (V d (cV L) (jV L)))) : sProp 𝕄 :=
  iprop((m.view.loc (V d (cV L) (jV L)) ↦[m.view.set]{fullShare} landO d L m src fd g) ∗ (src.view.loc (V d (cV L) (jV L)) ↦[src.view.set]{fullShare} g))

/-- The two deliveries of a batch of two copies. -/
abbrev batchD (A B : sProp 𝕄) : Fin 2 → sProp 𝕄 := ![A, B]

instance batchD_storable (A B : sProp 𝕄) [BI.Storable (upEmb : UEmb _ 𝕄) A] [BI.Storable (upEmb : UEmb _ 𝕄) B] (j : Fin 2) :
    BI.Storable (upEmb : UEmb _ 𝕄) (batchD A B j) := by
  fin_cases j
  · show BI.Storable (upEmb : UEmb _ 𝕄) A; infer_instance
  · show BI.Storable (upEmb : UEmb _ 𝕄) B; infer_instance

end Cert.KernelIdeal.Hand

end
-- ==== Proof.TileSlices.lean ====
/-
  A tile's 400 slices of the result array, taken four planes at a time: the slices of planes `4 g ..` still to be
  written and the slices of planes below `4 g` already at the kernel's value, how one group of eight slices (four
  planes, two halves) moves from the one to the other, and the printed row offsets of the slices the body names,
  as the plane, half and tile they are.
-/
import proofs.«209186_g8847632630064_cont_9to1c4b_396_28_alg».proof.Proof.Common

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop shareTokN)
open Idealize.ShloMosaic.ValueIdx

variable {F : FTy → Type}

local notation "𝕄" => MT nD τ sig (HIx 1) (Elt F) ℕ UU ℕ

/-! ## Planes by groups of four -/

/-- Plane `j` of group `g`: `4 g + j`. -/
def planeOf (g : ℕ) (hg : g < 50) (j : Fin 4) : Fin 200 := ⟨4 * g + j.val, by have := j.isLt; omega⟩

omit F in
theorem planeOf_val (g : ℕ) (hg : g < 50) (j : Fin 4) : (planeOf g hg j).val = 4 * g + j.val := rfl

/-- The eight (plane, half) pairs of group `g`, as an embedding of `Fin 4 × Fin 2`. -/
def grpEmb (g : ℕ) (hg : g < 50) : Fin 4 × Fin 2 ↪ Fin 200 × Fin 2 where
  toFun q := (planeOf g hg q.1, q.2)
  inj' := by
    rintro ⟨j, h⟩ ⟨j', h'⟩ e
    have e' : (planeOf g hg j, h) = (planeOf g hg j', h') := e
    obtain ⟨e1, e2⟩ := Prod.mk.inj e'
    have e3 : (planeOf g hg j).val = (planeOf g hg j').val := congrArg Fin.val e1
    rw [planeOf_val, planeOf_val] at e3
    have hj : j = j' := Fin.ext (by omega)
    rw [hj, e2]

omit F in
/-- The pairs from plane `4 g` on are group `g`'s eight and the pairs from plane `4 (g + 1)` on. -/
theorem from_step (g : ℕ) (hg : g < 50) :
    (Finset.univ.filter fun p : Fin 200 × Fin 2 => 4 * g ≤ p.1.val)
      = Finset.univ.map (grpEmb g hg) ∪ Finset.univ.filter fun p : Fin 200 × Fin 2 => 4 * (g + 1) ≤ p.1.val := by
  ext p
  simp only [Finset.mem_filter, Finset.mem_univ, true_and, Finset.mem_union, Finset.mem_map]
  constructor
  · intro h
    by_cases hlt : p.1.val < 4 * g + 4
    · exact Or.inl ⟨(⟨p.1.val - 4 * g, by omega⟩, p.2), Prod.ext (Fin.ext (by show 4 * g + (p.1.val - 4 * g) = p.1.val; omega)) rfl⟩
    · exact Or.inr (by omega)
  · rintro (⟨q, rfl⟩ | h)
    · show 4 * g ≤ 4 * g + q.1.val; omega
    · omega

omit F in
theorem from_step_disjoint (g : ℕ) (hg : g < 50) :
    Disjoint (Finset.univ.map (grpEmb g hg)) (Finset.univ.filter fun p : Fin 200 × Fin 2 => 4 * (g + 1) ≤ p.1.val) := by
  rw [Finset.disjoint_left]
  intro p hp hq
  obtain ⟨q, -, rfl⟩ := Finset.mem_map.mp hp
  have h2 := (Finset.mem_filter.mp hq).2
  have hq4 := q.1.isLt
  change 4 * (g + 1) ≤ 4 * g + q.1.val at h2
  omega

omit F in
/-- The pairs below plane `4 (g + 1)` are the pairs below plane `4 g` and group `g`'s eight. -/
theorem below_step (g : ℕ) (hg : g < 50) :
    (Finset.univ.filter fun p : Fin 200 × Fin 2 => p.1.val < 4 * (g + 1))
      = Finset.univ.map (grpEmb g hg) ∪ Finset.univ.filter fun p : Fin 200 × Fin 2 => p.1.val < 4 * g := by
  ext p
  simp only [Finset.mem_filter, Finset.mem_univ, true_and, Finset.mem_union, Finset.mem_map]
  constructor
  · intro h
    by_cases hlt : p.1.val < 4 * g
    · exact Or.inr hlt
    · exact Or.inl ⟨(⟨p.1.val - 4 * g, by omega⟩, p.2), Prod.ext (Fin.ext (by show 4 * g + (p.1.val - 4 * g) = p.1.val; omega)) rfl⟩
  · rintro (⟨q, rfl⟩ | h)
    · have := q.1.isLt; show 4 * g + q.1.val < 4 * (g + 1); omega
    · omega

omit F in
theorem below_step_disjoint (g : ℕ) (hg : g < 50) :
    Disjoint (Finset.univ.map (grpEmb g hg)) (Finset.univ.filter fun p : Fin 200 × Fin 2 => p.1.val < 4 * g) := by
  rw [Finset.disjoint_left]
  intro p hp hq
  obtain ⟨q, -, rfl⟩ := Finset.mem_map.mp hp
  have h2 := (Finset.mem_filter.mp hq).2
  change 4 * g + q.1.val < 4 * g at h2
  omega

omit F in
/-- The eight pairs of `Fin 4 × Fin 2`, listed plane by plane. -/
theorem univ_eight : (Finset.univ : Finset (Fin 4 × Fin 2))
    = {((0 : Fin 4), (0 : Fin 2)), (0, 1), (1, 0), (1, 1), (2, 0), (2, 1), (3, 0), (3, 1)} := by decide

/-- A product over the eight pairs, written out. -/
theorem bigSep_eight (Φ : Fin 4 × Fin 2 → sProp 𝕄) :
    bigSep Finset.univ Φ
      = iprop(Φ (0, 0) ∗ Φ (0, 1) ∗ Φ (1, 0) ∗ Φ (1, 1) ∗ Φ (2, 0) ∗ Φ (2, 1) ∗ Φ (3, 0) ∗ Φ (3, 1)) := by
  rw [univ_eight, SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- Separating conjunction re-associated, as an equation. -/
theorem sep_assoc_eq (P Q R : sProp 𝕄) : iprop((P ∗ Q) ∗ R) = iprop(P ∗ Q ∗ R) :=
  Std.Associative.assoc (op := (BI.sep : sProp 𝕄 → _ → _)) P Q R

/-- A group's product over an index set that splits as the group's eight and a rest. -/
theorem bigSep_group (g : ℕ) (hg : g < 50) (s r : Finset (Fin 200 × Fin 2)) (hs : s = Finset.univ.map (grpEmb g hg) ∪ r)
    (hd : Disjoint (Finset.univ.map (grpEmb g hg)) r) (Φ : Fin 200 × Fin 2 → sProp 𝕄) :
    bigSep s Φ = iprop(Φ (planeOf g hg 0, 0) ∗ Φ (planeOf g hg 0, 1) ∗ Φ (planeOf g hg 1, 0) ∗ Φ (planeOf g hg 1, 1)
      ∗ Φ (planeOf g hg 2, 0) ∗ Φ (planeOf g hg 2, 1) ∗ Φ (planeOf g hg 3, 0) ∗ Φ (planeOf g hg 3, 1) ∗ bigSep r Φ) := by
  rw [hs, SparseCore.bigSep_union' hd, bigSep_map, bigSep_eight]
  simp only [sep_assoc_eq]
  rfl

/-! ## The slices still to be written, and the slices done -/

/-- Tile `w`'s slices of planes `4 g` on, at any contents. -/
def oTodoG (d : Dev nD) (w : Fin 32) (g : ℕ) : sProp 𝕄 :=
  bigSep (Finset.univ.filter fun p : Fin 200 × Fin 2 => 4 * g ≤ p.1.val) fun p => iprop(∃ f, oLoc d ↦[oSet w p.1 p.2]{fullShare} f)

variable [FloatOps F] (X : (d : Dev nD) → Buf (Elt F) (x3Loc d))

/-- Tile `w`'s slices of planes below `4 g`, at the kernel's value. -/
def oDoneG (d : Dev nD) (w : Fin 32) (g : ℕ) : sProp 𝕄 :=
  bigSep (Finset.univ.filter fun p : Fin 200 × Fin 2 => p.1.val < 4 * g) fun p => oLoc d ↦[oSet w p.1 p.2]{fullShare} (outLinF (X d))

omit [FloatOps F] in
/-- At the start every slice is still to be written. -/
theorem oTodoG_zero (d : Dev nD) (w : Fin 32) :
    (bigSep (Finset.univ : Finset (Fin 200 × Fin 2)) fun p => iprop(∃ f, oLoc d ↦[oSet w p.1 p.2]{fullShare} f) : sProp 𝕄) = oTodoG d w 0 := by
  unfold oTodoG
  rw [show (Finset.univ.filter fun p : Fin 200 × Fin 2 => 4 * 0 ≤ p.1.val) = Finset.univ from
    Finset.filter_true_of_mem fun p _ => by omega]

/-- … and none is done. -/
theorem oDoneG_zero (d : Dev nD) (w : Fin 32) : (oDoneG X d w 0 : sProp 𝕄) = iprop(emp) := by
  unfold oDoneG
  rw [show (Finset.univ.filter fun p : Fin 200 × Fin 2 => p.1.val < 4 * 0) = ∅ from
    Finset.filter_false_of_mem fun p _ => by omega]
  rfl

/-- After the fiftieth group every slice is done. -/
theorem oDoneG_fifty (d : Dev nD) (w : Fin 32) :
    (oDoneG X d w 50 : sProp 𝕄) = bigSep (Finset.univ : Finset (Fin 200 × Fin 2)) fun p => oLoc d ↦[oSet w p.1 p.2]{fullShare} (outLinF (X d)) := by
  unfold oDoneG
  rw [show (Finset.univ.filter fun p : Fin 200 × Fin 2 => p.1.val < 4 * 50) = Finset.univ from
    Finset.filter_true_of_mem fun p _ => by have := p.1.isLt; omega]

omit [FloatOps F] in
/-- The slices from plane `4 g` on: group `g`'s eight, then those from plane `4 (g + 1)` on. -/
theorem oTodoG_step (d : Dev nD) (w : Fin 32) (g : ℕ) (hg : g < 50) :
    (oTodoG d w g : sProp 𝕄) = iprop((∃ f, oLoc d ↦[oSet w (planeOf g hg 0) 0]{fullShare} f) ∗ (∃ f, oLoc d ↦[oSet w (planeOf g hg 0) 1]{fullShare} f)
      ∗ (∃ f, oLoc d ↦[oSet w (planeOf g hg 1) 0]{fullShare} f) ∗ (∃ f, oLoc d ↦[oSet w (planeOf g hg 1) 1]{fullShare} f)
      ∗ (∃ f, oLoc d ↦[oSet w (planeOf g hg 2) 0]{fullShare} f) ∗ (∃ f, oLoc d ↦[oSet w (planeOf g hg 2) 1]{fullShare} f)
      ∗ (∃ f, oLoc d ↦[oSet w (planeOf g hg 3) 0]{fullShare} f) ∗ (∃ f, oLoc d ↦[oSet w (planeOf g hg 3) 1]{fullShare} f)
      ∗ oTodoG d w (g + 1)) := by
  unfold oTodoG
  exact bigSep_group g hg _ _ (from_step g hg) (from_step_disjoint g hg) _

/-- The slices below plane `4 (g + 1)` at the kernel's value: group `g`'s eight, then those below plane `4 g`. -/
theorem oDoneG_succ (d : Dev nD) (w : Fin 32) (g : ℕ) (hg : g < 50) :
    (oDoneG X d w (g + 1) : sProp 𝕄) = iprop((oLoc d ↦[oSet w (planeOf g hg 0) 0]{fullShare} (outLinF (X d))) ∗ (oLoc d ↦[oSet w (planeOf g hg 0) 1]{fullShare} (outLinF (X d)))
      ∗ (oLoc d ↦[oSet w (planeOf g hg 1) 0]{fullShare} (outLinF (X d))) ∗ (oLoc d ↦[oSet w (planeOf g hg 1) 1]{fullShare} (outLinF (X d)))
      ∗ (oLoc d ↦[oSet w (planeOf g hg 2) 0]{fullShare} (outLinF (X d))) ∗ (oLoc d ↦[oSet w (planeOf g hg 2) 1]{fullShare} (outLinF (X d)))
      ∗ (oLoc d ↦[oSet w (planeOf g hg 3) 0]{fullShare} (outLinF (X d))) ∗ (oLoc d ↦[oSet w (planeOf g hg 3) 1]{fullShare} (outLinF (X d)))
      ∗ oDoneG X d w g) := by
  unfold oDoneG
  exact bigSep_group g hg _ _ (below_step g hg) (below_step_disjoint g hg) _

/-- The done slices and group `g`'s eight at the kernel's value are the done slices one group further. -/
theorem oDoneG_step (d : Dev nD) (w : Fin 32) (g : ℕ) (hg : g < 50) :
    iprop(oDoneG X d w g ∗ (oLoc d ↦[oSet w (planeOf g hg 0) 0]{fullShare} (outLinF (X d))) ∗ (oLoc d ↦[oSet w (planeOf g hg 0) 1]{fullShare} (outLinF (X d)))
      ∗ (oLoc d ↦[oSet w (planeOf g hg 1) 0]{fullShare} (outLinF (X d))) ∗ (oLoc d ↦[oSet w (planeOf g hg 1) 1]{fullShare} (outLinF (X d)))
      ∗ (oLoc d ↦[oSet w (planeOf g hg 2) 0]{fullShare} (outLinF (X d))) ∗ (oLoc d ↦[oSet w (planeOf g hg 2) 1]{fullShare} (outLinF (X d)))
      ∗ (oLoc d ↦[oSet w (planeOf g hg 3) 0]{fullShare} (outLinF (X d))) ∗ (oLoc d ↦[oSet w (planeOf g hg 3) 1]{fullShare} (outLinF (X d))))
      ⊢ (oDoneG X d w (g + 1) : sProp 𝕄) := by
  rw [oDoneG_succ X d w g hg]
  iintro ⟨Hd, H00, H01, H10, H11, H20, H21, H30, H31⟩
  isplitl [H00]; · iexact H00
  isplitl [H01]; · iexact H01
  isplitl [H10]; · iexact H10
  isplitl [H11]; · iexact H11
  isplitl [H20]; · iexact H20
  isplitl [H21]; · iexact H21
  isplitl [H30]; · iexact H30
  isplitl [H31]; · iexact H31
  iexact Hd

/-! ## The printed row offsets, as plane, half and tile -/

omit F [FloatOps F] in
theorem trips_le (t : Fin k0_t1_loop.trips) : t.val < 25 := Nat.lt_of_lt_of_le t.isLt k0_t1_abs.2.1
omit F [FloatOps F] in
theorem even_group_lt (t : Fin k0_t1_loop.trips) : 2 * t.val < 50 := by have := trips_le t; omega
omit F [FloatOps F] in
theorem odd_group_lt (t : Fin k0_t1_loop.trips) : 2 * t.val + 1 < 50 := by have := trips_le t; omega

omit F [FloatOps F] in
/-- An offset pair is determined by its row. -/
theorem off_ext {a b : ℕ} (h : a = b) : (![a, 0] : Fin 2 → ℕ) = ![b, 0] := by rw [h]

omit F [FloatOps F] in
/-- Iteration `t`'s first group (planes `8 t ..`), plane `r`, lower half. -/
theorem hoff8 (L : grid0.Coords) (t : Fin k0_t1_loop.trips) (r : Fin 4) :
    k0_off8 L t (BitVec.ofNat 32 r.val)
      = ![(planeOf (2 * t.val) (even_group_lt t) r).val * 2048 + (0 : Fin 2).val * 1024 + (widL L).val * 32, 0] := by
  rw [k0_off8_eq, widL_val, planeOf_val]
  exact off_ext (by show _ = (4 * (2 * t.val) + r.val) * 2048 + 0 * 1024 + (2 * (L 1).val + (L 0).val) * 32; omega)

omit F [FloatOps F] in
/-- … upper half. -/
theorem hoff9 (L : grid0.Coords) (t : Fin k0_t1_loop.trips) (r : Fin 4) :
    k0_off9 L t (BitVec.ofNat 32 r.val)
      = ![(planeOf (2 * t.val) (even_group_lt t) r).val * 2048 + (1 : Fin 2).val * 1024 + (widL L).val * 32, 0] := by
  rw [k0_off9_eq, widL_val, planeOf_val]
  exact off_ext (by show _ = (4 * (2 * t.val) + r.val) * 2048 + 1 * 1024 + (2 * (L 1).val + (L 0).val) * 32; omega)

omit F [FloatOps F] in
/-- Iteration `t`'s second group (planes `8 t + 4 ..`), plane `r`, lower half. -/
theorem hoff28 (L : grid0.Coords) (t : Fin k0_t1_loop.trips) (r : Fin 4) :
    k0_off28 L t (BitVec.ofNat 32 r.val)
      = ![(planeOf (2 * t.val + 1) (odd_group_lt t) r).val * 2048 + (0 : Fin 2).val * 1024 + (widL L).val * 32, 0] := by
  rw [k0_off28_eq, widL_val, planeOf_val]
  exact off_ext (by show _ = (4 * (2 * t.val + 1) + r.val) * 2048 + 0 * 1024 + (2 * (L 1).val + (L 0).val) * 32; omega)

omit F [FloatOps F] in
/-- … upper half. -/
theorem hoff29 (L : grid0.Coords) (t : Fin k0_t1_loop.trips) (r : Fin 4) :
    k0_off29 L t (BitVec.ofNat 32 r.val)
      = ![(planeOf (2 * t.val + 1) (odd_group_lt t) r).val * 2048 + (1 : Fin 2).val * 1024 + (widL L).val * 32, 0] := by
  rw [k0_off29_eq, widL_val, planeOf_val]
  exact off_ext (by show _ = (4 * (2 * t.val + 1) + r.val) * 2048 + 1 * 1024 + (2 * (L 1).val + (L 0).val) * 32; omega)

omit F [FloatOps F] in
/-- The last group (planes `196 ..`), plane `r`, lower half. -/
theorem hoff43 (L : grid0.Coords) (r : Fin 4) :
    k0_off43 L (BitVec.ofNat 32 (401408 + 2048 * r.val))
      = ![(planeOf 49 (by decide) r).val * 2048 + (0 : Fin 2).val * 1024 + (widL L).val * 32, 0] := by
  rw [k0_off43_eq, widL_val, planeOf_val]
  exact off_ext (by show _ = (4 * 49 + r.val) * 2048 + 0 * 1024 + (2 * (L 1).val + (L 0).val) * 32; omega)

omit F [FloatOps F] in
/-- … upper half. -/
theorem hoff44 (L : grid0.Coords) (r : Fin 4) :
    k0_off44 L (BitVec.ofNat 32 (401408 + 2048 * r.val))
      = ![(planeOf 49 (by decide) r).val * 2048 + (1 : Fin 2).val * 1024 + (widL L).val * 32, 0] := by
  rw [k0_off44_eq, widL_val, planeOf_val]
  exact off_ext (by show _ = (4 * 49 + r.val) * 2048 + 1 * 1024 + (2 * (L 1).val + (L 0).val) * 32; omega)

omit F [FloatOps F] in
/-- The offset facts are in the form the slices' sets ask for: the printed slice of the third plane of an iteration's
    first group, lower half, is that part of the result array. -/
example (L : grid0.Coords) (t : Fin k0_t1_loop.trips) :
    ((oV : Memref sig .scVector .hbm S409600x128 .f32).slice
        (Rect.unit (s := S409600x128) (k0_off8 L t 2#32) S32x128.size (k0_off8_inb L t 2)) (fun _ => rfl)).view.set
      = oSet (widL L) (planeOf (2 * t.val) (even_group_lt t) 2) 0 :=
  set_oSlice (k0_off8_inb L t 2) (widL L) (planeOf (2 * t.val) (even_group_lt t) 2) 0 (hoff8 L t 2)

omit F [FloatOps F] in
/-- The same for the last group's second plane, upper half. -/
example (L : grid0.Coords) :
    ((oV : Memref sig .scVector .hbm S409600x128 .f32).slice
        (Rect.unit (s := S409600x128) (k0_off44 L 403456#32) S32x128.size (k0_off44_inb L 1)) (fun _ => rfl)).view.set
      = oSet (widL L) (planeOf 49 (by decide) 1) 1 :=
  set_oSlice (k0_off44_inb L 1) (widL L) (planeOf 49 (by decide) 1) 1 (hoff44 L 1)

end Cert.KernelIdeal.Hand

end
-- ==== Proof.TileInv.lean ====
/-
  The tile kernel's loop invariant: what the tile holds at the head of outer trip k (groups 2k and 2k+1 of four planes
  each): the two fetches in flight, the four batches of copies out of the previous group in flight (none before the first
  trip), the groups' slices of o done, in flight, or still to do.
-/
import proofs.«209186_g8847632630064_cont_9to1c4b_396_28_alg».proof.Proof.Common
import proofs.«209186_g8847632630064_cont_9to1c4b_396_28_alg».proof.Proof.TileBufs
import proofs.«209186_g8847632630064_cont_9to1c4b_396_28_alg».proof.Proof.TileSlices

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop shareTokN)
open Idealize.ShloMosaic.Tactic

variable {F : FTy → Type}

local notation "𝕄" => MT nD τ sig (HIx 1) (Elt F) ℕ UU ℕ

variable [FloatOps F]
variable (X : (d : Dev nD) → Buf (Elt F) (x3Loc d))
variable (d : Dev nD) (L : grid0.Coords)

open Idealize.ShloMosaic.ValueIdx

/-! ## The slices of o a trip's copies write, as the copies spell them -/
abbrev oA00 (t : Fin k0_t1_loop.trips) : Memref sig .scVector .hbm S32x128 .f32 := (oV).slice (Rect.unit (s := S409600x128) (k0_off8 L t 0#32) S32x128.size (k0_off8_inb L t 0)) (fun _ => rfl)
abbrev oB00 (t : Fin k0_t1_loop.trips) : Memref sig .scVector .hbm S32x128 .f32 := (oV).slice (Rect.unit (s := S409600x128) (k0_off28 L t 0#32) S32x128.size (k0_off28_inb L t 0)) (fun _ => rfl)
abbrev oA01 (t : Fin k0_t1_loop.trips) : Memref sig .scVector .hbm S32x128 .f32 := (oV).slice (Rect.unit (s := S409600x128) (k0_off9 L t 0#32) S32x128.size (k0_off9_inb L t 0)) (fun _ => rfl)
abbrev oB01 (t : Fin k0_t1_loop.trips) : Memref sig .scVector .hbm S32x128 .f32 := (oV).slice (Rect.unit (s := S409600x128) (k0_off29 L t 0#32) S32x128.size (k0_off29_inb L t 0)) (fun _ => rfl)
abbrev oA10 (t : Fin k0_t1_loop.trips) : Memref sig .scVector .hbm S32x128 .f32 := (oV).slice (Rect.unit (s := S409600x128) (k0_off8 L t 1#32) S32x128.size (k0_off8_inb L t 1)) (fun _ => rfl)
abbrev oB10 (t : Fin k0_t1_loop.trips) : Memref sig .scVector .hbm S32x128 .f32 := (oV).slice (Rect.unit (s := S409600x128) (k0_off28 L t 1#32) S32x128.size (k0_off28_inb L t 1)) (fun _ => rfl)
abbrev oA11 (t : Fin k0_t1_loop.trips) : Memref sig .scVector .hbm S32x128 .f32 := (oV).slice (Rect.unit (s := S409600x128) (k0_off9 L t 1#32) S32x128.size (k0_off9_inb L t 1)) (fun _ => rfl)
abbrev oB11 (t : Fin k0_t1_loop.trips) : Memref sig .scVector .hbm S32x128 .f32 := (oV).slice (Rect.unit (s := S409600x128) (k0_off29 L t 1#32) S32x128.size (k0_off29_inb L t 1)) (fun _ => rfl)
abbrev oA20 (t : Fin k0_t1_loop.trips) : Memref sig .scVector .hbm S32x128 .f32 := (oV).slice (Rect.unit (s := S409600x128) (k0_off8 L t 2#32) S32x128.size (k0_off8_inb L t 2)) (fun _ => rfl)
abbrev oB20 (t : Fin k0_t1_loop.trips) : Memref sig .scVector .hbm S32x128 .f32 := (oV).slice (Rect.unit (s := S409600x128) (k0_off28 L t 2#32) S32x128.size (k0_off28_inb L t 2)) (fun _ => rfl)
abbrev oA21 (t : Fin k0_t1_loop.trips) : Memref sig .scVector .hbm S32x128 .f32 := (oV).slice (Rect.unit (s := S409600x128) (k0_off9 L t 2#32) S32x128.size (k0_off9_inb L t 2)) (fun _ => rfl)
abbrev oB21 (t : Fin k0_t1_loop.trips) : Memref sig .scVector .hbm S32x128 .f32 := (oV).slice (Rect.unit (s := S409600x128) (k0_off29 L t 2#32) S32x128.size (k0_off29_inb L t 2)) (fun _ => rfl)
abbrev oA30 (t : Fin k0_t1_loop.trips) : Memref sig .scVector .hbm S32x128 .f32 := (oV).slice (Rect.unit (s := S409600x128) (k0_off8 L t 3#32) S32x128.size (k0_off8_inb L t 3)) (fun _ => rfl)
abbrev oB30 (t : Fin k0_t1_loop.trips) : Memref sig .scVector .hbm S32x128 .f32 := (oV).slice (Rect.unit (s := S409600x128) (k0_off28 L t 3#32) S32x128.size (k0_off28_inb L t 3)) (fun _ => rfl)
abbrev oA31 (t : Fin k0_t1_loop.trips) : Memref sig .scVector .hbm S32x128 .f32 := (oV).slice (Rect.unit (s := S409600x128) (k0_off9 L t 3#32) S32x128.size (k0_off9_inb L t 3)) (fun _ => rfl)
abbrev oB31 (t : Fin k0_t1_loop.trips) : Memref sig .scVector .hbm S32x128 .f32 := (oV).slice (Rect.unit (s := S409600x128) (k0_off29 L t 3#32) S32x128.size (k0_off29_inb L t 3)) (fun _ => rfl)

/-! ## The values -/

/-- Slot `pin` of the input scratch holds group `G`'s four planes of x3, the tile's four rows of each. -/
def XsOk (G : ℕ) (pin : Fin 2) (g : S2x4x4x128.Idx → Elt F .f32) : Prop :=
  ∀ (hG : G < 50) (dl a : Fin 4) (c : Fin 128),
    g (ix4 pin dl a c) = X d (ix3 (⟨4 * G + dl.val, by omega⟩ : Fin 200) (⟨4 * (widL L).val + a.val, by have := (widL L).isLt; omega⟩ : Fin 128) c)

/-- Half `h` of plane `dl` of the output scratch holds the tile's rows of o for plane `4 G + dl`. -/
def OhOk (G : ℕ) (dl : Fin 4) (h : Fin 2) (g : S4x64x128.Idx → Elt F .f32) : Prop :=
  ∀ (hG : G < 50) (r : Fin 32) (c : Fin 128),
    g (ix3 dl (⟨32 * h.val + r.val, by omega⟩ : Fin 64) c)
      = outLinF (X d) (ix2 (⟨(4 * G + dl.val) * 2048 + h.val * 1024 + (widL L).val * 32 + r.val, by have := (widL L).isLt; omega⟩ : Fin 409600) c)

/-! ## The invariant -/

/-- The tile's read share of x3. -/
abbrev qT : PosShare TreeShare := shareTok fullShare 32 (widL L)

/-- Slot 0's fetch of group `G` in flight: its delivery (the slot holding the group, the lent elements of x3 back) and the rest of the read token. -/
def FlIn0 (G : ℕ) : sProp 𝕄 :=
  iprop(∃ Sx : Finset (Idx ((xV).view.loc (V d (cV L) (jV L)))),
    Transfers.Flight (countersEmb (U := UU)) (V d (cV L) (jV L)) (SemLoc.dma cc0_scratch2.sem) (none : HIx 1) 65536
      iprop((∃ g, ((xs0).view.loc (V d (cV L) (jV L)) ↦[(xs0).view.set]{fullShare} g) ∗ ⌜XsOk X d L G 0 g⌝)
        ∗ ((xV).view.loc (V d (cV L) (jV L)) ↦[Sx]{shareTokN (qT L) 0} X d))
    ∗ ((xV).view.loc (V d (cV L) (jV L)) ↦[Finset.univ \ Sx]{shareTokN (qT L) 0} X d))

/-- Slot 1's fetch of group `G` in flight: its delivery (the slot holding the group, the lent elements of x3 back) and the rest of the read token. -/
def FlIn1 (G : ℕ) : sProp 𝕄 :=
  iprop(∃ Sx : Finset (Idx ((xV).view.loc (V d (cV L) (jV L)))),
    Transfers.Flight (countersEmb (U := UU)) (V d (cV L) (jV L)) (SemLoc.dma cc0_scratch3.sem) (none : HIx 1) 65536
      iprop((∃ g, ((xs1).view.loc (V d (cV L) (jV L)) ↦[(xs1).view.set]{fullShare} g) ∗ ⌜XsOk X d L G 1 g⌝)
        ∗ ((xV).view.loc (V d (cV L) (jV L)) ↦[Sx]{shareTokN (qT L) 1} X d))
    ∗ ((xV).view.loc (V d (cV L) (jV L)) ↦[Finset.univ \ Sx]{shareTokN (qT L) 1} X d))

/-- Nothing being fetched: both read tokens whole, both slots and their semaphores in hand. -/
def InIdle : sProp 𝕄 :=
  iprop(((xV).view.loc (V d (cV L) (jV L)) ↦{shareTokN (qT L) 0} X d) ∗ ((xV).view.loc (V d (cV L) (jV L)) ↦{shareTokN (qT L) 1} X d)
    ∗ (∃ g, (xs0).view.loc (V d (cV L) (jV L)) ↦[(xs0).view.set]{fullShare} g) ∗ (∃ g, (xs1).view.loc (V d (cV L) (jV L)) ↦[(xs1).view.set]{fullShare} g)
    ∗ semVal ((V d (cV L) (jV L)), SemLoc.dma cc0_scratch2.sem) 0 ∗ semVal ((V d (cV L) (jV L)), SemLoc.dma cc0_scratch3.sem) 0)

/-- The input side before trip `k`: groups `2k` and `2k+1` being fetched, or after the last trip nothing. -/
def InSt (k : ℕ) : sProp 𝕄 :=
  iprop((⌜k < 25⌝ ∗ FlIn0 X d L (2 * k) ∗ FlIn1 X d L (2 * k + 1)) ∨ (⌜k = 25⌝ ∗ InIdle X d L))

/-- Plane 0 of the output scratch idle: its two halves and its semaphore in hand. -/
def OutIdle0 : sProp 𝕄 :=
  iprop((∃ g, (oh00).view.loc (V d (cV L) (jV L)) ↦[(oh00).view.set]{fullShare} g) ∗ (∃ g, (oh01).view.loc (V d (cV L) (jV L)) ↦[(oh01).view.set]{fullShare} g)
    ∗ semVal ((V d (cV L) (jV L)), SemLoc.dma cc0_scratch4.sem) 0)
/-- Plane 0's two copies out of trip `tp`'s second group in flight. -/
def BatchO0 (tp : Fin k0_t1_loop.trips) : sProp 𝕄 :=
  iprop(∃ (f0 : Buf (Elt F) ((oB00 L tp).view.loc (V d (cV L) (jV L)))) (f1 : Buf (Elt F) ((oB01 L tp).view.loc (V d (cV L) (jV L))))
      (g0 : Buf (Elt F) ((oh00).view.loc (V d (cV L) (jV L)))) (g1 : Buf (Elt F) ((oh01).view.loc (V d (cV L) (jV L)))),
    ⌜OhOk X d L (2 * tp.val + 1) 0 0 g0 ∧ OhOk X d L (2 * tp.val + 1) 0 1 g1⌝
    ∗ Transfers.Batch (countersEmb (U := UU)) (V d (cV L) (jV L)) (SemLoc.dma cc0_scratch4.sem) (none : HIx 1) 131072
        (batchD (delivO d L (oB00 L tp) oh00 f0 g0) (delivO d L (oB01 L tp) oh01 f1 g1)) 2 0)

/-- Plane 1 of the output scratch idle: its two halves and its semaphore in hand. -/
def OutIdle1 : sProp 𝕄 :=
  iprop((∃ g, (oh10).view.loc (V d (cV L) (jV L)) ↦[(oh10).view.set]{fullShare} g) ∗ (∃ g, (oh11).view.loc (V d (cV L) (jV L)) ↦[(oh11).view.set]{fullShare} g)
    ∗ semVal ((V d (cV L) (jV L)), SemLoc.dma cc0_scratch5.sem) 0)
/-- Plane 1's two copies out of trip `tp`'s second group in flight. -/
def BatchO1 (tp : Fin k0_t1_loop.trips) : sProp 𝕄 :=
  iprop(∃ (f0 : Buf (Elt F) ((oB10 L tp).view.loc (V d (cV L) (jV L)))) (f1 : Buf (Elt F) ((oB11 L tp).view.loc (V d (cV L) (jV L))))
      (g0 : Buf (Elt F) ((oh10).view.loc (V d (cV L) (jV L)))) (g1 : Buf (Elt F) ((oh11).view.loc (V d (cV L) (jV L)))),
    ⌜OhOk X d L (2 * tp.val + 1) 1 0 g0 ∧ OhOk X d L (2 * tp.val + 1) 1 1 g1⌝
    ∗ Transfers.Batch (countersEmb (U := UU)) (V d (cV L) (jV L)) (SemLoc.dma cc0_scratch5.sem) (none : HIx 1) 131072
        (batchD (delivO d L (oB10 L tp) oh10 f0 g0) (delivO d L (oB11 L tp) oh11 f1 g1)) 2 0)

/-- Plane 2 of the output scratch idle: its two halves and its semaphore in hand. -/
def OutIdle2 : sProp 𝕄 :=
  iprop((∃ g, (oh20).view.loc (V d (cV L) (jV L)) ↦[(oh20).view.set]{fullShare} g) ∗ (∃ g, (oh21).view.loc (V d (cV L) (jV L)) ↦[(oh21).view.set]{fullShare} g)
    ∗ semVal ((V d (cV L) (jV L)), SemLoc.dma cc0_scratch6.sem) 0)
/-- Plane 2's two copies out of trip `tp`'s second group in flight. -/
def BatchO2 (tp : Fin k0_t1_loop.trips) : sProp 𝕄 :=
  iprop(∃ (f0 : Buf (Elt F) ((oB20 L tp).view.loc (V d (cV L) (jV L)))) (f1 : Buf (Elt F) ((oB21 L tp).view.loc (V d (cV L) (jV L))))
      (g0 : Buf (Elt F) ((oh20).view.loc (V d (cV L) (jV L)))) (g1 : Buf (Elt F) ((oh21).view.loc (V d (cV L) (jV L)))),
    ⌜OhOk X d L (2 * tp.val + 1) 2 0 g0 ∧ OhOk X d L (2 * tp.val + 1) 2 1 g1⌝
    ∗ Transfers.Batch (countersEmb (U := UU)) (V d (cV L) (jV L)) (SemLoc.dma cc0_scratch6.sem) (none : HIx 1) 131072
        (batchD (delivO d L (oB20 L tp) oh20 f0 g0) (delivO d L (oB21 L tp) oh21 f1 g1)) 2 0)

/-- Plane 3 of the output scratch idle: its two halves and its semaphore in hand. -/
def OutIdle3 : sProp 𝕄 :=
  iprop((∃ g, (oh30).view.loc (V d (cV L) (jV L)) ↦[(oh30).view.set]{fullShare} g) ∗ (∃ g, (oh31).view.loc (V d (cV L) (jV L)) ↦[(oh31).view.set]{fullShare} g)
    ∗ semVal ((V d (cV L) (jV L)), SemLoc.dma cc0_scratch7.sem) 0)
/-- Plane 3's two copies out of trip `tp`'s second group in flight. -/
def BatchO3 (tp : Fin k0_t1_loop.trips) : sProp 𝕄 :=
  iprop(∃ (f0 : Buf (Elt F) ((oB30 L tp).view.loc (V d (cV L) (jV L)))) (f1 : Buf (Elt F) ((oB31 L tp).view.loc (V d (cV L) (jV L))))
      (g0 : Buf (Elt F) ((oh30).view.loc (V d (cV L) (jV L)))) (g1 : Buf (Elt F) ((oh31).view.loc (V d (cV L) (jV L)))),
    ⌜OhOk X d L (2 * tp.val + 1) 3 0 g0 ∧ OhOk X d L (2 * tp.val + 1) 3 1 g1⌝
    ∗ Transfers.Batch (countersEmb (U := UU)) (V d (cV L) (jV L)) (SemLoc.dma cc0_scratch7.sem) (none : HIx 1) 131072
        (batchD (delivO d L (oB30 L tp) oh30 f0 g0) (delivO d L (oB31 L tp) oh31 f1 g1)) 2 0)

/-- The output side before trip `k`: idle before the first, else the previous trip's second group on its way out. -/
def OutSt (k : ℕ) : sProp 𝕄 :=
  iprop((⌜k = 0⌝ ∗ OutIdle0 d L ∗ OutIdle1 d L ∗ OutIdle2 d L ∗ OutIdle3 d L)
    ∨ (∃ tp : Fin k0_t1_loop.trips, ⌜tp.val + 1 = k⌝ ∗ BatchO0 X d L tp ∗ BatchO1 X d L tp ∗ BatchO2 X d L tp ∗ BatchO3 X d L tp))

/-- Before trip `k`: the evidence the waits may be made, the two sides, the slices of o (groups below `2k - 1` done, group
    `2k - 1` in flight, groups from `2k` to do), what the tile owes. -/
def Inv (O : CellTallies nD τ sig (HIx 1)) (W : Waits sig (HIx 1)) (k : ℕ) (_ : PUnit) : sProp 𝕄 :=
  iprop(Transfers.MayWaits (V d (cV L) (jV L)) (none : HIx 1) O
    ∗ InSt X d L k ∗ OutSt X d L k
    ∗ oTodoG d (widL L) (2 * k) ∗ oDoneG X d (widL L) (2 * k - 1)
    ∗ ∃ W', ⌜∀ p ∈ W', p ∈ W ∨ p.2 = none⌝ ∗ owes (V d (cV L) (jV L)) O W')

/-! ## The rest of the tile's own scratch, and the tile's resources laid out -/

/-- The tile's own buffers other than the two scratch buffers. -/
def BufsRest : sProp 𝕄 :=
  bigSep (((ownRefs (τ := τ) (.scVector (cV L) (jV L))).erase ((Proc.scVector (cV L) (jV L)).devRef cc0_scratch0)).erase
      ((Proc.scVector (cV L) (jV L)).devRef cc0_scratch1))
    fun b => iprop(∃ f, ((d, b) : Loc nD τ sig) ↦{fullShare} f)
/-- The tile's own semaphores other than the six the kernel uses, at zero. -/
def SemsRest : sProp 𝕄 :=
  bigSep (((((((ownCells (V d (cV L) (jV L))).erase (sCell d L cc0_scratch2.sem)).erase (sCell d L cc0_scratch3.sem)).erase (sCell d L cc0_scratch4.sem)).erase (sCell d L cc0_scratch5.sem)).erase (sCell d L cc0_scratch6.sem)).erase (sCell d L cc0_scratch7.sem)) fun g => semVal g 0

/-- The tile's resources laid out, nothing in flight, its slices of o as `Os`: the remainder of its read share of x3
    beside the two read tokens, the scratch cut into slots and half planes, the six semaphores at zero, the rest. -/
def TileOpen (Os : sProp 𝕄) : sProp 𝕄 :=
  iprop((x3Loc d ↦{(qT L).left.left} X d) ∗ InIdle X d L ∗ Os ∗ OutIdle0 d L ∗ OutIdle1 d L ∗ OutIdle2 d L ∗ OutIdle3 d L
    ∗ BufsRest d L ∗ SemsRest d L)

/-! ## The pure facts the run cites (proved apart) -/

/-- A fetch of group `G` landed in a slot makes the slot hold the group. -/
structure LandX : Prop where
  l0 : ∀ (G : ℕ) (hG : G < 50) (off : Fin 3 → ℕ) (inb : ∀ a, off a + S4x4x128.size a ≤ S200x128x128.size a) (_ : off = ![4 * G, 4 * (widL L).val, 0])
      (fd : Buf (Elt F) ((xs0).view.loc (V d (cV L) (jV L)))),
      XsOk X d L G 0 ((xs0).view.writes (Elt F) fd [⟨Rect.whole S4x4x128,
        ReadAs.same.apply (((xV).slice (Rect.unit (s := S200x128x128) off S4x4x128.size inb) (fun _ => rfl)).view.read (Elt F) (X d))⟩])
  l1 : ∀ (G : ℕ) (hG : G < 50) (off : Fin 3 → ℕ) (inb : ∀ a, off a + S4x4x128.size a ≤ S200x128x128.size a) (_ : off = ![4 * G, 4 * (widL L).val, 0])
      (fd : Buf (Elt F) ((xs1).view.loc (V d (cV L) (jV L)))),
      XsOk X d L G 1 ((xs1).view.writes (Elt F) fd [⟨Rect.whole S4x4x128,
        ReadAs.same.apply (((xV).slice (Rect.unit (s := S200x128x128) off S4x4x128.size inb) (fun _ => rfl)).view.read (Elt F) (X d))⟩])

/-- A half plane holding the tile's rows of plane `4 G + dl`, copied out to its slice of o, leaves the kernel's value there. -/
structure LandO : Prop where
  l00 : ∀ (G : ℕ) (hG : G < 50) (off : Fin 2 → ℕ) (inb : ∀ a, off a + S32x128.size a ≤ S409600x128.size a)
      (_ : off = ![(planeOf G hG 0).val * 2048 + (0 : Fin 2).val * 1024 + (widL L).val * 32, 0])
      (fd : Buf (Elt F) (((oV).slice (Rect.unit (s := S409600x128) off S32x128.size inb) (fun _ => rfl)).view.loc (V d (cV L) (jV L))))
      (g : Buf (Elt F) ((oh00).view.loc (V d (cV L) (jV L)))) (_ : OhOk X d L G 0 0 g),
      ∀ i ∈ oSet (widL L) (planeOf G hG 0) 0,
        landO d L ((oV).slice (Rect.unit (s := S409600x128) off S32x128.size inb) (fun _ => rfl)) oh00 fd g i = outLinF (X d) i
  l01 : ∀ (G : ℕ) (hG : G < 50) (off : Fin 2 → ℕ) (inb : ∀ a, off a + S32x128.size a ≤ S409600x128.size a)
      (_ : off = ![(planeOf G hG 0).val * 2048 + (1 : Fin 2).val * 1024 + (widL L).val * 32, 0])
      (fd : Buf (Elt F) (((oV).slice (Rect.unit (s := S409600x128) off S32x128.size inb) (fun _ => rfl)).view.loc (V d (cV L) (jV L))))
      (g : Buf (Elt F) ((oh01).view.loc (V d (cV L) (jV L)))) (_ : OhOk X d L G 0 1 g),
      ∀ i ∈ oSet (widL L) (planeOf G hG 0) 1,
        landO d L ((oV).slice (Rect.unit (s := S409600x128) off S32x128.size inb) (fun _ => rfl)) oh01 fd g i = outLinF (X d) i
  l10 : ∀ (G : ℕ) (hG : G < 50) (off : Fin 2 → ℕ) (inb : ∀ a, off a + S32x128.size a ≤ S409600x128.size a)
      (_ : off = ![(planeOf G hG 1).val * 2048 + (0 : Fin 2).val * 1024 + (widL L).val * 32, 0])
      (fd : Buf (Elt F) (((oV).slice (Rect.unit (s := S409600x128) off S32x128.size inb) (fun _ => rfl)).view.loc (V d (cV L) (jV L))))
      (g : Buf (Elt F) ((oh10).view.loc (V d (cV L) (jV L)))) (_ : OhOk X d L G 1 0 g),
      ∀ i ∈ oSet (widL L) (planeOf G hG 1) 0,
        landO d L ((oV).slice (Rect.unit (s := S409600x128) off S32x128.size inb) (fun _ => rfl)) oh10 fd g i = outLinF (X d) i
  l11 : ∀ (G : ℕ) (hG : G < 50) (off : Fin 2 → ℕ) (inb : ∀ a, off a + S32x128.size a ≤ S409600x128.size a)
      (_ : off = ![(planeOf G hG 1).val * 2048 + (1 : Fin 2).val * 1024 + (widL L).val * 32, 0])
      (fd : Buf (Elt F) (((oV).slice (Rect.unit (s := S409600x128) off S32x128.size inb) (fun _ => rfl)).view.loc (V d (cV L) (jV L))))
      (g : Buf (Elt F) ((oh11).view.loc (V d (cV L) (jV L)))) (_ : OhOk X d L G 1 1 g),
      ∀ i ∈ oSet (widL L) (planeOf G hG 1) 1,
        landO d L ((oV).slice (Rect.unit (s := S409600x128) off S32x128.size inb) (fun _ => rfl)) oh11 fd g i = outLinF (X d) i
  l20 : ∀ (G : ℕ) (hG : G < 50) (off : Fin 2 → ℕ) (inb : ∀ a, off a + S32x128.size a ≤ S409600x128.size a)
      (_ : off = ![(planeOf G hG 2).val * 2048 + (0 : Fin 2).val * 1024 + (widL L).val * 32, 0])
      (fd : Buf (Elt F) (((oV).slice (Rect.unit (s := S409600x128) off S32x128.size inb) (fun _ => rfl)).view.loc (V d (cV L) (jV L))))
      (g : Buf (Elt F) ((oh20).view.loc (V d (cV L) (jV L)))) (_ : OhOk X d L G 2 0 g),
      ∀ i ∈ oSet (widL L) (planeOf G hG 2) 0,
        landO d L ((oV).slice (Rect.unit (s := S409600x128) off S32x128.size inb) (fun _ => rfl)) oh20 fd g i = outLinF (X d) i
  l21 : ∀ (G : ℕ) (hG : G < 50) (off : Fin 2 → ℕ) (inb : ∀ a, off a + S32x128.size a ≤ S409600x128.size a)
      (_ : off = ![(planeOf G hG 2).val * 2048 + (1 : Fin 2).val * 1024 + (widL L).val * 32, 0])
      (fd : Buf (Elt F) (((oV).slice (Rect.unit (s := S409600x128) off S32x128.size inb) (fun _ => rfl)).view.loc (V d (cV L) (jV L))))
      (g : Buf (Elt F) ((oh21).view.loc (V d (cV L) (jV L)))) (_ : OhOk X d L G 2 1 g),
      ∀ i ∈ oSet (widL L) (planeOf G hG 2) 1,
        landO d L ((oV).slice (Rect.unit (s := S409600x128) off S32x128.size inb) (fun _ => rfl)) oh21 fd g i = outLinF (X d) i
  l30 : ∀ (G : ℕ) (hG : G < 50) (off : Fin 2 → ℕ) (inb : ∀ a, off a + S32x128.size a ≤ S409600x128.size a)
      (_ : off = ![(planeOf G hG 3).val * 2048 + (0 : Fin 2).val * 1024 + (widL L).val * 32, 0])
      (fd : Buf (Elt F) (((oV).slice (Rect.unit (s := S409600x128) off S32x128.size inb) (fun _ => rfl)).view.loc (V d (cV L) (jV L))))
      (g : Buf (Elt F) ((oh30).view.loc (V d (cV L) (jV L)))) (_ : OhOk X d L G 3 0 g),
      ∀ i ∈ oSet (widL L) (planeOf G hG 3) 0,
        landO d L ((oV).slice (Rect.unit (s := S409600x128) off S32x128.size inb) (fun _ => rfl)) oh30 fd g i = outLinF (X d) i
  l31 : ∀ (G : ℕ) (hG : G < 50) (off : Fin 2 → ℕ) (inb : ∀ a, off a + S32x128.size a ≤ S409600x128.size a)
      (_ : off = ![(planeOf G hG 3).val * 2048 + (1 : Fin 2).val * 1024 + (widL L).val * 32, 0])
      (fd : Buf (Elt F) (((oV).slice (Rect.unit (s := S409600x128) off S32x128.size inb) (fun _ => rfl)).view.loc (V d (cV L) (jV L))))
      (g : Buf (Elt F) ((oh31).view.loc (V d (cV L) (jV L)))) (_ : OhOk X d L G 3 1 g),
      ∀ i ∈ oSet (widL L) (planeOf G hG 3) 1,
        landO d L ((oV).slice (Rect.unit (s := S409600x128) off S32x128.size inb) (fun _ => rfl)) oh31 fd g i = outLinF (X d) i

end Cert.KernelIdeal.Hand

end
-- ==== Proof.TilePre.lean ====
/-
  Small facts the outer trip's proof cites: the printed conditions decided, the printed slices of o identified with
  the tile's slices, a landed copy out restated as the kernel's value, a fetch in flight restated.
-/
import proofs.«209186_g8847632630064_cont_9to1c4b_396_28_alg».proof.Proof.Common
import proofs.«209186_g8847632630064_cont_9to1c4b_396_28_alg».proof.Proof.TileBufs
import proofs.«209186_g8847632630064_cont_9to1c4b_396_28_alg».proof.Proof.TileSlices
import proofs.«209186_g8847632630064_cont_9to1c4b_396_28_alg».proof.Proof.TileInv

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop shareTokN)
open Idealize.ShloMosaic.Tactic

variable {F : FTy → Type}

local notation "𝕄" => MT nD τ sig (HIx 1) (Elt F) ℕ UU ℕ

variable [FloatOps F]
variable (X : (d : Dev nD) → Buf (Elt F) (x3Loc d))
variable (d : Dev nD) (L : grid0.Coords)

open Idealize.ShloMosaic.ValueIdx

/-! ## The printed conditions, decided -/
theorem cond1_pos : ∀ t : Fin k0_t1_loop.trips, 1 ≤ t.val → k0_cond1 t = 1#1 := by decide
theorem cond1_zero : ∀ t : Fin k0_t1_loop.trips, t.val = 0 → ¬ k0_cond1 t = 1#1 := by decide
theorem cond2_pos : ∀ t : Fin k0_t1_loop.trips, 1 ≤ t.val → k0_cond2 t = 1#1 := by decide
theorem cond2_zero : ∀ t : Fin k0_t1_loop.trips, t.val = 0 → ¬ k0_cond2 t = 1#1 := by decide
theorem cond3_pos : ∀ t : Fin k0_t1_loop.trips, 1 ≤ t.val → k0_cond3 t = 1#1 := by decide
theorem cond3_zero : ∀ t : Fin k0_t1_loop.trips, t.val = 0 → ¬ k0_cond3 t = 1#1 := by decide
theorem cond4_pos : ∀ t : Fin k0_t1_loop.trips, 1 ≤ t.val → k0_cond4 t = 1#1 := by decide
theorem cond4_zero : ∀ t : Fin k0_t1_loop.trips, t.val = 0 → ¬ k0_cond4 t = 1#1 := by decide
theorem cond6_all : ∀ t : Fin k0_t1_loop.trips, k0_cond6 t = 1#1 := by decide
theorem cond7_all : ∀ t : Fin k0_t1_loop.trips, k0_cond7 t = 1#1 := by decide
theorem cond8_all : ∀ t : Fin k0_t1_loop.trips, k0_cond8 t = 1#1 := by decide
theorem cond9_all : ∀ t : Fin k0_t1_loop.trips, k0_cond9 t = 1#1 := by decide
theorem cond5_lt : ∀ t : Fin k0_t1_loop.trips, t.val < 24 → k0_cond5 t = 1#1 := by decide
theorem cond5_last : ∀ t : Fin k0_t1_loop.trips, ¬ t.val < 24 → ¬ k0_cond5 t = 1#1 := by decide
theorem cond10_lt : ∀ t : Fin k0_t1_loop.trips, t.val < 24 → k0_cond10 t = 1#1 := by decide
theorem cond10_last : ∀ t : Fin k0_t1_loop.trips, ¬ t.val < 24 → ¬ k0_cond10 t = 1#1 := by decide

/-- A wait recorded at the index of the kernel's own transfers keeps the record of waits admissible. -/
theorem wok_insert {W W' : Waits sig (HIx 1)} {sm : SemLoc sig} (h : ∀ p ∈ W', p ∈ W ∨ p.2 = none) :
    ∀ p ∈ insert (sm, (none : HIx 1)) W', p ∈ W ∨ p.2 = none := by
  intro p hp
  rcases Finset.mem_insert.mp hp with rfl | hp
  · exact .inr rfl
  · exact h p hp

/-! ## The printed slices of o are the tile's slices -/
omit [FloatOps F] in
theorem pts_oA00 (t : Fin k0_t1_loop.trips) (f : Buf (Elt F) ((oA00 L t).view.loc (V d (cV L) (jV L)))) :
    ((oA00 L t).view.loc (V d (cV L) (jV L)) ↦[(oA00 L t).view.set]{fullShare} f : sProp 𝕄)
      = oLoc d ↦[oSet (widL L) (planeOf (2 * t.val) (even_group_lt t) 0) 0]{fullShare} f := by
  rw [show (oA00 L t).view.set = oSet (widL L) (planeOf (2 * t.val) (even_group_lt t) 0) 0 from set_oSlice (k0_off8_inb L t 0) (widL L) _ 0 (hoff8 L t 0)]
theorem done_oA00 (hO : LandO X d L) (t : Fin k0_t1_loop.trips) (f : Buf (Elt F) ((oA00 L t).view.loc (V d (cV L) (jV L))))
    (g : Buf (Elt F) ((oh00).view.loc (V d (cV L) (jV L)))) (hok : OhOk X d L (2 * t.val) 0 0 g) :
    ((oA00 L t).view.loc (V d (cV L) (jV L)) ↦[(oA00 L t).view.set]{fullShare} landO d L (oA00 L t) oh00 f g : sProp 𝕄)
      = oLoc d ↦[oSet (widL L) (planeOf (2 * t.val) (even_group_lt t) 0) 0]{fullShare} outLinF (X d) := by
  rw [show (oA00 L t).view.set = oSet (widL L) (planeOf (2 * t.val) (even_group_lt t) 0) 0 from set_oSlice (k0_off8_inb L t 0) (widL L) _ 0 (hoff8 L t 0)]
  exact pointsTo_congr (hO.l00 (2 * t.val) (even_group_lt t) _ (k0_off8_inb L t 0) (hoff8 L t 0) f g hok)
omit [FloatOps F] in
theorem pts_oB00 (t : Fin k0_t1_loop.trips) (f : Buf (Elt F) ((oB00 L t).view.loc (V d (cV L) (jV L)))) :
    ((oB00 L t).view.loc (V d (cV L) (jV L)) ↦[(oB00 L t).view.set]{fullShare} f : sProp 𝕄)
      = oLoc d ↦[oSet (widL L) (planeOf (2 * t.val + 1) (odd_group_lt t) 0) 0]{fullShare} f := by
  rw [show (oB00 L t).view.set = oSet (widL L) (planeOf (2 * t.val + 1) (odd_group_lt t) 0) 0 from set_oSlice (k0_off28_inb L t 0) (widL L) _ 0 (hoff28 L t 0)]
theorem done_oB00 (hO : LandO X d L) (t : Fin k0_t1_loop.trips) (f : Buf (Elt F) ((oB00 L t).view.loc (V d (cV L) (jV L))))
    (g : Buf (Elt F) ((oh00).view.loc (V d (cV L) (jV L)))) (hok : OhOk X d L (2 * t.val + 1) 0 0 g) :
    ((oB00 L t).view.loc (V d (cV L) (jV L)) ↦[(oB00 L t).view.set]{fullShare} landO d L (oB00 L t) oh00 f g : sProp 𝕄)
      = oLoc d ↦[oSet (widL L) (planeOf (2 * t.val + 1) (odd_group_lt t) 0) 0]{fullShare} outLinF (X d) := by
  rw [show (oB00 L t).view.set = oSet (widL L) (planeOf (2 * t.val + 1) (odd_group_lt t) 0) 0 from set_oSlice (k0_off28_inb L t 0) (widL L) _ 0 (hoff28 L t 0)]
  exact pointsTo_congr (hO.l00 (2 * t.val + 1) (odd_group_lt t) _ (k0_off28_inb L t 0) (hoff28 L t 0) f g hok)
omit [FloatOps F] in
theorem pts_oA01 (t : Fin k0_t1_loop.trips) (f : Buf (Elt F) ((oA01 L t).view.loc (V d (cV L) (jV L)))) :
    ((oA01 L t).view.loc (V d (cV L) (jV L)) ↦[(oA01 L t).view.set]{fullShare} f : sProp 𝕄)
      = oLoc d ↦[oSet (widL L) (planeOf (2 * t.val) (even_group_lt t) 0) 1]{fullShare} f := by
  rw [show (oA01 L t).view.set = oSet (widL L) (planeOf (2 * t.val) (even_group_lt t) 0) 1 from set_oSlice (k0_off9_inb L t 0) (widL L) _ 1 (hoff9 L t 0)]
theorem done_oA01 (hO : LandO X d L) (t : Fin k0_t1_loop.trips) (f : Buf (Elt F) ((oA01 L t).view.loc (V d (cV L) (jV L))))
    (g : Buf (Elt F) ((oh01).view.loc (V d (cV L) (jV L)))) (hok : OhOk X d L (2 * t.val) 0 1 g) :
    ((oA01 L t).view.loc (V d (cV L) (jV L)) ↦[(oA01 L t).view.set]{fullShare} landO d L (oA01 L t) oh01 f g : sProp 𝕄)
      = oLoc d ↦[oSet (widL L) (planeOf (2 * t.val) (even_group_lt t) 0) 1]{fullShare} outLinF (X d) := by
  rw [show (oA01 L t).view.set = oSet (widL L) (planeOf (2 * t.val) (even_group_lt t) 0) 1 from set_oSlice (k0_off9_inb L t 0) (widL L) _ 1 (hoff9 L t 0)]
  exact pointsTo_congr (hO.l01 (2 * t.val) (even_group_lt t) _ (k0_off9_inb L t 0) (hoff9 L t 0) f g hok)
omit [FloatOps F] in
theorem pts_oB01 (t : Fin k0_t1_loop.trips) (f : Buf (Elt F) ((oB01 L t).view.loc (V d (cV L) (jV L)))) :
    ((oB01 L t).view.loc (V d (cV L) (jV L)) ↦[(oB01 L t).view.set]{fullShare} f : sProp 𝕄)
      = oLoc d ↦[oSet (widL L) (planeOf (2 * t.val + 1) (odd_group_lt t) 0) 1]{fullShare} f := by
  rw [show (oB01 L t).view.set = oSet (widL L) (planeOf (2 * t.val + 1) (odd_group_lt t) 0) 1 from set_oSlice (k0_off29_inb L t 0) (widL L) _ 1 (hoff29 L t 0)]
theorem done_oB01 (hO : LandO X d L) (t : Fin k0_t1_loop.trips) (f : Buf (Elt F) ((oB01 L t).view.loc (V d (cV L) (jV L))))
    (g : Buf (Elt F) ((oh01).view.loc (V d (cV L) (jV L)))) (hok : OhOk X d L (2 * t.val + 1) 0 1 g) :
    ((oB01 L t).view.loc (V d (cV L) (jV L)) ↦[(oB01 L t).view.set]{fullShare} landO d L (oB01 L t) oh01 f g : sProp 𝕄)
      = oLoc d ↦[oSet (widL L) (planeOf (2 * t.val + 1) (odd_group_lt t) 0) 1]{fullShare} outLinF (X d) := by
  rw [show (oB01 L t).view.set = oSet (widL L) (planeOf (2 * t.val + 1) (odd_group_lt t) 0) 1 from set_oSlice (k0_off29_inb L t 0) (widL L) _ 1 (hoff29 L t 0)]
  exact pointsTo_congr (hO.l01 (2 * t.val + 1) (odd_group_lt t) _ (k0_off29_inb L t 0) (hoff29 L t 0) f g hok)
omit [FloatOps F] in
theorem pts_oA10 (t : Fin k0_t1_loop.trips) (f : Buf (Elt F) ((oA10 L t).view.loc (V d (cV L) (jV L)))) :
    ((oA10 L t).view.loc (V d (cV L) (jV L)) ↦[(oA10 L t).view.set]{fullShare} f : sProp 𝕄)
      = oLoc d ↦[oSet (widL L) (planeOf (2 * t.val) (even_group_lt t) 1) 0]{fullShare} f := by
  rw [show (oA10 L t).view.set = oSet (widL L) (planeOf (2 * t.val) (even_group_lt t) 1) 0 from set_oSlice (k0_off8_inb L t 1) (widL L) _ 0 (hoff8 L t 1)]
theorem done_oA10 (hO : LandO X d L) (t : Fin k0_t1_loop.trips) (f : Buf (Elt F) ((oA10 L t).view.loc (V d (cV L) (jV L))))
    (g : Buf (Elt F) ((oh10).view.loc (V d (cV L) (jV L)))) (hok : OhOk X d L (2 * t.val) 1 0 g) :
    ((oA10 L t).view.loc (V d (cV L) (jV L)) ↦[(oA10 L t).view.set]{fullShare} landO d L (oA10 L t) oh10 f g : sProp 𝕄)
      = oLoc d ↦[oSet (widL L) (planeOf (2 * t.val) (even_group_lt t) 1) 0]{fullShare} outLinF (X d) := by
  rw [show (oA10 L t).view.set = oSet (widL L) (planeOf (2 * t.val) (even_group_lt t) 1) 0 from set_oSlice (k0_off8_inb L t 1) (widL L) _ 0 (hoff8 L t 1)]
  exact pointsTo_congr (hO.l10 (2 * t.val) (even_group_lt t) _ (k0_off8_inb L t 1) (hoff8 L t 1) f g hok)
omit [FloatOps F] in
theorem pts_oB10 (t : Fin k0_t1_loop.trips) (f : Buf (Elt F) ((oB10 L t).view.loc (V d (cV L) (jV L)))) :
    ((oB10 L t).view.loc (V d (cV L) (jV L)) ↦[(oB10 L t).view.set]{fullShare} f : sProp 𝕄)
      = oLoc d ↦[oSet (widL L) (planeOf (2 * t.val + 1) (odd_group_lt t) 1) 0]{fullShare} f := by
  rw [show (oB10 L t).view.set = oSet (widL L) (planeOf (2 * t.val + 1) (odd_group_lt t) 1) 0 from set_oSlice (k0_off28_inb L t 1) (widL L) _ 0 (hoff28 L t 1)]
theorem done_oB10 (hO : LandO X d L) (t : Fin k0_t1_loop.trips) (f : Buf (Elt F) ((oB10 L t).view.loc (V d (cV L) (jV L))))
    (g : Buf (Elt F) ((oh10).view.loc (V d (cV L) (jV L)))) (hok : OhOk X d L (2 * t.val + 1) 1 0 g) :
    ((oB10 L t).view.loc (V d (cV L) (jV L)) ↦[(oB10 L t).view.set]{fullShare} landO d L (oB10 L t) oh10 f g : sProp 𝕄)
      = oLoc d ↦[oSet (widL L) (planeOf (2 * t.val + 1) (odd_group_lt t) 1) 0]{fullShare} outLinF (X d) := by
  rw [show (oB10 L t).view.set = oSet (widL L) (planeOf (2 * t.val + 1) (odd_group_lt t) 1) 0 from set_oSlice (k0_off28_inb L t 1) (widL L) _ 0 (hoff28 L t 1)]
  exact pointsTo_congr (hO.l10 (2 * t.val + 1) (odd_group_lt t) _ (k0_off28_inb L t 1) (hoff28 L t 1) f g hok)
omit [FloatOps F] in
theorem pts_oA11 (t : Fin k0_t1_loop.trips) (f : Buf (Elt F) ((oA11 L t).view.loc (V d (cV L) (jV L)))) :
    ((oA11 L t).view.loc (V d (cV L) (jV L)) ↦[(oA11 L t).view.set]{fullShare} f : sProp 𝕄)
      = oLoc d ↦[oSet (widL L) (planeOf (2 * t.val) (even_group_lt t) 1) 1]{fullShare} f := by
  rw [show (oA11 L t).view.set = oSet (widL L) (planeOf (2 * t.val) (even_group_lt t) 1) 1 from set_oSlice (k0_off9_inb L t 1) (widL L) _ 1 (hoff9 L t 1)]
theorem done_oA11 (hO : LandO X d L) (t : Fin k0_t1_loop.trips) (f : Buf (Elt F) ((oA11 L t).view.loc (V d (cV L) (jV L))))
    (g : Buf (Elt F) ((oh11).view.loc (V d (cV L) (jV L)))) (hok : OhOk X d L (2 * t.val) 1 1 g) :
    ((oA11 L t).view.loc (V d (cV L) (jV L)) ↦[(oA11 L t).view.set]{fullShare} landO d L (oA11 L t) oh11 f g : sProp 𝕄)
      = oLoc d ↦[oSet (widL L) (planeOf (2 * t.val) (even_group_lt t) 1) 1]{fullShare} outLinF (X d) := by
  rw [show (oA11 L t).view.set = oSet (widL L) (planeOf (2 * t.val) (even_group_lt t) 1) 1 from set_oSlice (k0_off9_inb L t 1) (widL L) _ 1 (hoff9 L t 1)]
  exact pointsTo_congr (hO.l11 (2 * t.val) (even_group_lt t) _ (k0_off9_inb L t 1) (hoff9 L t 1) f g hok)
omit [FloatOps F] in
theorem pts_oB11 (t : Fin k0_t1_loop.trips) (f : Buf (Elt F) ((oB11 L t).view.loc (V d (cV L) (jV L)))) :
    ((oB11 L t).view.loc (V d (cV L) (jV L)) ↦[(oB11 L t).view.set]{fullShare} f : sProp 𝕄)
      = oLoc d ↦[oSet (widL L) (planeOf (2 * t.val + 1) (odd_group_lt t) 1) 1]{fullShare} f := by
  rw [show (oB11 L t).view.set = oSet (widL L) (planeOf (2 * t.val + 1) (odd_group_lt t) 1) 1 from set_oSlice (k0_off29_inb L t 1) (widL L) _ 1 (hoff29 L t 1)]
theorem done_oB11 (hO : LandO X d L) (t : Fin k0_t1_loop.trips) (f : Buf (Elt F) ((oB11 L t).view.loc (V d (cV L) (jV L))))
    (g : Buf (Elt F) ((oh11).view.loc (V d (cV L) (jV L)))) (hok : OhOk X d L (2 * t.val + 1) 1 1 g) :
    ((oB11 L t).view.loc (V d (cV L) (jV L)) ↦[(oB11 L t).view.set]{fullShare} landO d L (oB11 L t) oh11 f g : sProp 𝕄)
      = oLoc d ↦[oSet (widL L) (planeOf (2 * t.val + 1) (odd_group_lt t) 1) 1]{fullShare} outLinF (X d) := by
  rw [show (oB11 L t).view.set = oSet (widL L) (planeOf (2 * t.val + 1) (odd_group_lt t) 1) 1 from set_oSlice (k0_off29_inb L t 1) (widL L) _ 1 (hoff29 L t 1)]
  exact pointsTo_congr (hO.l11 (2 * t.val + 1) (odd_group_lt t) _ (k0_off29_inb L t 1) (hoff29 L t 1) f g hok)
omit [FloatOps F] in
theorem pts_oA20 (t : Fin k0_t1_loop.trips) (f : Buf (Elt F) ((oA20 L t).view.loc (V d (cV L) (jV L)))) :
    ((oA20 L t).view.loc (V d (cV L) (jV L)) ↦[(oA20 L t).view.set]{fullShare} f : sProp 𝕄)
      = oLoc d ↦[oSet (widL L) (planeOf (2 * t.val) (even_group_lt t) 2) 0]{fullShare} f := by
  rw [show (oA20 L t).view.set = oSet (widL L) (planeOf (2 * t.val) (even_group_lt t) 2) 0 from set_oSlice (k0_off8_inb L t 2) (widL L) _ 0 (hoff8 L t 2)]
theorem done_oA20 (hO : LandO X d L) (t : Fin k0_t1_loop.trips) (f : Buf (Elt F) ((oA20 L t).view.loc (V d (cV L) (jV L))))
    (g : Buf (Elt F) ((oh20).view.loc (V d (cV L) (jV L)))) (hok : OhOk X d L (2 * t.val) 2 0 g) :
    ((oA20 L t).view.loc (V d (cV L) (jV L)) ↦[(oA20 L t).view.set]{fullShare} landO d L (oA20 L t) oh20 f g : sProp 𝕄)
      = oLoc d ↦[oSet (widL L) (planeOf (2 * t.val) (even_group_lt t) 2) 0]{fullShare} outLinF (X d) := by
  rw [show (oA20 L t).view.set = oSet (widL L) (planeOf (2 * t.val) (even_group_lt t) 2) 0 from set_oSlice (k0_off8_inb L t 2) (widL L) _ 0 (hoff8 L t 2)]
  exact pointsTo_congr (hO.l20 (2 * t.val) (even_group_lt t) _ (k0_off8_inb L t 2) (hoff8 L t 2) f g hok)
omit [FloatOps F] in
theorem pts_oB20 (t : Fin k0_t1_loop.trips) (f : Buf (Elt F) ((oB20 L t).view.loc (V d (cV L) (jV L)))) :
    ((oB20 L t).view.loc (V d (cV L) (jV L)) ↦[(oB20 L t).view.set]{fullShare} f : sProp 𝕄)
      = oLoc d ↦[oSet (widL L) (planeOf (2 * t.val + 1) (odd_group_lt t) 2) 0]{fullShare} f := by
  rw [show (oB20 L t).view.set = oSet (widL L) (planeOf (2 * t.val + 1) (odd_group_lt t) 2) 0 from set_oSlice (k0_off28_inb L t 2) (widL L) _ 0 (hoff28 L t 2)]
theorem done_oB20 (hO : LandO X d L) (t : Fin k0_t1_loop.trips) (f : Buf (Elt F) ((oB20 L t).view.loc (V d (cV L) (jV L))))
    (g : Buf (Elt F) ((oh20).view.loc (V d (cV L) (jV L)))) (hok : OhOk X d L (2 * t.val + 1) 2 0 g) :
    ((oB20 L t).view.loc (V d (cV L) (jV L)) ↦[(oB20 L t).view.set]{fullShare} landO d L (oB20 L t) oh20 f g : sProp 𝕄)
      = oLoc d ↦[oSet (widL L) (planeOf (2 * t.val + 1) (odd_group_lt t) 2) 0]{fullShare} outLinF (X d) := by
  rw [show (oB20 L t).view.set = oSet (widL L) (planeOf (2 * t.val + 1) (odd_group_lt t) 2) 0 from set_oSlice (k0_off28_inb L t 2) (widL L) _ 0 (hoff28 L t 2)]
  exact pointsTo_congr (hO.l20 (2 * t.val + 1) (odd_group_lt t) _ (k0_off28_inb L t 2) (hoff28 L t 2) f g hok)
omit [FloatOps F] in
theorem pts_oA21 (t : Fin k0_t1_loop.trips) (f : Buf (Elt F) ((oA21 L t).view.loc (V d (cV L) (jV L)))) :
    ((oA21 L t).view.loc (V d (cV L) (jV L)) ↦[(oA21 L t).view.set]{fullShare} f : sProp 𝕄)
      = oLoc d ↦[oSet (widL L) (planeOf (2 * t.val) (even_group_lt t) 2) 1]{fullShare} f := by
  rw [show (oA21 L t).view.set = oSet (widL L) (planeOf (2 * t.val) (even_group_lt t) 2) 1 from set_oSlice (k0_off9_inb L t 2) (widL L) _ 1 (hoff9 L t 2)]
theorem done_oA21 (hO : LandO X d L) (t : Fin k0_t1_loop.trips) (f : Buf (Elt F) ((oA21 L t).view.loc (V d (cV L) (jV L))))
    (g : Buf (Elt F) ((oh21).view.loc (V d (cV L) (jV L)))) (hok : OhOk X d L (2 * t.val) 2 1 g) :
    ((oA21 L t).view.loc (V d (cV L) (jV L)) ↦[(oA21 L t).view.set]{fullShare} landO d L (oA21 L t) oh21 f g : sProp 𝕄)
      = oLoc d ↦[oSet (widL L) (planeOf (2 * t.val) (even_group_lt t) 2) 1]{fullShare} outLinF (X d) := by
  rw [show (oA21 L t).view.set = oSet (widL L) (planeOf (2 * t.val) (even_group_lt t) 2) 1 from set_oSlice (k0_off9_inb L t 2) (widL L) _ 1 (hoff9 L t 2)]
  exact pointsTo_congr (hO.l21 (2 * t.val) (even_group_lt t) _ (k0_off9_inb L t 2) (hoff9 L t 2) f g hok)
omit [FloatOps F] in
theorem pts_oB21 (t : Fin k0_t1_loop.trips) (f : Buf (Elt F) ((oB21 L t).view.loc (V d (cV L) (jV L)))) :
    ((oB21 L t).view.loc (V d (cV L) (jV L)) ↦[(oB21 L t).view.set]{fullShare} f : sProp 𝕄)
      = oLoc d ↦[oSet (widL L) (planeOf (2 * t.val + 1) (odd_group_lt t) 2) 1]{fullShare} f := by
  rw [show (oB21 L t).view.set = oSet (widL L) (planeOf (2 * t.val + 1) (odd_group_lt t) 2) 1 from set_oSlice (k0_off29_inb L t 2) (widL L) _ 1 (hoff29 L t 2)]
theorem done_oB21 (hO : LandO X d L) (t : Fin k0_t1_loop.trips) (f : Buf (Elt F) ((oB21 L t).view.loc (V d (cV L) (jV L))))
    (g : Buf (Elt F) ((oh21).view.loc (V d (cV L) (jV L)))) (hok : OhOk X d L (2 * t.val + 1) 2 1 g) :
    ((oB21 L t).view.loc (V d (cV L) (jV L)) ↦[(oB21 L t).view.set]{fullShare} landO d L (oB21 L t) oh21 f g : sProp 𝕄)
      = oLoc d ↦[oSet (widL L) (planeOf (2 * t.val + 1) (odd_group_lt t) 2) 1]{fullShare} outLinF (X d) := by
  rw [show (oB21 L t).view.set = oSet (widL L) (planeOf (2 * t.val + 1) (odd_group_lt t) 2) 1 from set_oSlice (k0_off29_inb L t 2) (widL L) _ 1 (hoff29 L t 2)]
  exact pointsTo_congr (hO.l21 (2 * t.val + 1) (odd_group_lt t) _ (k0_off29_inb L t 2) (hoff29 L t 2) f g hok)
omit [FloatOps F] in
theorem pts_oA30 (t : Fin k0_t1_loop.trips) (f : Buf (Elt F) ((oA30 L t).view.loc (V d (cV L) (jV L)))) :
    ((oA30 L t).view.loc (V d (cV L) (jV L)) ↦[(oA30 L t).view.set]{fullShare} f : sProp 𝕄)
      = oLoc d ↦[oSet (widL L) (planeOf (2 * t.val) (even_group_lt t) 3) 0]{fullShare} f := by
  rw [show (oA30 L t).view.set = oSet (widL L) (planeOf (2 * t.val) (even_group_lt t) 3) 0 from set_oSlice (k0_off8_inb L t 3) (widL L) _ 0 (hoff8 L t 3)]
theorem done_oA30 (hO : LandO X d L) (t : Fin k0_t1_loop.trips) (f : Buf (Elt F) ((oA30 L t).view.loc (V d (cV L) (jV L))))
    (g : Buf (Elt F) ((oh30).view.loc (V d (cV L) (jV L)))) (hok : OhOk X d L (2 * t.val) 3 0 g) :
    ((oA30 L t).view.loc (V d (cV L) (jV L)) ↦[(oA30 L t).view.set]{fullShare} landO d L (oA30 L t) oh30 f g : sProp 𝕄)
      = oLoc d ↦[oSet (widL L) (planeOf (2 * t.val) (even_group_lt t) 3) 0]{fullShare} outLinF (X d) := by
  rw [show (oA30 L t).view.set = oSet (widL L) (planeOf (2 * t.val) (even_group_lt t) 3) 0 from set_oSlice (k0_off8_inb L t 3) (widL L) _ 0 (hoff8 L t 3)]
  exact pointsTo_congr (hO.l30 (2 * t.val) (even_group_lt t) _ (k0_off8_inb L t 3) (hoff8 L t 3) f g hok)
omit [FloatOps F] in
theorem pts_oB30 (t : Fin k0_t1_loop.trips) (f : Buf (Elt F) ((oB30 L t).view.loc (V d (cV L) (jV L)))) :
    ((oB30 L t).view.loc (V d (cV L) (jV L)) ↦[(oB30 L t).view.set]{fullShare} f : sProp 𝕄)
      = oLoc d ↦[oSet (widL L) (planeOf (2 * t.val + 1) (odd_group_lt t) 3) 0]{fullShare} f := by
  rw [show (oB30 L t).view.set = oSet (widL L) (planeOf (2 * t.val + 1) (odd_group_lt t) 3) 0 from set_oSlice (k0_off28_inb L t 3) (widL L) _ 0 (hoff28 L t 3)]
theorem done_oB30 (hO : LandO X d L) (t : Fin k0_t1_loop.trips) (f : Buf (Elt F) ((oB30 L t).view.loc (V d (cV L) (jV L))))
    (g : Buf (Elt F) ((oh30).view.loc (V d (cV L) (jV L)))) (hok : OhOk X d L (2 * t.val + 1) 3 0 g) :
    ((oB30 L t).view.loc (V d (cV L) (jV L)) ↦[(oB30 L t).view.set]{fullShare} landO d L (oB30 L t) oh30 f g : sProp 𝕄)
      = oLoc d ↦[oSet (widL L) (planeOf (2 * t.val + 1) (odd_group_lt t) 3) 0]{fullShare} outLinF (X d) := by
  rw [show (oB30 L t).view.set = oSet (widL L) (planeOf (2 * t.val + 1) (odd_group_lt t) 3) 0 from set_oSlice (k0_off28_inb L t 3) (widL L) _ 0 (hoff28 L t 3)]
  exact pointsTo_congr (hO.l30 (2 * t.val + 1) (odd_group_lt t) _ (k0_off28_inb L t 3) (hoff28 L t 3) f g hok)
omit [FloatOps F] in
theorem pts_oA31 (t : Fin k0_t1_loop.trips) (f : Buf (Elt F) ((oA31 L t).view.loc (V d (cV L) (jV L)))) :
    ((oA31 L t).view.loc (V d (cV L) (jV L)) ↦[(oA31 L t).view.set]{fullShare} f : sProp 𝕄)
      = oLoc d ↦[oSet (widL L) (planeOf (2 * t.val) (even_group_lt t) 3) 1]{fullShare} f := by
  rw [show (oA31 L t).view.set = oSet (widL L) (planeOf (2 * t.val) (even_group_lt t) 3) 1 from set_oSlice (k0_off9_inb L t 3) (widL L) _ 1 (hoff9 L t 3)]
theorem done_oA31 (hO : LandO X d L) (t : Fin k0_t1_loop.trips) (f : Buf (Elt F) ((oA31 L t).view.loc (V d (cV L) (jV L))))
    (g : Buf (Elt F) ((oh31).view.loc (V d (cV L) (jV L)))) (hok : OhOk X d L (2 * t.val) 3 1 g) :
    ((oA31 L t).view.loc (V d (cV L) (jV L)) ↦[(oA31 L t).view.set]{fullShare} landO d L (oA31 L t) oh31 f g : sProp 𝕄)
      = oLoc d ↦[oSet (widL L) (planeOf (2 * t.val) (even_group_lt t) 3) 1]{fullShare} outLinF (X d) := by
  rw [show (oA31 L t).view.set = oSet (widL L) (planeOf (2 * t.val) (even_group_lt t) 3) 1 from set_oSlice (k0_off9_inb L t 3) (widL L) _ 1 (hoff9 L t 3)]
  exact pointsTo_congr (hO.l31 (2 * t.val) (even_group_lt t) _ (k0_off9_inb L t 3) (hoff9 L t 3) f g hok)
omit [FloatOps F] in
theorem pts_oB31 (t : Fin k0_t1_loop.trips) (f : Buf (Elt F) ((oB31 L t).view.loc (V d (cV L) (jV L)))) :
    ((oB31 L t).view.loc (V d (cV L) (jV L)) ↦[(oB31 L t).view.set]{fullShare} f : sProp 𝕄)
      = oLoc d ↦[oSet (widL L) (planeOf (2 * t.val + 1) (odd_group_lt t) 3) 1]{fullShare} f := by
  rw [show (oB31 L t).view.set = oSet (widL L) (planeOf (2 * t.val + 1) (odd_group_lt t) 3) 1 from set_oSlice (k0_off29_inb L t 3) (widL L) _ 1 (hoff29 L t 3)]
theorem done_oB31 (hO : LandO X d L) (t : Fin k0_t1_loop.trips) (f : Buf (Elt F) ((oB31 L t).view.loc (V d (cV L) (jV L))))
    (g : Buf (Elt F) ((oh31).view.loc (V d (cV L) (jV L)))) (hok : OhOk X d L (2 * t.val + 1) 3 1 g) :
    ((oB31 L t).view.loc (V d (cV L) (jV L)) ↦[(oB31 L t).view.set]{fullShare} landO d L (oB31 L t) oh31 f g : sProp 𝕄)
      = oLoc d ↦[oSet (widL L) (planeOf (2 * t.val + 1) (odd_group_lt t) 3) 1]{fullShare} outLinF (X d) := by
  rw [show (oB31 L t).view.set = oSet (widL L) (planeOf (2 * t.val + 1) (odd_group_lt t) 3) 1 from set_oSlice (k0_off29_inb L t 3) (widL L) _ 1 (hoff29 L t 3)]
  exact pointsTo_congr (hO.l31 (2 * t.val + 1) (odd_group_lt t) _ (k0_off29_inb L t 3) (hoff29 L t 3) f g hok)

/-! ## A fetch in flight, its delivery restated -/

theorem flight_ok0 {N : ℕ} {sm : SemLoc sig} {ι : HIx 1} (G : ℕ) (g : Buf (Elt F) ((xs0).view.loc (V d (cV L) (jV L)))) (hg : XsOk X d L G 0 g) (Ds : sProp 𝕄) :
    Transfers.Flight (countersEmb (U := UU)) (V d (cV L) (jV L)) sm ι N iprop(((xs0).view.loc (V d (cV L) (jV L)) ↦[(xs0).view.set]{fullShare} g) ∗ Ds)
      ⊢ Transfers.Flight (countersEmb (U := UU)) (V d (cV L) (jV L)) sm ι N
          iprop((∃ g, ((xs0).view.loc (V d (cV L) (jV L)) ↦[(xs0).view.set]{fullShare} g) ∗ ⌜XsOk X d L G 0 g⌝) ∗ Ds) :=
  Transfers.Flight_mono (countersEmb (U := UU)) (V d (cV L) (jV L)) (by
    iintro ⟨Hd, Hs⟩
    isplitl [Hd]
    · iexists g; isplitl [Hd]; · iexact Hd
      ipureintro; exact hg
    · iexact Hs)

theorem flight_ok1 {N : ℕ} {sm : SemLoc sig} {ι : HIx 1} (G : ℕ) (g : Buf (Elt F) ((xs1).view.loc (V d (cV L) (jV L)))) (hg : XsOk X d L G 1 g) (Ds : sProp 𝕄) :
    Transfers.Flight (countersEmb (U := UU)) (V d (cV L) (jV L)) sm ι N iprop(((xs1).view.loc (V d (cV L) (jV L)) ↦[(xs1).view.set]{fullShare} g) ∗ Ds)
      ⊢ Transfers.Flight (countersEmb (U := UU)) (V d (cV L) (jV L)) sm ι N
          iprop((∃ g, ((xs1).view.loc (V d (cV L) (jV L)) ↦[(xs1).view.set]{fullShare} g) ∗ ⌜XsOk X d L G 1 g⌝) ∗ Ds) :=
  Transfers.Flight_mono (countersEmb (U := UU)) (V d (cV L) (jV L)) (by
    iintro ⟨Hd, Hs⟩
    isplitl [Hd]
    · iexists g; isplitl [Hd]; · iexact Hd
      ipureintro; exact hg
    · iexact Hs)

end Cert.KernelIdeal.Hand

end
-- ==== Proof.TileOffs.lean ====
/-
  The printed offsets of the slices of the operand a tile fetches, as the group of four planes and the tile's four rows
  they are: every fetch reads planes `4 g ..`, rows `4 w ..` of the operand, for a group `g` the offset names.
-/
import proofs.«209186_g8847632630064_cont_9to1c4b_396_28_alg».proof.Proof.Common

noncomputable section

namespace Cert.KernelIdeal.Hand

open Cert.KernelIdeal Cert.KernelIdeal.Gen

open Idealize.ShloMosaic

/-- An offset triple is determined by its plane and its row. -/
theorem off3_ext {a a' b b' : ℕ} (ha : a = a') (hb : b = b') : (![a, b, 0] : Fin 3 → ℕ) = ![a', b', 0] := by rw [ha, hb]

/-- The tile's first row of the operand: `8 s + 4 c` is `4 w`. -/
theorem row_eq (L : grid0.Coords) : 8 * (L 1).val + 4 * (L 0).val = 4 * (widL L).val := by rw [widL_val]; omega

/-- The first fetch before the loop: group 0. -/
theorem hoffx1 (L : grid0.Coords) : k0_off1 L = ![4 * 0, 4 * (widL L).val, 0] := by
  rw [k0_off1_eq]; exact off3_ext rfl (row_eq L)

/-- The second fetch before the loop: group 1. -/
theorem hoffx2 (L : grid0.Coords) : k0_off2 L = ![4 * 1, 4 * (widL L).val, 0] := by
  rw [k0_off2_eq]; exact off3_ext rfl (row_eq L)

/-- The descriptor iteration `t` waits on for its first group: group `2 t`. -/
theorem hoffx3 (L : grid0.Coords) (t : Fin k0_t1_loop.trips) : k0_off3 L t = ![4 * (2 * t.val), 4 * (widL L).val, 0] := by
  rw [k0_off3_eq]; exact off3_ext (by omega) (row_eq L)

/-- Iteration `t`'s fetch into the first slot: group `2 t + 2`. -/
theorem hoffx22 (L : grid0.Coords) (t : Fin k0_t1_loop.trips) : k0_off22 L t = ![4 * (2 * t.val + 2), 4 * (widL L).val, 0] := by
  rw [k0_off22_eq]; exact off3_ext (by omega) (row_eq L)

/-- The descriptor iteration `t` waits on for its second group: group `2 t + 1`. -/
theorem hoffx23 (L : grid0.Coords) (t : Fin k0_t1_loop.trips) : k0_off23 L t = ![4 * (2 * t.val + 1), 4 * (widL L).val, 0] := by
  rw [k0_off23_eq]; exact off3_ext (by omega) (row_eq L)

/-- Iteration `t`'s fetch into the second slot: group `2 t + 3`. -/
theorem hoffx42 (L : grid0.Coords) (t : Fin k0_t1_loop.trips) : k0_off42 L t = ![4 * (2 * t.val + 3), 4 * (widL L).val, 0] := by
  rw [k0_off42_eq]; exact off3_ext (by omega) (row_eq L)

end Cert.KernelIdeal.Hand

end
-- ==== Proof.TileFold.lean ====
/-
  The tile's resources unfolded at its task's entry and folded back at its exit: what the launch hands a tile — its
  read share of the operand, its slices of the result, its own scratch and semaphores — laid out as the loop's
  invariant wants them (the share cut into a remainder and two read tokens, the scratch cut into slots and half planes,
  the six semaphores the kernel uses taken out), and the same put back together once every slice is done.
-/
import proofs.«209186_g8847632630064_cont_9to1c4b_396_28_alg».proof.Proof.TileInv

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop shareTokN)
open Idealize.ShloMosaic.Tactic

variable {F : FTy → Type}

local notation "𝕄" => MT nD τ sig (HIx 1) (Elt F) ℕ UU ℕ

variable [FloatOps F]
variable (X : (d : Dev nD) → Buf (Elt F) (x3Loc d))
variable (d : Dev nD) (L : grid0.Coords)

/-! ## The read share of the operand: a remainder and two read tokens -/

omit [FloatOps F] in
theorem x3_share_split :
    (x3Loc d ↦{qT L} X d : sProp 𝕄)
      ⊢ iprop((x3Loc d ↦{(qT L).left.left} X d) ∗ (x3Loc d ↦{shareTokN (qT L) 0} X d) ∗ (x3Loc d ↦{shareTokN (qT L) 1} X d)) := by
  refine (pointsTo_share (PosShare.mem_left_op_right (qT L))).1.trans ?_
  refine (sep_mono_left (pointsTo_share (PosShare.mem_left_op_right (qT L).left)).1).trans ?_
  iintro ⟨⟨Hll, Hlr⟩, Hr⟩
  isplitl [Hll]; · iexact Hll
  isplitl [Hr]; · iexact Hr
  iexact Hlr

omit [FloatOps F] in
theorem x3_share_join :
    iprop((x3Loc d ↦{(qT L).left.left} X d) ∗ (x3Loc d ↦{shareTokN (qT L) 0} X d) ∗ (x3Loc d ↦{shareTokN (qT L) 1} X d))
      ⊢ (x3Loc d ↦{qT L} X d : sProp 𝕄) := by
  refine BIBase.Entails.trans ?_ (pointsTo_share (PosShare.mem_left_op_right (qT L))).2
  refine BIBase.Entails.trans ?_ (sep_mono_left (pointsTo_share (PosShare.mem_left_op_right (qT L).left)).2)
  iintro ⟨Hll, Hr, Hlr⟩
  isplitl [Hll Hlr]
  · isplitl [Hll]; · iexact Hll
    iexact Hlr
  iexact Hr

/-! ## Joining pieces of one buffer held at their own contents -/

omit [FloatOps F] in
/-- Two disjoint pieces of a buffer, each at some contents, are their union at some contents. -/
theorem ex_join {ℓ : Loc nD τ sig} {I J : Finset (Idx ℓ)} (h : Disjoint I J) :
    iprop((∃ f, ℓ ↦[I]{fullShare} f) ∗ (∃ g, ℓ ↦[J]{fullShare} g)) ⊢ (iprop(∃ f, ℓ ↦[I ∪ J]{fullShare} f) : sProp 𝕄) := by
  iintro ⟨⟨%f, Hf⟩, ⟨%g, Hg⟩⟩
  iexists (J.piecewise g f)
  iapply (pointsTo_join h)
  isplitl [Hf]; · iexact Hf
  iexact Hg

omit [FloatOps F] in
/-- The two slots, each at some contents, are the input scratch whole at some contents. -/
theorem xv_join_ex :
    iprop((∃ g, (xs0).view.loc (V d (cV L) (jV L)) ↦[(xs0).view.set]{fullShare} g) ∗ (∃ g, (xs1).view.loc (V d (cV L) (jV L)) ↦[(xs1).view.set]{fullShare} g))
      ⊢ (iprop(∃ f, (V d (cV L) (jV L)).loc cc0_scratch0 ↦{fullShare} f) : sProp 𝕄) := by
  rw [set_xs0, set_xs1]
  refine (ex_join (ℓ := (V d (cV L) (jV L)).loc cc0_scratch0) xs_disjoint).trans ?_
  rw [xs_cover]

omit [FloatOps F] in
/-- The eight half planes, each at some contents, are the output scratch whole at some contents. -/
theorem ov_join_ex :
    iprop((∃ g, (oh00).view.loc (V d (cV L) (jV L)) ↦[(oh00).view.set]{fullShare} g) ∗ (∃ g, (oh01).view.loc (V d (cV L) (jV L)) ↦[(oh01).view.set]{fullShare} g)
      ∗ (∃ g, (oh10).view.loc (V d (cV L) (jV L)) ↦[(oh10).view.set]{fullShare} g) ∗ (∃ g, (oh11).view.loc (V d (cV L) (jV L)) ↦[(oh11).view.set]{fullShare} g)
      ∗ (∃ g, (oh20).view.loc (V d (cV L) (jV L)) ↦[(oh20).view.set]{fullShare} g) ∗ (∃ g, (oh21).view.loc (V d (cV L) (jV L)) ↦[(oh21).view.set]{fullShare} g)
      ∗ (∃ g, (oh30).view.loc (V d (cV L) (jV L)) ↦[(oh30).view.set]{fullShare} g) ∗ (∃ g, (oh31).view.loc (V d (cV L) (jV L)) ↦[(oh31).view.set]{fullShare} g))
      ⊢ (iprop(∃ f, (V d (cV L) (jV L)).loc cc0_scratch1 ↦{fullShare} f) : sProp 𝕄) := by
  rw [set_oh00, set_oh01, set_oh10, set_oh11, set_oh20, set_oh21, set_oh30, set_oh31]
  iintro ⟨H00, H01, H10, H11, H20, H21, H30, H31⟩
  ihave H1 := (ex_join (ℓ := (V d (cV L) (jV L)).loc cc0_scratch1) oh_djU_1) $$ [H00 H01]
  · isplitl [H00]; · iexact H00
    iexact H01
  ihave H2 := (ex_join (ℓ := (V d (cV L) (jV L)).loc cc0_scratch1) oh_djU_2) $$ [H1 H10]
  · isplitl [H1]; · iexact H1
    iexact H10
  ihave H3 := (ex_join (ℓ := (V d (cV L) (jV L)).loc cc0_scratch1) oh_djU_3) $$ [H2 H11]
  · isplitl [H2]; · iexact H2
    iexact H11
  ihave H4 := (ex_join (ℓ := (V d (cV L) (jV L)).loc cc0_scratch1) oh_djU_4) $$ [H3 H20]
  · isplitl [H3]; · iexact H3
    iexact H20
  ihave H5 := (ex_join (ℓ := (V d (cV L) (jV L)).loc cc0_scratch1) oh_djU_5) $$ [H4 H21]
  · isplitl [H4]; · iexact H4
    iexact H21
  ihave H6 := (ex_join (ℓ := (V d (cV L) (jV L)).loc cc0_scratch1) oh_djU_6) $$ [H5 H30]
  · isplitl [H5]; · iexact H5
    iexact H30
  ihave H7 := (ex_join (ℓ := (V d (cV L) (jV L)).loc cc0_scratch1) oh_djU_7) $$ [H6 H31]
  · isplitl [H6]; · iexact H6
    iexact H31
  rw [oh_cover]
  iexact H7

/-! ## The task's entry -/

/-- What the launch hands the tile, laid out: nothing in flight, every slice of the result still to be written. -/
theorem tile_open :
    iprop(tileGo X d (widL L) ∗ scopedBufs (V d (cV L) (jV L)) ∗ scopedSems0 (V d (cV L) (jV L)))
      ⊢ (TileOpen X d L (oTodoG d (widL L) 0) : sProp 𝕄) := by
  rw [(K (F := F)).scopedBufs_V facts d (cV L) (jV L), SparseCore.Cfg.scopedSems0_V (Val := Elt F) d (cV L) (jV L),
    ownSems0_V, ownBufs_V]
  unfold tileGo TileOpen InIdle OutIdle0 OutIdle1 OutIdle2 OutIdle3 BufsRest SemsRest
  rw [oTodoG_zero, pts_x3 d L (shareTokN (qT L) 0), pts_x3 d L (shareTokN (qT L) 1)]
  iintro ⟨⟨Hx, Ho⟩, ⟨⟨%f0, Hb0⟩, ⟨%f1, Hb1⟩, Hbr⟩, ⟨S2, S3, S4, S5, S6, S7, Hsr⟩⟩
  ihave Hx' := (x3_share_split X d L) $$ Hx
  icases Hx' with ⟨Hxr, Ht0, Ht1⟩
  ihave Hb0' := (xv_split d L f0).1 $$ Hb0
  icases Hb0' with ⟨Hxs0, Hxs1⟩
  ihave Hb1' := (ov_split d L f1) $$ Hb1
  icases Hb1' with ⟨⟨⟨⟨⟨⟨⟨H00, H01⟩, H10⟩, H11⟩, H20⟩, H21⟩, H30⟩, H31⟩
  isplitl [Hxr]; · iexact Hxr
  isplitl [Ht0 Ht1 Hxs0 Hxs1 S2 S3]
  · isplitl [Ht0]; · iexact Ht0
    isplitl [Ht1]; · iexact Ht1
    isplitl [Hxs0]; · iexists f0; iexact Hxs0
    isplitl [Hxs1]; · iexists f0; iexact Hxs1
    isplitl [S2]; · iexact S2
    iexact S3
  isplitl [Ho]; · iexact Ho
  isplitl [H00 H01 S4]
  · isplitl [H00]; · iexists f1; iexact H00
    isplitl [H01]; · iexists f1; iexact H01
    iexact S4
  isplitl [H10 H11 S5]
  · isplitl [H10]; · iexists f1; iexact H10
    isplitl [H11]; · iexists f1; iexact H11
    iexact S5
  isplitl [H20 H21 S6]
  · isplitl [H20]; · iexists f1; iexact H20
    isplitl [H21]; · iexists f1; iexact H21
    iexact S6
  isplitl [H30 H31 S7]
  · isplitl [H30]; · iexists f1; iexact H30
    isplitl [H31]; · iexists f1; iexact H31
    iexact S7
  isplitl [Hbr]; · iexact Hbr
  iexact Hsr

/-! ## The task's exit -/

/-- Every slice done and nothing in flight: the tile's read share whole, its slices at the kernel's value, its own
    scratch and semaphores as the launch dealt them. -/
theorem tile_close :
    (TileOpen X d L (oDoneG X d (widL L) 50) : sProp 𝕄)
      ⊢ iprop(tileTd X d (widL L) ∗ scopedBufs (V d (cV L) (jV L)) ∗ scopedSems0 (V d (cV L) (jV L))) := by
  rw [(K (F := F)).scopedBufs_V facts d (cV L) (jV L), SparseCore.Cfg.scopedSems0_V (Val := Elt F) d (cV L) (jV L),
    ownSems0_V, ownBufs_V]
  unfold tileTd TileOpen InIdle OutIdle0 OutIdle1 OutIdle2 OutIdle3 BufsRest SemsRest
  rw [oDoneG_fifty, pts_x3 d L (shareTokN (qT L) 0), pts_x3 d L (shareTokN (qT L) 1)]
  iintro ⟨Hxr, ⟨Ht0, Ht1, Hxs0, Hxs1, S2, S3⟩, Ho, ⟨H00, H01, S4⟩, ⟨H10, H11, S5⟩, ⟨H20, H21, S6⟩, ⟨H30, H31, S7⟩, Hbr, Hsr⟩
  ihave Hx := (x3_share_join X d L) $$ [Hxr Ht0 Ht1]
  · isplitl [Hxr]; · iexact Hxr
    isplitl [Ht0]; · iexact Ht0
    iexact Ht1
  ihave Hb0 := (xv_join_ex d L) $$ [Hxs0 Hxs1]
  · isplitl [Hxs0]; · iexact Hxs0
    iexact Hxs1
  ihave Hb1 := (ov_join_ex d L) $$ [H00 H01 H10 H11 H20 H21 H30 H31]
  · isplitl [H00]; · iexact H00
    isplitl [H01]; · iexact H01
    isplitl [H10]; · iexact H10
    isplitl [H11]; · iexact H11
    isplitl [H20]; · iexact H20
    isplitl [H21]; · iexact H21
    isplitl [H30]; · iexact H30
    iexact H31
  isplitl [Hx Ho]
  · isplitl [Hx]; · iexact Hx
    iexact Ho
  isplitl [Hb0 Hb1 Hbr]
  · isplitl [Hb0]; · iexact Hb0
    isplitl [Hb1]; · iexact Hb1
    iexact Hbr
  isplitl [S2]; · iexact S2
  isplitl [S3]; · iexact S3
  isplitl [S4]; · iexact S4
  isplitl [S5]; · iexact S5
  isplitl [S6]; · iexact S6
  isplitl [S7]; · iexact S7
  iexact Hsr

end Cert.KernelIdeal.Hand

end
-- ==== Proof.TileEpi.lean ====
/-
  The tile kernel's epilogue: after the last trip of the outer loop the four batches of copies out of the last group of
  planes are still in flight; the eight waits drain them, and the group's eight slices of o hold the kernel's value.
-/
import proofs.«209186_g8847632630064_cont_9to1c4b_396_28_alg».proof.Proof.Common
import proofs.«209186_g8847632630064_cont_9to1c4b_396_28_alg».proof.Proof.TileBufs
import proofs.«209186_g8847632630064_cont_9to1c4b_396_28_alg».proof.Proof.TileSlices
import proofs.«209186_g8847632630064_cont_9to1c4b_396_28_alg».proof.Proof.TileInv

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop shareTokN)
open Idealize.ShloMosaic.Tactic

variable {F : FTy → Type}

local notation "𝕄" => MT nD τ sig (HIx 1) (Elt F) ℕ UU ℕ

variable [FloatOps F]
variable (X : (d : Dev nD) → Buf (Elt F) (x3Loc d))
variable (d : Dev nD) (L : grid0.Coords)

/-- The kernel's text after its first part (the prologue and the outer loop): the eight waits for the last group's copies. -/
def epi (v1 v18 : BitVec 32) : Prog (TpuEff nD τ sig (Elt F) Λ₀ (.scVector ((L 0).castLE hcore0) ((L 1).castLE hsub0))) PUnit := do
  k0_part146 L xV (Memref.isWhole_whole _) oV (Memref.isWhole_whole _) sX (Memref.isWhole_whole _) sO (Memref.isWhole_whole _) cc0_scratch2 cc0_scratch3 cc0_scratch4 cc0_scratch5 cc0_scratch6 cc0_scratch7 cc0_scratch8 cc0_scratch9 cc0_scratch10 cc0_scratch11 v1 v18
  k0_part147 L xV (Memref.isWhole_whole _) oV (Memref.isWhole_whole _) sX (Memref.isWhole_whole _) sO (Memref.isWhole_whole _) cc0_scratch2 cc0_scratch3 cc0_scratch4 cc0_scratch5 cc0_scratch6 cc0_scratch7 cc0_scratch8 cc0_scratch9 cc0_scratch10 cc0_scratch11 v1
  let v74 : Memref sig .scVector .hbm S32x128 .f32 := (oV).slice (Rect.unit (s := S409600x128) (k0_off44 L 407552#32) S32x128.size (k0_off44_inb L 3)) (fun _ => rfl)
  let v75 : Memref sig .scVector .vmem S1x32x128 .f32 := (sO).slice (Rect.unit (s := S4x64x128) ![3, 32, 0] S1x32x128.size inb_S4x64x128_S1x32x128_3_32_0) (fun _ => rfl)
  let v76 : Memref sig .scVector .vmem S32x128 .f32 := v75.squeeze S32x128 squeezes_S1x32x128_S32x128
  Prog.lift (.waitDma2 cc0_scratch7.sem v76 v74 ((View.wordExact_bits rfl).reshape _ _) (View.wordExact_bits rfl))
  pure ⟨⟩

/-- The kernel is its first part, then the epilogue at the two words the first part hands on. -/
theorem kernel_eq_epi :
    cc0_gc_kernel_skel (F := F) L xV (Memref.isWhole_whole _) oV (Memref.isWhole_whole _) sX (Memref.isWhole_whole _) sO (Memref.isWhole_whole _) cc0_scratch2 cc0_scratch3 cc0_scratch4 cc0_scratch5 cc0_scratch6 cc0_scratch7 cc0_scratch8 cc0_scratch9 cc0_scratch10 cc0_scratch11
      = (k0_part145 L xV (Memref.isWhole_whole _) oV (Memref.isWhole_whole _) sX (Memref.isWhole_whole _) sO (Memref.isWhole_whole _) cc0_scratch2 cc0_scratch3 cc0_scratch4 cc0_scratch5 cc0_scratch6 cc0_scratch7 cc0_scratch8 cc0_scratch9 cc0_scratch10 cc0_scratch11 >>= fun p => epi (F := F) L p.1 p.2) := rfl

omit [FloatOps F] in
/-- A half plane's copy landed in the slice of o at row offset `off`, where the landed contents are `Y`'s, is the
    slice held at `Y`. -/
theorem land_done {src : Memref sig .scVector .vmem S32x128 .f32} {dl : Fin 4} {h : Fin 2} {G : ℕ} {hG : G < 50}
    (off : Fin 2 → ℕ) (inb : ∀ a, off a + S32x128.size a ≤ S409600x128.size a)
    (hoff : off = ![(planeOf G hG dl).val * 2048 + h.val * 1024 + (widL L).val * 32, 0])
    (fd : Buf (Elt F) (((oV).slice (Rect.unit (s := S409600x128) off S32x128.size inb) (fun _ => rfl)).view.loc (V d (cV L) (jV L))))
    (g : Buf (Elt F) (src.view.loc (V d (cV L) (jV L)))) {Y : Buf (Elt F) (oLoc d)}
    (hl : ∀ i ∈ oSet (widL L) (planeOf G hG dl) h,
        landO d L ((oV).slice (Rect.unit (s := S409600x128) off S32x128.size inb) (fun _ => rfl)) src fd g i = Y i) :
    ((((oV).slice (Rect.unit (s := S409600x128) off S32x128.size inb) (fun _ => rfl)).view.loc (V d (cV L) (jV L))
        ↦[((oV).slice (Rect.unit (s := S409600x128) off S32x128.size inb) (fun _ => rfl)).view.set]{fullShare}
          landO d L ((oV).slice (Rect.unit (s := S409600x128) off S32x128.size inb) (fun _ => rfl)) src fd g : sProp 𝕄))
      ⊢ oLoc d ↦[oSet (widL L) (planeOf G hG dl) h]{fullShare} Y := by
  rw [set_oSlice inb (widL L) (planeOf G hG dl) h hoff]
  exact Entails.of_eq (pointsTo_congr hl)

omit [FloatOps F] in
/-- One more wait recorded at no index keeps the recorded waits of the stated kind. -/
theorem waits_ins {W W' : Waits sig (HIx 1)} (sm : SemLoc sig) (h : ∀ p ∈ W', p ∈ W ∨ p.2 = none) :
    ∀ p ∈ insert (sm, (none : HIx 1)) W', p ∈ W ∨ p.2 = none := by
  intro p hp
  rcases Finset.mem_insert.mp hp with rfl | hp
  · exact .inr rfl
  · exact h p hp

/-- After the last trip: the eight waits, and the tile holds its scratch idle and every slice of o at the kernel's value. -/
theorem tile_epilogue (hO : LandO X d L) (O : CellTallies nD τ sig (HIx 1)) (W : Waits sig (HIx 1)) (v1 v18 : BitVec 32) :
    Inv X d L O W 25 ⟨⟩
      ⊢ wp frame (wpE (defs₀ (F := F)) 𝒱₀ (V d (cV L) (jV L)) none) Set.univ (epi (F := F) L v1 v18)
          fun _ => iprop(InIdle X d L ∗ oDoneG X d (widL L) 50 ∗ OutIdle0 d L ∗ OutIdle1 d L ∗ OutIdle2 d L ∗ OutIdle3 d L
            ∗ ∃ W', ⌜∀ p ∈ W', p ∈ W ∨ p.2 = none⌝ ∗ owes (V d (cV L) (jV L)) O W') := by
  unfold Inv InSt OutSt
  iintro ⟨#Hmw, Hin, Hout, -, Hdone, %W', %hW', HO⟩
  icases Hin with (⟨%hk, -⟩ | ⟨-, Hin⟩)
  · exact absurd hk (by decide)
  icases Hout with (⟨%hk, -⟩ | ⟨%tp, %htp, HB0, HB1, HB2, HB3⟩)
  · exact absurd hk (by decide)
  unfold BatchO0 BatchO1 BatchO2 BatchO3
  icases HB0 with ⟨%f00, %f01, %g00, %g01, %hg0, HB0⟩
  icases HB1 with ⟨%f10, %f11, %g10, %g11, %hg1, HB1⟩
  icases HB2 with ⟨%f20, %f21, %g20, %g21, %hg2, HB2⟩
  icases HB3 with ⟨%f30, %f31, %g30, %g31, %hg3, HB3⟩
  unfold epi
  sl_exec
  sl_step
  -- the landed slices hold the kernel's value
  ihave H00 := (land_done d L (k0_off28 L tp 0#32) (k0_off28_inb L tp 0) (hoff28 L tp 0) f00 g00
      (hO.l00 _ _ _ _ (hoff28 L tp 0) f00 g00 hg0.1)) $$ HB0_dst0
  ihave H01 := (land_done d L (k0_off29 L tp 0#32) (k0_off29_inb L tp 0) (hoff29 L tp 0) f01 g01
      (hO.l01 _ _ _ _ (hoff29 L tp 0) f01 g01 hg0.2)) $$ HB0_dst1
  ihave H10 := (land_done d L (k0_off28 L tp 1#32) (k0_off28_inb L tp 1) (hoff28 L tp 1) f10 g10
      (hO.l10 _ _ _ _ (hoff28 L tp 1) f10 g10 hg1.1)) $$ HB1_dst0
  ihave H11 := (land_done d L (k0_off29 L tp 1#32) (k0_off29_inb L tp 1) (hoff29 L tp 1) f11 g11
      (hO.l11 _ _ _ _ (hoff29 L tp 1) f11 g11 hg1.2)) $$ HB1_dst1
  ihave H20 := (land_done d L (k0_off28 L tp 2#32) (k0_off28_inb L tp 2) (hoff28 L tp 2) f20 g20
      (hO.l20 _ _ _ _ (hoff28 L tp 2) f20 g20 hg2.1)) $$ HB2_dst0
  ihave H21 := (land_done d L (k0_off29 L tp 2#32) (k0_off29_inb L tp 2) (hoff29 L tp 2) f21 g21
      (hO.l21 _ _ _ _ (hoff29 L tp 2) f21 g21 hg2.2)) $$ HB2_dst1
  ihave H30 := (land_done d L (k0_off28 L tp 3#32) (k0_off28_inb L tp 3) (hoff28 L tp 3) f30 g30
      (hO.l30 _ _ _ _ (hoff28 L tp 3) f30 g30 hg3.1)) $$ HB3_dst0
  ihave H31 := (land_done d L (k0_off29 L tp 3#32) (k0_off29_inb L tp 3) (hoff29 L tp 3) f31 g31
      (hO.l31 _ _ _ _ (hoff29 L tp 3) f31 g31 hg3.2)) $$ HB3_dst1
  have e49 : 2 * 25 - 1 = 2 * tp.val + 1 := by omega
  have e50 : 2 * tp.val + 1 + 1 = 50 := by omega
  ihave Hdone := (Entails.of_eq (congrArg (oDoneG X d (widL L)) e49)) $$ Hdone
  ihave Hdone := (oDoneG_step X d (widL L) (2 * tp.val + 1) (odd_group_lt tp)) $$ [Hdone H00 H01 H10 H11 H20 H21 H30 H31]
  · isplitl [Hdone]; · iexact Hdone
    isplitl [H00]; · iexact H00
    isplitl [H01]; · iexact H01
    isplitl [H10]; · iexact H10
    isplitl [H11]; · iexact H11
    isplitl [H20]; · iexact H20
    isplitl [H21]; · iexact H21
    isplitl [H30]; · iexact H30
    iexact H31
  ihave Hdone := (Entails.of_eq (congrArg (oDoneG X d (widL L)) e50)) $$ Hdone
  isplitl [Hin]; · iexact Hin
  isplitl [Hdone]; · iexact Hdone
  isplitl [HB0_src0 HB0_src1 HB0]
  · unfold OutIdle0
    isplitl [HB0_src0]; · iexists _; iexact HB0_src0
    isplitl [HB0_src1]; · iexists _; iexact HB0_src1
    iexact HB0
  isplitl [HB1_src0 HB1_src1 HB1]
  · unfold OutIdle1
    isplitl [HB1_src0]; · iexists _; iexact HB1_src0
    isplitl [HB1_src1]; · iexists _; iexact HB1_src1
    iexact HB1
  isplitl [HB2_src0 HB2_src1 HB2]
  · unfold OutIdle2
    isplitl [HB2_src0]; · iexists _; iexact HB2_src0
    isplitl [HB2_src1]; · iexists _; iexact HB2_src1
    iexact HB2
  isplitl [HB3_src0 HB3_src1 HB3]
  · unfold OutIdle3
    isplitl [HB3_src0]; · iexists _; iexact HB3_src0
    isplitl [HB3_src1]; · iexists _; iexact HB3_src1
    iexact HB3
  iexists _; isplitr
  rotate_left
  · iexact HO
  · ipureintro
    exact waits_ins _ (waits_ins _ (waits_ins _ (waits_ins _ (waits_ins _ (waits_ins _ (waits_ins _ (waits_ins _ hW')))))))

end Cert.KernelIdeal.Hand

end
-- ==== Proof.TileAsm.lean ====
/-
  The tile's task assembled: the tile's resources laid out, the two fetches of the prologue, the outer loop by its
  invariant (one trip is a hypothesis here, proved in its own module), the epilogue's waits, and the resources folded
  back as the launch dealt them.
-/
import proofs.«209186_g8847632630064_cont_9to1c4b_396_28_alg».proof.Proof.Common
import proofs.«209186_g8847632630064_cont_9to1c4b_396_28_alg».proof.Proof.TileBufs
import proofs.«209186_g8847632630064_cont_9to1c4b_396_28_alg».proof.Proof.TileSlices
import proofs.«209186_g8847632630064_cont_9to1c4b_396_28_alg».proof.Proof.TileInv
import proofs.«209186_g8847632630064_cont_9to1c4b_396_28_alg».proof.Proof.TilePre
import proofs.«209186_g8847632630064_cont_9to1c4b_396_28_alg».proof.Proof.TileOffs
import proofs.«209186_g8847632630064_cont_9to1c4b_396_28_alg».proof.Proof.TileFold
import proofs.«209186_g8847632630064_cont_9to1c4b_396_28_alg».proof.Proof.TileEpi

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop shareTokN)
open Idealize.ShloMosaic.Tactic

variable {F : FTy → Type}

local notation "𝕄" => MT nD τ sig (HIx 1) (Elt F) ℕ UU ℕ

variable [FloatOps F]
variable (X : (d : Dev nD) → Buf (Elt F) (x3Loc d))
variable (d : Dev nD) (L : grid0.Coords)

/-- What the tile holds aside through its whole task: the remainder of its read share, its other buffers and semaphores. -/
abbrev Aside : sProp 𝕄 := iprop((x3Loc d ↦{(qT L).left.left} X d) ∗ BufsRest d L ∗ SemsRest d L)

/-- The epilogue's result and what was held aside fold back into what the launch dealt the tile. -/
theorem post_close (O : CellTallies nD τ sig (HIx 1)) (W : Waits sig (HIx 1)) :
    iprop((InIdle X d L ∗ oDoneG X d (widL L) 50 ∗ OutIdle0 d L ∗ OutIdle1 d L ∗ OutIdle2 d L ∗ OutIdle3 d L
        ∗ ∃ W', ⌜∀ p ∈ W', p ∈ W ∨ p.2 = none⌝ ∗ owes (V d (cV L) (jV L)) O W') ∗ Aside X d L)
      ⊢ iprop(tileTd X d (widL L) ∗ scopedBufs (V d (cV L) (jV L)) ∗ scopedSems0 (V d (cV L) (jV L))
          ∗ ∃ W', ⌜∀ p ∈ W', p ∈ W ∨ p.2 = none⌝ ∗ owes (V d (cV L) (jV L)) O W') := by
  iintro ⟨⟨Hin, Hdone, H0, H1, H2, H3, HW⟩, Hxr, Hbr, Hsr⟩
  ihave Hc := (tile_close X d L) $$ [Hin Hdone H0 H1 H2 H3 Hxr Hbr Hsr]
  · unfold TileOpen
    isplitl [Hxr]; · iexact Hxr
    isplitl [Hin]; · iexact Hin
    isplitl [Hdone]; · iexact Hdone
    isplitl [H0]; · iexact H0
    isplitl [H1]; · iexact H1
    isplitl [H2]; · iexact H2
    isplitl [H3]; · iexact H3
    isplitl [Hbr]; · iexact Hbr
    iexact Hsr
  icases Hc with ⟨Htd, Hsb, Hss⟩
  isplitl [Htd]; · iexact Htd
  isplitl [Hsb]; · iexact Hsb
  isplitl [Hss]; · iexact Hss
  iexact HW

/-- After the last trip, with what was held aside: the epilogue, and the task's exit. -/
theorem asm_tail (hO : LandO X d L) (O : CellTallies nD τ sig (HIx 1)) (W : Waits sig (HIx 1)) (v1 v18 : BitVec 32) :
    iprop(Inv X d L O W 25 ⟨⟩ ∗ Aside X d L)
      ⊢ wp frame (wpE (defs₀ (F := F)) 𝒱₀ (V d (cV L) (jV L)) none) Set.univ (epi (F := F) L v1 v18)
          fun _ => iprop(tileTd X d (widL L) ∗ scopedBufs (V d (cV L) (jV L)) ∗ scopedSems0 (V d (cV L) (jV L))
            ∗ ∃ W', ⌜∀ p ∈ W', p ∈ W ∨ p.2 = none⌝ ∗ owes (V d (cV L) (jV L)) O W') :=
  ((sep_mono_left (tile_epilogue X d L hO O W v1 v18)).trans (wp_frame_r frame _ _)).trans
    (wp_mono frame _ _ fun _ => post_close X d L O W)

/-- The tile's task, from one trip of the outer loop: lay the resources out, start the two fetches, run the loop by its
    invariant, drain the last copies, fold the resources back. -/
theorem tile_body_of (hX : LandX X d L) (hO : LandO X d L)
    (htrip : ∀ (O : CellTallies nD τ sig (HIx 1)) (W : Waits sig (HIx 1)) (v1 : BitVec 32) (t : Fin k0_t1_loop.trips) (acc : PUnit),
      Inv X d L O W t.val acc ⊢ wp frame (wpE (defs₀ (F := F)) 𝒱₀ (V d (cV L) (jV L)) none) Set.univ
        (k0_t1_body L xV (Memref.isWhole_whole _) oV (Memref.isWhole_whole _) sX (Memref.isWhole_whole _) sO (Memref.isWhole_whole _) cc0_scratch2 cc0_scratch3 cc0_scratch4 cc0_scratch5 cc0_scratch6 cc0_scratch7 cc0_scratch8 cc0_scratch9 cc0_scratch10 cc0_scratch11 v1 t acc) (Inv X d L O W (t.val + 1)))
    (O : CellTallies nD τ sig (HIx 1)) (W : Waits sig (HIx 1)) (hO0 : ∀ g, O g none = 0) :
    iprop(levAts (K (F := F)).L (K (F := F)).lev ∗ emp ∗ tileGo X d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gc_kernel L xV (Memref.isWhole_whole _) oV (Memref.isWhole_whole _) sX (Memref.isWhole_whole _) sO (Memref.isWhole_whole _) cc0_scratch2 cc0_scratch3 cc0_scratch4 cc0_scratch5 cc0_scratch6 cc0_scratch7 cc0_scratch8 cc0_scratch9 cc0_scratch10 cc0_scratch11)
          fun _ => iprop(tileTd X d (widL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gc_kernel_eq_skeleton]
  rw [kernel_eq_epi, wp_bind]
  iintro ⟨#Hlv, -, Hgo, Hsb, Hss, HO⟩
  ihave Hmw := ((K (F := F)).mayWaits_none (thr := (V d (cV L) (jV L))) hO0) $$ Hlv
  ihave Hopen := (tile_open X d L) $$ [Hgo Hsb Hss]
  · isplitl [Hgo]; · iexact Hgo
    isplitl [Hsb] <;> iassumption
  unfold TileOpen InIdle
  icases Hopen with ⟨Hxrem, ⟨Hx0r, Hx1r, ⟨%fx0, Hxs0⟩, ⟨%fx1, Hxs1⟩, Hf0, Hf1⟩, Htodo, Hi0, Hi1, Hi2, Hi3, Hbr, Hsr⟩
  rw [k0_part145_eq_skeleton]; unfold k0_part145_skel
  sl_exec
  -- the two fetches in flight deliver the first two groups of planes
  unfold tile_body_of.sl.dma0 tile_body_of.sl.dma0_1
  ihave Hf0 := (flight_ok0 X d L (2 * 0) _ (hX.l0 (2 * 0) (by omega) _ (k0_off1_inb L) (hoffx1 L) fx0) _) $$ Hf0
  ihave Hf1 := (flight_ok1 X d L (2 * 0 + 1) _ (hX.l1 (2 * 0 + 1) (by omega) _ (k0_off2_inb L) (hoffx2 L) fx1) _) $$ Hf1
  sl_for (Inv X d L O W) $$ [Hmw Hf0 Hx0r Hf1 Hx1r Hi0 Hi1 Hi2 Hi3 Htodo HO]
  case region =>
    intro k _
    unfold tile_body_of.sl.prog.body_1
    exact htrip O W _ k _
  · unfold Inv InSt OutSt FlIn0 FlIn1
    isplitr; · iexact Hmw
    isplitl [Hf0 Hx0r Hf1 Hx1r]
    · ileft
      isplitr; · ipureintro; decide
      isplitl [Hf0 Hx0r]
      · iexists _; isplitl [Hf0]; · iexact Hf0
        iexact Hx0r
      · iexists _; isplitl [Hf1]; · iexact Hf1
        iexact Hx1r
    isplitl [Hi0 Hi1 Hi2 Hi3]
    · ileft
      isplitr; · ipureintro; rfl
      isplitl [Hi0]; · iexact Hi0
      isplitl [Hi1]; · iexact Hi1
      isplitl [Hi2]; · iexact Hi2
      iexact Hi3
    isplitl [Htodo]; · iexact Htodo
    isplitr
    · rw [show 2 * 0 - 1 = 0 from rfl, oDoneG_zero]; iempintro
    iexists W; isplitr
    · ipureintro; exact fun p hp => .inl hp
    · iexact HO
  iintro %_ HI
  unfold tile_body_of.sl.prog.cont_1
  rw [wp_pure]; imodintro
  iapply (asm_tail X d L hO O W _ _)
  isplitl [HI]; · iexact HI
  isplitl [Hxrem]; · iexact Hxrem
  isplitl [Hbr]; · iexact Hbr
  iexact Hsr

/-- The task at every tile, from the pure facts and one trip of the outer loop at every tile. -/
theorem tile_body_from (hX : ∀ d L, LandX X d L) (hO : ∀ d L, LandO X d L)
    (htrip : ∀ (d : Dev nD) (L : grid0.Coords) (O : CellTallies nD τ sig (HIx 1)) (W : Waits sig (HIx 1)) (v1 : BitVec 32)
      (t : Fin k0_t1_loop.trips) (acc : PUnit),
      Inv X d L O W t.val acc ⊢ wp frame (wpE (defs₀ (F := F)) 𝒱₀ (V d (cV L) (jV L)) none) Set.univ
        (k0_t1_body L xV (Memref.isWhole_whole _) oV (Memref.isWhole_whole _) sX (Memref.isWhole_whole _) sO (Memref.isWhole_whole _) cc0_scratch2 cc0_scratch3 cc0_scratch4 cc0_scratch5 cc0_scratch6 cc0_scratch7 cc0_scratch8 cc0_scratch9 cc0_scratch10 cc0_scratch11 v1 t acc) (Inv X d L O W (t.val + 1))) :
    TileBody X :=
  fun d L O W h => tile_body_of X d L (hX d L) (hO d L) (htrip d L) O W h

end Cert.KernelIdeal.Hand

end
-- ==== Proof.TileFacts.lean ====
/-
  The two facts about data the tile's run cites: a fetch of a group of four planes landed in a slot of the input
  scratch makes the slot hold the group (the tile's four rows of each plane), and a half plane of the output scratch
  holding the tile's rows of the result for a plane, copied out to its slice of the result array, leaves the
  kernel's value on that slice. Both are index equations: where a slot, a half plane and a slice of an array place
  their own indices in their buffers.
-/
import proofs.«209186_g8847632630064_cont_9to1c4b_396_28_alg».proof.Proof.TileInv
import Idealize.ShloMosaic.Lib.Exec.Geometry
import Idealize.ShloMosaic.Lib.Pipeline.Value

noncomputable section

namespace Cert.KernelIdeal.Hand

open Cert.KernelIdeal Cert.KernelIdeal.Gen

open Idealize.ShloMosaic
open Idealize.ShloMosaic.SparseCore (S V T)
open Idealize.ShloMosaic.ValueIdx

variable {F : FTy → Type}
variable [FloatOps F]
variable (X : (d : Dev nD) → Buf (Elt F) (x3Loc d))
variable (d : Dev nD) (L : grid0.Coords)

/-! ## Where a slot, a half plane and a slice place their indices -/

omit [FloatOps F] in
/-- Slot `pin` of the input scratch places `[dl, a, c]` at `[pin, dl, a, c]`. -/
theorem slot_emb (pin : Fin 2) (offs : Fin 4 → ℕ) (inbs : ∀ a, offs a + S1x4x4x128.size a ≤ S2x4x4x128.size a)
    (hoffs : offs = ![pin.val, 0, 0, 0]) (dl a : Fin 4) (c : Fin 128) :
    (((sX : Memref sig .scVector .vmem S2x4x4x128 .f32).slice (Rect.unit (s := S2x4x4x128) offs S1x4x4x128.size inbs) (fun _ => rfl)).squeeze S4x4x128
        squeezes_S1x4x4x128_S4x4x128).view.emb (ix3 dl a c) = ix4 pin dl a c := by
  subst hoffs
  show (Rect.unit (s := S2x4x4x128) ![pin.val, 0, 0, 0] S1x4x4x128.size inbs).emb
    (Shape.reshapeEquiv squeezes_S1x4x4x128_S4x4x128.numel_eq (ix3 dl a c)) = _
  rw [Shape.reshapeEquiv_eq_of_rowMajor _ (y := ix4 (0 : Fin 1) dl a c) (by
    rw [Shape.rowMajor_val_four, Shape.rowMajor_val_three]
    show ((0 * 4 + dl.val) * 4 + a.val) * 128 + c.val = (dl.val * 4 + a.val) * 128 + c.val
    omega)]
  funext b
  apply Fin.ext
  match b with
  | ⟨0, _⟩ => show pin.val + 1 * 0 = pin.val; omega
  | ⟨1, _⟩ => show 0 + 1 * dl.val = dl.val; omega
  | ⟨2, _⟩ => show 0 + 1 * a.val = a.val; omega
  | ⟨3, _⟩ => show 0 + 1 * c.val = c.val; omega

omit [FloatOps F] in
/-- Half `h` of plane `dl` of the output scratch places `[r, c]` at `[dl, 32 h + r, c]`. -/
theorem half_emb (dl : Fin 4) (h : Fin 2) (offs : Fin 3 → ℕ) (inbs : ∀ a, offs a + S1x32x128.size a ≤ S4x64x128.size a)
    (hoffs : offs = ![dl.val, 32 * h.val, 0]) (r : Fin 32) (c : Fin 128) :
    (((sO : Memref sig .scVector .vmem S4x64x128 .f32).slice (Rect.unit (s := S4x64x128) offs S1x32x128.size inbs) (fun _ => rfl)).squeeze S32x128
        squeezes_S1x32x128_S32x128).view.emb (ix2 r c)
      = ix3 dl (⟨32 * h.val + r.val, by have := h.isLt; have := r.isLt; omega⟩ : Fin 64) c := by
  subst hoffs
  show (Rect.unit (s := S4x64x128) ![dl.val, 32 * h.val, 0] S1x32x128.size inbs).emb
    (Shape.reshapeEquiv squeezes_S1x32x128_S32x128.numel_eq (ix2 r c)) = _
  rw [Shape.reshapeEquiv_eq_of_rowMajor _ (y := ix3 (0 : Fin 1) r c) (by
    rw [Shape.rowMajor_val_three, Shape.rowMajor_val_two]
    show (0 * 32 + r.val) * 128 + c.val = r.val * 128 + c.val
    omega)]
  funext b
  apply Fin.ext
  match b with
  | ⟨0, _⟩ => show dl.val + 1 * 0 = dl.val; omega
  | ⟨1, _⟩ => show 32 * h.val + 1 * r.val = 32 * h.val + r.val; omega
  | ⟨2, _⟩ => show 0 + 1 * c.val = c.val; omega

omit [FloatOps F] in
/-- A slice of the operand at planes `p₀ ..`, rows `r₀ ..` places `[dl, a, c]` at `[p₀ + dl, r₀ + a, c]`. -/
theorem xslice_emb (p0 r0 : ℕ) (off : Fin 3 → ℕ) (inb : ∀ a, off a + S4x4x128.size a ≤ S200x128x128.size a) (hoff : off = ![p0, r0, 0])
    (dl a : Fin 4) (c : Fin 128) (hp : p0 + dl.val < 200) (hr : r0 + a.val < 128) :
    ((xV : Memref sig .scVector .hbm S200x128x128 .f32).slice (Rect.unit (s := S200x128x128) off S4x4x128.size inb) (fun _ => rfl)).view.emb (ix3 dl a c)
      = ix3 (⟨p0 + dl.val, hp⟩ : Fin 200) (⟨r0 + a.val, hr⟩ : Fin 128) c := by
  subst hoff
  show (Rect.unit (s := S200x128x128) ![p0, r0, 0] S4x4x128.size inb).emb (ix3 dl a c) = _
  funext b
  apply Fin.ext
  match b with
  | ⟨0, _⟩ => show p0 + 1 * dl.val = p0 + dl.val; omega
  | ⟨1, _⟩ => show r0 + 1 * a.val = r0 + a.val; omega
  | ⟨2, _⟩ => show 0 + 1 * c.val = c.val; omega

omit [FloatOps F] in
/-- A slice of the result array at rows `r₀ ..` places `[r, c]` at `[r₀ + r, c]`. -/
theorem oslice_emb (r0 : ℕ) (off : Fin 2 → ℕ) (inb : ∀ a, off a + S32x128.size a ≤ S409600x128.size a) (hoff : off = ![r0, 0])
    (r : Fin 32) (c : Fin 128) (hr : r0 + r.val < 409600) :
    ((oV : Memref sig .scVector .hbm S409600x128 .f32).slice (Rect.unit (s := S409600x128) off S32x128.size inb) (fun _ => rfl)).view.emb (ix2 r c)
      = ix2 (⟨r0 + r.val, hr⟩ : Fin 409600) c := by
  subst hoff
  show (Rect.unit (s := S409600x128) ![r0, 0] S32x128.size inb).emb (ix2 r c) = _
  funext b
  apply Fin.ext
  match b with
  | ⟨0, _⟩ => show r0 + 1 * r.val = r0 + r.val; omega
  | ⟨1, _⟩ => show 0 + 1 * c.val = c.val; omega

/-! ## A fetch landed in a slot -/

/-- A fetch of group `G` landed in slot `pin` makes the slot hold the group. -/
theorem landX_gen (pin : Fin 2) (offs : Fin 4 → ℕ) (inbs : ∀ a, offs a + S1x4x4x128.size a ≤ S2x4x4x128.size a)
    (hoffs : offs = ![pin.val, 0, 0, 0])
    (G : ℕ) (hG : G < 50) (off : Fin 3 → ℕ) (inb : ∀ a, off a + S4x4x128.size a ≤ S200x128x128.size a) (hoff : off = ![4 * G, 4 * (widL L).val, 0])
    (fd : Buf (Elt F) ((((sX : Memref sig .scVector .vmem S2x4x4x128 .f32).slice (Rect.unit (s := S2x4x4x128) offs S1x4x4x128.size inbs) (fun _ => rfl)).squeeze S4x4x128
        squeezes_S1x4x4x128_S4x4x128).view.loc (V d (cV L) (jV L)))) :
    XsOk X d L G pin ((((sX : Memref sig .scVector .vmem S2x4x4x128 .f32).slice (Rect.unit (s := S2x4x4x128) offs S1x4x4x128.size inbs) (fun _ => rfl)).squeeze S4x4x128
        squeezes_S1x4x4x128_S4x4x128).view.writes (Elt F) fd [⟨Rect.whole S4x4x128,
      ReadAs.same.apply (((xV).slice (Rect.unit (s := S200x128x128) off S4x4x128.size inb) (fun _ => rfl)).view.read (Elt F) (X d))⟩]) := by
  intro hG' dl a c
  have hw := (widL L).isLt
  have hdl := dl.isLt
  have ha := a.isLt
  rw [← slot_emb pin offs inbs hoffs dl a c]
  have hr := congrFun (View.read_writes_whole
    (((sX : Memref sig .scVector .vmem S2x4x4x128 .f32).slice (Rect.unit (s := S2x4x4x128) offs S1x4x4x128.size inbs) (fun _ => rfl)).squeeze S4x4x128
      squeezes_S1x4x4x128_S4x4x128).view fd
    (ReadAs.same.apply (((xV).slice (Rect.unit (s := S200x128x128) off S4x4x128.size inb) (fun _ => rfl)).view.read (Elt F) (X d)))) (ix3 dl a c)
  refine Eq.trans hr ?_
  show X d (((xV : Memref sig .scVector .hbm S200x128x128 .f32).slice (Rect.unit (s := S200x128x128) off S4x4x128.size inb) (fun _ => rfl)).view.emb (ix3 dl a c)) = _
  rw [xslice_emb (4 * G) (4 * (widL L).val) off inb hoff dl a c (by omega) (by omega)]

theorem landX_ok : LandX X d L where
  l0 := fun G hG off inb hoff fd => landX_gen X d L 0 _ _ rfl G hG off inb hoff fd
  l1 := fun G hG off inb hoff fd => landX_gen X d L 1 _ _ rfl G hG off inb hoff fd

/-! ## A half plane copied out to its slice of the result -/

/-- Half `h` of plane `dl` of the output scratch holding the tile's rows of plane `4 G + dl`, copied out to its slice of the
    result array, leaves the kernel's value on the slice. -/
theorem landO_gen (dl : Fin 4) (h : Fin 2) (offs : Fin 3 → ℕ) (inbs : ∀ a, offs a + S1x32x128.size a ≤ S4x64x128.size a)
    (hoffs : offs = ![dl.val, 32 * h.val, 0])
    (G : ℕ) (hG : G < 50) (off : Fin 2 → ℕ) (inb : ∀ a, off a + S32x128.size a ≤ S409600x128.size a)
    (hoff : off = ![(planeOf G hG dl).val * 2048 + h.val * 1024 + (widL L).val * 32, 0])
    (fd : Buf (Elt F) (((oV).slice (Rect.unit (s := S409600x128) off S32x128.size inb) (fun _ => rfl)).view.loc (V d (cV L) (jV L))))
    (g : Buf (Elt F) ((((sO : Memref sig .scVector .vmem S4x64x128 .f32).slice (Rect.unit (s := S4x64x128) offs S1x32x128.size inbs) (fun _ => rfl)).squeeze S32x128
        squeezes_S1x32x128_S32x128).view.loc (V d (cV L) (jV L))))
    (hg : OhOk X d L G dl h g) :
    ∀ i ∈ oSet (widL L) (planeOf G hG dl) h,
      landO d L ((oV).slice (Rect.unit (s := S409600x128) off S32x128.size inb) (fun _ => rfl))
        (((sO : Memref sig .scVector .vmem S4x64x128 .f32).slice (Rect.unit (s := S4x64x128) offs S1x32x128.size inbs) (fun _ => rfl)).squeeze S32x128
          squeezes_S1x32x128_S32x128) fd g i = outLinF (X d) i := by
  intro i hi
  have hw := (widL L).isLt
  have hdl := dl.isLt
  have hh := h.isLt
  rw [← set_oSlice inb (widL L) (planeOf G hG dl) h hoff] at hi
  obtain ⟨y, rfl⟩ := View.exists_emb_of_mem_set _ hi
  obtain ⟨r, c, rfl⟩ : ∃ (r : Fin 32) (c : Fin 128), y = ix2 r c := ⟨y 0, y 1, eq_ix2 y⟩
  have hr32 := r.isLt
  have hr := congrFun (View.read_writes_whole
    ((oV : Memref sig .scVector .hbm S409600x128 .f32).slice (Rect.unit (s := S409600x128) off S32x128.size inb) (fun _ => rfl)).view fd
    (ReadAs.same.apply ((((sO : Memref sig .scVector .vmem S4x64x128 .f32).slice (Rect.unit (s := S4x64x128) offs S1x32x128.size inbs) (fun _ => rfl)).squeeze S32x128
      squeezes_S1x32x128_S32x128).view.read (Elt F) g))) (ix2 r c)
  refine Eq.trans hr ?_
  show g ((((sO : Memref sig .scVector .vmem S4x64x128 .f32).slice (Rect.unit (s := S4x64x128) offs S1x32x128.size inbs) (fun _ => rfl)).squeeze S32x128
      squeezes_S1x32x128_S32x128).view.emb (ix2 r c)) = _
  rw [half_emb dl h offs inbs hoffs r c, hg hG r c,
    oslice_emb ((planeOf G hG dl).val * 2048 + h.val * 1024 + (widL L).val * 32) off inb hoff r c (by rw [planeOf_val]; omega)]
  rfl

theorem landO_ok : LandO X d L where
  l00 := fun G hG off inb hoff fd g hg => landO_gen X d L 0 0 _ _ rfl G hG off inb hoff fd g hg
  l01 := fun G hG off inb hoff fd g hg => landO_gen X d L 0 1 _ _ rfl G hG off inb hoff fd g hg
  l10 := fun G hG off inb hoff fd g hg => landO_gen X d L 1 0 _ _ rfl G hG off inb hoff fd g hg
  l11 := fun G hG off inb hoff fd g hg => landO_gen X d L 1 1 _ _ rfl G hG off inb hoff fd g hg
  l20 := fun G hG off inb hoff fd g hg => landO_gen X d L 2 0 _ _ rfl G hG off inb hoff fd g hg
  l21 := fun G hG off inb hoff fd g hg => landO_gen X d L 2 1 _ _ rfl G hG off inb hoff fd g hg
  l30 := fun G hG off inb hoff fd g hg => landO_gen X d L 3 0 _ _ rfl G hG off inb hoff fd g hg
  l31 := fun G hG off inb hoff fd g hg => landO_gen X d L 3 1 _ _ rfl G hG off inb hoff fd g hg

end Cert.KernelIdeal.Hand

end
-- ==== Proof.InnerMath.lean ====
/-
  The inner loops of the tile kernel, without the program: which element of the computed planes each of a plane's 32
  blocks writes, what it writes there, and the step from "blocks below k are done" to "blocks below k + 1 are done" when
  block k's sixteen rows are stored.

  A computed plane out_v[dl] is [64, 128]. Block b (of 32) reads the sixteen words x_v[pin, dl, b / 8, 16 (b % 8) ..] and
  stores, for each bit i (of 16), the sixteen lanes of bit i of their Gray codes at row 32 (i / 8) + 8 (b / 8) + i % 8,
  columns 16 (b % 8) ..: rows [0, 32) (bits 0..7) are the plane's first half, rows [32, 64) (bits 8..15) its second.
  So element (dl, r, c) belongs to block 8 (r % 32 / 8) + c / 16, bit 8 (r / 32) + r % 8, lane c % 16.
-/
import proofs.«209186_g8847632630064_cont_9to1c4b_396_28_alg».proof.Proof.Common
import Idealize.ShloMosaic.Lib.WritesUnit
import Idealize.ShloMosaic.Lib.Pipeline.Value
import Idealize.ShloMosaic.Lib.ValueIdx

noncomputable section

namespace Cert.KernelIdeal.Hand.Inner

open Cert.KernelIdeal Cert.KernelIdeal.Gen Cert.KernelIdeal.Hand

open Idealize.ShloMosaic
open Idealize.ShloMosaic.ValueIdx

variable {F : FTy → Type} [FloatOps F]

/-! ## A list of equal tiles read at an element none of them covers -/

section Miss

variable {sig : RefSig} {κ : Kind} {sp : Space} {s : Shape} {e : EltTy} {Val : EltTy → Type} {NT : ℕ}
variable (v : View sig κ sp s e) (f : v.ty.Contents Val) (tsz : Fin s.rank → ℕ) (off : Fin NT → Fin s.rank → ℕ)
  (inb : ∀ i a, off i a + tsz a ≤ s.size a) (P : Fin NT → (⟨s.rank, tsz⟩ : Shape).Idx → Val e)

/-- An element that misses every tile on some axis reads what was there before the tiles were stored. -/
theorem read_tilePieces_miss (j : ℕ) (hj : j ≤ NT) (y : s.Idx)
    (hmiss : ∀ i : Fin NT, ∃ a, (y a).val < off i a ∨ off i a + tsz a ≤ (y a).val) :
    v.read Val (v.writes Val f (View.tilePieces tsz off inb P j hj)) y = v.read Val f y := by
  induction j with
  | zero => rfl
  | succ j ih =>
    rw [View.tilePieces_succ]
    obtain ⟨a, ha⟩ := hmiss ⟨j, hj⟩
    rw [View.read_writes_cons_unit_of_not_mem v f (inb ⟨j, hj⟩) (P ⟨j, hj⟩) _ y rfl a ha]
    exact ih (Nat.le_of_succ_le hj)

end Miss

/-! ## Blocks, bits, lanes -/

/-- The block an element of a computed plane belongs to. -/
def oBlk (y : S4x64x128.Idx) : ℕ := (y 1).val % 32 / 8 * 8 + (y 2).val / 16

/-- The bit of the Gray code an element of a computed plane holds. -/
def oBit (y : S4x64x128.Idx) : Fin 16 :=
  ⟨(y 1).val / 32 * 8 + (y 1).val % 8, by have h1 : (y 1).val < 64 := (y 1).isLt; omega⟩

/-- The sixteen words of plane dl of fetched group pin that block b reads. -/
def xBlk (fx : S2x4x4x128.Idx → Elt F .f32) (pin : Fin 2) (dl : Fin 4) (b : ℕ) : Vec F S16 .f32 :=
  fun l => fx (ix4 pin dl (⟨b / 8 % 4, Nat.mod_lt _ (by decide)⟩ : Fin 4)
    (⟨(b % 8 * 16 + (l 0).val) % 128, Nat.mod_lt _ (by decide)⟩ : Fin 128))

/-- What the finished loop leaves at element y of plane dl. -/
def oVal (fx : S2x4x4x128.Idx → Elt F .f32) (pin : Fin 2) (dl : Fin 4) (y : S4x64x128.Idx) : Elt F .f32 :=
  gcVec (oBit y) (xBlk fx pin dl (oBlk y)) (ix1 (⟨(y 2).val % 16, Nat.mod_lt _ (by decide)⟩ : Fin 16))

/-- Half h of plane dl after the blocks below k: their elements at the loop's value, every other element as f0 has it. -/
def GoodH (fx : S2x4x4x128.Idx → Elt F .f32) (pin : Fin 2) (dl : Fin 4) (h : Fin 2) (f0 g : S4x64x128.Idx → Elt F .f32) (k : ℕ) : Prop :=
  ∀ y : S4x64x128.Idx, g y = if (y 0).val = dl.val ∧ (y 1).val / 32 = h.val ∧ oBlk y < k then oVal fx pin dl y else f0 y

theorem goodH_zero (fx : S2x4x4x128.Idx → Elt F .f32) (pin : Fin 2) (dl : Fin 4) (h : Fin 2) (f0 : S4x64x128.Idx → Elt F .f32) :
    GoodH fx pin dl h f0 f0 0 := fun y => by
  rw [if_neg]; rintro ⟨-, -, h⟩; exact Nat.not_lt_zero _ h

/-- One block's eight rows of half h, stored over contents good below k, leave contents good below k + 1. -/
theorem goodH_step (fx : S2x4x4x128.Idx → Elt F .f32) (pin : Fin 2) (dl : Fin 4) (h : Fin 2) (f0 : S4x64x128.Idx → Elt F .f32)
    (g : S4x64x128.Idx → Elt F .f32) (k : ℕ) (hk : k < 32)
    (off : Fin 8 → Fin 3 → ℕ) (inb : ∀ i a, off i a + S1x1x16.size a ≤ S4x64x128.size a)
    (hoff : ∀ i : Fin 8, off i = ![dl.val, 32 * h.val + k / 8 * 8 + i.val, k % 8 * 16])
    (xv : Vec F S16 .f32) (hxv : xv = xBlk fx pin dl k)
    (P : Fin 8 → (⟨3, S1x1x16.size⟩ : Shape).Idx → Elt F .f32)
    (hP : ∀ i : Fin 8, P i = shapeCast S1x1x16 (gcVec (⟨8 * h.val + i.val, by omega⟩ : Fin 16) xv) shapeCasts_S16_S1x1x16)
    (hg : GoodH fx pin dl h f0 g k) :
    GoodH fx pin dl h f0 ((sO : Memref sig .scVector .vmem S4x64x128 .f32).view.writes (Elt F) g (View.tilePieces S1x1x16.size off inb P 8 le_rfl)) (k + 1) := by
  intro y
  show (sO : Memref sig .scVector .vmem S4x64x128 .f32).view.read (Elt F) ((sO : Memref sig .scVector .vmem S4x64x128 .f32).view.writes (Elt F) g (View.tilePieces S1x1x16.size off inb P 8 le_rfl)) y = _
  have h0 : (y 0).val < 4 := (y 0).isLt
  have h1 : (y 1).val < 64 := (y 1).isLt
  have h2 : (y 2).val < 128 := (y 2).isLt
  have hd : dl.val < 4 := dl.isLt
  have hh : h.val < 2 := h.isLt
  by_cases hy : (y 0).val = dl.val ∧ (y 1).val / 32 = h.val ∧ oBlk y = k
  · obtain ⟨hy0, hy1, hyb⟩ := hy
    have hi : (y 1).val % 8 < 8 := Nat.mod_lt _ (by decide)
    have hl : (y 2).val % 16 < 16 := Nat.mod_lt _ (by decide)
    have hyb' : (y 1).val % 32 / 8 * 8 + (y 2).val / 16 = k := hyb
    rw [if_pos ⟨hy0, hy1, by omega⟩]
    rw [View.read_tilePieces (sO : Memref sig .scVector .vmem S4x64x128 .f32).view g S1x1x16.size off inb P 8 le_rfl y ⟨(y 1).val % 8, hi⟩ hi
      (ix3 (0 : Fin 1) (0 : Fin 1) (⟨(y 2).val % 16, hl⟩ : Fin 16))
      (fun a => by
        rw [hoff]
        match a with
        | ⟨0, _⟩ => show (y 0).val = dl.val + 0; omega
        | ⟨1, _⟩ => show (y 1).val = 32 * h.val + k / 8 * 8 + (y 1).val % 8 + 0; omega
        | ⟨2, _⟩ => show (y 2).val = k % 8 * 16 + (y 2).val % 16; omega)
      (1 : Fin 3)
      (fun i' hne => by
        rw [hoff]
        have : i'.val ≠ (y 1).val % 8 := fun e => hne (Fin.ext e)
        have hi' : i'.val < 8 := i'.isLt
        show (y 1).val < 32 * h.val + k / 8 * 8 + i'.val ∨ 32 * h.val + k / 8 * 8 + i'.val + 1 ≤ (y 1).val
        omega)]
    rw [hP, shapeCast_apply _ _ _ (ix1 (⟨(y 2).val % 16, hl⟩ : Fin 16)) (by
      rw [Shape.rowMajor_val_one, Shape.rowMajor_val_three]
      show (y 2).val % 16 = (0 * 1 + 0) * 16 + (y 2).val % 16
      omega)]
    have e1 : (⟨8 * h.val + (y 1).val % 8, by omega⟩ : Fin 16) = oBit y := Fin.ext (by show 8 * h.val + (y 1).val % 8 = (y 1).val / 32 * 8 + (y 1).val % 8; omega)
    show gcVec _ xv _ = gcVec (oBit y) (xBlk fx pin dl (oBlk y)) _
    rw [e1, hxv, hyb]
  · have hmiss : ∀ i : Fin 8, ∃ a, (y a).val < off i a ∨ off i a + S1x1x16.size a ≤ (y a).val := by
      intro i
      have hi' : i.val < 8 := i.isLt
      rw [hoff]
      by_cases hy0 : (y 0).val = dl.val
      · by_cases hy2 : (y 2).val / 16 = k % 8
        · refine ⟨(1 : Fin 3), ?_⟩
          show (y 1).val < 32 * h.val + k / 8 * 8 + i.val ∨ 32 * h.val + k / 8 * 8 + i.val + 1 ≤ (y 1).val
          have : (y 1).val ≠ 32 * h.val + k / 8 * 8 + i.val := fun e => hy ⟨hy0, by omega, by show (y 1).val % 32 / 8 * 8 + (y 2).val / 16 = k; omega⟩
          omega
        · refine ⟨(2 : Fin 3), ?_⟩
          show (y 2).val < k % 8 * 16 ∨ k % 8 * 16 + 16 ≤ (y 2).val
          omega
      · refine ⟨(0 : Fin 3), ?_⟩
        show (y 0).val < dl.val ∨ dl.val + 1 ≤ (y 0).val
        omega
    rw [read_tilePieces_miss (sO : Memref sig .scVector .vmem S4x64x128 .f32).view g S1x1x16.size off inb P 8 le_rfl y hmiss]
    show g y = _
    rw [hg y]
    have hc : ((y 0).val = dl.val ∧ (y 1).val / 32 = h.val ∧ oBlk y < k + 1) ↔ ((y 0).val = dl.val ∧ (y 1).val / 32 = h.val ∧ oBlk y < k) := by
      constructor
      · rintro ⟨a, b, c⟩
        have : oBlk y ≠ k := fun e => hy ⟨a, b, e⟩
        exact ⟨a, b, by omega⟩
      · rintro ⟨a, b, c⟩
        exact ⟨a, b, by omega⟩
    simp only [hc]

/-- After all 32 blocks: plane dl's half h at the loop's value everywhere. -/
theorem goodH_done (fx : S2x4x4x128.Idx → Elt F .f32) (pin : Fin 2) (dl : Fin 4) (h : Fin 2) (f0 g : S4x64x128.Idx → Elt F .f32)
    (hg : GoodH fx pin dl h f0 g 32) (y : S4x64x128.Idx) (hy0 : (y 0).val = dl.val) (hy1 : (y 1).val / 32 = h.val) :
    g y = oVal fx pin dl y := by
  have h1 : (y 1).val < 64 := (y 1).isLt
  have h2 : (y 2).val < 128 := (y 2).isLt
  rw [hg y, if_pos ⟨hy0, hy1, by show (y 1).val % 32 / 8 * 8 + (y 2).val / 16 < 32; omega⟩]

/-- The vector a block loads is its sixteen words. -/
theorem xload_eq (fx : S2x4x4x128.Idx → Elt F .f32) (pin : Fin 2) (dl : Fin 4) (k : ℕ) (hk : k < 32)
    (off6 : Fin 4 → ℕ) (inb6 : ∀ a, off6 a + S1x1x1x16.size a ≤ S2x4x4x128.size a)
    (h6 : off6 = ![pin.val, dl.val, k / 8, k % 8 * 16]) :
    shapeCast S16 (View.readAt (Elt F) (sX : Memref sig .scVector .vmem S2x4x4x128 .f32).view (Rect.unit (s := S2x4x4x128) off6 S1x1x1x16.size inb6).toLoadRect fx) shapeCasts_S1x1x1x16_S16
      = xBlk fx pin dl k := by
  subst h6
  funext l
  have hl : (l 0).val < 16 := (l 0).isLt
  rw [shapeCast_apply _ _ l (ix4 (0 : Fin 1) (0 : Fin 1) (0 : Fin 1) (⟨(l 0).val, hl⟩ : Fin 16)) (by
    rw [Shape.rowMajor_val_four, Shape.rowMajor_val_one]
    show ((0 * 1 + 0) * 1 + 0) * 16 + (l 0).val = (l 0).val
    omega)]
  rw [View.readAt_apply]
  unfold xBlk
  congr 1
  funext a
  apply Fin.ext
  match a with
  | ⟨0, _⟩ => show pin.val + 1 * 0 = pin.val; omega
  | ⟨1, _⟩ => show dl.val + 1 * 0 = dl.val; omega
  | ⟨2, _⟩ => show k / 8 + 1 * 0 = k / 8 % 4; omega
  | ⟨3, _⟩ => show k % 8 * 16 + 1 * (l 0).val = (k % 8 * 16 + (l 0).val) % 128; omega

/-! ## The tile's thread, and its scratch slices as the transfers address them -/

open Idealize.ShloMosaic.SparseCore (S V T)

/-- The tile's thread at grid point L of device d. -/
abbrev tV (d : Dev nD) (L : grid0.Coords) : Thread nD τ := V d (cV L) (jV L)

/-- Fetched group pin: x_v[pin] as a [4, 4, 128] array. -/
abbrev xs0 : Memref sig .scVector .vmem S4x4x128 .f32 := ((sX : Memref sig .scVector .vmem S2x4x4x128 .f32).slice (Rect.unit (s := S2x4x4x128) ![0, 0, 0, 0] S1x4x4x128.size inb_S2x4x4x128_S1x4x4x128_0_0_0_0) (fun _ => rfl)).squeeze S4x4x128 squeezes_S1x4x4x128_S4x4x128
abbrev xs1 : Memref sig .scVector .vmem S4x4x128 .f32 := ((sX : Memref sig .scVector .vmem S2x4x4x128 .f32).slice (Rect.unit (s := S2x4x4x128) ![1, 0, 0, 0] S1x4x4x128.size inb_S2x4x4x128_S1x4x4x128_1_0_0_0) (fun _ => rfl)).squeeze S4x4x128 squeezes_S1x4x4x128_S4x4x128
/-- Half 0 of computed plane 0: out_v[0, 0 : 32] as a [32, 128] array. -/
abbrev oh00 : Memref sig .scVector .vmem S32x128 .f32 := ((sO : Memref sig .scVector .vmem S4x64x128 .f32).slice (Rect.unit (s := S4x64x128) ![0, 0, 0] S1x32x128.size inb_S4x64x128_S1x32x128_0_0_0) (fun _ => rfl)).squeeze S32x128 squeezes_S1x32x128_S32x128
/-- Half 1 of computed plane 0: out_v[0, 32 : 64] as a [32, 128] array. -/
abbrev oh01 : Memref sig .scVector .vmem S32x128 .f32 := ((sO : Memref sig .scVector .vmem S4x64x128 .f32).slice (Rect.unit (s := S4x64x128) ![0, 32, 0] S1x32x128.size inb_S4x64x128_S1x32x128_0_32_0) (fun _ => rfl)).squeeze S32x128 squeezes_S1x32x128_S32x128
/-- Half 0 of computed plane 1: out_v[1, 0 : 32] as a [32, 128] array. -/
abbrev oh10 : Memref sig .scVector .vmem S32x128 .f32 := ((sO : Memref sig .scVector .vmem S4x64x128 .f32).slice (Rect.unit (s := S4x64x128) ![1, 0, 0] S1x32x128.size inb_S4x64x128_S1x32x128_1_0_0) (fun _ => rfl)).squeeze S32x128 squeezes_S1x32x128_S32x128
/-- Half 1 of computed plane 1: out_v[1, 32 : 64] as a [32, 128] array. -/
abbrev oh11 : Memref sig .scVector .vmem S32x128 .f32 := ((sO : Memref sig .scVector .vmem S4x64x128 .f32).slice (Rect.unit (s := S4x64x128) ![1, 32, 0] S1x32x128.size inb_S4x64x128_S1x32x128_1_32_0) (fun _ => rfl)).squeeze S32x128 squeezes_S1x32x128_S32x128
/-- Half 0 of computed plane 2: out_v[2, 0 : 32] as a [32, 128] array. -/
abbrev oh20 : Memref sig .scVector .vmem S32x128 .f32 := ((sO : Memref sig .scVector .vmem S4x64x128 .f32).slice (Rect.unit (s := S4x64x128) ![2, 0, 0] S1x32x128.size inb_S4x64x128_S1x32x128_2_0_0) (fun _ => rfl)).squeeze S32x128 squeezes_S1x32x128_S32x128
/-- Half 1 of computed plane 2: out_v[2, 32 : 64] as a [32, 128] array. -/
abbrev oh21 : Memref sig .scVector .vmem S32x128 .f32 := ((sO : Memref sig .scVector .vmem S4x64x128 .f32).slice (Rect.unit (s := S4x64x128) ![2, 32, 0] S1x32x128.size inb_S4x64x128_S1x32x128_2_32_0) (fun _ => rfl)).squeeze S32x128 squeezes_S1x32x128_S32x128
/-- Half 0 of computed plane 3: out_v[3, 0 : 32] as a [32, 128] array. -/
abbrev oh30 : Memref sig .scVector .vmem S32x128 .f32 := ((sO : Memref sig .scVector .vmem S4x64x128 .f32).slice (Rect.unit (s := S4x64x128) ![3, 0, 0] S1x32x128.size inb_S4x64x128_S1x32x128_3_0_0) (fun _ => rfl)).squeeze S32x128 squeezes_S1x32x128_S32x128
/-- Half 1 of computed plane 3: out_v[3, 32 : 64] as a [32, 128] array. -/
abbrev oh31 : Memref sig .scVector .vmem S32x128 .f32 := ((sO : Memref sig .scVector .vmem S4x64x128 .f32).slice (Rect.unit (s := S4x64x128) ![3, 32, 0] S1x32x128.size inb_S4x64x128_S1x32x128_3_32_0) (fun _ => rfl)).squeeze S32x128 squeezes_S1x32x128_S32x128

end Cert.KernelIdeal.Hand.Inner

end
-- ==== Proof.TileGood.lean ====
/-
  The link between an inner loop's result and the kernel's value, as the outer trip cites it.
-/
import proofs.«209186_g8847632630064_cont_9to1c4b_396_28_alg».proof.Proof.Common
import proofs.«209186_g8847632630064_cont_9to1c4b_396_28_alg».proof.Proof.TileBufs
import proofs.«209186_g8847632630064_cont_9to1c4b_396_28_alg».proof.Proof.TileSlices
import proofs.«209186_g8847632630064_cont_9to1c4b_396_28_alg».proof.Proof.TileInv
import proofs.«209186_g8847632630064_cont_9to1c4b_396_28_alg».proof.Proof.InnerMath

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop shareTokN)
open Idealize.ShloMosaic.Tactic

variable {F : FTy → Type}

local notation "𝕄" => MT nD τ sig (HIx 1) (Elt F) ℕ UU ℕ

variable [FloatOps F]
variable (X : (d : Dev nD) → Buf (Elt F) (x3Loc d))
variable (d : Dev nD) (L : grid0.Coords)

open Idealize.ShloMosaic.ValueIdx

/-- An inner loop run to its end over a slot holding group `G` leaves the half plane holding the tile's rows of o. -/
structure GoodOk : Prop where
  good : ∀ (G : ℕ) (_ : G < 50) (pin : Fin 2) (dl : Fin 4) (h : Fin 2) (fx : S2x4x4x128.Idx → Elt F .f32) (f0 g : S4x64x128.Idx → Elt F .f32),
    XsOk X d L G pin fx → Inner.GoodH fx pin dl h f0 g 32 → OhOk X d L G dl h g

end Cert.KernelIdeal.Hand

end
-- ==== Proof.TileGoodOk.lean ====
/-
  The inner loop's result is the kernel's value: when a slot of the input scratch holds a group of four planes (the
  tile's four rows of each) and an inner loop has stored all 32 blocks of a half plane from it, the half plane holds
  the tile's rows of the result array for its plane — block by block, bit by bit, lane by lane the same sixteen
  words and the same bit of their Gray codes.
-/
import proofs.«209186_g8847632630064_cont_9to1c4b_396_28_alg».proof.Proof.TileGood

noncomputable section

namespace Cert.KernelIdeal.Hand

open Cert.KernelIdeal Cert.KernelIdeal.Gen

open Idealize.ShloMosaic
open Idealize.ShloMosaic.SparseCore (S V T)
open Idealize.ShloMosaic.ValueIdx

variable {F : FTy → Type}
variable [FloatOps F]
variable (X : (d : Dev nD) → Buf (Elt F) (x3Loc d))
variable (d : Dev nD) (L : grid0.Coords)

/-- Element `[dl, 32 h + r, c]` of the computed planes is row `(4 G + dl) · 2048 + h · 1024 + 32 w + r`, column `c` of the
    result: the same bit `8 h + r % 8`, the same lane `c % 16`, of the same sixteen words — plane `4 G + dl`, row
    `4 w + r / 8`, columns `c / 16 · 16 ..` of the operand, which the slot holds at `[pin, dl, r / 8, ·]`. -/
theorem goodOk : GoodOk X d L where
  good := by
    intro G hG pin dl h fx f0 g hX hgood hG' r c
    have hw := (widL L).isLt
    have hdl := dl.isLt
    have hh := h.isLt
    have hr := r.isLt
    have hc := c.isLt
    -- the finished loop's value at the element
    rw [Inner.goodH_done fx pin dl h f0 g hgood (ix3 dl (⟨32 * h.val + r.val, by omega⟩ : Fin 64) c) rfl
      (by show (32 * h.val + r.val) / 32 = h.val; omega)]
    unfold Inner.oVal outLinF
    -- the same bit
    have ebit : Inner.oBit (ix3 dl (⟨32 * h.val + r.val, by omega⟩ : Fin 64) c)
        = (⟨((4 * G + dl.val) * 2048 + h.val * 1024 + (widL L).val * 32 + r.val) % 2048 / 1024 * 8
            + ((4 * G + dl.val) * 2048 + h.val * 1024 + (widL L).val * 32 + r.val) % 8, by omega⟩ : Fin 16) :=
      Fin.ext (by
        show (32 * h.val + r.val) / 32 * 8 + (32 * h.val + r.val) % 8
          = ((4 * G + dl.val) * 2048 + h.val * 1024 + (widL L).val * 32 + r.val) % 2048 / 1024 * 8
            + ((4 * G + dl.val) * 2048 + h.val * 1024 + (widL L).val * 32 + r.val) % 8
        omega)
    -- the same sixteen words
    have evec : Inner.xBlk fx pin dl (Inner.oBlk (ix3 dl (⟨32 * h.val + r.val, by omega⟩ : Fin 64) c))
        = fun l : S16.Idx => X d (ix3 (⟨((4 * G + dl.val) * 2048 + h.val * 1024 + (widL L).val * 32 + r.val) / 2048, by omega⟩ : Fin 200)
            (⟨((4 * G + dl.val) * 2048 + h.val * 1024 + (widL L).val * 32 + r.val) % 1024 / 8, by omega⟩ : Fin 128)
            (⟨c.val / 16 * 16 + (l 0).val, by have hl : (l 0).val < 16 := (l 0).isLt; omega⟩ : Fin 128)) := by
      funext l
      have hl : (l 0).val < 16 := (l 0).isLt
      unfold Inner.xBlk
      have hb : Inner.oBlk (ix3 dl (⟨32 * h.val + r.val, by omega⟩ : Fin 64) c) = (32 * h.val + r.val) % 32 / 8 * 8 + c.val / 16 := rfl
      rw [hb, hX hG]
      congr 1
      funext b
      apply Fin.ext
      match b with
      | ⟨0, _⟩ =>
        show 4 * G + dl.val = ((4 * G + dl.val) * 2048 + h.val * 1024 + (widL L).val * 32 + r.val) / 2048
        omega
      | ⟨1, _⟩ =>
        show 4 * (widL L).val + ((32 * h.val + r.val) % 32 / 8 * 8 + c.val / 16) / 8 % 4
          = ((4 * G + dl.val) * 2048 + h.val * 1024 + (widL L).val * 32 + r.val) % 1024 / 8
        omega
      | ⟨2, _⟩ =>
        show (((32 * h.val + r.val) % 32 / 8 * 8 + c.val / 16) % 8 * 16 + (l 0).val) % 128 = c.val / 16 * 16 + (l 0).val
        omega
    rw [ebit, evec]

end Cert.KernelIdeal.Hand

end
-- ==== Proof.InnerLoopA.lean ====
/-
  The inner loops 2 and 3 of the tile kernel (planes 0 and 1 of fetched group 0): the closed forms of the
  offsets a block's load and its sixteen stores use, the loop's invariant — the fetched group unchanged, each half of the
  plane at the loop's value on the blocks done and as it was elsewhere —, one trip of the loop from the invariant at k to
  the invariant at k + 1, and the whole loop from it.
-/
import proofs.«209186_g8847632630064_cont_9to1c4b_396_28_alg».proof.Proof.InnerMath

noncomputable section

namespace Cert.KernelIdeal.Hand.Inner

open Cert.KernelIdeal Cert.KernelIdeal.Gen Cert.KernelIdeal.Hand

open Idealize.ShloMosaic
open Idealize.ShloMosaic.ValueIdx

variable {F : FTy → Type} [FloatOps F]

open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 1) (Elt F) ℕ UU ℕ

/-! ## Loop 2: plane 0 of fetched group 0 -/

theorem off6_eq : ∀ k : Fin k0_t2_loop.trips, k0_off6 k = ![0, 0, k.val / 8, k.val % 8 * 16] := by decide +kernel
theorem off7_eq : ∀ (k : Fin k0_t2_loop.trips) (r₁ : Fin 2) (r₂ : Fin 8),
    k0_off7 k (BitVec.ofNat 32 (32 * r₁.val)) (BitVec.ofNat 32 r₂.val) = ![0, 32 * r₁.val + k.val / 8 * 8 + r₂.val, k.val % 8 * 16] := by decide +kernel
instance closedOff6 (k : Fin k0_t2_loop.trips) : ClosedOff (k0_off6 k) := ⟨_, off6_eq k⟩
instance closedOff7_0_0 (k : Fin k0_t2_loop.trips) : ClosedOff (k0_off7 k 0#32 0#32) := ⟨_, off7_eq k 0 0⟩
instance closedOff7_0_1 (k : Fin k0_t2_loop.trips) : ClosedOff (k0_off7 k 0#32 1#32) := ⟨_, off7_eq k 0 1⟩
instance closedOff7_0_2 (k : Fin k0_t2_loop.trips) : ClosedOff (k0_off7 k 0#32 2#32) := ⟨_, off7_eq k 0 2⟩
instance closedOff7_0_3 (k : Fin k0_t2_loop.trips) : ClosedOff (k0_off7 k 0#32 3#32) := ⟨_, off7_eq k 0 3⟩
instance closedOff7_0_4 (k : Fin k0_t2_loop.trips) : ClosedOff (k0_off7 k 0#32 4#32) := ⟨_, off7_eq k 0 4⟩
instance closedOff7_0_5 (k : Fin k0_t2_loop.trips) : ClosedOff (k0_off7 k 0#32 5#32) := ⟨_, off7_eq k 0 5⟩
instance closedOff7_0_6 (k : Fin k0_t2_loop.trips) : ClosedOff (k0_off7 k 0#32 6#32) := ⟨_, off7_eq k 0 6⟩
instance closedOff7_0_7 (k : Fin k0_t2_loop.trips) : ClosedOff (k0_off7 k 0#32 7#32) := ⟨_, off7_eq k 0 7⟩
instance closedOff7_1_0 (k : Fin k0_t2_loop.trips) : ClosedOff (k0_off7 k 32#32 0#32) := ⟨_, off7_eq k 1 0⟩
instance closedOff7_1_1 (k : Fin k0_t2_loop.trips) : ClosedOff (k0_off7 k 32#32 1#32) := ⟨_, off7_eq k 1 1⟩
instance closedOff7_1_2 (k : Fin k0_t2_loop.trips) : ClosedOff (k0_off7 k 32#32 2#32) := ⟨_, off7_eq k 1 2⟩
instance closedOff7_1_3 (k : Fin k0_t2_loop.trips) : ClosedOff (k0_off7 k 32#32 3#32) := ⟨_, off7_eq k 1 3⟩
instance closedOff7_1_4 (k : Fin k0_t2_loop.trips) : ClosedOff (k0_off7 k 32#32 4#32) := ⟨_, off7_eq k 1 4⟩
instance closedOff7_1_5 (k : Fin k0_t2_loop.trips) : ClosedOff (k0_off7 k 32#32 5#32) := ⟨_, off7_eq k 1 5⟩
instance closedOff7_1_6 (k : Fin k0_t2_loop.trips) : ClosedOff (k0_off7 k 32#32 6#32) := ⟨_, off7_eq k 1 6⟩
instance closedOff7_1_7 (k : Fin k0_t2_loop.trips) : ClosedOff (k0_off7 k 32#32 7#32) := ⟨_, off7_eq k 1 7⟩

/-- Before block k of loop 2: group 0 as fetched, the two halves of plane 0 good below k. -/
def inv2 (d : Dev nD) (L : grid0.Coords) (fx : S2x4x4x128.Idx → Elt F .f32) (f0 f1 : S4x64x128.Idx → Elt F .f32) (k : ℕ) (_ : Unit) : sProp 𝕄 :=
  iprop(((xs0).view.loc (tV d L) ↦[(xs0).view.set]{fullShare} fx)
    ∗ (∃ g0, ((oh00).view.loc (tV d L) ↦[(oh00).view.set]{fullShare} g0) ∗ ⌜GoodH fx 0 0 0 f0 g0 k⌝)
    ∗ (∃ g1, ((oh01).view.loc (tV d L) ↦[(oh01).view.set]{fullShare} g1) ∗ ⌜GoodH fx 0 0 1 f1 g1 k⌝))

/-- One trip of loop 2. -/
theorem region2 (d : Dev nD) (L : grid0.Coords) (v1 : BitVec 32) (c0_i32_22 : BitVec 32) (c1_i32_23 : BitVec 32) (k0_t1 : Fin k0_t1_loop.trips)
    (fx : S2x4x4x128.Idx → Elt F .f32) (f0 f1 : S4x64x128.Idx → Elt F .f32) :
    ∀ (k : Fin k0_t2_loop.trips) (acc : Unit), inv2 (F := F) d L fx f0 f1 k.val acc
      ⊢ wp frame (wpE (defs₀ (F := F)) 𝒱₀ (tV d L) none) Set.univ
          (k0_t2_body L xV (Memref.isWhole_whole _) oV (Memref.isWhole_whole _) sX (Memref.isWhole_whole _) sO (Memref.isWhole_whole _)
            cc0_scratch2 cc0_scratch3 cc0_scratch4 cc0_scratch5 cc0_scratch6 cc0_scratch7 cc0_scratch8 cc0_scratch9 cc0_scratch10 cc0_scratch11
            v1 c0_i32_22 c1_i32_23 k0_t1 k acc)
          (inv2 (F := F) d L fx f0 f1 (k.val + 1)) := by
  intro k acc
  have hk : k.val < 32 := Nat.lt_of_lt_of_le k.isLt k0_t2_abs.2.1
  unfold inv2
  iintro ⟨Hx, ⟨%g0, Ho0, %hg0⟩, ⟨%g1, Ho1, %hg1⟩⟩
  unfold k0_t2_body
  sl_exec_parts
  sl_step
  isplitl [Hx]; · iexact Hx
  isplitl [Ho0]
  · iexists _; isplitl [Ho0]; · iexact Ho0
    ipureintro
    exact goodH_step fx 0 0 0 f0 g0 k.val hk
      (fun i => k0_off7 k (BitVec.ofNat 32 (32 * (0 : Fin 2).val)) (BitVec.ofNat 32 i.val)) (fun i => k0_off7_inb k 0 i) (fun i => off7_eq k 0 i)
      _ (xload_eq fx 0 0 k.val hk _ (k0_off6_inb k) (off6_eq k))
      (fun i => shapeCast S1x1x16 (gcVec (⟨8 * (0 : Fin 2).val + i.val, by have := i.isLt; omega⟩ : Fin 16) _) shapeCasts_S16_S1x1x16) (fun i => rfl) hg0
  · iexists _; isplitl [Ho1]; · iexact Ho1
    ipureintro
    exact goodH_step fx 0 0 1 f1 g1 k.val hk
      (fun i => k0_off7 k (BitVec.ofNat 32 (32 * (1 : Fin 2).val)) (BitVec.ofNat 32 i.val)) (fun i => k0_off7_inb k 1 i) (fun i => off7_eq k 1 i)
      _ (xload_eq fx 0 0 k.val hk _ (k0_off6_inb k) (off6_eq k))
      (fun i => shapeCast S1x1x16 (gcVec (⟨8 * (1 : Fin 2).val + i.val, by have := i.isLt; omega⟩ : Fin 16) _) shapeCasts_S16_S1x1x16) (fun i => rfl) hg1

theorem trips2 : Scf.trips k0_t2_loop.lb k0_t2_loop.ub k0_t2_loop.st = 32 := by decide +kernel

/-- Loop 2 whole: from group 0 as fetched and the two halves of plane 0 at any contents, to the halves at the
    loop's value (on their own elements; elsewhere as they were). -/
theorem loop2 (d : Dev nD) (L : grid0.Coords) (v1 : BitVec 32) (c0_i32_22 : BitVec 32) (c1_i32_23 : BitVec 32) (k0_t1 : Fin k0_t1_loop.trips)
    (fx : S2x4x4x128.Idx → Elt F .f32) (f0 f1 : S4x64x128.Idx → Elt F .f32) :
    iprop(((xs0).view.loc (tV d L) ↦[(xs0).view.set]{fullShare} fx)
        ∗ ((oh00).view.loc (tV d L) ↦[(oh00).view.set]{fullShare} f0)
        ∗ ((oh01).view.loc (tV d L) ↦[(oh01).view.set]{fullShare} f1))
      ⊢ (wp frame (wpE (defs₀ (F := F)) 𝒱₀ (tV d L) none) Set.univ
          (Scf.Loop.for k0_t2_loop k0_t2_ok ⟨⟩
            (k0_t2_body L xV (Memref.isWhole_whole _) oV (Memref.isWhole_whole _) sX (Memref.isWhole_whole _) sO (Memref.isWhole_whole _)
              cc0_scratch2 cc0_scratch3 cc0_scratch4 cc0_scratch5 cc0_scratch6 cc0_scratch7 cc0_scratch8 cc0_scratch9 cc0_scratch10 cc0_scratch11
              v1 c0_i32_22 c1_i32_23 k0_t1))
          (fun _ => inv2 (F := F) d L fx f0 f1 32 ()) : sProp 𝕄) := by
  iintro ⟨Hx, Ho0, Ho1⟩
  sl_for (inv2 (F := F) d L fx f0 f1) $$ [Hx Ho0 Ho1]
  case region => exact region2 d L v1 c0_i32_22 c1_i32_23 k0_t1 fx f0 f1
  isplitl [Hx Ho0 Ho1]
  · unfold inv2
    isplitl [Hx]; · iexact Hx
    isplitl [Ho0]
    · iexists f0; isplitl [Ho0]; · iexact Ho0
      ipureintro; exact goodH_zero fx 0 0 0 f0
    · iexists f1; isplitl [Ho1]; · iexact Ho1
      ipureintro; exact goodH_zero fx 0 0 1 f1
  · rw [trips2]
    iintro %acc HI
    iexact HI

/-! ## Loop 3: plane 1 of fetched group 0 -/

theorem off12_eq : ∀ k : Fin k0_t3_loop.trips, k0_off12 k = ![0, 1, k.val / 8, k.val % 8 * 16] := by decide +kernel
theorem off13_eq : ∀ (k : Fin k0_t3_loop.trips) (r₁ : Fin 2) (r₂ : Fin 8),
    k0_off13 k (BitVec.ofNat 32 (32 * r₁.val)) (BitVec.ofNat 32 r₂.val) = ![1, 32 * r₁.val + k.val / 8 * 8 + r₂.val, k.val % 8 * 16] := by decide +kernel
instance closedOff12 (k : Fin k0_t3_loop.trips) : ClosedOff (k0_off12 k) := ⟨_, off12_eq k⟩
instance closedOff13_0_0 (k : Fin k0_t3_loop.trips) : ClosedOff (k0_off13 k 0#32 0#32) := ⟨_, off13_eq k 0 0⟩
instance closedOff13_0_1 (k : Fin k0_t3_loop.trips) : ClosedOff (k0_off13 k 0#32 1#32) := ⟨_, off13_eq k 0 1⟩
instance closedOff13_0_2 (k : Fin k0_t3_loop.trips) : ClosedOff (k0_off13 k 0#32 2#32) := ⟨_, off13_eq k 0 2⟩
instance closedOff13_0_3 (k : Fin k0_t3_loop.trips) : ClosedOff (k0_off13 k 0#32 3#32) := ⟨_, off13_eq k 0 3⟩
instance closedOff13_0_4 (k : Fin k0_t3_loop.trips) : ClosedOff (k0_off13 k 0#32 4#32) := ⟨_, off13_eq k 0 4⟩
instance closedOff13_0_5 (k : Fin k0_t3_loop.trips) : ClosedOff (k0_off13 k 0#32 5#32) := ⟨_, off13_eq k 0 5⟩
instance closedOff13_0_6 (k : Fin k0_t3_loop.trips) : ClosedOff (k0_off13 k 0#32 6#32) := ⟨_, off13_eq k 0 6⟩
instance closedOff13_0_7 (k : Fin k0_t3_loop.trips) : ClosedOff (k0_off13 k 0#32 7#32) := ⟨_, off13_eq k 0 7⟩
instance closedOff13_1_0 (k : Fin k0_t3_loop.trips) : ClosedOff (k0_off13 k 32#32 0#32) := ⟨_, off13_eq k 1 0⟩
instance closedOff13_1_1 (k : Fin k0_t3_loop.trips) : ClosedOff (k0_off13 k 32#32 1#32) := ⟨_, off13_eq k 1 1⟩
instance closedOff13_1_2 (k : Fin k0_t3_loop.trips) : ClosedOff (k0_off13 k 32#32 2#32) := ⟨_, off13_eq k 1 2⟩
instance closedOff13_1_3 (k : Fin k0_t3_loop.trips) : ClosedOff (k0_off13 k 32#32 3#32) := ⟨_, off13_eq k 1 3⟩
instance closedOff13_1_4 (k : Fin k0_t3_loop.trips) : ClosedOff (k0_off13 k 32#32 4#32) := ⟨_, off13_eq k 1 4⟩
instance closedOff13_1_5 (k : Fin k0_t3_loop.trips) : ClosedOff (k0_off13 k 32#32 5#32) := ⟨_, off13_eq k 1 5⟩
instance closedOff13_1_6 (k : Fin k0_t3_loop.trips) : ClosedOff (k0_off13 k 32#32 6#32) := ⟨_, off13_eq k 1 6⟩
instance closedOff13_1_7 (k : Fin k0_t3_loop.trips) : ClosedOff (k0_off13 k 32#32 7#32) := ⟨_, off13_eq k 1 7⟩

/-- Before block k of loop 3: group 0 as fetched, the two halves of plane 1 good below k. -/
def inv3 (d : Dev nD) (L : grid0.Coords) (fx : S2x4x4x128.Idx → Elt F .f32) (f0 f1 : S4x64x128.Idx → Elt F .f32) (k : ℕ) (_ : Unit) : sProp 𝕄 :=
  iprop(((xs0).view.loc (tV d L) ↦[(xs0).view.set]{fullShare} fx)
    ∗ (∃ g0, ((oh10).view.loc (tV d L) ↦[(oh10).view.set]{fullShare} g0) ∗ ⌜GoodH fx 0 1 0 f0 g0 k⌝)
    ∗ (∃ g1, ((oh11).view.loc (tV d L) ↦[(oh11).view.set]{fullShare} g1) ∗ ⌜GoodH fx 0 1 1 f1 g1 k⌝))

/-- One trip of loop 3. -/
theorem region3 (d : Dev nD) (L : grid0.Coords) (v1 : BitVec 32) (k0_t1 : Fin k0_t1_loop.trips) (v77 : BitVec 32) (v90 : BitVec 32) (c1024_i32_115 : BitVec 32)
    (fx : S2x4x4x128.Idx → Elt F .f32) (f0 f1 : S4x64x128.Idx → Elt F .f32) :
    ∀ (k : Fin k0_t3_loop.trips) (acc : Unit), inv3 (F := F) d L fx f0 f1 k.val acc
      ⊢ wp frame (wpE (defs₀ (F := F)) 𝒱₀ (tV d L) none) Set.univ
          (k0_t3_body L xV (Memref.isWhole_whole _) oV (Memref.isWhole_whole _) sX (Memref.isWhole_whole _) sO (Memref.isWhole_whole _)
            cc0_scratch2 cc0_scratch3 cc0_scratch4 cc0_scratch5 cc0_scratch6 cc0_scratch7 cc0_scratch8 cc0_scratch9 cc0_scratch10 cc0_scratch11
            v1 k0_t1 v77 v90 c1024_i32_115 k acc)
          (inv3 (F := F) d L fx f0 f1 (k.val + 1)) := by
  intro k acc
  have hk : k.val < 32 := Nat.lt_of_lt_of_le k.isLt k0_t3_abs.2.1
  unfold inv3
  iintro ⟨Hx, ⟨%g0, Ho0, %hg0⟩, ⟨%g1, Ho1, %hg1⟩⟩
  unfold k0_t3_body
  sl_exec_parts
  sl_step
  isplitl [Hx]; · iexact Hx
  isplitl [Ho0]
  · iexists _; isplitl [Ho0]; · iexact Ho0
    ipureintro
    exact goodH_step fx 0 1 0 f0 g0 k.val hk
      (fun i => k0_off13 k (BitVec.ofNat 32 (32 * (0 : Fin 2).val)) (BitVec.ofNat 32 i.val)) (fun i => k0_off13_inb k 0 i) (fun i => off13_eq k 0 i)
      _ (xload_eq fx 0 1 k.val hk _ (k0_off12_inb k) (off12_eq k))
      (fun i => shapeCast S1x1x16 (gcVec (⟨8 * (0 : Fin 2).val + i.val, by have := i.isLt; omega⟩ : Fin 16) _) shapeCasts_S16_S1x1x16) (fun i => rfl) hg0
  · iexists _; isplitl [Ho1]; · iexact Ho1
    ipureintro
    exact goodH_step fx 0 1 1 f1 g1 k.val hk
      (fun i => k0_off13 k (BitVec.ofNat 32 (32 * (1 : Fin 2).val)) (BitVec.ofNat 32 i.val)) (fun i => k0_off13_inb k 1 i) (fun i => off13_eq k 1 i)
      _ (xload_eq fx 0 1 k.val hk _ (k0_off12_inb k) (off12_eq k))
      (fun i => shapeCast S1x1x16 (gcVec (⟨8 * (1 : Fin 2).val + i.val, by have := i.isLt; omega⟩ : Fin 16) _) shapeCasts_S16_S1x1x16) (fun i => rfl) hg1

theorem trips3 : Scf.trips k0_t3_loop.lb k0_t3_loop.ub k0_t3_loop.st = 32 := by decide +kernel

/-- Loop 3 whole: from group 0 as fetched and the two halves of plane 1 at any contents, to the halves at the
    loop's value (on their own elements; elsewhere as they were). -/
theorem loop3 (d : Dev nD) (L : grid0.Coords) (v1 : BitVec 32) (k0_t1 : Fin k0_t1_loop.trips) (v77 : BitVec 32) (v90 : BitVec 32) (c1024_i32_115 : BitVec 32)
    (fx : S2x4x4x128.Idx → Elt F .f32) (f0 f1 : S4x64x128.Idx → Elt F .f32) :
    iprop(((xs0).view.loc (tV d L) ↦[(xs0).view.set]{fullShare} fx)
        ∗ ((oh10).view.loc (tV d L) ↦[(oh10).view.set]{fullShare} f0)
        ∗ ((oh11).view.loc (tV d L) ↦[(oh11).view.set]{fullShare} f1))
      ⊢ (wp frame (wpE (defs₀ (F := F)) 𝒱₀ (tV d L) none) Set.univ
          (Scf.Loop.for k0_t3_loop k0_t3_ok ⟨⟩
            (k0_t3_body L xV (Memref.isWhole_whole _) oV (Memref.isWhole_whole _) sX (Memref.isWhole_whole _) sO (Memref.isWhole_whole _)
              cc0_scratch2 cc0_scratch3 cc0_scratch4 cc0_scratch5 cc0_scratch6 cc0_scratch7 cc0_scratch8 cc0_scratch9 cc0_scratch10 cc0_scratch11
              v1 k0_t1 v77 v90 c1024_i32_115))
          (fun _ => inv3 (F := F) d L fx f0 f1 32 ()) : sProp 𝕄) := by
  iintro ⟨Hx, Ho0, Ho1⟩
  sl_for (inv3 (F := F) d L fx f0 f1) $$ [Hx Ho0 Ho1]
  case region => exact region3 d L v1 k0_t1 v77 v90 c1024_i32_115 fx f0 f1
  isplitl [Hx Ho0 Ho1]
  · unfold inv3
    isplitl [Hx]; · iexact Hx
    isplitl [Ho0]
    · iexists f0; isplitl [Ho0]; · iexact Ho0
      ipureintro; exact goodH_zero fx 0 1 0 f0
    · iexists f1; isplitl [Ho1]; · iexact Ho1
      ipureintro; exact goodH_zero fx 0 1 1 f1
  · rw [trips3]
    iintro %acc HI
    iexact HI

end Cert.KernelIdeal.Hand.Inner

end
-- ==== Proof.InnerLoopB.lean ====
/-
  The inner loops 4 and 5 of the tile kernel (planes 2 and 3 of fetched group 0): the closed forms of the
  offsets a block's load and its sixteen stores use, the loop's invariant — the fetched group unchanged, each half of the
  plane at the loop's value on the blocks done and as it was elsewhere —, one trip of the loop from the invariant at k to
  the invariant at k + 1, and the whole loop from it.
-/
import proofs.«209186_g8847632630064_cont_9to1c4b_396_28_alg».proof.Proof.InnerMath

noncomputable section

namespace Cert.KernelIdeal.Hand.Inner

open Cert.KernelIdeal Cert.KernelIdeal.Gen Cert.KernelIdeal.Hand

open Idealize.ShloMosaic
open Idealize.ShloMosaic.ValueIdx

variable {F : FTy → Type} [FloatOps F]

open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 1) (Elt F) ℕ UU ℕ

/-! ## Loop 4: plane 2 of fetched group 0 -/

theorem off16_eq : ∀ k : Fin k0_t4_loop.trips, k0_off16 k = ![0, 2, k.val / 8, k.val % 8 * 16] := by decide +kernel
theorem off17_eq : ∀ (k : Fin k0_t4_loop.trips) (r₁ : Fin 2) (r₂ : Fin 8),
    k0_off17 k (BitVec.ofNat 32 (32 * r₁.val)) (BitVec.ofNat 32 r₂.val) = ![2, 32 * r₁.val + k.val / 8 * 8 + r₂.val, k.val % 8 * 16] := by decide +kernel
instance closedOff16 (k : Fin k0_t4_loop.trips) : ClosedOff (k0_off16 k) := ⟨_, off16_eq k⟩
instance closedOff17_0_0 (k : Fin k0_t4_loop.trips) : ClosedOff (k0_off17 k 0#32 0#32) := ⟨_, off17_eq k 0 0⟩
instance closedOff17_0_1 (k : Fin k0_t4_loop.trips) : ClosedOff (k0_off17 k 0#32 1#32) := ⟨_, off17_eq k 0 1⟩
instance closedOff17_0_2 (k : Fin k0_t4_loop.trips) : ClosedOff (k0_off17 k 0#32 2#32) := ⟨_, off17_eq k 0 2⟩
instance closedOff17_0_3 (k : Fin k0_t4_loop.trips) : ClosedOff (k0_off17 k 0#32 3#32) := ⟨_, off17_eq k 0 3⟩
instance closedOff17_0_4 (k : Fin k0_t4_loop.trips) : ClosedOff (k0_off17 k 0#32 4#32) := ⟨_, off17_eq k 0 4⟩
instance closedOff17_0_5 (k : Fin k0_t4_loop.trips) : ClosedOff (k0_off17 k 0#32 5#32) := ⟨_, off17_eq k 0 5⟩
instance closedOff17_0_6 (k : Fin k0_t4_loop.trips) : ClosedOff (k0_off17 k 0#32 6#32) := ⟨_, off17_eq k 0 6⟩
instance closedOff17_0_7 (k : Fin k0_t4_loop.trips) : ClosedOff (k0_off17 k 0#32 7#32) := ⟨_, off17_eq k 0 7⟩
instance closedOff17_1_0 (k : Fin k0_t4_loop.trips) : ClosedOff (k0_off17 k 32#32 0#32) := ⟨_, off17_eq k 1 0⟩
instance closedOff17_1_1 (k : Fin k0_t4_loop.trips) : ClosedOff (k0_off17 k 32#32 1#32) := ⟨_, off17_eq k 1 1⟩
instance closedOff17_1_2 (k : Fin k0_t4_loop.trips) : ClosedOff (k0_off17 k 32#32 2#32) := ⟨_, off17_eq k 1 2⟩
instance closedOff17_1_3 (k : Fin k0_t4_loop.trips) : ClosedOff (k0_off17 k 32#32 3#32) := ⟨_, off17_eq k 1 3⟩
instance closedOff17_1_4 (k : Fin k0_t4_loop.trips) : ClosedOff (k0_off17 k 32#32 4#32) := ⟨_, off17_eq k 1 4⟩
instance closedOff17_1_5 (k : Fin k0_t4_loop.trips) : ClosedOff (k0_off17 k 32#32 5#32) := ⟨_, off17_eq k 1 5⟩
instance closedOff17_1_6 (k : Fin k0_t4_loop.trips) : ClosedOff (k0_off17 k 32#32 6#32) := ⟨_, off17_eq k 1 6⟩
instance closedOff17_1_7 (k : Fin k0_t4_loop.trips) : ClosedOff (k0_off17 k 32#32 7#32) := ⟨_, off17_eq k 1 7⟩

/-- Before block k of loop 4: group 0 as fetched, the two halves of plane 2 good below k. -/
def inv4 (d : Dev nD) (L : grid0.Coords) (fx : S2x4x4x128.Idx → Elt F .f32) (f0 f1 : S4x64x128.Idx → Elt F .f32) (k : ℕ) (_ : Unit) : sProp 𝕄 :=
  iprop(((xs0).view.loc (tV d L) ↦[(xs0).view.set]{fullShare} fx)
    ∗ (∃ g0, ((oh20).view.loc (tV d L) ↦[(oh20).view.set]{fullShare} g0) ∗ ⌜GoodH fx 0 2 0 f0 g0 k⌝)
    ∗ (∃ g1, ((oh21).view.loc (tV d L) ↦[(oh21).view.set]{fullShare} g1) ∗ ⌜GoodH fx 0 2 1 f1 g1 k⌝))

/-- One trip of loop 4. -/
theorem region4 (d : Dev nD) (L : grid0.Coords) (v1 : BitVec 32) (k0_t1 : Fin k0_t1_loop.trips) (v77 : BitVec 32)
    (fx : S2x4x4x128.Idx → Elt F .f32) (f0 f1 : S4x64x128.Idx → Elt F .f32) :
    ∀ (k : Fin k0_t4_loop.trips) (acc : Unit), inv4 (F := F) d L fx f0 f1 k.val acc
      ⊢ wp frame (wpE (defs₀ (F := F)) 𝒱₀ (tV d L) none) Set.univ
          (k0_t4_body L xV (Memref.isWhole_whole _) oV (Memref.isWhole_whole _) sX (Memref.isWhole_whole _) sO (Memref.isWhole_whole _)
            cc0_scratch2 cc0_scratch3 cc0_scratch4 cc0_scratch5 cc0_scratch6 cc0_scratch7 cc0_scratch8 cc0_scratch9 cc0_scratch10 cc0_scratch11
            v1 k0_t1 v77 k acc)
          (inv4 (F := F) d L fx f0 f1 (k.val + 1)) := by
  intro k acc
  have hk : k.val < 32 := Nat.lt_of_lt_of_le k.isLt k0_t4_abs.2.1
  unfold inv4
  iintro ⟨Hx, ⟨%g0, Ho0, %hg0⟩, ⟨%g1, Ho1, %hg1⟩⟩
  unfold k0_t4_body
  sl_exec_parts
  sl_step
  isplitl [Hx]; · iexact Hx
  isplitl [Ho0]
  · iexists _; isplitl [Ho0]; · iexact Ho0
    ipureintro
    exact goodH_step fx 0 2 0 f0 g0 k.val hk
      (fun i => k0_off17 k (BitVec.ofNat 32 (32 * (0 : Fin 2).val)) (BitVec.ofNat 32 i.val)) (fun i => k0_off17_inb k 0 i) (fun i => off17_eq k 0 i)
      _ (xload_eq fx 0 2 k.val hk _ (k0_off16_inb k) (off16_eq k))
      (fun i => shapeCast S1x1x16 (gcVec (⟨8 * (0 : Fin 2).val + i.val, by have := i.isLt; omega⟩ : Fin 16) _) shapeCasts_S16_S1x1x16) (fun i => rfl) hg0
  · iexists _; isplitl [Ho1]; · iexact Ho1
    ipureintro
    exact goodH_step fx 0 2 1 f1 g1 k.val hk
      (fun i => k0_off17 k (BitVec.ofNat 32 (32 * (1 : Fin 2).val)) (BitVec.ofNat 32 i.val)) (fun i => k0_off17_inb k 1 i) (fun i => off17_eq k 1 i)
      _ (xload_eq fx 0 2 k.val hk _ (k0_off16_inb k) (off16_eq k))
      (fun i => shapeCast S1x1x16 (gcVec (⟨8 * (1 : Fin 2).val + i.val, by have := i.isLt; omega⟩ : Fin 16) _) shapeCasts_S16_S1x1x16) (fun i => rfl) hg1

theorem trips4 : Scf.trips k0_t4_loop.lb k0_t4_loop.ub k0_t4_loop.st = 32 := by decide +kernel

/-- Loop 4 whole: from group 0 as fetched and the two halves of plane 2 at any contents, to the halves at the
    loop's value (on their own elements; elsewhere as they were). -/
theorem loop4 (d : Dev nD) (L : grid0.Coords) (v1 : BitVec 32) (k0_t1 : Fin k0_t1_loop.trips) (v77 : BitVec 32)
    (fx : S2x4x4x128.Idx → Elt F .f32) (f0 f1 : S4x64x128.Idx → Elt F .f32) :
    iprop(((xs0).view.loc (tV d L) ↦[(xs0).view.set]{fullShare} fx)
        ∗ ((oh20).view.loc (tV d L) ↦[(oh20).view.set]{fullShare} f0)
        ∗ ((oh21).view.loc (tV d L) ↦[(oh21).view.set]{fullShare} f1))
      ⊢ (wp frame (wpE (defs₀ (F := F)) 𝒱₀ (tV d L) none) Set.univ
          (Scf.Loop.for k0_t4_loop k0_t4_ok ⟨⟩
            (k0_t4_body L xV (Memref.isWhole_whole _) oV (Memref.isWhole_whole _) sX (Memref.isWhole_whole _) sO (Memref.isWhole_whole _)
              cc0_scratch2 cc0_scratch3 cc0_scratch4 cc0_scratch5 cc0_scratch6 cc0_scratch7 cc0_scratch8 cc0_scratch9 cc0_scratch10 cc0_scratch11
              v1 k0_t1 v77))
          (fun _ => inv4 (F := F) d L fx f0 f1 32 ()) : sProp 𝕄) := by
  iintro ⟨Hx, Ho0, Ho1⟩
  sl_for (inv4 (F := F) d L fx f0 f1) $$ [Hx Ho0 Ho1]
  case region => exact region4 d L v1 k0_t1 v77 fx f0 f1
  isplitl [Hx Ho0 Ho1]
  · unfold inv4
    isplitl [Hx]; · iexact Hx
    isplitl [Ho0]
    · iexists f0; isplitl [Ho0]; · iexact Ho0
      ipureintro; exact goodH_zero fx 0 2 0 f0
    · iexists f1; isplitl [Ho1]; · iexact Ho1
      ipureintro; exact goodH_zero fx 0 2 1 f1
  · rw [trips4]
    iintro %acc HI
    iexact HI

/-! ## Loop 5: plane 3 of fetched group 0 -/

theorem off20_eq : ∀ k : Fin k0_t5_loop.trips, k0_off20 k = ![0, 3, k.val / 8, k.val % 8 * 16] := by decide +kernel
theorem off21_eq : ∀ (k : Fin k0_t5_loop.trips) (r₁ : Fin 2) (r₂ : Fin 8),
    k0_off21 k (BitVec.ofNat 32 (32 * r₁.val)) (BitVec.ofNat 32 r₂.val) = ![3, 32 * r₁.val + k.val / 8 * 8 + r₂.val, k.val % 8 * 16] := by decide +kernel
instance closedOff20 (k : Fin k0_t5_loop.trips) : ClosedOff (k0_off20 k) := ⟨_, off20_eq k⟩
instance closedOff21_0_0 (k : Fin k0_t5_loop.trips) : ClosedOff (k0_off21 k 0#32 0#32) := ⟨_, off21_eq k 0 0⟩
instance closedOff21_0_1 (k : Fin k0_t5_loop.trips) : ClosedOff (k0_off21 k 0#32 1#32) := ⟨_, off21_eq k 0 1⟩
instance closedOff21_0_2 (k : Fin k0_t5_loop.trips) : ClosedOff (k0_off21 k 0#32 2#32) := ⟨_, off21_eq k 0 2⟩
instance closedOff21_0_3 (k : Fin k0_t5_loop.trips) : ClosedOff (k0_off21 k 0#32 3#32) := ⟨_, off21_eq k 0 3⟩
instance closedOff21_0_4 (k : Fin k0_t5_loop.trips) : ClosedOff (k0_off21 k 0#32 4#32) := ⟨_, off21_eq k 0 4⟩
instance closedOff21_0_5 (k : Fin k0_t5_loop.trips) : ClosedOff (k0_off21 k 0#32 5#32) := ⟨_, off21_eq k 0 5⟩
instance closedOff21_0_6 (k : Fin k0_t5_loop.trips) : ClosedOff (k0_off21 k 0#32 6#32) := ⟨_, off21_eq k 0 6⟩
instance closedOff21_0_7 (k : Fin k0_t5_loop.trips) : ClosedOff (k0_off21 k 0#32 7#32) := ⟨_, off21_eq k 0 7⟩
instance closedOff21_1_0 (k : Fin k0_t5_loop.trips) : ClosedOff (k0_off21 k 32#32 0#32) := ⟨_, off21_eq k 1 0⟩
instance closedOff21_1_1 (k : Fin k0_t5_loop.trips) : ClosedOff (k0_off21 k 32#32 1#32) := ⟨_, off21_eq k 1 1⟩
instance closedOff21_1_2 (k : Fin k0_t5_loop.trips) : ClosedOff (k0_off21 k 32#32 2#32) := ⟨_, off21_eq k 1 2⟩
instance closedOff21_1_3 (k : Fin k0_t5_loop.trips) : ClosedOff (k0_off21 k 32#32 3#32) := ⟨_, off21_eq k 1 3⟩
instance closedOff21_1_4 (k : Fin k0_t5_loop.trips) : ClosedOff (k0_off21 k 32#32 4#32) := ⟨_, off21_eq k 1 4⟩
instance closedOff21_1_5 (k : Fin k0_t5_loop.trips) : ClosedOff (k0_off21 k 32#32 5#32) := ⟨_, off21_eq k 1 5⟩
instance closedOff21_1_6 (k : Fin k0_t5_loop.trips) : ClosedOff (k0_off21 k 32#32 6#32) := ⟨_, off21_eq k 1 6⟩
instance closedOff21_1_7 (k : Fin k0_t5_loop.trips) : ClosedOff (k0_off21 k 32#32 7#32) := ⟨_, off21_eq k 1 7⟩

/-- Before block k of loop 5: group 0 as fetched, the two halves of plane 3 good below k. -/
def inv5 (d : Dev nD) (L : grid0.Coords) (fx : S2x4x4x128.Idx → Elt F .f32) (f0 f1 : S4x64x128.Idx → Elt F .f32) (k : ℕ) (_ : Unit) : sProp 𝕄 :=
  iprop(((xs0).view.loc (tV d L) ↦[(xs0).view.set]{fullShare} fx)
    ∗ (∃ g0, ((oh30).view.loc (tV d L) ↦[(oh30).view.set]{fullShare} g0) ∗ ⌜GoodH fx 0 3 0 f0 g0 k⌝)
    ∗ (∃ g1, ((oh31).view.loc (tV d L) ↦[(oh31).view.set]{fullShare} g1) ∗ ⌜GoodH fx 0 3 1 f1 g1 k⌝))

/-- One trip of loop 5. -/
theorem region5 (d : Dev nD) (L : grid0.Coords) (v1 : BitVec 32) (k0_t1 : Fin k0_t1_loop.trips) (v77 : BitVec 32) (c4_i32_175 : BitVec 32)
    (fx : S2x4x4x128.Idx → Elt F .f32) (f0 f1 : S4x64x128.Idx → Elt F .f32) :
    ∀ (k : Fin k0_t5_loop.trips) (acc : Unit), inv5 (F := F) d L fx f0 f1 k.val acc
      ⊢ wp frame (wpE (defs₀ (F := F)) 𝒱₀ (tV d L) none) Set.univ
          (k0_t5_body L xV (Memref.isWhole_whole _) oV (Memref.isWhole_whole _) sX (Memref.isWhole_whole _) sO (Memref.isWhole_whole _)
            cc0_scratch2 cc0_scratch3 cc0_scratch4 cc0_scratch5 cc0_scratch6 cc0_scratch7 cc0_scratch8 cc0_scratch9 cc0_scratch10 cc0_scratch11
            v1 k0_t1 v77 c4_i32_175 k acc)
          (inv5 (F := F) d L fx f0 f1 (k.val + 1)) := by
  intro k acc
  have hk : k.val < 32 := Nat.lt_of_lt_of_le k.isLt k0_t5_abs.2.1
  unfold inv5
  iintro ⟨Hx, ⟨%g0, Ho0, %hg0⟩, ⟨%g1, Ho1, %hg1⟩⟩
  unfold k0_t5_body
  sl_exec_parts
  sl_step
  isplitl [Hx]; · iexact Hx
  isplitl [Ho0]
  · iexists _; isplitl [Ho0]; · iexact Ho0
    ipureintro
    exact goodH_step fx 0 3 0 f0 g0 k.val hk
      (fun i => k0_off21 k (BitVec.ofNat 32 (32 * (0 : Fin 2).val)) (BitVec.ofNat 32 i.val)) (fun i => k0_off21_inb k 0 i) (fun i => off21_eq k 0 i)
      _ (xload_eq fx 0 3 k.val hk _ (k0_off20_inb k) (off20_eq k))
      (fun i => shapeCast S1x1x16 (gcVec (⟨8 * (0 : Fin 2).val + i.val, by have := i.isLt; omega⟩ : Fin 16) _) shapeCasts_S16_S1x1x16) (fun i => rfl) hg0
  · iexists _; isplitl [Ho1]; · iexact Ho1
    ipureintro
    exact goodH_step fx 0 3 1 f1 g1 k.val hk
      (fun i => k0_off21 k (BitVec.ofNat 32 (32 * (1 : Fin 2).val)) (BitVec.ofNat 32 i.val)) (fun i => k0_off21_inb k 1 i) (fun i => off21_eq k 1 i)
      _ (xload_eq fx 0 3 k.val hk _ (k0_off20_inb k) (off20_eq k))
      (fun i => shapeCast S1x1x16 (gcVec (⟨8 * (1 : Fin 2).val + i.val, by have := i.isLt; omega⟩ : Fin 16) _) shapeCasts_S16_S1x1x16) (fun i => rfl) hg1

theorem trips5 : Scf.trips k0_t5_loop.lb k0_t5_loop.ub k0_t5_loop.st = 32 := by decide +kernel

/-- Loop 5 whole: from group 0 as fetched and the two halves of plane 3 at any contents, to the halves at the
    loop's value (on their own elements; elsewhere as they were). -/
theorem loop5 (d : Dev nD) (L : grid0.Coords) (v1 : BitVec 32) (k0_t1 : Fin k0_t1_loop.trips) (v77 : BitVec 32) (c4_i32_175 : BitVec 32)
    (fx : S2x4x4x128.Idx → Elt F .f32) (f0 f1 : S4x64x128.Idx → Elt F .f32) :
    iprop(((xs0).view.loc (tV d L) ↦[(xs0).view.set]{fullShare} fx)
        ∗ ((oh30).view.loc (tV d L) ↦[(oh30).view.set]{fullShare} f0)
        ∗ ((oh31).view.loc (tV d L) ↦[(oh31).view.set]{fullShare} f1))
      ⊢ (wp frame (wpE (defs₀ (F := F)) 𝒱₀ (tV d L) none) Set.univ
          (Scf.Loop.for k0_t5_loop k0_t5_ok ⟨⟩
            (k0_t5_body L xV (Memref.isWhole_whole _) oV (Memref.isWhole_whole _) sX (Memref.isWhole_whole _) sO (Memref.isWhole_whole _)
              cc0_scratch2 cc0_scratch3 cc0_scratch4 cc0_scratch5 cc0_scratch6 cc0_scratch7 cc0_scratch8 cc0_scratch9 cc0_scratch10 cc0_scratch11
              v1 k0_t1 v77 c4_i32_175))
          (fun _ => inv5 (F := F) d L fx f0 f1 32 ()) : sProp 𝕄) := by
  iintro ⟨Hx, Ho0, Ho1⟩
  sl_for (inv5 (F := F) d L fx f0 f1) $$ [Hx Ho0 Ho1]
  case region => exact region5 d L v1 k0_t1 v77 c4_i32_175 fx f0 f1
  isplitl [Hx Ho0 Ho1]
  · unfold inv5
    isplitl [Hx]; · iexact Hx
    isplitl [Ho0]
    · iexists f0; isplitl [Ho0]; · iexact Ho0
      ipureintro; exact goodH_zero fx 0 3 0 f0
    · iexists f1; isplitl [Ho1]; · iexact Ho1
      ipureintro; exact goodH_zero fx 0 3 1 f1
  · rw [trips5]
    iintro %acc HI
    iexact HI

end Cert.KernelIdeal.Hand.Inner

end
-- ==== Proof.InnerLoopC.lean ====
/-
  The inner loops 6 and 7 of the tile kernel (planes 0 and 1 of fetched group 1): the closed forms of the
  offsets a block's load and its sixteen stores use, the loop's invariant — the fetched group unchanged, each half of the
  plane at the loop's value on the blocks done and as it was elsewhere —, one trip of the loop from the invariant at k to
  the invariant at k + 1, and the whole loop from it.
-/
import proofs.«209186_g8847632630064_cont_9to1c4b_396_28_alg».proof.Proof.InnerMath

noncomputable section

namespace Cert.KernelIdeal.Hand.Inner

open Cert.KernelIdeal Cert.KernelIdeal.Gen Cert.KernelIdeal.Hand

open Idealize.ShloMosaic
open Idealize.ShloMosaic.ValueIdx

variable {F : FTy → Type} [FloatOps F]

open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 1) (Elt F) ℕ UU ℕ

/-! ## Loop 6: plane 0 of fetched group 1 -/

theorem off26_eq : ∀ k : Fin k0_t6_loop.trips, k0_off26 k = ![1, 0, k.val / 8, k.val % 8 * 16] := by decide +kernel
theorem off27_eq : ∀ (k : Fin k0_t6_loop.trips) (r₁ : Fin 2) (r₂ : Fin 8),
    k0_off27 k (BitVec.ofNat 32 (32 * r₁.val)) (BitVec.ofNat 32 r₂.val) = ![0, 32 * r₁.val + k.val / 8 * 8 + r₂.val, k.val % 8 * 16] := by decide +kernel
instance closedOff26 (k : Fin k0_t6_loop.trips) : ClosedOff (k0_off26 k) := ⟨_, off26_eq k⟩
instance closedOff27_0_0 (k : Fin k0_t6_loop.trips) : ClosedOff (k0_off27 k 0#32 0#32) := ⟨_, off27_eq k 0 0⟩
instance closedOff27_0_1 (k : Fin k0_t6_loop.trips) : ClosedOff (k0_off27 k 0#32 1#32) := ⟨_, off27_eq k 0 1⟩
instance closedOff27_0_2 (k : Fin k0_t6_loop.trips) : ClosedOff (k0_off27 k 0#32 2#32) := ⟨_, off27_eq k 0 2⟩
instance closedOff27_0_3 (k : Fin k0_t6_loop.trips) : ClosedOff (k0_off27 k 0#32 3#32) := ⟨_, off27_eq k 0 3⟩
instance closedOff27_0_4 (k : Fin k0_t6_loop.trips) : ClosedOff (k0_off27 k 0#32 4#32) := ⟨_, off27_eq k 0 4⟩
instance closedOff27_0_5 (k : Fin k0_t6_loop.trips) : ClosedOff (k0_off27 k 0#32 5#32) := ⟨_, off27_eq k 0 5⟩
instance closedOff27_0_6 (k : Fin k0_t6_loop.trips) : ClosedOff (k0_off27 k 0#32 6#32) := ⟨_, off27_eq k 0 6⟩
instance closedOff27_0_7 (k : Fin k0_t6_loop.trips) : ClosedOff (k0_off27 k 0#32 7#32) := ⟨_, off27_eq k 0 7⟩
instance closedOff27_1_0 (k : Fin k0_t6_loop.trips) : ClosedOff (k0_off27 k 32#32 0#32) := ⟨_, off27_eq k 1 0⟩
instance closedOff27_1_1 (k : Fin k0_t6_loop.trips) : ClosedOff (k0_off27 k 32#32 1#32) := ⟨_, off27_eq k 1 1⟩
instance closedOff27_1_2 (k : Fin k0_t6_loop.trips) : ClosedOff (k0_off27 k 32#32 2#32) := ⟨_, off27_eq k 1 2⟩
instance closedOff27_1_3 (k : Fin k0_t6_loop.trips) : ClosedOff (k0_off27 k 32#32 3#32) := ⟨_, off27_eq k 1 3⟩
instance closedOff27_1_4 (k : Fin k0_t6_loop.trips) : ClosedOff (k0_off27 k 32#32 4#32) := ⟨_, off27_eq k 1 4⟩
instance closedOff27_1_5 (k : Fin k0_t6_loop.trips) : ClosedOff (k0_off27 k 32#32 5#32) := ⟨_, off27_eq k 1 5⟩
instance closedOff27_1_6 (k : Fin k0_t6_loop.trips) : ClosedOff (k0_off27 k 32#32 6#32) := ⟨_, off27_eq k 1 6⟩
instance closedOff27_1_7 (k : Fin k0_t6_loop.trips) : ClosedOff (k0_off27 k 32#32 7#32) := ⟨_, off27_eq k 1 7⟩

/-- Before block k of loop 6: group 1 as fetched, the two halves of plane 0 good below k. -/
def inv6 (d : Dev nD) (L : grid0.Coords) (fx : S2x4x4x128.Idx → Elt F .f32) (f0 f1 : S4x64x128.Idx → Elt F .f32) (k : ℕ) (_ : Unit) : sProp 𝕄 :=
  iprop(((xs1).view.loc (tV d L) ↦[(xs1).view.set]{fullShare} fx)
    ∗ (∃ g0, ((oh00).view.loc (tV d L) ↦[(oh00).view.set]{fullShare} g0) ∗ ⌜GoodH fx 1 0 0 f0 g0 k⌝)
    ∗ (∃ g1, ((oh01).view.loc (tV d L) ↦[(oh01).view.set]{fullShare} g1) ∗ ⌜GoodH fx 1 0 1 f1 g1 k⌝))

/-- One trip of loop 6. -/
theorem region6 (d : Dev nD) (L : grid0.Coords) (v1 : BitVec 32) (k0_t1 : Fin k0_t1_loop.trips) (arg16 : BitVec 32) (c2_i32_203 : BitVec 32)
    (fx : S2x4x4x128.Idx → Elt F .f32) (f0 f1 : S4x64x128.Idx → Elt F .f32) :
    ∀ (k : Fin k0_t6_loop.trips) (acc : Unit), inv6 (F := F) d L fx f0 f1 k.val acc
      ⊢ wp frame (wpE (defs₀ (F := F)) 𝒱₀ (tV d L) none) Set.univ
          (k0_t6_body L xV (Memref.isWhole_whole _) oV (Memref.isWhole_whole _) sX (Memref.isWhole_whole _) sO (Memref.isWhole_whole _)
            cc0_scratch2 cc0_scratch3 cc0_scratch4 cc0_scratch5 cc0_scratch6 cc0_scratch7 cc0_scratch8 cc0_scratch9 cc0_scratch10 cc0_scratch11
            v1 k0_t1 arg16 c2_i32_203 k acc)
          (inv6 (F := F) d L fx f0 f1 (k.val + 1)) := by
  intro k acc
  have hk : k.val < 32 := Nat.lt_of_lt_of_le k.isLt k0_t6_abs.2.1
  unfold inv6
  iintro ⟨Hx, ⟨%g0, Ho0, %hg0⟩, ⟨%g1, Ho1, %hg1⟩⟩
  unfold k0_t6_body
  sl_exec_parts
  sl_step
  isplitl [Hx]; · iexact Hx
  isplitl [Ho0]
  · iexists _; isplitl [Ho0]; · iexact Ho0
    ipureintro
    exact goodH_step fx 1 0 0 f0 g0 k.val hk
      (fun i => k0_off27 k (BitVec.ofNat 32 (32 * (0 : Fin 2).val)) (BitVec.ofNat 32 i.val)) (fun i => k0_off27_inb k 0 i) (fun i => off27_eq k 0 i)
      _ (xload_eq fx 1 0 k.val hk _ (k0_off26_inb k) (off26_eq k))
      (fun i => shapeCast S1x1x16 (gcVec (⟨8 * (0 : Fin 2).val + i.val, by have := i.isLt; omega⟩ : Fin 16) _) shapeCasts_S16_S1x1x16) (fun i => rfl) hg0
  · iexists _; isplitl [Ho1]; · iexact Ho1
    ipureintro
    exact goodH_step fx 1 0 1 f1 g1 k.val hk
      (fun i => k0_off27 k (BitVec.ofNat 32 (32 * (1 : Fin 2).val)) (BitVec.ofNat 32 i.val)) (fun i => k0_off27_inb k 1 i) (fun i => off27_eq k 1 i)
      _ (xload_eq fx 1 0 k.val hk _ (k0_off26_inb k) (off26_eq k))
      (fun i => shapeCast S1x1x16 (gcVec (⟨8 * (1 : Fin 2).val + i.val, by have := i.isLt; omega⟩ : Fin 16) _) shapeCasts_S16_S1x1x16) (fun i => rfl) hg1

theorem trips6 : Scf.trips k0_t6_loop.lb k0_t6_loop.ub k0_t6_loop.st = 32 := by decide +kernel

/-- Loop 6 whole: from group 1 as fetched and the two halves of plane 0 at any contents, to the halves at the
    loop's value (on their own elements; elsewhere as they were). -/
theorem loop6 (d : Dev nD) (L : grid0.Coords) (v1 : BitVec 32) (k0_t1 : Fin k0_t1_loop.trips) (arg16 : BitVec 32) (c2_i32_203 : BitVec 32)
    (fx : S2x4x4x128.Idx → Elt F .f32) (f0 f1 : S4x64x128.Idx → Elt F .f32) :
    iprop(((xs1).view.loc (tV d L) ↦[(xs1).view.set]{fullShare} fx)
        ∗ ((oh00).view.loc (tV d L) ↦[(oh00).view.set]{fullShare} f0)
        ∗ ((oh01).view.loc (tV d L) ↦[(oh01).view.set]{fullShare} f1))
      ⊢ (wp frame (wpE (defs₀ (F := F)) 𝒱₀ (tV d L) none) Set.univ
          (Scf.Loop.for k0_t6_loop k0_t6_ok ⟨⟩
            (k0_t6_body L xV (Memref.isWhole_whole _) oV (Memref.isWhole_whole _) sX (Memref.isWhole_whole _) sO (Memref.isWhole_whole _)
              cc0_scratch2 cc0_scratch3 cc0_scratch4 cc0_scratch5 cc0_scratch6 cc0_scratch7 cc0_scratch8 cc0_scratch9 cc0_scratch10 cc0_scratch11
              v1 k0_t1 arg16 c2_i32_203))
          (fun _ => inv6 (F := F) d L fx f0 f1 32 ()) : sProp 𝕄) := by
  iintro ⟨Hx, Ho0, Ho1⟩
  sl_for (inv6 (F := F) d L fx f0 f1) $$ [Hx Ho0 Ho1]
  case region => exact region6 d L v1 k0_t1 arg16 c2_i32_203 fx f0 f1
  isplitl [Hx Ho0 Ho1]
  · unfold inv6
    isplitl [Hx]; · iexact Hx
    isplitl [Ho0]
    · iexists f0; isplitl [Ho0]; · iexact Ho0
      ipureintro; exact goodH_zero fx 1 0 0 f0
    · iexists f1; isplitl [Ho1]; · iexact Ho1
      ipureintro; exact goodH_zero fx 1 0 1 f1
  · rw [trips6]
    iintro %acc HI
    iexact HI

/-! ## Loop 7: plane 1 of fetched group 1 -/

theorem off32_eq : ∀ k : Fin k0_t7_loop.trips, k0_off32 k = ![1, 1, k.val / 8, k.val % 8 * 16] := by decide +kernel
theorem off33_eq : ∀ (k : Fin k0_t7_loop.trips) (r₁ : Fin 2) (r₂ : Fin 8),
    k0_off33 k (BitVec.ofNat 32 (32 * r₁.val)) (BitVec.ofNat 32 r₂.val) = ![1, 32 * r₁.val + k.val / 8 * 8 + r₂.val, k.val % 8 * 16] := by decide +kernel
instance closedOff32 (k : Fin k0_t7_loop.trips) : ClosedOff (k0_off32 k) := ⟨_, off32_eq k⟩
instance closedOff33_0_0 (k : Fin k0_t7_loop.trips) : ClosedOff (k0_off33 k 0#32 0#32) := ⟨_, off33_eq k 0 0⟩
instance closedOff33_0_1 (k : Fin k0_t7_loop.trips) : ClosedOff (k0_off33 k 0#32 1#32) := ⟨_, off33_eq k 0 1⟩
instance closedOff33_0_2 (k : Fin k0_t7_loop.trips) : ClosedOff (k0_off33 k 0#32 2#32) := ⟨_, off33_eq k 0 2⟩
instance closedOff33_0_3 (k : Fin k0_t7_loop.trips) : ClosedOff (k0_off33 k 0#32 3#32) := ⟨_, off33_eq k 0 3⟩
instance closedOff33_0_4 (k : Fin k0_t7_loop.trips) : ClosedOff (k0_off33 k 0#32 4#32) := ⟨_, off33_eq k 0 4⟩
instance closedOff33_0_5 (k : Fin k0_t7_loop.trips) : ClosedOff (k0_off33 k 0#32 5#32) := ⟨_, off33_eq k 0 5⟩
instance closedOff33_0_6 (k : Fin k0_t7_loop.trips) : ClosedOff (k0_off33 k 0#32 6#32) := ⟨_, off33_eq k 0 6⟩
instance closedOff33_0_7 (k : Fin k0_t7_loop.trips) : ClosedOff (k0_off33 k 0#32 7#32) := ⟨_, off33_eq k 0 7⟩
instance closedOff33_1_0 (k : Fin k0_t7_loop.trips) : ClosedOff (k0_off33 k 32#32 0#32) := ⟨_, off33_eq k 1 0⟩
instance closedOff33_1_1 (k : Fin k0_t7_loop.trips) : ClosedOff (k0_off33 k 32#32 1#32) := ⟨_, off33_eq k 1 1⟩
instance closedOff33_1_2 (k : Fin k0_t7_loop.trips) : ClosedOff (k0_off33 k 32#32 2#32) := ⟨_, off33_eq k 1 2⟩
instance closedOff33_1_3 (k : Fin k0_t7_loop.trips) : ClosedOff (k0_off33 k 32#32 3#32) := ⟨_, off33_eq k 1 3⟩
instance closedOff33_1_4 (k : Fin k0_t7_loop.trips) : ClosedOff (k0_off33 k 32#32 4#32) := ⟨_, off33_eq k 1 4⟩
instance closedOff33_1_5 (k : Fin k0_t7_loop.trips) : ClosedOff (k0_off33 k 32#32 5#32) := ⟨_, off33_eq k 1 5⟩
instance closedOff33_1_6 (k : Fin k0_t7_loop.trips) : ClosedOff (k0_off33 k 32#32 6#32) := ⟨_, off33_eq k 1 6⟩
instance closedOff33_1_7 (k : Fin k0_t7_loop.trips) : ClosedOff (k0_off33 k 32#32 7#32) := ⟨_, off33_eq k 1 7⟩

/-- Before block k of loop 7: group 1 as fetched, the two halves of plane 1 good below k. -/
def inv7 (d : Dev nD) (L : grid0.Coords) (fx : S2x4x4x128.Idx → Elt F .f32) (f0 f1 : S4x64x128.Idx → Elt F .f32) (k : ℕ) (_ : Unit) : sProp 𝕄 :=
  iprop(((xs1).view.loc (tV d L) ↦[(xs1).view.set]{fullShare} fx)
    ∗ (∃ g0, ((oh10).view.loc (tV d L) ↦[(oh10).view.set]{fullShare} g0) ∗ ⌜GoodH fx 1 1 0 f0 g0 k⌝)
    ∗ (∃ g1, ((oh11).view.loc (tV d L) ↦[(oh11).view.set]{fullShare} g1) ∗ ⌜GoodH fx 1 1 1 f1 g1 k⌝))

/-- One trip of loop 7. -/
theorem region7 (d : Dev nD) (L : grid0.Coords) (v1 : BitVec 32) (k0_t1 : Fin k0_t1_loop.trips) (v179 : BitVec 32) (v192 : BitVec 32) (c1024_i32_234 : BitVec 32)
    (fx : S2x4x4x128.Idx → Elt F .f32) (f0 f1 : S4x64x128.Idx → Elt F .f32) :
    ∀ (k : Fin k0_t7_loop.trips) (acc : Unit), inv7 (F := F) d L fx f0 f1 k.val acc
      ⊢ wp frame (wpE (defs₀ (F := F)) 𝒱₀ (tV d L) none) Set.univ
          (k0_t7_body L xV (Memref.isWhole_whole _) oV (Memref.isWhole_whole _) sX (Memref.isWhole_whole _) sO (Memref.isWhole_whole _)
            cc0_scratch2 cc0_scratch3 cc0_scratch4 cc0_scratch5 cc0_scratch6 cc0_scratch7 cc0_scratch8 cc0_scratch9 cc0_scratch10 cc0_scratch11
            v1 k0_t1 v179 v192 c1024_i32_234 k acc)
          (inv7 (F := F) d L fx f0 f1 (k.val + 1)) := by
  intro k acc
  have hk : k.val < 32 := Nat.lt_of_lt_of_le k.isLt k0_t7_abs.2.1
  unfold inv7
  iintro ⟨Hx, ⟨%g0, Ho0, %hg0⟩, ⟨%g1, Ho1, %hg1⟩⟩
  unfold k0_t7_body
  sl_exec_parts
  sl_step
  isplitl [Hx]; · iexact Hx
  isplitl [Ho0]
  · iexists _; isplitl [Ho0]; · iexact Ho0
    ipureintro
    exact goodH_step fx 1 1 0 f0 g0 k.val hk
      (fun i => k0_off33 k (BitVec.ofNat 32 (32 * (0 : Fin 2).val)) (BitVec.ofNat 32 i.val)) (fun i => k0_off33_inb k 0 i) (fun i => off33_eq k 0 i)
      _ (xload_eq fx 1 1 k.val hk _ (k0_off32_inb k) (off32_eq k))
      (fun i => shapeCast S1x1x16 (gcVec (⟨8 * (0 : Fin 2).val + i.val, by have := i.isLt; omega⟩ : Fin 16) _) shapeCasts_S16_S1x1x16) (fun i => rfl) hg0
  · iexists _; isplitl [Ho1]; · iexact Ho1
    ipureintro
    exact goodH_step fx 1 1 1 f1 g1 k.val hk
      (fun i => k0_off33 k (BitVec.ofNat 32 (32 * (1 : Fin 2).val)) (BitVec.ofNat 32 i.val)) (fun i => k0_off33_inb k 1 i) (fun i => off33_eq k 1 i)
      _ (xload_eq fx 1 1 k.val hk _ (k0_off32_inb k) (off32_eq k))
      (fun i => shapeCast S1x1x16 (gcVec (⟨8 * (1 : Fin 2).val + i.val, by have := i.isLt; omega⟩ : Fin 16) _) shapeCasts_S16_S1x1x16) (fun i => rfl) hg1

theorem trips7 : Scf.trips k0_t7_loop.lb k0_t7_loop.ub k0_t7_loop.st = 32 := by decide +kernel

/-- Loop 7 whole: from group 1 as fetched and the two halves of plane 1 at any contents, to the halves at the
    loop's value (on their own elements; elsewhere as they were). -/
theorem loop7 (d : Dev nD) (L : grid0.Coords) (v1 : BitVec 32) (k0_t1 : Fin k0_t1_loop.trips) (v179 : BitVec 32) (v192 : BitVec 32) (c1024_i32_234 : BitVec 32)
    (fx : S2x4x4x128.Idx → Elt F .f32) (f0 f1 : S4x64x128.Idx → Elt F .f32) :
    iprop(((xs1).view.loc (tV d L) ↦[(xs1).view.set]{fullShare} fx)
        ∗ ((oh10).view.loc (tV d L) ↦[(oh10).view.set]{fullShare} f0)
        ∗ ((oh11).view.loc (tV d L) ↦[(oh11).view.set]{fullShare} f1))
      ⊢ (wp frame (wpE (defs₀ (F := F)) 𝒱₀ (tV d L) none) Set.univ
          (Scf.Loop.for k0_t7_loop k0_t7_ok ⟨⟩
            (k0_t7_body L xV (Memref.isWhole_whole _) oV (Memref.isWhole_whole _) sX (Memref.isWhole_whole _) sO (Memref.isWhole_whole _)
              cc0_scratch2 cc0_scratch3 cc0_scratch4 cc0_scratch5 cc0_scratch6 cc0_scratch7 cc0_scratch8 cc0_scratch9 cc0_scratch10 cc0_scratch11
              v1 k0_t1 v179 v192 c1024_i32_234))
          (fun _ => inv7 (F := F) d L fx f0 f1 32 ()) : sProp 𝕄) := by
  iintro ⟨Hx, Ho0, Ho1⟩
  sl_for (inv7 (F := F) d L fx f0 f1) $$ [Hx Ho0 Ho1]
  case region => exact region7 d L v1 k0_t1 v179 v192 c1024_i32_234 fx f0 f1
  isplitl [Hx Ho0 Ho1]
  · unfold inv7
    isplitl [Hx]; · iexact Hx
    isplitl [Ho0]
    · iexists f0; isplitl [Ho0]; · iexact Ho0
      ipureintro; exact goodH_zero fx 1 1 0 f0
    · iexists f1; isplitl [Ho1]; · iexact Ho1
      ipureintro; exact goodH_zero fx 1 1 1 f1
  · rw [trips7]
    iintro %acc HI
    iexact HI

end Cert.KernelIdeal.Hand.Inner

end
-- ==== Proof.InnerLoopD.lean ====
/-
  The inner loops 8 and 9 of the tile kernel (planes 2 and 3 of fetched group 1): the closed forms of the
  offsets a block's load and its sixteen stores use, the loop's invariant — the fetched group unchanged, each half of the
  plane at the loop's value on the blocks done and as it was elsewhere —, one trip of the loop from the invariant at k to
  the invariant at k + 1, and the whole loop from it.
-/
import proofs.«209186_g8847632630064_cont_9to1c4b_396_28_alg».proof.Proof.InnerMath

noncomputable section

namespace Cert.KernelIdeal.Hand.Inner

open Cert.KernelIdeal Cert.KernelIdeal.Gen Cert.KernelIdeal.Hand

open Idealize.ShloMosaic
open Idealize.ShloMosaic.ValueIdx

variable {F : FTy → Type} [FloatOps F]

open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 1) (Elt F) ℕ UU ℕ

/-! ## Loop 8: plane 2 of fetched group 1 -/

theorem off36_eq : ∀ k : Fin k0_t8_loop.trips, k0_off36 k = ![1, 2, k.val / 8, k.val % 8 * 16] := by decide +kernel
theorem off37_eq : ∀ (k : Fin k0_t8_loop.trips) (r₁ : Fin 2) (r₂ : Fin 8),
    k0_off37 k (BitVec.ofNat 32 (32 * r₁.val)) (BitVec.ofNat 32 r₂.val) = ![2, 32 * r₁.val + k.val / 8 * 8 + r₂.val, k.val % 8 * 16] := by decide +kernel
instance closedOff36 (k : Fin k0_t8_loop.trips) : ClosedOff (k0_off36 k) := ⟨_, off36_eq k⟩
instance closedOff37_0_0 (k : Fin k0_t8_loop.trips) : ClosedOff (k0_off37 k 0#32 0#32) := ⟨_, off37_eq k 0 0⟩
instance closedOff37_0_1 (k : Fin k0_t8_loop.trips) : ClosedOff (k0_off37 k 0#32 1#32) := ⟨_, off37_eq k 0 1⟩
instance closedOff37_0_2 (k : Fin k0_t8_loop.trips) : ClosedOff (k0_off37 k 0#32 2#32) := ⟨_, off37_eq k 0 2⟩
instance closedOff37_0_3 (k : Fin k0_t8_loop.trips) : ClosedOff (k0_off37 k 0#32 3#32) := ⟨_, off37_eq k 0 3⟩
instance closedOff37_0_4 (k : Fin k0_t8_loop.trips) : ClosedOff (k0_off37 k 0#32 4#32) := ⟨_, off37_eq k 0 4⟩
instance closedOff37_0_5 (k : Fin k0_t8_loop.trips) : ClosedOff (k0_off37 k 0#32 5#32) := ⟨_, off37_eq k 0 5⟩
instance closedOff37_0_6 (k : Fin k0_t8_loop.trips) : ClosedOff (k0_off37 k 0#32 6#32) := ⟨_, off37_eq k 0 6⟩
instance closedOff37_0_7 (k : Fin k0_t8_loop.trips) : ClosedOff (k0_off37 k 0#32 7#32) := ⟨_, off37_eq k 0 7⟩
instance closedOff37_1_0 (k : Fin k0_t8_loop.trips) : ClosedOff (k0_off37 k 32#32 0#32) := ⟨_, off37_eq k 1 0⟩
instance closedOff37_1_1 (k : Fin k0_t8_loop.trips) : ClosedOff (k0_off37 k 32#32 1#32) := ⟨_, off37_eq k 1 1⟩
instance closedOff37_1_2 (k : Fin k0_t8_loop.trips) : ClosedOff (k0_off37 k 32#32 2#32) := ⟨_, off37_eq k 1 2⟩
instance closedOff37_1_3 (k : Fin k0_t8_loop.trips) : ClosedOff (k0_off37 k 32#32 3#32) := ⟨_, off37_eq k 1 3⟩
instance closedOff37_1_4 (k : Fin k0_t8_loop.trips) : ClosedOff (k0_off37 k 32#32 4#32) := ⟨_, off37_eq k 1 4⟩
instance closedOff37_1_5 (k : Fin k0_t8_loop.trips) : ClosedOff (k0_off37 k 32#32 5#32) := ⟨_, off37_eq k 1 5⟩
instance closedOff37_1_6 (k : Fin k0_t8_loop.trips) : ClosedOff (k0_off37 k 32#32 6#32) := ⟨_, off37_eq k 1 6⟩
instance closedOff37_1_7 (k : Fin k0_t8_loop.trips) : ClosedOff (k0_off37 k 32#32 7#32) := ⟨_, off37_eq k 1 7⟩

/-- Before block k of loop 8: group 1 as fetched, the two halves of plane 2 good below k. -/
def inv8 (d : Dev nD) (L : grid0.Coords) (fx : S2x4x4x128.Idx → Elt F .f32) (f0 f1 : S4x64x128.Idx → Elt F .f32) (k : ℕ) (_ : Unit) : sProp 𝕄 :=
  iprop(((xs1).view.loc (tV d L) ↦[(xs1).view.set]{fullShare} fx)
    ∗ (∃ g0, ((oh20).view.loc (tV d L) ↦[(oh20).view.set]{fullShare} g0) ∗ ⌜GoodH fx 1 2 0 f0 g0 k⌝)
    ∗ (∃ g1, ((oh21).view.loc (tV d L) ↦[(oh21).view.set]{fullShare} g1) ∗ ⌜GoodH fx 1 2 1 f1 g1 k⌝))

/-- One trip of loop 8. -/
theorem region8 (d : Dev nD) (L : grid0.Coords) (v1 : BitVec 32) (k0_t1 : Fin k0_t1_loop.trips) (v179 : BitVec 32)
    (fx : S2x4x4x128.Idx → Elt F .f32) (f0 f1 : S4x64x128.Idx → Elt F .f32) :
    ∀ (k : Fin k0_t8_loop.trips) (acc : Unit), inv8 (F := F) d L fx f0 f1 k.val acc
      ⊢ wp frame (wpE (defs₀ (F := F)) 𝒱₀ (tV d L) none) Set.univ
          (k0_t8_body L xV (Memref.isWhole_whole _) oV (Memref.isWhole_whole _) sX (Memref.isWhole_whole _) sO (Memref.isWhole_whole _)
            cc0_scratch2 cc0_scratch3 cc0_scratch4 cc0_scratch5 cc0_scratch6 cc0_scratch7 cc0_scratch8 cc0_scratch9 cc0_scratch10 cc0_scratch11
            v1 k0_t1 v179 k acc)
          (inv8 (F := F) d L fx f0 f1 (k.val + 1)) := by
  intro k acc
  have hk : k.val < 32 := Nat.lt_of_lt_of_le k.isLt k0_t8_abs.2.1
  unfold inv8
  iintro ⟨Hx, ⟨%g0, Ho0, %hg0⟩, ⟨%g1, Ho1, %hg1⟩⟩
  unfold k0_t8_body
  sl_exec_parts
  sl_step
  isplitl [Hx]; · iexact Hx
  isplitl [Ho0]
  · iexists _; isplitl [Ho0]; · iexact Ho0
    ipureintro
    exact goodH_step fx 1 2 0 f0 g0 k.val hk
      (fun i => k0_off37 k (BitVec.ofNat 32 (32 * (0 : Fin 2).val)) (BitVec.ofNat 32 i.val)) (fun i => k0_off37_inb k 0 i) (fun i => off37_eq k 0 i)
      _ (xload_eq fx 1 2 k.val hk _ (k0_off36_inb k) (off36_eq k))
      (fun i => shapeCast S1x1x16 (gcVec (⟨8 * (0 : Fin 2).val + i.val, by have := i.isLt; omega⟩ : Fin 16) _) shapeCasts_S16_S1x1x16) (fun i => rfl) hg0
  · iexists _; isplitl [Ho1]; · iexact Ho1
    ipureintro
    exact goodH_step fx 1 2 1 f1 g1 k.val hk
      (fun i => k0_off37 k (BitVec.ofNat 32 (32 * (1 : Fin 2).val)) (BitVec.ofNat 32 i.val)) (fun i => k0_off37_inb k 1 i) (fun i => off37_eq k 1 i)
      _ (xload_eq fx 1 2 k.val hk _ (k0_off36_inb k) (off36_eq k))
      (fun i => shapeCast S1x1x16 (gcVec (⟨8 * (1 : Fin 2).val + i.val, by have := i.isLt; omega⟩ : Fin 16) _) shapeCasts_S16_S1x1x16) (fun i => rfl) hg1

theorem trips8 : Scf.trips k0_t8_loop.lb k0_t8_loop.ub k0_t8_loop.st = 32 := by decide +kernel

/-- Loop 8 whole: from group 1 as fetched and the two halves of plane 2 at any contents, to the halves at the
    loop's value (on their own elements; elsewhere as they were). -/
theorem loop8 (d : Dev nD) (L : grid0.Coords) (v1 : BitVec 32) (k0_t1 : Fin k0_t1_loop.trips) (v179 : BitVec 32)
    (fx : S2x4x4x128.Idx → Elt F .f32) (f0 f1 : S4x64x128.Idx → Elt F .f32) :
    iprop(((xs1).view.loc (tV d L) ↦[(xs1).view.set]{fullShare} fx)
        ∗ ((oh20).view.loc (tV d L) ↦[(oh20).view.set]{fullShare} f0)
        ∗ ((oh21).view.loc (tV d L) ↦[(oh21).view.set]{fullShare} f1))
      ⊢ (wp frame (wpE (defs₀ (F := F)) 𝒱₀ (tV d L) none) Set.univ
          (Scf.Loop.for k0_t8_loop k0_t8_ok ⟨⟩
            (k0_t8_body L xV (Memref.isWhole_whole _) oV (Memref.isWhole_whole _) sX (Memref.isWhole_whole _) sO (Memref.isWhole_whole _)
              cc0_scratch2 cc0_scratch3 cc0_scratch4 cc0_scratch5 cc0_scratch6 cc0_scratch7 cc0_scratch8 cc0_scratch9 cc0_scratch10 cc0_scratch11
              v1 k0_t1 v179))
          (fun _ => inv8 (F := F) d L fx f0 f1 32 ()) : sProp 𝕄) := by
  iintro ⟨Hx, Ho0, Ho1⟩
  sl_for (inv8 (F := F) d L fx f0 f1) $$ [Hx Ho0 Ho1]
  case region => exact region8 d L v1 k0_t1 v179 fx f0 f1
  isplitl [Hx Ho0 Ho1]
  · unfold inv8
    isplitl [Hx]; · iexact Hx
    isplitl [Ho0]
    · iexists f0; isplitl [Ho0]; · iexact Ho0
      ipureintro; exact goodH_zero fx 1 2 0 f0
    · iexists f1; isplitl [Ho1]; · iexact Ho1
      ipureintro; exact goodH_zero fx 1 2 1 f1
  · rw [trips8]
    iintro %acc HI
    iexact HI

/-! ## Loop 9: plane 3 of fetched group 1 -/

theorem off40_eq : ∀ k : Fin k0_t9_loop.trips, k0_off40 k = ![1, 3, k.val / 8, k.val % 8 * 16] := by decide +kernel
theorem off41_eq : ∀ (k : Fin k0_t9_loop.trips) (r₁ : Fin 2) (r₂ : Fin 8),
    k0_off41 k (BitVec.ofNat 32 (32 * r₁.val)) (BitVec.ofNat 32 r₂.val) = ![3, 32 * r₁.val + k.val / 8 * 8 + r₂.val, k.val % 8 * 16] := by decide +kernel
instance closedOff40 (k : Fin k0_t9_loop.trips) : ClosedOff (k0_off40 k) := ⟨_, off40_eq k⟩
instance closedOff41_0_0 (k : Fin k0_t9_loop.trips) : ClosedOff (k0_off41 k 0#32 0#32) := ⟨_, off41_eq k 0 0⟩
instance closedOff41_0_1 (k : Fin k0_t9_loop.trips) : ClosedOff (k0_off41 k 0#32 1#32) := ⟨_, off41_eq k 0 1⟩
instance closedOff41_0_2 (k : Fin k0_t9_loop.trips) : ClosedOff (k0_off41 k 0#32 2#32) := ⟨_, off41_eq k 0 2⟩
instance closedOff41_0_3 (k : Fin k0_t9_loop.trips) : ClosedOff (k0_off41 k 0#32 3#32) := ⟨_, off41_eq k 0 3⟩
instance closedOff41_0_4 (k : Fin k0_t9_loop.trips) : ClosedOff (k0_off41 k 0#32 4#32) := ⟨_, off41_eq k 0 4⟩
instance closedOff41_0_5 (k : Fin k0_t9_loop.trips) : ClosedOff (k0_off41 k 0#32 5#32) := ⟨_, off41_eq k 0 5⟩
instance closedOff41_0_6 (k : Fin k0_t9_loop.trips) : ClosedOff (k0_off41 k 0#32 6#32) := ⟨_, off41_eq k 0 6⟩
instance closedOff41_0_7 (k : Fin k0_t9_loop.trips) : ClosedOff (k0_off41 k 0#32 7#32) := ⟨_, off41_eq k 0 7⟩
instance closedOff41_1_0 (k : Fin k0_t9_loop.trips) : ClosedOff (k0_off41 k 32#32 0#32) := ⟨_, off41_eq k 1 0⟩
instance closedOff41_1_1 (k : Fin k0_t9_loop.trips) : ClosedOff (k0_off41 k 32#32 1#32) := ⟨_, off41_eq k 1 1⟩
instance closedOff41_1_2 (k : Fin k0_t9_loop.trips) : ClosedOff (k0_off41 k 32#32 2#32) := ⟨_, off41_eq k 1 2⟩
instance closedOff41_1_3 (k : Fin k0_t9_loop.trips) : ClosedOff (k0_off41 k 32#32 3#32) := ⟨_, off41_eq k 1 3⟩
instance closedOff41_1_4 (k : Fin k0_t9_loop.trips) : ClosedOff (k0_off41 k 32#32 4#32) := ⟨_, off41_eq k 1 4⟩
instance closedOff41_1_5 (k : Fin k0_t9_loop.trips) : ClosedOff (k0_off41 k 32#32 5#32) := ⟨_, off41_eq k 1 5⟩
instance closedOff41_1_6 (k : Fin k0_t9_loop.trips) : ClosedOff (k0_off41 k 32#32 6#32) := ⟨_, off41_eq k 1 6⟩
instance closedOff41_1_7 (k : Fin k0_t9_loop.trips) : ClosedOff (k0_off41 k 32#32 7#32) := ⟨_, off41_eq k 1 7⟩

/-- Before block k of loop 9: group 1 as fetched, the two halves of plane 3 good below k. -/
def inv9 (d : Dev nD) (L : grid0.Coords) (fx : S2x4x4x128.Idx → Elt F .f32) (f0 f1 : S4x64x128.Idx → Elt F .f32) (k : ℕ) (_ : Unit) : sProp 𝕄 :=
  iprop(((xs1).view.loc (tV d L) ↦[(xs1).view.set]{fullShare} fx)
    ∗ (∃ g0, ((oh30).view.loc (tV d L) ↦[(oh30).view.set]{fullShare} g0) ∗ ⌜GoodH fx 1 3 0 f0 g0 k⌝)
    ∗ (∃ g1, ((oh31).view.loc (tV d L) ↦[(oh31).view.set]{fullShare} g1) ∗ ⌜GoodH fx 1 3 1 f1 g1 k⌝))

/-- One trip of loop 9. -/
theorem region9 (d : Dev nD) (L : grid0.Coords) (v1 : BitVec 32) (c0_i32_22 : BitVec 32) (c1_i32_23 : BitVec 32) (k0_t1 : Fin k0_t1_loop.trips)
    (fx : S2x4x4x128.Idx → Elt F .f32) (f0 f1 : S4x64x128.Idx → Elt F .f32) :
    ∀ (k : Fin k0_t9_loop.trips) (acc : Unit), inv9 (F := F) d L fx f0 f1 k.val acc
      ⊢ wp frame (wpE (defs₀ (F := F)) 𝒱₀ (tV d L) none) Set.univ
          (k0_t9_body L xV (Memref.isWhole_whole _) oV (Memref.isWhole_whole _) sX (Memref.isWhole_whole _) sO (Memref.isWhole_whole _)
            cc0_scratch2 cc0_scratch3 cc0_scratch4 cc0_scratch5 cc0_scratch6 cc0_scratch7 cc0_scratch8 cc0_scratch9 cc0_scratch10 cc0_scratch11
            v1 c0_i32_22 c1_i32_23 k0_t1 k acc)
          (inv9 (F := F) d L fx f0 f1 (k.val + 1)) := by
  intro k acc
  have hk : k.val < 32 := Nat.lt_of_lt_of_le k.isLt k0_t9_abs.2.1
  unfold inv9
  iintro ⟨Hx, ⟨%g0, Ho0, %hg0⟩, ⟨%g1, Ho1, %hg1⟩⟩
  unfold k0_t9_body
  sl_exec_parts
  sl_step
  isplitl [Hx]; · iexact Hx
  isplitl [Ho0]
  · iexists _; isplitl [Ho0]; · iexact Ho0
    ipureintro
    exact goodH_step fx 1 3 0 f0 g0 k.val hk
      (fun i => k0_off41 k (BitVec.ofNat 32 (32 * (0 : Fin 2).val)) (BitVec.ofNat 32 i.val)) (fun i => k0_off41_inb k 0 i) (fun i => off41_eq k 0 i)
      _ (xload_eq fx 1 3 k.val hk _ (k0_off40_inb k) (off40_eq k))
      (fun i => shapeCast S1x1x16 (gcVec (⟨8 * (0 : Fin 2).val + i.val, by have := i.isLt; omega⟩ : Fin 16) _) shapeCasts_S16_S1x1x16) (fun i => rfl) hg0
  · iexists _; isplitl [Ho1]; · iexact Ho1
    ipureintro
    exact goodH_step fx 1 3 1 f1 g1 k.val hk
      (fun i => k0_off41 k (BitVec.ofNat 32 (32 * (1 : Fin 2).val)) (BitVec.ofNat 32 i.val)) (fun i => k0_off41_inb k 1 i) (fun i => off41_eq k 1 i)
      _ (xload_eq fx 1 3 k.val hk _ (k0_off40_inb k) (off40_eq k))
      (fun i => shapeCast S1x1x16 (gcVec (⟨8 * (1 : Fin 2).val + i.val, by have := i.isLt; omega⟩ : Fin 16) _) shapeCasts_S16_S1x1x16) (fun i => rfl) hg1

theorem trips9 : Scf.trips k0_t9_loop.lb k0_t9_loop.ub k0_t9_loop.st = 32 := by decide +kernel

/-- Loop 9 whole: from group 1 as fetched and the two halves of plane 3 at any contents, to the halves at the
    loop's value (on their own elements; elsewhere as they were). -/
theorem loop9 (d : Dev nD) (L : grid0.Coords) (v1 : BitVec 32) (c0_i32_22 : BitVec 32) (c1_i32_23 : BitVec 32) (k0_t1 : Fin k0_t1_loop.trips)
    (fx : S2x4x4x128.Idx → Elt F .f32) (f0 f1 : S4x64x128.Idx → Elt F .f32) :
    iprop(((xs1).view.loc (tV d L) ↦[(xs1).view.set]{fullShare} fx)
        ∗ ((oh30).view.loc (tV d L) ↦[(oh30).view.set]{fullShare} f0)
        ∗ ((oh31).view.loc (tV d L) ↦[(oh31).view.set]{fullShare} f1))
      ⊢ (wp frame (wpE (defs₀ (F := F)) 𝒱₀ (tV d L) none) Set.univ
          (Scf.Loop.for k0_t9_loop k0_t9_ok ⟨⟩
            (k0_t9_body L xV (Memref.isWhole_whole _) oV (Memref.isWhole_whole _) sX (Memref.isWhole_whole _) sO (Memref.isWhole_whole _)
              cc0_scratch2 cc0_scratch3 cc0_scratch4 cc0_scratch5 cc0_scratch6 cc0_scratch7 cc0_scratch8 cc0_scratch9 cc0_scratch10 cc0_scratch11
              v1 c0_i32_22 c1_i32_23 k0_t1))
          (fun _ => inv9 (F := F) d L fx f0 f1 32 ()) : sProp 𝕄) := by
  iintro ⟨Hx, Ho0, Ho1⟩
  sl_for (inv9 (F := F) d L fx f0 f1) $$ [Hx Ho0 Ho1]
  case region => exact region9 d L v1 c0_i32_22 c1_i32_23 k0_t1 fx f0 f1
  isplitl [Hx Ho0 Ho1]
  · unfold inv9
    isplitl [Hx]; · iexact Hx
    isplitl [Ho0]
    · iexists f0; isplitl [Ho0]; · iexact Ho0
      ipureintro; exact goodH_zero fx 1 3 0 f0
    · iexists f1; isplitl [Ho1]; · iexact Ho1
      ipureintro; exact goodH_zero fx 1 3 1 f1
  · rw [trips9]
    iintro %acc HI
    iexact HI

end Cert.KernelIdeal.Hand.Inner

end
-- ==== Proof.InnerLoop.lean ====
/-
  The eight inner loops of the tile kernel: one per plane of each fetched group.
-/
import proofs.«209186_g8847632630064_cont_9to1c4b_396_28_alg».proof.Proof.InnerLoopA
import proofs.«209186_g8847632630064_cont_9to1c4b_396_28_alg».proof.Proof.InnerLoopB
import proofs.«209186_g8847632630064_cont_9to1c4b_396_28_alg».proof.Proof.InnerLoopC
import proofs.«209186_g8847632630064_cont_9to1c4b_396_28_alg».proof.Proof.InnerLoopD
-- ==== Proof.TileTripA.lean ====
/-
  One trip of the tile kernel's outer loop, from the invariant before the trip to the invariant after it — the first trip:
  the two groups of four planes the trip computes, each plane by its inner loop between the waits that free its half
  planes and the two copies that send them out, and the next two fetches started.
-/
import proofs.«209186_g8847632630064_cont_9to1c4b_396_28_alg».proof.Proof.Common
import proofs.«209186_g8847632630064_cont_9to1c4b_396_28_alg».proof.Proof.TileBufs
import proofs.«209186_g8847632630064_cont_9to1c4b_396_28_alg».proof.Proof.TileSlices
import proofs.«209186_g8847632630064_cont_9to1c4b_396_28_alg».proof.Proof.TileInv
import proofs.«209186_g8847632630064_cont_9to1c4b_396_28_alg».proof.Proof.TilePre
import proofs.«209186_g8847632630064_cont_9to1c4b_396_28_alg».proof.Proof.TileOffs
import proofs.«209186_g8847632630064_cont_9to1c4b_396_28_alg».proof.Proof.TileGood
import proofs.«209186_g8847632630064_cont_9to1c4b_396_28_alg».proof.Proof.InnerLoop

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop shareTokN)
open Idealize.ShloMosaic.Tactic

variable {F : FTy → Type}

local notation "𝕄" => MT nD τ sig (HIx 1) (Elt F) ℕ UU ℕ

variable [FloatOps F]
variable (X : (d : Dev nD) → Buf (Elt F) (x3Loc d))
variable (d : Dev nD) (L : grid0.Coords)

open Idealize.ShloMosaic.ValueIdx

/-- The trip, the first trip: no copies out are in flight yet. -/
theorem trip_t0 (hX : LandX X d L) (hO : LandO X d L) (hG : GoodOk X d L)
    (O : CellTallies nD τ sig (HIx 1)) (W : Waits sig (HIx 1)) (v1 : BitVec 32) (t : Fin k0_t1_loop.trips) (acc : PUnit) (hcase : t.val = 0) :
    Inv X d L O W t.val acc
      ⊢ wp frame (wpE (defs₀ (F := F)) 𝒱₀ (V d (cV L) (jV L)) none) Set.univ
          (k0_t1_body L xV (Memref.isWhole_whole _) oV (Memref.isWhole_whole _) sX (Memref.isWhole_whole _) sO (Memref.isWhole_whole _) cc0_scratch2 cc0_scratch3 cc0_scratch4 cc0_scratch5 cc0_scratch6 cc0_scratch7 cc0_scratch8 cc0_scratch9 cc0_scratch10 cc0_scratch11 v1 t acc) (Inv X d L O W (t.val + 1)) := by
  have htl := trips_le t
  unfold Inv InSt OutSt
  iintro ⟨#Hmw, Hin, Hout, Htodo, Hdone, %W', %hW', HO⟩
  icases Hin with (⟨%hk, Hin0, Hin1⟩ | ⟨%hk, -⟩)
  swap
  · exfalso; omega
  unfold FlIn0 FlIn1
  icases Hin0 with ⟨%Sx0, Hf0, Hx0r⟩
  icases Hin1 with ⟨%Sx1, Hf1, Hx1r⟩
  icases Hout with (⟨%h0, HO0, HO1, HO2, HO3⟩ | ⟨%tp, %htp, HB0, HB1, HB2, HB3⟩)
  · have h24 : t.val < 24 := by omega
    unfold OutIdle0 OutIdle1 OutIdle2 OutIdle3
    icases HO0 with ⟨⟨%g00, HB0_src0⟩, ⟨%g01, HB0_src1⟩, HB0⟩
    icases HO1 with ⟨⟨%g10, HB1_src0⟩, ⟨%g11, HB1_src1⟩, HB1⟩
    icases HO2 with ⟨⟨%g20, HB2_src0⟩, ⟨%g21, HB2_src1⟩, HB2⟩
    icases HO3 with ⟨⟨%g30, HB3_src0⟩, ⟨%g31, HB3_src1⟩, HB3⟩
    have k0_h1 : ¬ k0_cond1 t = 1#1 := cond1_zero t h0
    have k0_h2 : ¬ k0_cond2 t = 1#1 := cond2_zero t h0
    have k0_h3 : ¬ k0_cond3 t = 1#1 := cond3_zero t h0
    have k0_h4 : ¬ k0_cond4 t = 1#1 := cond4_zero t h0
    have k0_h6 : k0_cond6 t = 1#1 := cond6_all t
    have k0_h7 : k0_cond7 t = 1#1 := cond7_all t
    have k0_h8 : k0_cond8 t = 1#1 := cond8_all t
    have k0_h9 : k0_cond9 t = 1#1 := cond9_all t
    have k0_h5 : k0_cond5 t = 1#1 := cond5_lt t h24
    have k0_h10 : k0_cond10 t = 1#1 := cond10_lt t h24
    ihave Htodo := (Entails.of_eq (oTodoG_step d (widL L) (2 * t.val) (even_group_lt t))) $$ Htodo
    icases Htodo with ⟨⟨%fa00, Ha00⟩, ⟨%fa01, Ha01⟩, ⟨%fa10, Ha10⟩, ⟨%fa11, Ha11⟩, ⟨%fa20, Ha20⟩, ⟨%fa21, Ha21⟩, ⟨%fa30, Ha30⟩, ⟨%fa31, Ha31⟩, Htodo⟩
    ihave Htodo := (Entails.of_eq (oTodoG_step d (widL L) (2 * t.val + 1) (odd_group_lt t))) $$ Htodo
    icases Htodo with ⟨⟨%fb00, Hb00⟩, ⟨%fb01, Hb01⟩, ⟨%fb10, Hb10⟩, ⟨%fb11, Hb11⟩, ⟨%fb20, Hb20⟩, ⟨%fb21, Hb21⟩, ⟨%fb30, Hb30⟩, ⟨%fb31, Hb31⟩, Htodo⟩
    ihave Ha00 := (Entails.of_eq (pts_oA00 (F := F) d L t fa00).symm) $$ Ha00
    ihave Ha01 := (Entails.of_eq (pts_oA01 (F := F) d L t fa01).symm) $$ Ha01
    ihave Ha10 := (Entails.of_eq (pts_oA10 (F := F) d L t fa10).symm) $$ Ha10
    ihave Ha11 := (Entails.of_eq (pts_oA11 (F := F) d L t fa11).symm) $$ Ha11
    ihave Ha20 := (Entails.of_eq (pts_oA20 (F := F) d L t fa20).symm) $$ Ha20
    ihave Ha21 := (Entails.of_eq (pts_oA21 (F := F) d L t fa21).symm) $$ Ha21
    ihave Ha30 := (Entails.of_eq (pts_oA30 (F := F) d L t fa30).symm) $$ Ha30
    ihave Ha31 := (Entails.of_eq (pts_oA31 (F := F) d L t fa31).symm) $$ Ha31
    ihave Hb00 := (Entails.of_eq (pts_oB00 (F := F) d L t fb00).symm) $$ Hb00
    ihave Hb01 := (Entails.of_eq (pts_oB01 (F := F) d L t fb01).symm) $$ Hb01
    ihave Hb10 := (Entails.of_eq (pts_oB10 (F := F) d L t fb10).symm) $$ Hb10
    ihave Hb11 := (Entails.of_eq (pts_oB11 (F := F) d L t fb11).symm) $$ Hb11
    ihave Hb20 := (Entails.of_eq (pts_oB20 (F := F) d L t fb20).symm) $$ Hb20
    ihave Hb21 := (Entails.of_eq (pts_oB21 (F := F) d L t fb21).symm) $$ Hb21
    ihave Hb30 := (Entails.of_eq (pts_oB30 (F := F) d L t fb30).symm) $$ Hb30
    ihave Hb31 := (Entails.of_eq (pts_oB31 (F := F) d L t fb31).symm) $$ Hb31
    unfold k0_t1_body
    sl_exec
    icases Hf0_dst with ⟨%gx0, Hxs0, %hgx0⟩
    sl_for (Inner.inv2 d L gx0 g00 g01) $$ [Hxs0 HB0_src0 HB0_src1]
    case region => exact Inner.region2 d L _ _ _ _ gx0 g00 g01
    · unfold Inner.inv2
      isplitl [Hxs0]; · iexact Hxs0
      isplitl [HB0_src0]
      · iexists g00; isplitl [HB0_src0]; · iexact HB0_src0
        ipureintro; exact Inner.goodH_zero _ _ _ _ _
      · iexists g01; isplitl [HB0_src1]; · iexact HB0_src1
        ipureintro; exact Inner.goodH_zero _ _ _ _ _
    iintro %_ HI
    unfold Inner.inv2
    icases HI with ⟨Hxs0, ⟨%n00, HB0_src0, %hn00⟩, ⟨%n01, HB0_src1, %hn01⟩⟩
    have ok000 := hG.good (2 * t.val) (even_group_lt t) 0 0 0 gx0 g00 n00 hgx0 hn00
    have ok001 := hG.good (2 * t.val) (even_group_lt t) 0 0 1 gx0 g01 n01 hgx0 hn01
    imod (Transfers.batch_alloc' (Lvl := ℕ) (countersEmb (U := UU)) (V d (cV L) (jV L)) (none : HIx 1) 131072
        (batchD (delivO d L (oA00 L t) oh00 fa00 n00) (delivO d L (oA01 L t) oh01 fa01 n01))
        (sm := SemLoc.dma cc0_scratch4.sem) (E := Set.univ)) $$ HB0 with HB0
    sl_exec
    sl_for (Inner.inv3 d L gx0 g10 g11) $$ [Hxs0 HB1_src0 HB1_src1]
    case region => exact Inner.region3 d L _ _ _ _ _ gx0 g10 g11
    · unfold Inner.inv3
      isplitl [Hxs0]; · iexact Hxs0
      isplitl [HB1_src0]
      · iexists g10; isplitl [HB1_src0]; · iexact HB1_src0
        ipureintro; exact Inner.goodH_zero _ _ _ _ _
      · iexists g11; isplitl [HB1_src1]; · iexact HB1_src1
        ipureintro; exact Inner.goodH_zero _ _ _ _ _
    iintro %_ HI
    unfold Inner.inv3
    icases HI with ⟨Hxs0, ⟨%n10, HB1_src0, %hn10⟩, ⟨%n11, HB1_src1, %hn11⟩⟩
    have ok010 := hG.good (2 * t.val) (even_group_lt t) 0 1 0 gx0 g10 n10 hgx0 hn10
    have ok011 := hG.good (2 * t.val) (even_group_lt t) 0 1 1 gx0 g11 n11 hgx0 hn11
    imod (Transfers.batch_alloc' (Lvl := ℕ) (countersEmb (U := UU)) (V d (cV L) (jV L)) (none : HIx 1) 131072
        (batchD (delivO d L (oA10 L t) oh10 fa10 n10) (delivO d L (oA11 L t) oh11 fa11 n11))
        (sm := SemLoc.dma cc0_scratch5.sem) (E := Set.univ)) $$ HB1 with HB1
    sl_exec
    sl_for (Inner.inv4 d L gx0 g20 g21) $$ [Hxs0 HB2_src0 HB2_src1]
    case region => exact Inner.region4 d L _ _ _ gx0 g20 g21
    · unfold Inner.inv4
      isplitl [Hxs0]; · iexact Hxs0
      isplitl [HB2_src0]
      · iexists g20; isplitl [HB2_src0]; · iexact HB2_src0
        ipureintro; exact Inner.goodH_zero _ _ _ _ _
      · iexists g21; isplitl [HB2_src1]; · iexact HB2_src1
        ipureintro; exact Inner.goodH_zero _ _ _ _ _
    iintro %_ HI
    unfold Inner.inv4
    icases HI with ⟨Hxs0, ⟨%n20, HB2_src0, %hn20⟩, ⟨%n21, HB2_src1, %hn21⟩⟩
    have ok020 := hG.good (2 * t.val) (even_group_lt t) 0 2 0 gx0 g20 n20 hgx0 hn20
    have ok021 := hG.good (2 * t.val) (even_group_lt t) 0 2 1 gx0 g21 n21 hgx0 hn21
    imod (Transfers.batch_alloc' (Lvl := ℕ) (countersEmb (U := UU)) (V d (cV L) (jV L)) (none : HIx 1) 131072
        (batchD (delivO d L (oA20 L t) oh20 fa20 n20) (delivO d L (oA21 L t) oh21 fa21 n21))
        (sm := SemLoc.dma cc0_scratch6.sem) (E := Set.univ)) $$ HB2 with HB2
    sl_exec
    sl_for (Inner.inv5 d L gx0 g30 g31) $$ [Hxs0 HB3_src0 HB3_src1]
    case region => exact Inner.region5 d L _ _ _ _ gx0 g30 g31
    · unfold Inner.inv5
      isplitl [Hxs0]; · iexact Hxs0
      isplitl [HB3_src0]
      · iexists g30; isplitl [HB3_src0]; · iexact HB3_src0
        ipureintro; exact Inner.goodH_zero _ _ _ _ _
      · iexists g31; isplitl [HB3_src1]; · iexact HB3_src1
        ipureintro; exact Inner.goodH_zero _ _ _ _ _
    iintro %_ HI
    unfold Inner.inv5
    icases HI with ⟨Hxs0, ⟨%n30, HB3_src0, %hn30⟩, ⟨%n31, HB3_src1, %hn31⟩⟩
    have ok030 := hG.good (2 * t.val) (even_group_lt t) 0 3 0 gx0 g30 n30 hgx0 hn30
    have ok031 := hG.good (2 * t.val) (even_group_lt t) 0 3 1 gx0 g31 n31 hgx0 hn31
    imod (Transfers.batch_alloc' (Lvl := ℕ) (countersEmb (U := UU)) (V d (cV L) (jV L)) (none : HIx 1) 131072
        (batchD (delivO d L (oA30 L t) oh30 fa30 n30) (delivO d L (oA31 L t) oh31 fa31 n31))
        (sm := SemLoc.dma cc0_scratch7.sem) (E := Set.univ)) $$ HB3 with HB3
    sl_exec
    icases Hf1_dst with ⟨%gx1, Hxs1, %hgx1⟩
    ihave He00 := (Entails.of_eq (done_oA00 X d L hO t _ _ ok000)) $$ HB0_dst0
    ihave He01 := (Entails.of_eq (done_oA01 X d L hO t _ _ ok001)) $$ HB0_dst1
    sl_for (Inner.inv6 d L gx1 n00 n01) $$ [Hxs1 HB0_src0 HB0_src1]
    case region => exact Inner.region6 d L _ _ _ _ gx1 n00 n01
    · unfold Inner.inv6
      isplitl [Hxs1]; · iexact Hxs1
      isplitl [HB0_src0]
      · iexists n00; isplitl [HB0_src0]; · iexact HB0_src0
        ipureintro; exact Inner.goodH_zero _ _ _ _ _
      · iexists n01; isplitl [HB0_src1]; · iexact HB0_src1
        ipureintro; exact Inner.goodH_zero _ _ _ _ _
    iintro %_ HI
    unfold Inner.inv6
    icases HI with ⟨Hxs1, ⟨%m00, HB0_src0, %hm00⟩, ⟨%m01, HB0_src1, %hm01⟩⟩
    have ok100 := hG.good (2 * t.val + 1) (odd_group_lt t) 1 0 0 gx1 n00 m00 hgx1 hm00
    have ok101 := hG.good (2 * t.val + 1) (odd_group_lt t) 1 0 1 gx1 n01 m01 hgx1 hm01
    ihave HB0 := (show (semVal ((V d (cV L) (jV L)), SemLoc.dma ⟨2, _⟩) 0 : sProp 𝕄) ⊢ semVal ((V d (cV L) (jV L)), SemLoc.dma cc0_scratch4.sem) 0 from Entails.rfl) $$ HB0
    imod (Transfers.batch_alloc' (Lvl := ℕ) (countersEmb (U := UU)) (V d (cV L) (jV L)) (none : HIx 1) 131072
        (batchD (delivO d L (oB00 L t) oh00 fb00 m00) (delivO d L (oB01 L t) oh01 fb01 m01))
        (sm := SemLoc.dma cc0_scratch4.sem) (E := Set.univ)) $$ HB0 with HB0
    sl_exec
    ihave He10 := (Entails.of_eq (done_oA10 X d L hO t _ _ ok010)) $$ HB1_dst0
    ihave He11 := (Entails.of_eq (done_oA11 X d L hO t _ _ ok011)) $$ HB1_dst1
    sl_for (Inner.inv7 d L gx1 n10 n11) $$ [Hxs1 HB1_src0 HB1_src1]
    case region => exact Inner.region7 d L _ _ _ _ _ gx1 n10 n11
    · unfold Inner.inv7
      isplitl [Hxs1]; · iexact Hxs1
      isplitl [HB1_src0]
      · iexists n10; isplitl [HB1_src0]; · iexact HB1_src0
        ipureintro; exact Inner.goodH_zero _ _ _ _ _
      · iexists n11; isplitl [HB1_src1]; · iexact HB1_src1
        ipureintro; exact Inner.goodH_zero _ _ _ _ _
    iintro %_ HI
    unfold Inner.inv7
    icases HI with ⟨Hxs1, ⟨%m10, HB1_src0, %hm10⟩, ⟨%m11, HB1_src1, %hm11⟩⟩
    have ok110 := hG.good (2 * t.val + 1) (odd_group_lt t) 1 1 0 gx1 n10 m10 hgx1 hm10
    have ok111 := hG.good (2 * t.val + 1) (odd_group_lt t) 1 1 1 gx1 n11 m11 hgx1 hm11
    ihave HB1 := (show (semVal ((V d (cV L) (jV L)), SemLoc.dma ⟨3, _⟩) 0 : sProp 𝕄) ⊢ semVal ((V d (cV L) (jV L)), SemLoc.dma cc0_scratch5.sem) 0 from Entails.rfl) $$ HB1
    imod (Transfers.batch_alloc' (Lvl := ℕ) (countersEmb (U := UU)) (V d (cV L) (jV L)) (none : HIx 1) 131072
        (batchD (delivO d L (oB10 L t) oh10 fb10 m10) (delivO d L (oB11 L t) oh11 fb11 m11))
        (sm := SemLoc.dma cc0_scratch5.sem) (E := Set.univ)) $$ HB1 with HB1
    sl_exec
    ihave He20 := (Entails.of_eq (done_oA20 X d L hO t _ _ ok020)) $$ HB2_dst0
    ihave He21 := (Entails.of_eq (done_oA21 X d L hO t _ _ ok021)) $$ HB2_dst1
    sl_for (Inner.inv8 d L gx1 n20 n21) $$ [Hxs1 HB2_src0 HB2_src1]
    case region => exact Inner.region8 d L _ _ _ gx1 n20 n21
    · unfold Inner.inv8
      isplitl [Hxs1]; · iexact Hxs1
      isplitl [HB2_src0]
      · iexists n20; isplitl [HB2_src0]; · iexact HB2_src0
        ipureintro; exact Inner.goodH_zero _ _ _ _ _
      · iexists n21; isplitl [HB2_src1]; · iexact HB2_src1
        ipureintro; exact Inner.goodH_zero _ _ _ _ _
    iintro %_ HI
    unfold Inner.inv8
    icases HI with ⟨Hxs1, ⟨%m20, HB2_src0, %hm20⟩, ⟨%m21, HB2_src1, %hm21⟩⟩
    have ok120 := hG.good (2 * t.val + 1) (odd_group_lt t) 1 2 0 gx1 n20 m20 hgx1 hm20
    have ok121 := hG.good (2 * t.val + 1) (odd_group_lt t) 1 2 1 gx1 n21 m21 hgx1 hm21
    ihave HB2 := (show (semVal ((V d (cV L) (jV L)), SemLoc.dma ⟨4, _⟩) 0 : sProp 𝕄) ⊢ semVal ((V d (cV L) (jV L)), SemLoc.dma cc0_scratch6.sem) 0 from Entails.rfl) $$ HB2
    imod (Transfers.batch_alloc' (Lvl := ℕ) (countersEmb (U := UU)) (V d (cV L) (jV L)) (none : HIx 1) 131072
        (batchD (delivO d L (oB20 L t) oh20 fb20 m20) (delivO d L (oB21 L t) oh21 fb21 m21))
        (sm := SemLoc.dma cc0_scratch6.sem) (E := Set.univ)) $$ HB2 with HB2
    sl_exec
    ihave He30 := (Entails.of_eq (done_oA30 X d L hO t _ _ ok030)) $$ HB3_dst0
    ihave He31 := (Entails.of_eq (done_oA31 X d L hO t _ _ ok031)) $$ HB3_dst1
    sl_for (Inner.inv9 d L gx1 n30 n31) $$ [Hxs1 HB3_src0 HB3_src1]
    case region => exact Inner.region9 d L _ _ _ _ gx1 n30 n31
    · unfold Inner.inv9
      isplitl [Hxs1]; · iexact Hxs1
      isplitl [HB3_src0]
      · iexists n30; isplitl [HB3_src0]; · iexact HB3_src0
        ipureintro; exact Inner.goodH_zero _ _ _ _ _
      · iexists n31; isplitl [HB3_src1]; · iexact HB3_src1
        ipureintro; exact Inner.goodH_zero _ _ _ _ _
    iintro %_ HI
    unfold Inner.inv9
    icases HI with ⟨Hxs1, ⟨%m30, HB3_src0, %hm30⟩, ⟨%m31, HB3_src1, %hm31⟩⟩
    have ok130 := hG.good (2 * t.val + 1) (odd_group_lt t) 1 3 0 gx1 n30 m30 hgx1 hm30
    have ok131 := hG.good (2 * t.val + 1) (odd_group_lt t) 1 3 1 gx1 n31 m31 hgx1 hm31
    ihave HB3 := (show (semVal ((V d (cV L) (jV L)), SemLoc.dma ⟨5, _⟩) 0 : sProp 𝕄) ⊢ semVal ((V d (cV L) (jV L)), SemLoc.dma cc0_scratch7.sem) 0 from Entails.rfl) $$ HB3
    imod (Transfers.batch_alloc' (Lvl := ℕ) (countersEmb (U := UU)) (V d (cV L) (jV L)) (none : HIx 1) 131072
        (batchD (delivO d L (oB30 L t) oh30 fb30 m30) (delivO d L (oB31 L t) oh31 fb31 m31))
        (sm := SemLoc.dma cc0_scratch7.sem) (E := Set.univ)) $$ HB3 with HB3
    sl_exec
    sl_step
    isplitr; · iexact Hmw
    isplitl [Hf0 Hx0r Hf1 Hx1r]
    · ileft
      isplitr; · ipureintro; omega
      isplitl [Hf0 Hx0r]
      · iexists _
        isplitl [Hf0]
        · iapply (flight_ok0 X d L (2 * (t.val + 1)) _ (hX.l0 (2 * (t.val + 1)) (by omega) _ (k0_off22_inb L t k0_h5) (by rw [hoffx22, show 4 * (2 * t.val + 2) = 4 * (2 * (t.val + 1)) from by omega]) _) _)
          iexact Hf0
        · iexact Hx0r
      · iexists _
        isplitl [Hf1]
        · iapply (flight_ok1 X d L (2 * (t.val + 1) + 1) _ (hX.l1 (2 * (t.val + 1) + 1) (by omega) _ (k0_off42_inb L t k0_h10) (by rw [hoffx42, show 4 * (2 * t.val + 3) = 4 * (2 * (t.val + 1) + 1) from by omega]) _) _)
          iexact Hf1
        · iexact Hx1r
    isplitl [HB0 HB1 HB2 HB3]
    · iright
      unfold BatchO0 BatchO1 BatchO2 BatchO3
      iexists t
      isplitr; · ipureintro; rfl
      isplitl [HB0]
      · iexists fb00, fb01, m00, m01
        isplitr; · ipureintro; exact ⟨ok100, ok101⟩
        iexact HB0
      isplitl [HB1]
      · iexists fb10, fb11, m10, m11
        isplitr; · ipureintro; exact ⟨ok110, ok111⟩
        iexact HB1
      isplitl [HB2]
      · iexists fb20, fb21, m20, m21
        isplitr; · ipureintro; exact ⟨ok120, ok121⟩
        iexact HB2
      iexists fb30, fb31, m30, m31
      isplitr; · ipureintro; exact ⟨ok130, ok131⟩
      iexact HB3
    isplitl [Htodo]
    · iapply (Entails.of_eq (congrArg (oTodoG d (widL L)) (show 2 * t.val + 1 + 1 = 2 * (t.val + 1) from by omega)))
      iexact Htodo
    isplitl [Hdone He00 He01 He10 He11 He20 He21 He30 He31]
    · ihave Hdone := (Entails.of_eq (congrArg (oDoneG X d (widL L)) (show 2 * t.val - 1 = 2 * t.val from by omega))) $$ Hdone
      ihave Hdone := (oDoneG_step X d (widL L) (2 * t.val) (even_group_lt t)) $$ [Hdone He00 He01 He10 He11 He20 He21 He30 He31]
      · isplitl [Hdone]; · iexact Hdone
        isplitl [He00]; · iexact He00
        isplitl [He01]; · iexact He01
        isplitl [He10]; · iexact He10
        isplitl [He11]; · iexact He11
        isplitl [He20]; · iexact He20
        isplitl [He21]; · iexact He21
        isplitl [He30]; · iexact He30
        iexact He31
      iapply (Entails.of_eq (congrArg (oDoneG X d (widL L)) (show 2 * t.val + 1 = 2 * (t.val + 1) - 1 from by omega)))
      iexact Hdone
    iexists _
    isplitr
    swap
    · iexact HO
    · ipureintro; repeat (first | exact hW' | apply wok_insert)

  · exfalso; omega

end Cert.KernelIdeal.Hand

end
-- ==== Proof.TileTripB.lean ====
/-
  One trip of the tile kernel's outer loop, from the invariant before the trip to the invariant after it — a trip between the first and the last:
  the two groups of four planes the trip computes, each plane by its inner loop between the waits that free its half
  planes and the two copies that send them out, and the next two fetches started.
-/
import proofs.«209186_g8847632630064_cont_9to1c4b_396_28_alg».proof.Proof.Common
import proofs.«209186_g8847632630064_cont_9to1c4b_396_28_alg».proof.Proof.TileBufs
import proofs.«209186_g8847632630064_cont_9to1c4b_396_28_alg».proof.Proof.TileSlices
import proofs.«209186_g8847632630064_cont_9to1c4b_396_28_alg».proof.Proof.TileInv
import proofs.«209186_g8847632630064_cont_9to1c4b_396_28_alg».proof.Proof.TilePre
import proofs.«209186_g8847632630064_cont_9to1c4b_396_28_alg».proof.Proof.TileOffs
import proofs.«209186_g8847632630064_cont_9to1c4b_396_28_alg».proof.Proof.TileGood
import proofs.«209186_g8847632630064_cont_9to1c4b_396_28_alg».proof.Proof.InnerLoop

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop shareTokN)
open Idealize.ShloMosaic.Tactic

variable {F : FTy → Type}

local notation "𝕄" => MT nD τ sig (HIx 1) (Elt F) ℕ UU ℕ

variable [FloatOps F]
variable (X : (d : Dev nD) → Buf (Elt F) (x3Loc d))
variable (d : Dev nD) (L : grid0.Coords)

open Idealize.ShloMosaic.ValueIdx

/-- The trip, a trip between the first and the last. -/
theorem trip_mid (hX : LandX X d L) (hO : LandO X d L) (hG : GoodOk X d L)
    (O : CellTallies nD τ sig (HIx 1)) (W : Waits sig (HIx 1)) (v1 : BitVec 32) (t : Fin k0_t1_loop.trips) (acc : PUnit) (hcase : 1 ≤ t.val ∧ t.val < 24) :
    Inv X d L O W t.val acc
      ⊢ wp frame (wpE (defs₀ (F := F)) 𝒱₀ (V d (cV L) (jV L)) none) Set.univ
          (k0_t1_body L xV (Memref.isWhole_whole _) oV (Memref.isWhole_whole _) sX (Memref.isWhole_whole _) sO (Memref.isWhole_whole _) cc0_scratch2 cc0_scratch3 cc0_scratch4 cc0_scratch5 cc0_scratch6 cc0_scratch7 cc0_scratch8 cc0_scratch9 cc0_scratch10 cc0_scratch11 v1 t acc) (Inv X d L O W (t.val + 1)) := by
  have htl := trips_le t
  unfold Inv InSt OutSt
  iintro ⟨#Hmw, Hin, Hout, Htodo, Hdone, %W', %hW', HO⟩
  icases Hin with (⟨%hk, Hin0, Hin1⟩ | ⟨%hk, -⟩)
  swap
  · exfalso; omega
  unfold FlIn0 FlIn1
  icases Hin0 with ⟨%Sx0, Hf0, Hx0r⟩
  icases Hin1 with ⟨%Sx1, Hf1, Hx1r⟩
  icases Hout with (⟨%h0, HO0, HO1, HO2, HO3⟩ | ⟨%tp, %htp, HB0, HB1, HB2, HB3⟩)
  · exfalso; omega
  · unfold BatchO0 BatchO1 BatchO2 BatchO3
    icases HB0 with ⟨%fp00, %fp01, %g00, %g01, %hokp0, HB0⟩
    icases HB1 with ⟨%fp10, %fp11, %g10, %g11, %hokp1, HB1⟩
    icases HB2 with ⟨%fp20, %fp21, %g20, %g21, %hokp2, HB2⟩
    icases HB3 with ⟨%fp30, %fp31, %g30, %g31, %hokp3, HB3⟩
    have h24 : t.val < 24 := hcase.2
    have k0_h1 : k0_cond1 t = 1#1 := cond1_pos t (by omega)
    have k0_h2 : k0_cond2 t = 1#1 := cond2_pos t (by omega)
    have k0_h3 : k0_cond3 t = 1#1 := cond3_pos t (by omega)
    have k0_h4 : k0_cond4 t = 1#1 := cond4_pos t (by omega)
    have k0_h6 : k0_cond6 t = 1#1 := cond6_all t
    have k0_h7 : k0_cond7 t = 1#1 := cond7_all t
    have k0_h8 : k0_cond8 t = 1#1 := cond8_all t
    have k0_h9 : k0_cond9 t = 1#1 := cond9_all t
    have k0_h5 : k0_cond5 t = 1#1 := cond5_lt t h24
    have k0_h10 : k0_cond10 t = 1#1 := cond10_lt t h24
    ihave Htodo := (Entails.of_eq (oTodoG_step d (widL L) (2 * t.val) (even_group_lt t))) $$ Htodo
    icases Htodo with ⟨⟨%fa00, Ha00⟩, ⟨%fa01, Ha01⟩, ⟨%fa10, Ha10⟩, ⟨%fa11, Ha11⟩, ⟨%fa20, Ha20⟩, ⟨%fa21, Ha21⟩, ⟨%fa30, Ha30⟩, ⟨%fa31, Ha31⟩, Htodo⟩
    ihave Htodo := (Entails.of_eq (oTodoG_step d (widL L) (2 * t.val + 1) (odd_group_lt t))) $$ Htodo
    icases Htodo with ⟨⟨%fb00, Hb00⟩, ⟨%fb01, Hb01⟩, ⟨%fb10, Hb10⟩, ⟨%fb11, Hb11⟩, ⟨%fb20, Hb20⟩, ⟨%fb21, Hb21⟩, ⟨%fb30, Hb30⟩, ⟨%fb31, Hb31⟩, Htodo⟩
    ihave Ha00 := (Entails.of_eq (pts_oA00 (F := F) d L t fa00).symm) $$ Ha00
    ihave Ha01 := (Entails.of_eq (pts_oA01 (F := F) d L t fa01).symm) $$ Ha01
    ihave Ha10 := (Entails.of_eq (pts_oA10 (F := F) d L t fa10).symm) $$ Ha10
    ihave Ha11 := (Entails.of_eq (pts_oA11 (F := F) d L t fa11).symm) $$ Ha11
    ihave Ha20 := (Entails.of_eq (pts_oA20 (F := F) d L t fa20).symm) $$ Ha20
    ihave Ha21 := (Entails.of_eq (pts_oA21 (F := F) d L t fa21).symm) $$ Ha21
    ihave Ha30 := (Entails.of_eq (pts_oA30 (F := F) d L t fa30).symm) $$ Ha30
    ihave Ha31 := (Entails.of_eq (pts_oA31 (F := F) d L t fa31).symm) $$ Ha31
    ihave Hb00 := (Entails.of_eq (pts_oB00 (F := F) d L t fb00).symm) $$ Hb00
    ihave Hb01 := (Entails.of_eq (pts_oB01 (F := F) d L t fb01).symm) $$ Hb01
    ihave Hb10 := (Entails.of_eq (pts_oB10 (F := F) d L t fb10).symm) $$ Hb10
    ihave Hb11 := (Entails.of_eq (pts_oB11 (F := F) d L t fb11).symm) $$ Hb11
    ihave Hb20 := (Entails.of_eq (pts_oB20 (F := F) d L t fb20).symm) $$ Hb20
    ihave Hb21 := (Entails.of_eq (pts_oB21 (F := F) d L t fb21).symm) $$ Hb21
    ihave Hb30 := (Entails.of_eq (pts_oB30 (F := F) d L t fb30).symm) $$ Hb30
    ihave Hb31 := (Entails.of_eq (pts_oB31 (F := F) d L t fb31).symm) $$ Hb31
    unfold k0_t1_body
    sl_exec
    icases Hf0_dst with ⟨%gx0, Hxs0, %hgx0⟩
    ihave Hd00 := (Entails.of_eq (done_oB00 X d L hO tp _ _ hokp0.1)) $$ HB0_dst0
    ihave Hd01 := (Entails.of_eq (done_oB01 X d L hO tp _ _ hokp0.2)) $$ HB0_dst1
    sl_for (Inner.inv2 d L gx0 g00 g01) $$ [Hxs0 HB0_src0 HB0_src1]
    case region => exact Inner.region2 d L _ _ _ _ gx0 g00 g01
    · unfold Inner.inv2
      isplitl [Hxs0]; · iexact Hxs0
      isplitl [HB0_src0]
      · iexists g00; isplitl [HB0_src0]; · iexact HB0_src0
        ipureintro; exact Inner.goodH_zero _ _ _ _ _
      · iexists g01; isplitl [HB0_src1]; · iexact HB0_src1
        ipureintro; exact Inner.goodH_zero _ _ _ _ _
    iintro %_ HI
    unfold Inner.inv2
    icases HI with ⟨Hxs0, ⟨%n00, HB0_src0, %hn00⟩, ⟨%n01, HB0_src1, %hn01⟩⟩
    have ok000 := hG.good (2 * t.val) (even_group_lt t) 0 0 0 gx0 g00 n00 hgx0 hn00
    have ok001 := hG.good (2 * t.val) (even_group_lt t) 0 0 1 gx0 g01 n01 hgx0 hn01
    ihave HB0 := (show (semVal ((V d (cV L) (jV L)), SemLoc.dma ⟨2, _⟩) 0 : sProp 𝕄) ⊢ semVal ((V d (cV L) (jV L)), SemLoc.dma cc0_scratch4.sem) 0 from Entails.rfl) $$ HB0
    imod (Transfers.batch_alloc' (Lvl := ℕ) (countersEmb (U := UU)) (V d (cV L) (jV L)) (none : HIx 1) 131072
        (batchD (delivO d L (oA00 L t) oh00 fa00 n00) (delivO d L (oA01 L t) oh01 fa01 n01))
        (sm := SemLoc.dma cc0_scratch4.sem) (E := Set.univ)) $$ HB0 with HB0
    sl_exec
    ihave Hd10 := (Entails.of_eq (done_oB10 X d L hO tp _ _ hokp1.1)) $$ HB1_dst0
    ihave Hd11 := (Entails.of_eq (done_oB11 X d L hO tp _ _ hokp1.2)) $$ HB1_dst1
    sl_for (Inner.inv3 d L gx0 g10 g11) $$ [Hxs0 HB1_src0 HB1_src1]
    case region => exact Inner.region3 d L _ _ _ _ _ gx0 g10 g11
    · unfold Inner.inv3
      isplitl [Hxs0]; · iexact Hxs0
      isplitl [HB1_src0]
      · iexists g10; isplitl [HB1_src0]; · iexact HB1_src0
        ipureintro; exact Inner.goodH_zero _ _ _ _ _
      · iexists g11; isplitl [HB1_src1]; · iexact HB1_src1
        ipureintro; exact Inner.goodH_zero _ _ _ _ _
    iintro %_ HI
    unfold Inner.inv3
    icases HI with ⟨Hxs0, ⟨%n10, HB1_src0, %hn10⟩, ⟨%n11, HB1_src1, %hn11⟩⟩
    have ok010 := hG.good (2 * t.val) (even_group_lt t) 0 1 0 gx0 g10 n10 hgx0 hn10
    have ok011 := hG.good (2 * t.val) (even_group_lt t) 0 1 1 gx0 g11 n11 hgx0 hn11
    ihave HB1 := (show (semVal ((V d (cV L) (jV L)), SemLoc.dma ⟨3, _⟩) 0 : sProp 𝕄) ⊢ semVal ((V d (cV L) (jV L)), SemLoc.dma cc0_scratch5.sem) 0 from Entails.rfl) $$ HB1
    imod (Transfers.batch_alloc' (Lvl := ℕ) (countersEmb (U := UU)) (V d (cV L) (jV L)) (none : HIx 1) 131072
        (batchD (delivO d L (oA10 L t) oh10 fa10 n10) (delivO d L (oA11 L t) oh11 fa11 n11))
        (sm := SemLoc.dma cc0_scratch5.sem) (E := Set.univ)) $$ HB1 with HB1
    sl_exec
    ihave Hd20 := (Entails.of_eq (done_oB20 X d L hO tp _ _ hokp2.1)) $$ HB2_dst0
    ihave Hd21 := (Entails.of_eq (done_oB21 X d L hO tp _ _ hokp2.2)) $$ HB2_dst1
    sl_for (Inner.inv4 d L gx0 g20 g21) $$ [Hxs0 HB2_src0 HB2_src1]
    case region => exact Inner.region4 d L _ _ _ gx0 g20 g21
    · unfold Inner.inv4
      isplitl [Hxs0]; · iexact Hxs0
      isplitl [HB2_src0]
      · iexists g20; isplitl [HB2_src0]; · iexact HB2_src0
        ipureintro; exact Inner.goodH_zero _ _ _ _ _
      · iexists g21; isplitl [HB2_src1]; · iexact HB2_src1
        ipureintro; exact Inner.goodH_zero _ _ _ _ _
    iintro %_ HI
    unfold Inner.inv4
    icases HI with ⟨Hxs0, ⟨%n20, HB2_src0, %hn20⟩, ⟨%n21, HB2_src1, %hn21⟩⟩
    have ok020 := hG.good (2 * t.val) (even_group_lt t) 0 2 0 gx0 g20 n20 hgx0 hn20
    have ok021 := hG.good (2 * t.val) (even_group_lt t) 0 2 1 gx0 g21 n21 hgx0 hn21
    ihave HB2 := (show (semVal ((V d (cV L) (jV L)), SemLoc.dma ⟨4, _⟩) 0 : sProp 𝕄) ⊢ semVal ((V d (cV L) (jV L)), SemLoc.dma cc0_scratch6.sem) 0 from Entails.rfl) $$ HB2
    imod (Transfers.batch_alloc' (Lvl := ℕ) (countersEmb (U := UU)) (V d (cV L) (jV L)) (none : HIx 1) 131072
        (batchD (delivO d L (oA20 L t) oh20 fa20 n20) (delivO d L (oA21 L t) oh21 fa21 n21))
        (sm := SemLoc.dma cc0_scratch6.sem) (E := Set.univ)) $$ HB2 with HB2
    sl_exec
    ihave Hd30 := (Entails.of_eq (done_oB30 X d L hO tp _ _ hokp3.1)) $$ HB3_dst0
    ihave Hd31 := (Entails.of_eq (done_oB31 X d L hO tp _ _ hokp3.2)) $$ HB3_dst1
    sl_for (Inner.inv5 d L gx0 g30 g31) $$ [Hxs0 HB3_src0 HB3_src1]
    case region => exact Inner.region5 d L _ _ _ _ gx0 g30 g31
    · unfold Inner.inv5
      isplitl [Hxs0]; · iexact Hxs0
      isplitl [HB3_src0]
      · iexists g30; isplitl [HB3_src0]; · iexact HB3_src0
        ipureintro; exact Inner.goodH_zero _ _ _ _ _
      · iexists g31; isplitl [HB3_src1]; · iexact HB3_src1
        ipureintro; exact Inner.goodH_zero _ _ _ _ _
    iintro %_ HI
    unfold Inner.inv5
    icases HI with ⟨Hxs0, ⟨%n30, HB3_src0, %hn30⟩, ⟨%n31, HB3_src1, %hn31⟩⟩
    have ok030 := hG.good (2 * t.val) (even_group_lt t) 0 3 0 gx0 g30 n30 hgx0 hn30
    have ok031 := hG.good (2 * t.val) (even_group_lt t) 0 3 1 gx0 g31 n31 hgx0 hn31
    ihave HB3 := (show (semVal ((V d (cV L) (jV L)), SemLoc.dma ⟨5, _⟩) 0 : sProp 𝕄) ⊢ semVal ((V d (cV L) (jV L)), SemLoc.dma cc0_scratch7.sem) 0 from Entails.rfl) $$ HB3
    imod (Transfers.batch_alloc' (Lvl := ℕ) (countersEmb (U := UU)) (V d (cV L) (jV L)) (none : HIx 1) 131072
        (batchD (delivO d L (oA30 L t) oh30 fa30 n30) (delivO d L (oA31 L t) oh31 fa31 n31))
        (sm := SemLoc.dma cc0_scratch7.sem) (E := Set.univ)) $$ HB3 with HB3
    sl_exec
    icases Hf1_dst with ⟨%gx1, Hxs1, %hgx1⟩
    ihave He00 := (Entails.of_eq (done_oA00 X d L hO t _ _ ok000)) $$ HB0_dst0
    ihave He01 := (Entails.of_eq (done_oA01 X d L hO t _ _ ok001)) $$ HB0_dst1
    sl_for (Inner.inv6 d L gx1 n00 n01) $$ [Hxs1 HB0_src0 HB0_src1]
    case region => exact Inner.region6 d L _ _ _ _ gx1 n00 n01
    · unfold Inner.inv6
      isplitl [Hxs1]; · iexact Hxs1
      isplitl [HB0_src0]
      · iexists n00; isplitl [HB0_src0]; · iexact HB0_src0
        ipureintro; exact Inner.goodH_zero _ _ _ _ _
      · iexists n01; isplitl [HB0_src1]; · iexact HB0_src1
        ipureintro; exact Inner.goodH_zero _ _ _ _ _
    iintro %_ HI
    unfold Inner.inv6
    icases HI with ⟨Hxs1, ⟨%m00, HB0_src0, %hm00⟩, ⟨%m01, HB0_src1, %hm01⟩⟩
    have ok100 := hG.good (2 * t.val + 1) (odd_group_lt t) 1 0 0 gx1 n00 m00 hgx1 hm00
    have ok101 := hG.good (2 * t.val + 1) (odd_group_lt t) 1 0 1 gx1 n01 m01 hgx1 hm01
    ihave HB0 := (show (semVal ((V d (cV L) (jV L)), SemLoc.dma ⟨2, _⟩) 0 : sProp 𝕄) ⊢ semVal ((V d (cV L) (jV L)), SemLoc.dma cc0_scratch4.sem) 0 from Entails.rfl) $$ HB0
    imod (Transfers.batch_alloc' (Lvl := ℕ) (countersEmb (U := UU)) (V d (cV L) (jV L)) (none : HIx 1) 131072
        (batchD (delivO d L (oB00 L t) oh00 fb00 m00) (delivO d L (oB01 L t) oh01 fb01 m01))
        (sm := SemLoc.dma cc0_scratch4.sem) (E := Set.univ)) $$ HB0 with HB0
    sl_exec
    ihave He10 := (Entails.of_eq (done_oA10 X d L hO t _ _ ok010)) $$ HB1_dst0
    ihave He11 := (Entails.of_eq (done_oA11 X d L hO t _ _ ok011)) $$ HB1_dst1
    sl_for (Inner.inv7 d L gx1 n10 n11) $$ [Hxs1 HB1_src0 HB1_src1]
    case region => exact Inner.region7 d L _ _ _ _ _ gx1 n10 n11
    · unfold Inner.inv7
      isplitl [Hxs1]; · iexact Hxs1
      isplitl [HB1_src0]
      · iexists n10; isplitl [HB1_src0]; · iexact HB1_src0
        ipureintro; exact Inner.goodH_zero _ _ _ _ _
      · iexists n11; isplitl [HB1_src1]; · iexact HB1_src1
        ipureintro; exact Inner.goodH_zero _ _ _ _ _
    iintro %_ HI
    unfold Inner.inv7
    icases HI with ⟨Hxs1, ⟨%m10, HB1_src0, %hm10⟩, ⟨%m11, HB1_src1, %hm11⟩⟩
    have ok110 := hG.good (2 * t.val + 1) (odd_group_lt t) 1 1 0 gx1 n10 m10 hgx1 hm10
    have ok111 := hG.good (2 * t.val + 1) (odd_group_lt t) 1 1 1 gx1 n11 m11 hgx1 hm11
    ihave HB1 := (show (semVal ((V d (cV L) (jV L)), SemLoc.dma ⟨3, _⟩) 0 : sProp 𝕄) ⊢ semVal ((V d (cV L) (jV L)), SemLoc.dma cc0_scratch5.sem) 0 from Entails.rfl) $$ HB1
    imod (Transfers.batch_alloc' (Lvl := ℕ) (countersEmb (U := UU)) (V d (cV L) (jV L)) (none : HIx 1) 131072
        (batchD (delivO d L (oB10 L t) oh10 fb10 m10) (delivO d L (oB11 L t) oh11 fb11 m11))
        (sm := SemLoc.dma cc0_scratch5.sem) (E := Set.univ)) $$ HB1 with HB1
    sl_exec
    ihave He20 := (Entails.of_eq (done_oA20 X d L hO t _ _ ok020)) $$ HB2_dst0
    ihave He21 := (Entails.of_eq (done_oA21 X d L hO t _ _ ok021)) $$ HB2_dst1
    sl_for (Inner.inv8 d L gx1 n20 n21) $$ [Hxs1 HB2_src0 HB2_src1]
    case region => exact Inner.region8 d L _ _ _ gx1 n20 n21
    · unfold Inner.inv8
      isplitl [Hxs1]; · iexact Hxs1
      isplitl [HB2_src0]
      · iexists n20; isplitl [HB2_src0]; · iexact HB2_src0
        ipureintro; exact Inner.goodH_zero _ _ _ _ _
      · iexists n21; isplitl [HB2_src1]; · iexact HB2_src1
        ipureintro; exact Inner.goodH_zero _ _ _ _ _
    iintro %_ HI
    unfold Inner.inv8
    icases HI with ⟨Hxs1, ⟨%m20, HB2_src0, %hm20⟩, ⟨%m21, HB2_src1, %hm21⟩⟩
    have ok120 := hG.good (2 * t.val + 1) (odd_group_lt t) 1 2 0 gx1 n20 m20 hgx1 hm20
    have ok121 := hG.good (2 * t.val + 1) (odd_group_lt t) 1 2 1 gx1 n21 m21 hgx1 hm21
    ihave HB2 := (show (semVal ((V d (cV L) (jV L)), SemLoc.dma ⟨4, _⟩) 0 : sProp 𝕄) ⊢ semVal ((V d (cV L) (jV L)), SemLoc.dma cc0_scratch6.sem) 0 from Entails.rfl) $$ HB2
    imod (Transfers.batch_alloc' (Lvl := ℕ) (countersEmb (U := UU)) (V d (cV L) (jV L)) (none : HIx 1) 131072
        (batchD (delivO d L (oB20 L t) oh20 fb20 m20) (delivO d L (oB21 L t) oh21 fb21 m21))
        (sm := SemLoc.dma cc0_scratch6.sem) (E := Set.univ)) $$ HB2 with HB2
    sl_exec
    ihave He30 := (Entails.of_eq (done_oA30 X d L hO t _ _ ok030)) $$ HB3_dst0
    ihave He31 := (Entails.of_eq (done_oA31 X d L hO t _ _ ok031)) $$ HB3_dst1
    sl_for (Inner.inv9 d L gx1 n30 n31) $$ [Hxs1 HB3_src0 HB3_src1]
    case region => exact Inner.region9 d L _ _ _ _ gx1 n30 n31
    · unfold Inner.inv9
      isplitl [Hxs1]; · iexact Hxs1
      isplitl [HB3_src0]
      · iexists n30; isplitl [HB3_src0]; · iexact HB3_src0
        ipureintro; exact Inner.goodH_zero _ _ _ _ _
      · iexists n31; isplitl [HB3_src1]; · iexact HB3_src1
        ipureintro; exact Inner.goodH_zero _ _ _ _ _
    iintro %_ HI
    unfold Inner.inv9
    icases HI with ⟨Hxs1, ⟨%m30, HB3_src0, %hm30⟩, ⟨%m31, HB3_src1, %hm31⟩⟩
    have ok130 := hG.good (2 * t.val + 1) (odd_group_lt t) 1 3 0 gx1 n30 m30 hgx1 hm30
    have ok131 := hG.good (2 * t.val + 1) (odd_group_lt t) 1 3 1 gx1 n31 m31 hgx1 hm31
    ihave HB3 := (show (semVal ((V d (cV L) (jV L)), SemLoc.dma ⟨5, _⟩) 0 : sProp 𝕄) ⊢ semVal ((V d (cV L) (jV L)), SemLoc.dma cc0_scratch7.sem) 0 from Entails.rfl) $$ HB3
    imod (Transfers.batch_alloc' (Lvl := ℕ) (countersEmb (U := UU)) (V d (cV L) (jV L)) (none : HIx 1) 131072
        (batchD (delivO d L (oB30 L t) oh30 fb30 m30) (delivO d L (oB31 L t) oh31 fb31 m31))
        (sm := SemLoc.dma cc0_scratch7.sem) (E := Set.univ)) $$ HB3 with HB3
    sl_exec
    sl_step
    isplitr; · iexact Hmw
    isplitl [Hf0 Hx0r Hf1 Hx1r]
    · ileft
      isplitr; · ipureintro; omega
      isplitl [Hf0 Hx0r]
      · iexists _
        isplitl [Hf0]
        · iapply (flight_ok0 X d L (2 * (t.val + 1)) _ (hX.l0 (2 * (t.val + 1)) (by omega) _ (k0_off22_inb L t k0_h5) (by rw [hoffx22, show 4 * (2 * t.val + 2) = 4 * (2 * (t.val + 1)) from by omega]) _) _)
          iexact Hf0
        · iexact Hx0r
      · iexists _
        isplitl [Hf1]
        · iapply (flight_ok1 X d L (2 * (t.val + 1) + 1) _ (hX.l1 (2 * (t.val + 1) + 1) (by omega) _ (k0_off42_inb L t k0_h10) (by rw [hoffx42, show 4 * (2 * t.val + 3) = 4 * (2 * (t.val + 1) + 1) from by omega]) _) _)
          iexact Hf1
        · iexact Hx1r
    isplitl [HB0 HB1 HB2 HB3]
    · iright
      iexists t
      isplitr; · ipureintro; rfl
      isplitl [HB0]
      · iexists fb00, fb01, m00, m01
        isplitr; · ipureintro; exact ⟨ok100, ok101⟩
        iexact HB0
      isplitl [HB1]
      · iexists fb10, fb11, m10, m11
        isplitr; · ipureintro; exact ⟨ok110, ok111⟩
        iexact HB1
      isplitl [HB2]
      · iexists fb20, fb21, m20, m21
        isplitr; · ipureintro; exact ⟨ok120, ok121⟩
        iexact HB2
      iexists fb30, fb31, m30, m31
      isplitr; · ipureintro; exact ⟨ok130, ok131⟩
      iexact HB3
    isplitl [Htodo]
    · iapply (Entails.of_eq (congrArg (oTodoG d (widL L)) (show 2 * t.val + 1 + 1 = 2 * (t.val + 1) from by omega)))
      iexact Htodo
    isplitl [Hdone Hd00 Hd01 Hd10 Hd11 Hd20 Hd21 Hd30 Hd31 He00 He01 He10 He11 He20 He21 He30 He31]
    · ihave Hdone := (Entails.of_eq (congrArg (oDoneG X d (widL L)) (show 2 * t.val - 1 = 2 * tp.val + 1 from by omega))) $$ Hdone
      ihave Hdone := (oDoneG_step X d (widL L) (2 * tp.val + 1) (odd_group_lt tp)) $$ [Hdone Hd00 Hd01 Hd10 Hd11 Hd20 Hd21 Hd30 Hd31]
      · isplitl [Hdone]; · iexact Hdone
        isplitl [Hd00]; · iexact Hd00
        isplitl [Hd01]; · iexact Hd01
        isplitl [Hd10]; · iexact Hd10
        isplitl [Hd11]; · iexact Hd11
        isplitl [Hd20]; · iexact Hd20
        isplitl [Hd21]; · iexact Hd21
        isplitl [Hd30]; · iexact Hd30
        iexact Hd31
      ihave Hdone := (Entails.of_eq (congrArg (oDoneG X d (widL L)) (show 2 * tp.val + 1 + 1 = 2 * t.val from by omega))) $$ Hdone
      ihave Hdone := (oDoneG_step X d (widL L) (2 * t.val) (even_group_lt t)) $$ [Hdone He00 He01 He10 He11 He20 He21 He30 He31]
      · isplitl [Hdone]; · iexact Hdone
        isplitl [He00]; · iexact He00
        isplitl [He01]; · iexact He01
        isplitl [He10]; · iexact He10
        isplitl [He11]; · iexact He11
        isplitl [He20]; · iexact He20
        isplitl [He21]; · iexact He21
        isplitl [He30]; · iexact He30
        iexact He31
      iapply (Entails.of_eq (congrArg (oDoneG X d (widL L)) (show 2 * t.val + 1 = 2 * (t.val + 1) - 1 from by omega)))
      iexact Hdone
    iexists _
    isplitr
    swap
    · iexact HO
    · ipureintro; repeat (first | exact hW' | apply wok_insert)

end Cert.KernelIdeal.Hand

end
-- ==== Proof.TileTripC.lean ====
/-
  One trip of the tile kernel's outer loop, from the invariant before the trip to the invariant after it — the last trip:
  the two groups of four planes the trip computes, each plane by its inner loop between the waits that free its half
  planes and the two copies that send them out, and the next two fetches started.
-/
import proofs.«209186_g8847632630064_cont_9to1c4b_396_28_alg».proof.Proof.Common
import proofs.«209186_g8847632630064_cont_9to1c4b_396_28_alg».proof.Proof.TileBufs
import proofs.«209186_g8847632630064_cont_9to1c4b_396_28_alg».proof.Proof.TileSlices
import proofs.«209186_g8847632630064_cont_9to1c4b_396_28_alg».proof.Proof.TileInv
import proofs.«209186_g8847632630064_cont_9to1c4b_396_28_alg».proof.Proof.TilePre
import proofs.«209186_g8847632630064_cont_9to1c4b_396_28_alg».proof.Proof.TileOffs
import proofs.«209186_g8847632630064_cont_9to1c4b_396_28_alg».proof.Proof.TileGood
import proofs.«209186_g8847632630064_cont_9to1c4b_396_28_alg».proof.Proof.InnerLoop

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop shareTokN)
open Idealize.ShloMosaic.Tactic

variable {F : FTy → Type}

local notation "𝕄" => MT nD τ sig (HIx 1) (Elt F) ℕ UU ℕ

variable [FloatOps F]
variable (X : (d : Dev nD) → Buf (Elt F) (x3Loc d))
variable (d : Dev nD) (L : grid0.Coords)

open Idealize.ShloMosaic.ValueIdx

/-- The trip, the last trip: nothing more to fetch. -/
theorem trip_last (hX : LandX X d L) (hO : LandO X d L) (hG : GoodOk X d L)
    (O : CellTallies nD τ sig (HIx 1)) (W : Waits sig (HIx 1)) (v1 : BitVec 32) (t : Fin k0_t1_loop.trips) (acc : PUnit) (hcase : ¬ t.val < 24) :
    Inv X d L O W t.val acc
      ⊢ wp frame (wpE (defs₀ (F := F)) 𝒱₀ (V d (cV L) (jV L)) none) Set.univ
          (k0_t1_body L xV (Memref.isWhole_whole _) oV (Memref.isWhole_whole _) sX (Memref.isWhole_whole _) sO (Memref.isWhole_whole _) cc0_scratch2 cc0_scratch3 cc0_scratch4 cc0_scratch5 cc0_scratch6 cc0_scratch7 cc0_scratch8 cc0_scratch9 cc0_scratch10 cc0_scratch11 v1 t acc) (Inv X d L O W (t.val + 1)) := by
  have htl := trips_le t
  unfold Inv InSt OutSt
  iintro ⟨#Hmw, Hin, Hout, Htodo, Hdone, %W', %hW', HO⟩
  icases Hin with (⟨%hk, Hin0, Hin1⟩ | ⟨%hk, -⟩)
  swap
  · exfalso; omega
  unfold FlIn0 FlIn1
  icases Hin0 with ⟨%Sx0, Hf0, Hx0r⟩
  icases Hin1 with ⟨%Sx1, Hf1, Hx1r⟩
  icases Hout with (⟨%h0, HO0, HO1, HO2, HO3⟩ | ⟨%tp, %htp, HB0, HB1, HB2, HB3⟩)
  · exfalso; omega
  · unfold BatchO0 BatchO1 BatchO2 BatchO3
    icases HB0 with ⟨%fp00, %fp01, %g00, %g01, %hokp0, HB0⟩
    icases HB1 with ⟨%fp10, %fp11, %g10, %g11, %hokp1, HB1⟩
    icases HB2 with ⟨%fp20, %fp21, %g20, %g21, %hokp2, HB2⟩
    icases HB3 with ⟨%fp30, %fp31, %g30, %g31, %hokp3, HB3⟩
    have h24 : ¬ t.val < 24 := hcase
    have k0_h1 : k0_cond1 t = 1#1 := cond1_pos t (by omega)
    have k0_h2 : k0_cond2 t = 1#1 := cond2_pos t (by omega)
    have k0_h3 : k0_cond3 t = 1#1 := cond3_pos t (by omega)
    have k0_h4 : k0_cond4 t = 1#1 := cond4_pos t (by omega)
    have k0_h6 : k0_cond6 t = 1#1 := cond6_all t
    have k0_h7 : k0_cond7 t = 1#1 := cond7_all t
    have k0_h8 : k0_cond8 t = 1#1 := cond8_all t
    have k0_h9 : k0_cond9 t = 1#1 := cond9_all t
    have k0_h5 : ¬ k0_cond5 t = 1#1 := cond5_last t h24
    have k0_h10 : ¬ k0_cond10 t = 1#1 := cond10_last t h24
    ihave Htodo := (Entails.of_eq (oTodoG_step d (widL L) (2 * t.val) (even_group_lt t))) $$ Htodo
    icases Htodo with ⟨⟨%fa00, Ha00⟩, ⟨%fa01, Ha01⟩, ⟨%fa10, Ha10⟩, ⟨%fa11, Ha11⟩, ⟨%fa20, Ha20⟩, ⟨%fa21, Ha21⟩, ⟨%fa30, Ha30⟩, ⟨%fa31, Ha31⟩, Htodo⟩
    ihave Htodo := (Entails.of_eq (oTodoG_step d (widL L) (2 * t.val + 1) (odd_group_lt t))) $$ Htodo
    icases Htodo with ⟨⟨%fb00, Hb00⟩, ⟨%fb01, Hb01⟩, ⟨%fb10, Hb10⟩, ⟨%fb11, Hb11⟩, ⟨%fb20, Hb20⟩, ⟨%fb21, Hb21⟩, ⟨%fb30, Hb30⟩, ⟨%fb31, Hb31⟩, Htodo⟩
    ihave Ha00 := (Entails.of_eq (pts_oA00 (F := F) d L t fa00).symm) $$ Ha00
    ihave Ha01 := (Entails.of_eq (pts_oA01 (F := F) d L t fa01).symm) $$ Ha01
    ihave Ha10 := (Entails.of_eq (pts_oA10 (F := F) d L t fa10).symm) $$ Ha10
    ihave Ha11 := (Entails.of_eq (pts_oA11 (F := F) d L t fa11).symm) $$ Ha11
    ihave Ha20 := (Entails.of_eq (pts_oA20 (F := F) d L t fa20).symm) $$ Ha20
    ihave Ha21 := (Entails.of_eq (pts_oA21 (F := F) d L t fa21).symm) $$ Ha21
    ihave Ha30 := (Entails.of_eq (pts_oA30 (F := F) d L t fa30).symm) $$ Ha30
    ihave Ha31 := (Entails.of_eq (pts_oA31 (F := F) d L t fa31).symm) $$ Ha31
    ihave Hb00 := (Entails.of_eq (pts_oB00 (F := F) d L t fb00).symm) $$ Hb00
    ihave Hb01 := (Entails.of_eq (pts_oB01 (F := F) d L t fb01).symm) $$ Hb01
    ihave Hb10 := (Entails.of_eq (pts_oB10 (F := F) d L t fb10).symm) $$ Hb10
    ihave Hb11 := (Entails.of_eq (pts_oB11 (F := F) d L t fb11).symm) $$ Hb11
    ihave Hb20 := (Entails.of_eq (pts_oB20 (F := F) d L t fb20).symm) $$ Hb20
    ihave Hb21 := (Entails.of_eq (pts_oB21 (F := F) d L t fb21).symm) $$ Hb21
    ihave Hb30 := (Entails.of_eq (pts_oB30 (F := F) d L t fb30).symm) $$ Hb30
    ihave Hb31 := (Entails.of_eq (pts_oB31 (F := F) d L t fb31).symm) $$ Hb31
    unfold k0_t1_body
    sl_exec
    icases Hf0_dst with ⟨%gx0, Hxs0, %hgx0⟩
    ihave Hd00 := (Entails.of_eq (done_oB00 X d L hO tp _ _ hokp0.1)) $$ HB0_dst0
    ihave Hd01 := (Entails.of_eq (done_oB01 X d L hO tp _ _ hokp0.2)) $$ HB0_dst1
    sl_for (Inner.inv2 d L gx0 g00 g01) $$ [Hxs0 HB0_src0 HB0_src1]
    case region => exact Inner.region2 d L _ _ _ _ gx0 g00 g01
    · unfold Inner.inv2
      isplitl [Hxs0]; · iexact Hxs0
      isplitl [HB0_src0]
      · iexists g00; isplitl [HB0_src0]; · iexact HB0_src0
        ipureintro; exact Inner.goodH_zero _ _ _ _ _
      · iexists g01; isplitl [HB0_src1]; · iexact HB0_src1
        ipureintro; exact Inner.goodH_zero _ _ _ _ _
    iintro %_ HI
    unfold Inner.inv2
    icases HI with ⟨Hxs0, ⟨%n00, HB0_src0, %hn00⟩, ⟨%n01, HB0_src1, %hn01⟩⟩
    have ok000 := hG.good (2 * t.val) (even_group_lt t) 0 0 0 gx0 g00 n00 hgx0 hn00
    have ok001 := hG.good (2 * t.val) (even_group_lt t) 0 0 1 gx0 g01 n01 hgx0 hn01
    ihave HB0 := (show (semVal ((V d (cV L) (jV L)), SemLoc.dma ⟨2, _⟩) 0 : sProp 𝕄) ⊢ semVal ((V d (cV L) (jV L)), SemLoc.dma cc0_scratch4.sem) 0 from Entails.rfl) $$ HB0
    imod (Transfers.batch_alloc' (Lvl := ℕ) (countersEmb (U := UU)) (V d (cV L) (jV L)) (none : HIx 1) 131072
        (batchD (delivO d L (oA00 L t) oh00 fa00 n00) (delivO d L (oA01 L t) oh01 fa01 n01))
        (sm := SemLoc.dma cc0_scratch4.sem) (E := Set.univ)) $$ HB0 with HB0
    sl_exec
    ihave Hd10 := (Entails.of_eq (done_oB10 X d L hO tp _ _ hokp1.1)) $$ HB1_dst0
    ihave Hd11 := (Entails.of_eq (done_oB11 X d L hO tp _ _ hokp1.2)) $$ HB1_dst1
    sl_for (Inner.inv3 d L gx0 g10 g11) $$ [Hxs0 HB1_src0 HB1_src1]
    case region => exact Inner.region3 d L _ _ _ _ _ gx0 g10 g11
    · unfold Inner.inv3
      isplitl [Hxs0]; · iexact Hxs0
      isplitl [HB1_src0]
      · iexists g10; isplitl [HB1_src0]; · iexact HB1_src0
        ipureintro; exact Inner.goodH_zero _ _ _ _ _
      · iexists g11; isplitl [HB1_src1]; · iexact HB1_src1
        ipureintro; exact Inner.goodH_zero _ _ _ _ _
    iintro %_ HI
    unfold Inner.inv3
    icases HI with ⟨Hxs0, ⟨%n10, HB1_src0, %hn10⟩, ⟨%n11, HB1_src1, %hn11⟩⟩
    have ok010 := hG.good (2 * t.val) (even_group_lt t) 0 1 0 gx0 g10 n10 hgx0 hn10
    have ok011 := hG.good (2 * t.val) (even_group_lt t) 0 1 1 gx0 g11 n11 hgx0 hn11
    ihave HB1 := (show (semVal ((V d (cV L) (jV L)), SemLoc.dma ⟨3, _⟩) 0 : sProp 𝕄) ⊢ semVal ((V d (cV L) (jV L)), SemLoc.dma cc0_scratch5.sem) 0 from Entails.rfl) $$ HB1
    imod (Transfers.batch_alloc' (Lvl := ℕ) (countersEmb (U := UU)) (V d (cV L) (jV L)) (none : HIx 1) 131072
        (batchD (delivO d L (oA10 L t) oh10 fa10 n10) (delivO d L (oA11 L t) oh11 fa11 n11))
        (sm := SemLoc.dma cc0_scratch5.sem) (E := Set.univ)) $$ HB1 with HB1
    sl_exec
    ihave Hd20 := (Entails.of_eq (done_oB20 X d L hO tp _ _ hokp2.1)) $$ HB2_dst0
    ihave Hd21 := (Entails.of_eq (done_oB21 X d L hO tp _ _ hokp2.2)) $$ HB2_dst1
    sl_for (Inner.inv4 d L gx0 g20 g21) $$ [Hxs0 HB2_src0 HB2_src1]
    case region => exact Inner.region4 d L _ _ _ gx0 g20 g21
    · unfold Inner.inv4
      isplitl [Hxs0]; · iexact Hxs0
      isplitl [HB2_src0]
      · iexists g20; isplitl [HB2_src0]; · iexact HB2_src0
        ipureintro; exact Inner.goodH_zero _ _ _ _ _
      · iexists g21; isplitl [HB2_src1]; · iexact HB2_src1
        ipureintro; exact Inner.goodH_zero _ _ _ _ _
    iintro %_ HI
    unfold Inner.inv4
    icases HI with ⟨Hxs0, ⟨%n20, HB2_src0, %hn20⟩, ⟨%n21, HB2_src1, %hn21⟩⟩
    have ok020 := hG.good (2 * t.val) (even_group_lt t) 0 2 0 gx0 g20 n20 hgx0 hn20
    have ok021 := hG.good (2 * t.val) (even_group_lt t) 0 2 1 gx0 g21 n21 hgx0 hn21
    ihave HB2 := (show (semVal ((V d (cV L) (jV L)), SemLoc.dma ⟨4, _⟩) 0 : sProp 𝕄) ⊢ semVal ((V d (cV L) (jV L)), SemLoc.dma cc0_scratch6.sem) 0 from Entails.rfl) $$ HB2
    imod (Transfers.batch_alloc' (Lvl := ℕ) (countersEmb (U := UU)) (V d (cV L) (jV L)) (none : HIx 1) 131072
        (batchD (delivO d L (oA20 L t) oh20 fa20 n20) (delivO d L (oA21 L t) oh21 fa21 n21))
        (sm := SemLoc.dma cc0_scratch6.sem) (E := Set.univ)) $$ HB2 with HB2
    sl_exec
    ihave Hd30 := (Entails.of_eq (done_oB30 X d L hO tp _ _ hokp3.1)) $$ HB3_dst0
    ihave Hd31 := (Entails.of_eq (done_oB31 X d L hO tp _ _ hokp3.2)) $$ HB3_dst1
    sl_for (Inner.inv5 d L gx0 g30 g31) $$ [Hxs0 HB3_src0 HB3_src1]
    case region => exact Inner.region5 d L _ _ _ _ gx0 g30 g31
    · unfold Inner.inv5
      isplitl [Hxs0]; · iexact Hxs0
      isplitl [HB3_src0]
      · iexists g30; isplitl [HB3_src0]; · iexact HB3_src0
        ipureintro; exact Inner.goodH_zero _ _ _ _ _
      · iexists g31; isplitl [HB3_src1]; · iexact HB3_src1
        ipureintro; exact Inner.goodH_zero _ _ _ _ _
    iintro %_ HI
    unfold Inner.inv5
    icases HI with ⟨Hxs0, ⟨%n30, HB3_src0, %hn30⟩, ⟨%n31, HB3_src1, %hn31⟩⟩
    have ok030 := hG.good (2 * t.val) (even_group_lt t) 0 3 0 gx0 g30 n30 hgx0 hn30
    have ok031 := hG.good (2 * t.val) (even_group_lt t) 0 3 1 gx0 g31 n31 hgx0 hn31
    ihave HB3 := (show (semVal ((V d (cV L) (jV L)), SemLoc.dma ⟨5, _⟩) 0 : sProp 𝕄) ⊢ semVal ((V d (cV L) (jV L)), SemLoc.dma cc0_scratch7.sem) 0 from Entails.rfl) $$ HB3
    imod (Transfers.batch_alloc' (Lvl := ℕ) (countersEmb (U := UU)) (V d (cV L) (jV L)) (none : HIx 1) 131072
        (batchD (delivO d L (oA30 L t) oh30 fa30 n30) (delivO d L (oA31 L t) oh31 fa31 n31))
        (sm := SemLoc.dma cc0_scratch7.sem) (E := Set.univ)) $$ HB3 with HB3
    sl_exec
    icases Hf1_dst with ⟨%gx1, Hxs1, %hgx1⟩
    ihave He00 := (Entails.of_eq (done_oA00 X d L hO t _ _ ok000)) $$ HB0_dst0
    ihave He01 := (Entails.of_eq (done_oA01 X d L hO t _ _ ok001)) $$ HB0_dst1
    sl_for (Inner.inv6 d L gx1 n00 n01) $$ [Hxs1 HB0_src0 HB0_src1]
    case region => exact Inner.region6 d L _ _ _ _ gx1 n00 n01
    · unfold Inner.inv6
      isplitl [Hxs1]; · iexact Hxs1
      isplitl [HB0_src0]
      · iexists n00; isplitl [HB0_src0]; · iexact HB0_src0
        ipureintro; exact Inner.goodH_zero _ _ _ _ _
      · iexists n01; isplitl [HB0_src1]; · iexact HB0_src1
        ipureintro; exact Inner.goodH_zero _ _ _ _ _
    iintro %_ HI
    unfold Inner.inv6
    icases HI with ⟨Hxs1, ⟨%m00, HB0_src0, %hm00⟩, ⟨%m01, HB0_src1, %hm01⟩⟩
    have ok100 := hG.good (2 * t.val + 1) (odd_group_lt t) 1 0 0 gx1 n00 m00 hgx1 hm00
    have ok101 := hG.good (2 * t.val + 1) (odd_group_lt t) 1 0 1 gx1 n01 m01 hgx1 hm01
    ihave HB0 := (show (semVal ((V d (cV L) (jV L)), SemLoc.dma ⟨2, _⟩) 0 : sProp 𝕄) ⊢ semVal ((V d (cV L) (jV L)), SemLoc.dma cc0_scratch4.sem) 0 from Entails.rfl) $$ HB0
    imod (Transfers.batch_alloc' (Lvl := ℕ) (countersEmb (U := UU)) (V d (cV L) (jV L)) (none : HIx 1) 131072
        (batchD (delivO d L (oB00 L t) oh00 fb00 m00) (delivO d L (oB01 L t) oh01 fb01 m01))
        (sm := SemLoc.dma cc0_scratch4.sem) (E := Set.univ)) $$ HB0 with HB0
    sl_exec
    ihave He10 := (Entails.of_eq (done_oA10 X d L hO t _ _ ok010)) $$ HB1_dst0
    ihave He11 := (Entails.of_eq (done_oA11 X d L hO t _ _ ok011)) $$ HB1_dst1
    sl_for (Inner.inv7 d L gx1 n10 n11) $$ [Hxs1 HB1_src0 HB1_src1]
    case region => exact Inner.region7 d L _ _ _ _ _ gx1 n10 n11
    · unfold Inner.inv7
      isplitl [Hxs1]; · iexact Hxs1
      isplitl [HB1_src0]
      · iexists n10; isplitl [HB1_src0]; · iexact HB1_src0
        ipureintro; exact Inner.goodH_zero _ _ _ _ _
      · iexists n11; isplitl [HB1_src1]; · iexact HB1_src1
        ipureintro; exact Inner.goodH_zero _ _ _ _ _
    iintro %_ HI
    unfold Inner.inv7
    icases HI with ⟨Hxs1, ⟨%m10, HB1_src0, %hm10⟩, ⟨%m11, HB1_src1, %hm11⟩⟩
    have ok110 := hG.good (2 * t.val + 1) (odd_group_lt t) 1 1 0 gx1 n10 m10 hgx1 hm10
    have ok111 := hG.good (2 * t.val + 1) (odd_group_lt t) 1 1 1 gx1 n11 m11 hgx1 hm11
    ihave HB1 := (show (semVal ((V d (cV L) (jV L)), SemLoc.dma ⟨3, _⟩) 0 : sProp 𝕄) ⊢ semVal ((V d (cV L) (jV L)), SemLoc.dma cc0_scratch5.sem) 0 from Entails.rfl) $$ HB1
    imod (Transfers.batch_alloc' (Lvl := ℕ) (countersEmb (U := UU)) (V d (cV L) (jV L)) (none : HIx 1) 131072
        (batchD (delivO d L (oB10 L t) oh10 fb10 m10) (delivO d L (oB11 L t) oh11 fb11 m11))
        (sm := SemLoc.dma cc0_scratch5.sem) (E := Set.univ)) $$ HB1 with HB1
    sl_exec
    ihave He20 := (Entails.of_eq (done_oA20 X d L hO t _ _ ok020)) $$ HB2_dst0
    ihave He21 := (Entails.of_eq (done_oA21 X d L hO t _ _ ok021)) $$ HB2_dst1
    sl_for (Inner.inv8 d L gx1 n20 n21) $$ [Hxs1 HB2_src0 HB2_src1]
    case region => exact Inner.region8 d L _ _ _ gx1 n20 n21
    · unfold Inner.inv8
      isplitl [Hxs1]; · iexact Hxs1
      isplitl [HB2_src0]
      · iexists n20; isplitl [HB2_src0]; · iexact HB2_src0
        ipureintro; exact Inner.goodH_zero _ _ _ _ _
      · iexists n21; isplitl [HB2_src1]; · iexact HB2_src1
        ipureintro; exact Inner.goodH_zero _ _ _ _ _
    iintro %_ HI
    unfold Inner.inv8
    icases HI with ⟨Hxs1, ⟨%m20, HB2_src0, %hm20⟩, ⟨%m21, HB2_src1, %hm21⟩⟩
    have ok120 := hG.good (2 * t.val + 1) (odd_group_lt t) 1 2 0 gx1 n20 m20 hgx1 hm20
    have ok121 := hG.good (2 * t.val + 1) (odd_group_lt t) 1 2 1 gx1 n21 m21 hgx1 hm21
    ihave HB2 := (show (semVal ((V d (cV L) (jV L)), SemLoc.dma ⟨4, _⟩) 0 : sProp 𝕄) ⊢ semVal ((V d (cV L) (jV L)), SemLoc.dma cc0_scratch6.sem) 0 from Entails.rfl) $$ HB2
    imod (Transfers.batch_alloc' (Lvl := ℕ) (countersEmb (U := UU)) (V d (cV L) (jV L)) (none : HIx 1) 131072
        (batchD (delivO d L (oB20 L t) oh20 fb20 m20) (delivO d L (oB21 L t) oh21 fb21 m21))
        (sm := SemLoc.dma cc0_scratch6.sem) (E := Set.univ)) $$ HB2 with HB2
    sl_exec
    ihave He30 := (Entails.of_eq (done_oA30 X d L hO t _ _ ok030)) $$ HB3_dst0
    ihave He31 := (Entails.of_eq (done_oA31 X d L hO t _ _ ok031)) $$ HB3_dst1
    sl_for (Inner.inv9 d L gx1 n30 n31) $$ [Hxs1 HB3_src0 HB3_src1]
    case region => exact Inner.region9 d L _ _ _ _ gx1 n30 n31
    · unfold Inner.inv9
      isplitl [Hxs1]; · iexact Hxs1
      isplitl [HB3_src0]
      · iexists n30; isplitl [HB3_src0]; · iexact HB3_src0
        ipureintro; exact Inner.goodH_zero _ _ _ _ _
      · iexists n31; isplitl [HB3_src1]; · iexact HB3_src1
        ipureintro; exact Inner.goodH_zero _ _ _ _ _
    iintro %_ HI
    unfold Inner.inv9
    icases HI with ⟨Hxs1, ⟨%m30, HB3_src0, %hm30⟩, ⟨%m31, HB3_src1, %hm31⟩⟩
    have ok130 := hG.good (2 * t.val + 1) (odd_group_lt t) 1 3 0 gx1 n30 m30 hgx1 hm30
    have ok131 := hG.good (2 * t.val + 1) (odd_group_lt t) 1 3 1 gx1 n31 m31 hgx1 hm31
    ihave HB3 := (show (semVal ((V d (cV L) (jV L)), SemLoc.dma ⟨5, _⟩) 0 : sProp 𝕄) ⊢ semVal ((V d (cV L) (jV L)), SemLoc.dma cc0_scratch7.sem) 0 from Entails.rfl) $$ HB3
    imod (Transfers.batch_alloc' (Lvl := ℕ) (countersEmb (U := UU)) (V d (cV L) (jV L)) (none : HIx 1) 131072
        (batchD (delivO d L (oB30 L t) oh30 fb30 m30) (delivO d L (oB31 L t) oh31 fb31 m31))
        (sm := SemLoc.dma cc0_scratch7.sem) (E := Set.univ)) $$ HB3 with HB3
    sl_exec
    sl_step
    isplitr; · iexact Hmw
    isplitl [Hx0r Hx1r Hxs0 Hxs1 Hf0 Hf1]
    · iright
      isplitr; · ipureintro; omega
      unfold InIdle
      isplitl [Hx0r]; · iexact Hx0r
      isplitl [Hx1r]; · iexact Hx1r
      isplitl [Hxs0]; · iexists _; iexact Hxs0
      isplitl [Hxs1]; · iexists _; iexact Hxs1
      isplitl [Hf0]; · iexact Hf0
      iexact Hf1
    isplitl [HB0 HB1 HB2 HB3]
    · iright
      iexists t
      isplitr; · ipureintro; rfl
      isplitl [HB0]
      · iexists fb00, fb01, m00, m01
        isplitr; · ipureintro; exact ⟨ok100, ok101⟩
        iexact HB0
      isplitl [HB1]
      · iexists fb10, fb11, m10, m11
        isplitr; · ipureintro; exact ⟨ok110, ok111⟩
        iexact HB1
      isplitl [HB2]
      · iexists fb20, fb21, m20, m21
        isplitr; · ipureintro; exact ⟨ok120, ok121⟩
        iexact HB2
      iexists fb30, fb31, m30, m31
      isplitr; · ipureintro; exact ⟨ok130, ok131⟩
      iexact HB3
    isplitl [Htodo]
    · iapply (Entails.of_eq (congrArg (oTodoG d (widL L)) (show 2 * t.val + 1 + 1 = 2 * (t.val + 1) from by omega)))
      iexact Htodo
    isplitl [Hdone Hd00 Hd01 Hd10 Hd11 Hd20 Hd21 Hd30 Hd31 He00 He01 He10 He11 He20 He21 He30 He31]
    · ihave Hdone := (Entails.of_eq (congrArg (oDoneG X d (widL L)) (show 2 * t.val - 1 = 2 * tp.val + 1 from by omega))) $$ Hdone
      ihave Hdone := (oDoneG_step X d (widL L) (2 * tp.val + 1) (odd_group_lt tp)) $$ [Hdone Hd00 Hd01 Hd10 Hd11 Hd20 Hd21 Hd30 Hd31]
      · isplitl [Hdone]; · iexact Hdone
        isplitl [Hd00]; · iexact Hd00
        isplitl [Hd01]; · iexact Hd01
        isplitl [Hd10]; · iexact Hd10
        isplitl [Hd11]; · iexact Hd11
        isplitl [Hd20]; · iexact Hd20
        isplitl [Hd21]; · iexact Hd21
        isplitl [Hd30]; · iexact Hd30
        iexact Hd31
      ihave Hdone := (Entails.of_eq (congrArg (oDoneG X d (widL L)) (show 2 * tp.val + 1 + 1 = 2 * t.val from by omega))) $$ Hdone
      ihave Hdone := (oDoneG_step X d (widL L) (2 * t.val) (even_group_lt t)) $$ [Hdone He00 He01 He10 He11 He20 He21 He30 He31]
      · isplitl [Hdone]; · iexact Hdone
        isplitl [He00]; · iexact He00
        isplitl [He01]; · iexact He01
        isplitl [He10]; · iexact He10
        isplitl [He11]; · iexact He11
        isplitl [He20]; · iexact He20
        isplitl [He21]; · iexact He21
        isplitl [He30]; · iexact He30
        iexact He31
      iapply (Entails.of_eq (congrArg (oDoneG X d (widL L)) (show 2 * t.val + 1 = 2 * (t.val + 1) - 1 from by omega)))
      iexact Hdone
    iexists _
    isplitr
    swap
    · iexact HO
    · ipureintro; repeat (first | exact hW' | apply wok_insert)

end Cert.KernelIdeal.Hand

end
-- ==== Proof.TileTrip.lean ====
/-
  One trip of the tile kernel's outer loop, from the invariant before the trip to the invariant after it: the first trip,
  the last, and those between.
-/
import proofs.«209186_g8847632630064_cont_9to1c4b_396_28_alg».proof.Proof.Common
import proofs.«209186_g8847632630064_cont_9to1c4b_396_28_alg».proof.Proof.TileBufs
import proofs.«209186_g8847632630064_cont_9to1c4b_396_28_alg».proof.Proof.TileSlices
import proofs.«209186_g8847632630064_cont_9to1c4b_396_28_alg».proof.Proof.TileTripA
import proofs.«209186_g8847632630064_cont_9to1c4b_396_28_alg».proof.Proof.TileTripB
import proofs.«209186_g8847632630064_cont_9to1c4b_396_28_alg».proof.Proof.TileTripC

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop shareTokN)
open Idealize.ShloMosaic.Tactic

variable {F : FTy → Type}

local notation "𝕄" => MT nD τ sig (HIx 1) (Elt F) ℕ UU ℕ

variable [FloatOps F]
variable (X : (d : Dev nD) → Buf (Elt F) (x3Loc d))
variable (d : Dev nD) (L : grid0.Coords)

open Idealize.ShloMosaic.ValueIdx

theorem trip (hX : LandX X d L) (hO : LandO X d L) (hG : GoodOk X d L)
    (O : CellTallies nD τ sig (HIx 1)) (W : Waits sig (HIx 1)) (v1 : BitVec 32) (t : Fin k0_t1_loop.trips) (acc : PUnit) :
    Inv X d L O W t.val acc
      ⊢ wp frame (wpE (defs₀ (F := F)) 𝒱₀ (V d (cV L) (jV L)) none) Set.univ
          (k0_t1_body L xV (Memref.isWhole_whole _) oV (Memref.isWhole_whole _) sX (Memref.isWhole_whole _) sO (Memref.isWhole_whole _) cc0_scratch2 cc0_scratch3 cc0_scratch4 cc0_scratch5 cc0_scratch6 cc0_scratch7 cc0_scratch8 cc0_scratch9 cc0_scratch10 cc0_scratch11 v1 t acc) (Inv X d L O W (t.val + 1)) := by
  by_cases h0 : t.val = 0
  · exact trip_t0 X d L hX hO hG O W v1 t acc h0
  by_cases h24 : t.val < 24
  · exact trip_mid X d L hX hO hG O W v1 t acc ⟨by omega, h24⟩
  · exact trip_last X d L hX hO hG O W v1 t acc h24

end Cert.KernelIdeal.Hand

end
-- ==== Proof.TileBody.lean ====
/-
  The tile's task, proved: its assembly from one trip of the outer loop, the trip, and the pure facts about what a
  landed fetch, a finished inner loop and a landed copy leave.
-/
import proofs.«209186_g8847632630064_cont_9to1c4b_396_28_alg».proof.Proof.TileAsm
import proofs.«209186_g8847632630064_cont_9to1c4b_396_28_alg».proof.Proof.TileFacts
import proofs.«209186_g8847632630064_cont_9to1c4b_396_28_alg».proof.Proof.TileGoodOk
import proofs.«209186_g8847632630064_cont_9to1c4b_396_28_alg».proof.Proof.TileTrip

noncomputable section

namespace Cert.KernelIdeal.Hand

open Cert.KernelIdeal Cert.KernelIdeal.Gen
open Idealize.ShloMosaic

variable {F : FTy → Type} [FloatOps F]
variable (X : (d : Dev nD) → Buf (Elt F) (x3Loc d))

/-- The task of every tile: from its read share of x3 and its slices of o, to the share and the slices at the kernel's value. -/
theorem tile_body : TileBody X :=
  tile_body_from X (fun d L => landX_ok X d L) (fun d L => landO_ok X d L)
    (fun d L => trip X d L (landX_ok X d L) (landO_ok X d L) (goodOk X d L))

end Cert.KernelIdeal.Hand

end
-- ==== Proof.CommonK.lean ====
/-
  What the tile kernel's proof and the launch's proof share: the program as the launch theorem sees it, the resource
  algebra, the arrays' locations, the slices of the result array a tile writes, the value a tile computes, and what the
  launch's handshakes carry to and from a tile.

  The kernel reads x3 : f32[200,128,128] and writes o : f32[409600,128]. Tile number w (of 32) reads rows
  [4 w, 4 w + 4) of every plane x3[d1] and writes, for each plane d1 and each half h, the 32 rows
  [2048 d1 + 1024 h + 32 w, + 32) of o: the 400 slices of one tile are pairwise disjoint and the 12,800 slices of all
  tiles are the 12,800 parts of o cut along its rows.
  The value: the word q = fptosi (65535 x) is Gray-coded, g = q xor (q >> 1); bit i of g selects between 0.1 x + 1 and 0.
  Row 2048 d1 + 1024 h + 8 A + r of o holds, at column 16 k + l, bit 8 h + r of the Gray code of x3[d1, A, 16 k + l].
-/
import proofs.«209186_g8847632630064_cont_9to1c4b_396_28_alg».proof.Defs
import proofs.«209186_g8847632630064_cont_9to1c4b_396_28_alg».proof.Proof.Gen.Kernel
import proofs.«209186_g8847632630064_cont_9to1c4b_396_28_alg».proof.Proof.Gen.Kernel.Skeleton
import Idealize.ShloMosaic.Lib.SparseCore.Launch
import Idealize.ShloMosaic.Lib.StableHlo.Run
import Idealize.ShloMosaic.Lib.Pipeline.Kit
import Idealize.ShloMosaic.Lib.Tactic
import Idealize.ShloMosaic.Lib.Batch
import Idealize.ShloMosaic.Lib.ValueIdx

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop shareTokN)
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

/-- x3 (the kernel's operand) and o (its result), as locations of device `d`. -/
abbrev x3Loc (d : Dev nD) : Loc nD τ sig := (SparseCore.T d).loc main_v1
abbrev oLoc (d : Dev nD) : Loc nD τ sig := (SparseCore.T d).loc main_v2

abbrev xV : Memref sig .scVector .hbm S200x128x128 .f32 := Memref.whole main_v1_scv
abbrev oV : Memref sig .scVector .hbm S409600x128 .f32 := Memref.whole main_v2_scv
/-- A tile's scratch: the two fetched groups of planes, the four computed planes. -/
abbrev sX : Memref sig .scVector .vmem S2x4x4x128 .f32 := Memref.whole cc0_scratch0
abbrev sO : Memref sig .scVector .vmem S4x64x128 .f32 := Memref.whole cc0_scratch1

/-! ## Tiles and the slices of o -/

/-- The number of the tile on SparseCore `c`, vector subcore `s`: `2 s + c` (below 32 for the 2 × 16 tiles). -/
def widN (c s : ℕ) : Fin 32 := ⟨(2 * s + c) % 32, Nat.mod_lt _ (by decide)⟩

omit F in
theorem widN_val {c s : ℕ} (hc : c < 2) (hs : s < 16) : (widN c s).val = 2 * s + c := by
  show (2 * s + c) % 32 = _; omega

omit F in
theorem bound_zero : grid0.bound 0 = 2 := rfl
omit F in
theorem bound_one : grid0.bound 1 = 16 := rfl
/-- The same at a grid point. -/
abbrev widL (L : grid0.Coords) : Fin 32 := widN (L 0).val (L 1).val
omit F in
theorem widL_val (L : grid0.Coords) : (widL L).val = 2 * (L 1).val + (L 0).val :=
  widN_val (L 0).isLt (L 1).isLt

abbrev cV (L : grid0.Coords) : Fin τ.nSC := (L 0).castLE hcore0
abbrev jV (L : grid0.Coords) : Fin τ.nSub := (L 1).castLE hsub0

omit F in
theorem hdivO : 12800 ∣ S409600x128.size 0 := ⟨32, rfl⟩

/-- Which of the 12,800 parts of o (32 rows each) tile `w` writes for plane `d1`, half `h`. -/
def oIdx (w : Fin 32) (d1 : Fin 200) (h : Fin 2) : Fin 12800 := ⟨d1.val * 64 + h.val * 32 + w.val, by omega⟩

abbrev oRect (w : Fin 32) (d1 : Fin 200) (h : Fin 2) : Rect S409600x128 := Rect.part (s := S409600x128) (a₀ := 0) hdivO (oIdx w d1 h)
/-- Rows [2048 d1 + 1024 h + 32 w, + 32) of o, all columns, as the set of a slice of the kernel's memref. -/
abbrev oSet (w : Fin 32) (d1 : Fin 200) (h : Fin 2) : Finset S409600x128.Idx := ((oV : Memref sig .scVector .hbm S409600x128 .f32).view.slice (oRect w d1 h)).set

omit F in
/-- A printed slice of o at row offset 2048 d1 + 1024 h + 32 w is that part. -/
theorem oRect_eq {off : Fin 2 → Nat} (inb : ∀ a, off a + S32x128.size a ≤ S409600x128.size a) (w : Fin 32) (d1 : Fin 200) (h : Fin 2)
    (hoff : off = ![d1.val * 2048 + h.val * 1024 + w.val * 32, 0]) :
    Rect.unit (s := S409600x128) off S32x128.size inb = oRect w d1 h := by
  subst hoff
  unfold oRect Rect.part Rect.block
  congr 1 <;> funext a
  · match a with
    | 0 => simp [Shape.partIx, Shape.partSize, oIdx]; omega
    | 1 => simp [Shape.partIx, Shape.partSize]
  · match a with
    | 0 => simp [Shape.partSize]
    | 1 => simp [Shape.partSize]

omit F in
theorem set_oSlice {off : Fin 2 → Nat} (inb : ∀ a, off a + S32x128.size a ≤ S409600x128.size a) (w : Fin 32) (d1 : Fin 200) (h : Fin 2)
    (hoff : off = ![d1.val * 2048 + h.val * 1024 + w.val * 32, 0]) :
    ((oV : Memref sig .scVector .hbm S409600x128 .f32).slice (Rect.unit (s := S409600x128) off S32x128.size inb) (fun _ => rfl)).view.set = oSet w d1 h := by
  show ((oV : Memref sig .scVector .hbm S409600x128 .f32).view.slice (Rect.unit (s := S409600x128) off S32x128.size inb)).set = _
  rw [oRect_eq inb w d1 h hoff]

omit F in
theorem oSet_eq (w : Fin 32) (d1 : Fin 200) (h : Fin 2) : oSet w d1 h = (oRect w d1 h).set := by
  show ((View.whole (main_v2_scv : Ref sig .scVector)).slice (oRect w d1 h)).set = _
  rw [View.set_slice]; exact Finset.map_refl

/-! ## The value -/

variable [FloatOps F]

/-- Bit `i` of the Gray code of `fptosi (65535 x)` selects, lane by lane, between `0.1 x + 1` and `0`. -/
def gcVec (i : Fin 16) (xv : Vec F S16 .f32) : FVec F S16 .f32 :=
  have q : IVec S16 32 := fptosi 32 (mulf xv (broadcast S16 (Scalar.ofBits .f32 0x477FFF00#32 : F .f32)))
  have g : IVec S16 32 := xori q (shrsi q (broadcast S16 1#32))
  select (cmpi .ne (andi g (broadcast S16 (BitVec.ofNat 32 (2 ^ i.val)))) (broadcast S16 0#32))
    (addf (mulf xv (broadcast S16 (Scalar.ofBits .f32 0x3DCCCCCD#32 : F .f32))) (broadcast S16 (Scalar.ofBits .f32 0x3F800000#32 : F .f32)))
    (broadcast S16 (Scalar.ofBits .f32 0x00000000#32 : F .f32))

/-- What the kernel leaves in o, from the contents of x3: row `2048 d1 + 1024 h + 8 A + r`, column `16 k + l` is lane `l`
    of `gcVec (8 h + r)` of the sixteen words `x3[d1, A, 16 k ..]`. -/
def outLinF (X : (⟨S200x128x128, .f32⟩ : BufTy).Contents (Elt F)) : (⟨S409600x128, .f32⟩ : BufTy).Contents (Elt F) := fun j =>
  have hr : (j 0).val < 409600 := (j 0).isLt
  have hc : (j 1).val < 128 := (j 1).isLt
  gcVec (⟨(j 0).val % 2048 / 1024 * 8 + (j 0).val % 8, by omega⟩ : Fin 16)
    (fun l => X (ix3 (⟨(j 0).val / 2048, by omega⟩ : Fin 200) (⟨(j 0).val % 1024 / 8, by omega⟩ : Fin 128)
      (⟨(j 1).val / 16 * 16 + (l 0).val, by have hl : (l 0).val < 16 := (l 0).isLt; omega⟩ : Fin 128)))
    (ix1 (⟨(j 1).val % 16, by omega⟩ : Fin 16))

/-! ## What the handshakes carry -/

-- the contents of x3 on each device when the kernel is called
variable (X : (d : Dev nD) → Buf (Elt F) (x3Loc d))

/-- What tile `w` is handed: a read share of x3 (one of 32) and its 400 slices of o, at any contents. -/
def tileGo (d : Dev nD) (w : Fin 32) : sProp 𝕄 :=
  iprop((x3Loc d ↦{shareTok fullShare 32 w} X d)
    ∗ bigSep (Finset.univ : Finset (Fin 200 × Fin 2)) fun p => iprop(∃ f, oLoc d ↦[oSet w p.1 p.2]{fullShare} f))
/-- What it hands back: the share, and its slices at the kernel's value. -/
def tileTd (d : Dev nD) (w : Fin 32) : sProp 𝕄 :=
  iprop((x3Loc d ↦{shareTok fullShare 32 w} X d)
    ∗ bigSep (Finset.univ : Finset (Fin 200 × Fin 2)) fun p => oLoc d ↦[oSet w p.1 p.2]{fullShare} (outLinF (X d)))

instance tileGo_storable (d : Dev nD) (w : Fin 32) : BI.Storable (upEmb : UEmb _ 𝕄) (tileGo X d w) := by
  unfold tileGo; infer_instance
instance tileTd_storable (d : Dev nD) (w : Fin 32) : BI.Storable (upEmb : UEmb _ 𝕄) (tileTd X d w) := by
  unfold tileTd; infer_instance

/-- The one call hands each SparseCore its sixteen tiles' shares, each tile its own, and takes them back. -/
def P : (K (F := F)).Pay (nD := nD) (Val := Elt F) (Name := ℕ) (U := UU) where
  st := fun _ d c => bigSep Finset.univ fun i : Fin 16 => tileGo X d (widN c.val i.val)
  dn := fun _ d c => bigSep Finset.univ fun i : Fin 16 => tileTd X d (widN c.val i.val)
  go := fun _ d c i => tileGo X d (widN c.val i.val)
  td := fun _ d c i => tileTd X d (widN c.val i.val)
  x := fun _ _ => iprop(emp)

theorem P_st (q : Fin 1) (d : Dev nD) (c : Fin ((K (F := F)).nCore q)) :
    (P X).st q d c = bigSep Finset.univ fun i : Fin 16 => tileGo X d (widN c.val i.val) := rfl
theorem P_dn (q : Fin 1) (d : Dev nD) (c : Fin ((K (F := F)).nCore q)) :
    (P X).dn q d c = bigSep Finset.univ fun i : Fin 16 => tileTd X d (widN c.val i.val) := rfl
theorem P_go (q : Fin 1) (d : Dev nD) (c : Fin ((K (F := F)).nCore q)) (i : Fin ((K (F := F)).nSub q)) :
    (P X).go q d c i = tileGo X d (widN c.val i.val) := rfl
theorem P_td (q : Fin 1) (d : Dev nD) (c : Fin ((K (F := F)).nCore q)) (i : Fin ((K (F := F)).nSub q)) :
    (P X).td q d c i = tileTd X d (widN c.val i.val) := rfl
theorem P_x (q : Fin 1) (thr : Thread nD τ) : (P X).x q thr = iprop(emp) := rfl

instance P_storable : (P (F := F) X).IsStorable where
  st q d c := by rw [P_st]; infer_instance
  dn q d c := by rw [P_dn]; infer_instance
  go q d c i := by rw [P_go]; infer_instance
  td q d c i := by rw [P_td]; infer_instance

/-! ## The tile's task, as the launch takes it -/

/-- The task of the tile at grid point `L` on device `d`: from its read share of x3 and its slices of o at any contents,
    to the share and the slices at the kernel's value; its scratch and semaphores as it found them. -/
def TileBody : Prop :=
  ∀ (d : Dev nD) (L : grid0.Coords) (O : CellTallies nD τ sig (HIx 1)) (W : Waits sig (HIx 1)), (∀ g, O g none = 0) →
    iprop(levAts (K (F := F)).L (K (F := F)).lev ∗ emp ∗ tileGo X d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gc_kernel L xV (Memref.isWhole_whole _) oV (Memref.isWhole_whole _) sX (Memref.isWhole_whole _) sO (Memref.isWhole_whole _)
            cc0_scratch2 cc0_scratch3 cc0_scratch4 cc0_scratch5 cc0_scratch6 cc0_scratch7 cc0_scratch8 cc0_scratch9 cc0_scratch10 cc0_scratch11)
          fun _ => iprop(tileTd X d (widL L) ∗ scopedBufs (V d (cV L) (jV L)) ∗ scopedSems0 (V d (cV L) (jV L))
            ∗ ∃ W', ⌜∀ p ∈ W', p ∈ W ∨ p.2 = none⌝ ∗ owes (V d (cV L) (jV L)) O W')

end Cert.Kernel.Hand

end
-- ==== Proof.TileBufsK.lean ====
/-
  The tile's scratch buffers and semaphores as the kernel's copies address them: the input scratch cut into its two
  slots and the output scratch into its eight half planes (each a copy's source or destination, held by its own
  elements), the six semaphores the kernel uses taken out of the tile's own, and what a copy out to o delivers.
-/
import proofs.«209186_g8847632630064_cont_9to1c4b_396_28_alg».proof.Proof.CommonK

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop shareTokN)
open Idealize.ShloMosaic.Tactic

variable {F : FTy → Type}

local notation "𝕄" => MT nD τ sig (HIx 1) (Elt F) ℕ UU ℕ

variable [FloatOps F]
variable (X : (d : Dev nD) → Buf (Elt F) (x3Loc d))
variable (d : Dev nD) (L : grid0.Coords)

/-! ## The scratch buffers cut as the copies' descriptors cut them -/

abbrev xsR0 : Rect S2x4x4x128 := Rect.unit (s := S2x4x4x128) ![0, 0, 0, 0] S1x4x4x128.size inb_S2x4x4x128_S1x4x4x128_0_0_0_0
abbrev xsR1 : Rect S2x4x4x128 := Rect.unit (s := S2x4x4x128) ![1, 0, 0, 0] S1x4x4x128.size inb_S2x4x4x128_S1x4x4x128_1_0_0_0
/-- Slot 0 / slot 1 of the input scratch, as the copies' descriptors spell them. -/
abbrev xs0 : Memref sig .scVector .vmem S4x4x128 .f32 := ((sX).slice xsR0 (fun _ => rfl)).squeeze S4x4x128 squeezes_S1x4x4x128_S4x4x128
abbrev xs1 : Memref sig .scVector .vmem S4x4x128 .f32 := ((sX).slice xsR1 (fun _ => rfl)).squeeze S4x4x128 squeezes_S1x4x4x128_S4x4x128
abbrev ohR00 : Rect S4x64x128 := Rect.unit (s := S4x64x128) ![0, 0, 0] S1x32x128.size inb_S4x64x128_S1x32x128_0_0_0
abbrev oh00 : Memref sig .scVector .vmem S32x128 .f32 := ((sO).slice ohR00 (fun _ => rfl)).squeeze S32x128 squeezes_S1x32x128_S32x128
abbrev ohR01 : Rect S4x64x128 := Rect.unit (s := S4x64x128) ![0, 32, 0] S1x32x128.size inb_S4x64x128_S1x32x128_0_32_0
abbrev oh01 : Memref sig .scVector .vmem S32x128 .f32 := ((sO).slice ohR01 (fun _ => rfl)).squeeze S32x128 squeezes_S1x32x128_S32x128
abbrev ohR10 : Rect S4x64x128 := Rect.unit (s := S4x64x128) ![1, 0, 0] S1x32x128.size inb_S4x64x128_S1x32x128_1_0_0
abbrev oh10 : Memref sig .scVector .vmem S32x128 .f32 := ((sO).slice ohR10 (fun _ => rfl)).squeeze S32x128 squeezes_S1x32x128_S32x128
abbrev ohR11 : Rect S4x64x128 := Rect.unit (s := S4x64x128) ![1, 32, 0] S1x32x128.size inb_S4x64x128_S1x32x128_1_32_0
abbrev oh11 : Memref sig .scVector .vmem S32x128 .f32 := ((sO).slice ohR11 (fun _ => rfl)).squeeze S32x128 squeezes_S1x32x128_S32x128
abbrev ohR20 : Rect S4x64x128 := Rect.unit (s := S4x64x128) ![2, 0, 0] S1x32x128.size inb_S4x64x128_S1x32x128_2_0_0
abbrev oh20 : Memref sig .scVector .vmem S32x128 .f32 := ((sO).slice ohR20 (fun _ => rfl)).squeeze S32x128 squeezes_S1x32x128_S32x128
abbrev ohR21 : Rect S4x64x128 := Rect.unit (s := S4x64x128) ![2, 32, 0] S1x32x128.size inb_S4x64x128_S1x32x128_2_32_0
abbrev oh21 : Memref sig .scVector .vmem S32x128 .f32 := ((sO).slice ohR21 (fun _ => rfl)).squeeze S32x128 squeezes_S1x32x128_S32x128
abbrev ohR30 : Rect S4x64x128 := Rect.unit (s := S4x64x128) ![3, 0, 0] S1x32x128.size inb_S4x64x128_S1x32x128_3_0_0
abbrev oh30 : Memref sig .scVector .vmem S32x128 .f32 := ((sO).slice ohR30 (fun _ => rfl)).squeeze S32x128 squeezes_S1x32x128_S32x128
abbrev ohR31 : Rect S4x64x128 := Rect.unit (s := S4x64x128) ![3, 32, 0] S1x32x128.size inb_S4x64x128_S1x32x128_3_32_0
abbrev oh31 : Memref sig .scVector .vmem S32x128 .f32 := ((sO).slice ohR31 (fun _ => rfl)).squeeze S32x128 squeezes_S1x32x128_S32x128

theorem set_xs0 : (xs0).view.set = xsR0.set := by
  show (((View.whole (cc0_scratch0 : Ref sig .scVector)).slice xsR0).reshape S4x4x128 squeezes_S1x4x4x128_S4x4x128.numel_eq).set = _
  rw [View.set_reshape, View.set_slice]; exact Finset.map_refl
theorem set_xs1 : (xs1).view.set = xsR1.set := by
  show (((View.whole (cc0_scratch0 : Ref sig .scVector)).slice xsR1).reshape S4x4x128 squeezes_S1x4x4x128_S4x4x128.numel_eq).set = _
  rw [View.set_reshape, View.set_slice]; exact Finset.map_refl
theorem set_oh00 : (oh00).view.set = ohR00.set := by
  show (((View.whole (cc0_scratch1 : Ref sig .scVector)).slice ohR00).reshape S32x128 squeezes_S1x32x128_S32x128.numel_eq).set = _
  rw [View.set_reshape, View.set_slice]; exact Finset.map_refl
theorem set_oh01 : (oh01).view.set = ohR01.set := by
  show (((View.whole (cc0_scratch1 : Ref sig .scVector)).slice ohR01).reshape S32x128 squeezes_S1x32x128_S32x128.numel_eq).set = _
  rw [View.set_reshape, View.set_slice]; exact Finset.map_refl
theorem set_oh10 : (oh10).view.set = ohR10.set := by
  show (((View.whole (cc0_scratch1 : Ref sig .scVector)).slice ohR10).reshape S32x128 squeezes_S1x32x128_S32x128.numel_eq).set = _
  rw [View.set_reshape, View.set_slice]; exact Finset.map_refl
theorem set_oh11 : (oh11).view.set = ohR11.set := by
  show (((View.whole (cc0_scratch1 : Ref sig .scVector)).slice ohR11).reshape S32x128 squeezes_S1x32x128_S32x128.numel_eq).set = _
  rw [View.set_reshape, View.set_slice]; exact Finset.map_refl
theorem set_oh20 : (oh20).view.set = ohR20.set := by
  show (((View.whole (cc0_scratch1 : Ref sig .scVector)).slice ohR20).reshape S32x128 squeezes_S1x32x128_S32x128.numel_eq).set = _
  rw [View.set_reshape, View.set_slice]; exact Finset.map_refl
theorem set_oh21 : (oh21).view.set = ohR21.set := by
  show (((View.whole (cc0_scratch1 : Ref sig .scVector)).slice ohR21).reshape S32x128 squeezes_S1x32x128_S32x128.numel_eq).set = _
  rw [View.set_reshape, View.set_slice]; exact Finset.map_refl
theorem set_oh30 : (oh30).view.set = ohR30.set := by
  show (((View.whole (cc0_scratch1 : Ref sig .scVector)).slice ohR30).reshape S32x128 squeezes_S1x32x128_S32x128.numel_eq).set = _
  rw [View.set_reshape, View.set_slice]; exact Finset.map_refl
theorem set_oh31 : (oh31).view.set = ohR31.set := by
  show (((View.whole (cc0_scratch1 : Ref sig .scVector)).slice ohR31).reshape S32x128 squeezes_S1x32x128_S32x128.numel_eq).set = _
  rw [View.set_reshape, View.set_slice]; exact Finset.map_refl

theorem xs_disjoint : Disjoint xsR0.set xsR1.set := Rect.unit_disjoint 0 (.inl (by decide))

theorem xs_cover : xsR0.set ∪ xsR1.set = Finset.univ := by
  ext i
  simp only [Finset.mem_union, Rect.mem_set_unit, Finset.mem_univ, iff_true]
  have h0 : (i 0).val < 2 := (i 0).isLt
  have h1 : (i 1).val < 4 := (i 1).isLt
  have h2 : (i 2).val < 4 := (i 2).isLt
  have h3 : (i 3).val < 128 := (i 3).isLt
  rcases Nat.lt_or_ge (i 0).val 1 with h | h
  · left; intro a; fin_cases a <;> simp <;> omega
  · right; intro a; fin_cases a <;> simp <;> omega

theorem oh_cover : ohR00.set ∪ ohR01.set ∪ ohR10.set ∪ ohR11.set ∪ ohR20.set ∪ ohR21.set ∪ ohR30.set ∪ ohR31.set = Finset.univ := by
  ext i
  simp only [Finset.mem_union, Rect.mem_set_unit, Finset.mem_univ, iff_true]
  have h0 : (i 0).val < 4 := (i 0).isLt
  have h1 : (i 1).val < 64 := (i 1).isLt
  have h2 : (i 2).val < 128 := (i 2).isLt
  rcases (show (i 0).val = 0 ∨ (i 0).val = 1 ∨ (i 0).val = 2 ∨ (i 0).val = 3 by omega) with e | e | e | e <;>
    rcases Nat.lt_or_ge (i 1).val 32 with h | h
  · left; left; left; left; left; left; left; intro a; fin_cases a <;> simp <;> omega
  · left; left; left; left; left; left; right; intro a; fin_cases a <;> simp <;> omega
  · left; left; left; left; left; right; intro a; fin_cases a <;> simp <;> omega
  · left; left; left; left; right; intro a; fin_cases a <;> simp <;> omega
  · left; left; left; right; intro a; fin_cases a <;> simp <;> omega
  · left; left; right; intro a; fin_cases a <;> simp <;> omega
  · left; right; intro a; fin_cases a <;> simp <;> omega
  · right; intro a; fin_cases a <;> simp <;> omega
theorem oh_dj_00_01 : Disjoint ohR00.set ohR01.set := Rect.unit_disjoint 1 (.inl (by decide))
theorem oh_dj_00_10 : Disjoint ohR00.set ohR10.set := Rect.unit_disjoint 0 (.inl (by decide))
theorem oh_dj_00_11 : Disjoint ohR00.set ohR11.set := Rect.unit_disjoint 0 (.inl (by decide))
theorem oh_dj_00_20 : Disjoint ohR00.set ohR20.set := Rect.unit_disjoint 0 (.inl (by decide))
theorem oh_dj_00_21 : Disjoint ohR00.set ohR21.set := Rect.unit_disjoint 0 (.inl (by decide))
theorem oh_dj_00_30 : Disjoint ohR00.set ohR30.set := Rect.unit_disjoint 0 (.inl (by decide))
theorem oh_dj_00_31 : Disjoint ohR00.set ohR31.set := Rect.unit_disjoint 0 (.inl (by decide))
theorem oh_dj_01_10 : Disjoint ohR01.set ohR10.set := Rect.unit_disjoint 0 (.inl (by decide))
theorem oh_dj_01_11 : Disjoint ohR01.set ohR11.set := Rect.unit_disjoint 0 (.inl (by decide))
theorem oh_dj_01_20 : Disjoint ohR01.set ohR20.set := Rect.unit_disjoint 0 (.inl (by decide))
theorem oh_dj_01_21 : Disjoint ohR01.set ohR21.set := Rect.unit_disjoint 0 (.inl (by decide))
theorem oh_dj_01_30 : Disjoint ohR01.set ohR30.set := Rect.unit_disjoint 0 (.inl (by decide))
theorem oh_dj_01_31 : Disjoint ohR01.set ohR31.set := Rect.unit_disjoint 0 (.inl (by decide))
theorem oh_dj_10_11 : Disjoint ohR10.set ohR11.set := Rect.unit_disjoint 1 (.inl (by decide))
theorem oh_dj_10_20 : Disjoint ohR10.set ohR20.set := Rect.unit_disjoint 0 (.inl (by decide))
theorem oh_dj_10_21 : Disjoint ohR10.set ohR21.set := Rect.unit_disjoint 0 (.inl (by decide))
theorem oh_dj_10_30 : Disjoint ohR10.set ohR30.set := Rect.unit_disjoint 0 (.inl (by decide))
theorem oh_dj_10_31 : Disjoint ohR10.set ohR31.set := Rect.unit_disjoint 0 (.inl (by decide))
theorem oh_dj_11_20 : Disjoint ohR11.set ohR20.set := Rect.unit_disjoint 0 (.inl (by decide))
theorem oh_dj_11_21 : Disjoint ohR11.set ohR21.set := Rect.unit_disjoint 0 (.inl (by decide))
theorem oh_dj_11_30 : Disjoint ohR11.set ohR30.set := Rect.unit_disjoint 0 (.inl (by decide))
theorem oh_dj_11_31 : Disjoint ohR11.set ohR31.set := Rect.unit_disjoint 0 (.inl (by decide))
theorem oh_dj_20_21 : Disjoint ohR20.set ohR21.set := Rect.unit_disjoint 1 (.inl (by decide))
theorem oh_dj_20_30 : Disjoint ohR20.set ohR30.set := Rect.unit_disjoint 0 (.inl (by decide))
theorem oh_dj_20_31 : Disjoint ohR20.set ohR31.set := Rect.unit_disjoint 0 (.inl (by decide))
theorem oh_dj_21_30 : Disjoint ohR21.set ohR30.set := Rect.unit_disjoint 0 (.inl (by decide))
theorem oh_dj_21_31 : Disjoint ohR21.set ohR31.set := Rect.unit_disjoint 0 (.inl (by decide))
theorem oh_dj_30_31 : Disjoint ohR30.set ohR31.set := Rect.unit_disjoint 1 (.inl (by decide))
theorem oh_djU_1 : Disjoint (ohR00.set) ohR01.set := oh_dj_00_01
theorem oh_djU_2 : Disjoint (ohR00.set ∪ ohR01.set) ohR10.set := (Finset.disjoint_union_left.mpr ⟨oh_dj_00_10, oh_dj_01_10⟩)
theorem oh_djU_3 : Disjoint (ohR00.set ∪ ohR01.set ∪ ohR10.set) ohR11.set := (Finset.disjoint_union_left.mpr ⟨(Finset.disjoint_union_left.mpr ⟨oh_dj_00_11, oh_dj_01_11⟩), oh_dj_10_11⟩)
theorem oh_djU_4 : Disjoint (ohR00.set ∪ ohR01.set ∪ ohR10.set ∪ ohR11.set) ohR20.set := (Finset.disjoint_union_left.mpr ⟨(Finset.disjoint_union_left.mpr ⟨(Finset.disjoint_union_left.mpr ⟨oh_dj_00_20, oh_dj_01_20⟩), oh_dj_10_20⟩), oh_dj_11_20⟩)
theorem oh_djU_5 : Disjoint (ohR00.set ∪ ohR01.set ∪ ohR10.set ∪ ohR11.set ∪ ohR20.set) ohR21.set := (Finset.disjoint_union_left.mpr ⟨(Finset.disjoint_union_left.mpr ⟨(Finset.disjoint_union_left.mpr ⟨(Finset.disjoint_union_left.mpr ⟨oh_dj_00_21, oh_dj_01_21⟩), oh_dj_10_21⟩), oh_dj_11_21⟩), oh_dj_20_21⟩)
theorem oh_djU_6 : Disjoint (ohR00.set ∪ ohR01.set ∪ ohR10.set ∪ ohR11.set ∪ ohR20.set ∪ ohR21.set) ohR30.set := (Finset.disjoint_union_left.mpr ⟨(Finset.disjoint_union_left.mpr ⟨(Finset.disjoint_union_left.mpr ⟨(Finset.disjoint_union_left.mpr ⟨(Finset.disjoint_union_left.mpr ⟨oh_dj_00_30, oh_dj_01_30⟩), oh_dj_10_30⟩), oh_dj_11_30⟩), oh_dj_20_30⟩), oh_dj_21_30⟩)
theorem oh_djU_7 : Disjoint (ohR00.set ∪ ohR01.set ∪ ohR10.set ∪ ohR11.set ∪ ohR20.set ∪ ohR21.set ∪ ohR30.set) ohR31.set := (Finset.disjoint_union_left.mpr ⟨(Finset.disjoint_union_left.mpr ⟨(Finset.disjoint_union_left.mpr ⟨(Finset.disjoint_union_left.mpr ⟨(Finset.disjoint_union_left.mpr ⟨(Finset.disjoint_union_left.mpr ⟨oh_dj_00_31, oh_dj_01_31⟩), oh_dj_10_31⟩), oh_dj_11_31⟩), oh_dj_20_31⟩), oh_dj_21_31⟩), oh_dj_30_31⟩)

omit [FloatOps F] in
/-- The input scratch whole is its two slots, each held by its own elements. -/
theorem xv_split (f : Buf (Elt F) ((V d (cV L) (jV L)).loc cc0_scratch0)) :
    ((V d (cV L) (jV L)).loc cc0_scratch0 ↦{fullShare} f : sProp 𝕄)
      ⊣⊢ iprop(((xs0).view.loc (V d (cV L) (jV L)) ↦[(xs0).view.set]{fullShare} f) ∗ ((xs1).view.loc (V d (cV L) (jV L)) ↦[(xs1).view.set]{fullShare} f)) := by
  rw [set_xs0, set_xs1]
  show ((V d (cV L) (jV L)).loc cc0_scratch0 ↦[Finset.univ]{fullShare} f : sProp 𝕄) ⊣⊢ _
  rw [← xs_cover]
  exact pointsTo_union xs_disjoint

omit [FloatOps F] in
/-- The output scratch whole is its eight half planes, each held by its own elements. -/
theorem ov_split (f : Buf (Elt F) ((V d (cV L) (jV L)).loc cc0_scratch1)) :
    ((V d (cV L) (jV L)).loc cc0_scratch1 ↦{fullShare} f : sProp 𝕄)
      ⊢ iprop(((((((((oh00).view.loc (V d (cV L) (jV L)) ↦[(oh00).view.set]{fullShare} f) ∗ ((oh01).view.loc (V d (cV L) (jV L)) ↦[(oh01).view.set]{fullShare} f)) ∗ ((oh10).view.loc (V d (cV L) (jV L)) ↦[(oh10).view.set]{fullShare} f)) ∗ ((oh11).view.loc (V d (cV L) (jV L)) ↦[(oh11).view.set]{fullShare} f)) ∗ ((oh20).view.loc (V d (cV L) (jV L)) ↦[(oh20).view.set]{fullShare} f)) ∗ ((oh21).view.loc (V d (cV L) (jV L)) ↦[(oh21).view.set]{fullShare} f)) ∗ ((oh30).view.loc (V d (cV L) (jV L)) ↦[(oh30).view.set]{fullShare} f)) ∗ ((oh31).view.loc (V d (cV L) (jV L)) ↦[(oh31).view.set]{fullShare} f)) := by
  rw [set_oh00, set_oh01, set_oh10, set_oh11, set_oh20, set_oh21, set_oh30, set_oh31]
  show ((V d (cV L) (jV L)).loc cc0_scratch1 ↦[Finset.univ]{fullShare} f : sProp 𝕄) ⊢ _
  rw [← oh_cover]
  exact ((pointsTo_union oh_djU_7).1.trans (sep_mono_left ((pointsTo_union oh_djU_6).1.trans (sep_mono_left ((pointsTo_union oh_djU_5).1.trans (sep_mono_left ((pointsTo_union oh_djU_4).1.trans (sep_mono_left ((pointsTo_union oh_djU_3).1.trans (sep_mono_left ((pointsTo_union oh_djU_2).1.trans (sep_mono_left ((pointsTo_union oh_djU_1).1.trans (sep_mono_left Entails.rfl))))))))))))))

omit [FloatOps F] in
theorem ov_join (f : Buf (Elt F) ((V d (cV L) (jV L)).loc cc0_scratch1)) :
    iprop(((((((((oh00).view.loc (V d (cV L) (jV L)) ↦[(oh00).view.set]{fullShare} f) ∗ ((oh01).view.loc (V d (cV L) (jV L)) ↦[(oh01).view.set]{fullShare} f)) ∗ ((oh10).view.loc (V d (cV L) (jV L)) ↦[(oh10).view.set]{fullShare} f)) ∗ ((oh11).view.loc (V d (cV L) (jV L)) ↦[(oh11).view.set]{fullShare} f)) ∗ ((oh20).view.loc (V d (cV L) (jV L)) ↦[(oh20).view.set]{fullShare} f)) ∗ ((oh21).view.loc (V d (cV L) (jV L)) ↦[(oh21).view.set]{fullShare} f)) ∗ ((oh30).view.loc (V d (cV L) (jV L)) ↦[(oh30).view.set]{fullShare} f)) ∗ ((oh31).view.loc (V d (cV L) (jV L)) ↦[(oh31).view.set]{fullShare} f))
      ⊢ ((V d (cV L) (jV L)).loc cc0_scratch1 ↦{fullShare} f : sProp 𝕄) := by
  rw [set_oh00, set_oh01, set_oh10, set_oh11, set_oh20, set_oh21, set_oh30, set_oh31]
  show _ ⊢ ((V d (cV L) (jV L)).loc cc0_scratch1 ↦[Finset.univ]{fullShare} f : sProp 𝕄)
  rw [← oh_cover]
  exact ((sep_mono_left ((sep_mono_left ((sep_mono_left ((sep_mono_left ((sep_mono_left ((sep_mono_left ((sep_mono_left Entails.rfl).trans (pointsTo_union oh_djU_1).2)).trans (pointsTo_union oh_djU_2).2)).trans (pointsTo_union oh_djU_3).2)).trans (pointsTo_union oh_djU_4).2)).trans (pointsTo_union oh_djU_5).2)).trans (pointsTo_union oh_djU_6).2)).trans (pointsTo_union oh_djU_7).2)

/-- The tile's DMA semaphore cell number `n` of the printed pool. -/
abbrev sCell (sm : DmaSem sig) : GSem nD τ sig := (V d (cV L) (jV L), SemLoc.dma sm)

theorem sCell_ne {a b : DmaSem sig} (h : a ≠ b) : sCell d L a ≠ sCell d L b :=
  fun e => h (by have := (Prod.mk.inj e).2; exact SemLoc.dma.inj this)

theorem sCell_mem (sm : DmaSem sig) (h : (SemLoc.dma sm : SemLoc sig).isScoped .scVector = true) :
    sCell d L sm ∈ ownCells (V d (cV L) (jV L)) := (mem_ownCells (g := sCell d L sm)).mpr ⟨rfl, h⟩

omit [FloatOps F] in
/-- The six DMA semaphores the kernel uses are among the tile's own: they are them at zero, and the rest. -/
theorem ownSems0_V :
    (ownSems0 (V d (cV L) (jV L)) : sProp 𝕄)
      = iprop(semVal (sCell d L cc0_scratch2.sem) 0 ∗ semVal (sCell d L cc0_scratch3.sem) 0 ∗ semVal (sCell d L cc0_scratch4.sem) 0 ∗ semVal (sCell d L cc0_scratch5.sem) 0 ∗ semVal (sCell d L cc0_scratch6.sem) 0 ∗ semVal (sCell d L cc0_scratch7.sem) 0
          ∗ bigSep (((((((ownCells (V d (cV L) (jV L))).erase (sCell d L cc0_scratch2.sem)).erase (sCell d L cc0_scratch3.sem)).erase (sCell d L cc0_scratch4.sem)).erase (sCell d L cc0_scratch5.sem)).erase (sCell d L cc0_scratch6.sem)).erase (sCell d L cc0_scratch7.sem)) fun g => semVal g 0) := by
  unfold SparseCore.Cfg.ownSems0
  rw [SparseCore.bigSep_erase' (sCell_mem d L cc0_scratch2.sem (by decide)),
    SparseCore.bigSep_erase' (Finset.mem_erase.mpr ⟨sCell_ne d L (by decide), (sCell_mem d L cc0_scratch3.sem (by decide))⟩),
    SparseCore.bigSep_erase' (Finset.mem_erase.mpr ⟨sCell_ne d L (by decide), (Finset.mem_erase.mpr ⟨sCell_ne d L (by decide), (sCell_mem d L cc0_scratch4.sem (by decide))⟩)⟩),
    SparseCore.bigSep_erase' (Finset.mem_erase.mpr ⟨sCell_ne d L (by decide), (Finset.mem_erase.mpr ⟨sCell_ne d L (by decide), (Finset.mem_erase.mpr ⟨sCell_ne d L (by decide), (sCell_mem d L cc0_scratch5.sem (by decide))⟩)⟩)⟩),
    SparseCore.bigSep_erase' (Finset.mem_erase.mpr ⟨sCell_ne d L (by decide), (Finset.mem_erase.mpr ⟨sCell_ne d L (by decide), (Finset.mem_erase.mpr ⟨sCell_ne d L (by decide), (Finset.mem_erase.mpr ⟨sCell_ne d L (by decide), (sCell_mem d L cc0_scratch6.sem (by decide))⟩)⟩)⟩)⟩),
    SparseCore.bigSep_erase' (Finset.mem_erase.mpr ⟨sCell_ne d L (by decide), (Finset.mem_erase.mpr ⟨sCell_ne d L (by decide), (Finset.mem_erase.mpr ⟨sCell_ne d L (by decide), (Finset.mem_erase.mpr ⟨sCell_ne d L (by decide), (Finset.mem_erase.mpr ⟨sCell_ne d L (by decide), (sCell_mem d L cc0_scratch7.sem (by decide))⟩)⟩)⟩)⟩)⟩)]

omit [FloatOps F] in
/-- The two scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- The array `x3` as a tile's whole memref addresses it is the TensorCore's array. -/
theorem pts_x3 (q : PosShare TreeShare) (f : Buf (Elt F) (x3Loc d)) :
    ((xV).view.loc (V d (cV L) (jV L)) ↦{q} f : sProp 𝕄) = x3Loc d ↦{q} f := by
  simp only [Memref.view_whole, View.set_whole]

/-- A slice of o landed from a half plane of the output scratch: the half plane's contents as one listed write over the
    slice's prior contents. -/
abbrev landO (m : Memref sig .scVector .hbm S32x128 .f32) (src : Memref sig .scVector .vmem S32x128 .f32)
    (fd : Buf (Elt F) (m.view.loc (V d (cV L) (jV L)))) (g : Buf (Elt F) (src.view.loc (V d (cV L) (jV L)))) : Buf (Elt F) (m.view.loc (V d (cV L) (jV L))) :=
  m.view.writes (Elt F) fd [⟨Rect.whole S32x128, ReadAs.same.apply (src.view.read (Elt F) g)⟩]

/-- What a copy of a half plane out to a slice of o delivers: the slice landed, the half plane back. -/
abbrev delivO (m : Memref sig .scVector .hbm S32x128 .f32) (src : Memref sig .scVector .vmem S32x128 .f32)
    (fd : Buf (Elt F) (m.view.loc (V d (cV L) (jV L)))) (g : Buf (Elt F) (src.view.loc (V d (cV L) (jV L)))) : sProp 𝕄 :=
  iprop((m.view.loc (V d (cV L) (jV L)) ↦[m.view.set]{fullShare} landO d L m src fd g) ∗ (src.view.loc (V d (cV L) (jV L)) ↦[src.view.set]{fullShare} g))

/-- The two deliveries of a batch of two copies. -/
abbrev batchD (A B : sProp 𝕄) : Fin 2 → sProp 𝕄 := ![A, B]

instance batchD_storable (A B : sProp 𝕄) [BI.Storable (upEmb : UEmb _ 𝕄) A] [BI.Storable (upEmb : UEmb _ 𝕄) B] (j : Fin 2) :
    BI.Storable (upEmb : UEmb _ 𝕄) (batchD A B j) := by
  fin_cases j
  · show BI.Storable (upEmb : UEmb _ 𝕄) A; infer_instance
  · show BI.Storable (upEmb : UEmb _ 𝕄) B; infer_instance

end Cert.Kernel.Hand

end
-- ==== Proof.TileSlicesK.lean ====
/-
  A tile's 400 slices of the result array, taken four planes at a time: the slices of planes `4 g ..` still to be
  written and the slices of planes below `4 g` already at the kernel's value, how one group of eight slices (four
  planes, two halves) moves from the one to the other, and the printed row offsets of the slices the body names,
  as the plane, half and tile they are.
-/
import proofs.«209186_g8847632630064_cont_9to1c4b_396_28_alg».proof.Proof.CommonK

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop shareTokN)
open Idealize.ShloMosaic.ValueIdx

variable {F : FTy → Type}

local notation "𝕄" => MT nD τ sig (HIx 1) (Elt F) ℕ UU ℕ

/-! ## Planes by groups of four -/

/-- Plane `j` of group `g`: `4 g + j`. -/
def planeOf (g : ℕ) (hg : g < 50) (j : Fin 4) : Fin 200 := ⟨4 * g + j.val, by have := j.isLt; omega⟩

omit F in
theorem planeOf_val (g : ℕ) (hg : g < 50) (j : Fin 4) : (planeOf g hg j).val = 4 * g + j.val := rfl

/-- The eight (plane, half) pairs of group `g`, as an embedding of `Fin 4 × Fin 2`. -/
def grpEmb (g : ℕ) (hg : g < 50) : Fin 4 × Fin 2 ↪ Fin 200 × Fin 2 where
  toFun q := (planeOf g hg q.1, q.2)
  inj' := by
    rintro ⟨j, h⟩ ⟨j', h'⟩ e
    have e' : (planeOf g hg j, h) = (planeOf g hg j', h') := e
    obtain ⟨e1, e2⟩ := Prod.mk.inj e'
    have e3 : (planeOf g hg j).val = (planeOf g hg j').val := congrArg Fin.val e1
    rw [planeOf_val, planeOf_val] at e3
    have hj : j = j' := Fin.ext (by omega)
    rw [hj, e2]

omit F in
/-- The pairs from plane `4 g` on are group `g`'s eight and the pairs from plane `4 (g + 1)` on. -/
theorem from_step (g : ℕ) (hg : g < 50) :
    (Finset.univ.filter fun p : Fin 200 × Fin 2 => 4 * g ≤ p.1.val)
      = Finset.univ.map (grpEmb g hg) ∪ Finset.univ.filter fun p : Fin 200 × Fin 2 => 4 * (g + 1) ≤ p.1.val := by
  ext p
  simp only [Finset.mem_filter, Finset.mem_univ, true_and, Finset.mem_union, Finset.mem_map]
  constructor
  · intro h
    by_cases hlt : p.1.val < 4 * g + 4
    · exact Or.inl ⟨(⟨p.1.val - 4 * g, by omega⟩, p.2), Prod.ext (Fin.ext (by show 4 * g + (p.1.val - 4 * g) = p.1.val; omega)) rfl⟩
    · exact Or.inr (by omega)
  · rintro (⟨q, rfl⟩ | h)
    · show 4 * g ≤ 4 * g + q.1.val; omega
    · omega

omit F in
theorem from_step_disjoint (g : ℕ) (hg : g < 50) :
    Disjoint (Finset.univ.map (grpEmb g hg)) (Finset.univ.filter fun p : Fin 200 × Fin 2 => 4 * (g + 1) ≤ p.1.val) := by
  rw [Finset.disjoint_left]
  intro p hp hq
  obtain ⟨q, -, rfl⟩ := Finset.mem_map.mp hp
  have h2 := (Finset.mem_filter.mp hq).2
  have hq4 := q.1.isLt
  change 4 * (g + 1) ≤ 4 * g + q.1.val at h2
  omega

omit F in
/-- The pairs below plane `4 (g + 1)` are the pairs below plane `4 g` and group `g`'s eight. -/
theorem below_step (g : ℕ) (hg : g < 50) :
    (Finset.univ.filter fun p : Fin 200 × Fin 2 => p.1.val < 4 * (g + 1))
      = Finset.univ.map (grpEmb g hg) ∪ Finset.univ.filter fun p : Fin 200 × Fin 2 => p.1.val < 4 * g := by
  ext p
  simp only [Finset.mem_filter, Finset.mem_univ, true_and, Finset.mem_union, Finset.mem_map]
  constructor
  · intro h
    by_cases hlt : p.1.val < 4 * g
    · exact Or.inr hlt
    · exact Or.inl ⟨(⟨p.1.val - 4 * g, by omega⟩, p.2), Prod.ext (Fin.ext (by show 4 * g + (p.1.val - 4 * g) = p.1.val; omega)) rfl⟩
  · rintro (⟨q, rfl⟩ | h)
    · have := q.1.isLt; show 4 * g + q.1.val < 4 * (g + 1); omega
    · omega

omit F in
theorem below_step_disjoint (g : ℕ) (hg : g < 50) :
    Disjoint (Finset.univ.map (grpEmb g hg)) (Finset.univ.filter fun p : Fin 200 × Fin 2 => p.1.val < 4 * g) := by
  rw [Finset.disjoint_left]
  intro p hp hq
  obtain ⟨q, -, rfl⟩ := Finset.mem_map.mp hp
  have h2 := (Finset.mem_filter.mp hq).2
  change 4 * g + q.1.val < 4 * g at h2
  omega

omit F in
/-- The eight pairs of `Fin 4 × Fin 2`, listed plane by plane. -/
theorem univ_eight : (Finset.univ : Finset (Fin 4 × Fin 2))
    = {((0 : Fin 4), (0 : Fin 2)), (0, 1), (1, 0), (1, 1), (2, 0), (2, 1), (3, 0), (3, 1)} := by decide

/-- A product over the eight pairs, written out. -/
theorem bigSep_eight (Φ : Fin 4 × Fin 2 → sProp 𝕄) :
    bigSep Finset.univ Φ
      = iprop(Φ (0, 0) ∗ Φ (0, 1) ∗ Φ (1, 0) ∗ Φ (1, 1) ∗ Φ (2, 0) ∗ Φ (2, 1) ∗ Φ (3, 0) ∗ Φ (3, 1)) := by
  rw [univ_eight, SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- Separating conjunction re-associated, as an equation. -/
theorem sep_assoc_eq (P Q R : sProp 𝕄) : iprop((P ∗ Q) ∗ R) = iprop(P ∗ Q ∗ R) :=
  Std.Associative.assoc (op := (BI.sep : sProp 𝕄 → _ → _)) P Q R

/-- A group's product over an index set that splits as the group's eight and a rest. -/
theorem bigSep_group (g : ℕ) (hg : g < 50) (s r : Finset (Fin 200 × Fin 2)) (hs : s = Finset.univ.map (grpEmb g hg) ∪ r)
    (hd : Disjoint (Finset.univ.map (grpEmb g hg)) r) (Φ : Fin 200 × Fin 2 → sProp 𝕄) :
    bigSep s Φ = iprop(Φ (planeOf g hg 0, 0) ∗ Φ (planeOf g hg 0, 1) ∗ Φ (planeOf g hg 1, 0) ∗ Φ (planeOf g hg 1, 1)
      ∗ Φ (planeOf g hg 2, 0) ∗ Φ (planeOf g hg 2, 1) ∗ Φ (planeOf g hg 3, 0) ∗ Φ (planeOf g hg 3, 1) ∗ bigSep r Φ) := by
  rw [hs, SparseCore.bigSep_union' hd, bigSep_map, bigSep_eight]
  simp only [sep_assoc_eq]
  rfl

/-! ## The slices still to be written, and the slices done -/

/-- Tile `w`'s slices of planes `4 g` on, at any contents. -/
def oTodoG (d : Dev nD) (w : Fin 32) (g : ℕ) : sProp 𝕄 :=
  bigSep (Finset.univ.filter fun p : Fin 200 × Fin 2 => 4 * g ≤ p.1.val) fun p => iprop(∃ f, oLoc d ↦[oSet w p.1 p.2]{fullShare} f)

variable [FloatOps F] (X : (d : Dev nD) → Buf (Elt F) (x3Loc d))

/-- Tile `w`'s slices of planes below `4 g`, at the kernel's value. -/
def oDoneG (d : Dev nD) (w : Fin 32) (g : ℕ) : sProp 𝕄 :=
  bigSep (Finset.univ.filter fun p : Fin 200 × Fin 2 => p.1.val < 4 * g) fun p => oLoc d ↦[oSet w p.1 p.2]{fullShare} (outLinF (X d))

omit [FloatOps F] in
/-- At the start every slice is still to be written. -/
theorem oTodoG_zero (d : Dev nD) (w : Fin 32) :
    (bigSep (Finset.univ : Finset (Fin 200 × Fin 2)) fun p => iprop(∃ f, oLoc d ↦[oSet w p.1 p.2]{fullShare} f) : sProp 𝕄) = oTodoG d w 0 := by
  unfold oTodoG
  rw [show (Finset.univ.filter fun p : Fin 200 × Fin 2 => 4 * 0 ≤ p.1.val) = Finset.univ from
    Finset.filter_true_of_mem fun p _ => by omega]

/-- … and none is done. -/
theorem oDoneG_zero (d : Dev nD) (w : Fin 32) : (oDoneG X d w 0 : sProp 𝕄) = iprop(emp) := by
  unfold oDoneG
  rw [show (Finset.univ.filter fun p : Fin 200 × Fin 2 => p.1.val < 4 * 0) = ∅ from
    Finset.filter_false_of_mem fun p _ => by omega]
  rfl

/-- After the fiftieth group every slice is done. -/
theorem oDoneG_fifty (d : Dev nD) (w : Fin 32) :
    (oDoneG X d w 50 : sProp 𝕄) = bigSep (Finset.univ : Finset (Fin 200 × Fin 2)) fun p => oLoc d ↦[oSet w p.1 p.2]{fullShare} (outLinF (X d)) := by
  unfold oDoneG
  rw [show (Finset.univ.filter fun p : Fin 200 × Fin 2 => p.1.val < 4 * 50) = Finset.univ from
    Finset.filter_true_of_mem fun p _ => by have := p.1.isLt; omega]

omit [FloatOps F] in
/-- The slices from plane `4 g` on: group `g`'s eight, then those from plane `4 (g + 1)` on. -/
theorem oTodoG_step (d : Dev nD) (w : Fin 32) (g : ℕ) (hg : g < 50) :
    (oTodoG d w g : sProp 𝕄) = iprop((∃ f, oLoc d ↦[oSet w (planeOf g hg 0) 0]{fullShare} f) ∗ (∃ f, oLoc d ↦[oSet w (planeOf g hg 0) 1]{fullShare} f)
      ∗ (∃ f, oLoc d ↦[oSet w (planeOf g hg 1) 0]{fullShare} f) ∗ (∃ f, oLoc d ↦[oSet w (planeOf g hg 1) 1]{fullShare} f)
      ∗ (∃ f, oLoc d ↦[oSet w (planeOf g hg 2) 0]{fullShare} f) ∗ (∃ f, oLoc d ↦[oSet w (planeOf g hg 2) 1]{fullShare} f)
      ∗ (∃ f, oLoc d ↦[oSet w (planeOf g hg 3) 0]{fullShare} f) ∗ (∃ f, oLoc d ↦[oSet w (planeOf g hg 3) 1]{fullShare} f)
      ∗ oTodoG d w (g + 1)) := by
  unfold oTodoG
  exact bigSep_group g hg _ _ (from_step g hg) (from_step_disjoint g hg) _

/-- The slices below plane `4 (g + 1)` at the kernel's value: group `g`'s eight, then those below plane `4 g`. -/
theorem oDoneG_succ (d : Dev nD) (w : Fin 32) (g : ℕ) (hg : g < 50) :
    (oDoneG X d w (g + 1) : sProp 𝕄) = iprop((oLoc d ↦[oSet w (planeOf g hg 0) 0]{fullShare} (outLinF (X d))) ∗ (oLoc d ↦[oSet w (planeOf g hg 0) 1]{fullShare} (outLinF (X d)))
      ∗ (oLoc d ↦[oSet w (planeOf g hg 1) 0]{fullShare} (outLinF (X d))) ∗ (oLoc d ↦[oSet w (planeOf g hg 1) 1]{fullShare} (outLinF (X d)))
      ∗ (oLoc d ↦[oSet w (planeOf g hg 2) 0]{fullShare} (outLinF (X d))) ∗ (oLoc d ↦[oSet w (planeOf g hg 2) 1]{fullShare} (outLinF (X d)))
      ∗ (oLoc d ↦[oSet w (planeOf g hg 3) 0]{fullShare} (outLinF (X d))) ∗ (oLoc d ↦[oSet w (planeOf g hg 3) 1]{fullShare} (outLinF (X d)))
      ∗ oDoneG X d w g) := by
  unfold oDoneG
  exact bigSep_group g hg _ _ (below_step g hg) (below_step_disjoint g hg) _

/-- The done slices and group `g`'s eight at the kernel's value are the done slices one group further. -/
theorem oDoneG_step (d : Dev nD) (w : Fin 32) (g : ℕ) (hg : g < 50) :
    iprop(oDoneG X d w g ∗ (oLoc d ↦[oSet w (planeOf g hg 0) 0]{fullShare} (outLinF (X d))) ∗ (oLoc d ↦[oSet w (planeOf g hg 0) 1]{fullShare} (outLinF (X d)))
      ∗ (oLoc d ↦[oSet w (planeOf g hg 1) 0]{fullShare} (outLinF (X d))) ∗ (oLoc d ↦[oSet w (planeOf g hg 1) 1]{fullShare} (outLinF (X d)))
      ∗ (oLoc d ↦[oSet w (planeOf g hg 2) 0]{fullShare} (outLinF (X d))) ∗ (oLoc d ↦[oSet w (planeOf g hg 2) 1]{fullShare} (outLinF (X d)))
      ∗ (oLoc d ↦[oSet w (planeOf g hg 3) 0]{fullShare} (outLinF (X d))) ∗ (oLoc d ↦[oSet w (planeOf g hg 3) 1]{fullShare} (outLinF (X d))))
      ⊢ (oDoneG X d w (g + 1) : sProp 𝕄) := by
  rw [oDoneG_succ X d w g hg]
  iintro ⟨Hd, H00, H01, H10, H11, H20, H21, H30, H31⟩
  isplitl [H00]; · iexact H00
  isplitl [H01]; · iexact H01
  isplitl [H10]; · iexact H10
  isplitl [H11]; · iexact H11
  isplitl [H20]; · iexact H20
  isplitl [H21]; · iexact H21
  isplitl [H30]; · iexact H30
  isplitl [H31]; · iexact H31
  iexact Hd

/-! ## The printed row offsets, as plane, half and tile -/

omit F [FloatOps F] in
theorem trips_le (t : Fin k0_t1_loop.trips) : t.val < 25 := Nat.lt_of_lt_of_le t.isLt k0_t1_abs.2.1
omit F [FloatOps F] in
theorem even_group_lt (t : Fin k0_t1_loop.trips) : 2 * t.val < 50 := by have := trips_le t; omega
omit F [FloatOps F] in
theorem odd_group_lt (t : Fin k0_t1_loop.trips) : 2 * t.val + 1 < 50 := by have := trips_le t; omega

omit F [FloatOps F] in
/-- An offset pair is determined by its row. -/
theorem off_ext {a b : ℕ} (h : a = b) : (![a, 0] : Fin 2 → ℕ) = ![b, 0] := by rw [h]

omit F [FloatOps F] in
/-- Iteration `t`'s first group (planes `8 t ..`), plane `r`, lower half. -/
theorem hoff8 (L : grid0.Coords) (t : Fin k0_t1_loop.trips) (r : Fin 4) :
    k0_off8 L t (BitVec.ofNat 32 r.val)
      = ![(planeOf (2 * t.val) (even_group_lt t) r).val * 2048 + (0 : Fin 2).val * 1024 + (widL L).val * 32, 0] := by
  rw [k0_off8_eq, widL_val, planeOf_val]
  exact off_ext (by show _ = (4 * (2 * t.val) + r.val) * 2048 + 0 * 1024 + (2 * (L 1).val + (L 0).val) * 32; omega)

omit F [FloatOps F] in
/-- … upper half. -/
theorem hoff9 (L : grid0.Coords) (t : Fin k0_t1_loop.trips) (r : Fin 4) :
    k0_off9 L t (BitVec.ofNat 32 r.val)
      = ![(planeOf (2 * t.val) (even_group_lt t) r).val * 2048 + (1 : Fin 2).val * 1024 + (widL L).val * 32, 0] := by
  rw [k0_off9_eq, widL_val, planeOf_val]
  exact off_ext (by show _ = (4 * (2 * t.val) + r.val) * 2048 + 1 * 1024 + (2 * (L 1).val + (L 0).val) * 32; omega)

omit F [FloatOps F] in
/-- Iteration `t`'s second group (planes `8 t + 4 ..`), plane `r`, lower half. -/
theorem hoff28 (L : grid0.Coords) (t : Fin k0_t1_loop.trips) (r : Fin 4) :
    k0_off28 L t (BitVec.ofNat 32 r.val)
      = ![(planeOf (2 * t.val + 1) (odd_group_lt t) r).val * 2048 + (0 : Fin 2).val * 1024 + (widL L).val * 32, 0] := by
  rw [k0_off28_eq, widL_val, planeOf_val]
  exact off_ext (by show _ = (4 * (2 * t.val + 1) + r.val) * 2048 + 0 * 1024 + (2 * (L 1).val + (L 0).val) * 32; omega)

omit F [FloatOps F] in
/-- … upper half. -/
theorem hoff29 (L : grid0.Coords) (t : Fin k0_t1_loop.trips) (r : Fin 4) :
    k0_off29 L t (BitVec.ofNat 32 r.val)
      = ![(planeOf (2 * t.val + 1) (odd_group_lt t) r).val * 2048 + (1 : Fin 2).val * 1024 + (widL L).val * 32, 0] := by
  rw [k0_off29_eq, widL_val, planeOf_val]
  exact off_ext (by show _ = (4 * (2 * t.val + 1) + r.val) * 2048 + 1 * 1024 + (2 * (L 1).val + (L 0).val) * 32; omega)

omit F [FloatOps F] in
/-- The last group (planes `196 ..`), plane `r`, lower half. -/
theorem hoff43 (L : grid0.Coords) (r : Fin 4) :
    k0_off43 L (BitVec.ofNat 32 (401408 + 2048 * r.val))
      = ![(planeOf 49 (by decide) r).val * 2048 + (0 : Fin 2).val * 1024 + (widL L).val * 32, 0] := by
  rw [k0_off43_eq, widL_val, planeOf_val]
  exact off_ext (by show _ = (4 * 49 + r.val) * 2048 + 0 * 1024 + (2 * (L 1).val + (L 0).val) * 32; omega)

omit F [FloatOps F] in
/-- … upper half. -/
theorem hoff44 (L : grid0.Coords) (r : Fin 4) :
    k0_off44 L (BitVec.ofNat 32 (401408 + 2048 * r.val))
      = ![(planeOf 49 (by decide) r).val * 2048 + (1 : Fin 2).val * 1024 + (widL L).val * 32, 0] := by
  rw [k0_off44_eq, widL_val, planeOf_val]
  exact off_ext (by show _ = (4 * 49 + r.val) * 2048 + 1 * 1024 + (2 * (L 1).val + (L 0).val) * 32; omega)

omit F [FloatOps F] in
/-- The offset facts are in the form the slices' sets ask for: the printed slice of the third plane of an iteration's
    first group, lower half, is that part of the result array. -/
example (L : grid0.Coords) (t : Fin k0_t1_loop.trips) :
    ((oV : Memref sig .scVector .hbm S409600x128 .f32).slice
        (Rect.unit (s := S409600x128) (k0_off8 L t 2#32) S32x128.size (k0_off8_inb L t 2)) (fun _ => rfl)).view.set
      = oSet (widL L) (planeOf (2 * t.val) (even_group_lt t) 2) 0 :=
  set_oSlice (k0_off8_inb L t 2) (widL L) (planeOf (2 * t.val) (even_group_lt t) 2) 0 (hoff8 L t 2)

omit F [FloatOps F] in
/-- The same for the last group's second plane, upper half. -/
example (L : grid0.Coords) :
    ((oV : Memref sig .scVector .hbm S409600x128 .f32).slice
        (Rect.unit (s := S409600x128) (k0_off44 L 403456#32) S32x128.size (k0_off44_inb L 1)) (fun _ => rfl)).view.set
      = oSet (widL L) (planeOf 49 (by decide) 1) 1 :=
  set_oSlice (k0_off44_inb L 1) (widL L) (planeOf 49 (by decide) 1) 1 (hoff44 L 1)

end Cert.Kernel.Hand

end
-- ==== Proof.TileInvK.lean ====
/-
  The tile kernel's loop invariant: what the tile holds at the head of outer trip k (groups 2k and 2k+1 of four planes
  each): the two fetches in flight, the four batches of copies out of the previous group in flight (none before the first
  trip), the groups' slices of o done, in flight, or still to do.
-/
import proofs.«209186_g8847632630064_cont_9to1c4b_396_28_alg».proof.Proof.CommonK
import proofs.«209186_g8847632630064_cont_9to1c4b_396_28_alg».proof.Proof.TileBufsK
import proofs.«209186_g8847632630064_cont_9to1c4b_396_28_alg».proof.Proof.TileSlicesK

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop shareTokN)
open Idealize.ShloMosaic.Tactic

variable {F : FTy → Type}

local notation "𝕄" => MT nD τ sig (HIx 1) (Elt F) ℕ UU ℕ

variable [FloatOps F]
variable (X : (d : Dev nD) → Buf (Elt F) (x3Loc d))
variable (d : Dev nD) (L : grid0.Coords)

open Idealize.ShloMosaic.ValueIdx

/-! ## The slices of o a trip's copies write, as the copies spell them -/
abbrev oA00 (t : Fin k0_t1_loop.trips) : Memref sig .scVector .hbm S32x128 .f32 := (oV).slice (Rect.unit (s := S409600x128) (k0_off8 L t 0#32) S32x128.size (k0_off8_inb L t 0)) (fun _ => rfl)
abbrev oB00 (t : Fin k0_t1_loop.trips) : Memref sig .scVector .hbm S32x128 .f32 := (oV).slice (Rect.unit (s := S409600x128) (k0_off28 L t 0#32) S32x128.size (k0_off28_inb L t 0)) (fun _ => rfl)
abbrev oA01 (t : Fin k0_t1_loop.trips) : Memref sig .scVector .hbm S32x128 .f32 := (oV).slice (Rect.unit (s := S409600x128) (k0_off9 L t 0#32) S32x128.size (k0_off9_inb L t 0)) (fun _ => rfl)
abbrev oB01 (t : Fin k0_t1_loop.trips) : Memref sig .scVector .hbm S32x128 .f32 := (oV).slice (Rect.unit (s := S409600x128) (k0_off29 L t 0#32) S32x128.size (k0_off29_inb L t 0)) (fun _ => rfl)
abbrev oA10 (t : Fin k0_t1_loop.trips) : Memref sig .scVector .hbm S32x128 .f32 := (oV).slice (Rect.unit (s := S409600x128) (k0_off8 L t 1#32) S32x128.size (k0_off8_inb L t 1)) (fun _ => rfl)
abbrev oB10 (t : Fin k0_t1_loop.trips) : Memref sig .scVector .hbm S32x128 .f32 := (oV).slice (Rect.unit (s := S409600x128) (k0_off28 L t 1#32) S32x128.size (k0_off28_inb L t 1)) (fun _ => rfl)
abbrev oA11 (t : Fin k0_t1_loop.trips) : Memref sig .scVector .hbm S32x128 .f32 := (oV).slice (Rect.unit (s := S409600x128) (k0_off9 L t 1#32) S32x128.size (k0_off9_inb L t 1)) (fun _ => rfl)
abbrev oB11 (t : Fin k0_t1_loop.trips) : Memref sig .scVector .hbm S32x128 .f32 := (oV).slice (Rect.unit (s := S409600x128) (k0_off29 L t 1#32) S32x128.size (k0_off29_inb L t 1)) (fun _ => rfl)
abbrev oA20 (t : Fin k0_t1_loop.trips) : Memref sig .scVector .hbm S32x128 .f32 := (oV).slice (Rect.unit (s := S409600x128) (k0_off8 L t 2#32) S32x128.size (k0_off8_inb L t 2)) (fun _ => rfl)
abbrev oB20 (t : Fin k0_t1_loop.trips) : Memref sig .scVector .hbm S32x128 .f32 := (oV).slice (Rect.unit (s := S409600x128) (k0_off28 L t 2#32) S32x128.size (k0_off28_inb L t 2)) (fun _ => rfl)
abbrev oA21 (t : Fin k0_t1_loop.trips) : Memref sig .scVector .hbm S32x128 .f32 := (oV).slice (Rect.unit (s := S409600x128) (k0_off9 L t 2#32) S32x128.size (k0_off9_inb L t 2)) (fun _ => rfl)
abbrev oB21 (t : Fin k0_t1_loop.trips) : Memref sig .scVector .hbm S32x128 .f32 := (oV).slice (Rect.unit (s := S409600x128) (k0_off29 L t 2#32) S32x128.size (k0_off29_inb L t 2)) (fun _ => rfl)
abbrev oA30 (t : Fin k0_t1_loop.trips) : Memref sig .scVector .hbm S32x128 .f32 := (oV).slice (Rect.unit (s := S409600x128) (k0_off8 L t 3#32) S32x128.size (k0_off8_inb L t 3)) (fun _ => rfl)
abbrev oB30 (t : Fin k0_t1_loop.trips) : Memref sig .scVector .hbm S32x128 .f32 := (oV).slice (Rect.unit (s := S409600x128) (k0_off28 L t 3#32) S32x128.size (k0_off28_inb L t 3)) (fun _ => rfl)
abbrev oA31 (t : Fin k0_t1_loop.trips) : Memref sig .scVector .hbm S32x128 .f32 := (oV).slice (Rect.unit (s := S409600x128) (k0_off9 L t 3#32) S32x128.size (k0_off9_inb L t 3)) (fun _ => rfl)
abbrev oB31 (t : Fin k0_t1_loop.trips) : Memref sig .scVector .hbm S32x128 .f32 := (oV).slice (Rect.unit (s := S409600x128) (k0_off29 L t 3#32) S32x128.size (k0_off29_inb L t 3)) (fun _ => rfl)

/-! ## The values -/

/-- Slot `pin` of the input scratch holds group `G`'s four planes of x3, the tile's four rows of each. -/
def XsOk (G : ℕ) (pin : Fin 2) (g : S2x4x4x128.Idx → Elt F .f32) : Prop :=
  ∀ (hG : G < 50) (dl a : Fin 4) (c : Fin 128),
    g (ix4 pin dl a c) = X d (ix3 (⟨4 * G + dl.val, by omega⟩ : Fin 200) (⟨4 * (widL L).val + a.val, by have := (widL L).isLt; omega⟩ : Fin 128) c)

/-- Half `h` of plane `dl` of the output scratch holds the tile's rows of o for plane `4 G + dl`. -/
def OhOk (G : ℕ) (dl : Fin 4) (h : Fin 2) (g : S4x64x128.Idx → Elt F .f32) : Prop :=
  ∀ (hG : G < 50) (r : Fin 32) (c : Fin 128),
    g (ix3 dl (⟨32 * h.val + r.val, by omega⟩ : Fin 64) c)
      = outLinF (X d) (ix2 (⟨(4 * G + dl.val) * 2048 + h.val * 1024 + (widL L).val * 32 + r.val, by have := (widL L).isLt; omega⟩ : Fin 409600) c)

/-! ## The invariant -/

/-- The tile's read share of x3. -/
abbrev qT : PosShare TreeShare := shareTok fullShare 32 (widL L)

/-- Slot 0's fetch of group `G` in flight: its delivery (the slot holding the group, the lent elements of x3 back) and the rest of the read token. -/
def FlIn0 (G : ℕ) : sProp 𝕄 :=
  iprop(∃ Sx : Finset (Idx ((xV).view.loc (V d (cV L) (jV L)))),
    Transfers.Flight (countersEmb (U := UU)) (V d (cV L) (jV L)) (SemLoc.dma cc0_scratch2.sem) (none : HIx 1) 65536
      iprop((∃ g, ((xs0).view.loc (V d (cV L) (jV L)) ↦[(xs0).view.set]{fullShare} g) ∗ ⌜XsOk X d L G 0 g⌝)
        ∗ ((xV).view.loc (V d (cV L) (jV L)) ↦[Sx]{shareTokN (qT L) 0} X d))
    ∗ ((xV).view.loc (V d (cV L) (jV L)) ↦[Finset.univ \ Sx]{shareTokN (qT L) 0} X d))

/-- Slot 1's fetch of group `G` in flight: its delivery (the slot holding the group, the lent elements of x3 back) and the rest of the read token. -/
def FlIn1 (G : ℕ) : sProp 𝕄 :=
  iprop(∃ Sx : Finset (Idx ((xV).view.loc (V d (cV L) (jV L)))),
    Transfers.Flight (countersEmb (U := UU)) (V d (cV L) (jV L)) (SemLoc.dma cc0_scratch3.sem) (none : HIx 1) 65536
      iprop((∃ g, ((xs1).view.loc (V d (cV L) (jV L)) ↦[(xs1).view.set]{fullShare} g) ∗ ⌜XsOk X d L G 1 g⌝)
        ∗ ((xV).view.loc (V d (cV L) (jV L)) ↦[Sx]{shareTokN (qT L) 1} X d))
    ∗ ((xV).view.loc (V d (cV L) (jV L)) ↦[Finset.univ \ Sx]{shareTokN (qT L) 1} X d))

/-- Nothing being fetched: both read tokens whole, both slots and their semaphores in hand. -/
def InIdle : sProp 𝕄 :=
  iprop(((xV).view.loc (V d (cV L) (jV L)) ↦{shareTokN (qT L) 0} X d) ∗ ((xV).view.loc (V d (cV L) (jV L)) ↦{shareTokN (qT L) 1} X d)
    ∗ (∃ g, (xs0).view.loc (V d (cV L) (jV L)) ↦[(xs0).view.set]{fullShare} g) ∗ (∃ g, (xs1).view.loc (V d (cV L) (jV L)) ↦[(xs1).view.set]{fullShare} g)
    ∗ semVal ((V d (cV L) (jV L)), SemLoc.dma cc0_scratch2.sem) 0 ∗ semVal ((V d (cV L) (jV L)), SemLoc.dma cc0_scratch3.sem) 0)

/-- The input side before trip `k`: groups `2k` and `2k+1` being fetched, or after the last trip nothing. -/
def InSt (k : ℕ) : sProp 𝕄 :=
  iprop((⌜k < 25⌝ ∗ FlIn0 X d L (2 * k) ∗ FlIn1 X d L (2 * k + 1)) ∨ (⌜k = 25⌝ ∗ InIdle X d L))

/-- Plane 0 of the output scratch idle: its two halves and its semaphore in hand. -/
def OutIdle0 : sProp 𝕄 :=
  iprop((∃ g, (oh00).view.loc (V d (cV L) (jV L)) ↦[(oh00).view.set]{fullShare} g) ∗ (∃ g, (oh01).view.loc (V d (cV L) (jV L)) ↦[(oh01).view.set]{fullShare} g)
    ∗ semVal ((V d (cV L) (jV L)), SemLoc.dma cc0_scratch4.sem) 0)
/-- Plane 0's two copies out of trip `tp`'s second group in flight. -/
def BatchO0 (tp : Fin k0_t1_loop.trips) : sProp 𝕄 :=
  iprop(∃ (f0 : Buf (Elt F) ((oB00 L tp).view.loc (V d (cV L) (jV L)))) (f1 : Buf (Elt F) ((oB01 L tp).view.loc (V d (cV L) (jV L))))
      (g0 : Buf (Elt F) ((oh00).view.loc (V d (cV L) (jV L)))) (g1 : Buf (Elt F) ((oh01).view.loc (V d (cV L) (jV L)))),
    ⌜OhOk X d L (2 * tp.val + 1) 0 0 g0 ∧ OhOk X d L (2 * tp.val + 1) 0 1 g1⌝
    ∗ Transfers.Batch (countersEmb (U := UU)) (V d (cV L) (jV L)) (SemLoc.dma cc0_scratch4.sem) (none : HIx 1) 131072
        (batchD (delivO d L (oB00 L tp) oh00 f0 g0) (delivO d L (oB01 L tp) oh01 f1 g1)) 2 0)

/-- Plane 1 of the output scratch idle: its two halves and its semaphore in hand. -/
def OutIdle1 : sProp 𝕄 :=
  iprop((∃ g, (oh10).view.loc (V d (cV L) (jV L)) ↦[(oh10).view.set]{fullShare} g) ∗ (∃ g, (oh11).view.loc (V d (cV L) (jV L)) ↦[(oh11).view.set]{fullShare} g)
    ∗ semVal ((V d (cV L) (jV L)), SemLoc.dma cc0_scratch5.sem) 0)
/-- Plane 1's two copies out of trip `tp`'s second group in flight. -/
def BatchO1 (tp : Fin k0_t1_loop.trips) : sProp 𝕄 :=
  iprop(∃ (f0 : Buf (Elt F) ((oB10 L tp).view.loc (V d (cV L) (jV L)))) (f1 : Buf (Elt F) ((oB11 L tp).view.loc (V d (cV L) (jV L))))
      (g0 : Buf (Elt F) ((oh10).view.loc (V d (cV L) (jV L)))) (g1 : Buf (Elt F) ((oh11).view.loc (V d (cV L) (jV L)))),
    ⌜OhOk X d L (2 * tp.val + 1) 1 0 g0 ∧ OhOk X d L (2 * tp.val + 1) 1 1 g1⌝
    ∗ Transfers.Batch (countersEmb (U := UU)) (V d (cV L) (jV L)) (SemLoc.dma cc0_scratch5.sem) (none : HIx 1) 131072
        (batchD (delivO d L (oB10 L tp) oh10 f0 g0) (delivO d L (oB11 L tp) oh11 f1 g1)) 2 0)

/-- Plane 2 of the output scratch idle: its two halves and its semaphore in hand. -/
def OutIdle2 : sProp 𝕄 :=
  iprop((∃ g, (oh20).view.loc (V d (cV L) (jV L)) ↦[(oh20).view.set]{fullShare} g) ∗ (∃ g, (oh21).view.loc (V d (cV L) (jV L)) ↦[(oh21).view.set]{fullShare} g)
    ∗ semVal ((V d (cV L) (jV L)), SemLoc.dma cc0_scratch6.sem) 0)
/-- Plane 2's two copies out of trip `tp`'s second group in flight. -/
def BatchO2 (tp : Fin k0_t1_loop.trips) : sProp 𝕄 :=
  iprop(∃ (f0 : Buf (Elt F) ((oB20 L tp).view.loc (V d (cV L) (jV L)))) (f1 : Buf (Elt F) ((oB21 L tp).view.loc (V d (cV L) (jV L))))
      (g0 : Buf (Elt F) ((oh20).view.loc (V d (cV L) (jV L)))) (g1 : Buf (Elt F) ((oh21).view.loc (V d (cV L) (jV L)))),
    ⌜OhOk X d L (2 * tp.val + 1) 2 0 g0 ∧ OhOk X d L (2 * tp.val + 1) 2 1 g1⌝
    ∗ Transfers.Batch (countersEmb (U := UU)) (V d (cV L) (jV L)) (SemLoc.dma cc0_scratch6.sem) (none : HIx 1) 131072
        (batchD (delivO d L (oB20 L tp) oh20 f0 g0) (delivO d L (oB21 L tp) oh21 f1 g1)) 2 0)

/-- Plane 3 of the output scratch idle: its two halves and its semaphore in hand. -/
def OutIdle3 : sProp 𝕄 :=
  iprop((∃ g, (oh30).view.loc (V d (cV L) (jV L)) ↦[(oh30).view.set]{fullShare} g) ∗ (∃ g, (oh31).view.loc (V d (cV L) (jV L)) ↦[(oh31).view.set]{fullShare} g)
    ∗ semVal ((V d (cV L) (jV L)), SemLoc.dma cc0_scratch7.sem) 0)
/-- Plane 3's two copies out of trip `tp`'s second group in flight. -/
def BatchO3 (tp : Fin k0_t1_loop.trips) : sProp 𝕄 :=
  iprop(∃ (f0 : Buf (Elt F) ((oB30 L tp).view.loc (V d (cV L) (jV L)))) (f1 : Buf (Elt F) ((oB31 L tp).view.loc (V d (cV L) (jV L))))
      (g0 : Buf (Elt F) ((oh30).view.loc (V d (cV L) (jV L)))) (g1 : Buf (Elt F) ((oh31).view.loc (V d (cV L) (jV L)))),
    ⌜OhOk X d L (2 * tp.val + 1) 3 0 g0 ∧ OhOk X d L (2 * tp.val + 1) 3 1 g1⌝
    ∗ Transfers.Batch (countersEmb (U := UU)) (V d (cV L) (jV L)) (SemLoc.dma cc0_scratch7.sem) (none : HIx 1) 131072
        (batchD (delivO d L (oB30 L tp) oh30 f0 g0) (delivO d L (oB31 L tp) oh31 f1 g1)) 2 0)

/-- The output side before trip `k`: idle before the first, else the previous trip's second group on its way out. -/
def OutSt (k : ℕ) : sProp 𝕄 :=
  iprop((⌜k = 0⌝ ∗ OutIdle0 d L ∗ OutIdle1 d L ∗ OutIdle2 d L ∗ OutIdle3 d L)
    ∨ (∃ tp : Fin k0_t1_loop.trips, ⌜tp.val + 1 = k⌝ ∗ BatchO0 X d L tp ∗ BatchO1 X d L tp ∗ BatchO2 X d L tp ∗ BatchO3 X d L tp))

/-- Before trip `k`: the evidence the waits may be made, the two sides, the slices of o (groups below `2k - 1` done, group
    `2k - 1` in flight, groups from `2k` to do), what the tile owes. -/
def Inv (O : CellTallies nD τ sig (HIx 1)) (W : Waits sig (HIx 1)) (k : ℕ) (_ : PUnit) : sProp 𝕄 :=
  iprop(Transfers.MayWaits (V d (cV L) (jV L)) (none : HIx 1) O
    ∗ InSt X d L k ∗ OutSt X d L k
    ∗ oTodoG d (widL L) (2 * k) ∗ oDoneG X d (widL L) (2 * k - 1)
    ∗ ∃ W', ⌜∀ p ∈ W', p ∈ W ∨ p.2 = none⌝ ∗ owes (V d (cV L) (jV L)) O W')

/-! ## The rest of the tile's own scratch, and the tile's resources laid out -/

/-- The tile's own buffers other than the two scratch buffers. -/
def BufsRest : sProp 𝕄 :=
  bigSep (((ownRefs (τ := τ) (.scVector (cV L) (jV L))).erase ((Proc.scVector (cV L) (jV L)).devRef cc0_scratch0)).erase
      ((Proc.scVector (cV L) (jV L)).devRef cc0_scratch1))
    fun b => iprop(∃ f, ((d, b) : Loc nD τ sig) ↦{fullShare} f)
/-- The tile's own semaphores other than the six the kernel uses, at zero. -/
def SemsRest : sProp 𝕄 :=
  bigSep (((((((ownCells (V d (cV L) (jV L))).erase (sCell d L cc0_scratch2.sem)).erase (sCell d L cc0_scratch3.sem)).erase (sCell d L cc0_scratch4.sem)).erase (sCell d L cc0_scratch5.sem)).erase (sCell d L cc0_scratch6.sem)).erase (sCell d L cc0_scratch7.sem)) fun g => semVal g 0

/-- The tile's resources laid out, nothing in flight, its slices of o as `Os`: the remainder of its read share of x3
    beside the two read tokens, the scratch cut into slots and half planes, the six semaphores at zero, the rest. -/
def TileOpen (Os : sProp 𝕄) : sProp 𝕄 :=
  iprop((x3Loc d ↦{(qT L).left.left} X d) ∗ InIdle X d L ∗ Os ∗ OutIdle0 d L ∗ OutIdle1 d L ∗ OutIdle2 d L ∗ OutIdle3 d L
    ∗ BufsRest d L ∗ SemsRest d L)

/-! ## The pure facts the run cites (proved apart) -/

/-- A fetch of group `G` landed in a slot makes the slot hold the group. -/
structure LandX : Prop where
  l0 : ∀ (G : ℕ) (hG : G < 50) (off : Fin 3 → ℕ) (inb : ∀ a, off a + S4x4x128.size a ≤ S200x128x128.size a) (_ : off = ![4 * G, 4 * (widL L).val, 0])
      (fd : Buf (Elt F) ((xs0).view.loc (V d (cV L) (jV L)))),
      XsOk X d L G 0 ((xs0).view.writes (Elt F) fd [⟨Rect.whole S4x4x128,
        ReadAs.same.apply (((xV).slice (Rect.unit (s := S200x128x128) off S4x4x128.size inb) (fun _ => rfl)).view.read (Elt F) (X d))⟩])
  l1 : ∀ (G : ℕ) (hG : G < 50) (off : Fin 3 → ℕ) (inb : ∀ a, off a + S4x4x128.size a ≤ S200x128x128.size a) (_ : off = ![4 * G, 4 * (widL L).val, 0])
      (fd : Buf (Elt F) ((xs1).view.loc (V d (cV L) (jV L)))),
      XsOk X d L G 1 ((xs1).view.writes (Elt F) fd [⟨Rect.whole S4x4x128,
        ReadAs.same.apply (((xV).slice (Rect.unit (s := S200x128x128) off S4x4x128.size inb) (fun _ => rfl)).view.read (Elt F) (X d))⟩])

/-- A half plane holding the tile's rows of plane `4 G + dl`, copied out to its slice of o, leaves the kernel's value there. -/
structure LandO : Prop where
  l00 : ∀ (G : ℕ) (hG : G < 50) (off : Fin 2 → ℕ) (inb : ∀ a, off a + S32x128.size a ≤ S409600x128.size a)
      (_ : off = ![(planeOf G hG 0).val * 2048 + (0 : Fin 2).val * 1024 + (widL L).val * 32, 0])
      (fd : Buf (Elt F) (((oV).slice (Rect.unit (s := S409600x128) off S32x128.size inb) (fun _ => rfl)).view.loc (V d (cV L) (jV L))))
      (g : Buf (Elt F) ((oh00).view.loc (V d (cV L) (jV L)))) (_ : OhOk X d L G 0 0 g),
      ∀ i ∈ oSet (widL L) (planeOf G hG 0) 0,
        landO d L ((oV).slice (Rect.unit (s := S409600x128) off S32x128.size inb) (fun _ => rfl)) oh00 fd g i = outLinF (X d) i
  l01 : ∀ (G : ℕ) (hG : G < 50) (off : Fin 2 → ℕ) (inb : ∀ a, off a + S32x128.size a ≤ S409600x128.size a)
      (_ : off = ![(planeOf G hG 0).val * 2048 + (1 : Fin 2).val * 1024 + (widL L).val * 32, 0])
      (fd : Buf (Elt F) (((oV).slice (Rect.unit (s := S409600x128) off S32x128.size inb) (fun _ => rfl)).view.loc (V d (cV L) (jV L))))
      (g : Buf (Elt F) ((oh01).view.loc (V d (cV L) (jV L)))) (_ : OhOk X d L G 0 1 g),
      ∀ i ∈ oSet (widL L) (planeOf G hG 0) 1,
        landO d L ((oV).slice (Rect.unit (s := S409600x128) off S32x128.size inb) (fun _ => rfl)) oh01 fd g i = outLinF (X d) i
  l10 : ∀ (G : ℕ) (hG : G < 50) (off : Fin 2 → ℕ) (inb : ∀ a, off a + S32x128.size a ≤ S409600x128.size a)
      (_ : off = ![(planeOf G hG 1).val * 2048 + (0 : Fin 2).val * 1024 + (widL L).val * 32, 0])
      (fd : Buf (Elt F) (((oV).slice (Rect.unit (s := S409600x128) off S32x128.size inb) (fun _ => rfl)).view.loc (V d (cV L) (jV L))))
      (g : Buf (Elt F) ((oh10).view.loc (V d (cV L) (jV L)))) (_ : OhOk X d L G 1 0 g),
      ∀ i ∈ oSet (widL L) (planeOf G hG 1) 0,
        landO d L ((oV).slice (Rect.unit (s := S409600x128) off S32x128.size inb) (fun _ => rfl)) oh10 fd g i = outLinF (X d) i
  l11 : ∀ (G : ℕ) (hG : G < 50) (off : Fin 2 → ℕ) (inb : ∀ a, off a + S32x128.size a ≤ S409600x128.size a)
      (_ : off = ![(planeOf G hG 1).val * 2048 + (1 : Fin 2).val * 1024 + (widL L).val * 32, 0])
      (fd : Buf (Elt F) (((oV).slice (Rect.unit (s := S409600x128) off S32x128.size inb) (fun _ => rfl)).view.loc (V d (cV L) (jV L))))
      (g : Buf (Elt F) ((oh11).view.loc (V d (cV L) (jV L)))) (_ : OhOk X d L G 1 1 g),
      ∀ i ∈ oSet (widL L) (planeOf G hG 1) 1,
        landO d L ((oV).slice (Rect.unit (s := S409600x128) off S32x128.size inb) (fun _ => rfl)) oh11 fd g i = outLinF (X d) i
  l20 : ∀ (G : ℕ) (hG : G < 50) (off : Fin 2 → ℕ) (inb : ∀ a, off a + S32x128.size a ≤ S409600x128.size a)
      (_ : off = ![(planeOf G hG 2).val * 2048 + (0 : Fin 2).val * 1024 + (widL L).val * 32, 0])
      (fd : Buf (Elt F) (((oV).slice (Rect.unit (s := S409600x128) off S32x128.size inb) (fun _ => rfl)).view.loc (V d (cV L) (jV L))))
      (g : Buf (Elt F) ((oh20).view.loc (V d (cV L) (jV L)))) (_ : OhOk X d L G 2 0 g),
      ∀ i ∈ oSet (widL L) (planeOf G hG 2) 0,
        landO d L ((oV).slice (Rect.unit (s := S409600x128) off S32x128.size inb) (fun _ => rfl)) oh20 fd g i = outLinF (X d) i
  l21 : ∀ (G : ℕ) (hG : G < 50) (off : Fin 2 → ℕ) (inb : ∀ a, off a + S32x128.size a ≤ S409600x128.size a)
      (_ : off = ![(planeOf G hG 2).val * 2048 + (1 : Fin 2).val * 1024 + (widL L).val * 32, 0])
      (fd : Buf (Elt F) (((oV).slice (Rect.unit (s := S409600x128) off S32x128.size inb) (fun _ => rfl)).view.loc (V d (cV L) (jV L))))
      (g : Buf (Elt F) ((oh21).view.loc (V d (cV L) (jV L)))) (_ : OhOk X d L G 2 1 g),
      ∀ i ∈ oSet (widL L) (planeOf G hG 2) 1,
        landO d L ((oV).slice (Rect.unit (s := S409600x128) off S32x128.size inb) (fun _ => rfl)) oh21 fd g i = outLinF (X d) i
  l30 : ∀ (G : ℕ) (hG : G < 50) (off : Fin 2 → ℕ) (inb : ∀ a, off a + S32x128.size a ≤ S409600x128.size a)
      (_ : off = ![(planeOf G hG 3).val * 2048 + (0 : Fin 2).val * 1024 + (widL L).val * 32, 0])
      (fd : Buf (Elt F) (((oV).slice (Rect.unit (s := S409600x128) off S32x128.size inb) (fun _ => rfl)).view.loc (V d (cV L) (jV L))))
      (g : Buf (Elt F) ((oh30).view.loc (V d (cV L) (jV L)))) (_ : OhOk X d L G 3 0 g),
      ∀ i ∈ oSet (widL L) (planeOf G hG 3) 0,
        landO d L ((oV).slice (Rect.unit (s := S409600x128) off S32x128.size inb) (fun _ => rfl)) oh30 fd g i = outLinF (X d) i
  l31 : ∀ (G : ℕ) (hG : G < 50) (off : Fin 2 → ℕ) (inb : ∀ a, off a + S32x128.size a ≤ S409600x128.size a)
      (_ : off = ![(planeOf G hG 3).val * 2048 + (1 : Fin 2).val * 1024 + (widL L).val * 32, 0])
      (fd : Buf (Elt F) (((oV).slice (Rect.unit (s := S409600x128) off S32x128.size inb) (fun _ => rfl)).view.loc (V d (cV L) (jV L))))
      (g : Buf (Elt F) ((oh31).view.loc (V d (cV L) (jV L)))) (_ : OhOk X d L G 3 1 g),
      ∀ i ∈ oSet (widL L) (planeOf G hG 3) 1,
        landO d L ((oV).slice (Rect.unit (s := S409600x128) off S32x128.size inb) (fun _ => rfl)) oh31 fd g i = outLinF (X d) i

end Cert.Kernel.Hand

end
-- ==== Proof.TilePreK.lean ====
/-
  Small facts the outer trip's proof cites: the printed conditions decided, the printed slices of o identified with
  the tile's slices, a landed copy out restated as the kernel's value, a fetch in flight restated.
-/
import proofs.«209186_g8847632630064_cont_9to1c4b_396_28_alg».proof.Proof.CommonK
import proofs.«209186_g8847632630064_cont_9to1c4b_396_28_alg».proof.Proof.TileBufsK
import proofs.«209186_g8847632630064_cont_9to1c4b_396_28_alg».proof.Proof.TileSlicesK
import proofs.«209186_g8847632630064_cont_9to1c4b_396_28_alg».proof.Proof.TileInvK

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop shareTokN)
open Idealize.ShloMosaic.Tactic

variable {F : FTy → Type}

local notation "𝕄" => MT nD τ sig (HIx 1) (Elt F) ℕ UU ℕ

variable [FloatOps F]
variable (X : (d : Dev nD) → Buf (Elt F) (x3Loc d))
variable (d : Dev nD) (L : grid0.Coords)

open Idealize.ShloMosaic.ValueIdx

/-! ## The printed conditions, decided -/
theorem cond1_pos : ∀ t : Fin k0_t1_loop.trips, 1 ≤ t.val → k0_cond1 t = 1#1 := by decide
theorem cond1_zero : ∀ t : Fin k0_t1_loop.trips, t.val = 0 → ¬ k0_cond1 t = 1#1 := by decide
theorem cond2_pos : ∀ t : Fin k0_t1_loop.trips, 1 ≤ t.val → k0_cond2 t = 1#1 := by decide
theorem cond2_zero : ∀ t : Fin k0_t1_loop.trips, t.val = 0 → ¬ k0_cond2 t = 1#1 := by decide
theorem cond3_pos : ∀ t : Fin k0_t1_loop.trips, 1 ≤ t.val → k0_cond3 t = 1#1 := by decide
theorem cond3_zero : ∀ t : Fin k0_t1_loop.trips, t.val = 0 → ¬ k0_cond3 t = 1#1 := by decide
theorem cond4_pos : ∀ t : Fin k0_t1_loop.trips, 1 ≤ t.val → k0_cond4 t = 1#1 := by decide
theorem cond4_zero : ∀ t : Fin k0_t1_loop.trips, t.val = 0 → ¬ k0_cond4 t = 1#1 := by decide
theorem cond6_all : ∀ t : Fin k0_t1_loop.trips, k0_cond6 t = 1#1 := by decide
theorem cond7_all : ∀ t : Fin k0_t1_loop.trips, k0_cond7 t = 1#1 := by decide
theorem cond8_all : ∀ t : Fin k0_t1_loop.trips, k0_cond8 t = 1#1 := by decide
theorem cond9_all : ∀ t : Fin k0_t1_loop.trips, k0_cond9 t = 1#1 := by decide
theorem cond5_lt : ∀ t : Fin k0_t1_loop.trips, t.val < 24 → k0_cond5 t = 1#1 := by decide
theorem cond5_last : ∀ t : Fin k0_t1_loop.trips, ¬ t.val < 24 → ¬ k0_cond5 t = 1#1 := by decide
theorem cond10_lt : ∀ t : Fin k0_t1_loop.trips, t.val < 24 → k0_cond10 t = 1#1 := by decide
theorem cond10_last : ∀ t : Fin k0_t1_loop.trips, ¬ t.val < 24 → ¬ k0_cond10 t = 1#1 := by decide

/-- A wait recorded at the index of the kernel's own transfers keeps the record of waits admissible. -/
theorem wok_insert {W W' : Waits sig (HIx 1)} {sm : SemLoc sig} (h : ∀ p ∈ W', p ∈ W ∨ p.2 = none) :
    ∀ p ∈ insert (sm, (none : HIx 1)) W', p ∈ W ∨ p.2 = none := by
  intro p hp
  rcases Finset.mem_insert.mp hp with rfl | hp
  · exact .inr rfl
  · exact h p hp

/-! ## The printed slices of o are the tile's slices -/
omit [FloatOps F] in
theorem pts_oA00 (t : Fin k0_t1_loop.trips) (f : Buf (Elt F) ((oA00 L t).view.loc (V d (cV L) (jV L)))) :
    ((oA00 L t).view.loc (V d (cV L) (jV L)) ↦[(oA00 L t).view.set]{fullShare} f : sProp 𝕄)
      = oLoc d ↦[oSet (widL L) (planeOf (2 * t.val) (even_group_lt t) 0) 0]{fullShare} f := by
  rw [show (oA00 L t).view.set = oSet (widL L) (planeOf (2 * t.val) (even_group_lt t) 0) 0 from set_oSlice (k0_off8_inb L t 0) (widL L) _ 0 (hoff8 L t 0)]
theorem done_oA00 (hO : LandO X d L) (t : Fin k0_t1_loop.trips) (f : Buf (Elt F) ((oA00 L t).view.loc (V d (cV L) (jV L))))
    (g : Buf (Elt F) ((oh00).view.loc (V d (cV L) (jV L)))) (hok : OhOk X d L (2 * t.val) 0 0 g) :
    ((oA00 L t).view.loc (V d (cV L) (jV L)) ↦[(oA00 L t).view.set]{fullShare} landO d L (oA00 L t) oh00 f g : sProp 𝕄)
      = oLoc d ↦[oSet (widL L) (planeOf (2 * t.val) (even_group_lt t) 0) 0]{fullShare} outLinF (X d) := by
  rw [show (oA00 L t).view.set = oSet (widL L) (planeOf (2 * t.val) (even_group_lt t) 0) 0 from set_oSlice (k0_off8_inb L t 0) (widL L) _ 0 (hoff8 L t 0)]
  exact pointsTo_congr (hO.l00 (2 * t.val) (even_group_lt t) _ (k0_off8_inb L t 0) (hoff8 L t 0) f g hok)
omit [FloatOps F] in
theorem pts_oB00 (t : Fin k0_t1_loop.trips) (f : Buf (Elt F) ((oB00 L t).view.loc (V d (cV L) (jV L)))) :
    ((oB00 L t).view.loc (V d (cV L) (jV L)) ↦[(oB00 L t).view.set]{fullShare} f : sProp 𝕄)
      = oLoc d ↦[oSet (widL L) (planeOf (2 * t.val + 1) (odd_group_lt t) 0) 0]{fullShare} f := by
  rw [show (oB00 L t).view.set = oSet (widL L) (planeOf (2 * t.val + 1) (odd_group_lt t) 0) 0 from set_oSlice (k0_off28_inb L t 0) (widL L) _ 0 (hoff28 L t 0)]
theorem done_oB00 (hO : LandO X d L) (t : Fin k0_t1_loop.trips) (f : Buf (Elt F) ((oB00 L t).view.loc (V d (cV L) (jV L))))
    (g : Buf (Elt F) ((oh00).view.loc (V d (cV L) (jV L)))) (hok : OhOk X d L (2 * t.val + 1) 0 0 g) :
    ((oB00 L t).view.loc (V d (cV L) (jV L)) ↦[(oB00 L t).view.set]{fullShare} landO d L (oB00 L t) oh00 f g : sProp 𝕄)
      = oLoc d ↦[oSet (widL L) (planeOf (2 * t.val + 1) (odd_group_lt t) 0) 0]{fullShare} outLinF (X d) := by
  rw [show (oB00 L t).view.set = oSet (widL L) (planeOf (2 * t.val + 1) (odd_group_lt t) 0) 0 from set_oSlice (k0_off28_inb L t 0) (widL L) _ 0 (hoff28 L t 0)]
  exact pointsTo_congr (hO.l00 (2 * t.val + 1) (odd_group_lt t) _ (k0_off28_inb L t 0) (hoff28 L t 0) f g hok)
omit [FloatOps F] in
theorem pts_oA01 (t : Fin k0_t1_loop.trips) (f : Buf (Elt F) ((oA01 L t).view.loc (V d (cV L) (jV L)))) :
    ((oA01 L t).view.loc (V d (cV L) (jV L)) ↦[(oA01 L t).view.set]{fullShare} f : sProp 𝕄)
      = oLoc d ↦[oSet (widL L) (planeOf (2 * t.val) (even_group_lt t) 0) 1]{fullShare} f := by
  rw [show (oA01 L t).view.set = oSet (widL L) (planeOf (2 * t.val) (even_group_lt t) 0) 1 from set_oSlice (k0_off9_inb L t 0) (widL L) _ 1 (hoff9 L t 0)]
theorem done_oA01 (hO : LandO X d L) (t : Fin k0_t1_loop.trips) (f : Buf (Elt F) ((oA01 L t).view.loc (V d (cV L) (jV L))))
    (g : Buf (Elt F) ((oh01).view.loc (V d (cV L) (jV L)))) (hok : OhOk X d L (2 * t.val) 0 1 g) :
    ((oA01 L t).view.loc (V d (cV L) (jV L)) ↦[(oA01 L t).view.set]{fullShare} landO d L (oA01 L t) oh01 f g : sProp 𝕄)
      = oLoc d ↦[oSet (widL L) (planeOf (2 * t.val) (even_group_lt t) 0) 1]{fullShare} outLinF (X d) := by
  rw [show (oA01 L t).view.set = oSet (widL L) (planeOf (2 * t.val) (even_group_lt t) 0) 1 from set_oSlice (k0_off9_inb L t 0) (widL L) _ 1 (hoff9 L t 0)]
  exact pointsTo_congr (hO.l01 (2 * t.val) (even_group_lt t) _ (k0_off9_inb L t 0) (hoff9 L t 0) f g hok)
omit [FloatOps F] in
theorem pts_oB01 (t : Fin k0_t1_loop.trips) (f : Buf (Elt F) ((oB01 L t).view.loc (V d (cV L) (jV L)))) :
    ((oB01 L t).view.loc (V d (cV L) (jV L)) ↦[(oB01 L t).view.set]{fullShare} f : sProp 𝕄)
      = oLoc d ↦[oSet (widL L) (planeOf (2 * t.val + 1) (odd_group_lt t) 0) 1]{fullShare} f := by
  rw [show (oB01 L t).view.set = oSet (widL L) (planeOf (2 * t.val + 1) (odd_group_lt t) 0) 1 from set_oSlice (k0_off29_inb L t 0) (widL L) _ 1 (hoff29 L t 0)]
theorem done_oB01 (hO : LandO X d L) (t : Fin k0_t1_loop.trips) (f : Buf (Elt F) ((oB01 L t).view.loc (V d (cV L) (jV L))))
    (g : Buf (Elt F) ((oh01).view.loc (V d (cV L) (jV L)))) (hok : OhOk X d L (2 * t.val + 1) 0 1 g) :
    ((oB01 L t).view.loc (V d (cV L) (jV L)) ↦[(oB01 L t).view.set]{fullShare} landO d L (oB01 L t) oh01 f g : sProp 𝕄)
      = oLoc d ↦[oSet (widL L) (planeOf (2 * t.val + 1) (odd_group_lt t) 0) 1]{fullShare} outLinF (X d) := by
  rw [show (oB01 L t).view.set = oSet (widL L) (planeOf (2 * t.val + 1) (odd_group_lt t) 0) 1 from set_oSlice (k0_off29_inb L t 0) (widL L) _ 1 (hoff29 L t 0)]
  exact pointsTo_congr (hO.l01 (2 * t.val + 1) (odd_group_lt t) _ (k0_off29_inb L t 0) (hoff29 L t 0) f g hok)
omit [FloatOps F] in
theorem pts_oA10 (t : Fin k0_t1_loop.trips) (f : Buf (Elt F) ((oA10 L t).view.loc (V d (cV L) (jV L)))) :
    ((oA10 L t).view.loc (V d (cV L) (jV L)) ↦[(oA10 L t).view.set]{fullShare} f : sProp 𝕄)
      = oLoc d ↦[oSet (widL L) (planeOf (2 * t.val) (even_group_lt t) 1) 0]{fullShare} f := by
  rw [show (oA10 L t).view.set = oSet (widL L) (planeOf (2 * t.val) (even_group_lt t) 1) 0 from set_oSlice (k0_off8_inb L t 1) (widL L) _ 0 (hoff8 L t 1)]
theorem done_oA10 (hO : LandO X d L) (t : Fin k0_t1_loop.trips) (f : Buf (Elt F) ((oA10 L t).view.loc (V d (cV L) (jV L))))
    (g : Buf (Elt F) ((oh10).view.loc (V d (cV L) (jV L)))) (hok : OhOk X d L (2 * t.val) 1 0 g) :
    ((oA10 L t).view.loc (V d (cV L) (jV L)) ↦[(oA10 L t).view.set]{fullShare} landO d L (oA10 L t) oh10 f g : sProp 𝕄)
      = oLoc d ↦[oSet (widL L) (planeOf (2 * t.val) (even_group_lt t) 1) 0]{fullShare} outLinF (X d) := by
  rw [show (oA10 L t).view.set = oSet (widL L) (planeOf (2 * t.val) (even_group_lt t) 1) 0 from set_oSlice (k0_off8_inb L t 1) (widL L) _ 0 (hoff8 L t 1)]
  exact pointsTo_congr (hO.l10 (2 * t.val) (even_group_lt t) _ (k0_off8_inb L t 1) (hoff8 L t 1) f g hok)
omit [FloatOps F] in
theorem pts_oB10 (t : Fin k0_t1_loop.trips) (f : Buf (Elt F) ((oB10 L t).view.loc (V d (cV L) (jV L)))) :
    ((oB10 L t).view.loc (V d (cV L) (jV L)) ↦[(oB10 L t).view.set]{fullShare} f : sProp 𝕄)
      = oLoc d ↦[oSet (widL L) (planeOf (2 * t.val + 1) (odd_group_lt t) 1) 0]{fullShare} f := by
  rw [show (oB10 L t).view.set = oSet (widL L) (planeOf (2 * t.val + 1) (odd_group_lt t) 1) 0 from set_oSlice (k0_off28_inb L t 1) (widL L) _ 0 (hoff28 L t 1)]
theorem done_oB10 (hO : LandO X d L) (t : Fin k0_t1_loop.trips) (f : Buf (Elt F) ((oB10 L t).view.loc (V d (cV L) (jV L))))
    (g : Buf (Elt F) ((oh10).view.loc (V d (cV L) (jV L)))) (hok : OhOk X d L (2 * t.val + 1) 1 0 g) :
    ((oB10 L t).view.loc (V d (cV L) (jV L)) ↦[(oB10 L t).view.set]{fullShare} landO d L (oB10 L t) oh10 f g : sProp 𝕄)
      = oLoc d ↦[oSet (widL L) (planeOf (2 * t.val + 1) (odd_group_lt t) 1) 0]{fullShare} outLinF (X d) := by
  rw [show (oB10 L t).view.set = oSet (widL L) (planeOf (2 * t.val + 1) (odd_group_lt t) 1) 0 from set_oSlice (k0_off28_inb L t 1) (widL L) _ 0 (hoff28 L t 1)]
  exact pointsTo_congr (hO.l10 (2 * t.val + 1) (odd_group_lt t) _ (k0_off28_inb L t 1) (hoff28 L t 1) f g hok)
omit [FloatOps F] in
theorem pts_oA11 (t : Fin k0_t1_loop.trips) (f : Buf (Elt F) ((oA11 L t).view.loc (V d (cV L) (jV L)))) :
    ((oA11 L t).view.loc (V d (cV L) (jV L)) ↦[(oA11 L t).view.set]{fullShare} f : sProp 𝕄)
      = oLoc d ↦[oSet (widL L) (planeOf (2 * t.val) (even_group_lt t) 1) 1]{fullShare} f := by
  rw [show (oA11 L t).view.set = oSet (widL L) (planeOf (2 * t.val) (even_group_lt t) 1) 1 from set_oSlice (k0_off9_inb L t 1) (widL L) _ 1 (hoff9 L t 1)]
theorem done_oA11 (hO : LandO X d L) (t : Fin k0_t1_loop.trips) (f : Buf (Elt F) ((oA11 L t).view.loc (V d (cV L) (jV L))))
    (g : Buf (Elt F) ((oh11).view.loc (V d (cV L) (jV L)))) (hok : OhOk X d L (2 * t.val) 1 1 g) :
    ((oA11 L t).view.loc (V d (cV L) (jV L)) ↦[(oA11 L t).view.set]{fullShare} landO d L (oA11 L t) oh11 f g : sProp 𝕄)
      = oLoc d ↦[oSet (widL L) (planeOf (2 * t.val) (even_group_lt t) 1) 1]{fullShare} outLinF (X d) := by
  rw [show (oA11 L t).view.set = oSet (widL L) (planeOf (2 * t.val) (even_group_lt t) 1) 1 from set_oSlice (k0_off9_inb L t 1) (widL L) _ 1 (hoff9 L t 1)]
  exact pointsTo_congr (hO.l11 (2 * t.val) (even_group_lt t) _ (k0_off9_inb L t 1) (hoff9 L t 1) f g hok)
omit [FloatOps F] in
theorem pts_oB11 (t : Fin k0_t1_loop.trips) (f : Buf (Elt F) ((oB11 L t).view.loc (V d (cV L) (jV L)))) :
    ((oB11 L t).view.loc (V d (cV L) (jV L)) ↦[(oB11 L t).view.set]{fullShare} f : sProp 𝕄)
      = oLoc d ↦[oSet (widL L) (planeOf (2 * t.val + 1) (odd_group_lt t) 1) 1]{fullShare} f := by
  rw [show (oB11 L t).view.set = oSet (widL L) (planeOf (2 * t.val + 1) (odd_group_lt t) 1) 1 from set_oSlice (k0_off29_inb L t 1) (widL L) _ 1 (hoff29 L t 1)]
theorem done_oB11 (hO : LandO X d L) (t : Fin k0_t1_loop.trips) (f : Buf (Elt F) ((oB11 L t).view.loc (V d (cV L) (jV L))))
    (g : Buf (Elt F) ((oh11).view.loc (V d (cV L) (jV L)))) (hok : OhOk X d L (2 * t.val + 1) 1 1 g) :
    ((oB11 L t).view.loc (V d (cV L) (jV L)) ↦[(oB11 L t).view.set]{fullShare} landO d L (oB11 L t) oh11 f g : sProp 𝕄)
      = oLoc d ↦[oSet (widL L) (planeOf (2 * t.val + 1) (odd_group_lt t) 1) 1]{fullShare} outLinF (X d) := by
  rw [show (oB11 L t).view.set = oSet (widL L) (planeOf (2 * t.val + 1) (odd_group_lt t) 1) 1 from set_oSlice (k0_off29_inb L t 1) (widL L) _ 1 (hoff29 L t 1)]
  exact pointsTo_congr (hO.l11 (2 * t.val + 1) (odd_group_lt t) _ (k0_off29_inb L t 1) (hoff29 L t 1) f g hok)
omit [FloatOps F] in
theorem pts_oA20 (t : Fin k0_t1_loop.trips) (f : Buf (Elt F) ((oA20 L t).view.loc (V d (cV L) (jV L)))) :
    ((oA20 L t).view.loc (V d (cV L) (jV L)) ↦[(oA20 L t).view.set]{fullShare} f : sProp 𝕄)
      = oLoc d ↦[oSet (widL L) (planeOf (2 * t.val) (even_group_lt t) 2) 0]{fullShare} f := by
  rw [show (oA20 L t).view.set = oSet (widL L) (planeOf (2 * t.val) (even_group_lt t) 2) 0 from set_oSlice (k0_off8_inb L t 2) (widL L) _ 0 (hoff8 L t 2)]
theorem done_oA20 (hO : LandO X d L) (t : Fin k0_t1_loop.trips) (f : Buf (Elt F) ((oA20 L t).view.loc (V d (cV L) (jV L))))
    (g : Buf (Elt F) ((oh20).view.loc (V d (cV L) (jV L)))) (hok : OhOk X d L (2 * t.val) 2 0 g) :
    ((oA20 L t).view.loc (V d (cV L) (jV L)) ↦[(oA20 L t).view.set]{fullShare} landO d L (oA20 L t) oh20 f g : sProp 𝕄)
      = oLoc d ↦[oSet (widL L) (planeOf (2 * t.val) (even_group_lt t) 2) 0]{fullShare} outLinF (X d) := by
  rw [show (oA20 L t).view.set = oSet (widL L) (planeOf (2 * t.val) (even_group_lt t) 2) 0 from set_oSlice (k0_off8_inb L t 2) (widL L) _ 0 (hoff8 L t 2)]
  exact pointsTo_congr (hO.l20 (2 * t.val) (even_group_lt t) _ (k0_off8_inb L t 2) (hoff8 L t 2) f g hok)
omit [FloatOps F] in
theorem pts_oB20 (t : Fin k0_t1_loop.trips) (f : Buf (Elt F) ((oB20 L t).view.loc (V d (cV L) (jV L)))) :
    ((oB20 L t).view.loc (V d (cV L) (jV L)) ↦[(oB20 L t).view.set]{fullShare} f : sProp 𝕄)
      = oLoc d ↦[oSet (widL L) (planeOf (2 * t.val + 1) (odd_group_lt t) 2) 0]{fullShare} f := by
  rw [show (oB20 L t).view.set = oSet (widL L) (planeOf (2 * t.val + 1) (odd_group_lt t) 2) 0 from set_oSlice (k0_off28_inb L t 2) (widL L) _ 0 (hoff28 L t 2)]
theorem done_oB20 (hO : LandO X d L) (t : Fin k0_t1_loop.trips) (f : Buf (Elt F) ((oB20 L t).view.loc (V d (cV L) (jV L))))
    (g : Buf (Elt F) ((oh20).view.loc (V d (cV L) (jV L)))) (hok : OhOk X d L (2 * t.val + 1) 2 0 g) :
    ((oB20 L t).view.loc (V d (cV L) (jV L)) ↦[(oB20 L t).view.set]{fullShare} landO d L (oB20 L t) oh20 f g : sProp 𝕄)
      = oLoc d ↦[oSet (widL L) (planeOf (2 * t.val + 1) (odd_group_lt t) 2) 0]{fullShare} outLinF (X d) := by
  rw [show (oB20 L t).view.set = oSet (widL L) (planeOf (2 * t.val + 1) (odd_group_lt t) 2) 0 from set_oSlice (k0_off28_inb L t 2) (widL L) _ 0 (hoff28 L t 2)]
  exact pointsTo_congr (hO.l20 (2 * t.val + 1) (odd_group_lt t) _ (k0_off28_inb L t 2) (hoff28 L t 2) f g hok)
omit [FloatOps F] in
theorem pts_oA21 (t : Fin k0_t1_loop.trips) (f : Buf (Elt F) ((oA21 L t).view.loc (V d (cV L) (jV L)))) :
    ((oA21 L t).view.loc (V d (cV L) (jV L)) ↦[(oA21 L t).view.set]{fullShare} f : sProp 𝕄)
      = oLoc d ↦[oSet (widL L) (planeOf (2 * t.val) (even_group_lt t) 2) 1]{fullShare} f := by
  rw [show (oA21 L t).view.set = oSet (widL L) (planeOf (2 * t.val) (even_group_lt t) 2) 1 from set_oSlice (k0_off9_inb L t 2) (widL L) _ 1 (hoff9 L t 2)]
theorem done_oA21 (hO : LandO X d L) (t : Fin k0_t1_loop.trips) (f : Buf (Elt F) ((oA21 L t).view.loc (V d (cV L) (jV L))))
    (g : Buf (Elt F) ((oh21).view.loc (V d (cV L) (jV L)))) (hok : OhOk X d L (2 * t.val) 2 1 g) :
    ((oA21 L t).view.loc (V d (cV L) (jV L)) ↦[(oA21 L t).view.set]{fullShare} landO d L (oA21 L t) oh21 f g : sProp 𝕄)
      = oLoc d ↦[oSet (widL L) (planeOf (2 * t.val) (even_group_lt t) 2) 1]{fullShare} outLinF (X d) := by
  rw [show (oA21 L t).view.set = oSet (widL L) (planeOf (2 * t.val) (even_group_lt t) 2) 1 from set_oSlice (k0_off9_inb L t 2) (widL L) _ 1 (hoff9 L t 2)]
  exact pointsTo_congr (hO.l21 (2 * t.val) (even_group_lt t) _ (k0_off9_inb L t 2) (hoff9 L t 2) f g hok)
omit [FloatOps F] in
theorem pts_oB21 (t : Fin k0_t1_loop.trips) (f : Buf (Elt F) ((oB21 L t).view.loc (V d (cV L) (jV L)))) :
    ((oB21 L t).view.loc (V d (cV L) (jV L)) ↦[(oB21 L t).view.set]{fullShare} f : sProp 𝕄)
      = oLoc d ↦[oSet (widL L) (planeOf (2 * t.val + 1) (odd_group_lt t) 2) 1]{fullShare} f := by
  rw [show (oB21 L t).view.set = oSet (widL L) (planeOf (2 * t.val + 1) (odd_group_lt t) 2) 1 from set_oSlice (k0_off29_inb L t 2) (widL L) _ 1 (hoff29 L t 2)]
theorem done_oB21 (hO : LandO X d L) (t : Fin k0_t1_loop.trips) (f : Buf (Elt F) ((oB21 L t).view.loc (V d (cV L) (jV L))))
    (g : Buf (Elt F) ((oh21).view.loc (V d (cV L) (jV L)))) (hok : OhOk X d L (2 * t.val + 1) 2 1 g) :
    ((oB21 L t).view.loc (V d (cV L) (jV L)) ↦[(oB21 L t).view.set]{fullShare} landO d L (oB21 L t) oh21 f g : sProp 𝕄)
      = oLoc d ↦[oSet (widL L) (planeOf (2 * t.val + 1) (odd_group_lt t) 2) 1]{fullShare} outLinF (X d) := by
  rw [show (oB21 L t).view.set = oSet (widL L) (planeOf (2 * t.val + 1) (odd_group_lt t) 2) 1 from set_oSlice (k0_off29_inb L t 2) (widL L) _ 1 (hoff29 L t 2)]
  exact pointsTo_congr (hO.l21 (2 * t.val + 1) (odd_group_lt t) _ (k0_off29_inb L t 2) (hoff29 L t 2) f g hok)
omit [FloatOps F] in
theorem pts_oA30 (t : Fin k0_t1_loop.trips) (f : Buf (Elt F) ((oA30 L t).view.loc (V d (cV L) (jV L)))) :
    ((oA30 L t).view.loc (V d (cV L) (jV L)) ↦[(oA30 L t).view.set]{fullShare} f : sProp 𝕄)
      = oLoc d ↦[oSet (widL L) (planeOf (2 * t.val) (even_group_lt t) 3) 0]{fullShare} f := by
  rw [show (oA30 L t).view.set = oSet (widL L) (planeOf (2 * t.val) (even_group_lt t) 3) 0 from set_oSlice (k0_off8_inb L t 3) (widL L) _ 0 (hoff8 L t 3)]
theorem done_oA30 (hO : LandO X d L) (t : Fin k0_t1_loop.trips) (f : Buf (Elt F) ((oA30 L t).view.loc (V d (cV L) (jV L))))
    (g : Buf (Elt F) ((oh30).view.loc (V d (cV L) (jV L)))) (hok : OhOk X d L (2 * t.val) 3 0 g) :
    ((oA30 L t).view.loc (V d (cV L) (jV L)) ↦[(oA30 L t).view.set]{fullShare} landO d L (oA30 L t) oh30 f g : sProp 𝕄)
      = oLoc d ↦[oSet (widL L) (planeOf (2 * t.val) (even_group_lt t) 3) 0]{fullShare} outLinF (X d) := by
  rw [show (oA30 L t).view.set = oSet (widL L) (planeOf (2 * t.val) (even_group_lt t) 3) 0 from set_oSlice (k0_off8_inb L t 3) (widL L) _ 0 (hoff8 L t 3)]
  exact pointsTo_congr (hO.l30 (2 * t.val) (even_group_lt t) _ (k0_off8_inb L t 3) (hoff8 L t 3) f g hok)
omit [FloatOps F] in
theorem pts_oB30 (t : Fin k0_t1_loop.trips) (f : Buf (Elt F) ((oB30 L t).view.loc (V d (cV L) (jV L)))) :
    ((oB30 L t).view.loc (V d (cV L) (jV L)) ↦[(oB30 L t).view.set]{fullShare} f : sProp 𝕄)
      = oLoc d ↦[oSet (widL L) (planeOf (2 * t.val + 1) (odd_group_lt t) 3) 0]{fullShare} f := by
  rw [show (oB30 L t).view.set = oSet (widL L) (planeOf (2 * t.val + 1) (odd_group_lt t) 3) 0 from set_oSlice (k0_off28_inb L t 3) (widL L) _ 0 (hoff28 L t 3)]
theorem done_oB30 (hO : LandO X d L) (t : Fin k0_t1_loop.trips) (f : Buf (Elt F) ((oB30 L t).view.loc (V d (cV L) (jV L))))
    (g : Buf (Elt F) ((oh30).view.loc (V d (cV L) (jV L)))) (hok : OhOk X d L (2 * t.val + 1) 3 0 g) :
    ((oB30 L t).view.loc (V d (cV L) (jV L)) ↦[(oB30 L t).view.set]{fullShare} landO d L (oB30 L t) oh30 f g : sProp 𝕄)
      = oLoc d ↦[oSet (widL L) (planeOf (2 * t.val + 1) (odd_group_lt t) 3) 0]{fullShare} outLinF (X d) := by
  rw [show (oB30 L t).view.set = oSet (widL L) (planeOf (2 * t.val + 1) (odd_group_lt t) 3) 0 from set_oSlice (k0_off28_inb L t 3) (widL L) _ 0 (hoff28 L t 3)]
  exact pointsTo_congr (hO.l30 (2 * t.val + 1) (odd_group_lt t) _ (k0_off28_inb L t 3) (hoff28 L t 3) f g hok)
omit [FloatOps F] in
theorem pts_oA31 (t : Fin k0_t1_loop.trips) (f : Buf (Elt F) ((oA31 L t).view.loc (V d (cV L) (jV L)))) :
    ((oA31 L t).view.loc (V d (cV L) (jV L)) ↦[(oA31 L t).view.set]{fullShare} f : sProp 𝕄)
      = oLoc d ↦[oSet (widL L) (planeOf (2 * t.val) (even_group_lt t) 3) 1]{fullShare} f := by
  rw [show (oA31 L t).view.set = oSet (widL L) (planeOf (2 * t.val) (even_group_lt t) 3) 1 from set_oSlice (k0_off9_inb L t 3) (widL L) _ 1 (hoff9 L t 3)]
theorem done_oA31 (hO : LandO X d L) (t : Fin k0_t1_loop.trips) (f : Buf (Elt F) ((oA31 L t).view.loc (V d (cV L) (jV L))))
    (g : Buf (Elt F) ((oh31).view.loc (V d (cV L) (jV L)))) (hok : OhOk X d L (2 * t.val) 3 1 g) :
    ((oA31 L t).view.loc (V d (cV L) (jV L)) ↦[(oA31 L t).view.set]{fullShare} landO d L (oA31 L t) oh31 f g : sProp 𝕄)
      = oLoc d ↦[oSet (widL L) (planeOf (2 * t.val) (even_group_lt t) 3) 1]{fullShare} outLinF (X d) := by
  rw [show (oA31 L t).view.set = oSet (widL L) (planeOf (2 * t.val) (even_group_lt t) 3) 1 from set_oSlice (k0_off9_inb L t 3) (widL L) _ 1 (hoff9 L t 3)]
  exact pointsTo_congr (hO.l31 (2 * t.val) (even_group_lt t) _ (k0_off9_inb L t 3) (hoff9 L t 3) f g hok)
omit [FloatOps F] in
theorem pts_oB31 (t : Fin k0_t1_loop.trips) (f : Buf (Elt F) ((oB31 L t).view.loc (V d (cV L) (jV L)))) :
    ((oB31 L t).view.loc (V d (cV L) (jV L)) ↦[(oB31 L t).view.set]{fullShare} f : sProp 𝕄)
      = oLoc d ↦[oSet (widL L) (planeOf (2 * t.val + 1) (odd_group_lt t) 3) 1]{fullShare} f := by
  rw [show (oB31 L t).view.set = oSet (widL L) (planeOf (2 * t.val + 1) (odd_group_lt t) 3) 1 from set_oSlice (k0_off29_inb L t 3) (widL L) _ 1 (hoff29 L t 3)]
theorem done_oB31 (hO : LandO X d L) (t : Fin k0_t1_loop.trips) (f : Buf (Elt F) ((oB31 L t).view.loc (V d (cV L) (jV L))))
    (g : Buf (Elt F) ((oh31).view.loc (V d (cV L) (jV L)))) (hok : OhOk X d L (2 * t.val + 1) 3 1 g) :
    ((oB31 L t).view.loc (V d (cV L) (jV L)) ↦[(oB31 L t).view.set]{fullShare} landO d L (oB31 L t) oh31 f g : sProp 𝕄)
      = oLoc d ↦[oSet (widL L) (planeOf (2 * t.val + 1) (odd_group_lt t) 3) 1]{fullShare} outLinF (X d) := by
  rw [show (oB31 L t).view.set = oSet (widL L) (planeOf (2 * t.val + 1) (odd_group_lt t) 3) 1 from set_oSlice (k0_off29_inb L t 3) (widL L) _ 1 (hoff29 L t 3)]
  exact pointsTo_congr (hO.l31 (2 * t.val + 1) (odd_group_lt t) _ (k0_off29_inb L t 3) (hoff29 L t 3) f g hok)

/-! ## A fetch in flight, its delivery restated -/

theorem flight_ok0 {N : ℕ} {sm : SemLoc sig} {ι : HIx 1} (G : ℕ) (g : Buf (Elt F) ((xs0).view.loc (V d (cV L) (jV L)))) (hg : XsOk X d L G 0 g) (Ds : sProp 𝕄) :
    Transfers.Flight (countersEmb (U := UU)) (V d (cV L) (jV L)) sm ι N iprop(((xs0).view.loc (V d (cV L) (jV L)) ↦[(xs0).view.set]{fullShare} g) ∗ Ds)
      ⊢ Transfers.Flight (countersEmb (U := UU)) (V d (cV L) (jV L)) sm ι N
          iprop((∃ g, ((xs0).view.loc (V d (cV L) (jV L)) ↦[(xs0).view.set]{fullShare} g) ∗ ⌜XsOk X d L G 0 g⌝) ∗ Ds) :=
  Transfers.Flight_mono (countersEmb (U := UU)) (V d (cV L) (jV L)) (by
    iintro ⟨Hd, Hs⟩
    isplitl [Hd]
    · iexists g; isplitl [Hd]; · iexact Hd
      ipureintro; exact hg
    · iexact Hs)

theorem flight_ok1 {N : ℕ} {sm : SemLoc sig} {ι : HIx 1} (G : ℕ) (g : Buf (Elt F) ((xs1).view.loc (V d (cV L) (jV L)))) (hg : XsOk X d L G 1 g) (Ds : sProp 𝕄) :
    Transfers.Flight (countersEmb (U := UU)) (V d (cV L) (jV L)) sm ι N iprop(((xs1).view.loc (V d (cV L) (jV L)) ↦[(xs1).view.set]{fullShare} g) ∗ Ds)
      ⊢ Transfers.Flight (countersEmb (U := UU)) (V d (cV L) (jV L)) sm ι N
          iprop((∃ g, ((xs1).view.loc (V d (cV L) (jV L)) ↦[(xs1).view.set]{fullShare} g) ∗ ⌜XsOk X d L G 1 g⌝) ∗ Ds) :=
  Transfers.Flight_mono (countersEmb (U := UU)) (V d (cV L) (jV L)) (by
    iintro ⟨Hd, Hs⟩
    isplitl [Hd]
    · iexists g; isplitl [Hd]; · iexact Hd
      ipureintro; exact hg
    · iexact Hs)

end Cert.Kernel.Hand

end
-- ==== Proof.TileOffsK.lean ====
/-
  The printed offsets of the slices of the operand a tile fetches, as the group of four planes and the tile's four rows
  they are: every fetch reads planes `4 g ..`, rows `4 w ..` of the operand, for a group `g` the offset names.
-/
import proofs.«209186_g8847632630064_cont_9to1c4b_396_28_alg».proof.Proof.CommonK

noncomputable section

namespace Cert.Kernel.Hand

open Cert.Kernel Cert.Kernel.Gen

open Idealize.ShloMosaic

/-- An offset triple is determined by its plane and its row. -/
theorem off3_ext {a a' b b' : ℕ} (ha : a = a') (hb : b = b') : (![a, b, 0] : Fin 3 → ℕ) = ![a', b', 0] := by rw [ha, hb]

/-- The tile's first row of the operand: `8 s + 4 c` is `4 w`. -/
theorem row_eq (L : grid0.Coords) : 8 * (L 1).val + 4 * (L 0).val = 4 * (widL L).val := by rw [widL_val]; omega

/-- The first fetch before the loop: group 0. -/
theorem hoffx1 (L : grid0.Coords) : k0_off1 L = ![4 * 0, 4 * (widL L).val, 0] := by
  rw [k0_off1_eq]; exact off3_ext rfl (row_eq L)

/-- The second fetch before the loop: group 1. -/
theorem hoffx2 (L : grid0.Coords) : k0_off2 L = ![4 * 1, 4 * (widL L).val, 0] := by
  rw [k0_off2_eq]; exact off3_ext rfl (row_eq L)

/-- The descriptor iteration `t` waits on for its first group: group `2 t`. -/
theorem hoffx3 (L : grid0.Coords) (t : Fin k0_t1_loop.trips) : k0_off3 L t = ![4 * (2 * t.val), 4 * (widL L).val, 0] := by
  rw [k0_off3_eq]; exact off3_ext (by omega) (row_eq L)

/-- Iteration `t`'s fetch into the first slot: group `2 t + 2`. -/
theorem hoffx22 (L : grid0.Coords) (t : Fin k0_t1_loop.trips) : k0_off22 L t = ![4 * (2 * t.val + 2), 4 * (widL L).val, 0] := by
  rw [k0_off22_eq]; exact off3_ext (by omega) (row_eq L)

/-- The descriptor iteration `t` waits on for its second group: group `2 t + 1`. -/
theorem hoffx23 (L : grid0.Coords) (t : Fin k0_t1_loop.trips) : k0_off23 L t = ![4 * (2 * t.val + 1), 4 * (widL L).val, 0] := by
  rw [k0_off23_eq]; exact off3_ext (by omega) (row_eq L)

/-- Iteration `t`'s fetch into the second slot: group `2 t + 3`. -/
theorem hoffx42 (L : grid0.Coords) (t : Fin k0_t1_loop.trips) : k0_off42 L t = ![4 * (2 * t.val + 3), 4 * (widL L).val, 0] := by
  rw [k0_off42_eq]; exact off3_ext (by omega) (row_eq L)

end Cert.Kernel.Hand

end
-- ==== Proof.TileFoldK.lean ====
/-
  The tile's resources unfolded at its task's entry and folded back at its exit: what the launch hands a tile — its
  read share of the operand, its slices of the result, its own scratch and semaphores — laid out as the loop's
  invariant wants them (the share cut into a remainder and two read tokens, the scratch cut into slots and half planes,
  the six semaphores the kernel uses taken out), and the same put back together once every slice is done.
-/
import proofs.«209186_g8847632630064_cont_9to1c4b_396_28_alg».proof.Proof.TileInvK

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop shareTokN)
open Idealize.ShloMosaic.Tactic

variable {F : FTy → Type}

local notation "𝕄" => MT nD τ sig (HIx 1) (Elt F) ℕ UU ℕ

variable [FloatOps F]
variable (X : (d : Dev nD) → Buf (Elt F) (x3Loc d))
variable (d : Dev nD) (L : grid0.Coords)

/-! ## The read share of the operand: a remainder and two read tokens -/

omit [FloatOps F] in
theorem x3_share_split :
    (x3Loc d ↦{qT L} X d : sProp 𝕄)
      ⊢ iprop((x3Loc d ↦{(qT L).left.left} X d) ∗ (x3Loc d ↦{shareTokN (qT L) 0} X d) ∗ (x3Loc d ↦{shareTokN (qT L) 1} X d)) := by
  refine (pointsTo_share (PosShare.mem_left_op_right (qT L))).1.trans ?_
  refine (sep_mono_left (pointsTo_share (PosShare.mem_left_op_right (qT L).left)).1).trans ?_
  iintro ⟨⟨Hll, Hlr⟩, Hr⟩
  isplitl [Hll]; · iexact Hll
  isplitl [Hr]; · iexact Hr
  iexact Hlr

omit [FloatOps F] in
theorem x3_share_join :
    iprop((x3Loc d ↦{(qT L).left.left} X d) ∗ (x3Loc d ↦{shareTokN (qT L) 0} X d) ∗ (x3Loc d ↦{shareTokN (qT L) 1} X d))
      ⊢ (x3Loc d ↦{qT L} X d : sProp 𝕄) := by
  refine BIBase.Entails.trans ?_ (pointsTo_share (PosShare.mem_left_op_right (qT L))).2
  refine BIBase.Entails.trans ?_ (sep_mono_left (pointsTo_share (PosShare.mem_left_op_right (qT L).left)).2)
  iintro ⟨Hll, Hr, Hlr⟩
  isplitl [Hll Hlr]
  · isplitl [Hll]; · iexact Hll
    iexact Hlr
  iexact Hr

/-! ## Joining pieces of one buffer held at their own contents -/

omit [FloatOps F] in
/-- Two disjoint pieces of a buffer, each at some contents, are their union at some contents. -/
theorem ex_join {ℓ : Loc nD τ sig} {I J : Finset (Idx ℓ)} (h : Disjoint I J) :
    iprop((∃ f, ℓ ↦[I]{fullShare} f) ∗ (∃ g, ℓ ↦[J]{fullShare} g)) ⊢ (iprop(∃ f, ℓ ↦[I ∪ J]{fullShare} f) : sProp 𝕄) := by
  iintro ⟨⟨%f, Hf⟩, ⟨%g, Hg⟩⟩
  iexists (J.piecewise g f)
  iapply (pointsTo_join h)
  isplitl [Hf]; · iexact Hf
  iexact Hg

omit [FloatOps F] in
/-- The two slots, each at some contents, are the input scratch whole at some contents. -/
theorem xv_join_ex :
    iprop((∃ g, (xs0).view.loc (V d (cV L) (jV L)) ↦[(xs0).view.set]{fullShare} g) ∗ (∃ g, (xs1).view.loc (V d (cV L) (jV L)) ↦[(xs1).view.set]{fullShare} g))
      ⊢ (iprop(∃ f, (V d (cV L) (jV L)).loc cc0_scratch0 ↦{fullShare} f) : sProp 𝕄) := by
  rw [set_xs0, set_xs1]
  refine (ex_join (ℓ := (V d (cV L) (jV L)).loc cc0_scratch0) xs_disjoint).trans ?_
  rw [xs_cover]

omit [FloatOps F] in
/-- The eight half planes, each at some contents, are the output scratch whole at some contents. -/
theorem ov_join_ex :
    iprop((∃ g, (oh00).view.loc (V d (cV L) (jV L)) ↦[(oh00).view.set]{fullShare} g) ∗ (∃ g, (oh01).view.loc (V d (cV L) (jV L)) ↦[(oh01).view.set]{fullShare} g)
      ∗ (∃ g, (oh10).view.loc (V d (cV L) (jV L)) ↦[(oh10).view.set]{fullShare} g) ∗ (∃ g, (oh11).view.loc (V d (cV L) (jV L)) ↦[(oh11).view.set]{fullShare} g)
      ∗ (∃ g, (oh20).view.loc (V d (cV L) (jV L)) ↦[(oh20).view.set]{fullShare} g) ∗ (∃ g, (oh21).view.loc (V d (cV L) (jV L)) ↦[(oh21).view.set]{fullShare} g)
      ∗ (∃ g, (oh30).view.loc (V d (cV L) (jV L)) ↦[(oh30).view.set]{fullShare} g) ∗ (∃ g, (oh31).view.loc (V d (cV L) (jV L)) ↦[(oh31).view.set]{fullShare} g))
      ⊢ (iprop(∃ f, (V d (cV L) (jV L)).loc cc0_scratch1 ↦{fullShare} f) : sProp 𝕄) := by
  rw [set_oh00, set_oh01, set_oh10, set_oh11, set_oh20, set_oh21, set_oh30, set_oh31]
  iintro ⟨H00, H01, H10, H11, H20, H21, H30, H31⟩
  ihave H1 := (ex_join (ℓ := (V d (cV L) (jV L)).loc cc0_scratch1) oh_djU_1) $$ [H00 H01]
  · isplitl [H00]; · iexact H00
    iexact H01
  ihave H2 := (ex_join (ℓ := (V d (cV L) (jV L)).loc cc0_scratch1) oh_djU_2) $$ [H1 H10]
  · isplitl [H1]; · iexact H1
    iexact H10
  ihave H3 := (ex_join (ℓ := (V d (cV L) (jV L)).loc cc0_scratch1) oh_djU_3) $$ [H2 H11]
  · isplitl [H2]; · iexact H2
    iexact H11
  ihave H4 := (ex_join (ℓ := (V d (cV L) (jV L)).loc cc0_scratch1) oh_djU_4) $$ [H3 H20]
  · isplitl [H3]; · iexact H3
    iexact H20
  ihave H5 := (ex_join (ℓ := (V d (cV L) (jV L)).loc cc0_scratch1) oh_djU_5) $$ [H4 H21]
  · isplitl [H4]; · iexact H4
    iexact H21
  ihave H6 := (ex_join (ℓ := (V d (cV L) (jV L)).loc cc0_scratch1) oh_djU_6) $$ [H5 H30]
  · isplitl [H5]; · iexact H5
    iexact H30
  ihave H7 := (ex_join (ℓ := (V d (cV L) (jV L)).loc cc0_scratch1) oh_djU_7) $$ [H6 H31]
  · isplitl [H6]; · iexact H6
    iexact H31
  rw [oh_cover]
  iexact H7

/-! ## The task's entry -/

/-- What the launch hands the tile, laid out: nothing in flight, every slice of the result still to be written. -/
theorem tile_open :
    iprop(tileGo X d (widL L) ∗ scopedBufs (V d (cV L) (jV L)) ∗ scopedSems0 (V d (cV L) (jV L)))
      ⊢ (TileOpen X d L (oTodoG d (widL L) 0) : sProp 𝕄) := by
  rw [(K (F := F)).scopedBufs_V facts d (cV L) (jV L), SparseCore.Cfg.scopedSems0_V (Val := Elt F) d (cV L) (jV L),
    ownSems0_V, ownBufs_V]
  unfold tileGo TileOpen InIdle OutIdle0 OutIdle1 OutIdle2 OutIdle3 BufsRest SemsRest
  rw [oTodoG_zero, pts_x3 d L (shareTokN (qT L) 0), pts_x3 d L (shareTokN (qT L) 1)]
  iintro ⟨⟨Hx, Ho⟩, ⟨⟨%f0, Hb0⟩, ⟨%f1, Hb1⟩, Hbr⟩, ⟨S2, S3, S4, S5, S6, S7, Hsr⟩⟩
  ihave Hx' := (x3_share_split X d L) $$ Hx
  icases Hx' with ⟨Hxr, Ht0, Ht1⟩
  ihave Hb0' := (xv_split d L f0).1 $$ Hb0
  icases Hb0' with ⟨Hxs0, Hxs1⟩
  ihave Hb1' := (ov_split d L f1) $$ Hb1
  icases Hb1' with ⟨⟨⟨⟨⟨⟨⟨H00, H01⟩, H10⟩, H11⟩, H20⟩, H21⟩, H30⟩, H31⟩
  isplitl [Hxr]; · iexact Hxr
  isplitl [Ht0 Ht1 Hxs0 Hxs1 S2 S3]
  · isplitl [Ht0]; · iexact Ht0
    isplitl [Ht1]; · iexact Ht1
    isplitl [Hxs0]; · iexists f0; iexact Hxs0
    isplitl [Hxs1]; · iexists f0; iexact Hxs1
    isplitl [S2]; · iexact S2
    iexact S3
  isplitl [Ho]; · iexact Ho
  isplitl [H00 H01 S4]
  · isplitl [H00]; · iexists f1; iexact H00
    isplitl [H01]; · iexists f1; iexact H01
    iexact S4
  isplitl [H10 H11 S5]
  · isplitl [H10]; · iexists f1; iexact H10
    isplitl [H11]; · iexists f1; iexact H11
    iexact S5
  isplitl [H20 H21 S6]
  · isplitl [H20]; · iexists f1; iexact H20
    isplitl [H21]; · iexists f1; iexact H21
    iexact S6
  isplitl [H30 H31 S7]
  · isplitl [H30]; · iexists f1; iexact H30
    isplitl [H31]; · iexists f1; iexact H31
    iexact S7
  isplitl [Hbr]; · iexact Hbr
  iexact Hsr

/-! ## The task's exit -/

/-- Every slice done and nothing in flight: the tile's read share whole, its slices at the kernel's value, its own
    scratch and semaphores as the launch dealt them. -/
theorem tile_close :
    (TileOpen X d L (oDoneG X d (widL L) 50) : sProp 𝕄)
      ⊢ iprop(tileTd X d (widL L) ∗ scopedBufs (V d (cV L) (jV L)) ∗ scopedSems0 (V d (cV L) (jV L))) := by
  rw [(K (F := F)).scopedBufs_V facts d (cV L) (jV L), SparseCore.Cfg.scopedSems0_V (Val := Elt F) d (cV L) (jV L),
    ownSems0_V, ownBufs_V]
  unfold tileTd TileOpen InIdle OutIdle0 OutIdle1 OutIdle2 OutIdle3 BufsRest SemsRest
  rw [oDoneG_fifty, pts_x3 d L (shareTokN (qT L) 0), pts_x3 d L (shareTokN (qT L) 1)]
  iintro ⟨Hxr, ⟨Ht0, Ht1, Hxs0, Hxs1, S2, S3⟩, Ho, ⟨H00, H01, S4⟩, ⟨H10, H11, S5⟩, ⟨H20, H21, S6⟩, ⟨H30, H31, S7⟩, Hbr, Hsr⟩
  ihave Hx := (x3_share_join X d L) $$ [Hxr Ht0 Ht1]
  · isplitl [Hxr]; · iexact Hxr
    isplitl [Ht0]; · iexact Ht0
    iexact Ht1
  ihave Hb0 := (xv_join_ex d L) $$ [Hxs0 Hxs1]
  · isplitl [Hxs0]; · iexact Hxs0
    iexact Hxs1
  ihave Hb1 := (ov_join_ex d L) $$ [H00 H01 H10 H11 H20 H21 H30 H31]
  · isplitl [H00]; · iexact H00
    isplitl [H01]; · iexact H01
    isplitl [H10]; · iexact H10
    isplitl [H11]; · iexact H11
    isplitl [H20]; · iexact H20
    isplitl [H21]; · iexact H21
    isplitl [H30]; · iexact H30
    iexact H31
  isplitl [Hx Ho]
  · isplitl [Hx]; · iexact Hx
    iexact Ho
  isplitl [Hb0 Hb1 Hbr]
  · isplitl [Hb0]; · iexact Hb0
    isplitl [Hb1]; · iexact Hb1
    iexact Hbr
  isplitl [S2]; · iexact S2
  isplitl [S3]; · iexact S3
  isplitl [S4]; · iexact S4
  isplitl [S5]; · iexact S5
  isplitl [S6]; · iexact S6
  isplitl [S7]; · iexact S7
  iexact Hsr

end Cert.Kernel.Hand

end
-- ==== Proof.TileEpiK.lean ====
/-
  The tile kernel's epilogue: after the last trip of the outer loop the four batches of copies out of the last group of
  planes are still in flight; the eight waits drain them, and the group's eight slices of o hold the kernel's value.
-/
import proofs.«209186_g8847632630064_cont_9to1c4b_396_28_alg».proof.Proof.CommonK
import proofs.«209186_g8847632630064_cont_9to1c4b_396_28_alg».proof.Proof.TileBufsK
import proofs.«209186_g8847632630064_cont_9to1c4b_396_28_alg».proof.Proof.TileSlicesK
import proofs.«209186_g8847632630064_cont_9to1c4b_396_28_alg».proof.Proof.TileInvK

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop shareTokN)
open Idealize.ShloMosaic.Tactic

variable {F : FTy → Type}

local notation "𝕄" => MT nD τ sig (HIx 1) (Elt F) ℕ UU ℕ

variable [FloatOps F]
variable (X : (d : Dev nD) → Buf (Elt F) (x3Loc d))
variable (d : Dev nD) (L : grid0.Coords)

/-- The kernel's text after its first part (the prologue and the outer loop): the eight waits for the last group's copies. -/
def epi (v1 v18 : BitVec 32) : Prog (TpuEff nD τ sig (Elt F) Λ₀ (.scVector ((L 0).castLE hcore0) ((L 1).castLE hsub0))) PUnit := do
  k0_part146 L xV (Memref.isWhole_whole _) oV (Memref.isWhole_whole _) sX (Memref.isWhole_whole _) sO (Memref.isWhole_whole _) cc0_scratch2 cc0_scratch3 cc0_scratch4 cc0_scratch5 cc0_scratch6 cc0_scratch7 cc0_scratch8 cc0_scratch9 cc0_scratch10 cc0_scratch11 v1 v18
  k0_part147 L xV (Memref.isWhole_whole _) oV (Memref.isWhole_whole _) sX (Memref.isWhole_whole _) sO (Memref.isWhole_whole _) cc0_scratch2 cc0_scratch3 cc0_scratch4 cc0_scratch5 cc0_scratch6 cc0_scratch7 cc0_scratch8 cc0_scratch9 cc0_scratch10 cc0_scratch11 v1
  let v74 : Memref sig .scVector .hbm S32x128 .f32 := (oV).slice (Rect.unit (s := S409600x128) (k0_off44 L 407552#32) S32x128.size (k0_off44_inb L 3)) (fun _ => rfl)
  let v75 : Memref sig .scVector .vmem S1x32x128 .f32 := (sO).slice (Rect.unit (s := S4x64x128) ![3, 32, 0] S1x32x128.size inb_S4x64x128_S1x32x128_3_32_0) (fun _ => rfl)
  let v76 : Memref sig .scVector .vmem S32x128 .f32 := v75.squeeze S32x128 squeezes_S1x32x128_S32x128
  Prog.lift (.waitDma2 cc0_scratch7.sem v76 v74 ((View.wordExact_bits rfl).reshape _ _) (View.wordExact_bits rfl))
  pure ⟨⟩

/-- The kernel is its first part, then the epilogue at the two words the first part hands on. -/
theorem kernel_eq_epi :
    cc0_gc_kernel_skel (F := F) L xV (Memref.isWhole_whole _) oV (Memref.isWhole_whole _) sX (Memref.isWhole_whole _) sO (Memref.isWhole_whole _) cc0_scratch2 cc0_scratch3 cc0_scratch4 cc0_scratch5 cc0_scratch6 cc0_scratch7 cc0_scratch8 cc0_scratch9 cc0_scratch10 cc0_scratch11
      = (k0_part145 L xV (Memref.isWhole_whole _) oV (Memref.isWhole_whole _) sX (Memref.isWhole_whole _) sO (Memref.isWhole_whole _) cc0_scratch2 cc0_scratch3 cc0_scratch4 cc0_scratch5 cc0_scratch6 cc0_scratch7 cc0_scratch8 cc0_scratch9 cc0_scratch10 cc0_scratch11 >>= fun p => epi (F := F) L p.1 p.2) := rfl

omit [FloatOps F] in
/-- A half plane's copy landed in the slice of o at row offset `off`, where the landed contents are `Y`'s, is the
    slice held at `Y`. -/
theorem land_done {src : Memref sig .scVector .vmem S32x128 .f32} {dl : Fin 4} {h : Fin 2} {G : ℕ} {hG : G < 50}
    (off : Fin 2 → ℕ) (inb : ∀ a, off a + S32x128.size a ≤ S409600x128.size a)
    (hoff : off = ![(planeOf G hG dl).val * 2048 + h.val * 1024 + (widL L).val * 32, 0])
    (fd : Buf (Elt F) (((oV).slice (Rect.unit (s := S409600x128) off S32x128.size inb) (fun _ => rfl)).view.loc (V d (cV L) (jV L))))
    (g : Buf (Elt F) (src.view.loc (V d (cV L) (jV L)))) {Y : Buf (Elt F) (oLoc d)}
    (hl : ∀ i ∈ oSet (widL L) (planeOf G hG dl) h,
        landO d L ((oV).slice (Rect.unit (s := S409600x128) off S32x128.size inb) (fun _ => rfl)) src fd g i = Y i) :
    ((((oV).slice (Rect.unit (s := S409600x128) off S32x128.size inb) (fun _ => rfl)).view.loc (V d (cV L) (jV L))
        ↦[((oV).slice (Rect.unit (s := S409600x128) off S32x128.size inb) (fun _ => rfl)).view.set]{fullShare}
          landO d L ((oV).slice (Rect.unit (s := S409600x128) off S32x128.size inb) (fun _ => rfl)) src fd g : sProp 𝕄))
      ⊢ oLoc d ↦[oSet (widL L) (planeOf G hG dl) h]{fullShare} Y := by
  rw [set_oSlice inb (widL L) (planeOf G hG dl) h hoff]
  exact Entails.of_eq (pointsTo_congr hl)

omit [FloatOps F] in
/-- One more wait recorded at no index keeps the recorded waits of the stated kind. -/
theorem waits_ins {W W' : Waits sig (HIx 1)} (sm : SemLoc sig) (h : ∀ p ∈ W', p ∈ W ∨ p.2 = none) :
    ∀ p ∈ insert (sm, (none : HIx 1)) W', p ∈ W ∨ p.2 = none := by
  intro p hp
  rcases Finset.mem_insert.mp hp with rfl | hp
  · exact .inr rfl
  · exact h p hp

/-- After the last trip: the eight waits, and the tile holds its scratch idle and every slice of o at the kernel's value. -/
theorem tile_epilogue (hO : LandO X d L) (O : CellTallies nD τ sig (HIx 1)) (W : Waits sig (HIx 1)) (v1 v18 : BitVec 32) :
    Inv X d L O W 25 ⟨⟩
      ⊢ wp frame (wpE (defs₀ (F := F)) 𝒱₀ (V d (cV L) (jV L)) none) Set.univ (epi (F := F) L v1 v18)
          fun _ => iprop(InIdle X d L ∗ oDoneG X d (widL L) 50 ∗ OutIdle0 d L ∗ OutIdle1 d L ∗ OutIdle2 d L ∗ OutIdle3 d L
            ∗ ∃ W', ⌜∀ p ∈ W', p ∈ W ∨ p.2 = none⌝ ∗ owes (V d (cV L) (jV L)) O W') := by
  unfold Inv InSt OutSt
  iintro ⟨#Hmw, Hin, Hout, -, Hdone, %W', %hW', HO⟩
  icases Hin with (⟨%hk, -⟩ | ⟨-, Hin⟩)
  · exact absurd hk (by decide)
  icases Hout with (⟨%hk, -⟩ | ⟨%tp, %htp, HB0, HB1, HB2, HB3⟩)
  · exact absurd hk (by decide)
  unfold BatchO0 BatchO1 BatchO2 BatchO3
  icases HB0 with ⟨%f00, %f01, %g00, %g01, %hg0, HB0⟩
  icases HB1 with ⟨%f10, %f11, %g10, %g11, %hg1, HB1⟩
  icases HB2 with ⟨%f20, %f21, %g20, %g21, %hg2, HB2⟩
  icases HB3 with ⟨%f30, %f31, %g30, %g31, %hg3, HB3⟩
  unfold epi
  sl_exec
  sl_step
  -- the landed slices hold the kernel's value
  ihave H00 := (land_done d L (k0_off28 L tp 0#32) (k0_off28_inb L tp 0) (hoff28 L tp 0) f00 g00
      (hO.l00 _ _ _ _ (hoff28 L tp 0) f00 g00 hg0.1)) $$ HB0_dst0
  ihave H01 := (land_done d L (k0_off29 L tp 0#32) (k0_off29_inb L tp 0) (hoff29 L tp 0) f01 g01
      (hO.l01 _ _ _ _ (hoff29 L tp 0) f01 g01 hg0.2)) $$ HB0_dst1
  ihave H10 := (land_done d L (k0_off28 L tp 1#32) (k0_off28_inb L tp 1) (hoff28 L tp 1) f10 g10
      (hO.l10 _ _ _ _ (hoff28 L tp 1) f10 g10 hg1.1)) $$ HB1_dst0
  ihave H11 := (land_done d L (k0_off29 L tp 1#32) (k0_off29_inb L tp 1) (hoff29 L tp 1) f11 g11
      (hO.l11 _ _ _ _ (hoff29 L tp 1) f11 g11 hg1.2)) $$ HB1_dst1
  ihave H20 := (land_done d L (k0_off28 L tp 2#32) (k0_off28_inb L tp 2) (hoff28 L tp 2) f20 g20
      (hO.l20 _ _ _ _ (hoff28 L tp 2) f20 g20 hg2.1)) $$ HB2_dst0
  ihave H21 := (land_done d L (k0_off29 L tp 2#32) (k0_off29_inb L tp 2) (hoff29 L tp 2) f21 g21
      (hO.l21 _ _ _ _ (hoff29 L tp 2) f21 g21 hg2.2)) $$ HB2_dst1
  ihave H30 := (land_done d L (k0_off28 L tp 3#32) (k0_off28_inb L tp 3) (hoff28 L tp 3) f30 g30
      (hO.l30 _ _ _ _ (hoff28 L tp 3) f30 g30 hg3.1)) $$ HB3_dst0
  ihave H31 := (land_done d L (k0_off29 L tp 3#32) (k0_off29_inb L tp 3) (hoff29 L tp 3) f31 g31
      (hO.l31 _ _ _ _ (hoff29 L tp 3) f31 g31 hg3.2)) $$ HB3_dst1
  have e49 : 2 * 25 - 1 = 2 * tp.val + 1 := by omega
  have e50 : 2 * tp.val + 1 + 1 = 50 := by omega
  ihave Hdone := (Entails.of_eq (congrArg (oDoneG X d (widL L)) e49)) $$ Hdone
  ihave Hdone := (oDoneG_step X d (widL L) (2 * tp.val + 1) (odd_group_lt tp)) $$ [Hdone H00 H01 H10 H11 H20 H21 H30 H31]
  · isplitl [Hdone]; · iexact Hdone
    isplitl [H00]; · iexact H00
    isplitl [H01]; · iexact H01
    isplitl [H10]; · iexact H10
    isplitl [H11]; · iexact H11
    isplitl [H20]; · iexact H20
    isplitl [H21]; · iexact H21
    isplitl [H30]; · iexact H30
    iexact H31
  ihave Hdone := (Entails.of_eq (congrArg (oDoneG X d (widL L)) e50)) $$ Hdone
  isplitl [Hin]; · iexact Hin
  isplitl [Hdone]; · iexact Hdone
  isplitl [HB0_src0 HB0_src1 HB0]
  · unfold OutIdle0
    isplitl [HB0_src0]; · iexists _; iexact HB0_src0
    isplitl [HB0_src1]; · iexists _; iexact HB0_src1
    iexact HB0
  isplitl [HB1_src0 HB1_src1 HB1]
  · unfold OutIdle1
    isplitl [HB1_src0]; · iexists _; iexact HB1_src0
    isplitl [HB1_src1]; · iexists _; iexact HB1_src1
    iexact HB1
  isplitl [HB2_src0 HB2_src1 HB2]
  · unfold OutIdle2
    isplitl [HB2_src0]; · iexists _; iexact HB2_src0
    isplitl [HB2_src1]; · iexists _; iexact HB2_src1
    iexact HB2
  isplitl [HB3_src0 HB3_src1 HB3]
  · unfold OutIdle3
    isplitl [HB3_src0]; · iexists _; iexact HB3_src0
    isplitl [HB3_src1]; · iexists _; iexact HB3_src1
    iexact HB3
  iexists _; isplitr
  rotate_left
  · iexact HO
  · ipureintro
    exact waits_ins _ (waits_ins _ (waits_ins _ (waits_ins _ (waits_ins _ (waits_ins _ (waits_ins _ (waits_ins _ hW')))))))

end Cert.Kernel.Hand

end
-- ==== Proof.TileAsmK.lean ====
/-
  The tile's task assembled: the tile's resources laid out, the two fetches of the prologue, the outer loop by its
  invariant (one trip is a hypothesis here, proved in its own module), the epilogue's waits, and the resources folded
  back as the launch dealt them.
-/
import proofs.«209186_g8847632630064_cont_9to1c4b_396_28_alg».proof.Proof.CommonK
import proofs.«209186_g8847632630064_cont_9to1c4b_396_28_alg».proof.Proof.TileBufsK
import proofs.«209186_g8847632630064_cont_9to1c4b_396_28_alg».proof.Proof.TileSlicesK
import proofs.«209186_g8847632630064_cont_9to1c4b_396_28_alg».proof.Proof.TileInvK
import proofs.«209186_g8847632630064_cont_9to1c4b_396_28_alg».proof.Proof.TilePreK
import proofs.«209186_g8847632630064_cont_9to1c4b_396_28_alg».proof.Proof.TileOffsK
import proofs.«209186_g8847632630064_cont_9to1c4b_396_28_alg».proof.Proof.TileFoldK
import proofs.«209186_g8847632630064_cont_9to1c4b_396_28_alg».proof.Proof.TileEpiK

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop shareTokN)
open Idealize.ShloMosaic.Tactic

variable {F : FTy → Type}

local notation "𝕄" => MT nD τ sig (HIx 1) (Elt F) ℕ UU ℕ

variable [FloatOps F]
variable (X : (d : Dev nD) → Buf (Elt F) (x3Loc d))
variable (d : Dev nD) (L : grid0.Coords)

/-- What the tile holds aside through its whole task: the remainder of its read share, its other buffers and semaphores. -/
abbrev Aside : sProp 𝕄 := iprop((x3Loc d ↦{(qT L).left.left} X d) ∗ BufsRest d L ∗ SemsRest d L)

/-- The epilogue's result and what was held aside fold back into what the launch dealt the tile. -/
theorem post_close (O : CellTallies nD τ sig (HIx 1)) (W : Waits sig (HIx 1)) :
    iprop((InIdle X d L ∗ oDoneG X d (widL L) 50 ∗ OutIdle0 d L ∗ OutIdle1 d L ∗ OutIdle2 d L ∗ OutIdle3 d L
        ∗ ∃ W', ⌜∀ p ∈ W', p ∈ W ∨ p.2 = none⌝ ∗ owes (V d (cV L) (jV L)) O W') ∗ Aside X d L)
      ⊢ iprop(tileTd X d (widL L) ∗ scopedBufs (V d (cV L) (jV L)) ∗ scopedSems0 (V d (cV L) (jV L))
          ∗ ∃ W', ⌜∀ p ∈ W', p ∈ W ∨ p.2 = none⌝ ∗ owes (V d (cV L) (jV L)) O W') := by
  iintro ⟨⟨Hin, Hdone, H0, H1, H2, H3, HW⟩, Hxr, Hbr, Hsr⟩
  ihave Hc := (tile_close X d L) $$ [Hin Hdone H0 H1 H2 H3 Hxr Hbr Hsr]
  · unfold TileOpen
    isplitl [Hxr]; · iexact Hxr
    isplitl [Hin]; · iexact Hin
    isplitl [Hdone]; · iexact Hdone
    isplitl [H0]; · iexact H0
    isplitl [H1]; · iexact H1
    isplitl [H2]; · iexact H2
    isplitl [H3]; · iexact H3
    isplitl [Hbr]; · iexact Hbr
    iexact Hsr
  icases Hc with ⟨Htd, Hsb, Hss⟩
  isplitl [Htd]; · iexact Htd
  isplitl [Hsb]; · iexact Hsb
  isplitl [Hss]; · iexact Hss
  iexact HW

/-- After the last trip, with what was held aside: the epilogue, and the task's exit. -/
theorem asm_tail (hO : LandO X d L) (O : CellTallies nD τ sig (HIx 1)) (W : Waits sig (HIx 1)) (v1 v18 : BitVec 32) :
    iprop(Inv X d L O W 25 ⟨⟩ ∗ Aside X d L)
      ⊢ wp frame (wpE (defs₀ (F := F)) 𝒱₀ (V d (cV L) (jV L)) none) Set.univ (epi (F := F) L v1 v18)
          fun _ => iprop(tileTd X d (widL L) ∗ scopedBufs (V d (cV L) (jV L)) ∗ scopedSems0 (V d (cV L) (jV L))
            ∗ ∃ W', ⌜∀ p ∈ W', p ∈ W ∨ p.2 = none⌝ ∗ owes (V d (cV L) (jV L)) O W') :=
  ((sep_mono_left (tile_epilogue X d L hO O W v1 v18)).trans (wp_frame_r frame _ _)).trans
    (wp_mono frame _ _ fun _ => post_close X d L O W)

/-- The tile's task, from one trip of the outer loop: lay the resources out, start the two fetches, run the loop by its
    invariant, drain the last copies, fold the resources back. -/
theorem tile_body_of (hX : LandX X d L) (hO : LandO X d L)
    (htrip : ∀ (O : CellTallies nD τ sig (HIx 1)) (W : Waits sig (HIx 1)) (v1 : BitVec 32) (t : Fin k0_t1_loop.trips) (acc : PUnit),
      Inv X d L O W t.val acc ⊢ wp frame (wpE (defs₀ (F := F)) 𝒱₀ (V d (cV L) (jV L)) none) Set.univ
        (k0_t1_body L xV (Memref.isWhole_whole _) oV (Memref.isWhole_whole _) sX (Memref.isWhole_whole _) sO (Memref.isWhole_whole _) cc0_scratch2 cc0_scratch3 cc0_scratch4 cc0_scratch5 cc0_scratch6 cc0_scratch7 cc0_scratch8 cc0_scratch9 cc0_scratch10 cc0_scratch11 v1 t acc) (Inv X d L O W (t.val + 1)))
    (O : CellTallies nD τ sig (HIx 1)) (W : Waits sig (HIx 1)) (hO0 : ∀ g, O g none = 0) :
    iprop(levAts (K (F := F)).L (K (F := F)).lev ∗ emp ∗ tileGo X d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gc_kernel L xV (Memref.isWhole_whole _) oV (Memref.isWhole_whole _) sX (Memref.isWhole_whole _) sO (Memref.isWhole_whole _) cc0_scratch2 cc0_scratch3 cc0_scratch4 cc0_scratch5 cc0_scratch6 cc0_scratch7 cc0_scratch8 cc0_scratch9 cc0_scratch10 cc0_scratch11)
          fun _ => iprop(tileTd X d (widL L) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gc_kernel_eq_skeleton]
  rw [kernel_eq_epi, wp_bind]
  iintro ⟨#Hlv, -, Hgo, Hsb, Hss, HO⟩
  ihave Hmw := ((K (F := F)).mayWaits_none (thr := (V d (cV L) (jV L))) hO0) $$ Hlv
  ihave Hopen := (tile_open X d L) $$ [Hgo Hsb Hss]
  · isplitl [Hgo]; · iexact Hgo
    isplitl [Hsb] <;> iassumption
  unfold TileOpen InIdle
  icases Hopen with ⟨Hxrem, ⟨Hx0r, Hx1r, ⟨%fx0, Hxs0⟩, ⟨%fx1, Hxs1⟩, Hf0, Hf1⟩, Htodo, Hi0, Hi1, Hi2, Hi3, Hbr, Hsr⟩
  rw [k0_part145_eq_skeleton]; unfold k0_part145_skel
  sl_exec
  -- the two fetches in flight deliver the first two groups of planes
  unfold tile_body_of.sl.dma0 tile_body_of.sl.dma0_1
  ihave Hf0 := (flight_ok0 X d L (2 * 0) _ (hX.l0 (2 * 0) (by omega) _ (k0_off1_inb L) (hoffx1 L) fx0) _) $$ Hf0
  ihave Hf1 := (flight_ok1 X d L (2 * 0 + 1) _ (hX.l1 (2 * 0 + 1) (by omega) _ (k0_off2_inb L) (hoffx2 L) fx1) _) $$ Hf1
  sl_for (Inv X d L O W) $$ [Hmw Hf0 Hx0r Hf1 Hx1r Hi0 Hi1 Hi2 Hi3 Htodo HO]
  case region =>
    intro k _
    unfold tile_body_of.sl.prog.body_1
    exact htrip O W _ k _
  · unfold Inv InSt OutSt FlIn0 FlIn1
    isplitr; · iexact Hmw
    isplitl [Hf0 Hx0r Hf1 Hx1r]
    · ileft
      isplitr; · ipureintro; decide
      isplitl [Hf0 Hx0r]
      · iexists _; isplitl [Hf0]; · iexact Hf0
        iexact Hx0r
      · iexists _; isplitl [Hf1]; · iexact Hf1
        iexact Hx1r
    isplitl [Hi0 Hi1 Hi2 Hi3]
    · ileft
      isplitr; · ipureintro; rfl
      isplitl [Hi0]; · iexact Hi0
      isplitl [Hi1]; · iexact Hi1
      isplitl [Hi2]; · iexact Hi2
      iexact Hi3
    isplitl [Htodo]; · iexact Htodo
    isplitr
    · rw [show 2 * 0 - 1 = 0 from rfl, oDoneG_zero]; iempintro
    iexists W; isplitr
    · ipureintro; exact fun p hp => .inl hp
    · iexact HO
  iintro %_ HI
  unfold tile_body_of.sl.prog.cont_1
  rw [wp_pure]; imodintro
  iapply (asm_tail X d L hO O W _ _)
  isplitl [HI]; · iexact HI
  isplitl [Hxrem]; · iexact Hxrem
  isplitl [Hbr]; · iexact Hbr
  iexact Hsr

/-- The task at every tile, from the pure facts and one trip of the outer loop at every tile. -/
theorem tile_body_from (hX : ∀ d L, LandX X d L) (hO : ∀ d L, LandO X d L)
    (htrip : ∀ (d : Dev nD) (L : grid0.Coords) (O : CellTallies nD τ sig (HIx 1)) (W : Waits sig (HIx 1)) (v1 : BitVec 32)
      (t : Fin k0_t1_loop.trips) (acc : PUnit),
      Inv X d L O W t.val acc ⊢ wp frame (wpE (defs₀ (F := F)) 𝒱₀ (V d (cV L) (jV L)) none) Set.univ
        (k0_t1_body L xV (Memref.isWhole_whole _) oV (Memref.isWhole_whole _) sX (Memref.isWhole_whole _) sO (Memref.isWhole_whole _) cc0_scratch2 cc0_scratch3 cc0_scratch4 cc0_scratch5 cc0_scratch6 cc0_scratch7 cc0_scratch8 cc0_scratch9 cc0_scratch10 cc0_scratch11 v1 t acc) (Inv X d L O W (t.val + 1))) :
    TileBody X :=
  fun d L O W h => tile_body_of X d L (hX d L) (hO d L) (htrip d L) O W h

end Cert.Kernel.Hand

end
-- ==== Proof.TileFactsK.lean ====
/-
  The two facts about data the tile's run cites: a fetch of a group of four planes landed in a slot of the input
  scratch makes the slot hold the group (the tile's four rows of each plane), and a half plane of the output scratch
  holding the tile's rows of the result for a plane, copied out to its slice of the result array, leaves the
  kernel's value on that slice. Both are index equations: where a slot, a half plane and a slice of an array place
  their own indices in their buffers.
-/
import proofs.«209186_g8847632630064_cont_9to1c4b_396_28_alg».proof.Proof.TileInvK
import Idealize.ShloMosaic.Lib.Exec.Geometry
import Idealize.ShloMosaic.Lib.Pipeline.Value

noncomputable section

namespace Cert.Kernel.Hand

open Cert.Kernel Cert.Kernel.Gen

open Idealize.ShloMosaic
open Idealize.ShloMosaic.SparseCore (S V T)
open Idealize.ShloMosaic.ValueIdx

variable {F : FTy → Type}
variable [FloatOps F]
variable (X : (d : Dev nD) → Buf (Elt F) (x3Loc d))
variable (d : Dev nD) (L : grid0.Coords)

/-! ## Where a slot, a half plane and a slice place their indices -/

omit [FloatOps F] in
/-- Slot `pin` of the input scratch places `[dl, a, c]` at `[pin, dl, a, c]`. -/
theorem slot_emb (pin : Fin 2) (offs : Fin 4 → ℕ) (inbs : ∀ a, offs a + S1x4x4x128.size a ≤ S2x4x4x128.size a)
    (hoffs : offs = ![pin.val, 0, 0, 0]) (dl a : Fin 4) (c : Fin 128) :
    (((sX : Memref sig .scVector .vmem S2x4x4x128 .f32).slice (Rect.unit (s := S2x4x4x128) offs S1x4x4x128.size inbs) (fun _ => rfl)).squeeze S4x4x128
        squeezes_S1x4x4x128_S4x4x128).view.emb (ix3 dl a c) = ix4 pin dl a c := by
  subst hoffs
  show (Rect.unit (s := S2x4x4x128) ![pin.val, 0, 0, 0] S1x4x4x128.size inbs).emb
    (Shape.reshapeEquiv squeezes_S1x4x4x128_S4x4x128.numel_eq (ix3 dl a c)) = _
  rw [Shape.reshapeEquiv_eq_of_rowMajor _ (y := ix4 (0 : Fin 1) dl a c) (by
    rw [Shape.rowMajor_val_four, Shape.rowMajor_val_three]
    show ((0 * 4 + dl.val) * 4 + a.val) * 128 + c.val = (dl.val * 4 + a.val) * 128 + c.val
    omega)]
  funext b
  apply Fin.ext
  match b with
  | ⟨0, _⟩ => show pin.val + 1 * 0 = pin.val; omega
  | ⟨1, _⟩ => show 0 + 1 * dl.val = dl.val; omega
  | ⟨2, _⟩ => show 0 + 1 * a.val = a.val; omega
  | ⟨3, _⟩ => show 0 + 1 * c.val = c.val; omega

omit [FloatOps F] in
/-- Half `h` of plane `dl` of the output scratch places `[r, c]` at `[dl, 32 h + r, c]`. -/
theorem half_emb (dl : Fin 4) (h : Fin 2) (offs : Fin 3 → ℕ) (inbs : ∀ a, offs a + S1x32x128.size a ≤ S4x64x128.size a)
    (hoffs : offs = ![dl.val, 32 * h.val, 0]) (r : Fin 32) (c : Fin 128) :
    (((sO : Memref sig .scVector .vmem S4x64x128 .f32).slice (Rect.unit (s := S4x64x128) offs S1x32x128.size inbs) (fun _ => rfl)).squeeze S32x128
        squeezes_S1x32x128_S32x128).view.emb (ix2 r c)
      = ix3 dl (⟨32 * h.val + r.val, by have := h.isLt; have := r.isLt; omega⟩ : Fin 64) c := by
  subst hoffs
  show (Rect.unit (s := S4x64x128) ![dl.val, 32 * h.val, 0] S1x32x128.size inbs).emb
    (Shape.reshapeEquiv squeezes_S1x32x128_S32x128.numel_eq (ix2 r c)) = _
  rw [Shape.reshapeEquiv_eq_of_rowMajor _ (y := ix3 (0 : Fin 1) r c) (by
    rw [Shape.rowMajor_val_three, Shape.rowMajor_val_two]
    show (0 * 32 + r.val) * 128 + c.val = r.val * 128 + c.val
    omega)]
  funext b
  apply Fin.ext
  match b with
  | ⟨0, _⟩ => show dl.val + 1 * 0 = dl.val; omega
  | ⟨1, _⟩ => show 32 * h.val + 1 * r.val = 32 * h.val + r.val; omega
  | ⟨2, _⟩ => show 0 + 1 * c.val = c.val; omega

omit [FloatOps F] in
/-- A slice of the operand at planes `p₀ ..`, rows `r₀ ..` places `[dl, a, c]` at `[p₀ + dl, r₀ + a, c]`. -/
theorem xslice_emb (p0 r0 : ℕ) (off : Fin 3 → ℕ) (inb : ∀ a, off a + S4x4x128.size a ≤ S200x128x128.size a) (hoff : off = ![p0, r0, 0])
    (dl a : Fin 4) (c : Fin 128) (hp : p0 + dl.val < 200) (hr : r0 + a.val < 128) :
    ((xV : Memref sig .scVector .hbm S200x128x128 .f32).slice (Rect.unit (s := S200x128x128) off S4x4x128.size inb) (fun _ => rfl)).view.emb (ix3 dl a c)
      = ix3 (⟨p0 + dl.val, hp⟩ : Fin 200) (⟨r0 + a.val, hr⟩ : Fin 128) c := by
  subst hoff
  show (Rect.unit (s := S200x128x128) ![p0, r0, 0] S4x4x128.size inb).emb (ix3 dl a c) = _
  funext b
  apply Fin.ext
  match b with
  | ⟨0, _⟩ => show p0 + 1 * dl.val = p0 + dl.val; omega
  | ⟨1, _⟩ => show r0 + 1 * a.val = r0 + a.val; omega
  | ⟨2, _⟩ => show 0 + 1 * c.val = c.val; omega

omit [FloatOps F] in
/-- A slice of the result array at rows `r₀ ..` places `[r, c]` at `[r₀ + r, c]`. -/
theorem oslice_emb (r0 : ℕ) (off : Fin 2 → ℕ) (inb : ∀ a, off a + S32x128.size a ≤ S409600x128.size a) (hoff : off = ![r0, 0])
    (r : Fin 32) (c : Fin 128) (hr : r0 + r.val < 409600) :
    ((oV : Memref sig .scVector .hbm S409600x128 .f32).slice (Rect.unit (s := S409600x128) off S32x128.size inb) (fun _ => rfl)).view.emb (ix2 r c)
      = ix2 (⟨r0 + r.val, hr⟩ : Fin 409600) c := by
  subst hoff
  show (Rect.unit (s := S409600x128) ![r0, 0] S32x128.size inb).emb (ix2 r c) = _
  funext b
  apply Fin.ext
  match b with
  | ⟨0, _⟩ => show r0 + 1 * r.val = r0 + r.val; omega
  | ⟨1, _⟩ => show 0 + 1 * c.val = c.val; omega

/-! ## A fetch landed in a slot -/

/-- A fetch of group `G` landed in slot `pin` makes the slot hold the group. -/
theorem landX_gen (pin : Fin 2) (offs : Fin 4 → ℕ) (inbs : ∀ a, offs a + S1x4x4x128.size a ≤ S2x4x4x128.size a)
    (hoffs : offs = ![pin.val, 0, 0, 0])
    (G : ℕ) (hG : G < 50) (off : Fin 3 → ℕ) (inb : ∀ a, off a + S4x4x128.size a ≤ S200x128x128.size a) (hoff : off = ![4 * G, 4 * (widL L).val, 0])
    (fd : Buf (Elt F) ((((sX : Memref sig .scVector .vmem S2x4x4x128 .f32).slice (Rect.unit (s := S2x4x4x128) offs S1x4x4x128.size inbs) (fun _ => rfl)).squeeze S4x4x128
        squeezes_S1x4x4x128_S4x4x128).view.loc (V d (cV L) (jV L)))) :
    XsOk X d L G pin ((((sX : Memref sig .scVector .vmem S2x4x4x128 .f32).slice (Rect.unit (s := S2x4x4x128) offs S1x4x4x128.size inbs) (fun _ => rfl)).squeeze S4x4x128
        squeezes_S1x4x4x128_S4x4x128).view.writes (Elt F) fd [⟨Rect.whole S4x4x128,
      ReadAs.same.apply (((xV).slice (Rect.unit (s := S200x128x128) off S4x4x128.size inb) (fun _ => rfl)).view.read (Elt F) (X d))⟩]) := by
  intro hG' dl a c
  have hw := (widL L).isLt
  have hdl := dl.isLt
  have ha := a.isLt
  rw [← slot_emb pin offs inbs hoffs dl a c]
  have hr := congrFun (View.read_writes_whole
    (((sX : Memref sig .scVector .vmem S2x4x4x128 .f32).slice (Rect.unit (s := S2x4x4x128) offs S1x4x4x128.size inbs) (fun _ => rfl)).squeeze S4x4x128
      squeezes_S1x4x4x128_S4x4x128).view fd
    (ReadAs.same.apply (((xV).slice (Rect.unit (s := S200x128x128) off S4x4x128.size inb) (fun _ => rfl)).view.read (Elt F) (X d)))) (ix3 dl a c)
  refine Eq.trans hr ?_
  show X d (((xV : Memref sig .scVector .hbm S200x128x128 .f32).slice (Rect.unit (s := S200x128x128) off S4x4x128.size inb) (fun _ => rfl)).view.emb (ix3 dl a c)) = _
  rw [xslice_emb (4 * G) (4 * (widL L).val) off inb hoff dl a c (by omega) (by omega)]

theorem landX_ok : LandX X d L where
  l0 := fun G hG off inb hoff fd => landX_gen X d L 0 _ _ rfl G hG off inb hoff fd
  l1 := fun G hG off inb hoff fd => landX_gen X d L 1 _ _ rfl G hG off inb hoff fd

/-! ## A half plane copied out to its slice of the result -/

/-- Half `h` of plane `dl` of the output scratch holding the tile's rows of plane `4 G + dl`, copied out to its slice of the
    result array, leaves the kernel's value on the slice. -/
theorem landO_gen (dl : Fin 4) (h : Fin 2) (offs : Fin 3 → ℕ) (inbs : ∀ a, offs a + S1x32x128.size a ≤ S4x64x128.size a)
    (hoffs : offs = ![dl.val, 32 * h.val, 0])
    (G : ℕ) (hG : G < 50) (off : Fin 2 → ℕ) (inb : ∀ a, off a + S32x128.size a ≤ S409600x128.size a)
    (hoff : off = ![(planeOf G hG dl).val * 2048 + h.val * 1024 + (widL L).val * 32, 0])
    (fd : Buf (Elt F) (((oV).slice (Rect.unit (s := S409600x128) off S32x128.size inb) (fun _ => rfl)).view.loc (V d (cV L) (jV L))))
    (g : Buf (Elt F) ((((sO : Memref sig .scVector .vmem S4x64x128 .f32).slice (Rect.unit (s := S4x64x128) offs S1x32x128.size inbs) (fun _ => rfl)).squeeze S32x128
        squeezes_S1x32x128_S32x128).view.loc (V d (cV L) (jV L))))
    (hg : OhOk X d L G dl h g) :
    ∀ i ∈ oSet (widL L) (planeOf G hG dl) h,
      landO d L ((oV).slice (Rect.unit (s := S409600x128) off S32x128.size inb) (fun _ => rfl))
        (((sO : Memref sig .scVector .vmem S4x64x128 .f32).slice (Rect.unit (s := S4x64x128) offs S1x32x128.size inbs) (fun _ => rfl)).squeeze S32x128
          squeezes_S1x32x128_S32x128) fd g i = outLinF (X d) i := by
  intro i hi
  have hw := (widL L).isLt
  have hdl := dl.isLt
  have hh := h.isLt
  rw [← set_oSlice inb (widL L) (planeOf G hG dl) h hoff] at hi
  obtain ⟨y, rfl⟩ := View.exists_emb_of_mem_set _ hi
  obtain ⟨r, c, rfl⟩ : ∃ (r : Fin 32) (c : Fin 128), y = ix2 r c := ⟨y 0, y 1, eq_ix2 y⟩
  have hr32 := r.isLt
  have hr := congrFun (View.read_writes_whole
    ((oV : Memref sig .scVector .hbm S409600x128 .f32).slice (Rect.unit (s := S409600x128) off S32x128.size inb) (fun _ => rfl)).view fd
    (ReadAs.same.apply ((((sO : Memref sig .scVector .vmem S4x64x128 .f32).slice (Rect.unit (s := S4x64x128) offs S1x32x128.size inbs) (fun _ => rfl)).squeeze S32x128
      squeezes_S1x32x128_S32x128).view.read (Elt F) g))) (ix2 r c)
  refine Eq.trans hr ?_
  show g ((((sO : Memref sig .scVector .vmem S4x64x128 .f32).slice (Rect.unit (s := S4x64x128) offs S1x32x128.size inbs) (fun _ => rfl)).squeeze S32x128
      squeezes_S1x32x128_S32x128).view.emb (ix2 r c)) = _
  rw [half_emb dl h offs inbs hoffs r c, hg hG r c,
    oslice_emb ((planeOf G hG dl).val * 2048 + h.val * 1024 + (widL L).val * 32) off inb hoff r c (by rw [planeOf_val]; omega)]
  rfl

theorem landO_ok : LandO X d L where
  l00 := fun G hG off inb hoff fd g hg => landO_gen X d L 0 0 _ _ rfl G hG off inb hoff fd g hg
  l01 := fun G hG off inb hoff fd g hg => landO_gen X d L 0 1 _ _ rfl G hG off inb hoff fd g hg
  l10 := fun G hG off inb hoff fd g hg => landO_gen X d L 1 0 _ _ rfl G hG off inb hoff fd g hg
  l11 := fun G hG off inb hoff fd g hg => landO_gen X d L 1 1 _ _ rfl G hG off inb hoff fd g hg
  l20 := fun G hG off inb hoff fd g hg => landO_gen X d L 2 0 _ _ rfl G hG off inb hoff fd g hg
  l21 := fun G hG off inb hoff fd g hg => landO_gen X d L 2 1 _ _ rfl G hG off inb hoff fd g hg
  l30 := fun G hG off inb hoff fd g hg => landO_gen X d L 3 0 _ _ rfl G hG off inb hoff fd g hg
  l31 := fun G hG off inb hoff fd g hg => landO_gen X d L 3 1 _ _ rfl G hG off inb hoff fd g hg

end Cert.Kernel.Hand

end
-- ==== Proof.InnerMathK.lean ====
/-
  The inner loops of the tile kernel, without the program: which element of the computed planes each of a plane's 32
  blocks writes, what it writes there, and the step from "blocks below k are done" to "blocks below k + 1 are done" when
  block k's sixteen rows are stored.

  A computed plane out_v[dl] is [64, 128]. Block b (of 32) reads the sixteen words x_v[pin, dl, b / 8, 16 (b % 8) ..] and
  stores, for each bit i (of 16), the sixteen lanes of bit i of their Gray codes at row 32 (i / 8) + 8 (b / 8) + i % 8,
  columns 16 (b % 8) ..: rows [0, 32) (bits 0..7) are the plane's first half, rows [32, 64) (bits 8..15) its second.
  So element (dl, r, c) belongs to block 8 (r % 32 / 8) + c / 16, bit 8 (r / 32) + r % 8, lane c % 16.
-/
import proofs.«209186_g8847632630064_cont_9to1c4b_396_28_alg».proof.Proof.CommonK
import Idealize.ShloMosaic.Lib.WritesUnit
import Idealize.ShloMosaic.Lib.Pipeline.Value
import Idealize.ShloMosaic.Lib.ValueIdx

noncomputable section

namespace Cert.Kernel.Hand.Inner

open Cert.Kernel Cert.Kernel.Gen Cert.Kernel.Hand

open Idealize.ShloMosaic
open Idealize.ShloMosaic.ValueIdx

variable {F : FTy → Type} [FloatOps F]

/-! ## A list of equal tiles read at an element none of them covers -/

section Miss

variable {sig : RefSig} {κ : Kind} {sp : Space} {s : Shape} {e : EltTy} {Val : EltTy → Type} {NT : ℕ}
variable (v : View sig κ sp s e) (f : v.ty.Contents Val) (tsz : Fin s.rank → ℕ) (off : Fin NT → Fin s.rank → ℕ)
  (inb : ∀ i a, off i a + tsz a ≤ s.size a) (P : Fin NT → (⟨s.rank, tsz⟩ : Shape).Idx → Val e)

/-- An element that misses every tile on some axis reads what was there before the tiles were stored. -/
theorem read_tilePieces_miss (j : ℕ) (hj : j ≤ NT) (y : s.Idx)
    (hmiss : ∀ i : Fin NT, ∃ a, (y a).val < off i a ∨ off i a + tsz a ≤ (y a).val) :
    v.read Val (v.writes Val f (View.tilePieces tsz off inb P j hj)) y = v.read Val f y := by
  induction j with
  | zero => rfl
  | succ j ih =>
    rw [View.tilePieces_succ]
    obtain ⟨a, ha⟩ := hmiss ⟨j, hj⟩
    rw [View.read_writes_cons_unit_of_not_mem v f (inb ⟨j, hj⟩) (P ⟨j, hj⟩) _ y rfl a ha]
    exact ih (Nat.le_of_succ_le hj)

end Miss

/-! ## Blocks, bits, lanes -/

/-- The block an element of a computed plane belongs to. -/
def oBlk (y : S4x64x128.Idx) : ℕ := (y 1).val % 32 / 8 * 8 + (y 2).val / 16

/-- The bit of the Gray code an element of a computed plane holds. -/
def oBit (y : S4x64x128.Idx) : Fin 16 :=
  ⟨(y 1).val / 32 * 8 + (y 1).val % 8, by have h1 : (y 1).val < 64 := (y 1).isLt; omega⟩

/-- The sixteen words of plane dl of fetched group pin that block b reads. -/
def xBlk (fx : S2x4x4x128.Idx → Elt F .f32) (pin : Fin 2) (dl : Fin 4) (b : ℕ) : Vec F S16 .f32 :=
  fun l => fx (ix4 pin dl (⟨b / 8 % 4, Nat.mod_lt _ (by decide)⟩ : Fin 4)
    (⟨(b % 8 * 16 + (l 0).val) % 128, Nat.mod_lt _ (by decide)⟩ : Fin 128))

/-- What the finished loop leaves at element y of plane dl. -/
def oVal (fx : S2x4x4x128.Idx → Elt F .f32) (pin : Fin 2) (dl : Fin 4) (y : S4x64x128.Idx) : Elt F .f32 :=
  gcVec (oBit y) (xBlk fx pin dl (oBlk y)) (ix1 (⟨(y 2).val % 16, Nat.mod_lt _ (by decide)⟩ : Fin 16))

/-- Half h of plane dl after the blocks below k: their elements at the loop's value, every other element as f0 has it. -/
def GoodH (fx : S2x4x4x128.Idx → Elt F .f32) (pin : Fin 2) (dl : Fin 4) (h : Fin 2) (f0 g : S4x64x128.Idx → Elt F .f32) (k : ℕ) : Prop :=
  ∀ y : S4x64x128.Idx, g y = if (y 0).val = dl.val ∧ (y 1).val / 32 = h.val ∧ oBlk y < k then oVal fx pin dl y else f0 y

theorem goodH_zero (fx : S2x4x4x128.Idx → Elt F .f32) (pin : Fin 2) (dl : Fin 4) (h : Fin 2) (f0 : S4x64x128.Idx → Elt F .f32) :
    GoodH fx pin dl h f0 f0 0 := fun y => by
  rw [if_neg]; rintro ⟨-, -, h⟩; exact Nat.not_lt_zero _ h

/-- One block's eight rows of half h, stored over contents good below k, leave contents good below k + 1. -/
theorem goodH_step (fx : S2x4x4x128.Idx → Elt F .f32) (pin : Fin 2) (dl : Fin 4) (h : Fin 2) (f0 : S4x64x128.Idx → Elt F .f32)
    (g : S4x64x128.Idx → Elt F .f32) (k : ℕ) (hk : k < 32)
    (off : Fin 8 → Fin 3 → ℕ) (inb : ∀ i a, off i a + S1x1x16.size a ≤ S4x64x128.size a)
    (hoff : ∀ i : Fin 8, off i = ![dl.val, 32 * h.val + k / 8 * 8 + i.val, k % 8 * 16])
    (xv : Vec F S16 .f32) (hxv : xv = xBlk fx pin dl k)
    (P : Fin 8 → (⟨3, S1x1x16.size⟩ : Shape).Idx → Elt F .f32)
    (hP : ∀ i : Fin 8, P i = shapeCast S1x1x16 (gcVec (⟨8 * h.val + i.val, by omega⟩ : Fin 16) xv) shapeCasts_S16_S1x1x16)
    (hg : GoodH fx pin dl h f0 g k) :
    GoodH fx pin dl h f0 ((sO : Memref sig .scVector .vmem S4x64x128 .f32).view.writes (Elt F) g (View.tilePieces S1x1x16.size off inb P 8 le_rfl)) (k + 1) := by
  intro y
  show (sO : Memref sig .scVector .vmem S4x64x128 .f32).view.read (Elt F) ((sO : Memref sig .scVector .vmem S4x64x128 .f32).view.writes (Elt F) g (View.tilePieces S1x1x16.size off inb P 8 le_rfl)) y = _
  have h0 : (y 0).val < 4 := (y 0).isLt
  have h1 : (y 1).val < 64 := (y 1).isLt
  have h2 : (y 2).val < 128 := (y 2).isLt
  have hd : dl.val < 4 := dl.isLt
  have hh : h.val < 2 := h.isLt
  by_cases hy : (y 0).val = dl.val ∧ (y 1).val / 32 = h.val ∧ oBlk y = k
  · obtain ⟨hy0, hy1, hyb⟩ := hy
    have hi : (y 1).val % 8 < 8 := Nat.mod_lt _ (by decide)
    have hl : (y 2).val % 16 < 16 := Nat.mod_lt _ (by decide)
    have hyb' : (y 1).val % 32 / 8 * 8 + (y 2).val / 16 = k := hyb
    rw [if_pos ⟨hy0, hy1, by omega⟩]
    rw [View.read_tilePieces (sO : Memref sig .scVector .vmem S4x64x128 .f32).view g S1x1x16.size off inb P 8 le_rfl y ⟨(y 1).val % 8, hi⟩ hi
      (ix3 (0 : Fin 1) (0 : Fin 1) (⟨(y 2).val % 16, hl⟩ : Fin 16))
      (fun a => by
        rw [hoff]
        match a with
        | ⟨0, _⟩ => show (y 0).val = dl.val + 0; omega
        | ⟨1, _⟩ => show (y 1).val = 32 * h.val + k / 8 * 8 + (y 1).val % 8 + 0; omega
        | ⟨2, _⟩ => show (y 2).val = k % 8 * 16 + (y 2).val % 16; omega)
      (1 : Fin 3)
      (fun i' hne => by
        rw [hoff]
        have : i'.val ≠ (y 1).val % 8 := fun e => hne (Fin.ext e)
        have hi' : i'.val < 8 := i'.isLt
        show (y 1).val < 32 * h.val + k / 8 * 8 + i'.val ∨ 32 * h.val + k / 8 * 8 + i'.val + 1 ≤ (y 1).val
        omega)]
    rw [hP, shapeCast_apply _ _ _ (ix1 (⟨(y 2).val % 16, hl⟩ : Fin 16)) (by
      rw [Shape.rowMajor_val_one, Shape.rowMajor_val_three]
      show (y 2).val % 16 = (0 * 1 + 0) * 16 + (y 2).val % 16
      omega)]
    have e1 : (⟨8 * h.val + (y 1).val % 8, by omega⟩ : Fin 16) = oBit y := Fin.ext (by show 8 * h.val + (y 1).val % 8 = (y 1).val / 32 * 8 + (y 1).val % 8; omega)
    show gcVec _ xv _ = gcVec (oBit y) (xBlk fx pin dl (oBlk y)) _
    rw [e1, hxv, hyb]
  · have hmiss : ∀ i : Fin 8, ∃ a, (y a).val < off i a ∨ off i a + S1x1x16.size a ≤ (y a).val := by
      intro i
      have hi' : i.val < 8 := i.isLt
      rw [hoff]
      by_cases hy0 : (y 0).val = dl.val
      · by_cases hy2 : (y 2).val / 16 = k % 8
        · refine ⟨(1 : Fin 3), ?_⟩
          show (y 1).val < 32 * h.val + k / 8 * 8 + i.val ∨ 32 * h.val + k / 8 * 8 + i.val + 1 ≤ (y 1).val
          have : (y 1).val ≠ 32 * h.val + k / 8 * 8 + i.val := fun e => hy ⟨hy0, by omega, by show (y 1).val % 32 / 8 * 8 + (y 2).val / 16 = k; omega⟩
          omega
        · refine ⟨(2 : Fin 3), ?_⟩
          show (y 2).val < k % 8 * 16 ∨ k % 8 * 16 + 16 ≤ (y 2).val
          omega
      · refine ⟨(0 : Fin 3), ?_⟩
        show (y 0).val < dl.val ∨ dl.val + 1 ≤ (y 0).val
        omega
    rw [read_tilePieces_miss (sO : Memref sig .scVector .vmem S4x64x128 .f32).view g S1x1x16.size off inb P 8 le_rfl y hmiss]
    show g y = _
    rw [hg y]
    have hc : ((y 0).val = dl.val ∧ (y 1).val / 32 = h.val ∧ oBlk y < k + 1) ↔ ((y 0).val = dl.val ∧ (y 1).val / 32 = h.val ∧ oBlk y < k) := by
      constructor
      · rintro ⟨a, b, c⟩
        have : oBlk y ≠ k := fun e => hy ⟨a, b, e⟩
        exact ⟨a, b, by omega⟩
      · rintro ⟨a, b, c⟩
        exact ⟨a, b, by omega⟩
    simp only [hc]

/-- After all 32 blocks: plane dl's half h at the loop's value everywhere. -/
theorem goodH_done (fx : S2x4x4x128.Idx → Elt F .f32) (pin : Fin 2) (dl : Fin 4) (h : Fin 2) (f0 g : S4x64x128.Idx → Elt F .f32)
    (hg : GoodH fx pin dl h f0 g 32) (y : S4x64x128.Idx) (hy0 : (y 0).val = dl.val) (hy1 : (y 1).val / 32 = h.val) :
    g y = oVal fx pin dl y := by
  have h1 : (y 1).val < 64 := (y 1).isLt
  have h2 : (y 2).val < 128 := (y 2).isLt
  rw [hg y, if_pos ⟨hy0, hy1, by show (y 1).val % 32 / 8 * 8 + (y 2).val / 16 < 32; omega⟩]

/-- The vector a block loads is its sixteen words. -/
theorem xload_eq (fx : S2x4x4x128.Idx → Elt F .f32) (pin : Fin 2) (dl : Fin 4) (k : ℕ) (hk : k < 32)
    (off6 : Fin 4 → ℕ) (inb6 : ∀ a, off6 a + S1x1x1x16.size a ≤ S2x4x4x128.size a)
    (h6 : off6 = ![pin.val, dl.val, k / 8, k % 8 * 16]) :
    shapeCast S16 (View.readAt (Elt F) (sX : Memref sig .scVector .vmem S2x4x4x128 .f32).view (Rect.unit (s := S2x4x4x128) off6 S1x1x1x16.size inb6).toLoadRect fx) shapeCasts_S1x1x1x16_S16
      = xBlk fx pin dl k := by
  subst h6
  funext l
  have hl : (l 0).val < 16 := (l 0).isLt
  rw [shapeCast_apply _ _ l (ix4 (0 : Fin 1) (0 : Fin 1) (0 : Fin 1) (⟨(l 0).val, hl⟩ : Fin 16)) (by
    rw [Shape.rowMajor_val_four, Shape.rowMajor_val_one]
    show ((0 * 1 + 0) * 1 + 0) * 16 + (l 0).val = (l 0).val
    omega)]
  rw [View.readAt_apply]
  unfold xBlk
  congr 1
  funext a
  apply Fin.ext
  match a with
  | ⟨0, _⟩ => show pin.val + 1 * 0 = pin.val; omega
  | ⟨1, _⟩ => show dl.val + 1 * 0 = dl.val; omega
  | ⟨2, _⟩ => show k / 8 + 1 * 0 = k / 8 % 4; omega
  | ⟨3, _⟩ => show k % 8 * 16 + 1 * (l 0).val = (k % 8 * 16 + (l 0).val) % 128; omega

/-! ## The tile's thread, and its scratch slices as the transfers address them -/

open Idealize.ShloMosaic.SparseCore (S V T)

/-- The tile's thread at grid point L of device d. -/
abbrev tV (d : Dev nD) (L : grid0.Coords) : Thread nD τ := V d (cV L) (jV L)

/-- Fetched group pin: x_v[pin] as a [4, 4, 128] array. -/
abbrev xs0 : Memref sig .scVector .vmem S4x4x128 .f32 := ((sX : Memref sig .scVector .vmem S2x4x4x128 .f32).slice (Rect.unit (s := S2x4x4x128) ![0, 0, 0, 0] S1x4x4x128.size inb_S2x4x4x128_S1x4x4x128_0_0_0_0) (fun _ => rfl)).squeeze S4x4x128 squeezes_S1x4x4x128_S4x4x128
abbrev xs1 : Memref sig .scVector .vmem S4x4x128 .f32 := ((sX : Memref sig .scVector .vmem S2x4x4x128 .f32).slice (Rect.unit (s := S2x4x4x128) ![1, 0, 0, 0] S1x4x4x128.size inb_S2x4x4x128_S1x4x4x128_1_0_0_0) (fun _ => rfl)).squeeze S4x4x128 squeezes_S1x4x4x128_S4x4x128
/-- Half 0 of computed plane 0: out_v[0, 0 : 32] as a [32, 128] array. -/
abbrev oh00 : Memref sig .scVector .vmem S32x128 .f32 := ((sO : Memref sig .scVector .vmem S4x64x128 .f32).slice (Rect.unit (s := S4x64x128) ![0, 0, 0] S1x32x128.size inb_S4x64x128_S1x32x128_0_0_0) (fun _ => rfl)).squeeze S32x128 squeezes_S1x32x128_S32x128
/-- Half 1 of computed plane 0: out_v[0, 32 : 64] as a [32, 128] array. -/
abbrev oh01 : Memref sig .scVector .vmem S32x128 .f32 := ((sO : Memref sig .scVector .vmem S4x64x128 .f32).slice (Rect.unit (s := S4x64x128) ![0, 32, 0] S1x32x128.size inb_S4x64x128_S1x32x128_0_32_0) (fun _ => rfl)).squeeze S32x128 squeezes_S1x32x128_S32x128
/-- Half 0 of computed plane 1: out_v[1, 0 : 32] as a [32, 128] array. -/
abbrev oh10 : Memref sig .scVector .vmem S32x128 .f32 := ((sO : Memref sig .scVector .vmem S4x64x128 .f32).slice (Rect.unit (s := S4x64x128) ![1, 0, 0] S1x32x128.size inb_S4x64x128_S1x32x128_1_0_0) (fun _ => rfl)).squeeze S32x128 squeezes_S1x32x128_S32x128
/-- Half 1 of computed plane 1: out_v[1, 32 : 64] as a [32, 128] array. -/
abbrev oh11 : Memref sig .scVector .vmem S32x128 .f32 := ((sO : Memref sig .scVector .vmem S4x64x128 .f32).slice (Rect.unit (s := S4x64x128) ![1, 32, 0] S1x32x128.size inb_S4x64x128_S1x32x128_1_32_0) (fun _ => rfl)).squeeze S32x128 squeezes_S1x32x128_S32x128
/-- Half 0 of computed plane 2: out_v[2, 0 : 32] as a [32, 128] array. -/
abbrev oh20 : Memref sig .scVector .vmem S32x128 .f32 := ((sO : Memref sig .scVector .vmem S4x64x128 .f32).slice (Rect.unit (s := S4x64x128) ![2, 0, 0] S1x32x128.size inb_S4x64x128_S1x32x128_2_0_0) (fun _ => rfl)).squeeze S32x128 squeezes_S1x32x128_S32x128
/-- Half 1 of computed plane 2: out_v[2, 32 : 64] as a [32, 128] array. -/
abbrev oh21 : Memref sig .scVector .vmem S32x128 .f32 := ((sO : Memref sig .scVector .vmem S4x64x128 .f32).slice (Rect.unit (s := S4x64x128) ![2, 32, 0] S1x32x128.size inb_S4x64x128_S1x32x128_2_32_0) (fun _ => rfl)).squeeze S32x128 squeezes_S1x32x128_S32x128
/-- Half 0 of computed plane 3: out_v[3, 0 : 32] as a [32, 128] array. -/
abbrev oh30 : Memref sig .scVector .vmem S32x128 .f32 := ((sO : Memref sig .scVector .vmem S4x64x128 .f32).slice (Rect.unit (s := S4x64x128) ![3, 0, 0] S1x32x128.size inb_S4x64x128_S1x32x128_3_0_0) (fun _ => rfl)).squeeze S32x128 squeezes_S1x32x128_S32x128
/-- Half 1 of computed plane 3: out_v[3, 32 : 64] as a [32, 128] array. -/
abbrev oh31 : Memref sig .scVector .vmem S32x128 .f32 := ((sO : Memref sig .scVector .vmem S4x64x128 .f32).slice (Rect.unit (s := S4x64x128) ![3, 32, 0] S1x32x128.size inb_S4x64x128_S1x32x128_3_32_0) (fun _ => rfl)).squeeze S32x128 squeezes_S1x32x128_S32x128

end Cert.Kernel.Hand.Inner

end
-- ==== Proof.TileGoodK.lean ====
/-
  The link between an inner loop's result and the kernel's value, as the outer trip cites it.
-/
import proofs.«209186_g8847632630064_cont_9to1c4b_396_28_alg».proof.Proof.CommonK
import proofs.«209186_g8847632630064_cont_9to1c4b_396_28_alg».proof.Proof.TileBufsK
import proofs.«209186_g8847632630064_cont_9to1c4b_396_28_alg».proof.Proof.TileSlicesK
import proofs.«209186_g8847632630064_cont_9to1c4b_396_28_alg».proof.Proof.TileInvK
import proofs.«209186_g8847632630064_cont_9to1c4b_396_28_alg».proof.Proof.InnerMathK

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop shareTokN)
open Idealize.ShloMosaic.Tactic

variable {F : FTy → Type}

local notation "𝕄" => MT nD τ sig (HIx 1) (Elt F) ℕ UU ℕ

variable [FloatOps F]
variable (X : (d : Dev nD) → Buf (Elt F) (x3Loc d))
variable (d : Dev nD) (L : grid0.Coords)

open Idealize.ShloMosaic.ValueIdx

/-- An inner loop run to its end over a slot holding group `G` leaves the half plane holding the tile's rows of o. -/
structure GoodOk : Prop where
  good : ∀ (G : ℕ) (_ : G < 50) (pin : Fin 2) (dl : Fin 4) (h : Fin 2) (fx : S2x4x4x128.Idx → Elt F .f32) (f0 g : S4x64x128.Idx → Elt F .f32),
    XsOk X d L G pin fx → Inner.GoodH fx pin dl h f0 g 32 → OhOk X d L G dl h g

end Cert.Kernel.Hand

end
-- ==== Proof.TileGoodOkK.lean ====
/-
  The inner loop's result is the kernel's value: when a slot of the input scratch holds a group of four planes (the
  tile's four rows of each) and an inner loop has stored all 32 blocks of a half plane from it, the half plane holds
  the tile's rows of the result array for its plane — block by block, bit by bit, lane by lane the same sixteen
  words and the same bit of their Gray codes.
-/
import proofs.«209186_g8847632630064_cont_9to1c4b_396_28_alg».proof.Proof.TileGoodK

noncomputable section

namespace Cert.Kernel.Hand

open Cert.Kernel Cert.Kernel.Gen

open Idealize.ShloMosaic
open Idealize.ShloMosaic.SparseCore (S V T)
open Idealize.ShloMosaic.ValueIdx

variable {F : FTy → Type}
variable [FloatOps F]
variable (X : (d : Dev nD) → Buf (Elt F) (x3Loc d))
variable (d : Dev nD) (L : grid0.Coords)

/-- Element `[dl, 32 h + r, c]` of the computed planes is row `(4 G + dl) · 2048 + h · 1024 + 32 w + r`, column `c` of the
    result: the same bit `8 h + r % 8`, the same lane `c % 16`, of the same sixteen words — plane `4 G + dl`, row
    `4 w + r / 8`, columns `c / 16 · 16 ..` of the operand, which the slot holds at `[pin, dl, r / 8, ·]`. -/
theorem goodOk : GoodOk X d L where
  good := by
    intro G hG pin dl h fx f0 g hX hgood hG' r c
    have hw := (widL L).isLt
    have hdl := dl.isLt
    have hh := h.isLt
    have hr := r.isLt
    have hc := c.isLt
    -- the finished loop's value at the element
    rw [Inner.goodH_done fx pin dl h f0 g hgood (ix3 dl (⟨32 * h.val + r.val, by omega⟩ : Fin 64) c) rfl
      (by show (32 * h.val + r.val) / 32 = h.val; omega)]
    unfold Inner.oVal outLinF
    -- the same bit
    have ebit : Inner.oBit (ix3 dl (⟨32 * h.val + r.val, by omega⟩ : Fin 64) c)
        = (⟨((4 * G + dl.val) * 2048 + h.val * 1024 + (widL L).val * 32 + r.val) % 2048 / 1024 * 8
            + ((4 * G + dl.val) * 2048 + h.val * 1024 + (widL L).val * 32 + r.val) % 8, by omega⟩ : Fin 16) :=
      Fin.ext (by
        show (32 * h.val + r.val) / 32 * 8 + (32 * h.val + r.val) % 8
          = ((4 * G + dl.val) * 2048 + h.val * 1024 + (widL L).val * 32 + r.val) % 2048 / 1024 * 8
            + ((4 * G + dl.val) * 2048 + h.val * 1024 + (widL L).val * 32 + r.val) % 8
        omega)
    -- the same sixteen words
    have evec : Inner.xBlk fx pin dl (Inner.oBlk (ix3 dl (⟨32 * h.val + r.val, by omega⟩ : Fin 64) c))
        = fun l : S16.Idx => X d (ix3 (⟨((4 * G + dl.val) * 2048 + h.val * 1024 + (widL L).val * 32 + r.val) / 2048, by omega⟩ : Fin 200)
            (⟨((4 * G + dl.val) * 2048 + h.val * 1024 + (widL L).val * 32 + r.val) % 1024 / 8, by omega⟩ : Fin 128)
            (⟨c.val / 16 * 16 + (l 0).val, by have hl : (l 0).val < 16 := (l 0).isLt; omega⟩ : Fin 128)) := by
      funext l
      have hl : (l 0).val < 16 := (l 0).isLt
      unfold Inner.xBlk
      have hb : Inner.oBlk (ix3 dl (⟨32 * h.val + r.val, by omega⟩ : Fin 64) c) = (32 * h.val + r.val) % 32 / 8 * 8 + c.val / 16 := rfl
      rw [hb, hX hG]
      congr 1
      funext b
      apply Fin.ext
      match b with
      | ⟨0, _⟩ =>
        show 4 * G + dl.val = ((4 * G + dl.val) * 2048 + h.val * 1024 + (widL L).val * 32 + r.val) / 2048
        omega
      | ⟨1, _⟩ =>
        show 4 * (widL L).val + ((32 * h.val + r.val) % 32 / 8 * 8 + c.val / 16) / 8 % 4
          = ((4 * G + dl.val) * 2048 + h.val * 1024 + (widL L).val * 32 + r.val) % 1024 / 8
        omega
      | ⟨2, _⟩ =>
        show (((32 * h.val + r.val) % 32 / 8 * 8 + c.val / 16) % 8 * 16 + (l 0).val) % 128 = c.val / 16 * 16 + (l 0).val
        omega
    rw [ebit, evec]

end Cert.Kernel.Hand

end
-- ==== Proof.InnerLoopAK.lean ====
/-
  The inner loops 2 and 3 of the tile kernel (planes 0 and 1 of fetched group 0): the closed forms of the
  offsets a block's load and its sixteen stores use, the loop's invariant — the fetched group unchanged, each half of the
  plane at the loop's value on the blocks done and as it was elsewhere —, one trip of the loop from the invariant at k to
  the invariant at k + 1, and the whole loop from it.
-/
import proofs.«209186_g8847632630064_cont_9to1c4b_396_28_alg».proof.Proof.InnerMathK

noncomputable section

namespace Cert.Kernel.Hand.Inner

open Cert.Kernel Cert.Kernel.Gen Cert.Kernel.Hand

open Idealize.ShloMosaic
open Idealize.ShloMosaic.ValueIdx

variable {F : FTy → Type} [FloatOps F]

open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 1) (Elt F) ℕ UU ℕ

/-! ## Loop 2: plane 0 of fetched group 0 -/

theorem off6_eq : ∀ k : Fin k0_t2_loop.trips, k0_off6 k = ![0, 0, k.val / 8, k.val % 8 * 16] := by decide +kernel
theorem off7_eq : ∀ (k : Fin k0_t2_loop.trips) (r₁ : Fin 2) (r₂ : Fin 8),
    k0_off7 k (BitVec.ofNat 32 (32 * r₁.val)) (BitVec.ofNat 32 r₂.val) = ![0, 32 * r₁.val + k.val / 8 * 8 + r₂.val, k.val % 8 * 16] := by decide +kernel
instance closedOff6 (k : Fin k0_t2_loop.trips) : ClosedOff (k0_off6 k) := ⟨_, off6_eq k⟩
instance closedOff7_0_0 (k : Fin k0_t2_loop.trips) : ClosedOff (k0_off7 k 0#32 0#32) := ⟨_, off7_eq k 0 0⟩
instance closedOff7_0_1 (k : Fin k0_t2_loop.trips) : ClosedOff (k0_off7 k 0#32 1#32) := ⟨_, off7_eq k 0 1⟩
instance closedOff7_0_2 (k : Fin k0_t2_loop.trips) : ClosedOff (k0_off7 k 0#32 2#32) := ⟨_, off7_eq k 0 2⟩
instance closedOff7_0_3 (k : Fin k0_t2_loop.trips) : ClosedOff (k0_off7 k 0#32 3#32) := ⟨_, off7_eq k 0 3⟩
instance closedOff7_0_4 (k : Fin k0_t2_loop.trips) : ClosedOff (k0_off7 k 0#32 4#32) := ⟨_, off7_eq k 0 4⟩
instance closedOff7_0_5 (k : Fin k0_t2_loop.trips) : ClosedOff (k0_off7 k 0#32 5#32) := ⟨_, off7_eq k 0 5⟩
instance closedOff7_0_6 (k : Fin k0_t2_loop.trips) : ClosedOff (k0_off7 k 0#32 6#32) := ⟨_, off7_eq k 0 6⟩
instance closedOff7_0_7 (k : Fin k0_t2_loop.trips) : ClosedOff (k0_off7 k 0#32 7#32) := ⟨_, off7_eq k 0 7⟩
instance closedOff7_1_0 (k : Fin k0_t2_loop.trips) : ClosedOff (k0_off7 k 32#32 0#32) := ⟨_, off7_eq k 1 0⟩
instance closedOff7_1_1 (k : Fin k0_t2_loop.trips) : ClosedOff (k0_off7 k 32#32 1#32) := ⟨_, off7_eq k 1 1⟩
instance closedOff7_1_2 (k : Fin k0_t2_loop.trips) : ClosedOff (k0_off7 k 32#32 2#32) := ⟨_, off7_eq k 1 2⟩
instance closedOff7_1_3 (k : Fin k0_t2_loop.trips) : ClosedOff (k0_off7 k 32#32 3#32) := ⟨_, off7_eq k 1 3⟩
instance closedOff7_1_4 (k : Fin k0_t2_loop.trips) : ClosedOff (k0_off7 k 32#32 4#32) := ⟨_, off7_eq k 1 4⟩
instance closedOff7_1_5 (k : Fin k0_t2_loop.trips) : ClosedOff (k0_off7 k 32#32 5#32) := ⟨_, off7_eq k 1 5⟩
instance closedOff7_1_6 (k : Fin k0_t2_loop.trips) : ClosedOff (k0_off7 k 32#32 6#32) := ⟨_, off7_eq k 1 6⟩
instance closedOff7_1_7 (k : Fin k0_t2_loop.trips) : ClosedOff (k0_off7 k 32#32 7#32) := ⟨_, off7_eq k 1 7⟩

/-- Before block k of loop 2: group 0 as fetched, the two halves of plane 0 good below k. -/
def inv2 (d : Dev nD) (L : grid0.Coords) (fx : S2x4x4x128.Idx → Elt F .f32) (f0 f1 : S4x64x128.Idx → Elt F .f32) (k : ℕ) (_ : Unit) : sProp 𝕄 :=
  iprop(((xs0).view.loc (tV d L) ↦[(xs0).view.set]{fullShare} fx)
    ∗ (∃ g0, ((oh00).view.loc (tV d L) ↦[(oh00).view.set]{fullShare} g0) ∗ ⌜GoodH fx 0 0 0 f0 g0 k⌝)
    ∗ (∃ g1, ((oh01).view.loc (tV d L) ↦[(oh01).view.set]{fullShare} g1) ∗ ⌜GoodH fx 0 0 1 f1 g1 k⌝))

/-- One trip of loop 2. -/
theorem region2 (d : Dev nD) (L : grid0.Coords) (v1 : BitVec 32) (c0_i32_22 : BitVec 32) (c1_i32_23 : BitVec 32) (k0_t1 : Fin k0_t1_loop.trips)
    (fx : S2x4x4x128.Idx → Elt F .f32) (f0 f1 : S4x64x128.Idx → Elt F .f32) :
    ∀ (k : Fin k0_t2_loop.trips) (acc : Unit), inv2 (F := F) d L fx f0 f1 k.val acc
      ⊢ wp frame (wpE (defs₀ (F := F)) 𝒱₀ (tV d L) none) Set.univ
          (k0_t2_body L xV (Memref.isWhole_whole _) oV (Memref.isWhole_whole _) sX (Memref.isWhole_whole _) sO (Memref.isWhole_whole _)
            cc0_scratch2 cc0_scratch3 cc0_scratch4 cc0_scratch5 cc0_scratch6 cc0_scratch7 cc0_scratch8 cc0_scratch9 cc0_scratch10 cc0_scratch11
            v1 c0_i32_22 c1_i32_23 k0_t1 k acc)
          (inv2 (F := F) d L fx f0 f1 (k.val + 1)) := by
  intro k acc
  have hk : k.val < 32 := Nat.lt_of_lt_of_le k.isLt k0_t2_abs.2.1
  unfold inv2
  iintro ⟨Hx, ⟨%g0, Ho0, %hg0⟩, ⟨%g1, Ho1, %hg1⟩⟩
  unfold k0_t2_body
  sl_exec_parts
  sl_step
  isplitl [Hx]; · iexact Hx
  isplitl [Ho0]
  · iexists _; isplitl [Ho0]; · iexact Ho0
    ipureintro
    exact goodH_step fx 0 0 0 f0 g0 k.val hk
      (fun i => k0_off7 k (BitVec.ofNat 32 (32 * (0 : Fin 2).val)) (BitVec.ofNat 32 i.val)) (fun i => k0_off7_inb k 0 i) (fun i => off7_eq k 0 i)
      _ (xload_eq fx 0 0 k.val hk _ (k0_off6_inb k) (off6_eq k))
      (fun i => shapeCast S1x1x16 (gcVec (⟨8 * (0 : Fin 2).val + i.val, by have := i.isLt; omega⟩ : Fin 16) _) shapeCasts_S16_S1x1x16) (fun i => rfl) hg0
  · iexists _; isplitl [Ho1]; · iexact Ho1
    ipureintro
    exact goodH_step fx 0 0 1 f1 g1 k.val hk
      (fun i => k0_off7 k (BitVec.ofNat 32 (32 * (1 : Fin 2).val)) (BitVec.ofNat 32 i.val)) (fun i => k0_off7_inb k 1 i) (fun i => off7_eq k 1 i)
      _ (xload_eq fx 0 0 k.val hk _ (k0_off6_inb k) (off6_eq k))
      (fun i => shapeCast S1x1x16 (gcVec (⟨8 * (1 : Fin 2).val + i.val, by have := i.isLt; omega⟩ : Fin 16) _) shapeCasts_S16_S1x1x16) (fun i => rfl) hg1

theorem trips2 : Scf.trips k0_t2_loop.lb k0_t2_loop.ub k0_t2_loop.st = 32 := by decide +kernel

/-- Loop 2 whole: from group 0 as fetched and the two halves of plane 0 at any contents, to the halves at the
    loop's value (on their own elements; elsewhere as they were). -/
theorem loop2 (d : Dev nD) (L : grid0.Coords) (v1 : BitVec 32) (c0_i32_22 : BitVec 32) (c1_i32_23 : BitVec 32) (k0_t1 : Fin k0_t1_loop.trips)
    (fx : S2x4x4x128.Idx → Elt F .f32) (f0 f1 : S4x64x128.Idx → Elt F .f32) :
    iprop(((xs0).view.loc (tV d L) ↦[(xs0).view.set]{fullShare} fx)
        ∗ ((oh00).view.loc (tV d L) ↦[(oh00).view.set]{fullShare} f0)
        ∗ ((oh01).view.loc (tV d L) ↦[(oh01).view.set]{fullShare} f1))
      ⊢ (wp frame (wpE (defs₀ (F := F)) 𝒱₀ (tV d L) none) Set.univ
          (Scf.Loop.for k0_t2_loop k0_t2_ok ⟨⟩
            (k0_t2_body L xV (Memref.isWhole_whole _) oV (Memref.isWhole_whole _) sX (Memref.isWhole_whole _) sO (Memref.isWhole_whole _)
              cc0_scratch2 cc0_scratch3 cc0_scratch4 cc0_scratch5 cc0_scratch6 cc0_scratch7 cc0_scratch8 cc0_scratch9 cc0_scratch10 cc0_scratch11
              v1 c0_i32_22 c1_i32_23 k0_t1))
          (fun _ => inv2 (F := F) d L fx f0 f1 32 ()) : sProp 𝕄) := by
  iintro ⟨Hx, Ho0, Ho1⟩
  sl_for (inv2 (F := F) d L fx f0 f1) $$ [Hx Ho0 Ho1]
  case region => exact region2 d L v1 c0_i32_22 c1_i32_23 k0_t1 fx f0 f1
  isplitl [Hx Ho0 Ho1]
  · unfold inv2
    isplitl [Hx]; · iexact Hx
    isplitl [Ho0]
    · iexists f0; isplitl [Ho0]; · iexact Ho0
      ipureintro; exact goodH_zero fx 0 0 0 f0
    · iexists f1; isplitl [Ho1]; · iexact Ho1
      ipureintro; exact goodH_zero fx 0 0 1 f1
  · rw [trips2]
    iintro %acc HI
    iexact HI

/-! ## Loop 3: plane 1 of fetched group 0 -/

theorem off12_eq : ∀ k : Fin k0_t3_loop.trips, k0_off12 k = ![0, 1, k.val / 8, k.val % 8 * 16] := by decide +kernel
theorem off13_eq : ∀ (k : Fin k0_t3_loop.trips) (r₁ : Fin 2) (r₂ : Fin 8),
    k0_off13 k (BitVec.ofNat 32 (32 * r₁.val)) (BitVec.ofNat 32 r₂.val) = ![1, 32 * r₁.val + k.val / 8 * 8 + r₂.val, k.val % 8 * 16] := by decide +kernel
instance closedOff12 (k : Fin k0_t3_loop.trips) : ClosedOff (k0_off12 k) := ⟨_, off12_eq k⟩
instance closedOff13_0_0 (k : Fin k0_t3_loop.trips) : ClosedOff (k0_off13 k 0#32 0#32) := ⟨_, off13_eq k 0 0⟩
instance closedOff13_0_1 (k : Fin k0_t3_loop.trips) : ClosedOff (k0_off13 k 0#32 1#32) := ⟨_, off13_eq k 0 1⟩
instance closedOff13_0_2 (k : Fin k0_t3_loop.trips) : ClosedOff (k0_off13 k 0#32 2#32) := ⟨_, off13_eq k 0 2⟩
instance closedOff13_0_3 (k : Fin k0_t3_loop.trips) : ClosedOff (k0_off13 k 0#32 3#32) := ⟨_, off13_eq k 0 3⟩
instance closedOff13_0_4 (k : Fin k0_t3_loop.trips) : ClosedOff (k0_off13 k 0#32 4#32) := ⟨_, off13_eq k 0 4⟩
instance closedOff13_0_5 (k : Fin k0_t3_loop.trips) : ClosedOff (k0_off13 k 0#32 5#32) := ⟨_, off13_eq k 0 5⟩
instance closedOff13_0_6 (k : Fin k0_t3_loop.trips) : ClosedOff (k0_off13 k 0#32 6#32) := ⟨_, off13_eq k 0 6⟩
instance closedOff13_0_7 (k : Fin k0_t3_loop.trips) : ClosedOff (k0_off13 k 0#32 7#32) := ⟨_, off13_eq k 0 7⟩
instance closedOff13_1_0 (k : Fin k0_t3_loop.trips) : ClosedOff (k0_off13 k 32#32 0#32) := ⟨_, off13_eq k 1 0⟩
instance closedOff13_1_1 (k : Fin k0_t3_loop.trips) : ClosedOff (k0_off13 k 32#32 1#32) := ⟨_, off13_eq k 1 1⟩
instance closedOff13_1_2 (k : Fin k0_t3_loop.trips) : ClosedOff (k0_off13 k 32#32 2#32) := ⟨_, off13_eq k 1 2⟩
instance closedOff13_1_3 (k : Fin k0_t3_loop.trips) : ClosedOff (k0_off13 k 32#32 3#32) := ⟨_, off13_eq k 1 3⟩
instance closedOff13_1_4 (k : Fin k0_t3_loop.trips) : ClosedOff (k0_off13 k 32#32 4#32) := ⟨_, off13_eq k 1 4⟩
instance closedOff13_1_5 (k : Fin k0_t3_loop.trips) : ClosedOff (k0_off13 k 32#32 5#32) := ⟨_, off13_eq k 1 5⟩
instance closedOff13_1_6 (k : Fin k0_t3_loop.trips) : ClosedOff (k0_off13 k 32#32 6#32) := ⟨_, off13_eq k 1 6⟩
instance closedOff13_1_7 (k : Fin k0_t3_loop.trips) : ClosedOff (k0_off13 k 32#32 7#32) := ⟨_, off13_eq k 1 7⟩

/-- Before block k of loop 3: group 0 as fetched, the two halves of plane 1 good below k. -/
def inv3 (d : Dev nD) (L : grid0.Coords) (fx : S2x4x4x128.Idx → Elt F .f32) (f0 f1 : S4x64x128.Idx → Elt F .f32) (k : ℕ) (_ : Unit) : sProp 𝕄 :=
  iprop(((xs0).view.loc (tV d L) ↦[(xs0).view.set]{fullShare} fx)
    ∗ (∃ g0, ((oh10).view.loc (tV d L) ↦[(oh10).view.set]{fullShare} g0) ∗ ⌜GoodH fx 0 1 0 f0 g0 k⌝)
    ∗ (∃ g1, ((oh11).view.loc (tV d L) ↦[(oh11).view.set]{fullShare} g1) ∗ ⌜GoodH fx 0 1 1 f1 g1 k⌝))

/-- One trip of loop 3. -/
theorem region3 (d : Dev nD) (L : grid0.Coords) (v1 : BitVec 32) (k0_t1 : Fin k0_t1_loop.trips) (v77 : BitVec 32) (v90 : BitVec 32) (c1024_i32_115 : BitVec 32)
    (fx : S2x4x4x128.Idx → Elt F .f32) (f0 f1 : S4x64x128.Idx → Elt F .f32) :
    ∀ (k : Fin k0_t3_loop.trips) (acc : Unit), inv3 (F := F) d L fx f0 f1 k.val acc
      ⊢ wp frame (wpE (defs₀ (F := F)) 𝒱₀ (tV d L) none) Set.univ
          (k0_t3_body L xV (Memref.isWhole_whole _) oV (Memref.isWhole_whole _) sX (Memref.isWhole_whole _) sO (Memref.isWhole_whole _)
            cc0_scratch2 cc0_scratch3 cc0_scratch4 cc0_scratch5 cc0_scratch6 cc0_scratch7 cc0_scratch8 cc0_scratch9 cc0_scratch10 cc0_scratch11
            v1 k0_t1 v77 v90 c1024_i32_115 k acc)
          (inv3 (F := F) d L fx f0 f1 (k.val + 1)) := by
  intro k acc
  have hk : k.val < 32 := Nat.lt_of_lt_of_le k.isLt k0_t3_abs.2.1
  unfold inv3
  iintro ⟨Hx, ⟨%g0, Ho0, %hg0⟩, ⟨%g1, Ho1, %hg1⟩⟩
  unfold k0_t3_body
  sl_exec_parts
  sl_step
  isplitl [Hx]; · iexact Hx
  isplitl [Ho0]
  · iexists _; isplitl [Ho0]; · iexact Ho0
    ipureintro
    exact goodH_step fx 0 1 0 f0 g0 k.val hk
      (fun i => k0_off13 k (BitVec.ofNat 32 (32 * (0 : Fin 2).val)) (BitVec.ofNat 32 i.val)) (fun i => k0_off13_inb k 0 i) (fun i => off13_eq k 0 i)
      _ (xload_eq fx 0 1 k.val hk _ (k0_off12_inb k) (off12_eq k))
      (fun i => shapeCast S1x1x16 (gcVec (⟨8 * (0 : Fin 2).val + i.val, by have := i.isLt; omega⟩ : Fin 16) _) shapeCasts_S16_S1x1x16) (fun i => rfl) hg0
  · iexists _; isplitl [Ho1]; · iexact Ho1
    ipureintro
    exact goodH_step fx 0 1 1 f1 g1 k.val hk
      (fun i => k0_off13 k (BitVec.ofNat 32 (32 * (1 : Fin 2).val)) (BitVec.ofNat 32 i.val)) (fun i => k0_off13_inb k 1 i) (fun i => off13_eq k 1 i)
      _ (xload_eq fx 0 1 k.val hk _ (k0_off12_inb k) (off12_eq k))
      (fun i => shapeCast S1x1x16 (gcVec (⟨8 * (1 : Fin 2).val + i.val, by have := i.isLt; omega⟩ : Fin 16) _) shapeCasts_S16_S1x1x16) (fun i => rfl) hg1

theorem trips3 : Scf.trips k0_t3_loop.lb k0_t3_loop.ub k0_t3_loop.st = 32 := by decide +kernel

/-- Loop 3 whole: from group 0 as fetched and the two halves of plane 1 at any contents, to the halves at the
    loop's value (on their own elements; elsewhere as they were). -/
theorem loop3 (d : Dev nD) (L : grid0.Coords) (v1 : BitVec 32) (k0_t1 : Fin k0_t1_loop.trips) (v77 : BitVec 32) (v90 : BitVec 32) (c1024_i32_115 : BitVec 32)
    (fx : S2x4x4x128.Idx → Elt F .f32) (f0 f1 : S4x64x128.Idx → Elt F .f32) :
    iprop(((xs0).view.loc (tV d L) ↦[(xs0).view.set]{fullShare} fx)
        ∗ ((oh10).view.loc (tV d L) ↦[(oh10).view.set]{fullShare} f0)
        ∗ ((oh11).view.loc (tV d L) ↦[(oh11).view.set]{fullShare} f1))
      ⊢ (wp frame (wpE (defs₀ (F := F)) 𝒱₀ (tV d L) none) Set.univ
          (Scf.Loop.for k0_t3_loop k0_t3_ok ⟨⟩
            (k0_t3_body L xV (Memref.isWhole_whole _) oV (Memref.isWhole_whole _) sX (Memref.isWhole_whole _) sO (Memref.isWhole_whole _)
              cc0_scratch2 cc0_scratch3 cc0_scratch4 cc0_scratch5 cc0_scratch6 cc0_scratch7 cc0_scratch8 cc0_scratch9 cc0_scratch10 cc0_scratch11
              v1 k0_t1 v77 v90 c1024_i32_115))
          (fun _ => inv3 (F := F) d L fx f0 f1 32 ()) : sProp 𝕄) := by
  iintro ⟨Hx, Ho0, Ho1⟩
  sl_for (inv3 (F := F) d L fx f0 f1) $$ [Hx Ho0 Ho1]
  case region => exact region3 d L v1 k0_t1 v77 v90 c1024_i32_115 fx f0 f1
  isplitl [Hx Ho0 Ho1]
  · unfold inv3
    isplitl [Hx]; · iexact Hx
    isplitl [Ho0]
    · iexists f0; isplitl [Ho0]; · iexact Ho0
      ipureintro; exact goodH_zero fx 0 1 0 f0
    · iexists f1; isplitl [Ho1]; · iexact Ho1
      ipureintro; exact goodH_zero fx 0 1 1 f1
  · rw [trips3]
    iintro %acc HI
    iexact HI

end Cert.Kernel.Hand.Inner

end
-- ==== Proof.InnerLoopBK.lean ====
/-
  The inner loops 4 and 5 of the tile kernel (planes 2 and 3 of fetched group 0): the closed forms of the
  offsets a block's load and its sixteen stores use, the loop's invariant — the fetched group unchanged, each half of the
  plane at the loop's value on the blocks done and as it was elsewhere —, one trip of the loop from the invariant at k to
  the invariant at k + 1, and the whole loop from it.
-/
import proofs.«209186_g8847632630064_cont_9to1c4b_396_28_alg».proof.Proof.InnerMathK

noncomputable section

namespace Cert.Kernel.Hand.Inner

open Cert.Kernel Cert.Kernel.Gen Cert.Kernel.Hand

open Idealize.ShloMosaic
open Idealize.ShloMosaic.ValueIdx

variable {F : FTy → Type} [FloatOps F]

open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 1) (Elt F) ℕ UU ℕ

/-! ## Loop 4: plane 2 of fetched group 0 -/

theorem off16_eq : ∀ k : Fin k0_t4_loop.trips, k0_off16 k = ![0, 2, k.val / 8, k.val % 8 * 16] := by decide +kernel
theorem off17_eq : ∀ (k : Fin k0_t4_loop.trips) (r₁ : Fin 2) (r₂ : Fin 8),
    k0_off17 k (BitVec.ofNat 32 (32 * r₁.val)) (BitVec.ofNat 32 r₂.val) = ![2, 32 * r₁.val + k.val / 8 * 8 + r₂.val, k.val % 8 * 16] := by decide +kernel
instance closedOff16 (k : Fin k0_t4_loop.trips) : ClosedOff (k0_off16 k) := ⟨_, off16_eq k⟩
instance closedOff17_0_0 (k : Fin k0_t4_loop.trips) : ClosedOff (k0_off17 k 0#32 0#32) := ⟨_, off17_eq k 0 0⟩
instance closedOff17_0_1 (k : Fin k0_t4_loop.trips) : ClosedOff (k0_off17 k 0#32 1#32) := ⟨_, off17_eq k 0 1⟩
instance closedOff17_0_2 (k : Fin k0_t4_loop.trips) : ClosedOff (k0_off17 k 0#32 2#32) := ⟨_, off17_eq k 0 2⟩
instance closedOff17_0_3 (k : Fin k0_t4_loop.trips) : ClosedOff (k0_off17 k 0#32 3#32) := ⟨_, off17_eq k 0 3⟩
instance closedOff17_0_4 (k : Fin k0_t4_loop.trips) : ClosedOff (k0_off17 k 0#32 4#32) := ⟨_, off17_eq k 0 4⟩
instance closedOff17_0_5 (k : Fin k0_t4_loop.trips) : ClosedOff (k0_off17 k 0#32 5#32) := ⟨_, off17_eq k 0 5⟩
instance closedOff17_0_6 (k : Fin k0_t4_loop.trips) : ClosedOff (k0_off17 k 0#32 6#32) := ⟨_, off17_eq k 0 6⟩
instance closedOff17_0_7 (k : Fin k0_t4_loop.trips) : ClosedOff (k0_off17 k 0#32 7#32) := ⟨_, off17_eq k 0 7⟩
instance closedOff17_1_0 (k : Fin k0_t4_loop.trips) : ClosedOff (k0_off17 k 32#32 0#32) := ⟨_, off17_eq k 1 0⟩
instance closedOff17_1_1 (k : Fin k0_t4_loop.trips) : ClosedOff (k0_off17 k 32#32 1#32) := ⟨_, off17_eq k 1 1⟩
instance closedOff17_1_2 (k : Fin k0_t4_loop.trips) : ClosedOff (k0_off17 k 32#32 2#32) := ⟨_, off17_eq k 1 2⟩
instance closedOff17_1_3 (k : Fin k0_t4_loop.trips) : ClosedOff (k0_off17 k 32#32 3#32) := ⟨_, off17_eq k 1 3⟩
instance closedOff17_1_4 (k : Fin k0_t4_loop.trips) : ClosedOff (k0_off17 k 32#32 4#32) := ⟨_, off17_eq k 1 4⟩
instance closedOff17_1_5 (k : Fin k0_t4_loop.trips) : ClosedOff (k0_off17 k 32#32 5#32) := ⟨_, off17_eq k 1 5⟩
instance closedOff17_1_6 (k : Fin k0_t4_loop.trips) : ClosedOff (k0_off17 k 32#32 6#32) := ⟨_, off17_eq k 1 6⟩
instance closedOff17_1_7 (k : Fin k0_t4_loop.trips) : ClosedOff (k0_off17 k 32#32 7#32) := ⟨_, off17_eq k 1 7⟩

/-- Before block k of loop 4: group 0 as fetched, the two halves of plane 2 good below k. -/
def inv4 (d : Dev nD) (L : grid0.Coords) (fx : S2x4x4x128.Idx → Elt F .f32) (f0 f1 : S4x64x128.Idx → Elt F .f32) (k : ℕ) (_ : Unit) : sProp 𝕄 :=
  iprop(((xs0).view.loc (tV d L) ↦[(xs0).view.set]{fullShare} fx)
    ∗ (∃ g0, ((oh20).view.loc (tV d L) ↦[(oh20).view.set]{fullShare} g0) ∗ ⌜GoodH fx 0 2 0 f0 g0 k⌝)
    ∗ (∃ g1, ((oh21).view.loc (tV d L) ↦[(oh21).view.set]{fullShare} g1) ∗ ⌜GoodH fx 0 2 1 f1 g1 k⌝))

/-- One trip of loop 4. -/
theorem region4 (d : Dev nD) (L : grid0.Coords) (v1 : BitVec 32) (k0_t1 : Fin k0_t1_loop.trips) (v77 : BitVec 32)
    (fx : S2x4x4x128.Idx → Elt F .f32) (f0 f1 : S4x64x128.Idx → Elt F .f32) :
    ∀ (k : Fin k0_t4_loop.trips) (acc : Unit), inv4 (F := F) d L fx f0 f1 k.val acc
      ⊢ wp frame (wpE (defs₀ (F := F)) 𝒱₀ (tV d L) none) Set.univ
          (k0_t4_body L xV (Memref.isWhole_whole _) oV (Memref.isWhole_whole _) sX (Memref.isWhole_whole _) sO (Memref.isWhole_whole _)
            cc0_scratch2 cc0_scratch3 cc0_scratch4 cc0_scratch5 cc0_scratch6 cc0_scratch7 cc0_scratch8 cc0_scratch9 cc0_scratch10 cc0_scratch11
            v1 k0_t1 v77 k acc)
          (inv4 (F := F) d L fx f0 f1 (k.val + 1)) := by
  intro k acc
  have hk : k.val < 32 := Nat.lt_of_lt_of_le k.isLt k0_t4_abs.2.1
  unfold inv4
  iintro ⟨Hx, ⟨%g0, Ho0, %hg0⟩, ⟨%g1, Ho1, %hg1⟩⟩
  unfold k0_t4_body
  sl_exec_parts
  sl_step
  isplitl [Hx]; · iexact Hx
  isplitl [Ho0]
  · iexists _; isplitl [Ho0]; · iexact Ho0
    ipureintro
    exact goodH_step fx 0 2 0 f0 g0 k.val hk
      (fun i => k0_off17 k (BitVec.ofNat 32 (32 * (0 : Fin 2).val)) (BitVec.ofNat 32 i.val)) (fun i => k0_off17_inb k 0 i) (fun i => off17_eq k 0 i)
      _ (xload_eq fx 0 2 k.val hk _ (k0_off16_inb k) (off16_eq k))
      (fun i => shapeCast S1x1x16 (gcVec (⟨8 * (0 : Fin 2).val + i.val, by have := i.isLt; omega⟩ : Fin 16) _) shapeCasts_S16_S1x1x16) (fun i => rfl) hg0
  · iexists _; isplitl [Ho1]; · iexact Ho1
    ipureintro
    exact goodH_step fx 0 2 1 f1 g1 k.val hk
      (fun i => k0_off17 k (BitVec.ofNat 32 (32 * (1 : Fin 2).val)) (BitVec.ofNat 32 i.val)) (fun i => k0_off17_inb k 1 i) (fun i => off17_eq k 1 i)
      _ (xload_eq fx 0 2 k.val hk _ (k0_off16_inb k) (off16_eq k))
      (fun i => shapeCast S1x1x16 (gcVec (⟨8 * (1 : Fin 2).val + i.val, by have := i.isLt; omega⟩ : Fin 16) _) shapeCasts_S16_S1x1x16) (fun i => rfl) hg1

theorem trips4 : Scf.trips k0_t4_loop.lb k0_t4_loop.ub k0_t4_loop.st = 32 := by decide +kernel

/-- Loop 4 whole: from group 0 as fetched and the two halves of plane 2 at any contents, to the halves at the
    loop's value (on their own elements; elsewhere as they were). -/
theorem loop4 (d : Dev nD) (L : grid0.Coords) (v1 : BitVec 32) (k0_t1 : Fin k0_t1_loop.trips) (v77 : BitVec 32)
    (fx : S2x4x4x128.Idx → Elt F .f32) (f0 f1 : S4x64x128.Idx → Elt F .f32) :
    iprop(((xs0).view.loc (tV d L) ↦[(xs0).view.set]{fullShare} fx)
        ∗ ((oh20).view.loc (tV d L) ↦[(oh20).view.set]{fullShare} f0)
        ∗ ((oh21).view.loc (tV d L) ↦[(oh21).view.set]{fullShare} f1))
      ⊢ (wp frame (wpE (defs₀ (F := F)) 𝒱₀ (tV d L) none) Set.univ
          (Scf.Loop.for k0_t4_loop k0_t4_ok ⟨⟩
            (k0_t4_body L xV (Memref.isWhole_whole _) oV (Memref.isWhole_whole _) sX (Memref.isWhole_whole _) sO (Memref.isWhole_whole _)
              cc0_scratch2 cc0_scratch3 cc0_scratch4 cc0_scratch5 cc0_scratch6 cc0_scratch7 cc0_scratch8 cc0_scratch9 cc0_scratch10 cc0_scratch11
              v1 k0_t1 v77))
          (fun _ => inv4 (F := F) d L fx f0 f1 32 ()) : sProp 𝕄) := by
  iintro ⟨Hx, Ho0, Ho1⟩
  sl_for (inv4 (F := F) d L fx f0 f1) $$ [Hx Ho0 Ho1]
  case region => exact region4 d L v1 k0_t1 v77 fx f0 f1
  isplitl [Hx Ho0 Ho1]
  · unfold inv4
    isplitl [Hx]; · iexact Hx
    isplitl [Ho0]
    · iexists f0; isplitl [Ho0]; · iexact Ho0
      ipureintro; exact goodH_zero fx 0 2 0 f0
    · iexists f1; isplitl [Ho1]; · iexact Ho1
      ipureintro; exact goodH_zero fx 0 2 1 f1
  · rw [trips4]
    iintro %acc HI
    iexact HI

/-! ## Loop 5: plane 3 of fetched group 0 -/

theorem off20_eq : ∀ k : Fin k0_t5_loop.trips, k0_off20 k = ![0, 3, k.val / 8, k.val % 8 * 16] := by decide +kernel
theorem off21_eq : ∀ (k : Fin k0_t5_loop.trips) (r₁ : Fin 2) (r₂ : Fin 8),
    k0_off21 k (BitVec.ofNat 32 (32 * r₁.val)) (BitVec.ofNat 32 r₂.val) = ![3, 32 * r₁.val + k.val / 8 * 8 + r₂.val, k.val % 8 * 16] := by decide +kernel
instance closedOff20 (k : Fin k0_t5_loop.trips) : ClosedOff (k0_off20 k) := ⟨_, off20_eq k⟩
instance closedOff21_0_0 (k : Fin k0_t5_loop.trips) : ClosedOff (k0_off21 k 0#32 0#32) := ⟨_, off21_eq k 0 0⟩
instance closedOff21_0_1 (k : Fin k0_t5_loop.trips) : ClosedOff (k0_off21 k 0#32 1#32) := ⟨_, off21_eq k 0 1⟩
instance closedOff21_0_2 (k : Fin k0_t5_loop.trips) : ClosedOff (k0_off21 k 0#32 2#32) := ⟨_, off21_eq k 0 2⟩
instance closedOff21_0_3 (k : Fin k0_t5_loop.trips) : ClosedOff (k0_off21 k 0#32 3#32) := ⟨_, off21_eq k 0 3⟩
instance closedOff21_0_4 (k : Fin k0_t5_loop.trips) : ClosedOff (k0_off21 k 0#32 4#32) := ⟨_, off21_eq k 0 4⟩
instance closedOff21_0_5 (k : Fin k0_t5_loop.trips) : ClosedOff (k0_off21 k 0#32 5#32) := ⟨_, off21_eq k 0 5⟩
instance closedOff21_0_6 (k : Fin k0_t5_loop.trips) : ClosedOff (k0_off21 k 0#32 6#32) := ⟨_, off21_eq k 0 6⟩
instance closedOff21_0_7 (k : Fin k0_t5_loop.trips) : ClosedOff (k0_off21 k 0#32 7#32) := ⟨_, off21_eq k 0 7⟩
instance closedOff21_1_0 (k : Fin k0_t5_loop.trips) : ClosedOff (k0_off21 k 32#32 0#32) := ⟨_, off21_eq k 1 0⟩
instance closedOff21_1_1 (k : Fin k0_t5_loop.trips) : ClosedOff (k0_off21 k 32#32 1#32) := ⟨_, off21_eq k 1 1⟩
instance closedOff21_1_2 (k : Fin k0_t5_loop.trips) : ClosedOff (k0_off21 k 32#32 2#32) := ⟨_, off21_eq k 1 2⟩
instance closedOff21_1_3 (k : Fin k0_t5_loop.trips) : ClosedOff (k0_off21 k 32#32 3#32) := ⟨_, off21_eq k 1 3⟩
instance closedOff21_1_4 (k : Fin k0_t5_loop.trips) : ClosedOff (k0_off21 k 32#32 4#32) := ⟨_, off21_eq k 1 4⟩
instance closedOff21_1_5 (k : Fin k0_t5_loop.trips) : ClosedOff (k0_off21 k 32#32 5#32) := ⟨_, off21_eq k 1 5⟩
instance closedOff21_1_6 (k : Fin k0_t5_loop.trips) : ClosedOff (k0_off21 k 32#32 6#32) := ⟨_, off21_eq k 1 6⟩
instance closedOff21_1_7 (k : Fin k0_t5_loop.trips) : ClosedOff (k0_off21 k 32#32 7#32) := ⟨_, off21_eq k 1 7⟩

/-- Before block k of loop 5: group 0 as fetched, the two halves of plane 3 good below k. -/
def inv5 (d : Dev nD) (L : grid0.Coords) (fx : S2x4x4x128.Idx → Elt F .f32) (f0 f1 : S4x64x128.Idx → Elt F .f32) (k : ℕ) (_ : Unit) : sProp 𝕄 :=
  iprop(((xs0).view.loc (tV d L) ↦[(xs0).view.set]{fullShare} fx)
    ∗ (∃ g0, ((oh30).view.loc (tV d L) ↦[(oh30).view.set]{fullShare} g0) ∗ ⌜GoodH fx 0 3 0 f0 g0 k⌝)
    ∗ (∃ g1, ((oh31).view.loc (tV d L) ↦[(oh31).view.set]{fullShare} g1) ∗ ⌜GoodH fx 0 3 1 f1 g1 k⌝))

/-- One trip of loop 5. -/
theorem region5 (d : Dev nD) (L : grid0.Coords) (v1 : BitVec 32) (k0_t1 : Fin k0_t1_loop.trips) (v77 : BitVec 32) (c4_i32_175 : BitVec 32)
    (fx : S2x4x4x128.Idx → Elt F .f32) (f0 f1 : S4x64x128.Idx → Elt F .f32) :
    ∀ (k : Fin k0_t5_loop.trips) (acc : Unit), inv5 (F := F) d L fx f0 f1 k.val acc
      ⊢ wp frame (wpE (defs₀ (F := F)) 𝒱₀ (tV d L) none) Set.univ
          (k0_t5_body L xV (Memref.isWhole_whole _) oV (Memref.isWhole_whole _) sX (Memref.isWhole_whole _) sO (Memref.isWhole_whole _)
            cc0_scratch2 cc0_scratch3 cc0_scratch4 cc0_scratch5 cc0_scratch6 cc0_scratch7 cc0_scratch8 cc0_scratch9 cc0_scratch10 cc0_scratch11
            v1 k0_t1 v77 c4_i32_175 k acc)
          (inv5 (F := F) d L fx f0 f1 (k.val + 1)) := by
  intro k acc
  have hk : k.val < 32 := Nat.lt_of_lt_of_le k.isLt k0_t5_abs.2.1
  unfold inv5
  iintro ⟨Hx, ⟨%g0, Ho0, %hg0⟩, ⟨%g1, Ho1, %hg1⟩⟩
  unfold k0_t5_body
  sl_exec_parts
  sl_step
  isplitl [Hx]; · iexact Hx
  isplitl [Ho0]
  · iexists _; isplitl [Ho0]; · iexact Ho0
    ipureintro
    exact goodH_step fx 0 3 0 f0 g0 k.val hk
      (fun i => k0_off21 k (BitVec.ofNat 32 (32 * (0 : Fin 2).val)) (BitVec.ofNat 32 i.val)) (fun i => k0_off21_inb k 0 i) (fun i => off21_eq k 0 i)
      _ (xload_eq fx 0 3 k.val hk _ (k0_off20_inb k) (off20_eq k))
      (fun i => shapeCast S1x1x16 (gcVec (⟨8 * (0 : Fin 2).val + i.val, by have := i.isLt; omega⟩ : Fin 16) _) shapeCasts_S16_S1x1x16) (fun i => rfl) hg0
  · iexists _; isplitl [Ho1]; · iexact Ho1
    ipureintro
    exact goodH_step fx 0 3 1 f1 g1 k.val hk
      (fun i => k0_off21 k (BitVec.ofNat 32 (32 * (1 : Fin 2).val)) (BitVec.ofNat 32 i.val)) (fun i => k0_off21_inb k 1 i) (fun i => off21_eq k 1 i)
      _ (xload_eq fx 0 3 k.val hk _ (k0_off20_inb k) (off20_eq k))
      (fun i => shapeCast S1x1x16 (gcVec (⟨8 * (1 : Fin 2).val + i.val, by have := i.isLt; omega⟩ : Fin 16) _) shapeCasts_S16_S1x1x16) (fun i => rfl) hg1

theorem trips5 : Scf.trips k0_t5_loop.lb k0_t5_loop.ub k0_t5_loop.st = 32 := by decide +kernel

/-- Loop 5 whole: from group 0 as fetched and the two halves of plane 3 at any contents, to the halves at the
    loop's value (on their own elements; elsewhere as they were). -/
theorem loop5 (d : Dev nD) (L : grid0.Coords) (v1 : BitVec 32) (k0_t1 : Fin k0_t1_loop.trips) (v77 : BitVec 32) (c4_i32_175 : BitVec 32)
    (fx : S2x4x4x128.Idx → Elt F .f32) (f0 f1 : S4x64x128.Idx → Elt F .f32) :
    iprop(((xs0).view.loc (tV d L) ↦[(xs0).view.set]{fullShare} fx)
        ∗ ((oh30).view.loc (tV d L) ↦[(oh30).view.set]{fullShare} f0)
        ∗ ((oh31).view.loc (tV d L) ↦[(oh31).view.set]{fullShare} f1))
      ⊢ (wp frame (wpE (defs₀ (F := F)) 𝒱₀ (tV d L) none) Set.univ
          (Scf.Loop.for k0_t5_loop k0_t5_ok ⟨⟩
            (k0_t5_body L xV (Memref.isWhole_whole _) oV (Memref.isWhole_whole _) sX (Memref.isWhole_whole _) sO (Memref.isWhole_whole _)
              cc0_scratch2 cc0_scratch3 cc0_scratch4 cc0_scratch5 cc0_scratch6 cc0_scratch7 cc0_scratch8 cc0_scratch9 cc0_scratch10 cc0_scratch11
              v1 k0_t1 v77 c4_i32_175))
          (fun _ => inv5 (F := F) d L fx f0 f1 32 ()) : sProp 𝕄) := by
  iintro ⟨Hx, Ho0, Ho1⟩
  sl_for (inv5 (F := F) d L fx f0 f1) $$ [Hx Ho0 Ho1]
  case region => exact region5 d L v1 k0_t1 v77 c4_i32_175 fx f0 f1
  isplitl [Hx Ho0 Ho1]
  · unfold inv5
    isplitl [Hx]; · iexact Hx
    isplitl [Ho0]
    · iexists f0; isplitl [Ho0]; · iexact Ho0
      ipureintro; exact goodH_zero fx 0 3 0 f0
    · iexists f1; isplitl [Ho1]; · iexact Ho1
      ipureintro; exact goodH_zero fx 0 3 1 f1
  · rw [trips5]
    iintro %acc HI
    iexact HI

end Cert.Kernel.Hand.Inner

end
-- ==== Proof.InnerLoopCK.lean ====
/-
  The inner loops 6 and 7 of the tile kernel (planes 0 and 1 of fetched group 1): the closed forms of the
  offsets a block's load and its sixteen stores use, the loop's invariant — the fetched group unchanged, each half of the
  plane at the loop's value on the blocks done and as it was elsewhere —, one trip of the loop from the invariant at k to
  the invariant at k + 1, and the whole loop from it.
-/
import proofs.«209186_g8847632630064_cont_9to1c4b_396_28_alg».proof.Proof.InnerMathK

noncomputable section

namespace Cert.Kernel.Hand.Inner

open Cert.Kernel Cert.Kernel.Gen Cert.Kernel.Hand

open Idealize.ShloMosaic
open Idealize.ShloMosaic.ValueIdx

variable {F : FTy → Type} [FloatOps F]

open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 1) (Elt F) ℕ UU ℕ

/-! ## Loop 6: plane 0 of fetched group 1 -/

theorem off26_eq : ∀ k : Fin k0_t6_loop.trips, k0_off26 k = ![1, 0, k.val / 8, k.val % 8 * 16] := by decide +kernel
theorem off27_eq : ∀ (k : Fin k0_t6_loop.trips) (r₁ : Fin 2) (r₂ : Fin 8),
    k0_off27 k (BitVec.ofNat 32 (32 * r₁.val)) (BitVec.ofNat 32 r₂.val) = ![0, 32 * r₁.val + k.val / 8 * 8 + r₂.val, k.val % 8 * 16] := by decide +kernel
instance closedOff26 (k : Fin k0_t6_loop.trips) : ClosedOff (k0_off26 k) := ⟨_, off26_eq k⟩
instance closedOff27_0_0 (k : Fin k0_t6_loop.trips) : ClosedOff (k0_off27 k 0#32 0#32) := ⟨_, off27_eq k 0 0⟩
instance closedOff27_0_1 (k : Fin k0_t6_loop.trips) : ClosedOff (k0_off27 k 0#32 1#32) := ⟨_, off27_eq k 0 1⟩
instance closedOff27_0_2 (k : Fin k0_t6_loop.trips) : ClosedOff (k0_off27 k 0#32 2#32) := ⟨_, off27_eq k 0 2⟩
instance closedOff27_0_3 (k : Fin k0_t6_loop.trips) : ClosedOff (k0_off27 k 0#32 3#32) := ⟨_, off27_eq k 0 3⟩
instance closedOff27_0_4 (k : Fin k0_t6_loop.trips) : ClosedOff (k0_off27 k 0#32 4#32) := ⟨_, off27_eq k 0 4⟩
instance closedOff27_0_5 (k : Fin k0_t6_loop.trips) : ClosedOff (k0_off27 k 0#32 5#32) := ⟨_, off27_eq k 0 5⟩
instance closedOff27_0_6 (k : Fin k0_t6_loop.trips) : ClosedOff (k0_off27 k 0#32 6#32) := ⟨_, off27_eq k 0 6⟩
instance closedOff27_0_7 (k : Fin k0_t6_loop.trips) : ClosedOff (k0_off27 k 0#32 7#32) := ⟨_, off27_eq k 0 7⟩
instance closedOff27_1_0 (k : Fin k0_t6_loop.trips) : ClosedOff (k0_off27 k 32#32 0#32) := ⟨_, off27_eq k 1 0⟩
instance closedOff27_1_1 (k : Fin k0_t6_loop.trips) : ClosedOff (k0_off27 k 32#32 1#32) := ⟨_, off27_eq k 1 1⟩
instance closedOff27_1_2 (k : Fin k0_t6_loop.trips) : ClosedOff (k0_off27 k 32#32 2#32) := ⟨_, off27_eq k 1 2⟩
instance closedOff27_1_3 (k : Fin k0_t6_loop.trips) : ClosedOff (k0_off27 k 32#32 3#32) := ⟨_, off27_eq k 1 3⟩
instance closedOff27_1_4 (k : Fin k0_t6_loop.trips) : ClosedOff (k0_off27 k 32#32 4#32) := ⟨_, off27_eq k 1 4⟩
instance closedOff27_1_5 (k : Fin k0_t6_loop.trips) : ClosedOff (k0_off27 k 32#32 5#32) := ⟨_, off27_eq k 1 5⟩
instance closedOff27_1_6 (k : Fin k0_t6_loop.trips) : ClosedOff (k0_off27 k 32#32 6#32) := ⟨_, off27_eq k 1 6⟩
instance closedOff27_1_7 (k : Fin k0_t6_loop.trips) : ClosedOff (k0_off27 k 32#32 7#32) := ⟨_, off27_eq k 1 7⟩

/-- Before block k of loop 6: group 1 as fetched, the two halves of plane 0 good below k. -/
def inv6 (d : Dev nD) (L : grid0.Coords) (fx : S2x4x4x128.Idx → Elt F .f32) (f0 f1 : S4x64x128.Idx → Elt F .f32) (k : ℕ) (_ : Unit) : sProp 𝕄 :=
  iprop(((xs1).view.loc (tV d L) ↦[(xs1).view.set]{fullShare} fx)
    ∗ (∃ g0, ((oh00).view.loc (tV d L) ↦[(oh00).view.set]{fullShare} g0) ∗ ⌜GoodH fx 1 0 0 f0 g0 k⌝)
    ∗ (∃ g1, ((oh01).view.loc (tV d L) ↦[(oh01).view.set]{fullShare} g1) ∗ ⌜GoodH fx 1 0 1 f1 g1 k⌝))

/-- One trip of loop 6. -/
theorem region6 (d : Dev nD) (L : grid0.Coords) (v1 : BitVec 32) (k0_t1 : Fin k0_t1_loop.trips) (arg16 : BitVec 32) (c2_i32_203 : BitVec 32)
    (fx : S2x4x4x128.Idx → Elt F .f32) (f0 f1 : S4x64x128.Idx → Elt F .f32) :
    ∀ (k : Fin k0_t6_loop.trips) (acc : Unit), inv6 (F := F) d L fx f0 f1 k.val acc
      ⊢ wp frame (wpE (defs₀ (F := F)) 𝒱₀ (tV d L) none) Set.univ
          (k0_t6_body L xV (Memref.isWhole_whole _) oV (Memref.isWhole_whole _) sX (Memref.isWhole_whole _) sO (Memref.isWhole_whole _)
            cc0_scratch2 cc0_scratch3 cc0_scratch4 cc0_scratch5 cc0_scratch6 cc0_scratch7 cc0_scratch8 cc0_scratch9 cc0_scratch10 cc0_scratch11
            v1 k0_t1 arg16 c2_i32_203 k acc)
          (inv6 (F := F) d L fx f0 f1 (k.val + 1)) := by
  intro k acc
  have hk : k.val < 32 := Nat.lt_of_lt_of_le k.isLt k0_t6_abs.2.1
  unfold inv6
  iintro ⟨Hx, ⟨%g0, Ho0, %hg0⟩, ⟨%g1, Ho1, %hg1⟩⟩
  unfold k0_t6_body
  sl_exec_parts
  sl_step
  isplitl [Hx]; · iexact Hx
  isplitl [Ho0]
  · iexists _; isplitl [Ho0]; · iexact Ho0
    ipureintro
    exact goodH_step fx 1 0 0 f0 g0 k.val hk
      (fun i => k0_off27 k (BitVec.ofNat 32 (32 * (0 : Fin 2).val)) (BitVec.ofNat 32 i.val)) (fun i => k0_off27_inb k 0 i) (fun i => off27_eq k 0 i)
      _ (xload_eq fx 1 0 k.val hk _ (k0_off26_inb k) (off26_eq k))
      (fun i => shapeCast S1x1x16 (gcVec (⟨8 * (0 : Fin 2).val + i.val, by have := i.isLt; omega⟩ : Fin 16) _) shapeCasts_S16_S1x1x16) (fun i => rfl) hg0
  · iexists _; isplitl [Ho1]; · iexact Ho1
    ipureintro
    exact goodH_step fx 1 0 1 f1 g1 k.val hk
      (fun i => k0_off27 k (BitVec.ofNat 32 (32 * (1 : Fin 2).val)) (BitVec.ofNat 32 i.val)) (fun i => k0_off27_inb k 1 i) (fun i => off27_eq k 1 i)
      _ (xload_eq fx 1 0 k.val hk _ (k0_off26_inb k) (off26_eq k))
      (fun i => shapeCast S1x1x16 (gcVec (⟨8 * (1 : Fin 2).val + i.val, by have := i.isLt; omega⟩ : Fin 16) _) shapeCasts_S16_S1x1x16) (fun i => rfl) hg1

theorem trips6 : Scf.trips k0_t6_loop.lb k0_t6_loop.ub k0_t6_loop.st = 32 := by decide +kernel

/-- Loop 6 whole: from group 1 as fetched and the two halves of plane 0 at any contents, to the halves at the
    loop's value (on their own elements; elsewhere as they were). -/
theorem loop6 (d : Dev nD) (L : grid0.Coords) (v1 : BitVec 32) (k0_t1 : Fin k0_t1_loop.trips) (arg16 : BitVec 32) (c2_i32_203 : BitVec 32)
    (fx : S2x4x4x128.Idx → Elt F .f32) (f0 f1 : S4x64x128.Idx → Elt F .f32) :
    iprop(((xs1).view.loc (tV d L) ↦[(xs1).view.set]{fullShare} fx)
        ∗ ((oh00).view.loc (tV d L) ↦[(oh00).view.set]{fullShare} f0)
        ∗ ((oh01).view.loc (tV d L) ↦[(oh01).view.set]{fullShare} f1))
      ⊢ (wp frame (wpE (defs₀ (F := F)) 𝒱₀ (tV d L) none) Set.univ
          (Scf.Loop.for k0_t6_loop k0_t6_ok ⟨⟩
            (k0_t6_body L xV (Memref.isWhole_whole _) oV (Memref.isWhole_whole _) sX (Memref.isWhole_whole _) sO (Memref.isWhole_whole _)
              cc0_scratch2 cc0_scratch3 cc0_scratch4 cc0_scratch5 cc0_scratch6 cc0_scratch7 cc0_scratch8 cc0_scratch9 cc0_scratch10 cc0_scratch11
              v1 k0_t1 arg16 c2_i32_203))
          (fun _ => inv6 (F := F) d L fx f0 f1 32 ()) : sProp 𝕄) := by
  iintro ⟨Hx, Ho0, Ho1⟩
  sl_for (inv6 (F := F) d L fx f0 f1) $$ [Hx Ho0 Ho1]
  case region => exact region6 d L v1 k0_t1 arg16 c2_i32_203 fx f0 f1
  isplitl [Hx Ho0 Ho1]
  · unfold inv6
    isplitl [Hx]; · iexact Hx
    isplitl [Ho0]
    · iexists f0; isplitl [Ho0]; · iexact Ho0
      ipureintro; exact goodH_zero fx 1 0 0 f0
    · iexists f1; isplitl [Ho1]; · iexact Ho1
      ipureintro; exact goodH_zero fx 1 0 1 f1
  · rw [trips6]
    iintro %acc HI
    iexact HI

/-! ## Loop 7: plane 1 of fetched group 1 -/

theorem off32_eq : ∀ k : Fin k0_t7_loop.trips, k0_off32 k = ![1, 1, k.val / 8, k.val % 8 * 16] := by decide +kernel
theorem off33_eq : ∀ (k : Fin k0_t7_loop.trips) (r₁ : Fin 2) (r₂ : Fin 8),
    k0_off33 k (BitVec.ofNat 32 (32 * r₁.val)) (BitVec.ofNat 32 r₂.val) = ![1, 32 * r₁.val + k.val / 8 * 8 + r₂.val, k.val % 8 * 16] := by decide +kernel
instance closedOff32 (k : Fin k0_t7_loop.trips) : ClosedOff (k0_off32 k) := ⟨_, off32_eq k⟩
instance closedOff33_0_0 (k : Fin k0_t7_loop.trips) : ClosedOff (k0_off33 k 0#32 0#32) := ⟨_, off33_eq k 0 0⟩
instance closedOff33_0_1 (k : Fin k0_t7_loop.trips) : ClosedOff (k0_off33 k 0#32 1#32) := ⟨_, off33_eq k 0 1⟩
instance closedOff33_0_2 (k : Fin k0_t7_loop.trips) : ClosedOff (k0_off33 k 0#32 2#32) := ⟨_, off33_eq k 0 2⟩
instance closedOff33_0_3 (k : Fin k0_t7_loop.trips) : ClosedOff (k0_off33 k 0#32 3#32) := ⟨_, off33_eq k 0 3⟩
instance closedOff33_0_4 (k : Fin k0_t7_loop.trips) : ClosedOff (k0_off33 k 0#32 4#32) := ⟨_, off33_eq k 0 4⟩
instance closedOff33_0_5 (k : Fin k0_t7_loop.trips) : ClosedOff (k0_off33 k 0#32 5#32) := ⟨_, off33_eq k 0 5⟩
instance closedOff33_0_6 (k : Fin k0_t7_loop.trips) : ClosedOff (k0_off33 k 0#32 6#32) := ⟨_, off33_eq k 0 6⟩
instance closedOff33_0_7 (k : Fin k0_t7_loop.trips) : ClosedOff (k0_off33 k 0#32 7#32) := ⟨_, off33_eq k 0 7⟩
instance closedOff33_1_0 (k : Fin k0_t7_loop.trips) : ClosedOff (k0_off33 k 32#32 0#32) := ⟨_, off33_eq k 1 0⟩
instance closedOff33_1_1 (k : Fin k0_t7_loop.trips) : ClosedOff (k0_off33 k 32#32 1#32) := ⟨_, off33_eq k 1 1⟩
instance closedOff33_1_2 (k : Fin k0_t7_loop.trips) : ClosedOff (k0_off33 k 32#32 2#32) := ⟨_, off33_eq k 1 2⟩
instance closedOff33_1_3 (k : Fin k0_t7_loop.trips) : ClosedOff (k0_off33 k 32#32 3#32) := ⟨_, off33_eq k 1 3⟩
instance closedOff33_1_4 (k : Fin k0_t7_loop.trips) : ClosedOff (k0_off33 k 32#32 4#32) := ⟨_, off33_eq k 1 4⟩
instance closedOff33_1_5 (k : Fin k0_t7_loop.trips) : ClosedOff (k0_off33 k 32#32 5#32) := ⟨_, off33_eq k 1 5⟩
instance closedOff33_1_6 (k : Fin k0_t7_loop.trips) : ClosedOff (k0_off33 k 32#32 6#32) := ⟨_, off33_eq k 1 6⟩
instance closedOff33_1_7 (k : Fin k0_t7_loop.trips) : ClosedOff (k0_off33 k 32#32 7#32) := ⟨_, off33_eq k 1 7⟩

/-- Before block k of loop 7: group 1 as fetched, the two halves of plane 1 good below k. -/
def inv7 (d : Dev nD) (L : grid0.Coords) (fx : S2x4x4x128.Idx → Elt F .f32) (f0 f1 : S4x64x128.Idx → Elt F .f32) (k : ℕ) (_ : Unit) : sProp 𝕄 :=
  iprop(((xs1).view.loc (tV d L) ↦[(xs1).view.set]{fullShare} fx)
    ∗ (∃ g0, ((oh10).view.loc (tV d L) ↦[(oh10).view.set]{fullShare} g0) ∗ ⌜GoodH fx 1 1 0 f0 g0 k⌝)
    ∗ (∃ g1, ((oh11).view.loc (tV d L) ↦[(oh11).view.set]{fullShare} g1) ∗ ⌜GoodH fx 1 1 1 f1 g1 k⌝))

/-- One trip of loop 7. -/
theorem region7 (d : Dev nD) (L : grid0.Coords) (v1 : BitVec 32) (k0_t1 : Fin k0_t1_loop.trips) (v179 : BitVec 32) (v192 : BitVec 32) (c1024_i32_234 : BitVec 32)
    (fx : S2x4x4x128.Idx → Elt F .f32) (f0 f1 : S4x64x128.Idx → Elt F .f32) :
    ∀ (k : Fin k0_t7_loop.trips) (acc : Unit), inv7 (F := F) d L fx f0 f1 k.val acc
      ⊢ wp frame (wpE (defs₀ (F := F)) 𝒱₀ (tV d L) none) Set.univ
          (k0_t7_body L xV (Memref.isWhole_whole _) oV (Memref.isWhole_whole _) sX (Memref.isWhole_whole _) sO (Memref.isWhole_whole _)
            cc0_scratch2 cc0_scratch3 cc0_scratch4 cc0_scratch5 cc0_scratch6 cc0_scratch7 cc0_scratch8 cc0_scratch9 cc0_scratch10 cc0_scratch11
            v1 k0_t1 v179 v192 c1024_i32_234 k acc)
          (inv7 (F := F) d L fx f0 f1 (k.val + 1)) := by
  intro k acc
  have hk : k.val < 32 := Nat.lt_of_lt_of_le k.isLt k0_t7_abs.2.1
  unfold inv7
  iintro ⟨Hx, ⟨%g0, Ho0, %hg0⟩, ⟨%g1, Ho1, %hg1⟩⟩
  unfold k0_t7_body
  sl_exec_parts
  sl_step
  isplitl [Hx]; · iexact Hx
  isplitl [Ho0]
  · iexists _; isplitl [Ho0]; · iexact Ho0
    ipureintro
    exact goodH_step fx 1 1 0 f0 g0 k.val hk
      (fun i => k0_off33 k (BitVec.ofNat 32 (32 * (0 : Fin 2).val)) (BitVec.ofNat 32 i.val)) (fun i => k0_off33_inb k 0 i) (fun i => off33_eq k 0 i)
      _ (xload_eq fx 1 1 k.val hk _ (k0_off32_inb k) (off32_eq k))
      (fun i => shapeCast S1x1x16 (gcVec (⟨8 * (0 : Fin 2).val + i.val, by have := i.isLt; omega⟩ : Fin 16) _) shapeCasts_S16_S1x1x16) (fun i => rfl) hg0
  · iexists _; isplitl [Ho1]; · iexact Ho1
    ipureintro
    exact goodH_step fx 1 1 1 f1 g1 k.val hk
      (fun i => k0_off33 k (BitVec.ofNat 32 (32 * (1 : Fin 2).val)) (BitVec.ofNat 32 i.val)) (fun i => k0_off33_inb k 1 i) (fun i => off33_eq k 1 i)
      _ (xload_eq fx 1 1 k.val hk _ (k0_off32_inb k) (off32_eq k))
      (fun i => shapeCast S1x1x16 (gcVec (⟨8 * (1 : Fin 2).val + i.val, by have := i.isLt; omega⟩ : Fin 16) _) shapeCasts_S16_S1x1x16) (fun i => rfl) hg1

theorem trips7 : Scf.trips k0_t7_loop.lb k0_t7_loop.ub k0_t7_loop.st = 32 := by decide +kernel

/-- Loop 7 whole: from group 1 as fetched and the two halves of plane 1 at any contents, to the halves at the
    loop's value (on their own elements; elsewhere as they were). -/
theorem loop7 (d : Dev nD) (L : grid0.Coords) (v1 : BitVec 32) (k0_t1 : Fin k0_t1_loop.trips) (v179 : BitVec 32) (v192 : BitVec 32) (c1024_i32_234 : BitVec 32)
    (fx : S2x4x4x128.Idx → Elt F .f32) (f0 f1 : S4x64x128.Idx → Elt F .f32) :
    iprop(((xs1).view.loc (tV d L) ↦[(xs1).view.set]{fullShare} fx)
        ∗ ((oh10).view.loc (tV d L) ↦[(oh10).view.set]{fullShare} f0)
        ∗ ((oh11).view.loc (tV d L) ↦[(oh11).view.set]{fullShare} f1))
      ⊢ (wp frame (wpE (defs₀ (F := F)) 𝒱₀ (tV d L) none) Set.univ
          (Scf.Loop.for k0_t7_loop k0_t7_ok ⟨⟩
            (k0_t7_body L xV (Memref.isWhole_whole _) oV (Memref.isWhole_whole _) sX (Memref.isWhole_whole _) sO (Memref.isWhole_whole _)
              cc0_scratch2 cc0_scratch3 cc0_scratch4 cc0_scratch5 cc0_scratch6 cc0_scratch7 cc0_scratch8 cc0_scratch9 cc0_scratch10 cc0_scratch11
              v1 k0_t1 v179 v192 c1024_i32_234))
          (fun _ => inv7 (F := F) d L fx f0 f1 32 ()) : sProp 𝕄) := by
  iintro ⟨Hx, Ho0, Ho1⟩
  sl_for (inv7 (F := F) d L fx f0 f1) $$ [Hx Ho0 Ho1]
  case region => exact region7 d L v1 k0_t1 v179 v192 c1024_i32_234 fx f0 f1
  isplitl [Hx Ho0 Ho1]
  · unfold inv7
    isplitl [Hx]; · iexact Hx
    isplitl [Ho0]
    · iexists f0; isplitl [Ho0]; · iexact Ho0
      ipureintro; exact goodH_zero fx 1 1 0 f0
    · iexists f1; isplitl [Ho1]; · iexact Ho1
      ipureintro; exact goodH_zero fx 1 1 1 f1
  · rw [trips7]
    iintro %acc HI
    iexact HI

end Cert.Kernel.Hand.Inner

end
-- ==== Proof.InnerLoopDK.lean ====
/-
  The inner loops 8 and 9 of the tile kernel (planes 2 and 3 of fetched group 1): the closed forms of the
  offsets a block's load and its sixteen stores use, the loop's invariant — the fetched group unchanged, each half of the
  plane at the loop's value on the blocks done and as it was elsewhere —, one trip of the loop from the invariant at k to
  the invariant at k + 1, and the whole loop from it.
-/
import proofs.«209186_g8847632630064_cont_9to1c4b_396_28_alg».proof.Proof.InnerMathK

noncomputable section

namespace Cert.Kernel.Hand.Inner

open Cert.Kernel Cert.Kernel.Gen Cert.Kernel.Hand

open Idealize.ShloMosaic
open Idealize.ShloMosaic.ValueIdx

variable {F : FTy → Type} [FloatOps F]

open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 1) (Elt F) ℕ UU ℕ

/-! ## Loop 8: plane 2 of fetched group 1 -/

theorem off36_eq : ∀ k : Fin k0_t8_loop.trips, k0_off36 k = ![1, 2, k.val / 8, k.val % 8 * 16] := by decide +kernel
theorem off37_eq : ∀ (k : Fin k0_t8_loop.trips) (r₁ : Fin 2) (r₂ : Fin 8),
    k0_off37 k (BitVec.ofNat 32 (32 * r₁.val)) (BitVec.ofNat 32 r₂.val) = ![2, 32 * r₁.val + k.val / 8 * 8 + r₂.val, k.val % 8 * 16] := by decide +kernel
instance closedOff36 (k : Fin k0_t8_loop.trips) : ClosedOff (k0_off36 k) := ⟨_, off36_eq k⟩
instance closedOff37_0_0 (k : Fin k0_t8_loop.trips) : ClosedOff (k0_off37 k 0#32 0#32) := ⟨_, off37_eq k 0 0⟩
instance closedOff37_0_1 (k : Fin k0_t8_loop.trips) : ClosedOff (k0_off37 k 0#32 1#32) := ⟨_, off37_eq k 0 1⟩
instance closedOff37_0_2 (k : Fin k0_t8_loop.trips) : ClosedOff (k0_off37 k 0#32 2#32) := ⟨_, off37_eq k 0 2⟩
instance closedOff37_0_3 (k : Fin k0_t8_loop.trips) : ClosedOff (k0_off37 k 0#32 3#32) := ⟨_, off37_eq k 0 3⟩
instance closedOff37_0_4 (k : Fin k0_t8_loop.trips) : ClosedOff (k0_off37 k 0#32 4#32) := ⟨_, off37_eq k 0 4⟩
instance closedOff37_0_5 (k : Fin k0_t8_loop.trips) : ClosedOff (k0_off37 k 0#32 5#32) := ⟨_, off37_eq k 0 5⟩
instance closedOff37_0_6 (k : Fin k0_t8_loop.trips) : ClosedOff (k0_off37 k 0#32 6#32) := ⟨_, off37_eq k 0 6⟩
instance closedOff37_0_7 (k : Fin k0_t8_loop.trips) : ClosedOff (k0_off37 k 0#32 7#32) := ⟨_, off37_eq k 0 7⟩
instance closedOff37_1_0 (k : Fin k0_t8_loop.trips) : ClosedOff (k0_off37 k 32#32 0#32) := ⟨_, off37_eq k 1 0⟩
instance closedOff37_1_1 (k : Fin k0_t8_loop.trips) : ClosedOff (k0_off37 k 32#32 1#32) := ⟨_, off37_eq k 1 1⟩
instance closedOff37_1_2 (k : Fin k0_t8_loop.trips) : ClosedOff (k0_off37 k 32#32 2#32) := ⟨_, off37_eq k 1 2⟩
instance closedOff37_1_3 (k : Fin k0_t8_loop.trips) : ClosedOff (k0_off37 k 32#32 3#32) := ⟨_, off37_eq k 1 3⟩
instance closedOff37_1_4 (k : Fin k0_t8_loop.trips) : ClosedOff (k0_off37 k 32#32 4#32) := ⟨_, off37_eq k 1 4⟩
instance closedOff37_1_5 (k : Fin k0_t8_loop.trips) : ClosedOff (k0_off37 k 32#32 5#32) := ⟨_, off37_eq k 1 5⟩
instance closedOff37_1_6 (k : Fin k0_t8_loop.trips) : ClosedOff (k0_off37 k 32#32 6#32) := ⟨_, off37_eq k 1 6⟩
instance closedOff37_1_7 (k : Fin k0_t8_loop.trips) : ClosedOff (k0_off37 k 32#32 7#32) := ⟨_, off37_eq k 1 7⟩

/-- Before block k of loop 8: group 1 as fetched, the two halves of plane 2 good below k. -/
def inv8 (d : Dev nD) (L : grid0.Coords) (fx : S2x4x4x128.Idx → Elt F .f32) (f0 f1 : S4x64x128.Idx → Elt F .f32) (k : ℕ) (_ : Unit) : sProp 𝕄 :=
  iprop(((xs1).view.loc (tV d L) ↦[(xs1).view.set]{fullShare} fx)
    ∗ (∃ g0, ((oh20).view.loc (tV d L) ↦[(oh20).view.set]{fullShare} g0) ∗ ⌜GoodH fx 1 2 0 f0 g0 k⌝)
    ∗ (∃ g1, ((oh21).view.loc (tV d L) ↦[(oh21).view.set]{fullShare} g1) ∗ ⌜GoodH fx 1 2 1 f1 g1 k⌝))

/-- One trip of loop 8. -/
theorem region8 (d : Dev nD) (L : grid0.Coords) (v1 : BitVec 32) (k0_t1 : Fin k0_t1_loop.trips) (v179 : BitVec 32)
    (fx : S2x4x4x128.Idx → Elt F .f32) (f0 f1 : S4x64x128.Idx → Elt F .f32) :
    ∀ (k : Fin k0_t8_loop.trips) (acc : Unit), inv8 (F := F) d L fx f0 f1 k.val acc
      ⊢ wp frame (wpE (defs₀ (F := F)) 𝒱₀ (tV d L) none) Set.univ
          (k0_t8_body L xV (Memref.isWhole_whole _) oV (Memref.isWhole_whole _) sX (Memref.isWhole_whole _) sO (Memref.isWhole_whole _)
            cc0_scratch2 cc0_scratch3 cc0_scratch4 cc0_scratch5 cc0_scratch6 cc0_scratch7 cc0_scratch8 cc0_scratch9 cc0_scratch10 cc0_scratch11
            v1 k0_t1 v179 k acc)
          (inv8 (F := F) d L fx f0 f1 (k.val + 1)) := by
  intro k acc
  have hk : k.val < 32 := Nat.lt_of_lt_of_le k.isLt k0_t8_abs.2.1
  unfold inv8
  iintro ⟨Hx, ⟨%g0, Ho0, %hg0⟩, ⟨%g1, Ho1, %hg1⟩⟩
  unfold k0_t8_body
  sl_exec_parts
  sl_step
  isplitl [Hx]; · iexact Hx
  isplitl [Ho0]
  · iexists _; isplitl [Ho0]; · iexact Ho0
    ipureintro
    exact goodH_step fx 1 2 0 f0 g0 k.val hk
      (fun i => k0_off37 k (BitVec.ofNat 32 (32 * (0 : Fin 2).val)) (BitVec.ofNat 32 i.val)) (fun i => k0_off37_inb k 0 i) (fun i => off37_eq k 0 i)
      _ (xload_eq fx 1 2 k.val hk _ (k0_off36_inb k) (off36_eq k))
      (fun i => shapeCast S1x1x16 (gcVec (⟨8 * (0 : Fin 2).val + i.val, by have := i.isLt; omega⟩ : Fin 16) _) shapeCasts_S16_S1x1x16) (fun i => rfl) hg0
  · iexists _; isplitl [Ho1]; · iexact Ho1
    ipureintro
    exact goodH_step fx 1 2 1 f1 g1 k.val hk
      (fun i => k0_off37 k (BitVec.ofNat 32 (32 * (1 : Fin 2).val)) (BitVec.ofNat 32 i.val)) (fun i => k0_off37_inb k 1 i) (fun i => off37_eq k 1 i)
      _ (xload_eq fx 1 2 k.val hk _ (k0_off36_inb k) (off36_eq k))
      (fun i => shapeCast S1x1x16 (gcVec (⟨8 * (1 : Fin 2).val + i.val, by have := i.isLt; omega⟩ : Fin 16) _) shapeCasts_S16_S1x1x16) (fun i => rfl) hg1

theorem trips8 : Scf.trips k0_t8_loop.lb k0_t8_loop.ub k0_t8_loop.st = 32 := by decide +kernel

/-- Loop 8 whole: from group 1 as fetched and the two halves of plane 2 at any contents, to the halves at the
    loop's value (on their own elements; elsewhere as they were). -/
theorem loop8 (d : Dev nD) (L : grid0.Coords) (v1 : BitVec 32) (k0_t1 : Fin k0_t1_loop.trips) (v179 : BitVec 32)
    (fx : S2x4x4x128.Idx → Elt F .f32) (f0 f1 : S4x64x128.Idx → Elt F .f32) :
    iprop(((xs1).view.loc (tV d L) ↦[(xs1).view.set]{fullShare} fx)
        ∗ ((oh20).view.loc (tV d L) ↦[(oh20).view.set]{fullShare} f0)
        ∗ ((oh21).view.loc (tV d L) ↦[(oh21).view.set]{fullShare} f1))
      ⊢ (wp frame (wpE (defs₀ (F := F)) 𝒱₀ (tV d L) none) Set.univ
          (Scf.Loop.for k0_t8_loop k0_t8_ok ⟨⟩
            (k0_t8_body L xV (Memref.isWhole_whole _) oV (Memref.isWhole_whole _) sX (Memref.isWhole_whole _) sO (Memref.isWhole_whole _)
              cc0_scratch2 cc0_scratch3 cc0_scratch4 cc0_scratch5 cc0_scratch6 cc0_scratch7 cc0_scratch8 cc0_scratch9 cc0_scratch10 cc0_scratch11
              v1 k0_t1 v179))
          (fun _ => inv8 (F := F) d L fx f0 f1 32 ()) : sProp 𝕄) := by
  iintro ⟨Hx, Ho0, Ho1⟩
  sl_for (inv8 (F := F) d L fx f0 f1) $$ [Hx Ho0 Ho1]
  case region => exact region8 d L v1 k0_t1 v179 fx f0 f1
  isplitl [Hx Ho0 Ho1]
  · unfold inv8
    isplitl [Hx]; · iexact Hx
    isplitl [Ho0]
    · iexists f0; isplitl [Ho0]; · iexact Ho0
      ipureintro; exact goodH_zero fx 1 2 0 f0
    · iexists f1; isplitl [Ho1]; · iexact Ho1
      ipureintro; exact goodH_zero fx 1 2 1 f1
  · rw [trips8]
    iintro %acc HI
    iexact HI

/-! ## Loop 9: plane 3 of fetched group 1 -/

theorem off40_eq : ∀ k : Fin k0_t9_loop.trips, k0_off40 k = ![1, 3, k.val / 8, k.val % 8 * 16] := by decide +kernel
theorem off41_eq : ∀ (k : Fin k0_t9_loop.trips) (r₁ : Fin 2) (r₂ : Fin 8),
    k0_off41 k (BitVec.ofNat 32 (32 * r₁.val)) (BitVec.ofNat 32 r₂.val) = ![3, 32 * r₁.val + k.val / 8 * 8 + r₂.val, k.val % 8 * 16] := by decide +kernel
instance closedOff40 (k : Fin k0_t9_loop.trips) : ClosedOff (k0_off40 k) := ⟨_, off40_eq k⟩
instance closedOff41_0_0 (k : Fin k0_t9_loop.trips) : ClosedOff (k0_off41 k 0#32 0#32) := ⟨_, off41_eq k 0 0⟩
instance closedOff41_0_1 (k : Fin k0_t9_loop.trips) : ClosedOff (k0_off41 k 0#32 1#32) := ⟨_, off41_eq k 0 1⟩
instance closedOff41_0_2 (k : Fin k0_t9_loop.trips) : ClosedOff (k0_off41 k 0#32 2#32) := ⟨_, off41_eq k 0 2⟩
instance closedOff41_0_3 (k : Fin k0_t9_loop.trips) : ClosedOff (k0_off41 k 0#32 3#32) := ⟨_, off41_eq k 0 3⟩
instance closedOff41_0_4 (k : Fin k0_t9_loop.trips) : ClosedOff (k0_off41 k 0#32 4#32) := ⟨_, off41_eq k 0 4⟩
instance closedOff41_0_5 (k : Fin k0_t9_loop.trips) : ClosedOff (k0_off41 k 0#32 5#32) := ⟨_, off41_eq k 0 5⟩
instance closedOff41_0_6 (k : Fin k0_t9_loop.trips) : ClosedOff (k0_off41 k 0#32 6#32) := ⟨_, off41_eq k 0 6⟩
instance closedOff41_0_7 (k : Fin k0_t9_loop.trips) : ClosedOff (k0_off41 k 0#32 7#32) := ⟨_, off41_eq k 0 7⟩
instance closedOff41_1_0 (k : Fin k0_t9_loop.trips) : ClosedOff (k0_off41 k 32#32 0#32) := ⟨_, off41_eq k 1 0⟩
instance closedOff41_1_1 (k : Fin k0_t9_loop.trips) : ClosedOff (k0_off41 k 32#32 1#32) := ⟨_, off41_eq k 1 1⟩
instance closedOff41_1_2 (k : Fin k0_t9_loop.trips) : ClosedOff (k0_off41 k 32#32 2#32) := ⟨_, off41_eq k 1 2⟩
instance closedOff41_1_3 (k : Fin k0_t9_loop.trips) : ClosedOff (k0_off41 k 32#32 3#32) := ⟨_, off41_eq k 1 3⟩
instance closedOff41_1_4 (k : Fin k0_t9_loop.trips) : ClosedOff (k0_off41 k 32#32 4#32) := ⟨_, off41_eq k 1 4⟩
instance closedOff41_1_5 (k : Fin k0_t9_loop.trips) : ClosedOff (k0_off41 k 32#32 5#32) := ⟨_, off41_eq k 1 5⟩
instance closedOff41_1_6 (k : Fin k0_t9_loop.trips) : ClosedOff (k0_off41 k 32#32 6#32) := ⟨_, off41_eq k 1 6⟩
instance closedOff41_1_7 (k : Fin k0_t9_loop.trips) : ClosedOff (k0_off41 k 32#32 7#32) := ⟨_, off41_eq k 1 7⟩

/-- Before block k of loop 9: group 1 as fetched, the two halves of plane 3 good below k. -/
def inv9 (d : Dev nD) (L : grid0.Coords) (fx : S2x4x4x128.Idx → Elt F .f32) (f0 f1 : S4x64x128.Idx → Elt F .f32) (k : ℕ) (_ : Unit) : sProp 𝕄 :=
  iprop(((xs1).view.loc (tV d L) ↦[(xs1).view.set]{fullShare} fx)
    ∗ (∃ g0, ((oh30).view.loc (tV d L) ↦[(oh30).view.set]{fullShare} g0) ∗ ⌜GoodH fx 1 3 0 f0 g0 k⌝)
    ∗ (∃ g1, ((oh31).view.loc (tV d L) ↦[(oh31).view.set]{fullShare} g1) ∗ ⌜GoodH fx 1 3 1 f1 g1 k⌝))

/-- One trip of loop 9. -/
theorem region9 (d : Dev nD) (L : grid0.Coords) (v1 : BitVec 32) (c0_i32_22 : BitVec 32) (c1_i32_23 : BitVec 32) (k0_t1 : Fin k0_t1_loop.trips)
    (fx : S2x4x4x128.Idx → Elt F .f32) (f0 f1 : S4x64x128.Idx → Elt F .f32) :
    ∀ (k : Fin k0_t9_loop.trips) (acc : Unit), inv9 (F := F) d L fx f0 f1 k.val acc
      ⊢ wp frame (wpE (defs₀ (F := F)) 𝒱₀ (tV d L) none) Set.univ
          (k0_t9_body L xV (Memref.isWhole_whole _) oV (Memref.isWhole_whole _) sX (Memref.isWhole_whole _) sO (Memref.isWhole_whole _)
            cc0_scratch2 cc0_scratch3 cc0_scratch4 cc0_scratch5 cc0_scratch6 cc0_scratch7 cc0_scratch8 cc0_scratch9 cc0_scratch10 cc0_scratch11
            v1 c0_i32_22 c1_i32_23 k0_t1 k acc)
          (inv9 (F := F) d L fx f0 f1 (k.val + 1)) := by
  intro k acc
  have hk : k.val < 32 := Nat.lt_of_lt_of_le k.isLt k0_t9_abs.2.1
  unfold inv9
  iintro ⟨Hx, ⟨%g0, Ho0, %hg0⟩, ⟨%g1, Ho1, %hg1⟩⟩
  unfold k0_t9_body
  sl_exec_parts
  sl_step
  isplitl [Hx]; · iexact Hx
  isplitl [Ho0]
  · iexists _; isplitl [Ho0]; · iexact Ho0
    ipureintro
    exact goodH_step fx 1 3 0 f0 g0 k.val hk
      (fun i => k0_off41 k (BitVec.ofNat 32 (32 * (0 : Fin 2).val)) (BitVec.ofNat 32 i.val)) (fun i => k0_off41_inb k 0 i) (fun i => off41_eq k 0 i)
      _ (xload_eq fx 1 3 k.val hk _ (k0_off40_inb k) (off40_eq k))
      (fun i => shapeCast S1x1x16 (gcVec (⟨8 * (0 : Fin 2).val + i.val, by have := i.isLt; omega⟩ : Fin 16) _) shapeCasts_S16_S1x1x16) (fun i => rfl) hg0
  · iexists _; isplitl [Ho1]; · iexact Ho1
    ipureintro
    exact goodH_step fx 1 3 1 f1 g1 k.val hk
      (fun i => k0_off41 k (BitVec.ofNat 32 (32 * (1 : Fin 2).val)) (BitVec.ofNat 32 i.val)) (fun i => k0_off41_inb k 1 i) (fun i => off41_eq k 1 i)
      _ (xload_eq fx 1 3 k.val hk _ (k0_off40_inb k) (off40_eq k))
      (fun i => shapeCast S1x1x16 (gcVec (⟨8 * (1 : Fin 2).val + i.val, by have := i.isLt; omega⟩ : Fin 16) _) shapeCasts_S16_S1x1x16) (fun i => rfl) hg1

theorem trips9 : Scf.trips k0_t9_loop.lb k0_t9_loop.ub k0_t9_loop.st = 32 := by decide +kernel

/-- Loop 9 whole: from group 1 as fetched and the two halves of plane 3 at any contents, to the halves at the
    loop's value (on their own elements; elsewhere as they were). -/
theorem loop9 (d : Dev nD) (L : grid0.Coords) (v1 : BitVec 32) (c0_i32_22 : BitVec 32) (c1_i32_23 : BitVec 32) (k0_t1 : Fin k0_t1_loop.trips)
    (fx : S2x4x4x128.Idx → Elt F .f32) (f0 f1 : S4x64x128.Idx → Elt F .f32) :
    iprop(((xs1).view.loc (tV d L) ↦[(xs1).view.set]{fullShare} fx)
        ∗ ((oh30).view.loc (tV d L) ↦[(oh30).view.set]{fullShare} f0)
        ∗ ((oh31).view.loc (tV d L) ↦[(oh31).view.set]{fullShare} f1))
      ⊢ (wp frame (wpE (defs₀ (F := F)) 𝒱₀ (tV d L) none) Set.univ
          (Scf.Loop.for k0_t9_loop k0_t9_ok ⟨⟩
            (k0_t9_body L xV (Memref.isWhole_whole _) oV (Memref.isWhole_whole _) sX (Memref.isWhole_whole _) sO (Memref.isWhole_whole _)
              cc0_scratch2 cc0_scratch3 cc0_scratch4 cc0_scratch5 cc0_scratch6 cc0_scratch7 cc0_scratch8 cc0_scratch9 cc0_scratch10 cc0_scratch11
              v1 c0_i32_22 c1_i32_23 k0_t1))
          (fun _ => inv9 (F := F) d L fx f0 f1 32 ()) : sProp 𝕄) := by
  iintro ⟨Hx, Ho0, Ho1⟩
  sl_for (inv9 (F := F) d L fx f0 f1) $$ [Hx Ho0 Ho1]
  case region => exact region9 d L v1 c0_i32_22 c1_i32_23 k0_t1 fx f0 f1
  isplitl [Hx Ho0 Ho1]
  · unfold inv9
    isplitl [Hx]; · iexact Hx
    isplitl [Ho0]
    · iexists f0; isplitl [Ho0]; · iexact Ho0
      ipureintro; exact goodH_zero fx 1 3 0 f0
    · iexists f1; isplitl [Ho1]; · iexact Ho1
      ipureintro; exact goodH_zero fx 1 3 1 f1
  · rw [trips9]
    iintro %acc HI
    iexact HI

end Cert.Kernel.Hand.Inner

end
-- ==== Proof.InnerLoopK.lean ====
/-
  The eight inner loops of the tile kernel: one per plane of each fetched group.
-/
import proofs.«209186_g8847632630064_cont_9to1c4b_396_28_alg».proof.Proof.InnerLoopAK
import proofs.«209186_g8847632630064_cont_9to1c4b_396_28_alg».proof.Proof.InnerLoopBK
import proofs.«209186_g8847632630064_cont_9to1c4b_396_28_alg».proof.Proof.InnerLoopCK
import proofs.«209186_g8847632630064_cont_9to1c4b_396_28_alg».proof.Proof.InnerLoopDK
-- ==== Proof.TileTripAK.lean ====
/-
  One trip of the tile kernel's outer loop, from the invariant before the trip to the invariant after it — the first trip:
  the two groups of four planes the trip computes, each plane by its inner loop between the waits that free its half
  planes and the two copies that send them out, and the next two fetches started.
-/
import proofs.«209186_g8847632630064_cont_9to1c4b_396_28_alg».proof.Proof.CommonK
import proofs.«209186_g8847632630064_cont_9to1c4b_396_28_alg».proof.Proof.TileBufsK
import proofs.«209186_g8847632630064_cont_9to1c4b_396_28_alg».proof.Proof.TileSlicesK
import proofs.«209186_g8847632630064_cont_9to1c4b_396_28_alg».proof.Proof.TileInvK
import proofs.«209186_g8847632630064_cont_9to1c4b_396_28_alg».proof.Proof.TilePreK
import proofs.«209186_g8847632630064_cont_9to1c4b_396_28_alg».proof.Proof.TileOffsK
import proofs.«209186_g8847632630064_cont_9to1c4b_396_28_alg».proof.Proof.TileGoodK
import proofs.«209186_g8847632630064_cont_9to1c4b_396_28_alg».proof.Proof.InnerLoopK

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop shareTokN)
open Idealize.ShloMosaic.Tactic

variable {F : FTy → Type}

local notation "𝕄" => MT nD τ sig (HIx 1) (Elt F) ℕ UU ℕ

variable [FloatOps F]
variable (X : (d : Dev nD) → Buf (Elt F) (x3Loc d))
variable (d : Dev nD) (L : grid0.Coords)

open Idealize.ShloMosaic.ValueIdx

/-- The trip, the first trip: no copies out are in flight yet. -/
theorem trip_t0 (hX : LandX X d L) (hO : LandO X d L) (hG : GoodOk X d L)
    (O : CellTallies nD τ sig (HIx 1)) (W : Waits sig (HIx 1)) (v1 : BitVec 32) (t : Fin k0_t1_loop.trips) (acc : PUnit) (hcase : t.val = 0) :
    Inv X d L O W t.val acc
      ⊢ wp frame (wpE (defs₀ (F := F)) 𝒱₀ (V d (cV L) (jV L)) none) Set.univ
          (k0_t1_body L xV (Memref.isWhole_whole _) oV (Memref.isWhole_whole _) sX (Memref.isWhole_whole _) sO (Memref.isWhole_whole _) cc0_scratch2 cc0_scratch3 cc0_scratch4 cc0_scratch5 cc0_scratch6 cc0_scratch7 cc0_scratch8 cc0_scratch9 cc0_scratch10 cc0_scratch11 v1 t acc) (Inv X d L O W (t.val + 1)) := by
  have htl := trips_le t
  unfold Inv InSt OutSt
  iintro ⟨#Hmw, Hin, Hout, Htodo, Hdone, %W', %hW', HO⟩
  icases Hin with (⟨%hk, Hin0, Hin1⟩ | ⟨%hk, -⟩)
  swap
  · exfalso; omega
  unfold FlIn0 FlIn1
  icases Hin0 with ⟨%Sx0, Hf0, Hx0r⟩
  icases Hin1 with ⟨%Sx1, Hf1, Hx1r⟩
  icases Hout with (⟨%h0, HO0, HO1, HO2, HO3⟩ | ⟨%tp, %htp, HB0, HB1, HB2, HB3⟩)
  · have h24 : t.val < 24 := by omega
    unfold OutIdle0 OutIdle1 OutIdle2 OutIdle3
    icases HO0 with ⟨⟨%g00, HB0_src0⟩, ⟨%g01, HB0_src1⟩, HB0⟩
    icases HO1 with ⟨⟨%g10, HB1_src0⟩, ⟨%g11, HB1_src1⟩, HB1⟩
    icases HO2 with ⟨⟨%g20, HB2_src0⟩, ⟨%g21, HB2_src1⟩, HB2⟩
    icases HO3 with ⟨⟨%g30, HB3_src0⟩, ⟨%g31, HB3_src1⟩, HB3⟩
    have k0_h1 : ¬ k0_cond1 t = 1#1 := cond1_zero t h0
    have k0_h2 : ¬ k0_cond2 t = 1#1 := cond2_zero t h0
    have k0_h3 : ¬ k0_cond3 t = 1#1 := cond3_zero t h0
    have k0_h4 : ¬ k0_cond4 t = 1#1 := cond4_zero t h0
    have k0_h6 : k0_cond6 t = 1#1 := cond6_all t
    have k0_h7 : k0_cond7 t = 1#1 := cond7_all t
    have k0_h8 : k0_cond8 t = 1#1 := cond8_all t
    have k0_h9 : k0_cond9 t = 1#1 := cond9_all t
    have k0_h5 : k0_cond5 t = 1#1 := cond5_lt t h24
    have k0_h10 : k0_cond10 t = 1#1 := cond10_lt t h24
    ihave Htodo := (Entails.of_eq (oTodoG_step d (widL L) (2 * t.val) (even_group_lt t))) $$ Htodo
    icases Htodo with ⟨⟨%fa00, Ha00⟩, ⟨%fa01, Ha01⟩, ⟨%fa10, Ha10⟩, ⟨%fa11, Ha11⟩, ⟨%fa20, Ha20⟩, ⟨%fa21, Ha21⟩, ⟨%fa30, Ha30⟩, ⟨%fa31, Ha31⟩, Htodo⟩
    ihave Htodo := (Entails.of_eq (oTodoG_step d (widL L) (2 * t.val + 1) (odd_group_lt t))) $$ Htodo
    icases Htodo with ⟨⟨%fb00, Hb00⟩, ⟨%fb01, Hb01⟩, ⟨%fb10, Hb10⟩, ⟨%fb11, Hb11⟩, ⟨%fb20, Hb20⟩, ⟨%fb21, Hb21⟩, ⟨%fb30, Hb30⟩, ⟨%fb31, Hb31⟩, Htodo⟩
    ihave Ha00 := (Entails.of_eq (pts_oA00 (F := F) d L t fa00).symm) $$ Ha00
    ihave Ha01 := (Entails.of_eq (pts_oA01 (F := F) d L t fa01).symm) $$ Ha01
    ihave Ha10 := (Entails.of_eq (pts_oA10 (F := F) d L t fa10).symm) $$ Ha10
    ihave Ha11 := (Entails.of_eq (pts_oA11 (F := F) d L t fa11).symm) $$ Ha11
    ihave Ha20 := (Entails.of_eq (pts_oA20 (F := F) d L t fa20).symm) $$ Ha20
    ihave Ha21 := (Entails.of_eq (pts_oA21 (F := F) d L t fa21).symm) $$ Ha21
    ihave Ha30 := (Entails.of_eq (pts_oA30 (F := F) d L t fa30).symm) $$ Ha30
    ihave Ha31 := (Entails.of_eq (pts_oA31 (F := F) d L t fa31).symm) $$ Ha31
    ihave Hb00 := (Entails.of_eq (pts_oB00 (F := F) d L t fb00).symm) $$ Hb00
    ihave Hb01 := (Entails.of_eq (pts_oB01 (F := F) d L t fb01).symm) $$ Hb01
    ihave Hb10 := (Entails.of_eq (pts_oB10 (F := F) d L t fb10).symm) $$ Hb10
    ihave Hb11 := (Entails.of_eq (pts_oB11 (F := F) d L t fb11).symm) $$ Hb11
    ihave Hb20 := (Entails.of_eq (pts_oB20 (F := F) d L t fb20).symm) $$ Hb20
    ihave Hb21 := (Entails.of_eq (pts_oB21 (F := F) d L t fb21).symm) $$ Hb21
    ihave Hb30 := (Entails.of_eq (pts_oB30 (F := F) d L t fb30).symm) $$ Hb30
    ihave Hb31 := (Entails.of_eq (pts_oB31 (F := F) d L t fb31).symm) $$ Hb31
    unfold k0_t1_body
    sl_exec
    icases Hf0_dst with ⟨%gx0, Hxs0, %hgx0⟩
    sl_for (Inner.inv2 d L gx0 g00 g01) $$ [Hxs0 HB0_src0 HB0_src1]
    case region => exact Inner.region2 d L _ _ _ _ gx0 g00 g01
    · unfold Inner.inv2
      isplitl [Hxs0]; · iexact Hxs0
      isplitl [HB0_src0]
      · iexists g00; isplitl [HB0_src0]; · iexact HB0_src0
        ipureintro; exact Inner.goodH_zero _ _ _ _ _
      · iexists g01; isplitl [HB0_src1]; · iexact HB0_src1
        ipureintro; exact Inner.goodH_zero _ _ _ _ _
    iintro %_ HI
    unfold Inner.inv2
    icases HI with ⟨Hxs0, ⟨%n00, HB0_src0, %hn00⟩, ⟨%n01, HB0_src1, %hn01⟩⟩
    have ok000 := hG.good (2 * t.val) (even_group_lt t) 0 0 0 gx0 g00 n00 hgx0 hn00
    have ok001 := hG.good (2 * t.val) (even_group_lt t) 0 0 1 gx0 g01 n01 hgx0 hn01
    imod (Transfers.batch_alloc' (Lvl := ℕ) (countersEmb (U := UU)) (V d (cV L) (jV L)) (none : HIx 1) 131072
        (batchD (delivO d L (oA00 L t) oh00 fa00 n00) (delivO d L (oA01 L t) oh01 fa01 n01))
        (sm := SemLoc.dma cc0_scratch4.sem) (E := Set.univ)) $$ HB0 with HB0
    sl_exec
    sl_for (Inner.inv3 d L gx0 g10 g11) $$ [Hxs0 HB1_src0 HB1_src1]
    case region => exact Inner.region3 d L _ _ _ _ _ gx0 g10 g11
    · unfold Inner.inv3
      isplitl [Hxs0]; · iexact Hxs0
      isplitl [HB1_src0]
      · iexists g10; isplitl [HB1_src0]; · iexact HB1_src0
        ipureintro; exact Inner.goodH_zero _ _ _ _ _
      · iexists g11; isplitl [HB1_src1]; · iexact HB1_src1
        ipureintro; exact Inner.goodH_zero _ _ _ _ _
    iintro %_ HI
    unfold Inner.inv3
    icases HI with ⟨Hxs0, ⟨%n10, HB1_src0, %hn10⟩, ⟨%n11, HB1_src1, %hn11⟩⟩
    have ok010 := hG.good (2 * t.val) (even_group_lt t) 0 1 0 gx0 g10 n10 hgx0 hn10
    have ok011 := hG.good (2 * t.val) (even_group_lt t) 0 1 1 gx0 g11 n11 hgx0 hn11
    imod (Transfers.batch_alloc' (Lvl := ℕ) (countersEmb (U := UU)) (V d (cV L) (jV L)) (none : HIx 1) 131072
        (batchD (delivO d L (oA10 L t) oh10 fa10 n10) (delivO d L (oA11 L t) oh11 fa11 n11))
        (sm := SemLoc.dma cc0_scratch5.sem) (E := Set.univ)) $$ HB1 with HB1
    sl_exec
    sl_for (Inner.inv4 d L gx0 g20 g21) $$ [Hxs0 HB2_src0 HB2_src1]
    case region => exact Inner.region4 d L _ _ _ gx0 g20 g21
    · unfold Inner.inv4
      isplitl [Hxs0]; · iexact Hxs0
      isplitl [HB2_src0]
      · iexists g20; isplitl [HB2_src0]; · iexact HB2_src0
        ipureintro; exact Inner.goodH_zero _ _ _ _ _
      · iexists g21; isplitl [HB2_src1]; · iexact HB2_src1
        ipureintro; exact Inner.goodH_zero _ _ _ _ _
    iintro %_ HI
    unfold Inner.inv4
    icases HI with ⟨Hxs0, ⟨%n20, HB2_src0, %hn20⟩, ⟨%n21, HB2_src1, %hn21⟩⟩
    have ok020 := hG.good (2 * t.val) (even_group_lt t) 0 2 0 gx0 g20 n20 hgx0 hn20
    have ok021 := hG.good (2 * t.val) (even_group_lt t) 0 2 1 gx0 g21 n21 hgx0 hn21
    imod (Transfers.batch_alloc' (Lvl := ℕ) (countersEmb (U := UU)) (V d (cV L) (jV L)) (none : HIx 1) 131072
        (batchD (delivO d L (oA20 L t) oh20 fa20 n20) (delivO d L (oA21 L t) oh21 fa21 n21))
        (sm := SemLoc.dma cc0_scratch6.sem) (E := Set.univ)) $$ HB2 with HB2
    sl_exec
    sl_for (Inner.inv5 d L gx0 g30 g31) $$ [Hxs0 HB3_src0 HB3_src1]
    case region => exact Inner.region5 d L _ _ _ _ gx0 g30 g31
    · unfold Inner.inv5
      isplitl [Hxs0]; · iexact Hxs0
      isplitl [HB3_src0]
      · iexists g30; isplitl [HB3_src0]; · iexact HB3_src0
        ipureintro; exact Inner.goodH_zero _ _ _ _ _
      · iexists g31; isplitl [HB3_src1]; · iexact HB3_src1
        ipureintro; exact Inner.goodH_zero _ _ _ _ _
    iintro %_ HI
    unfold Inner.inv5
    icases HI with ⟨Hxs0, ⟨%n30, HB3_src0, %hn30⟩, ⟨%n31, HB3_src1, %hn31⟩⟩
    have ok030 := hG.good (2 * t.val) (even_group_lt t) 0 3 0 gx0 g30 n30 hgx0 hn30
    have ok031 := hG.good (2 * t.val) (even_group_lt t) 0 3 1 gx0 g31 n31 hgx0 hn31
    imod (Transfers.batch_alloc' (Lvl := ℕ) (countersEmb (U := UU)) (V d (cV L) (jV L)) (none : HIx 1) 131072
        (batchD (delivO d L (oA30 L t) oh30 fa30 n30) (delivO d L (oA31 L t) oh31 fa31 n31))
        (sm := SemLoc.dma cc0_scratch7.sem) (E := Set.univ)) $$ HB3 with HB3
    sl_exec
    icases Hf1_dst with ⟨%gx1, Hxs1, %hgx1⟩
    ihave He00 := (Entails.of_eq (done_oA00 X d L hO t _ _ ok000)) $$ HB0_dst0
    ihave He01 := (Entails.of_eq (done_oA01 X d L hO t _ _ ok001)) $$ HB0_dst1
    sl_for (Inner.inv6 d L gx1 n00 n01) $$ [Hxs1 HB0_src0 HB0_src1]
    case region => exact Inner.region6 d L _ _ _ _ gx1 n00 n01
    · unfold Inner.inv6
      isplitl [Hxs1]; · iexact Hxs1
      isplitl [HB0_src0]
      · iexists n00; isplitl [HB0_src0]; · iexact HB0_src0
        ipureintro; exact Inner.goodH_zero _ _ _ _ _
      · iexists n01; isplitl [HB0_src1]; · iexact HB0_src1
        ipureintro; exact Inner.goodH_zero _ _ _ _ _
    iintro %_ HI
    unfold Inner.inv6
    icases HI with ⟨Hxs1, ⟨%m00, HB0_src0, %hm00⟩, ⟨%m01, HB0_src1, %hm01⟩⟩
    have ok100 := hG.good (2 * t.val + 1) (odd_group_lt t) 1 0 0 gx1 n00 m00 hgx1 hm00
    have ok101 := hG.good (2 * t.val + 1) (odd_group_lt t) 1 0 1 gx1 n01 m01 hgx1 hm01
    ihave HB0 := (show (semVal ((V d (cV L) (jV L)), SemLoc.dma ⟨2, _⟩) 0 : sProp 𝕄) ⊢ semVal ((V d (cV L) (jV L)), SemLoc.dma cc0_scratch4.sem) 0 from Entails.rfl) $$ HB0
    imod (Transfers.batch_alloc' (Lvl := ℕ) (countersEmb (U := UU)) (V d (cV L) (jV L)) (none : HIx 1) 131072
        (batchD (delivO d L (oB00 L t) oh00 fb00 m00) (delivO d L (oB01 L t) oh01 fb01 m01))
        (sm := SemLoc.dma cc0_scratch4.sem) (E := Set.univ)) $$ HB0 with HB0
    sl_exec
    ihave He10 := (Entails.of_eq (done_oA10 X d L hO t _ _ ok010)) $$ HB1_dst0
    ihave He11 := (Entails.of_eq (done_oA11 X d L hO t _ _ ok011)) $$ HB1_dst1
    sl_for (Inner.inv7 d L gx1 n10 n11) $$ [Hxs1 HB1_src0 HB1_src1]
    case region => exact Inner.region7 d L _ _ _ _ _ gx1 n10 n11
    · unfold Inner.inv7
      isplitl [Hxs1]; · iexact Hxs1
      isplitl [HB1_src0]
      · iexists n10; isplitl [HB1_src0]; · iexact HB1_src0
        ipureintro; exact Inner.goodH_zero _ _ _ _ _
      · iexists n11; isplitl [HB1_src1]; · iexact HB1_src1
        ipureintro; exact Inner.goodH_zero _ _ _ _ _
    iintro %_ HI
    unfold Inner.inv7
    icases HI with ⟨Hxs1, ⟨%m10, HB1_src0, %hm10⟩, ⟨%m11, HB1_src1, %hm11⟩⟩
    have ok110 := hG.good (2 * t.val + 1) (odd_group_lt t) 1 1 0 gx1 n10 m10 hgx1 hm10
    have ok111 := hG.good (2 * t.val + 1) (odd_group_lt t) 1 1 1 gx1 n11 m11 hgx1 hm11
    ihave HB1 := (show (semVal ((V d (cV L) (jV L)), SemLoc.dma ⟨3, _⟩) 0 : sProp 𝕄) ⊢ semVal ((V d (cV L) (jV L)), SemLoc.dma cc0_scratch5.sem) 0 from Entails.rfl) $$ HB1
    imod (Transfers.batch_alloc' (Lvl := ℕ) (countersEmb (U := UU)) (V d (cV L) (jV L)) (none : HIx 1) 131072
        (batchD (delivO d L (oB10 L t) oh10 fb10 m10) (delivO d L (oB11 L t) oh11 fb11 m11))
        (sm := SemLoc.dma cc0_scratch5.sem) (E := Set.univ)) $$ HB1 with HB1
    sl_exec
    ihave He20 := (Entails.of_eq (done_oA20 X d L hO t _ _ ok020)) $$ HB2_dst0
    ihave He21 := (Entails.of_eq (done_oA21 X d L hO t _ _ ok021)) $$ HB2_dst1
    sl_for (Inner.inv8 d L gx1 n20 n21) $$ [Hxs1 HB2_src0 HB2_src1]
    case region => exact Inner.region8 d L _ _ _ gx1 n20 n21
    · unfold Inner.inv8
      isplitl [Hxs1]; · iexact Hxs1
      isplitl [HB2_src0]
      · iexists n20; isplitl [HB2_src0]; · iexact HB2_src0
        ipureintro; exact Inner.goodH_zero _ _ _ _ _
      · iexists n21; isplitl [HB2_src1]; · iexact HB2_src1
        ipureintro; exact Inner.goodH_zero _ _ _ _ _
    iintro %_ HI
    unfold Inner.inv8
    icases HI with ⟨Hxs1, ⟨%m20, HB2_src0, %hm20⟩, ⟨%m21, HB2_src1, %hm21⟩⟩
    have ok120 := hG.good (2 * t.val + 1) (odd_group_lt t) 1 2 0 gx1 n20 m20 hgx1 hm20
    have ok121 := hG.good (2 * t.val + 1) (odd_group_lt t) 1 2 1 gx1 n21 m21 hgx1 hm21
    ihave HB2 := (show (semVal ((V d (cV L) (jV L)), SemLoc.dma ⟨4, _⟩) 0 : sProp 𝕄) ⊢ semVal ((V d (cV L) (jV L)), SemLoc.dma cc0_scratch6.sem) 0 from Entails.rfl) $$ HB2
    imod (Transfers.batch_alloc' (Lvl := ℕ) (countersEmb (U := UU)) (V d (cV L) (jV L)) (none : HIx 1) 131072
        (batchD (delivO d L (oB20 L t) oh20 fb20 m20) (delivO d L (oB21 L t) oh21 fb21 m21))
        (sm := SemLoc.dma cc0_scratch6.sem) (E := Set.univ)) $$ HB2 with HB2
    sl_exec
    ihave He30 := (Entails.of_eq (done_oA30 X d L hO t _ _ ok030)) $$ HB3_dst0
    ihave He31 := (Entails.of_eq (done_oA31 X d L hO t _ _ ok031)) $$ HB3_dst1
    sl_for (Inner.inv9 d L gx1 n30 n31) $$ [Hxs1 HB3_src0 HB3_src1]
    case region => exact Inner.region9 d L _ _ _ _ gx1 n30 n31
    · unfold Inner.inv9
      isplitl [Hxs1]; · iexact Hxs1
      isplitl [HB3_src0]
      · iexists n30; isplitl [HB3_src0]; · iexact HB3_src0
        ipureintro; exact Inner.goodH_zero _ _ _ _ _
      · iexists n31; isplitl [HB3_src1]; · iexact HB3_src1
        ipureintro; exact Inner.goodH_zero _ _ _ _ _
    iintro %_ HI
    unfold Inner.inv9
    icases HI with ⟨Hxs1, ⟨%m30, HB3_src0, %hm30⟩, ⟨%m31, HB3_src1, %hm31⟩⟩
    have ok130 := hG.good (2 * t.val + 1) (odd_group_lt t) 1 3 0 gx1 n30 m30 hgx1 hm30
    have ok131 := hG.good (2 * t.val + 1) (odd_group_lt t) 1 3 1 gx1 n31 m31 hgx1 hm31
    ihave HB3 := (show (semVal ((V d (cV L) (jV L)), SemLoc.dma ⟨5, _⟩) 0 : sProp 𝕄) ⊢ semVal ((V d (cV L) (jV L)), SemLoc.dma cc0_scratch7.sem) 0 from Entails.rfl) $$ HB3
    imod (Transfers.batch_alloc' (Lvl := ℕ) (countersEmb (U := UU)) (V d (cV L) (jV L)) (none : HIx 1) 131072
        (batchD (delivO d L (oB30 L t) oh30 fb30 m30) (delivO d L (oB31 L t) oh31 fb31 m31))
        (sm := SemLoc.dma cc0_scratch7.sem) (E := Set.univ)) $$ HB3 with HB3
    sl_exec
    sl_step
    isplitr; · iexact Hmw
    isplitl [Hf0 Hx0r Hf1 Hx1r]
    · ileft
      isplitr; · ipureintro; omega
      isplitl [Hf0 Hx0r]
      · iexists _
        isplitl [Hf0]
        · iapply (flight_ok0 X d L (2 * (t.val + 1)) _ (hX.l0 (2 * (t.val + 1)) (by omega) _ (k0_off22_inb L t k0_h5) (by rw [hoffx22, show 4 * (2 * t.val + 2) = 4 * (2 * (t.val + 1)) from by omega]) _) _)
          iexact Hf0
        · iexact Hx0r
      · iexists _
        isplitl [Hf1]
        · iapply (flight_ok1 X d L (2 * (t.val + 1) + 1) _ (hX.l1 (2 * (t.val + 1) + 1) (by omega) _ (k0_off42_inb L t k0_h10) (by rw [hoffx42, show 4 * (2 * t.val + 3) = 4 * (2 * (t.val + 1) + 1) from by omega]) _) _)
          iexact Hf1
        · iexact Hx1r
    isplitl [HB0 HB1 HB2 HB3]
    · iright
      unfold BatchO0 BatchO1 BatchO2 BatchO3
      iexists t
      isplitr; · ipureintro; rfl
      isplitl [HB0]
      · iexists fb00, fb01, m00, m01
        isplitr; · ipureintro; exact ⟨ok100, ok101⟩
        iexact HB0
      isplitl [HB1]
      · iexists fb10, fb11, m10, m11
        isplitr; · ipureintro; exact ⟨ok110, ok111⟩
        iexact HB1
      isplitl [HB2]
      · iexists fb20, fb21, m20, m21
        isplitr; · ipureintro; exact ⟨ok120, ok121⟩
        iexact HB2
      iexists fb30, fb31, m30, m31
      isplitr; · ipureintro; exact ⟨ok130, ok131⟩
      iexact HB3
    isplitl [Htodo]
    · iapply (Entails.of_eq (congrArg (oTodoG d (widL L)) (show 2 * t.val + 1 + 1 = 2 * (t.val + 1) from by omega)))
      iexact Htodo
    isplitl [Hdone He00 He01 He10 He11 He20 He21 He30 He31]
    · ihave Hdone := (Entails.of_eq (congrArg (oDoneG X d (widL L)) (show 2 * t.val - 1 = 2 * t.val from by omega))) $$ Hdone
      ihave Hdone := (oDoneG_step X d (widL L) (2 * t.val) (even_group_lt t)) $$ [Hdone He00 He01 He10 He11 He20 He21 He30 He31]
      · isplitl [Hdone]; · iexact Hdone
        isplitl [He00]; · iexact He00
        isplitl [He01]; · iexact He01
        isplitl [He10]; · iexact He10
        isplitl [He11]; · iexact He11
        isplitl [He20]; · iexact He20
        isplitl [He21]; · iexact He21
        isplitl [He30]; · iexact He30
        iexact He31
      iapply (Entails.of_eq (congrArg (oDoneG X d (widL L)) (show 2 * t.val + 1 = 2 * (t.val + 1) - 1 from by omega)))
      iexact Hdone
    iexists _
    isplitr
    swap
    · iexact HO
    · ipureintro; repeat (first | exact hW' | apply wok_insert)

  · exfalso; omega

end Cert.Kernel.Hand

end
-- ==== Proof.TileTripBK.lean ====
/-
  One trip of the tile kernel's outer loop, from the invariant before the trip to the invariant after it — a trip between the first and the last:
  the two groups of four planes the trip computes, each plane by its inner loop between the waits that free its half
  planes and the two copies that send them out, and the next two fetches started.
-/
import proofs.«209186_g8847632630064_cont_9to1c4b_396_28_alg».proof.Proof.CommonK
import proofs.«209186_g8847632630064_cont_9to1c4b_396_28_alg».proof.Proof.TileBufsK
import proofs.«209186_g8847632630064_cont_9to1c4b_396_28_alg».proof.Proof.TileSlicesK
import proofs.«209186_g8847632630064_cont_9to1c4b_396_28_alg».proof.Proof.TileInvK
import proofs.«209186_g8847632630064_cont_9to1c4b_396_28_alg».proof.Proof.TilePreK
import proofs.«209186_g8847632630064_cont_9to1c4b_396_28_alg».proof.Proof.TileOffsK
import proofs.«209186_g8847632630064_cont_9to1c4b_396_28_alg».proof.Proof.TileGoodK
import proofs.«209186_g8847632630064_cont_9to1c4b_396_28_alg».proof.Proof.InnerLoopK

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop shareTokN)
open Idealize.ShloMosaic.Tactic

variable {F : FTy → Type}

local notation "𝕄" => MT nD τ sig (HIx 1) (Elt F) ℕ UU ℕ

variable [FloatOps F]
variable (X : (d : Dev nD) → Buf (Elt F) (x3Loc d))
variable (d : Dev nD) (L : grid0.Coords)

open Idealize.ShloMosaic.ValueIdx

/-- The trip, a trip between the first and the last. -/
theorem trip_mid (hX : LandX X d L) (hO : LandO X d L) (hG : GoodOk X d L)
    (O : CellTallies nD τ sig (HIx 1)) (W : Waits sig (HIx 1)) (v1 : BitVec 32) (t : Fin k0_t1_loop.trips) (acc : PUnit) (hcase : 1 ≤ t.val ∧ t.val < 24) :
    Inv X d L O W t.val acc
      ⊢ wp frame (wpE (defs₀ (F := F)) 𝒱₀ (V d (cV L) (jV L)) none) Set.univ
          (k0_t1_body L xV (Memref.isWhole_whole _) oV (Memref.isWhole_whole _) sX (Memref.isWhole_whole _) sO (Memref.isWhole_whole _) cc0_scratch2 cc0_scratch3 cc0_scratch4 cc0_scratch5 cc0_scratch6 cc0_scratch7 cc0_scratch8 cc0_scratch9 cc0_scratch10 cc0_scratch11 v1 t acc) (Inv X d L O W (t.val + 1)) := by
  have htl := trips_le t
  unfold Inv InSt OutSt
  iintro ⟨#Hmw, Hin, Hout, Htodo, Hdone, %W', %hW', HO⟩
  icases Hin with (⟨%hk, Hin0, Hin1⟩ | ⟨%hk, -⟩)
  swap
  · exfalso; omega
  unfold FlIn0 FlIn1
  icases Hin0 with ⟨%Sx0, Hf0, Hx0r⟩
  icases Hin1 with ⟨%Sx1, Hf1, Hx1r⟩
  icases Hout with (⟨%h0, HO0, HO1, HO2, HO3⟩ | ⟨%tp, %htp, HB0, HB1, HB2, HB3⟩)
  · exfalso; omega
  · unfold BatchO0 BatchO1 BatchO2 BatchO3
    icases HB0 with ⟨%fp00, %fp01, %g00, %g01, %hokp0, HB0⟩
    icases HB1 with ⟨%fp10, %fp11, %g10, %g11, %hokp1, HB1⟩
    icases HB2 with ⟨%fp20, %fp21, %g20, %g21, %hokp2, HB2⟩
    icases HB3 with ⟨%fp30, %fp31, %g30, %g31, %hokp3, HB3⟩
    have h24 : t.val < 24 := hcase.2
    have k0_h1 : k0_cond1 t = 1#1 := cond1_pos t (by omega)
    have k0_h2 : k0_cond2 t = 1#1 := cond2_pos t (by omega)
    have k0_h3 : k0_cond3 t = 1#1 := cond3_pos t (by omega)
    have k0_h4 : k0_cond4 t = 1#1 := cond4_pos t (by omega)
    have k0_h6 : k0_cond6 t = 1#1 := cond6_all t
    have k0_h7 : k0_cond7 t = 1#1 := cond7_all t
    have k0_h8 : k0_cond8 t = 1#1 := cond8_all t
    have k0_h9 : k0_cond9 t = 1#1 := cond9_all t
    have k0_h5 : k0_cond5 t = 1#1 := cond5_lt t h24
    have k0_h10 : k0_cond10 t = 1#1 := cond10_lt t h24
    ihave Htodo := (Entails.of_eq (oTodoG_step d (widL L) (2 * t.val) (even_group_lt t))) $$ Htodo
    icases Htodo with ⟨⟨%fa00, Ha00⟩, ⟨%fa01, Ha01⟩, ⟨%fa10, Ha10⟩, ⟨%fa11, Ha11⟩, ⟨%fa20, Ha20⟩, ⟨%fa21, Ha21⟩, ⟨%fa30, Ha30⟩, ⟨%fa31, Ha31⟩, Htodo⟩
    ihave Htodo := (Entails.of_eq (oTodoG_step d (widL L) (2 * t.val + 1) (odd_group_lt t))) $$ Htodo
    icases Htodo with ⟨⟨%fb00, Hb00⟩, ⟨%fb01, Hb01⟩, ⟨%fb10, Hb10⟩, ⟨%fb11, Hb11⟩, ⟨%fb20, Hb20⟩, ⟨%fb21, Hb21⟩, ⟨%fb30, Hb30⟩, ⟨%fb31, Hb31⟩, Htodo⟩
    ihave Ha00 := (Entails.of_eq (pts_oA00 (F := F) d L t fa00).symm) $$ Ha00
    ihave Ha01 := (Entails.of_eq (pts_oA01 (F := F) d L t fa01).symm) $$ Ha01
    ihave Ha10 := (Entails.of_eq (pts_oA10 (F := F) d L t fa10).symm) $$ Ha10
    ihave Ha11 := (Entails.of_eq (pts_oA11 (F := F) d L t fa11).symm) $$ Ha11
    ihave Ha20 := (Entails.of_eq (pts_oA20 (F := F) d L t fa20).symm) $$ Ha20
    ihave Ha21 := (Entails.of_eq (pts_oA21 (F := F) d L t fa21).symm) $$ Ha21
    ihave Ha30 := (Entails.of_eq (pts_oA30 (F := F) d L t fa30).symm) $$ Ha30
    ihave Ha31 := (Entails.of_eq (pts_oA31 (F := F) d L t fa31).symm) $$ Ha31
    ihave Hb00 := (Entails.of_eq (pts_oB00 (F := F) d L t fb00).symm) $$ Hb00
    ihave Hb01 := (Entails.of_eq (pts_oB01 (F := F) d L t fb01).symm) $$ Hb01
    ihave Hb10 := (Entails.of_eq (pts_oB10 (F := F) d L t fb10).symm) $$ Hb10
    ihave Hb11 := (Entails.of_eq (pts_oB11 (F := F) d L t fb11).symm) $$ Hb11
    ihave Hb20 := (Entails.of_eq (pts_oB20 (F := F) d L t fb20).symm) $$ Hb20
    ihave Hb21 := (Entails.of_eq (pts_oB21 (F := F) d L t fb21).symm) $$ Hb21
    ihave Hb30 := (Entails.of_eq (pts_oB30 (F := F) d L t fb30).symm) $$ Hb30
    ihave Hb31 := (Entails.of_eq (pts_oB31 (F := F) d L t fb31).symm) $$ Hb31
    unfold k0_t1_body
    sl_exec
    icases Hf0_dst with ⟨%gx0, Hxs0, %hgx0⟩
    ihave Hd00 := (Entails.of_eq (done_oB00 X d L hO tp _ _ hokp0.1)) $$ HB0_dst0
    ihave Hd01 := (Entails.of_eq (done_oB01 X d L hO tp _ _ hokp0.2)) $$ HB0_dst1
    sl_for (Inner.inv2 d L gx0 g00 g01) $$ [Hxs0 HB0_src0 HB0_src1]
    case region => exact Inner.region2 d L _ _ _ _ gx0 g00 g01
    · unfold Inner.inv2
      isplitl [Hxs0]; · iexact Hxs0
      isplitl [HB0_src0]
      · iexists g00; isplitl [HB0_src0]; · iexact HB0_src0
        ipureintro; exact Inner.goodH_zero _ _ _ _ _
      · iexists g01; isplitl [HB0_src1]; · iexact HB0_src1
        ipureintro; exact Inner.goodH_zero _ _ _ _ _
    iintro %_ HI
    unfold Inner.inv2
    icases HI with ⟨Hxs0, ⟨%n00, HB0_src0, %hn00⟩, ⟨%n01, HB0_src1, %hn01⟩⟩
    have ok000 := hG.good (2 * t.val) (even_group_lt t) 0 0 0 gx0 g00 n00 hgx0 hn00
    have ok001 := hG.good (2 * t.val) (even_group_lt t) 0 0 1 gx0 g01 n01 hgx0 hn01
    ihave HB0 := (show (semVal ((V d (cV L) (jV L)), SemLoc.dma ⟨2, _⟩) 0 : sProp 𝕄) ⊢ semVal ((V d (cV L) (jV L)), SemLoc.dma cc0_scratch4.sem) 0 from Entails.rfl) $$ HB0
    imod (Transfers.batch_alloc' (Lvl := ℕ) (countersEmb (U := UU)) (V d (cV L) (jV L)) (none : HIx 1) 131072
        (batchD (delivO d L (oA00 L t) oh00 fa00 n00) (delivO d L (oA01 L t) oh01 fa01 n01))
        (sm := SemLoc.dma cc0_scratch4.sem) (E := Set.univ)) $$ HB0 with HB0
    sl_exec
    ihave Hd10 := (Entails.of_eq (done_oB10 X d L hO tp _ _ hokp1.1)) $$ HB1_dst0
    ihave Hd11 := (Entails.of_eq (done_oB11 X d L hO tp _ _ hokp1.2)) $$ HB1_dst1
    sl_for (Inner.inv3 d L gx0 g10 g11) $$ [Hxs0 HB1_src0 HB1_src1]
    case region => exact Inner.region3 d L _ _ _ _ _ gx0 g10 g11
    · unfold Inner.inv3
      isplitl [Hxs0]; · iexact Hxs0
      isplitl [HB1_src0]
      · iexists g10; isplitl [HB1_src0]; · iexact HB1_src0
        ipureintro; exact Inner.goodH_zero _ _ _ _ _
      · iexists g11; isplitl [HB1_src1]; · iexact HB1_src1
        ipureintro; exact Inner.goodH_zero _ _ _ _ _
    iintro %_ HI
    unfold Inner.inv3
    icases HI with ⟨Hxs0, ⟨%n10, HB1_src0, %hn10⟩, ⟨%n11, HB1_src1, %hn11⟩⟩
    have ok010 := hG.good (2 * t.val) (even_group_lt t) 0 1 0 gx0 g10 n10 hgx0 hn10
    have ok011 := hG.good (2 * t.val) (even_group_lt t) 0 1 1 gx0 g11 n11 hgx0 hn11
    ihave HB1 := (show (semVal ((V d (cV L) (jV L)), SemLoc.dma ⟨3, _⟩) 0 : sProp 𝕄) ⊢ semVal ((V d (cV L) (jV L)), SemLoc.dma cc0_scratch5.sem) 0 from Entails.rfl) $$ HB1
    imod (Transfers.batch_alloc' (Lvl := ℕ) (countersEmb (U := UU)) (V d (cV L) (jV L)) (none : HIx 1) 131072
        (batchD (delivO d L (oA10 L t) oh10 fa10 n10) (delivO d L (oA11 L t) oh11 fa11 n11))
        (sm := SemLoc.dma cc0_scratch5.sem) (E := Set.univ)) $$ HB1 with HB1
    sl_exec
    ihave Hd20 := (Entails.of_eq (done_oB20 X d L hO tp _ _ hokp2.1)) $$ HB2_dst0
    ihave Hd21 := (Entails.of_eq (done_oB21 X d L hO tp _ _ hokp2.2)) $$ HB2_dst1
    sl_for (Inner.inv4 d L gx0 g20 g21) $$ [Hxs0 HB2_src0 HB2_src1]
    case region => exact Inner.region4 d L _ _ _ gx0 g20 g21
    · unfold Inner.inv4
      isplitl [Hxs0]; · iexact Hxs0
      isplitl [HB2_src0]
      · iexists g20; isplitl [HB2_src0]; · iexact HB2_src0
        ipureintro; exact Inner.goodH_zero _ _ _ _ _
      · iexists g21; isplitl [HB2_src1]; · iexact HB2_src1
        ipureintro; exact Inner.goodH_zero _ _ _ _ _
    iintro %_ HI
    unfold Inner.inv4
    icases HI with ⟨Hxs0, ⟨%n20, HB2_src0, %hn20⟩, ⟨%n21, HB2_src1, %hn21⟩⟩
    have ok020 := hG.good (2 * t.val) (even_group_lt t) 0 2 0 gx0 g20 n20 hgx0 hn20
    have ok021 := hG.good (2 * t.val) (even_group_lt t) 0 2 1 gx0 g21 n21 hgx0 hn21
    ihave HB2 := (show (semVal ((V d (cV L) (jV L)), SemLoc.dma ⟨4, _⟩) 0 : sProp 𝕄) ⊢ semVal ((V d (cV L) (jV L)), SemLoc.dma cc0_scratch6.sem) 0 from Entails.rfl) $$ HB2
    imod (Transfers.batch_alloc' (Lvl := ℕ) (countersEmb (U := UU)) (V d (cV L) (jV L)) (none : HIx 1) 131072
        (batchD (delivO d L (oA20 L t) oh20 fa20 n20) (delivO d L (oA21 L t) oh21 fa21 n21))
        (sm := SemLoc.dma cc0_scratch6.sem) (E := Set.univ)) $$ HB2 with HB2
    sl_exec
    ihave Hd30 := (Entails.of_eq (done_oB30 X d L hO tp _ _ hokp3.1)) $$ HB3_dst0
    ihave Hd31 := (Entails.of_eq (done_oB31 X d L hO tp _ _ hokp3.2)) $$ HB3_dst1
    sl_for (Inner.inv5 d L gx0 g30 g31) $$ [Hxs0 HB3_src0 HB3_src1]
    case region => exact Inner.region5 d L _ _ _ _ gx0 g30 g31
    · unfold Inner.inv5
      isplitl [Hxs0]; · iexact Hxs0
      isplitl [HB3_src0]
      · iexists g30; isplitl [HB3_src0]; · iexact HB3_src0
        ipureintro; exact Inner.goodH_zero _ _ _ _ _
      · iexists g31; isplitl [HB3_src1]; · iexact HB3_src1
        ipureintro; exact Inner.goodH_zero _ _ _ _ _
    iintro %_ HI
    unfold Inner.inv5
    icases HI with ⟨Hxs0, ⟨%n30, HB3_src0, %hn30⟩, ⟨%n31, HB3_src1, %hn31⟩⟩
    have ok030 := hG.good (2 * t.val) (even_group_lt t) 0 3 0 gx0 g30 n30 hgx0 hn30
    have ok031 := hG.good (2 * t.val) (even_group_lt t) 0 3 1 gx0 g31 n31 hgx0 hn31
    ihave HB3 := (show (semVal ((V d (cV L) (jV L)), SemLoc.dma ⟨5, _⟩) 0 : sProp 𝕄) ⊢ semVal ((V d (cV L) (jV L)), SemLoc.dma cc0_scratch7.sem) 0 from Entails.rfl) $$ HB3
    imod (Transfers.batch_alloc' (Lvl := ℕ) (countersEmb (U := UU)) (V d (cV L) (jV L)) (none : HIx 1) 131072
        (batchD (delivO d L (oA30 L t) oh30 fa30 n30) (delivO d L (oA31 L t) oh31 fa31 n31))
        (sm := SemLoc.dma cc0_scratch7.sem) (E := Set.univ)) $$ HB3 with HB3
    sl_exec
    icases Hf1_dst with ⟨%gx1, Hxs1, %hgx1⟩
    ihave He00 := (Entails.of_eq (done_oA00 X d L hO t _ _ ok000)) $$ HB0_dst0
    ihave He01 := (Entails.of_eq (done_oA01 X d L hO t _ _ ok001)) $$ HB0_dst1
    sl_for (Inner.inv6 d L gx1 n00 n01) $$ [Hxs1 HB0_src0 HB0_src1]
    case region => exact Inner.region6 d L _ _ _ _ gx1 n00 n01
    · unfold Inner.inv6
      isplitl [Hxs1]; · iexact Hxs1
      isplitl [HB0_src0]
      · iexists n00; isplitl [HB0_src0]; · iexact HB0_src0
        ipureintro; exact Inner.goodH_zero _ _ _ _ _
      · iexists n01; isplitl [HB0_src1]; · iexact HB0_src1
        ipureintro; exact Inner.goodH_zero _ _ _ _ _
    iintro %_ HI
    unfold Inner.inv6
    icases HI with ⟨Hxs1, ⟨%m00, HB0_src0, %hm00⟩, ⟨%m01, HB0_src1, %hm01⟩⟩
    have ok100 := hG.good (2 * t.val + 1) (odd_group_lt t) 1 0 0 gx1 n00 m00 hgx1 hm00
    have ok101 := hG.good (2 * t.val + 1) (odd_group_lt t) 1 0 1 gx1 n01 m01 hgx1 hm01
    ihave HB0 := (show (semVal ((V d (cV L) (jV L)), SemLoc.dma ⟨2, _⟩) 0 : sProp 𝕄) ⊢ semVal ((V d (cV L) (jV L)), SemLoc.dma cc0_scratch4.sem) 0 from Entails.rfl) $$ HB0
    imod (Transfers.batch_alloc' (Lvl := ℕ) (countersEmb (U := UU)) (V d (cV L) (jV L)) (none : HIx 1) 131072
        (batchD (delivO d L (oB00 L t) oh00 fb00 m00) (delivO d L (oB01 L t) oh01 fb01 m01))
        (sm := SemLoc.dma cc0_scratch4.sem) (E := Set.univ)) $$ HB0 with HB0
    sl_exec
    ihave He10 := (Entails.of_eq (done_oA10 X d L hO t _ _ ok010)) $$ HB1_dst0
    ihave He11 := (Entails.of_eq (done_oA11 X d L hO t _ _ ok011)) $$ HB1_dst1
    sl_for (Inner.inv7 d L gx1 n10 n11) $$ [Hxs1 HB1_src0 HB1_src1]
    case region => exact Inner.region7 d L _ _ _ _ _ gx1 n10 n11
    · unfold Inner.inv7
      isplitl [Hxs1]; · iexact Hxs1
      isplitl [HB1_src0]
      · iexists n10; isplitl [HB1_src0]; · iexact HB1_src0
        ipureintro; exact Inner.goodH_zero _ _ _ _ _
      · iexists n11; isplitl [HB1_src1]; · iexact HB1_src1
        ipureintro; exact Inner.goodH_zero _ _ _ _ _
    iintro %_ HI
    unfold Inner.inv7
    icases HI with ⟨Hxs1, ⟨%m10, HB1_src0, %hm10⟩, ⟨%m11, HB1_src1, %hm11⟩⟩
    have ok110 := hG.good (2 * t.val + 1) (odd_group_lt t) 1 1 0 gx1 n10 m10 hgx1 hm10
    have ok111 := hG.good (2 * t.val + 1) (odd_group_lt t) 1 1 1 gx1 n11 m11 hgx1 hm11
    ihave HB1 := (show (semVal ((V d (cV L) (jV L)), SemLoc.dma ⟨3, _⟩) 0 : sProp 𝕄) ⊢ semVal ((V d (cV L) (jV L)), SemLoc.dma cc0_scratch5.sem) 0 from Entails.rfl) $$ HB1
    imod (Transfers.batch_alloc' (Lvl := ℕ) (countersEmb (U := UU)) (V d (cV L) (jV L)) (none : HIx 1) 131072
        (batchD (delivO d L (oB10 L t) oh10 fb10 m10) (delivO d L (oB11 L t) oh11 fb11 m11))
        (sm := SemLoc.dma cc0_scratch5.sem) (E := Set.univ)) $$ HB1 with HB1
    sl_exec
    ihave He20 := (Entails.of_eq (done_oA20 X d L hO t _ _ ok020)) $$ HB2_dst0
    ihave He21 := (Entails.of_eq (done_oA21 X d L hO t _ _ ok021)) $$ HB2_dst1
    sl_for (Inner.inv8 d L gx1 n20 n21) $$ [Hxs1 HB2_src0 HB2_src1]
    case region => exact Inner.region8 d L _ _ _ gx1 n20 n21
    · unfold Inner.inv8
      isplitl [Hxs1]; · iexact Hxs1
      isplitl [HB2_src0]
      · iexists n20; isplitl [HB2_src0]; · iexact HB2_src0
        ipureintro; exact Inner.goodH_zero _ _ _ _ _
      · iexists n21; isplitl [HB2_src1]; · iexact HB2_src1
        ipureintro; exact Inner.goodH_zero _ _ _ _ _
    iintro %_ HI
    unfold Inner.inv8
    icases HI with ⟨Hxs1, ⟨%m20, HB2_src0, %hm20⟩, ⟨%m21, HB2_src1, %hm21⟩⟩
    have ok120 := hG.good (2 * t.val + 1) (odd_group_lt t) 1 2 0 gx1 n20 m20 hgx1 hm20
    have ok121 := hG.good (2 * t.val + 1) (odd_group_lt t) 1 2 1 gx1 n21 m21 hgx1 hm21
    ihave HB2 := (show (semVal ((V d (cV L) (jV L)), SemLoc.dma ⟨4, _⟩) 0 : sProp 𝕄) ⊢ semVal ((V d (cV L) (jV L)), SemLoc.dma cc0_scratch6.sem) 0 from Entails.rfl) $$ HB2
    imod (Transfers.batch_alloc' (Lvl := ℕ) (countersEmb (U := UU)) (V d (cV L) (jV L)) (none : HIx 1) 131072
        (batchD (delivO d L (oB20 L t) oh20 fb20 m20) (delivO d L (oB21 L t) oh21 fb21 m21))
        (sm := SemLoc.dma cc0_scratch6.sem) (E := Set.univ)) $$ HB2 with HB2
    sl_exec
    ihave He30 := (Entails.of_eq (done_oA30 X d L hO t _ _ ok030)) $$ HB3_dst0
    ihave He31 := (Entails.of_eq (done_oA31 X d L hO t _ _ ok031)) $$ HB3_dst1
    sl_for (Inner.inv9 d L gx1 n30 n31) $$ [Hxs1 HB3_src0 HB3_src1]
    case region => exact Inner.region9 d L _ _ _ _ gx1 n30 n31
    · unfold Inner.inv9
      isplitl [Hxs1]; · iexact Hxs1
      isplitl [HB3_src0]
      · iexists n30; isplitl [HB3_src0]; · iexact HB3_src0
        ipureintro; exact Inner.goodH_zero _ _ _ _ _
      · iexists n31; isplitl [HB3_src1]; · iexact HB3_src1
        ipureintro; exact Inner.goodH_zero _ _ _ _ _
    iintro %_ HI
    unfold Inner.inv9
    icases HI with ⟨Hxs1, ⟨%m30, HB3_src0, %hm30⟩, ⟨%m31, HB3_src1, %hm31⟩⟩
    have ok130 := hG.good (2 * t.val + 1) (odd_group_lt t) 1 3 0 gx1 n30 m30 hgx1 hm30
    have ok131 := hG.good (2 * t.val + 1) (odd_group_lt t) 1 3 1 gx1 n31 m31 hgx1 hm31
    ihave HB3 := (show (semVal ((V d (cV L) (jV L)), SemLoc.dma ⟨5, _⟩) 0 : sProp 𝕄) ⊢ semVal ((V d (cV L) (jV L)), SemLoc.dma cc0_scratch7.sem) 0 from Entails.rfl) $$ HB3
    imod (Transfers.batch_alloc' (Lvl := ℕ) (countersEmb (U := UU)) (V d (cV L) (jV L)) (none : HIx 1) 131072
        (batchD (delivO d L (oB30 L t) oh30 fb30 m30) (delivO d L (oB31 L t) oh31 fb31 m31))
        (sm := SemLoc.dma cc0_scratch7.sem) (E := Set.univ)) $$ HB3 with HB3
    sl_exec
    sl_step
    isplitr; · iexact Hmw
    isplitl [Hf0 Hx0r Hf1 Hx1r]
    · ileft
      isplitr; · ipureintro; omega
      isplitl [Hf0 Hx0r]
      · iexists _
        isplitl [Hf0]
        · iapply (flight_ok0 X d L (2 * (t.val + 1)) _ (hX.l0 (2 * (t.val + 1)) (by omega) _ (k0_off22_inb L t k0_h5) (by rw [hoffx22, show 4 * (2 * t.val + 2) = 4 * (2 * (t.val + 1)) from by omega]) _) _)
          iexact Hf0
        · iexact Hx0r
      · iexists _
        isplitl [Hf1]
        · iapply (flight_ok1 X d L (2 * (t.val + 1) + 1) _ (hX.l1 (2 * (t.val + 1) + 1) (by omega) _ (k0_off42_inb L t k0_h10) (by rw [hoffx42, show 4 * (2 * t.val + 3) = 4 * (2 * (t.val + 1) + 1) from by omega]) _) _)
          iexact Hf1
        · iexact Hx1r
    isplitl [HB0 HB1 HB2 HB3]
    · iright
      iexists t
      isplitr; · ipureintro; rfl
      isplitl [HB0]
      · iexists fb00, fb01, m00, m01
        isplitr; · ipureintro; exact ⟨ok100, ok101⟩
        iexact HB0
      isplitl [HB1]
      · iexists fb10, fb11, m10, m11
        isplitr; · ipureintro; exact ⟨ok110, ok111⟩
        iexact HB1
      isplitl [HB2]
      · iexists fb20, fb21, m20, m21
        isplitr; · ipureintro; exact ⟨ok120, ok121⟩
        iexact HB2
      iexists fb30, fb31, m30, m31
      isplitr; · ipureintro; exact ⟨ok130, ok131⟩
      iexact HB3
    isplitl [Htodo]
    · iapply (Entails.of_eq (congrArg (oTodoG d (widL L)) (show 2 * t.val + 1 + 1 = 2 * (t.val + 1) from by omega)))
      iexact Htodo
    isplitl [Hdone Hd00 Hd01 Hd10 Hd11 Hd20 Hd21 Hd30 Hd31 He00 He01 He10 He11 He20 He21 He30 He31]
    · ihave Hdone := (Entails.of_eq (congrArg (oDoneG X d (widL L)) (show 2 * t.val - 1 = 2 * tp.val + 1 from by omega))) $$ Hdone
      ihave Hdone := (oDoneG_step X d (widL L) (2 * tp.val + 1) (odd_group_lt tp)) $$ [Hdone Hd00 Hd01 Hd10 Hd11 Hd20 Hd21 Hd30 Hd31]
      · isplitl [Hdone]; · iexact Hdone
        isplitl [Hd00]; · iexact Hd00
        isplitl [Hd01]; · iexact Hd01
        isplitl [Hd10]; · iexact Hd10
        isplitl [Hd11]; · iexact Hd11
        isplitl [Hd20]; · iexact Hd20
        isplitl [Hd21]; · iexact Hd21
        isplitl [Hd30]; · iexact Hd30
        iexact Hd31
      ihave Hdone := (Entails.of_eq (congrArg (oDoneG X d (widL L)) (show 2 * tp.val + 1 + 1 = 2 * t.val from by omega))) $$ Hdone
      ihave Hdone := (oDoneG_step X d (widL L) (2 * t.val) (even_group_lt t)) $$ [Hdone He00 He01 He10 He11 He20 He21 He30 He31]
      · isplitl [Hdone]; · iexact Hdone
        isplitl [He00]; · iexact He00
        isplitl [He01]; · iexact He01
        isplitl [He10]; · iexact He10
        isplitl [He11]; · iexact He11
        isplitl [He20]; · iexact He20
        isplitl [He21]; · iexact He21
        isplitl [He30]; · iexact He30
        iexact He31
      iapply (Entails.of_eq (congrArg (oDoneG X d (widL L)) (show 2 * t.val + 1 = 2 * (t.val + 1) - 1 from by omega)))
      iexact Hdone
    iexists _
    isplitr
    swap
    · iexact HO
    · ipureintro; repeat (first | exact hW' | apply wok_insert)

end Cert.Kernel.Hand

end
-- ==== Proof.TileTripCK.lean ====
/-
  One trip of the tile kernel's outer loop, from the invariant before the trip to the invariant after it — the last trip:
  the two groups of four planes the trip computes, each plane by its inner loop between the waits that free its half
  planes and the two copies that send them out, and the next two fetches started.
-/
import proofs.«209186_g8847632630064_cont_9to1c4b_396_28_alg».proof.Proof.CommonK
import proofs.«209186_g8847632630064_cont_9to1c4b_396_28_alg».proof.Proof.TileBufsK
import proofs.«209186_g8847632630064_cont_9to1c4b_396_28_alg».proof.Proof.TileSlicesK
import proofs.«209186_g8847632630064_cont_9to1c4b_396_28_alg».proof.Proof.TileInvK
import proofs.«209186_g8847632630064_cont_9to1c4b_396_28_alg».proof.Proof.TilePreK
import proofs.«209186_g8847632630064_cont_9to1c4b_396_28_alg».proof.Proof.TileOffsK
import proofs.«209186_g8847632630064_cont_9to1c4b_396_28_alg».proof.Proof.TileGoodK
import proofs.«209186_g8847632630064_cont_9to1c4b_396_28_alg».proof.Proof.InnerLoopK

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop shareTokN)
open Idealize.ShloMosaic.Tactic

variable {F : FTy → Type}

local notation "𝕄" => MT nD τ sig (HIx 1) (Elt F) ℕ UU ℕ

variable [FloatOps F]
variable (X : (d : Dev nD) → Buf (Elt F) (x3Loc d))
variable (d : Dev nD) (L : grid0.Coords)

open Idealize.ShloMosaic.ValueIdx

/-- The trip, the last trip: nothing more to fetch. -/
theorem trip_last (hX : LandX X d L) (hO : LandO X d L) (hG : GoodOk X d L)
    (O : CellTallies nD τ sig (HIx 1)) (W : Waits sig (HIx 1)) (v1 : BitVec 32) (t : Fin k0_t1_loop.trips) (acc : PUnit) (hcase : ¬ t.val < 24) :
    Inv X d L O W t.val acc
      ⊢ wp frame (wpE (defs₀ (F := F)) 𝒱₀ (V d (cV L) (jV L)) none) Set.univ
          (k0_t1_body L xV (Memref.isWhole_whole _) oV (Memref.isWhole_whole _) sX (Memref.isWhole_whole _) sO (Memref.isWhole_whole _) cc0_scratch2 cc0_scratch3 cc0_scratch4 cc0_scratch5 cc0_scratch6 cc0_scratch7 cc0_scratch8 cc0_scratch9 cc0_scratch10 cc0_scratch11 v1 t acc) (Inv X d L O W (t.val + 1)) := by
  have htl := trips_le t
  unfold Inv InSt OutSt
  iintro ⟨#Hmw, Hin, Hout, Htodo, Hdone, %W', %hW', HO⟩
  icases Hin with (⟨%hk, Hin0, Hin1⟩ | ⟨%hk, -⟩)
  swap
  · exfalso; omega
  unfold FlIn0 FlIn1
  icases Hin0 with ⟨%Sx0, Hf0, Hx0r⟩
  icases Hin1 with ⟨%Sx1, Hf1, Hx1r⟩
  icases Hout with (⟨%h0, HO0, HO1, HO2, HO3⟩ | ⟨%tp, %htp, HB0, HB1, HB2, HB3⟩)
  · exfalso; omega
  · unfold BatchO0 BatchO1 BatchO2 BatchO3
    icases HB0 with ⟨%fp00, %fp01, %g00, %g01, %hokp0, HB0⟩
    icases HB1 with ⟨%fp10, %fp11, %g10, %g11, %hokp1, HB1⟩
    icases HB2 with ⟨%fp20, %fp21, %g20, %g21, %hokp2, HB2⟩
    icases HB3 with ⟨%fp30, %fp31, %g30, %g31, %hokp3, HB3⟩
    have h24 : ¬ t.val < 24 := hcase
    have k0_h1 : k0_cond1 t = 1#1 := cond1_pos t (by omega)
    have k0_h2 : k0_cond2 t = 1#1 := cond2_pos t (by omega)
    have k0_h3 : k0_cond3 t = 1#1 := cond3_pos t (by omega)
    have k0_h4 : k0_cond4 t = 1#1 := cond4_pos t (by omega)
    have k0_h6 : k0_cond6 t = 1#1 := cond6_all t
    have k0_h7 : k0_cond7 t = 1#1 := cond7_all t
    have k0_h8 : k0_cond8 t = 1#1 := cond8_all t
    have k0_h9 : k0_cond9 t = 1#1 := cond9_all t
    have k0_h5 : ¬ k0_cond5 t = 1#1 := cond5_last t h24
    have k0_h10 : ¬ k0_cond10 t = 1#1 := cond10_last t h24
    ihave Htodo := (Entails.of_eq (oTodoG_step d (widL L) (2 * t.val) (even_group_lt t))) $$ Htodo
    icases Htodo with ⟨⟨%fa00, Ha00⟩, ⟨%fa01, Ha01⟩, ⟨%fa10, Ha10⟩, ⟨%fa11, Ha11⟩, ⟨%fa20, Ha20⟩, ⟨%fa21, Ha21⟩, ⟨%fa30, Ha30⟩, ⟨%fa31, Ha31⟩, Htodo⟩
    ihave Htodo := (Entails.of_eq (oTodoG_step d (widL L) (2 * t.val + 1) (odd_group_lt t))) $$ Htodo
    icases Htodo with ⟨⟨%fb00, Hb00⟩, ⟨%fb01, Hb01⟩, ⟨%fb10, Hb10⟩, ⟨%fb11, Hb11⟩, ⟨%fb20, Hb20⟩, ⟨%fb21, Hb21⟩, ⟨%fb30, Hb30⟩, ⟨%fb31, Hb31⟩, Htodo⟩
    ihave Ha00 := (Entails.of_eq (pts_oA00 (F := F) d L t fa00).symm) $$ Ha00
    ihave Ha01 := (Entails.of_eq (pts_oA01 (F := F) d L t fa01).symm) $$ Ha01
    ihave Ha10 := (Entails.of_eq (pts_oA10 (F := F) d L t fa10).symm) $$ Ha10
    ihave Ha11 := (Entails.of_eq (pts_oA11 (F := F) d L t fa11).symm) $$ Ha11
    ihave Ha20 := (Entails.of_eq (pts_oA20 (F := F) d L t fa20).symm) $$ Ha20
    ihave Ha21 := (Entails.of_eq (pts_oA21 (F := F) d L t fa21).symm) $$ Ha21
    ihave Ha30 := (Entails.of_eq (pts_oA30 (F := F) d L t fa30).symm) $$ Ha30
    ihave Ha31 := (Entails.of_eq (pts_oA31 (F := F) d L t fa31).symm) $$ Ha31
    ihave Hb00 := (Entails.of_eq (pts_oB00 (F := F) d L t fb00).symm) $$ Hb00
    ihave Hb01 := (Entails.of_eq (pts_oB01 (F := F) d L t fb01).symm) $$ Hb01
    ihave Hb10 := (Entails.of_eq (pts_oB10 (F := F) d L t fb10).symm) $$ Hb10
    ihave Hb11 := (Entails.of_eq (pts_oB11 (F := F) d L t fb11).symm) $$ Hb11
    ihave Hb20 := (Entails.of_eq (pts_oB20 (F := F) d L t fb20).symm) $$ Hb20
    ihave Hb21 := (Entails.of_eq (pts_oB21 (F := F) d L t fb21).symm) $$ Hb21
    ihave Hb30 := (Entails.of_eq (pts_oB30 (F := F) d L t fb30).symm) $$ Hb30
    ihave Hb31 := (Entails.of_eq (pts_oB31 (F := F) d L t fb31).symm) $$ Hb31
    unfold k0_t1_body
    sl_exec
    icases Hf0_dst with ⟨%gx0, Hxs0, %hgx0⟩
    ihave Hd00 := (Entails.of_eq (done_oB00 X d L hO tp _ _ hokp0.1)) $$ HB0_dst0
    ihave Hd01 := (Entails.of_eq (done_oB01 X d L hO tp _ _ hokp0.2)) $$ HB0_dst1
    sl_for (Inner.inv2 d L gx0 g00 g01) $$ [Hxs0 HB0_src0 HB0_src1]
    case region => exact Inner.region2 d L _ _ _ _ gx0 g00 g01
    · unfold Inner.inv2
      isplitl [Hxs0]; · iexact Hxs0
      isplitl [HB0_src0]
      · iexists g00; isplitl [HB0_src0]; · iexact HB0_src0
        ipureintro; exact Inner.goodH_zero _ _ _ _ _
      · iexists g01; isplitl [HB0_src1]; · iexact HB0_src1
        ipureintro; exact Inner.goodH_zero _ _ _ _ _
    iintro %_ HI
    unfold Inner.inv2
    icases HI with ⟨Hxs0, ⟨%n00, HB0_src0, %hn00⟩, ⟨%n01, HB0_src1, %hn01⟩⟩
    have ok000 := hG.good (2 * t.val) (even_group_lt t) 0 0 0 gx0 g00 n00 hgx0 hn00
    have ok001 := hG.good (2 * t.val) (even_group_lt t) 0 0 1 gx0 g01 n01 hgx0 hn01
    ihave HB0 := (show (semVal ((V d (cV L) (jV L)), SemLoc.dma ⟨2, _⟩) 0 : sProp 𝕄) ⊢ semVal ((V d (cV L) (jV L)), SemLoc.dma cc0_scratch4.sem) 0 from Entails.rfl) $$ HB0
    imod (Transfers.batch_alloc' (Lvl := ℕ) (countersEmb (U := UU)) (V d (cV L) (jV L)) (none : HIx 1) 131072
        (batchD (delivO d L (oA00 L t) oh00 fa00 n00) (delivO d L (oA01 L t) oh01 fa01 n01))
        (sm := SemLoc.dma cc0_scratch4.sem) (E := Set.univ)) $$ HB0 with HB0
    sl_exec
    ihave Hd10 := (Entails.of_eq (done_oB10 X d L hO tp _ _ hokp1.1)) $$ HB1_dst0
    ihave Hd11 := (Entails.of_eq (done_oB11 X d L hO tp _ _ hokp1.2)) $$ HB1_dst1
    sl_for (Inner.inv3 d L gx0 g10 g11) $$ [Hxs0 HB1_src0 HB1_src1]
    case region => exact Inner.region3 d L _ _ _ _ _ gx0 g10 g11
    · unfold Inner.inv3
      isplitl [Hxs0]; · iexact Hxs0
      isplitl [HB1_src0]
      · iexists g10; isplitl [HB1_src0]; · iexact HB1_src0
        ipureintro; exact Inner.goodH_zero _ _ _ _ _
      · iexists g11; isplitl [HB1_src1]; · iexact HB1_src1
        ipureintro; exact Inner.goodH_zero _ _ _ _ _
    iintro %_ HI
    unfold Inner.inv3
    icases HI with ⟨Hxs0, ⟨%n10, HB1_src0, %hn10⟩, ⟨%n11, HB1_src1, %hn11⟩⟩
    have ok010 := hG.good (2 * t.val) (even_group_lt t) 0 1 0 gx0 g10 n10 hgx0 hn10
    have ok011 := hG.good (2 * t.val) (even_group_lt t) 0 1 1 gx0 g11 n11 hgx0 hn11
    ihave HB1 := (show (semVal ((V d (cV L) (jV L)), SemLoc.dma ⟨3, _⟩) 0 : sProp 𝕄) ⊢ semVal ((V d (cV L) (jV L)), SemLoc.dma cc0_scratch5.sem) 0 from Entails.rfl) $$ HB1
    imod (Transfers.batch_alloc' (Lvl := ℕ) (countersEmb (U := UU)) (V d (cV L) (jV L)) (none : HIx 1) 131072
        (batchD (delivO d L (oA10 L t) oh10 fa10 n10) (delivO d L (oA11 L t) oh11 fa11 n11))
        (sm := SemLoc.dma cc0_scratch5.sem) (E := Set.univ)) $$ HB1 with HB1
    sl_exec
    ihave Hd20 := (Entails.of_eq (done_oB20 X d L hO tp _ _ hokp2.1)) $$ HB2_dst0
    ihave Hd21 := (Entails.of_eq (done_oB21 X d L hO tp _ _ hokp2.2)) $$ HB2_dst1
    sl_for (Inner.inv4 d L gx0 g20 g21) $$ [Hxs0 HB2_src0 HB2_src1]
    case region => exact Inner.region4 d L _ _ _ gx0 g20 g21
    · unfold Inner.inv4
      isplitl [Hxs0]; · iexact Hxs0
      isplitl [HB2_src0]
      · iexists g20; isplitl [HB2_src0]; · iexact HB2_src0
        ipureintro; exact Inner.goodH_zero _ _ _ _ _
      · iexists g21; isplitl [HB2_src1]; · iexact HB2_src1
        ipureintro; exact Inner.goodH_zero _ _ _ _ _
    iintro %_ HI
    unfold Inner.inv4
    icases HI with ⟨Hxs0, ⟨%n20, HB2_src0, %hn20⟩, ⟨%n21, HB2_src1, %hn21⟩⟩
    have ok020 := hG.good (2 * t.val) (even_group_lt t) 0 2 0 gx0 g20 n20 hgx0 hn20
    have ok021 := hG.good (2 * t.val) (even_group_lt t) 0 2 1 gx0 g21 n21 hgx0 hn21
    ihave HB2 := (show (semVal ((V d (cV L) (jV L)), SemLoc.dma ⟨4, _⟩) 0 : sProp 𝕄) ⊢ semVal ((V d (cV L) (jV L)), SemLoc.dma cc0_scratch6.sem) 0 from Entails.rfl) $$ HB2
    imod (Transfers.batch_alloc' (Lvl := ℕ) (countersEmb (U := UU)) (V d (cV L) (jV L)) (none : HIx 1) 131072
        (batchD (delivO d L (oA20 L t) oh20 fa20 n20) (delivO d L (oA21 L t) oh21 fa21 n21))
        (sm := SemLoc.dma cc0_scratch6.sem) (E := Set.univ)) $$ HB2 with HB2
    sl_exec
    ihave Hd30 := (Entails.of_eq (done_oB30 X d L hO tp _ _ hokp3.1)) $$ HB3_dst0
    ihave Hd31 := (Entails.of_eq (done_oB31 X d L hO tp _ _ hokp3.2)) $$ HB3_dst1
    sl_for (Inner.inv5 d L gx0 g30 g31) $$ [Hxs0 HB3_src0 HB3_src1]
    case region => exact Inner.region5 d L _ _ _ _ gx0 g30 g31
    · unfold Inner.inv5
      isplitl [Hxs0]; · iexact Hxs0
      isplitl [HB3_src0]
      · iexists g30; isplitl [HB3_src0]; · iexact HB3_src0
        ipureintro; exact Inner.goodH_zero _ _ _ _ _
      · iexists g31; isplitl [HB3_src1]; · iexact HB3_src1
        ipureintro; exact Inner.goodH_zero _ _ _ _ _
    iintro %_ HI
    unfold Inner.inv5
    icases HI with ⟨Hxs0, ⟨%n30, HB3_src0, %hn30⟩, ⟨%n31, HB3_src1, %hn31⟩⟩
    have ok030 := hG.good (2 * t.val) (even_group_lt t) 0 3 0 gx0 g30 n30 hgx0 hn30
    have ok031 := hG.good (2 * t.val) (even_group_lt t) 0 3 1 gx0 g31 n31 hgx0 hn31
    ihave HB3 := (show (semVal ((V d (cV L) (jV L)), SemLoc.dma ⟨5, _⟩) 0 : sProp 𝕄) ⊢ semVal ((V d (cV L) (jV L)), SemLoc.dma cc0_scratch7.sem) 0 from Entails.rfl) $$ HB3
    imod (Transfers.batch_alloc' (Lvl := ℕ) (countersEmb (U := UU)) (V d (cV L) (jV L)) (none : HIx 1) 131072
        (batchD (delivO d L (oA30 L t) oh30 fa30 n30) (delivO d L (oA31 L t) oh31 fa31 n31))
        (sm := SemLoc.dma cc0_scratch7.sem) (E := Set.univ)) $$ HB3 with HB3
    sl_exec
    icases Hf1_dst with ⟨%gx1, Hxs1, %hgx1⟩
    ihave He00 := (Entails.of_eq (done_oA00 X d L hO t _ _ ok000)) $$ HB0_dst0
    ihave He01 := (Entails.of_eq (done_oA01 X d L hO t _ _ ok001)) $$ HB0_dst1
    sl_for (Inner.inv6 d L gx1 n00 n01) $$ [Hxs1 HB0_src0 HB0_src1]
    case region => exact Inner.region6 d L _ _ _ _ gx1 n00 n01
    · unfold Inner.inv6
      isplitl [Hxs1]; · iexact Hxs1
      isplitl [HB0_src0]
      · iexists n00; isplitl [HB0_src0]; · iexact HB0_src0
        ipureintro; exact Inner.goodH_zero _ _ _ _ _
      · iexists n01; isplitl [HB0_src1]; · iexact HB0_src1
        ipureintro; exact Inner.goodH_zero _ _ _ _ _
    iintro %_ HI
    unfold Inner.inv6
    icases HI with ⟨Hxs1, ⟨%m00, HB0_src0, %hm00⟩, ⟨%m01, HB0_src1, %hm01⟩⟩
    have ok100 := hG.good (2 * t.val + 1) (odd_group_lt t) 1 0 0 gx1 n00 m00 hgx1 hm00
    have ok101 := hG.good (2 * t.val + 1) (odd_group_lt t) 1 0 1 gx1 n01 m01 hgx1 hm01
    ihave HB0 := (show (semVal ((V d (cV L) (jV L)), SemLoc.dma ⟨2, _⟩) 0 : sProp 𝕄) ⊢ semVal ((V d (cV L) (jV L)), SemLoc.dma cc0_scratch4.sem) 0 from Entails.rfl) $$ HB0
    imod (Transfers.batch_alloc' (Lvl := ℕ) (countersEmb (U := UU)) (V d (cV L) (jV L)) (none : HIx 1) 131072
        (batchD (delivO d L (oB00 L t) oh00 fb00 m00) (delivO d L (oB01 L t) oh01 fb01 m01))
        (sm := SemLoc.dma cc0_scratch4.sem) (E := Set.univ)) $$ HB0 with HB0
    sl_exec
    ihave He10 := (Entails.of_eq (done_oA10 X d L hO t _ _ ok010)) $$ HB1_dst0
    ihave He11 := (Entails.of_eq (done_oA11 X d L hO t _ _ ok011)) $$ HB1_dst1
    sl_for (Inner.inv7 d L gx1 n10 n11) $$ [Hxs1 HB1_src0 HB1_src1]
    case region => exact Inner.region7 d L _ _ _ _ _ gx1 n10 n11
    · unfold Inner.inv7
      isplitl [Hxs1]; · iexact Hxs1
      isplitl [HB1_src0]
      · iexists n10; isplitl [HB1_src0]; · iexact HB1_src0
        ipureintro; exact Inner.goodH_zero _ _ _ _ _
      · iexists n11; isplitl [HB1_src1]; · iexact HB1_src1
        ipureintro; exact Inner.goodH_zero _ _ _ _ _
    iintro %_ HI
    unfold Inner.inv7
    icases HI with ⟨Hxs1, ⟨%m10, HB1_src0, %hm10⟩, ⟨%m11, HB1_src1, %hm11⟩⟩
    have ok110 := hG.good (2 * t.val + 1) (odd_group_lt t) 1 1 0 gx1 n10 m10 hgx1 hm10
    have ok111 := hG.good (2 * t.val + 1) (odd_group_lt t) 1 1 1 gx1 n11 m11 hgx1 hm11
    ihave HB1 := (show (semVal ((V d (cV L) (jV L)), SemLoc.dma ⟨3, _⟩) 0 : sProp 𝕄) ⊢ semVal ((V d (cV L) (jV L)), SemLoc.dma cc0_scratch5.sem) 0 from Entails.rfl) $$ HB1
    imod (Transfers.batch_alloc' (Lvl := ℕ) (countersEmb (U := UU)) (V d (cV L) (jV L)) (none : HIx 1) 131072
        (batchD (delivO d L (oB10 L t) oh10 fb10 m10) (delivO d L (oB11 L t) oh11 fb11 m11))
        (sm := SemLoc.dma cc0_scratch5.sem) (E := Set.univ)) $$ HB1 with HB1
    sl_exec
    ihave He20 := (Entails.of_eq (done_oA20 X d L hO t _ _ ok020)) $$ HB2_dst0
    ihave He21 := (Entails.of_eq (done_oA21 X d L hO t _ _ ok021)) $$ HB2_dst1
    sl_for (Inner.inv8 d L gx1 n20 n21) $$ [Hxs1 HB2_src0 HB2_src1]
    case region => exact Inner.region8 d L _ _ _ gx1 n20 n21
    · unfold Inner.inv8
      isplitl [Hxs1]; · iexact Hxs1
      isplitl [HB2_src0]
      · iexists n20; isplitl [HB2_src0]; · iexact HB2_src0
        ipureintro; exact Inner.goodH_zero _ _ _ _ _
      · iexists n21; isplitl [HB2_src1]; · iexact HB2_src1
        ipureintro; exact Inner.goodH_zero _ _ _ _ _
    iintro %_ HI
    unfold Inner.inv8
    icases HI with ⟨Hxs1, ⟨%m20, HB2_src0, %hm20⟩, ⟨%m21, HB2_src1, %hm21⟩⟩
    have ok120 := hG.good (2 * t.val + 1) (odd_group_lt t) 1 2 0 gx1 n20 m20 hgx1 hm20
    have ok121 := hG.good (2 * t.val + 1) (odd_group_lt t) 1 2 1 gx1 n21 m21 hgx1 hm21
    ihave HB2 := (show (semVal ((V d (cV L) (jV L)), SemLoc.dma ⟨4, _⟩) 0 : sProp 𝕄) ⊢ semVal ((V d (cV L) (jV L)), SemLoc.dma cc0_scratch6.sem) 0 from Entails.rfl) $$ HB2
    imod (Transfers.batch_alloc' (Lvl := ℕ) (countersEmb (U := UU)) (V d (cV L) (jV L)) (none : HIx 1) 131072
        (batchD (delivO d L (oB20 L t) oh20 fb20 m20) (delivO d L (oB21 L t) oh21 fb21 m21))
        (sm := SemLoc.dma cc0_scratch6.sem) (E := Set.univ)) $$ HB2 with HB2
    sl_exec
    ihave He30 := (Entails.of_eq (done_oA30 X d L hO t _ _ ok030)) $$ HB3_dst0
    ihave He31 := (Entails.of_eq (done_oA31 X d L hO t _ _ ok031)) $$ HB3_dst1
    sl_for (Inner.inv9 d L gx1 n30 n31) $$ [Hxs1 HB3_src0 HB3_src1]
    case region => exact Inner.region9 d L _ _ _ _ gx1 n30 n31
    · unfold Inner.inv9
      isplitl [Hxs1]; · iexact Hxs1
      isplitl [HB3_src0]
      · iexists n30; isplitl [HB3_src0]; · iexact HB3_src0
        ipureintro; exact Inner.goodH_zero _ _ _ _ _
      · iexists n31; isplitl [HB3_src1]; · iexact HB3_src1
        ipureintro; exact Inner.goodH_zero _ _ _ _ _
    iintro %_ HI
    unfold Inner.inv9
    icases HI with ⟨Hxs1, ⟨%m30, HB3_src0, %hm30⟩, ⟨%m31, HB3_src1, %hm31⟩⟩
    have ok130 := hG.good (2 * t.val + 1) (odd_group_lt t) 1 3 0 gx1 n30 m30 hgx1 hm30
    have ok131 := hG.good (2 * t.val + 1) (odd_group_lt t) 1 3 1 gx1 n31 m31 hgx1 hm31
    ihave HB3 := (show (semVal ((V d (cV L) (jV L)), SemLoc.dma ⟨5, _⟩) 0 : sProp 𝕄) ⊢ semVal ((V d (cV L) (jV L)), SemLoc.dma cc0_scratch7.sem) 0 from Entails.rfl) $$ HB3
    imod (Transfers.batch_alloc' (Lvl := ℕ) (countersEmb (U := UU)) (V d (cV L) (jV L)) (none : HIx 1) 131072
        (batchD (delivO d L (oB30 L t) oh30 fb30 m30) (delivO d L (oB31 L t) oh31 fb31 m31))
        (sm := SemLoc.dma cc0_scratch7.sem) (E := Set.univ)) $$ HB3 with HB3
    sl_exec
    sl_step
    isplitr; · iexact Hmw
    isplitl [Hx0r Hx1r Hxs0 Hxs1 Hf0 Hf1]
    · iright
      isplitr; · ipureintro; omega
      unfold InIdle
      isplitl [Hx0r]; · iexact Hx0r
      isplitl [Hx1r]; · iexact Hx1r
      isplitl [Hxs0]; · iexists _; iexact Hxs0
      isplitl [Hxs1]; · iexists _; iexact Hxs1
      isplitl [Hf0]; · iexact Hf0
      iexact Hf1
    isplitl [HB0 HB1 HB2 HB3]
    · iright
      iexists t
      isplitr; · ipureintro; rfl
      isplitl [HB0]
      · iexists fb00, fb01, m00, m01
        isplitr; · ipureintro; exact ⟨ok100, ok101⟩
        iexact HB0
      isplitl [HB1]
      · iexists fb10, fb11, m10, m11
        isplitr; · ipureintro; exact ⟨ok110, ok111⟩
        iexact HB1
      isplitl [HB2]
      · iexists fb20, fb21, m20, m21
        isplitr; · ipureintro; exact ⟨ok120, ok121⟩
        iexact HB2
      iexists fb30, fb31, m30, m31
      isplitr; · ipureintro; exact ⟨ok130, ok131⟩
      iexact HB3
    isplitl [Htodo]
    · iapply (Entails.of_eq (congrArg (oTodoG d (widL L)) (show 2 * t.val + 1 + 1 = 2 * (t.val + 1) from by omega)))
      iexact Htodo
    isplitl [Hdone Hd00 Hd01 Hd10 Hd11 Hd20 Hd21 Hd30 Hd31 He00 He01 He10 He11 He20 He21 He30 He31]
    · ihave Hdone := (Entails.of_eq (congrArg (oDoneG X d (widL L)) (show 2 * t.val - 1 = 2 * tp.val + 1 from by omega))) $$ Hdone
      ihave Hdone := (oDoneG_step X d (widL L) (2 * tp.val + 1) (odd_group_lt tp)) $$ [Hdone Hd00 Hd01 Hd10 Hd11 Hd20 Hd21 Hd30 Hd31]
      · isplitl [Hdone]; · iexact Hdone
        isplitl [Hd00]; · iexact Hd00
        isplitl [Hd01]; · iexact Hd01
        isplitl [Hd10]; · iexact Hd10
        isplitl [Hd11]; · iexact Hd11
        isplitl [Hd20]; · iexact Hd20
        isplitl [Hd21]; · iexact Hd21
        isplitl [Hd30]; · iexact Hd30
        iexact Hd31
      ihave Hdone := (Entails.of_eq (congrArg (oDoneG X d (widL L)) (show 2 * tp.val + 1 + 1 = 2 * t.val from by omega))) $$ Hdone
      ihave Hdone := (oDoneG_step X d (widL L) (2 * t.val) (even_group_lt t)) $$ [Hdone He00 He01 He10 He11 He20 He21 He30 He31]
      · isplitl [Hdone]; · iexact Hdone
        isplitl [He00]; · iexact He00
        isplitl [He01]; · iexact He01
        isplitl [He10]; · iexact He10
        isplitl [He11]; · iexact He11
        isplitl [He20]; · iexact He20
        isplitl [He21]; · iexact He21
        isplitl [He30]; · iexact He30
        iexact He31
      iapply (Entails.of_eq (congrArg (oDoneG X d (widL L)) (show 2 * t.val + 1 = 2 * (t.val + 1) - 1 from by omega)))
      iexact Hdone
    iexists _
    isplitr
    swap
    · iexact HO
    · ipureintro; repeat (first | exact hW' | apply wok_insert)

end Cert.Kernel.Hand

end
-- ==== Proof.TileTripK.lean ====
/-
  One trip of the tile kernel's outer loop, from the invariant before the trip to the invariant after it: the first trip,
  the last, and those between.
-/
import proofs.«209186_g8847632630064_cont_9to1c4b_396_28_alg».proof.Proof.CommonK
import proofs.«209186_g8847632630064_cont_9to1c4b_396_28_alg».proof.Proof.TileBufsK
import proofs.«209186_g8847632630064_cont_9to1c4b_396_28_alg».proof.Proof.TileSlicesK
import proofs.«209186_g8847632630064_cont_9to1c4b_396_28_alg».proof.Proof.TileTripAK
import proofs.«209186_g8847632630064_cont_9to1c4b_396_28_alg».proof.Proof.TileTripBK
import proofs.«209186_g8847632630064_cont_9to1c4b_396_28_alg».proof.Proof.TileTripCK

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop shareTokN)
open Idealize.ShloMosaic.Tactic

variable {F : FTy → Type}

local notation "𝕄" => MT nD τ sig (HIx 1) (Elt F) ℕ UU ℕ

variable [FloatOps F]
variable (X : (d : Dev nD) → Buf (Elt F) (x3Loc d))
variable (d : Dev nD) (L : grid0.Coords)

open Idealize.ShloMosaic.ValueIdx

theorem trip (hX : LandX X d L) (hO : LandO X d L) (hG : GoodOk X d L)
    (O : CellTallies nD τ sig (HIx 1)) (W : Waits sig (HIx 1)) (v1 : BitVec 32) (t : Fin k0_t1_loop.trips) (acc : PUnit) :
    Inv X d L O W t.val acc
      ⊢ wp frame (wpE (defs₀ (F := F)) 𝒱₀ (V d (cV L) (jV L)) none) Set.univ
          (k0_t1_body L xV (Memref.isWhole_whole _) oV (Memref.isWhole_whole _) sX (Memref.isWhole_whole _) sO (Memref.isWhole_whole _) cc0_scratch2 cc0_scratch3 cc0_scratch4 cc0_scratch5 cc0_scratch6 cc0_scratch7 cc0_scratch8 cc0_scratch9 cc0_scratch10 cc0_scratch11 v1 t acc) (Inv X d L O W (t.val + 1)) := by
  by_cases h0 : t.val = 0
  · exact trip_t0 X d L hX hO hG O W v1 t acc h0
  by_cases h24 : t.val < 24
  · exact trip_mid X d L hX hO hG O W v1 t acc ⟨by omega, h24⟩
  · exact trip_last X d L hX hO hG O W v1 t acc h24

end Cert.Kernel.Hand

end
-- ==== Proof.TileBodyK.lean ====
/-
  The tile's task, proved: its assembly from one trip of the outer loop, the trip, and the pure facts about what a
  landed fetch, a finished inner loop and a landed copy leave.
-/
import proofs.«209186_g8847632630064_cont_9to1c4b_396_28_alg».proof.Proof.TileAsmK
import proofs.«209186_g8847632630064_cont_9to1c4b_396_28_alg».proof.Proof.TileFactsK
import proofs.«209186_g8847632630064_cont_9to1c4b_396_28_alg».proof.Proof.TileGoodOkK
import proofs.«209186_g8847632630064_cont_9to1c4b_396_28_alg».proof.Proof.TileTripK

noncomputable section

namespace Cert.Kernel.Hand

open Cert.Kernel Cert.Kernel.Gen
open Idealize.ShloMosaic

variable {F : FTy → Type} [FloatOps F]
variable (X : (d : Dev nD) → Buf (Elt F) (x3Loc d))

/-- The task of every tile: from its read share of x3 and its slices of o, to the share and the slices at the kernel's value. -/
theorem tile_body : TileBody X :=
  tile_body_from X (fun d L => landX_ok X d L) (fun d L => landO_ok X d L)
    (fun d L => trip X d L (landX_ok X d L) (landO_ok X d L) (goodOk X d L))

end Cert.Kernel.Hand

end
-- ==== Proof.HostOps.lean ====
/-
  The TensorCore's side of the program: its seven arrays held whole, the five host operations around the
  accelerator call as operations over those arrays, the arrays' contents after each stretch of them as pure
  terms of the launch memory, and how the final memory is read back.
-/
import proofs.«209186_g8847632630064_cont_9to1c4b_396_28_alg».proof.Proof.Common
import Idealize.ShloMosaic.Lib.StableHlo.Run

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop shareTokN)
open Idealize.ShloMosaic.ValueIdx
open Idealize.ShloMosaic.StableHlo (held held_split held_sdiff_result wp_hlo_within)

variable {F : FTy → Type} [FloatOps F]

local notation "𝕄" => MT nD τ sig (HIx 1) (Elt F) ℕ UU ℕ

/-! ## The TensorCore's arrays -/

abbrev a0' : DevRef τ sig := Proc.devRef .tc (main_arg0 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

/-- The TensorCore's arrays, all unscoped: the argument, the five host results and the call's result. -/
abbrev S7 : Finset (DevRef τ sig) := {a0', v0', v1', v2', v3', v4', v5'}

/-! ## The host operations, as the program prints them -/

abbrev op1 : HloOp τ sig (Elt F) := StableHlo.reshape main_arg0 main_v0 rfl Facts₀.shapeCasts_S16384x200x1_S128x128x200
abbrev op2 : HloOp τ sig (Elt F) :=
  StableHlo.unary main_v0 main_v1 ((transpose S200x128x128 [2, 0, 1] · Facts₀.transposes_S128x128x200_S200x128x128_2_0_1) : (⟨S128x128x200, .f32⟩ : BufTy).Contents (Elt F) → (⟨S200x128x128, .f32⟩ : BufTy).Contents (Elt F))
abbrev op3 : HloOp τ sig (Elt F) := StableHlo.reshape main_v2 main_v3 rfl Facts₀.shapeCasts_S409600x128_S200x2x128x8x128
abbrev op4 : HloOp τ sig (Elt F) :=
  StableHlo.unary main_v3 main_v4 ((transpose S128x128x200x2x8 [2, 4, 0, 1, 3] · Facts₀.transposes_S200x2x128x8x128_S128x128x200x2x8_2_4_0_1_3) : (⟨S200x2x128x8x128, .f32⟩ : BufTy).Contents (Elt F) → (⟨S128x128x200x2x8, .f32⟩ : BufTy).Contents (Elt F))
abbrev op5 : HloOp τ sig (Elt F) := StableHlo.reshape main_v4 main_v5 rfl Facts₀.shapeCasts_S128x128x200x2x8_S16384x200x16

theorem hop1 : (op1 (F := F)).bufs ⊆ S7 := show ({a0', v0'} : Finset (DevRef τ sig)) ⊆ S7 by decide
theorem hop2 : (op2 (F := F)).bufs ⊆ S7 := show ({v0', v1'} : Finset (DevRef τ sig)) ⊆ S7 by decide
theorem hop3 : (op3 (F := F)).bufs ⊆ S7 := show ({v2', v3'} : Finset (DevRef τ sig)) ⊆ S7 by decide
theorem hop4 : (op4 (F := F)).bufs ⊆ S7 := show ({v3', v4'} : Finset (DevRef τ sig)) ⊆ S7 by decide
theorem hop5 : (op5 (F := F)).bufs ⊆ S7 := show ({v4', v5'} : Finset (DevRef τ sig)) ⊆ S7 by decide

/-! ## The arrays held whole -/

omit [FloatOps F] in
theorem held_S7 (d : Dev nD) (W : Valuation τ sig (Elt F)) :
    (held (T d) S7 W : sProp 𝕄) = iprop(((SparseCore.T d).loc main_arg0 ↦{fullShare} W a0') ∗ ((SparseCore.T d).loc main_v0 ↦{fullShare} W v0')
      ∗ (x3Loc d ↦{fullShare} W v1') ∗ (oLoc d ↦{fullShare} W v2') ∗ ((SparseCore.T d).loc main_v3 ↦{fullShare} W v3')
      ∗ ((SparseCore.T d).loc main_v4 ↦{fullShare} W v4') ∗ (SparseCore.T d).loc main_v5 ↦{fullShare} W v5') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide),
    bigSep_singleton]

omit [FloatOps F] in
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_v0 ↦{fullShare} W main_v0)
      ∗ (x3Loc d ↦{fullShare} W main_v1) ∗ (oLoc d ↦{fullShare} W main_v2) ∗ ((SparseCore.T d).loc main_v3 ↦{fullShare} W main_v3)
      ∗ ((SparseCore.T d).loc main_v4 ↦{fullShare} W main_v4) ∗ (SparseCore.T d).loc main_v5 ↦{fullShare} W main_v5) := by
  unfold unscopedBufs
  rw [show (Finset.univ.filter fun b : Ref sig .tc => ¬ b.isScoped) = {main_arg0, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    bigSep_singleton]

variable (m : (ℓ : Loc nD τ sig) → Buf (Elt F) ℓ)

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = held (T d) S7 (V0 m d) := by
  rw [unscopedBufs_eq, held_S7]; rfl

/-! ## Before the call: the operand -/

/-- The call's operand as a pure term of the launch memory: the argument regrouped and transposed. -/
def Xof (d : Dev nD) : Buf (Elt F) (x3Loc d) :=
  transpose S200x128x128 [2, 0, 1]
    (shapeCast S128x128x200 (m ((SparseCore.T d).loc main_arg0)) Facts₀.shapeCasts_S16384x200x1_S128x128x200)
    Facts₀.transposes_S128x128x200_S200x128x128_2_0_1

/-- The arrays after the two leading operations. -/
def V2 (d : Dev nD) : Valuation τ sig (Elt F) := (op2 (F := F)).result ((op1 (F := F)).result (V0 m d))

theorem V2_v1 (d : Dev nD) : V2 m d v1' = Xof m d := by
  show StableHlo.after [op1 (F := F), op2 (F := F)] (V0 m d) (Proc.devRef .tc main_v1) = _
  after_results
  rfl

/-! ## The call: its result at the kernel's value -/

/-- The arrays after the call: the call's result at the kernel's value of the operand. -/
def V3 (d : Dev nD) : Valuation τ sig (Elt F) := Function.update (V2 m d) v2' (outLinF (Xof m d))

theorem V3_v2 (d : Dev nD) : V3 m d v2' = outLinF (Xof m d) := Function.update_self _ _ _
theorem V3_a0 (d : Dev nD) : V3 m d a0' = V2 m d a0' := Function.update_of_ne (show a0' ≠ v2' by decide) _ _
theorem V3_v0 (d : Dev nD) : V3 m d v0' = V2 m d v0' := Function.update_of_ne (show v0' ≠ v2' by decide) _ _
theorem V3_v1 (d : Dev nD) : V3 m d v1' = V2 m d v1' := Function.update_of_ne (show v1' ≠ v2' by decide) _ _
theorem V3_v3 (d : Dev nD) : V3 m d v3' = V2 m d v3' := Function.update_of_ne (show v3' ≠ v2' by decide) _ _
theorem V3_v4 (d : Dev nD) : V3 m d v4' = V2 m d v4' := Function.update_of_ne (show v4' ≠ v2' by decide) _ _
theorem V3_v5 (d : Dev nD) : V3 m d v5' = V2 m d v5' := Function.update_of_ne (show v5' ≠ v2' by decide) _ _

/-! ## After the call: the result -/

/-- The arrays after the three trailing operations. -/
def V6 (d : Dev nD) : Valuation τ sig (Elt F) :=
  (op5 (F := F)).result ((op4 (F := F)).result ((op3 (F := F)).result (V3 m d)))

/-- The program's result as a pure term of the launch memory. -/
def outFin (d : Dev nD) : Buf (Elt F) ((SparseCore.T d : Thread nD τ).loc main_v5) :=
  shapeCast S16384x200x16
    (transpose S128x128x200x2x8 [2, 4, 0, 1, 3]
      (shapeCast S200x2x128x8x128 (outLinF (Xof m d)) Facts₀.shapeCasts_S409600x128_S200x2x128x8x128)
      Facts₀.transposes_S200x2x128x8x128_S128x128x200x2x8_2_4_0_1_3)
    Facts₀.shapeCasts_S128x128x200x2x8_S16384x200x16

theorem V6_v5 (d : Dev nD) : V6 m d v5' = outFin m d := by
  show StableHlo.after [op3 (F := F), op4 (F := F), op5 (F := F)] (V3 m d) (Proc.devRef .tc main_v5) = _
  after_results
  rw [show V3 m d (Proc.devRef .tc main_v2) = outLinF (Xof m d) from V3_v2 m d]
  rfl

theorem V6_a0 (d : Dev nD) : V6 m d a0' = m ((SparseCore.T d).loc main_arg0) := by
  show StableHlo.after [op3 (F := F), op4 (F := F), op5 (F := F)] (V3 m d) (Proc.devRef .tc main_arg0) = _
  after_results
  rw [show V3 m d (Proc.devRef .tc main_arg0) = V2 m d a0' from V3_a0 m d]
  show StableHlo.after [op1 (F := F), op2 (F := F)] (V0 m d) (Proc.devRef .tc main_arg0) = _
  after_results
  rfl

/-! ## What @main leaves the claim, and how the final memory reads it -/

/-- What @main leaves: the argument at its launch contents and the result at its pure term. -/
abbrev FIN (d : Dev nD) : sProp 𝕄 :=
  iprop(((SparseCore.T d).loc main_arg0 ↦{fullShare} m ((SparseCore.T d).loc main_arg0)) ∗ (SparseCore.T d).loc main_v5 ↦{fullShare} outFin m d)

def fq (d : Dev nD) (s' : Phys nD τ sig (Elt F)) : Prop :=
  s'.mem.mem ((SparseCore.T d).loc main_v5) = outFin m d ∧ s'.mem.mem ((SparseCore.T d).loc main_arg0) = m ((SparseCore.T d).loc main_arg0)

theorem hfin (d : Dev nD) (s' : Phys nD τ sig (Elt F)) : iprop(FIN m d ∗ SI s') ⊢ (⌜fq m d s'⌝ : sProp 𝕄) := by
  iintro ⟨⟨Ha, Ho⟩, HSI⟩
  ihave H := (persistent_entails_right (SI_pointsTo_agree (st := s') (ℓ := (SparseCore.T d).loc main_arg0) (I := Finset.univ) (q := fullShare)
    (f := m ((SparseCore.T d).loc main_arg0)))) $$ [HSI Ha]
  · isplitl [HSI] <;> iassumption
  icases H with ⟨%h1, HSI, -⟩
  ihave H := (SI_pointsTo_agree (st := s') (ℓ := (SparseCore.T d).loc main_v5) (I := Finset.univ) (q := fullShare) (f := outFin m d)) $$ [HSI Ho]
  · isplitl [HSI] <;> iassumption
  icases H with %h2
  ipureintro; exact ⟨funext fun i => h2 i (Finset.mem_univ i), funext fun i => h1 i (Finset.mem_univ i)⟩

end Cert.KernelIdeal.Hand

end
-- ==== Proof.Launch.lean ====
/-
  The launch: from the tile's task (a hypothesis here, proved in its own module) to the run of the whole program.
  @main reshapes and transposes its argument into x3, calls the kernel, and reshapes, transposes and reshapes the
  kernel's result o into its own result. Before the call the TensorCore cuts x3's full share into 32 read shares, one
  per tile, and o into the 12,800 slices of 32 rows, 400 per tile; after it, it puts them back together, o at the
  kernel's value.
-/
import proofs.«209186_g8847632630064_cont_9to1c4b_396_28_alg».proof.Proof.Common
import proofs.«209186_g8847632630064_cont_9to1c4b_396_28_alg».proof.Proof.HostOps

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop shareTokN pointsTo_toks)
open Idealize.ShloMosaic.ValueIdx

variable {F : FTy → Type}

local notation "𝕄" => MT nD τ sig (HIx 1) (Elt F) ℕ UU ℕ

/-! ## Tiles and slices, counted -/

/-- The 32 tiles are the 2 × 16 pairs (SparseCore, vector subcore). -/
def tileEquiv : Fin 2 × Fin 16 ≃ Fin 32 where
  toFun p := widN p.1.val p.2.val
  invFun w := (⟨w.val % 2, Nat.mod_lt _ (by decide)⟩, ⟨w.val / 2, by have := w.isLt; omega⟩)
  left_inv p := by
    obtain ⟨c, s⟩ := p
    have hc := c.isLt; have hs := s.isLt
    apply Prod.ext <;> apply Fin.ext <;> simp only [widN] <;> omega
  right_inv w := by
    have hw := w.isLt
    apply Fin.ext; simp only [widN]; omega

/-- The 12,800 parts of o are the 32 × 200 × 2 triples (tile, plane, half). -/
def oEquiv : Fin 32 × (Fin 200 × Fin 2) ≃ Fin 12800 where
  toFun a := oIdx a.1 a.2.1 a.2.2
  invFun j := (⟨j.val % 32, Nat.mod_lt _ (by decide)⟩, ⟨j.val / 64, by have := j.isLt; omega⟩, ⟨j.val % 64 / 32, by omega⟩)
  left_inv a := by
    obtain ⟨w, d1, h⟩ := a
    have hw := w.isLt; have hd := d1.isLt; have hh := h.isLt
    refine Prod.ext (Fin.ext ?_) (Prod.ext (Fin.ext ?_) (Fin.ext ?_)) <;> simp only [oIdx] <;> omega
  right_inv j := by
    have hj := j.isLt
    apply Fin.ext; simp only [oIdx]; omega

abbrev partSet (j : Fin 12800) : Finset S409600x128.Idx :=
  ((oV : Memref sig .scVector .hbm S409600x128 .f32).view.slice (Rect.part (s := S409600x128) (a₀ := 0) hdivO j)).set

theorem partSet_eq (j : Fin 12800) : partSet j = (Rect.part (s := S409600x128) (a₀ := 0) hdivO j).set := by
  show ((View.whole (main_v2_scv : Ref sig .scVector)).slice (Rect.part (s := S409600x128) (a₀ := 0) hdivO j)).set = _
  rw [View.set_slice]; exact Finset.map_refl
theorem parts_disjoint : ∀ i ∈ (Finset.univ : Finset (Fin 12800)), ∀ j ∈ (Finset.univ : Finset (Fin 12800)), i ≠ j → Disjoint (partSet i) (partSet j) :=
  fun i _ j _ h => by rw [partSet_eq, partSet_eq]; exact Rect.part_disjoint hdivO h
theorem parts_cover : (Finset.univ : Finset (Fin 12800)).biUnion partSet = Finset.univ :=
  (Finset.biUnion_congr rfl fun i _ => partSet_eq i).trans (Rect.biUnion_part hdivO)

theorem oPts_parts (d : Dev nD) (f : Buf (Elt F) (oLoc d)) :
    (oLoc d ↦{fullShare} f : sProp 𝕄) = bigSep Finset.univ fun j : Fin 12800 => oLoc d ↦[partSet j]{fullShare} f := by
  rw [← pointsTo_biUnion Finset.univ (ℓ := oLoc d) partSet parts_disjoint, parts_cover]; try rfl

/-- o whole is the tiles' slices: per SparseCore, per vector subcore, per plane and half. -/
theorem oPts_tiles (d : Dev nD) (f : Buf (Elt F) (oLoc d)) :
    (oLoc d ↦{fullShare} f : sProp 𝕄)
      = bigSep Finset.univ fun c : Fin 2 => bigSep Finset.univ fun s : Fin 16 => bigSep Finset.univ fun p : Fin 200 × Fin 2 =>
          oLoc d ↦[oSet (widN c.val s.val) p.1 p.2]{fullShare} f :=
  calc (oLoc d ↦{fullShare} f : sProp 𝕄)
      = bigSep Finset.univ fun j : Fin 12800 => oLoc d ↦[partSet j]{fullShare} f := oPts_parts d f
    _ = bigSep Finset.univ fun a : Fin 32 × (Fin 200 × Fin 2) => oLoc d ↦[partSet (oEquiv a)]{fullShare} f :=
        bigSep_univ_equiv oEquiv (fun j : Fin 12800 => (oLoc d ↦[partSet j]{fullShare} f : sProp 𝕄))
    _ = bigSep Finset.univ fun w : Fin 32 => bigSep Finset.univ fun p : Fin 200 × Fin 2 => oLoc d ↦[partSet (oEquiv (w, p))]{fullShare} f :=
        bigSep_univ_prod (fun a : Fin 32 × (Fin 200 × Fin 2) => (oLoc d ↦[partSet (oEquiv a)]{fullShare} f : sProp 𝕄))
    _ = bigSep Finset.univ fun a : Fin 2 × Fin 16 => bigSep Finset.univ fun p : Fin 200 × Fin 2 => oLoc d ↦[partSet (oEquiv (tileEquiv a, p))]{fullShare} f :=
        bigSep_univ_equiv tileEquiv (fun w : Fin 32 => bigSep Finset.univ fun p : Fin 200 × Fin 2 => (oLoc d ↦[partSet (oEquiv (w, p))]{fullShare} f : sProp 𝕄))
    _ = bigSep Finset.univ fun c : Fin 2 => bigSep Finset.univ fun s : Fin 16 => bigSep Finset.univ fun p : Fin 200 × Fin 2 =>
          oLoc d ↦[oSet (widN c.val s.val) p.1 p.2]{fullShare} f :=
        bigSep_univ_prod (fun a : Fin 2 × Fin 16 => bigSep Finset.univ fun p : Fin 200 × Fin 2 => (oLoc d ↦[partSet (oEquiv (tileEquiv a, p))]{fullShare} f : sProp 𝕄))

/-- The 32 read shares of x3, per SparseCore and vector subcore. -/
theorem x3_toks_tiles (d : Dev nD) (f : Buf (Elt F) (x3Loc d)) :
    (bigSep Finset.univ fun w : Fin 32 => (x3Loc d ↦{shareTok fullShare 32 w} f : sProp 𝕄))
      = bigSep Finset.univ fun c : Fin 2 => bigSep Finset.univ fun s : Fin 16 => x3Loc d ↦{shareTok fullShare 32 (widN c.val s.val)} f :=
  (bigSep_univ_equiv tileEquiv (fun w : Fin 32 => (x3Loc d ↦{shareTok fullShare 32 w} f : sProp 𝕄))).trans
    (bigSep_univ_prod (fun a : Fin 2 × Fin 16 => (x3Loc d ↦{shareTok fullShare 32 (tileEquiv a)} f : sProp 𝕄)))

theorem bigSep2_sep (A B : Fin 2 → Fin 16 → sProp 𝕄) :
    (bigSep Finset.univ fun c : Fin 2 => bigSep Finset.univ fun s : Fin 16 => iprop(A c s ∗ B c s))
      = iprop((bigSep Finset.univ fun c : Fin 2 => bigSep Finset.univ fun s : Fin 16 => A c s)
          ∗ (bigSep Finset.univ fun c : Fin 2 => bigSep Finset.univ fun s : Fin 16 => B c s)) := by
  rw [← bigSep_sep']; exact bigSep_congr fun c _ => bigSep_sep' _ _ _

variable [FloatOps F]
variable (X : (d : Dev nD) → Buf (Elt F) (x3Loc d))

omit [FloatOps F] in
/-- The call's SparseCores are the device's two. -/
theorem bigSep_cores (Φ : Fin 2 → sProp 𝕄) : (bigSep Finset.univ fun c : Fin ((K (F := F)).nCore 0) => Φ c) = bigSep Finset.univ Φ := rfl

theorem st_all (d : Dev nD) :
    (bigSep Finset.univ fun c : Fin ((K (F := F)).nCore 0) => (P X).st 0 d c)
      = iprop((bigSep Finset.univ fun c : Fin 2 => bigSep Finset.univ fun s : Fin 16 => x3Loc d ↦{shareTok fullShare 32 (widN c.val s.val)} X d)
          ∗ (bigSep Finset.univ fun c : Fin 2 => bigSep Finset.univ fun s : Fin 16 => bigSep (Finset.univ : Finset (Fin 200 × Fin 2)) fun p =>
              iprop(∃ f, oLoc d ↦[oSet (widN c.val s.val) p.1 p.2]{fullShare} f))) :=
  ((bigSep_congr fun c _ => P_st X 0 d c).trans (bigSep_cores (fun c : Fin 2 => bigSep Finset.univ fun i : Fin 16 => tileGo X d (widN c.val i.val)))).trans
    (by unfold tileGo; exact bigSep2_sep _ _)
theorem dn_all (d : Dev nD) :
    (bigSep Finset.univ fun c : Fin ((K (F := F)).nCore 0) => (P X).dn 0 d c)
      = iprop((bigSep Finset.univ fun c : Fin 2 => bigSep Finset.univ fun s : Fin 16 => x3Loc d ↦{shareTok fullShare 32 (widN c.val s.val)} X d)
          ∗ (bigSep Finset.univ fun c : Fin 2 => bigSep Finset.univ fun s : Fin 16 => bigSep (Finset.univ : Finset (Fin 200 × Fin 2)) fun p =>
              oLoc d ↦[oSet (widN c.val s.val) p.1 p.2]{fullShare} (outLinF (X d)))) :=
  ((bigSep_congr fun c _ => P_dn X 0 d c).trans (bigSep_cores (fun c : Fin 2 => bigSep Finset.univ fun i : Fin 16 => tileTd X d (widN c.val i.val)))).trans
    (by unfold tileTd; exact bigSep2_sep _ _)

omit [FloatOps F] in
/-- Slices held at some contents are slices held. -/
theorem o_any (d : Dev nD) (f : Buf (Elt F) (oLoc d)) :
    (bigSep Finset.univ fun c : Fin 2 => bigSep Finset.univ fun s : Fin 16 => bigSep (Finset.univ : Finset (Fin 200 × Fin 2)) fun p =>
        (oLoc d ↦[oSet (widN c.val s.val) p.1 p.2]{fullShare} f : sProp 𝕄))
      ⊢ bigSep Finset.univ fun c : Fin 2 => bigSep Finset.univ fun s : Fin 16 => bigSep (Finset.univ : Finset (Fin 200 × Fin 2)) fun p =>
        iprop(∃ f, oLoc d ↦[oSet (widN c.val s.val) p.1 p.2]{fullShare} f) :=
  bigSep_mono fun c _ => bigSep_mono fun s _ => bigSep_mono fun p _ => exists_intro (Φ := fun f => (oLoc d ↦[oSet (widN c.val s.val) p.1 p.2]{fullShare} f : sProp 𝕄)) f

/-- Before the call: x3 whole and o whole are the remainder of x3's share and what the call hands the two SparseCores. -/
theorem st_intro (d : Dev nD) (f : Buf (Elt F) (oLoc d)) :
    iprop((x3Loc d ↦{fullShare} X d) ∗ (oLoc d ↦{fullShare} f))
      ⊢ iprop((x3Loc d ↦{shareDrop fullShare 32} X d) ∗ bigSep Finset.univ fun c : Fin ((K (F := F)).nCore 0) => (P X).st 0 d c) := by
  rw [st_all, ← x3_toks_tiles, oPts_tiles]
  iintro ⟨Hx, Ho⟩
  ihave Hx' := (pointsTo_toks fullShare 32).1 $$ Hx
  icases Hx' with ⟨Hd, Ht⟩
  isplitl [Hd]; · iexact Hd
  isplitl [Ht]; · iexact Ht
  iapply (o_any d f); iexact Ho

/-- After it: the remainder and what the SparseCores hand back are x3 whole and o whole at the kernel's value. -/
theorem dn_elim (d : Dev nD) :
    iprop((x3Loc d ↦{shareDrop fullShare 32} X d) ∗ bigSep Finset.univ fun c : Fin ((K (F := F)).nCore 0) => (P X).dn 0 d c)
      ⊢ iprop((x3Loc d ↦{fullShare} X d) ∗ (oLoc d ↦{fullShare} outLinF (X d))) := by
  rw [dn_all, ← x3_toks_tiles, ← oPts_tiles]
  iintro ⟨Hd, Ht, Ho⟩
  isplitl [Hd Ht]
  · iapply (pointsTo_toks fullShare 32).2
    isplitl [Hd] <;> iassumption
  · iexact Ho

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gc_kernel (coordsV c s)
          xV (Memref.isWhole_whole _) oV (Memref.isWhole_whole _) sX (Memref.isWhole_whole _) sO (Memref.isWhole_whole _)
          cc0_scratch2 cc0_scratch3 cc0_scratch4 cc0_scratch5 cc0_scratch6 cc0_scratch7 cc0_scratch8 cc0_scratch9 cc0_scratch10 cc0_scratch11) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hbody : TileBody X) : (K (F := F)).TileObl (D (F := F)) 𝒱 (P X) v₀ 0 := by
  intro d c i O W hO _ _
  -- this kernel owes nothing for a protocol of its own
  simp only [show (P X).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

theorem vecSplit : (K (F := F)).VecSplit' (P X) 0 := by
  intro d c
  show (bigSep Finset.univ fun i : Fin 16 => tileGo X d (widN c.val i.val)) ⊢ |={Set.univ}=> iprop(
      (bigSep Finset.univ fun i : Fin 16 => tileGo X d (widN c.val i.val))
      ∗ ((bigSep Finset.univ fun i : Fin 16 => tileTd X d (widN c.val i.val)) -∗ bigSep Finset.univ fun i : Fin 16 => tileTd X d (widN c.val i.val)))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

variable (m : (ℓ : Loc nD τ sig) → Buf (Elt F) ℓ) (ρ : Dev nD → PrngReg)

omit [FloatOps F] in
theorem pts_congr {ℓ : Loc nD τ sig} {f g : Buf (Elt F) ℓ} (h : f = g) : (ℓ ↦{fullShare} f : sProp 𝕄) ⊢ ℓ ↦{fullShare} g := by rw [h]

/-- @main on device `d`'s TensorCore: the reshape and the transpose into x3, the call (x3 cut into the tiles' read shares,
    o into their slices, and both put back), the reshape, transpose and reshape of o; the argument kept, the result at
    its value. -/
theorem hmain (κ : GSem nD τ sig → ℕ) (d : Dev nD) :
    iprop((K (F := F)).ctx EH (P (Xof m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the reshape and the transpose before the call
  iapply (wp_hlo_within 𝒱 (SparseCore.T d) none Set.univ (op := op1) (S := S7) hop1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S7) hop2 (V := (op1 (F := F)).result (V0 m d))) $$ [Hb Hheld]
  · isplitl [Hb]; · iexact Hb
    iexact Hheld
  iintro ⟨Hb, Hheld⟩
  rw [wp_ret]; imodintro
  ihave Hh := (Entails.of_eq (held_S7 (F := F) d ((op2 (F := F)).result ((op1 (F := F)).result (V0 m d))))) $$ Hheld
  icases Hh with ⟨Ha0, Hv0, Hx, Ho, Hv3, Hv4, Hv5⟩
  ihave Hx := (pts_congr (show (op2 (F := F)).result ((op1 (F := F)).result (V0 m d)) v1' = Xof m d from V2_v1 m d)) $$ Hx
  -- the call: x3's read shares and o's slices to the tiles and back
  ihave Hsplit := (st_intro (Xof m) d _) $$ [Hx Ho]
  · isplitl [Hx] <;> iassumption
  icases Hsplit with ⟨Hdrop, Hsts⟩
  iapply ((K (F := F)).wp_run (D (F := F)) 𝒱 (EH := EH) (P := P (Xof m)) κ d 0) $$ [Hst Hsts Hb Ha0 Hv0 Hv3 Hv4 Hv5 Hdrop]
  isplitr; · iexact Hctx
  isplitl [Hst]; · iexact Hst
  isplitl [Hsts]; · iexact Hsts
  iintro ⟨Hst, Hdn⟩
  ihave Hxo := (dn_elim (Xof m) d) $$ [Hdrop Hdn]
  · isplitl [Hdrop] <;> iassumption
  icases Hxo with ⟨Hx, Ho⟩
  -- the reshape, the transpose and the reshape after it
  iapply (wp_hlo_within 𝒱 (SparseCore.T d) none Set.univ (op := op3) (S := S7) hop3 (V := V3 m d)) $$ [Hb Ha0 Hv0 Hx Ho Hv3 Hv4 Hv5]
  · isplitl [Hb]; · iexact Hb
    rw [held_S7, V3_a0, V3_v0, V3_v1, V3_v2, V3_v3, V3_v4, V3_v5, V2_v1]
    unfold V2
    isplitl [Ha0]; · iexact Ha0
    isplitl [Hv0]; · iexact Hv0
    isplitl [Hx]; · iexact Hx
    isplitl [Ho]; · iexact Ho
    isplitl [Hv3]; · iexact Hv3
    isplitl [Hv4]; · iexact Hv4
    iexact Hv5
  iintro ⟨Hb, Hheld⟩
  rw [wp_ret]; imodintro
  iapply (wp_hlo_within 𝒱 (SparseCore.T d) none Set.univ (op := op4) (S := S7) hop4 (V := (op3 (F := F)).result (V3 m d))) $$ [Hb Hheld]
  · isplitl [Hb]; · iexact Hb
    iexact Hheld
  iintro ⟨Hb, Hheld⟩
  rw [wp_ret]; imodintro
  iapply (wp_hlo_within 𝒱 (SparseCore.T d) none Set.univ (op := op5) (S := S7) hop5 (V := (op4 (F := F)).result ((op3 (F := F)).result (V3 m d)))) $$ [Hb Hheld]
  · isplitl [Hb]; · iexact Hb
    iexact Hheld
  iintro ⟨Hb, Hheld⟩
  rw [wp_ret]; imodintro; imodintro
  ihave Hh := (Entails.of_eq (held_S7 (F := F) d ((op5 (F := F)).result ((op4 (F := F)).result ((op3 (F := F)).result (V3 m d)))))) $$ Hheld
  icases Hh with ⟨Ha0, -, -, -, -, -, Hv5⟩
  isplitl [Hst]; · iexact Hst
  isplitl [Ha0]
  · iapply (pts_congr (show (op5 (F := F)).result ((op4 (F := F)).result ((op3 (F := F)).result (V3 m d))) a0' = m ((SparseCore.T d).loc main_arg0) from V6_a0 m d)); iexact Ha0
  · iapply (pts_congr (show (op5 (F := F)).result ((op4 (F := F)).result ((op3 (F := F)).result (V3 m d))) v5' = outFin m d from V6_v5 m d)); iexact Hv5

/-! ## The program's run -/

/-- The result at its value — the three trailing host operations of the kernel's value of x3, x3 the two leading ones of
    the argument — and the argument unchanged. -/
def QC : PUnit × MemSt nD τ sig (Elt F) → Prop := fun r => ∀ c : Dev nD,
  r.2.mem ((SparseCore.T c).loc main_v5) = outFin m c ∧ r.2.mem ((SparseCore.T c).loc main_arg0) = m ((SparseCore.T c).loc main_arg0)

theorem run_main [∀ e, Nonempty (Elt F e)] (hbody : TileBody (Xof m)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (Xof m)) facts v₀
    (fun q hq => match q with | 0 => nomatch hq)
    (fun q _ => match q with | 0 => tileObl (Xof m) hbody)
    (fun q _ => match q with | 0 => SparseCore.Cfg.VecSplit.of_plain (vecSplit (Xof m)))
    m ρ main (fun _ => iprop(emp)) (FIN m) (u₀ (F := F)) (sep_elim_left.trans (hu₀ (Xof m))) (hmain m ρ) (fq m) (hfin m) (QC m) (fun _ h => h)

end Cert.KernelIdeal.Hand

end
-- ==== Proof.Spec.lean ====
/-
  The specification of the Gray-code kernel, as pure functions on extended reals: the value one
  output element takes (`gcVal`), the array the accelerator call writes as a function of its operand
  (`outLinSpec`), the operand as a function of the program's argument (`x3Of`), and the program's
  result as a function of its argument (`outSpec`). No program is imported here.
-/
import Idealize.ShloMosaic.PureOps.Ideal
import Idealize.ShloMosaic.Lib.ValueIdx

noncomputable section

namespace Cert.Gray

open Idealize.ShloMosaic Idealize.ShloMosaic.ValueIdx

/-! ## One element -/

/-- The quantised level of `x`: `x · 65535` rounded toward zero to a 32-bit integer. -/
def level (x : EReal) : BitVec 32 := Ideal.fptosi 32 (x * Ideal.ofBits .f32 0x477FFF00#32)

/-- The reflected binary (Gray) code of the level: `q xor (q >> 1)`. -/
def gray (x : EReal) : BitVec 32 := IntOp.xori (level x) (IntOp.shrsi .vector (level x) 1#32)

/-- The amplitude `x · 0.1f + 1`. -/
def scale (x : EReal) : EReal := x * Ideal.ofBits .f32 0x3DCCCCCD#32 + Ideal.ofBits .f32 0x3F800000#32

/-- Output bit lane `i` of input `x`: the amplitude where bit `i` of the Gray code is set, zero elsewhere. -/
def gcVal (i : Fin 16) (x : EReal) : EReal :=
  Scalar.select (IntOp.cmpi .ne (IntOp.andi (gray x) (BitVec.twoPow 32 i.val)) 0#32) (scale x)
    (Ideal.ofBits .f32 0x00000000#32)

/-! ## The arrays -/

/-- The program's argument, `[16384, 200, 1]`. -/
abbrev SX : Shape := ⟨3, ![16384, 200, 1]⟩
/-- The accelerator call's operand, `[200, 128, 128]`. -/
abbrev SX3 : Shape := ⟨3, ![200, 128, 128]⟩
/-- The accelerator call's result, `[409600, 128]`. -/
abbrev SLin : Shape := ⟨2, ![409600, 128]⟩
/-- The program's result, `[16384, 200, 16]`. -/
abbrev SOut : Shape := ⟨3, ![16384, 200, 16]⟩

/-- The call's operand from the argument: `x3[d, a, b] = x[a · 128 + b, d, 0]`. -/
def x3Of (x : SX.Idx → EReal) : SX3.Idx → EReal := fun k =>
  x (ix3 (n0 := 16384) (n1 := 200) (n2 := 1)
    ⟨(k 1).val * 128 + (k 2).val, by have h1 := (k 1).isLt; have h2 := (k 2).isLt; simp only [Shape.size] at h1 h2; simp at h1 h2; omega⟩
    ⟨(k 0).val, by have h0 := (k 0).isLt; simp only [Shape.size] at h0; simp at h0; omega⟩ ⟨0, Nat.one_pos⟩)

/-- The call's result from its operand: row `d · 2048 + h · 1024 + A · 8 + r`, column `c` holds bit lane
    `h · 8 + r` of `x3[d, A, c]`. -/
def outLinSpec (x3 : SX3.Idx → EReal) : SLin.Idx → EReal := fun j =>
  gcVal ⟨(j 0).val % 2048 / 1024 * 8 + (j 0).val % 8, by omega⟩
    (x3 (ix3 (n0 := 200) (n1 := 128) (n2 := 128)
      ⟨(j 0).val / 2048, by have := idx2_lt0 j; omega⟩ ⟨(j 0).val % 1024 / 8, by omega⟩
      ⟨(j 1).val, idx2_lt1 j⟩))

/-- The program's result from its argument: `out[n, d, i]` is bit lane `i` of `x[n, d, 0]`. -/
def outSpec (x : SX.Idx → EReal) : SOut.Idx → EReal := fun j =>
  gcVal (j 2) (x (ix3 (n0 := 16384) (n1 := 200) (n2 := 1) (j 0) (j 1) ⟨0, Nat.one_pos⟩))

end Cert.Gray

end
-- ==== Proof.HostGlue.lean ====
/-
  The host operations around the accelerator call, as index equations: the reshape and transpose
  before it make the operand `x3Of` of the argument, and the reshape, transpose and reshape after
  it turn `outLinSpec` of that operand into `outSpec` of the argument. No program is imported:
  the statements are over the operations and the literal shapes, for any evidence of the shape
  relations.
-/
import proofs.«209186_g8847632630064_cont_9to1c4b_396_28_alg».proof.Proof.Spec
import Idealize.ShloMosaic.Lib.Pipeline.Value

noncomputable section

namespace Cert.Gray

open Idealize.ShloMosaic Idealize.ShloMosaic.ValueIdx

/-- The argument regrouped, `[128, 128, 200]`. -/
abbrev SXg : Shape := ⟨3, ![128, 128, 200]⟩
/-- The call's result regrouped, `[200, 2, 128, 8, 128]`. -/
abbrev SLin5 : Shape := ⟨5, ![200, 2, 128, 8, 128]⟩
/-- … and transposed, `[128, 128, 200, 2, 8]`. -/
abbrev SOut5 : Shape := ⟨5, ![128, 128, 200, 2, 8]⟩

/-- BEFORE THE CALL: the argument reshaped to `[128, 128, 200]` and transposed by `[2, 0, 1]` is `x3Of`:
    `x3[d, a, b] = x[a · 128 + b, d, 0]`. -/
theorem operand_eq (x : SX.Idx → EReal) (h1 : SX.ShapeCasts SXg) (h2 : SXg.Transposes [2, 0, 1] SX3) :
    transpose SX3 [2, 0, 1] (shapeCast SXg x h1) h2 = x3Of x := by
  funext k
  obtain ⟨d, a, b, rfl⟩ : ∃ (d : Fin 200) (a : Fin 128) (b : Fin 128), k = ix3 d a b := ⟨k 0, k 1, k 2, eq_ix3 k⟩
  have ha := a.isLt; have hb := b.isLt; have hd := d.isLt
  refine (transpose_apply [2, 0, 1] _ h2 (ix3 d a b) (ix3 a b d) (fun c => ?_)).trans ?_
  · match c with
    | ⟨0, _⟩ => rfl
    | ⟨1, _⟩ => rfl
    | ⟨2, _⟩ => rfl
  · refine (shapeCast_apply x h1 (ix3 a b d)
      (ix3 (n0 := 16384) (n1 := 200) (n2 := 1) ⟨a.val * 128 + b.val, by omega⟩ d ⟨0, Nat.one_pos⟩) ?_).trans ?_
    · rewrite [Shape.rowMajor_val_three, Shape.rowMajor_val_three]
      show ((a.val * 128 + b.val) * 200 + d.val) * 1 + 0 = (a.val * 128 + b.val) * 200 + d.val
      omega
    · rfl

/-- The call's result at row `((d · 2 + h) · 128 + A) · 8 + r`, column `c`: bit lane `h · 8 + r` of
    `x3[d, A, c]`. -/
theorem outLinSpec_at (x3 : SX3.Idx → EReal) (d : Fin 200) (h : Fin 2) (A : Fin 128) (r : Fin 8) (c : Fin 128)
    (row : Fin 409600) (hrow : row.val = ((d.val * 2 + h.val) * 128 + A.val) * 8 + r.val) :
    outLinSpec x3 (ix2 row c) = gcVal ⟨h.val * 8 + r.val, by omega⟩ (x3 (ix3 d A c)) := by
  have hd := d.isLt; have hh := h.isLt; have hA := A.isLt; have hr := r.isLt
  have e1 : (⟨row.val % 2048 / 1024 * 8 + row.val % 8, by omega⟩ : Fin 16) = ⟨h.val * 8 + r.val, by omega⟩ :=
    Fin.ext (by show row.val % 2048 / 1024 * 8 + row.val % 8 = h.val * 8 + r.val; omega)
  have e2 : (⟨row.val / 2048, by omega⟩ : Fin 200) = d := Fin.ext (by show row.val / 2048 = d.val; omega)
  have e3 : (⟨row.val % 1024 / 8, by omega⟩ : Fin 128) = A := Fin.ext (by show row.val % 1024 / 8 = A.val; omega)
  show gcVal ⟨row.val % 2048 / 1024 * 8 + row.val % 8, _⟩
      (x3 (ix3 (n0 := 200) (n1 := 128) (n2 := 128) ⟨row.val / 2048, _⟩ ⟨row.val % 1024 / 8, _⟩ ⟨c.val, _⟩)) = _
  rw [e1, e2, e3]

/-- AFTER THE CALL: `outLinSpec` of an operand, reshaped to `[200, 2, 128, 8, 128]`, transposed by
    `[2, 4, 0, 1, 3]` and reshaped to `[16384, 200, 16]`, holds at `[n, d, i]` bit lane `i` of the operand at
    `[d, n / 128, n % 128]`. -/
theorem result_eq (x3 : SX3.Idx → EReal) (h3 : SLin.ShapeCasts SLin5) (h4 : SLin5.Transposes [2, 4, 0, 1, 3] SOut5)
    (h5 : SOut5.ShapeCasts SOut) (n : Fin 16384) (d : Fin 200) (i : Fin 16) :
    shapeCast SOut (transpose SOut5 [2, 4, 0, 1, 3] (shapeCast SLin5 (outLinSpec x3) h3) h4) h5 (ix3 n d i)
      = gcVal i (x3 (ix3 d ⟨n.val / 128, by have := n.isLt; omega⟩ ⟨n.val % 128, Nat.mod_lt _ (by decide)⟩)) := by
  have hn := n.isLt; have hd := d.isLt; have hi := i.isLt
  -- the coordinates of the element in the two five-axis arrangements
  let A : Fin 128 := ⟨n.val / 128, by omega⟩
  let c : Fin 128 := ⟨n.val % 128, Nat.mod_lt _ (by decide)⟩
  let h : Fin 2 := ⟨i.val / 8, by omega⟩
  let r : Fin 8 := ⟨i.val % 8, Nat.mod_lt _ (by decide)⟩
  let row : Fin 409600 := ⟨((d.val * 2 + h.val) * 128 + A.val) * 8 + r.val, by
    show ((d.val * 2 + i.val / 8) * 128 + n.val / 128) * 8 + i.val % 8 < 409600; omega⟩
  refine (shapeCast_apply _ h5 (ix3 n d i) (ix5 A c d h r) ?_).trans ?_
  · rewrite [Shape.rowMajor_val_five, Shape.rowMajor_val_three]
    show ((((n.val / 128) * 128 + n.val % 128) * 200 + d.val) * 2 + i.val / 8) * 8 + i.val % 8
      = (n.val * 200 + d.val) * 16 + i.val
    omega
  refine (transpose_apply [2, 4, 0, 1, 3] _ h4 (ix5 A c d h r) (ix5 d h A r c) (fun b => ?_)).trans ?_
  · match b with
    | ⟨0, _⟩ => rfl
    | ⟨1, _⟩ => rfl
    | ⟨2, _⟩ => rfl
    | ⟨3, _⟩ => rfl
    | ⟨4, _⟩ => rfl
  refine (shapeCast_apply (outLinSpec x3) h3 (ix5 d h A r c) (ix2 row c) ?_).trans ?_
  · rewrite [Shape.rowMajor_val_two, Shape.rowMajor_val_five]
    rfl
  rw [outLinSpec_at x3 d h A r c row rfl]
  have e : (⟨h.val * 8 + r.val, by have := h.isLt; have := r.isLt; omega⟩ : Fin 16) = i :=
    Fin.ext (by show i.val / 8 * 8 + i.val % 8 = i.val; omega)
  rw [e]

/-- THE HOST GLUE: the program's three trailing host operations applied to `outLinSpec` of its two leading ones
    applied to the argument are `outSpec` of the argument. -/
theorem host_glue (x : SX.Idx → EReal) (h1 : SX.ShapeCasts SXg) (h2 : SXg.Transposes [2, 0, 1] SX3)
    (h3 : SLin.ShapeCasts SLin5) (h4 : SLin5.Transposes [2, 4, 0, 1, 3] SOut5) (h5 : SOut5.ShapeCasts SOut) :
    shapeCast SOut (transpose SOut5 [2, 4, 0, 1, 3]
        (shapeCast SLin5 (outLinSpec (transpose SX3 [2, 0, 1] (shapeCast SXg x h1) h2)) h3) h4) h5
      = outSpec x := by
  funext j
  obtain ⟨n, d, i, rfl⟩ : ∃ (n : Fin 16384) (d : Fin 200) (i : Fin 16), j = ix3 n d i := ⟨j 0, j 1, j 2, eq_ix3 j⟩
  have hn := n.isLt
  rw [operand_eq x h1 h2, result_eq (x3Of x) h3 h4 h5 n d i]
  show gcVal i (x (ix3 (n0 := 16384) (n1 := 200) (n2 := 1) ⟨n.val / 128 * 128 + n.val % 128, _⟩ ⟨d.val, _⟩ ⟨0, _⟩))
    = gcVal i (x (ix3 n d ⟨0, Nat.one_pos⟩))
  have e : (⟨n.val / 128 * 128 + n.val % 128, by omega⟩ : Fin 16384) = n := Fin.ext (by show n.val / 128 * 128 + n.val % 128 = n.val; omega)
  rw [e]

end Cert.Gray

end
-- ==== Proof.Bridge.lean ====
/-
  The kernel side's value meets the specification: the vector-level composition of the body's arithmetic is
  `gcVal` lane by lane, the array the accelerator call leaves is `outLinSpec` of its operand, and the
  program's host operations around the call, over the program's own shape names and stated shape relations,
  turn it into `outSpec` of the argument.
-/
import proofs.«209186_g8847632630064_cont_9to1c4b_396_28_alg».proof.Proof.Common
import proofs.«209186_g8847632630064_cont_9to1c4b_396_28_alg».proof.Proof.HostGlue

noncomputable section

namespace Cert.Gray

open Idealize.ShloMosaic Idealize.ShloMosaic.ValueIdx Cert.KernelIdeal Cert.KernelIdeal.Hand

/-- The word `2^i` is the word with only bit `i` set. -/
theorem ofNat_two_pow (i : Nat) : BitVec.ofNat 32 (2 ^ i) = BitVec.twoPow 32 i :=
  BitVec.eq_of_toNat_eq (by rw [BitVec.toNat_ofNat, BitVec.toNat_twoPow])

/-- The body's arithmetic on a 16-lane vector is the specification's element, lane by lane. -/
theorem gcVec_at (i : Fin 16) (xv : Vec Ideal S16 .f32) (l : S16.Idx) :
    gcVec (F := Ideal) i xv l = gcVal i (xv l) := by
  show Scalar.select (IntOp.cmpi .ne (IntOp.andi (gray (xv l)) (BitVec.ofNat 32 (2 ^ i.val))) 0#32) (scale (xv l))
      (Ideal.ofBits .f32 0x00000000#32) = _
  rw [ofNat_two_pow]
  rfl

/-- The array the call leaves, stated vector by vector, is the specification's, stated element by element:
    column `c` is lane `c % 16` of the vector at columns `c / 16 · 16 ..`. -/
theorem outLinF_eq (X : (⟨S200x128x128, .f32⟩ : BufTy).Contents (Elt Ideal)) :
    outLinF (F := Ideal) X = outLinSpec X := by
  funext j
  have hc : (j 1).val < 128 := (j 1).isLt
  unfold outLinF
  rw [gcVec_at]
  have e : (⟨(j 1).val / 16 * 16 + (j 1).val % 16, by omega⟩ : Fin 128) = ⟨(j 1).val, hc⟩ :=
    Fin.ext (by show (j 1).val / 16 * 16 + (j 1).val % 16 = (j 1).val; omega)
  show gcVal _ (X (ix3 (n0 := 200) (n1 := 128) (n2 := 128) _ _ ⟨(j 1).val / 16 * 16 + (j 1).val % 16, _⟩)) = _
  rw [e]
  rfl

variable [Cert.KernelIdeal.Facts]

open Cert.KernelIdeal.Facts₀ in
/-- THE KERNEL'S HOST GLUE: the program's reshape and two-step relayout of what the call leaves, applied to the call's
    value of the program's reshape and transpose of the argument, is `outSpec` of the argument. -/
theorem kernel_glue (x : (⟨S16384x200x1, .f32⟩ : BufTy).Contents (Elt Ideal)) :
    shapeCast S16384x200x16 (transpose S128x128x200x2x8 [2, 4, 0, 1, 3]
        (shapeCast S200x2x128x8x128 (outLinF (F := Ideal)
          (transpose S200x128x128 [2, 0, 1] (shapeCast S128x128x200 x shapeCasts_S16384x200x1_S128x128x200)
            transposes_S128x128x200_S200x128x128_2_0_1)) shapeCasts_S409600x128_S200x2x128x8x128)
        transposes_S200x2x128x8x128_S128x128x200x2x8_2_4_0_1_3) shapeCasts_S128x128x200x2x8_S16384x200x16
      = outSpec x := by
  rw [outLinF_eq]
  exact host_glue x _ _ _ _ _

end Cert.Gray

end
-- ==== Proof.GrayLaw.lean ====
/-
  The scalar mathematics of the Gray-code kernel: on an input in `[0, 1]` the reference's
  element — clip of the floor, shift by the bit index, mask with one, convert, multiply by the
  amplitude — is `gcVal`, the element the specification names. No program is imported here.
-/
import proofs.«209186_g8847632630064_cont_9to1c4b_396_28_alg».proof.Proof.Spec
import Idealize.ShloMosaic.PureOps.Ideal.Laws

noncomputable section

namespace Cert.Gray

open Idealize.ShloMosaic Idealize.ShloMosaic.ValueIdx

/-! ## The literals -/

/-- The float pattern `0x477FFF00` is the real 65535. -/
theorem ofBits_levels : Ideal.ofBits .f32 0x477FFF00#32 = ((65535 : ℝ) : EReal) := by
  simp [Ideal.ofBits, Ideal.ieee, -EReal.coe_mul]; norm_num

/-! ## The level: floor and clip against truncation -/

/-- On `[0, 1]` the clipped floor of `x · 65535` converts to the same integer as `x · 65535` itself:
    the floor of a non-negative real is its truncation, it lies in `[0, 65535]` so the clip is the
    identity, and an integer converts to itself. -/
theorem level_clip (r : ℝ) (h0 : 0 ≤ r) (h1 : r ≤ 1) :
    Ideal.fptosi 32 (min (((65535#32 : BitVec 32).toInt : ℝ) : EReal)
        (max (((0#32 : BitVec 32).toInt : ℝ) : EReal)
          (Ideal.liftRound Int.floor ((r : EReal) * Ideal.ofBits .f32 0x477FFF00#32))))
      = level (r : EReal) := by
  unfold level
  rw [ofBits_levels, ← EReal.coe_mul, Ideal.liftRound_coe]
  have hp : (0 : ℝ) ≤ r * 65535 := by positivity
  have hn0 : (0 : ℤ) ≤ ⌊r * 65535⌋ := Int.floor_nonneg.mpr hp
  have hn1 : ⌊r * 65535⌋ ≤ (65535 : ℤ) := by
    have h : ((⌊r * 65535⌋ : ℤ) : ℝ) ≤ 65535 := le_trans (Int.floor_le _) (by nlinarith)
    exact_mod_cast h
  have e0 : ((0#32 : BitVec 32).toInt : ℝ) = 0 := by norm_num [BitVec.toInt_zero]
  have e1 : ((65535#32 : BitVec 32).toInt : ℝ) = 65535 := by
    have : (65535#32 : BitVec 32).toInt = 65535 := by decide
    rw [this]; norm_num
  rw [e0, e1, max_eq_right (EReal.coe_le_coe_iff.mpr (by exact_mod_cast hn0)),
    min_eq_right (EReal.coe_le_coe_iff.mpr (by exact_mod_cast hn1))]
  unfold Ideal.fptosi
  rw [Ideal.toIntClamped_coe, Ideal.toIntClamped_coe, if_pos hp,
    if_pos (by exact_mod_cast hn0 : (0 : ℝ) ≤ ((⌊r * 65535⌋ : ℤ) : ℝ)), Int.floor_intCast]

/-! ## The shifts -/

/-- A host arithmetic shift by one is the vector unit's. -/
theorem shrsi_host_one (q : BitVec 32) : IntOp.shrsi .host q 1#32 = IntOp.shrsi .vector q 1#32 := by
  unfold IntOp.shrsi
  rw [if_pos (by decide), if_pos (by decide)]

/-- A host arithmetic shift by a bit index below 16 is the plain arithmetic shift. -/
theorem shrsi_host_index (g : BitVec 32) (i : Fin 16) :
    IntOp.shrsi .host g (BitVec.ofNat 32 i.val) = g.sshiftRight i.val := by
  have hi : (BitVec.ofNat 32 i.val).toNat = i.val := by
    rw [BitVec.toNat_ofNat]; exact Nat.mod_eq_of_lt (by have := i.isLt; omega)
  unfold IntOp.shrsi
  rw [if_pos (by rw [hi]; have := i.isLt; omega), BitVec.sshiftRight_eq', hi]

/-! ## The bit test: shift-and-mask-with-one against mask-with-a-power-of-two -/

/-- Bit `i` of a word, read two ways: the word shifted right by `i`, masked with one, converted
    and multiplied into `s`; and `s` selected where the word masked with `2^i` is not zero. -/
theorem bit_select (g : BitVec 32) (i : Fin 16) (s : EReal) :
    ((((IntOp.andi (g.sshiftRight i.val) 1#32).toInt : ℝ) : EReal)) * s
      = Scalar.select (IntOp.cmpi .ne (IntOp.andi g (BitVec.twoPow 32 i.val)) 0#32) s 0 := by
  have hi : i.val < 32 := by have := i.isLt; omega
  have hb : (g.sshiftRight i.val).getLsbD 0 = g.getLsbD i.val := by
    rw [BitVec.getLsbD_sshiftRight]
    simp [hi]
  unfold IntOp.andi IntOp.cmpi
  rw [BitVec.and_one_eq_setWidth_ofBool_getLsbD, hb, BitVec.and_twoPow]
  cases hg : g.getLsbD i.val
  · -- the bit is clear: the masked words are zero
    have e : (BitVec.setWidth 32 (BitVec.ofBool false)).toInt = 0 := by decide
    rw [e]
    simp [Scalar.select]
  · -- the bit is set: the shifted word masks to one, and `2^i` is not zero
    have e : (BitVec.setWidth 32 (BitVec.ofBool true)).toInt = 1 := by decide
    have hne : (BitVec.twoPow 32 i.val != 0#32) = true := by
      rw [bne_iff_ne]
      intro h
      have := congrArg (fun v => v.getLsbD i.val) h
      simp [BitVec.getLsbD_twoPow, hi] at this
    rw [e]
    simp only [if_true, hne]
    simp [Scalar.select]

/-! ## The reference's element -/

/-- The reference's element at bit lane `i` of input `x`, as the reference computes it. -/
def refVal (i : Fin 16) (x : EReal) : EReal :=
  let q : BitVec 32 := Ideal.fptosi 32 (min (((65535#32 : BitVec 32).toInt : ℝ) : EReal)
    (max (((0#32 : BitVec 32).toInt : ℝ) : EReal) (Ideal.liftRound Int.floor (x * Ideal.ofBits .f32 0x477FFF00#32))))
  let g : BitVec 32 := IntOp.xori q (IntOp.shrsi .host q 1#32)
  (((IntOp.andi (IntOp.shrsi .host g (BitVec.ofNat 32 i.val)) 1#32).toInt : ℝ) : EReal)
    * (Ideal.ofBits .f32 0x3F800000#32 + x * Ideal.ofBits .f32 0x3DCCCCCD#32)

/-- On `[0, 1]` the reference's element is the specification's. -/
theorem refVal_eq (i : Fin 16) (r : ℝ) (h0 : 0 ≤ r) (h1 : r ≤ 1) : refVal i (r : EReal) = gcVal i (r : EReal) := by
  unfold refVal gcVal
  simp only []
  rw [level_clip r h0 h1, shrsi_host_one, shrsi_host_index, bit_select]
  unfold gray scale
  rw [Ideal.ofBits_zero_f32, add_comm]

end Cert.Gray

end
-- ==== Proof.RefValue.lean ====
/-
  The reference program's result, index by index: under the decoded precondition (every entry of
  the argument a real in `[0, 1]`) the reference's composed term is `outSpec` of the argument.
  The reads of the reference's operations at an index are the generated ones; what is proved
  here is that its reshapes and broadcasts read the argument at `[n, d, 0]` and the bit index
  at `i`, and then the scalar law of the Gray code.
-/
import proofs.«209186_g8847632630064_cont_9to1c4b_396_28_alg».proof.Proof.Gen.ReferenceIdeal.Read
import proofs.«209186_g8847632630064_cont_9to1c4b_396_28_alg».proof.Proof.GrayLaw

noncomputable section

namespace Cert.Gray

open Idealize.ShloMosaic Idealize.ShloMosaic.ValueIdx Cert.ReferenceIdeal Cert.ReferenceIdeal.Read

variable [Cert.ReferenceIdeal.Facts]

/-- The reference's flattening, clip and bit broadcasts read the argument at `[n, d, 0]`. -/
theorem ref_idx_level (n : Fin 16384) (d : Fin 200) (i : Fin 16) :
    idx_main_v0 (idx_main_v1 (idx_main_v11 (idx_main_v13 (idx_main_v26 (ix3 n d i))))) = ix3 n d ⟨0, Nat.one_pos⟩ := by
  funext a
  refine Fin.ext ?_
  have hn := n.isLt; have hd := d.isLt; have hi := i.isLt
  match a with
  | ⟨0, _⟩ => show ((((n.val * 200 + d.val) * 16 + i.val) / 16) / 1 * 1 + 0) / 200 = n.val; omega
  | ⟨1, _⟩ => show ((((n.val * 200 + d.val) * 16 + i.val) / 16) / 1 * 1 + 0) / 1 % 200 = d.val; omega
  | ⟨2, _⟩ => rfl

/-- The amplitude's broadcast reads the argument at `[n, d, 0]` too. -/
theorem ref_idx_scale (n : Fin 16384) (d : Fin 200) (i : Fin 16) :
    idx_main_v0 (idx_main_v19 (idx_main_v20 (idx_main_v26 (ix3 n d i)))) = ix3 n d ⟨0, Nat.one_pos⟩ := by
  funext a
  refine Fin.ext ?_
  have hn := n.isLt; have hd := d.isLt; have hi := i.isLt
  match a with
  | ⟨0, _⟩ =>
    show ((((((n.val * 200 + d.val) * 16 + i.val) / 16) * 16 + (((n.val * 200 + d.val) * 16 + i.val) % 16)) / 16) * 1 + 0) / 200 = n.val
    omega
  | ⟨1, _⟩ =>
    show ((((((n.val * 200 + d.val) * 16 + i.val) / 16) * 16 + (((n.val * 200 + d.val) * 16 + i.val) % 16)) / 16) * 1 + 0) / 1 % 200 = d.val
    omega
  | ⟨2, _⟩ => rfl

/-- THE REFERENCE IS THE SPECIFICATION: on an argument with every entry in `[0, 1]`, the reference's
    result is `outSpec` of the argument. -/
theorem reference_eq (x : (⟨S16384x200x1, .f32⟩ : BufTy).Contents (Elt Ideal))
    (hx : ∀ idx, ∃ r : ℝ, x idx = (r : EReal) ∧ 0 ≤ r ∧ r ≤ 1) :
    val_main_v26 (F := Ideal) x = outSpec x := by
  funext j
  obtain ⟨n, d, i, rfl⟩ : ∃ (n : Fin 16384) (d : Fin 200) (i : Fin 16), j = ix3 n d i := ⟨j 0, j 1, j 2, eq_ix3 j⟩
  simp only [val_main_v26_apply, val_main_v25_apply, val_main_v24_apply, val_main_v23_apply, val_main_cst_4_apply,
    val_main_v22_apply, val_main_v21_apply, val_main_cst_3_apply, val_main_v20_apply, val_main_v19_apply,
    val_main_v18_apply, val_main_v17_apply, val_main_v16_apply, val_main_c_2_apply, val_main_v15_apply,
    val_main_v14_apply, val_main_v13_apply, val_main_v12_apply, val_main_v11_apply, val_main_v10_apply,
    val_main_v9_apply, val_main_v8_apply, val_main_v7_apply, val_main_c_1_apply, val_main_v6_apply,
    val_main_v5_apply, val_main_call0_v4_apply, val_main_call0_v3_apply, val_main_c_0_apply,
    val_main_call0_v2_apply, val_main_call0_v1_apply, val_main_call0_v0_apply, val_main_c_apply,
    val_main_v4_apply, val_main_v3_apply, val_main_v2_apply, val_main_cst_apply, val_main_v1_apply,
    val_main_v0_apply, ref_idx_level, ref_idx_scale]
  obtain ⟨r, hr, h0, h1⟩ := hx (ix3 n d ⟨0, Nat.one_pos⟩)
  have hn := n.isLt; have hd := d.isLt; have hi := i.isLt
  show FloatOps.mulf (FloatOps.sitofp .f32 (IntOp.andi (IntOp.shrsi .host _
      (BitVec.ofNat 32 (((n.val * 200 + d.val) * 16 + i.val) % 16))) 1#32)) _ = _
  rw [show ((n.val * 200 + d.val) * 16 + i.val) % 16 = i.val from by omega]
  show refVal i (x (ix3 n d ⟨0, Nat.one_pos⟩)) = gcVal i (x (ix3 n d ⟨0, Nat.one_pos⟩))
  rw [hr]
  exact refVal_eq i r h0 h1

end Cert.Gray

end
-- ==== Proof.PreDecode.lean ====
/-
  The precondition read back: when the printed predicate — every entry finite, at least zero and
  at most one — answers true, every entry of the argument is a real number in `[0, 1]`.
-/
import proofs.«209186_g8847632630064_cont_9to1c4b_396_28_alg».proof.Pre_finite_inputs
import Idealize.ShloMosaic.Lib.ReduceAll
import Idealize.ShloMosaic.Lib.ValueIdx
import Idealize.ShloMosaic.Lib.IdealHost
import Idealize.ShloMosaic.PureOps.Ideal.Laws

noncomputable section

namespace Cert.Gray

open Idealize.ShloMosaic Idealize.ShloMosaic.ValueIdx

/-- The scalar shape has one index. -/
instance subsingleton_scalar_idx : Subsingleton Cert.Pre_finite_inputs.S_.Idx :=
  ⟨fun a b => funext fun d => d.elim0⟩

/-- An ordered "at least" comparison that answers true says so on the extended reals. -/
theorem cmp_oge_eq_one {a b : EReal} (h : Ideal.cmp .oge a b = 1#1) : b ≤ a := by
  unfold Ideal.cmp at h
  by_contra hn
  simp [hn] at h

/-- An ordered "at most" comparison that answers true says so on the extended reals. -/
theorem cmp_ole_eq_one {a b : EReal} (h : Ideal.cmp .ole a b = 1#1) : a ≤ b := by
  unfold Ideal.cmp at h
  by_contra hn
  simp [hn] at h

/-- Under the precondition every entry of the argument is a real number between zero and one. -/
theorem pre_decode [Cert.Pre_finite_inputs.Facts] (x : FVec Ideal Cert.Pre_finite_inputs.S16384x200x1 .f32)
    (h : Cert.Pre_finite_inputs.fn (F := Ideal) x = fun _ => 1#1) (idx : Cert.Pre_finite_inputs.S16384x200x1.Idx) :
    ∃ r : ℝ, x idx = (r : EReal) ∧ 0 ≤ r ∧ r ≤ 1 := by
  have h0 := congrFun h ix0
  dsimp only [Cert.Pre_finite_inputs.fn] at h0
  obtain ⟨h12, h3⟩ := IntOp.andi_eq_one.1 h0
  obtain ⟨_, h2⟩ := IntOp.andi_eq_one.1 h12
  have f2 := Host.reduce_andi_all _ _ _ _ _ h2 idx
  have f3 := Host.reduce_andi_all _ _ _ _ _ h3 idx
  have e2 : Ideal.cmp .oge (x idx) (Ideal.ofBits .f32 0x00000000#32) = 1#1 := f2
  have e3 : Ideal.cmp .ole (x idx) (Ideal.ofBits .f32 0x3F800000#32) = 1#1 := f3
  have g2 := cmp_oge_eq_one e2
  have g3 := cmp_ole_eq_one e3
  rw [Ideal.ofBits_zero_f32] at g2
  rw [Ideal.ofBits_one_f32] at g3
  induction hx : x idx using EReal.rec with
  | bot => rw [hx] at g2; exact absurd g2 (by simp)
  | top =>
    rw [hx] at g3
    exact absurd g3 (not_le.mpr (by rw [← EReal.coe_one]; exact EReal.coe_lt_top 1))
  | coe r =>
    rw [hx] at g2 g3
    exact ⟨r, rfl, EReal.coe_nonneg.mp g2, by
      rw [← EReal.coe_one] at g3; exact EReal.coe_le_coe_iff.mp g3⟩

end Cert.Gray

end
-- ==== Proof.Claims.lean ====
/-
  The claims about the idealized kernel and the reference, from the tile's task: each program runs and keeps its
  argument, and from memories agreeing on the argument both end with the same result — the specification's value of
  the argument, which the kernel's run reaches through its host operations around the call and the reference's
  through its own forty operations.
-/
import proofs.«209186_g8847632630064_cont_9to1c4b_396_28_alg».proof.Proof.Launch
import proofs.«209186_g8847632630064_cont_9to1c4b_396_28_alg».proof.Proof.Bridge
import proofs.«209186_g8847632630064_cont_9to1c4b_396_28_alg».proof.Proof.RefValue
import proofs.«209186_g8847632630064_cont_9to1c4b_396_28_alg».proof.Proof.PreDecode
import proofs.«209186_g8847632630064_cont_9to1c4b_396_28_alg».proof.Proof.Gen.ReferenceIdeal
import proofs.«209186_g8847632630064_cont_9to1c4b_396_28_alg».proof.Proof.Gen.ReferenceIdeal.Run
import proofs.«209186_g8847632630064_cont_9to1c4b_396_28_alg».proof.Proof.Gen.ReferenceIdeal.Read
import proofs.«209186_g8847632630064_cont_9to1c4b_396_28_alg».proof.Proof.Gen.Pre_finite_inputs

noncomputable section

namespace Cert.Proof.Claims

open Idealize.ShloMosaic Idealize.SL.Sem
open Cert.KernelIdeal.Hand

/-- The idealized kernel runs and keeps its argument. -/
theorem frame_KernelIdeal (hbody : ∀ X, TileBody (F := Ideal) X) : Cert.frame_KernelIdeal := fun m ρ _ =>
  (θ_run Cert.KernelIdeal.defs _ _).mono (fun _ h c => (h c).2) (run_main (F := Ideal) m ρ (hbody _))

/-- The reference runs and keeps its argument. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- Both end with the specification's value of the argument. -/
theorem algebraic (hbody : ∀ X, TileBody (F := Ideal) X) : Cert.algebraic_KernelIdeal_ReferenceIdeal := fun m ρ m' ρ' hpre hag =>
  ⟨fun c => Cert.Gray.outSpec (m ((c.tc : Thread Cert.KernelIdeal.nD Cert.KernelIdeal.τ).loc Cert.KernelIdeal.main_arg0)),
    (θ_run Cert.KernelIdeal.defs _ _).mono
      (fun _ h c => ⟨(h c).1.trans (Cert.Gray.kernel_glue _), (h c).2⟩)
      (run_main (F := Ideal) m ρ (hbody _)),
    (θ_run Cert.ReferenceIdeal.defs _ _).mono
      (fun _ h c => ⟨((h c).1.trans (Cert.ReferenceIdeal.Read.val_main_v26_eq _)).trans
          ((Cert.Gray.reference_eq _ (hag c ▸ Cert.Gray.pre_decode _ (hpre c))).trans (congrArg Cert.Gray.outSpec (hag c))), (h c).2⟩)
      (Cert.ReferenceIdeal.Value.run (F := Ideal) m' ρ')⟩

end Cert.Proof.Claims

end
-- ==== Proof.HostOpsK.lean ====
/-
  The TensorCore's side of the program: its seven arrays held whole, the five host operations around the
  accelerator call as operations over those arrays, the arrays' contents after each stretch of them as pure
  terms of the launch memory, and how the final memory is read back.
-/
import proofs.«209186_g8847632630064_cont_9to1c4b_396_28_alg».proof.Proof.CommonK
import Idealize.ShloMosaic.Lib.StableHlo.Run

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop shareTokN)
open Idealize.ShloMosaic.ValueIdx
open Idealize.ShloMosaic.StableHlo (held held_split held_sdiff_result wp_hlo_within)

variable {F : FTy → Type} [FloatOps F]

local notation "𝕄" => MT nD τ sig (HIx 1) (Elt F) ℕ UU ℕ

/-! ## The TensorCore's arrays -/

abbrev a0' : DevRef τ sig := Proc.devRef .tc (main_arg0 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)

/-- The TensorCore's arrays, all unscoped: the argument, the five host results and the call's result. -/
abbrev S7 : Finset (DevRef τ sig) := {a0', v0', v1', v2', v3', v4', v5'}

/-! ## The host operations, as the program prints them -/

abbrev op1 : HloOp τ sig (Elt F) := StableHlo.reshape main_arg0 main_v0 rfl Facts₀.shapeCasts_S16384x200x1_S128x128x200
abbrev op2 : HloOp τ sig (Elt F) :=
  StableHlo.unary main_v0 main_v1 ((transpose S200x128x128 [2, 0, 1] · Facts₀.transposes_S128x128x200_S200x128x128_2_0_1) : (⟨S128x128x200, .f32⟩ : BufTy).Contents (Elt F) → (⟨S200x128x128, .f32⟩ : BufTy).Contents (Elt F))
abbrev op3 : HloOp τ sig (Elt F) := StableHlo.reshape main_v2 main_v3 rfl Facts₀.shapeCasts_S409600x128_S200x2x128x8x128
abbrev op4 : HloOp τ sig (Elt F) :=
  StableHlo.unary main_v3 main_v4 ((transpose S128x128x200x2x8 [2, 4, 0, 1, 3] · Facts₀.transposes_S200x2x128x8x128_S128x128x200x2x8_2_4_0_1_3) : (⟨S200x2x128x8x128, .f32⟩ : BufTy).Contents (Elt F) → (⟨S128x128x200x2x8, .f32⟩ : BufTy).Contents (Elt F))
abbrev op5 : HloOp τ sig (Elt F) := StableHlo.reshape main_v4 main_v5 rfl Facts₀.shapeCasts_S128x128x200x2x8_S16384x200x16

theorem hop1 : (op1 (F := F)).bufs ⊆ S7 := show ({a0', v0'} : Finset (DevRef τ sig)) ⊆ S7 by decide
theorem hop2 : (op2 (F := F)).bufs ⊆ S7 := show ({v0', v1'} : Finset (DevRef τ sig)) ⊆ S7 by decide
theorem hop3 : (op3 (F := F)).bufs ⊆ S7 := show ({v2', v3'} : Finset (DevRef τ sig)) ⊆ S7 by decide
theorem hop4 : (op4 (F := F)).bufs ⊆ S7 := show ({v3', v4'} : Finset (DevRef τ sig)) ⊆ S7 by decide
theorem hop5 : (op5 (F := F)).bufs ⊆ S7 := show ({v4', v5'} : Finset (DevRef τ sig)) ⊆ S7 by decide

/-! ## The arrays held whole -/

omit [FloatOps F] in
theorem held_S7 (d : Dev nD) (W : Valuation τ sig (Elt F)) :
    (held (T d) S7 W : sProp 𝕄) = iprop(((SparseCore.T d).loc main_arg0 ↦{fullShare} W a0') ∗ ((SparseCore.T d).loc main_v0 ↦{fullShare} W v0')
      ∗ (x3Loc d ↦{fullShare} W v1') ∗ (oLoc d ↦{fullShare} W v2') ∗ ((SparseCore.T d).loc main_v3 ↦{fullShare} W v3')
      ∗ ((SparseCore.T d).loc main_v4 ↦{fullShare} W v4') ∗ (SparseCore.T d).loc main_v5 ↦{fullShare} W v5') := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide),
    bigSep_singleton]

omit [FloatOps F] in
theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_v0 ↦{fullShare} W main_v0)
      ∗ (x3Loc d ↦{fullShare} W main_v1) ∗ (oLoc d ↦{fullShare} W main_v2) ∗ ((SparseCore.T d).loc main_v3 ↦{fullShare} W main_v3)
      ∗ ((SparseCore.T d).loc main_v4 ↦{fullShare} W main_v4) ∗ (SparseCore.T d).loc main_v5 ↦{fullShare} W main_v5) := by
  unfold unscopedBufs
  rw [show (Finset.univ.filter fun b : Ref sig .tc => ¬ b.isScoped) = {main_arg0, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    bigSep_singleton]

variable (m : (ℓ : Loc nD τ sig) → Buf (Elt F) ℓ)

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = held (T d) S7 (V0 m d) := by
  rw [unscopedBufs_eq, held_S7]; rfl

/-! ## Before the call: the operand -/

/-- The call's operand as a pure term of the launch memory: the argument regrouped and transposed. -/
def Xof (d : Dev nD) : Buf (Elt F) (x3Loc d) :=
  transpose S200x128x128 [2, 0, 1]
    (shapeCast S128x128x200 (m ((SparseCore.T d).loc main_arg0)) Facts₀.shapeCasts_S16384x200x1_S128x128x200)
    Facts₀.transposes_S128x128x200_S200x128x128_2_0_1

/-- The arrays after the two leading operations. -/
def V2 (d : Dev nD) : Valuation τ sig (Elt F) := (op2 (F := F)).result ((op1 (F := F)).result (V0 m d))

theorem V2_v1 (d : Dev nD) : V2 m d v1' = Xof m d := by
  show StableHlo.after [op1 (F := F), op2 (F := F)] (V0 m d) (Proc.devRef .tc main_v1) = _
  after_results
  rfl

/-! ## The call: its result at the kernel's value -/

/-- The arrays after the call: the call's result at the kernel's value of the operand. -/
def V3 (d : Dev nD) : Valuation τ sig (Elt F) := Function.update (V2 m d) v2' (outLinF (Xof m d))

theorem V3_v2 (d : Dev nD) : V3 m d v2' = outLinF (Xof m d) := Function.update_self _ _ _
theorem V3_a0 (d : Dev nD) : V3 m d a0' = V2 m d a0' := Function.update_of_ne (show a0' ≠ v2' by decide) _ _
theorem V3_v0 (d : Dev nD) : V3 m d v0' = V2 m d v0' := Function.update_of_ne (show v0' ≠ v2' by decide) _ _
theorem V3_v1 (d : Dev nD) : V3 m d v1' = V2 m d v1' := Function.update_of_ne (show v1' ≠ v2' by decide) _ _
theorem V3_v3 (d : Dev nD) : V3 m d v3' = V2 m d v3' := Function.update_of_ne (show v3' ≠ v2' by decide) _ _
theorem V3_v4 (d : Dev nD) : V3 m d v4' = V2 m d v4' := Function.update_of_ne (show v4' ≠ v2' by decide) _ _
theorem V3_v5 (d : Dev nD) : V3 m d v5' = V2 m d v5' := Function.update_of_ne (show v5' ≠ v2' by decide) _ _

/-! ## After the call: the result -/

/-- The arrays after the three trailing operations. -/
def V6 (d : Dev nD) : Valuation τ sig (Elt F) :=
  (op5 (F := F)).result ((op4 (F := F)).result ((op3 (F := F)).result (V3 m d)))

/-- The program's result as a pure term of the launch memory. -/
def outFin (d : Dev nD) : Buf (Elt F) ((SparseCore.T d : Thread nD τ).loc main_v5) :=
  shapeCast S16384x200x16
    (transpose S128x128x200x2x8 [2, 4, 0, 1, 3]
      (shapeCast S200x2x128x8x128 (outLinF (Xof m d)) Facts₀.shapeCasts_S409600x128_S200x2x128x8x128)
      Facts₀.transposes_S200x2x128x8x128_S128x128x200x2x8_2_4_0_1_3)
    Facts₀.shapeCasts_S128x128x200x2x8_S16384x200x16

theorem V6_v5 (d : Dev nD) : V6 m d v5' = outFin m d := by
  show StableHlo.after [op3 (F := F), op4 (F := F), op5 (F := F)] (V3 m d) (Proc.devRef .tc main_v5) = _
  after_results
  rw [show V3 m d (Proc.devRef .tc main_v2) = outLinF (Xof m d) from V3_v2 m d]
  rfl

theorem V6_a0 (d : Dev nD) : V6 m d a0' = m ((SparseCore.T d).loc main_arg0) := by
  show StableHlo.after [op3 (F := F), op4 (F := F), op5 (F := F)] (V3 m d) (Proc.devRef .tc main_arg0) = _
  after_results
  rw [show V3 m d (Proc.devRef .tc main_arg0) = V2 m d a0' from V3_a0 m d]
  show StableHlo.after [op1 (F := F), op2 (F := F)] (V0 m d) (Proc.devRef .tc main_arg0) = _
  after_results
  rfl

/-! ## What @main leaves the claim, and how the final memory reads it -/

/-- What @main leaves: the argument at its launch contents and the result at its pure term. -/
abbrev FIN (d : Dev nD) : sProp 𝕄 :=
  iprop(((SparseCore.T d).loc main_arg0 ↦{fullShare} m ((SparseCore.T d).loc main_arg0)) ∗ (SparseCore.T d).loc main_v5 ↦{fullShare} outFin m d)

def fq (d : Dev nD) (s' : Phys nD τ sig (Elt F)) : Prop :=
  s'.mem.mem ((SparseCore.T d).loc main_v5) = outFin m d ∧ s'.mem.mem ((SparseCore.T d).loc main_arg0) = m ((SparseCore.T d).loc main_arg0)

theorem hfin (d : Dev nD) (s' : Phys nD τ sig (Elt F)) : iprop(FIN m d ∗ SI s') ⊢ (⌜fq m d s'⌝ : sProp 𝕄) := by
  iintro ⟨⟨Ha, Ho⟩, HSI⟩
  ihave H := (persistent_entails_right (SI_pointsTo_agree (st := s') (ℓ := (SparseCore.T d).loc main_arg0) (I := Finset.univ) (q := fullShare)
    (f := m ((SparseCore.T d).loc main_arg0)))) $$ [HSI Ha]
  · isplitl [HSI] <;> iassumption
  icases H with ⟨%h1, HSI, -⟩
  ihave H := (SI_pointsTo_agree (st := s') (ℓ := (SparseCore.T d).loc main_v5) (I := Finset.univ) (q := fullShare) (f := outFin m d)) $$ [HSI Ho]
  · isplitl [HSI] <;> iassumption
  icases H with %h2
  ipureintro; exact ⟨funext fun i => h2 i (Finset.mem_univ i), funext fun i => h1 i (Finset.mem_univ i)⟩

end Cert.Kernel.Hand

end
-- ==== Proof.LaunchK.lean ====
/-
  The launch: from the tile's task (a hypothesis here, proved in its own module) to the run of the whole program.
  @main reshapes and transposes its argument into x3, calls the kernel, and reshapes, transposes and reshapes the
  kernel's result o into its own result. Before the call the TensorCore cuts x3's full share into 32 read shares, one
  per tile, and o into the 12,800 slices of 32 rows, 400 per tile; after it, it puts them back together, o at the
  kernel's value.
-/
import proofs.«209186_g8847632630064_cont_9to1c4b_396_28_alg».proof.Proof.CommonK
import proofs.«209186_g8847632630064_cont_9to1c4b_396_28_alg».proof.Proof.HostOpsK

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (shareTok shareDrop shareTokN pointsTo_toks)
open Idealize.ShloMosaic.ValueIdx

variable {F : FTy → Type}

local notation "𝕄" => MT nD τ sig (HIx 1) (Elt F) ℕ UU ℕ

/-! ## Tiles and slices, counted -/

/-- The 32 tiles are the 2 × 16 pairs (SparseCore, vector subcore). -/
def tileEquiv : Fin 2 × Fin 16 ≃ Fin 32 where
  toFun p := widN p.1.val p.2.val
  invFun w := (⟨w.val % 2, Nat.mod_lt _ (by decide)⟩, ⟨w.val / 2, by have := w.isLt; omega⟩)
  left_inv p := by
    obtain ⟨c, s⟩ := p
    have hc := c.isLt; have hs := s.isLt
    apply Prod.ext <;> apply Fin.ext <;> simp only [widN] <;> omega
  right_inv w := by
    have hw := w.isLt
    apply Fin.ext; simp only [widN]; omega

/-- The 12,800 parts of o are the 32 × 200 × 2 triples (tile, plane, half). -/
def oEquiv : Fin 32 × (Fin 200 × Fin 2) ≃ Fin 12800 where
  toFun a := oIdx a.1 a.2.1 a.2.2
  invFun j := (⟨j.val % 32, Nat.mod_lt _ (by decide)⟩, ⟨j.val / 64, by have := j.isLt; omega⟩, ⟨j.val % 64 / 32, by omega⟩)
  left_inv a := by
    obtain ⟨w, d1, h⟩ := a
    have hw := w.isLt; have hd := d1.isLt; have hh := h.isLt
    refine Prod.ext (Fin.ext ?_) (Prod.ext (Fin.ext ?_) (Fin.ext ?_)) <;> simp only [oIdx] <;> omega
  right_inv j := by
    have hj := j.isLt
    apply Fin.ext; simp only [oIdx]; omega

abbrev partSet (j : Fin 12800) : Finset S409600x128.Idx :=
  ((oV : Memref sig .scVector .hbm S409600x128 .f32).view.slice (Rect.part (s := S409600x128) (a₀ := 0) hdivO j)).set

theorem partSet_eq (j : Fin 12800) : partSet j = (Rect.part (s := S409600x128) (a₀ := 0) hdivO j).set := by
  show ((View.whole (main_v2_scv : Ref sig .scVector)).slice (Rect.part (s := S409600x128) (a₀ := 0) hdivO j)).set = _
  rw [View.set_slice]; exact Finset.map_refl
theorem parts_disjoint : ∀ i ∈ (Finset.univ : Finset (Fin 12800)), ∀ j ∈ (Finset.univ : Finset (Fin 12800)), i ≠ j → Disjoint (partSet i) (partSet j) :=
  fun i _ j _ h => by rw [partSet_eq, partSet_eq]; exact Rect.part_disjoint hdivO h
theorem parts_cover : (Finset.univ : Finset (Fin 12800)).biUnion partSet = Finset.univ :=
  (Finset.biUnion_congr rfl fun i _ => partSet_eq i).trans (Rect.biUnion_part hdivO)

theorem oPts_parts (d : Dev nD) (f : Buf (Elt F) (oLoc d)) :
    (oLoc d ↦{fullShare} f : sProp 𝕄) = bigSep Finset.univ fun j : Fin 12800 => oLoc d ↦[partSet j]{fullShare} f := by
  rw [← pointsTo_biUnion Finset.univ (ℓ := oLoc d) partSet parts_disjoint, parts_cover]; try rfl

/-- o whole is the tiles' slices: per SparseCore, per vector subcore, per plane and half. -/
theorem oPts_tiles (d : Dev nD) (f : Buf (Elt F) (oLoc d)) :
    (oLoc d ↦{fullShare} f : sProp 𝕄)
      = bigSep Finset.univ fun c : Fin 2 => bigSep Finset.univ fun s : Fin 16 => bigSep Finset.univ fun p : Fin 200 × Fin 2 =>
          oLoc d ↦[oSet (widN c.val s.val) p.1 p.2]{fullShare} f :=
  calc (oLoc d ↦{fullShare} f : sProp 𝕄)
      = bigSep Finset.univ fun j : Fin 12800 => oLoc d ↦[partSet j]{fullShare} f := oPts_parts d f
    _ = bigSep Finset.univ fun a : Fin 32 × (Fin 200 × Fin 2) => oLoc d ↦[partSet (oEquiv a)]{fullShare} f :=
        bigSep_univ_equiv oEquiv (fun j : Fin 12800 => (oLoc d ↦[partSet j]{fullShare} f : sProp 𝕄))
    _ = bigSep Finset.univ fun w : Fin 32 => bigSep Finset.univ fun p : Fin 200 × Fin 2 => oLoc d ↦[partSet (oEquiv (w, p))]{fullShare} f :=
        bigSep_univ_prod (fun a : Fin 32 × (Fin 200 × Fin 2) => (oLoc d ↦[partSet (oEquiv a)]{fullShare} f : sProp 𝕄))
    _ = bigSep Finset.univ fun a : Fin 2 × Fin 16 => bigSep Finset.univ fun p : Fin 200 × Fin 2 => oLoc d ↦[partSet (oEquiv (tileEquiv a, p))]{fullShare} f :=
        bigSep_univ_equiv tileEquiv (fun w : Fin 32 => bigSep Finset.univ fun p : Fin 200 × Fin 2 => (oLoc d ↦[partSet (oEquiv (w, p))]{fullShare} f : sProp 𝕄))
    _ = bigSep Finset.univ fun c : Fin 2 => bigSep Finset.univ fun s : Fin 16 => bigSep Finset.univ fun p : Fin 200 × Fin 2 =>
          oLoc d ↦[oSet (widN c.val s.val) p.1 p.2]{fullShare} f :=
        bigSep_univ_prod (fun a : Fin 2 × Fin 16 => bigSep Finset.univ fun p : Fin 200 × Fin 2 => (oLoc d ↦[partSet (oEquiv (tileEquiv a, p))]{fullShare} f : sProp 𝕄))

/-- The 32 read shares of x3, per SparseCore and vector subcore. -/
theorem x3_toks_tiles (d : Dev nD) (f : Buf (Elt F) (x3Loc d)) :
    (bigSep Finset.univ fun w : Fin 32 => (x3Loc d ↦{shareTok fullShare 32 w} f : sProp 𝕄))
      = bigSep Finset.univ fun c : Fin 2 => bigSep Finset.univ fun s : Fin 16 => x3Loc d ↦{shareTok fullShare 32 (widN c.val s.val)} f :=
  (bigSep_univ_equiv tileEquiv (fun w : Fin 32 => (x3Loc d ↦{shareTok fullShare 32 w} f : sProp 𝕄))).trans
    (bigSep_univ_prod (fun a : Fin 2 × Fin 16 => (x3Loc d ↦{shareTok fullShare 32 (tileEquiv a)} f : sProp 𝕄)))

theorem bigSep2_sep (A B : Fin 2 → Fin 16 → sProp 𝕄) :
    (bigSep Finset.univ fun c : Fin 2 => bigSep Finset.univ fun s : Fin 16 => iprop(A c s ∗ B c s))
      = iprop((bigSep Finset.univ fun c : Fin 2 => bigSep Finset.univ fun s : Fin 16 => A c s)
          ∗ (bigSep Finset.univ fun c : Fin 2 => bigSep Finset.univ fun s : Fin 16 => B c s)) := by
  rw [← bigSep_sep']; exact bigSep_congr fun c _ => bigSep_sep' _ _ _

variable [FloatOps F]
variable (X : (d : Dev nD) → Buf (Elt F) (x3Loc d))

omit [FloatOps F] in
/-- The call's SparseCores are the device's two. -/
theorem bigSep_cores (Φ : Fin 2 → sProp 𝕄) : (bigSep Finset.univ fun c : Fin ((K (F := F)).nCore 0) => Φ c) = bigSep Finset.univ Φ := rfl

theorem st_all (d : Dev nD) :
    (bigSep Finset.univ fun c : Fin ((K (F := F)).nCore 0) => (P X).st 0 d c)
      = iprop((bigSep Finset.univ fun c : Fin 2 => bigSep Finset.univ fun s : Fin 16 => x3Loc d ↦{shareTok fullShare 32 (widN c.val s.val)} X d)
          ∗ (bigSep Finset.univ fun c : Fin 2 => bigSep Finset.univ fun s : Fin 16 => bigSep (Finset.univ : Finset (Fin 200 × Fin 2)) fun p =>
              iprop(∃ f, oLoc d ↦[oSet (widN c.val s.val) p.1 p.2]{fullShare} f))) :=
  ((bigSep_congr fun c _ => P_st X 0 d c).trans (bigSep_cores (fun c : Fin 2 => bigSep Finset.univ fun i : Fin 16 => tileGo X d (widN c.val i.val)))).trans
    (by unfold tileGo; exact bigSep2_sep _ _)
theorem dn_all (d : Dev nD) :
    (bigSep Finset.univ fun c : Fin ((K (F := F)).nCore 0) => (P X).dn 0 d c)
      = iprop((bigSep Finset.univ fun c : Fin 2 => bigSep Finset.univ fun s : Fin 16 => x3Loc d ↦{shareTok fullShare 32 (widN c.val s.val)} X d)
          ∗ (bigSep Finset.univ fun c : Fin 2 => bigSep Finset.univ fun s : Fin 16 => bigSep (Finset.univ : Finset (Fin 200 × Fin 2)) fun p =>
              oLoc d ↦[oSet (widN c.val s.val) p.1 p.2]{fullShare} (outLinF (X d)))) :=
  ((bigSep_congr fun c _ => P_dn X 0 d c).trans (bigSep_cores (fun c : Fin 2 => bigSep Finset.univ fun i : Fin 16 => tileTd X d (widN c.val i.val)))).trans
    (by unfold tileTd; exact bigSep2_sep _ _)

omit [FloatOps F] in
/-- Slices held at some contents are slices held. -/
theorem o_any (d : Dev nD) (f : Buf (Elt F) (oLoc d)) :
    (bigSep Finset.univ fun c : Fin 2 => bigSep Finset.univ fun s : Fin 16 => bigSep (Finset.univ : Finset (Fin 200 × Fin 2)) fun p =>
        (oLoc d ↦[oSet (widN c.val s.val) p.1 p.2]{fullShare} f : sProp 𝕄))
      ⊢ bigSep Finset.univ fun c : Fin 2 => bigSep Finset.univ fun s : Fin 16 => bigSep (Finset.univ : Finset (Fin 200 × Fin 2)) fun p =>
        iprop(∃ f, oLoc d ↦[oSet (widN c.val s.val) p.1 p.2]{fullShare} f) :=
  bigSep_mono fun c _ => bigSep_mono fun s _ => bigSep_mono fun p _ => exists_intro (Φ := fun f => (oLoc d ↦[oSet (widN c.val s.val) p.1 p.2]{fullShare} f : sProp 𝕄)) f

/-- Before the call: x3 whole and o whole are the remainder of x3's share and what the call hands the two SparseCores. -/
theorem st_intro (d : Dev nD) (f : Buf (Elt F) (oLoc d)) :
    iprop((x3Loc d ↦{fullShare} X d) ∗ (oLoc d ↦{fullShare} f))
      ⊢ iprop((x3Loc d ↦{shareDrop fullShare 32} X d) ∗ bigSep Finset.univ fun c : Fin ((K (F := F)).nCore 0) => (P X).st 0 d c) := by
  rw [st_all, ← x3_toks_tiles, oPts_tiles]
  iintro ⟨Hx, Ho⟩
  ihave Hx' := (pointsTo_toks fullShare 32).1 $$ Hx
  icases Hx' with ⟨Hd, Ht⟩
  isplitl [Hd]; · iexact Hd
  isplitl [Ht]; · iexact Ht
  iapply (o_any d f); iexact Ho

/-- After it: the remainder and what the SparseCores hand back are x3 whole and o whole at the kernel's value. -/
theorem dn_elim (d : Dev nD) :
    iprop((x3Loc d ↦{shareDrop fullShare 32} X d) ∗ bigSep Finset.univ fun c : Fin ((K (F := F)).nCore 0) => (P X).dn 0 d c)
      ⊢ iprop((x3Loc d ↦{fullShare} X d) ∗ (oLoc d ↦{fullShare} outLinF (X d))) := by
  rw [dn_all, ← x3_toks_tiles, ← oPts_tiles]
  iintro ⟨Hd, Ht, Ho⟩
  isplitl [Hd Ht]
  · iapply (pointsTo_toks fullShare 32).2
    isplitl [Hd] <;> iassumption
  · iexact Ho

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gc_kernel (coordsV c s)
          xV (Memref.isWhole_whole _) oV (Memref.isWhole_whole _) sX (Memref.isWhole_whole _) sO (Memref.isWhole_whole _)
          cc0_scratch2 cc0_scratch3 cc0_scratch4 cc0_scratch5 cc0_scratch6 cc0_scratch7 cc0_scratch8 cc0_scratch9 cc0_scratch10 cc0_scratch11) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hbody : TileBody X) : (K (F := F)).TileObl (D (F := F)) 𝒱 (P X) v₀ 0 := by
  intro d c i O W hO _ _
  -- this kernel owes nothing for a protocol of its own
  simp only [show (P X).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) O W hO).trans (wp_mono frame _ _ fun _ => obl_post)

theorem vecSplit : (K (F := F)).VecSplit' (P X) 0 := by
  intro d c
  show (bigSep Finset.univ fun i : Fin 16 => tileGo X d (widN c.val i.val)) ⊢ |={Set.univ}=> iprop(
      (bigSep Finset.univ fun i : Fin 16 => tileGo X d (widN c.val i.val))
      ∗ ((bigSep Finset.univ fun i : Fin 16 => tileTd X d (widN c.val i.val)) -∗ bigSep Finset.univ fun i : Fin 16 => tileTd X d (widN c.val i.val)))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X).x q thr) := by
  unfold u₀
  iintro Hu
  ihave H := (ownU_pair _ _) $$ Hu
  icases H with ⟨HH, -⟩
  imodintro
  isplitl [HH]; · iexact HH
  isplitr; · rw [bigSep_emp']; iempintro
  simp only [P_x]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

variable (m : (ℓ : Loc nD τ sig) → Buf (Elt F) ℓ) (ρ : Dev nD → PrngReg)

omit [FloatOps F] in
theorem pts_congr {ℓ : Loc nD τ sig} {f g : Buf (Elt F) ℓ} (h : f = g) : (ℓ ↦{fullShare} f : sProp 𝕄) ⊢ ℓ ↦{fullShare} g := by rw [h]

/-- @main on device `d`'s TensorCore: the reshape and the transpose into x3, the call (x3 cut into the tiles' read shares,
    o into their slices, and both put back), the reshape, transpose and reshape of o; the argument kept, the result at
    its value. -/
theorem hmain (κ : GSem nD τ sig → ℕ) (d : Dev nD) :
    iprop((K (F := F)).ctx EH (P (Xof m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the reshape and the transpose before the call
  iapply (wp_hlo_within 𝒱 (SparseCore.T d) none Set.univ (op := op1) (S := S7) hop1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S7) hop2 (V := (op1 (F := F)).result (V0 m d))) $$ [Hb Hheld]
  · isplitl [Hb]; · iexact Hb
    iexact Hheld
  iintro ⟨Hb, Hheld⟩
  rw [wp_ret]; imodintro
  ihave Hh := (Entails.of_eq (held_S7 (F := F) d ((op2 (F := F)).result ((op1 (F := F)).result (V0 m d))))) $$ Hheld
  icases Hh with ⟨Ha0, Hv0, Hx, Ho, Hv3, Hv4, Hv5⟩
  ihave Hx := (pts_congr (show (op2 (F := F)).result ((op1 (F := F)).result (V0 m d)) v1' = Xof m d from V2_v1 m d)) $$ Hx
  -- the call: x3's read shares and o's slices to the tiles and back
  ihave Hsplit := (st_intro (Xof m) d _) $$ [Hx Ho]
  · isplitl [Hx] <;> iassumption
  icases Hsplit with ⟨Hdrop, Hsts⟩
  iapply ((K (F := F)).wp_run (D (F := F)) 𝒱 (EH := EH) (P := P (Xof m)) κ d 0) $$ [Hst Hsts Hb Ha0 Hv0 Hv3 Hv4 Hv5 Hdrop]
  isplitr; · iexact Hctx
  isplitl [Hst]; · iexact Hst
  isplitl [Hsts]; · iexact Hsts
  iintro ⟨Hst, Hdn⟩
  ihave Hxo := (dn_elim (Xof m) d) $$ [Hdrop Hdn]
  · isplitl [Hdrop] <;> iassumption
  icases Hxo with ⟨Hx, Ho⟩
  -- the reshape, the transpose and the reshape after it
  iapply (wp_hlo_within 𝒱 (SparseCore.T d) none Set.univ (op := op3) (S := S7) hop3 (V := V3 m d)) $$ [Hb Ha0 Hv0 Hx Ho Hv3 Hv4 Hv5]
  · isplitl [Hb]; · iexact Hb
    rw [held_S7, V3_a0, V3_v0, V3_v1, V3_v2, V3_v3, V3_v4, V3_v5, V2_v1]
    unfold V2
    isplitl [Ha0]; · iexact Ha0
    isplitl [Hv0]; · iexact Hv0
    isplitl [Hx]; · iexact Hx
    isplitl [Ho]; · iexact Ho
    isplitl [Hv3]; · iexact Hv3
    isplitl [Hv4]; · iexact Hv4
    iexact Hv5
  iintro ⟨Hb, Hheld⟩
  rw [wp_ret]; imodintro
  iapply (wp_hlo_within 𝒱 (SparseCore.T d) none Set.univ (op := op4) (S := S7) hop4 (V := (op3 (F := F)).result (V3 m d))) $$ [Hb Hheld]
  · isplitl [Hb]; · iexact Hb
    iexact Hheld
  iintro ⟨Hb, Hheld⟩
  rw [wp_ret]; imodintro
  iapply (wp_hlo_within 𝒱 (SparseCore.T d) none Set.univ (op := op5) (S := S7) hop5 (V := (op4 (F := F)).result ((op3 (F := F)).result (V3 m d)))) $$ [Hb Hheld]
  · isplitl [Hb]; · iexact Hb
    iexact Hheld
  iintro ⟨Hb, Hheld⟩
  rw [wp_ret]; imodintro; imodintro
  ihave Hh := (Entails.of_eq (held_S7 (F := F) d ((op5 (F := F)).result ((op4 (F := F)).result ((op3 (F := F)).result (V3 m d)))))) $$ Hheld
  icases Hh with ⟨Ha0, -, -, -, -, -, Hv5⟩
  isplitl [Hst]; · iexact Hst
  isplitl [Ha0]
  · iapply (pts_congr (show (op5 (F := F)).result ((op4 (F := F)).result ((op3 (F := F)).result (V3 m d))) a0' = m ((SparseCore.T d).loc main_arg0) from V6_a0 m d)); iexact Ha0
  · iapply (pts_congr (show (op5 (F := F)).result ((op4 (F := F)).result ((op3 (F := F)).result (V3 m d))) v5' = outFin m d from V6_v5 m d)); iexact Hv5

/-! ## The program's run -/

/-- The result at its value — the three trailing host operations of the kernel's value of x3, x3 the two leading ones of
    the argument — and the argument unchanged. -/
def QC : PUnit × MemSt nD τ sig (Elt F) → Prop := fun r => ∀ c : Dev nD,
  r.2.mem ((SparseCore.T c).loc main_v5) = outFin m c ∧ r.2.mem ((SparseCore.T c).loc main_arg0) = m ((SparseCore.T c).loc main_arg0)

theorem run_main [∀ e, Nonempty (Elt F e)] (hbody : TileBody (Xof m)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (Xof m)) facts v₀
    (fun q hq => match q with | 0 => nomatch hq)
    (fun q _ => match q with | 0 => tileObl (Xof m) hbody)
    (fun q _ => match q with | 0 => SparseCore.Cfg.VecSplit.of_plain (vecSplit (Xof m)))
    m ρ main (fun _ => iprop(emp)) (FIN m) (u₀ (F := F)) (sep_elim_left.trans (hu₀ (Xof m))) (hmain m ρ) (fq m) (hfin m) (QC m) (fun _ h => h)

end Cert.Kernel.Hand

end
-- ==== Proof.ClaimsKernel.lean ====
/-
  The claim about the kernel as printed (floats as their bits): it runs and keeps its argument — the same launch and the
  same tile's task as for the idealized kernel, read at the word-level float instance.
-/
import proofs.«209186_g8847632630064_cont_9to1c4b_396_28_alg».proof.Proof.LaunchK
import proofs.«209186_g8847632630064_cont_9to1c4b_396_28_alg».proof.Proof.Gen.Pre_finite_inputs

noncomputable section

namespace Cert.Proof.ClaimsKernel

open Idealize.ShloMosaic Idealize.SL.Sem
open Cert.Kernel.Hand

/-- The kernel as printed runs and keeps its argument. -/
theorem frame_Kernel (hbody : ∀ X, TileBody (F := Bits) X) : Cert.frame_Kernel := fun m ρ _ =>
  (θ_run Cert.Kernel.defs _ _).mono (fun _ h c => (h c).2) (run_main (F := Bits) m ρ (hbody _))

end Cert.Proof.ClaimsKernel

end
-- ==== Proof.lean ====
/-
  The kernel writes, for every entry x of a [16384, 200, 1] array with 0 ≤ x ≤ 1, the sixteen bit planes of the reflected binary (Gray)
  code of the level ⌊65535·x⌋, each plane scaled by 1 + x·c (c the single-precision literal nearest to one tenth): with q the level
  and g = q xor (q >>> 1), output [n, d, i] is 1 + x·c when bit i of g is set and 0 otherwise. The reference computes the same planes as
  ((g >>> i) and 1), converted to a float, times 1 + x·c, after clipping ⌊65535·x⌋ to [0, 65535]: on 0 ≤ x ≤ 1 the clip is the identity
  and truncation is the floor, a product with the float 1 is the factor and a product with the float 0 is 0, and testing bit i of g
  through a mask or through a shift is the same test — so the two results are one function of x, index by index, over the extended
  reals (Spec, GrayLaw, RefValue, PreDecode).
  The kernel's side: @main lays x out as x3[d, a, b] = x[128·a + b, d]; thirty-two vector subcores (two cores of sixteen) each take four
  of the 128 rows a of every plane d, compute the sixteen bit planes sixteen lanes at a time into a staging buffer, and copy each
  staged half (eight bit planes of four rows) to its 32 rows of the linear result o[409600, 128]; @main then reads o as
  [d, h, a, r, b] and transposes it to [128·a + b, d, 8·h + r]. Every subcore owns its own rows of o and a read share of x3, so the
  subcores' writes are disjoint and their union is all of o; inside a subcore the input slots alternate between two groups of four
  planes (one being read while the next is fetched) and each of the four staging buffers is reused only after both of its outstanding
  copies have been waited for. The run of the whole program — every weakly fair interleaving of the TensorCore, the two sequencers and
  the thirty-two subcores terminates, faults nowhere, leaves x unchanged and leaves the result at that function of x — is proved once,
  for any float instance (InnerMath … TileBody for one subcore at a symbolic place, Launch for the program), and read at the word
  level for the frame of the printed kernel and at the extended reals for the frame and the value of its idealization (Claims,
  ClaimsKernel). The idealization rewrote no operation, so it preserves the kernel's meaning trivially.
-/
import proofs.«209186_g8847632630064_cont_9to1c4b_396_28_alg».proof.Defs
import proofs.«209186_g8847632630064_cont_9to1c4b_396_28_alg».proof.Proof.Gen.Kernel
import proofs.«209186_g8847632630064_cont_9to1c4b_396_28_alg».proof.Proof.Gen.Kernel.Skeleton
import proofs.«209186_g8847632630064_cont_9to1c4b_396_28_alg».proof.Proof.Gen.KernelIdeal
import proofs.«209186_g8847632630064_cont_9to1c4b_396_28_alg».proof.Proof.Gen.KernelIdeal.Skeleton
import proofs.«209186_g8847632630064_cont_9to1c4b_396_28_alg».proof.Proof.Gen.ReferenceIdeal
import proofs.«209186_g8847632630064_cont_9to1c4b_396_28_alg».proof.Proof.Gen.Pre_finite_inputs
import proofs.«209186_g8847632630064_cont_9to1c4b_396_28_alg».proof.Proof.Gen.ReferenceIdeal.Run
import proofs.«209186_g8847632630064_cont_9to1c4b_396_28_alg».proof.Proof.Gen.ReferenceIdeal.Read
import proofs.«209186_g8847632630064_cont_9to1c4b_396_28_alg».proof.Proof.TileBody
import proofs.«209186_g8847632630064_cont_9to1c4b_396_28_alg».proof.Proof.TileBodyK
import proofs.«209186_g8847632630064_cont_9to1c4b_396_28_alg».proof.Proof.Claims
import proofs.«209186_g8847632630064_cont_9to1c4b_396_28_alg».proof.Proof.ClaimsKernel
import Idealize.ShloMosaic.Adequacy
import Idealize.ShloMosaic.Init

noncomputable section

namespace Cert.Proof

open Idealize.ShloMosaic Idealize.SL.Sem

/-- The five claims: the three frames, the (empty) preservation ledger, and the equality of the two idealized results. One subcore's
    body obligation, proved at a symbolic place for any float instance, feeds the program's run at both instances. -/
theorem claim : Cert.Claim := ⟨Cert.Kernel.Gen.facts, Cert.KernelIdeal.Gen.facts, Cert.ReferenceIdeal.Gen.facts, Cert.Pre_finite_inputs.Gen.facts,
  Cert.Proof.ClaimsKernel.frame_Kernel (fun X => Cert.Kernel.Hand.tile_body X),
  Cert.Proof.Claims.frame_KernelIdeal (fun X => Cert.KernelIdeal.Hand.tile_body X),
  Cert.Proof.Claims.frame_ReferenceIdeal,
  trivial,
  Cert.Proof.Claims.algebraic (fun X => Cert.KernelIdeal.Hand.tile_body X)⟩

end Cert.Proof

end
